-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v24) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v683) = v0 c
          ∧ r.2.mem ((c.tc : Thread Cert.ReferenceIdeal.nD Cert.ReferenceIdeal.τ).loc Cert.ReferenceIdeal.main_v688) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S8x32x512 : Shape := ⟨3, ![8, 32, 512]⟩
abbrev S8x512 : Shape := ⟨2, ![8, 512]⟩
abbrev S8x512x512 : Shape := ⟨3, ![8, 512, 512]⟩
abbrev S8x512x32 : Shape := ⟨3, ![8, 512, 32]⟩
abbrev S8x32 : Shape := ⟨2, ![8, 32]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S8x32x512 : S_.BroadcastsInDim S8x32x512 (![] : Fin 0 → Fin S8x32x512.rank)
  reducesTo_S8x32x512_S_d0_1_2 : S8x32x512.ReducesTo [0, 1, 2] S_
  bcast_S_S8x512 : S_.BroadcastsInDim S8x512 (![] : Fin 0 → Fin S8x512.rank)
  reducesTo_S8x512_S_d0_1 : S8x512.ReducesTo [0, 1] S_
  bcast_S_S8x512x512 : S_.BroadcastsInDim S8x512x512 (![] : Fin 0 → Fin S8x512x512.rank)
  reducesTo_S8x512x512_S_d0_1_2 : S8x512x512.ReducesTo [0, 1, 2] S_
  bcast_S_S8x512x32 : S_.BroadcastsInDim S8x512x32 (![] : Fin 0 → Fin S8x512x32.rank)
  reducesTo_S8x512x32_S_d0_1_2 : S8x512x32.ReducesTo [0, 1, 2] S_
  bcast_S_S8x32 : S_.BroadcastsInDim S8x32 (![] : Fin 0 → Fin S8x32.rank)
  reducesTo_S8x32_S_d0_1 : S8x32.ReducesTo [0, 1] S_

variable [Facts]

def fn_part4 {F : FTy → Type} [FloatOps F] (main_arg14 : FVec F S8x32 .f32) (main_v63 : IVec S_ 1) (main_v67 : IVec S_ 1) : IVec S_ 1 :=
  let main_v68 : IVec S_ 1 := andi main_v63 main_v67
  let main_v69 : FVec F S8x32 .f32 := Host.absf main_arg14
  let main_cst_26 : FVec F S_ .f32 := constant S_ .f32 0x7F800000#32
  let main_v70 : FVec F S8x32 .f32 := broadcastInDim S8x32 ![] bcast_S_S8x32 main_cst_26
  let main_v71 : IVec S8x32 1 := cmpf .olt main_v69 main_v70
  let main_c_27 : IVec S_ 1 := constantI S_ 1 1#1
  let main_v72 : IVec S_ 1 := (fun x v => Host.reduce IntOp.andi x v reducesTo_S8x32_S_d0_1 h_S_) main_v71 main_c_27
  let main_v73 : IVec S_ 1 := andi main_v68 main_v72
  main_v73

def fn_part3 {F : FTy → Type} [FloatOps F] (main_arg11 : FVec F S8x512x32 .f32) (main_arg12 : FVec F S8x32 .f32) (main_arg13 : FVec F S8x32 .f32) (main_arg14 : FVec F S8x32 .f32) (main_v48 : IVec S_ 1) (main_v49 : FVec F S8x512 .f32) (main_v50 : FVec F S8x512 .f32) : IVec S_ 1 :=
  let main_v51 : IVec S8x512 1 := cmpf .olt main_v49 main_v50
  let main_c_19 : IVec S_ 1 := constantI S_ 1 1#1
  let main_v52 : IVec S_ 1 := (fun x v => Host.reduce IntOp.andi x v reducesTo_S8x512_S_d0_1 h_S_) main_v51 main_c_19
  let main_v53 : IVec S_ 1 := andi main_v48 main_v52
  let main_v54 : FVec F S8x512x32 .f32 := Host.absf main_arg11
  let main_cst_20 : FVec F S_ .f32 := constant S_ .f32 0x7F800000#32
  let main_v55 : FVec F S8x512x32 .f32 := broadcastInDim S8x512x32 ![] bcast_S_S8x512x32 main_cst_20
  let main_v56 : IVec S8x512x32 1 := cmpf .olt main_v54 main_v55
  let main_c_21 : IVec S_ 1 := constantI S_ 1 1#1
  let main_v57 : IVec S_ 1 := (fun x v => Host.reduce IntOp.andi x v reducesTo_S8x512x32_S_d0_1_2 h_S_) main_v56 main_c_21
  let main_v58 : IVec S_ 1 := andi main_v53 main_v57
  let main_v59 : FVec F S8x32 .f32 := Host.absf main_arg12
  let main_cst_22 : FVec F S_ .f32 := constant S_ .f32 0x7F800000#32
  let main_v60 : FVec F S8x32 .f32 := broadcastInDim S8x32 ![] bcast_S_S8x32 main_cst_22
  let main_v61 : IVec S8x32 1 := cmpf .olt main_v59 main_v60
  let main_c_23 : IVec S_ 1 := constantI S_ 1 1#1
  let main_v62 : IVec S_ 1 := (fun x v => Host.reduce IntOp.andi x v reducesTo_S8x32_S_d0_1 h_S_) main_v61 main_c_23
  let main_v63 : IVec S_ 1 := andi main_v58 main_v62
  let main_v64 : FVec F S8x32 .f32 := Host.absf main_arg13
  let main_cst_24 : FVec F S_ .f32 := constant S_ .f32 0x7F800000#32
  let main_v65 : FVec F S8x32 .f32 := broadcastInDim S8x32 ![] bcast_S_S8x32 main_cst_24
  let main_v66 : IVec S8x32 1 := cmpf .olt main_v64 main_v65
  let main_c_25 : IVec S_ 1 := constantI S_ 1 1#1
  let main_v67 : IVec S_ 1 := (fun x v => Host.reduce IntOp.andi x v reducesTo_S8x32_S_d0_1 h_S_) main_v66 main_c_25
  fn_part4 (F := F) main_arg14 main_v63 main_v67

def fn_part2 {F : FTy → Type} [FloatOps F] (main_arg7 : FVec F S8x32x512 .f32) (main_arg8 : FVec F S8x512 .f32) (main_arg9 : FVec F S8x512x512 .f32) (main_arg10 : FVec F S8x512 .f32) (main_arg11 : FVec F S8x512x32 .f32) (main_arg12 : FVec F S8x32 .f32) (main_arg13 : FVec F S8x32 .f32) (main_arg14 : FVec F S8x32 .f32) (main_v33 : IVec S_ 1) : IVec S_ 1 :=
  let main_v34 : FVec F S8x32x512 .f32 := Host.absf main_arg7
  let main_cst_12 : FVec F S_ .f32 := constant S_ .f32 0x7F800000#32
  let main_v35 : FVec F S8x32x512 .f32 := broadcastInDim S8x32x512 ![] bcast_S_S8x32x512 main_cst_12
  let main_v36 : IVec S8x32x512 1 := cmpf .olt main_v34 main_v35
  let main_c_13 : IVec S_ 1 := constantI S_ 1 1#1
  let main_v37 : IVec S_ 1 := (fun x v => Host.reduce IntOp.andi x v reducesTo_S8x32x512_S_d0_1_2 h_S_) main_v36 main_c_13
  let main_v38 : IVec S_ 1 := andi main_v33 main_v37
  let main_v39 : FVec F S8x512 .f32 := Host.absf main_arg8
  let main_cst_14 : FVec F S_ .f32 := constant S_ .f32 0x7F800000#32
  let main_v40 : FVec F S8x512 .f32 := broadcastInDim S8x512 ![] bcast_S_S8x512 main_cst_14
  let main_v41 : IVec S8x512 1 := cmpf .olt main_v39 main_v40
  let main_c_15 : IVec S_ 1 := constantI S_ 1 1#1
  let main_v42 : IVec S_ 1 := (fun x v => Host.reduce IntOp.andi x v reducesTo_S8x512_S_d0_1 h_S_) main_v41 main_c_15
  let main_v43 : IVec S_ 1 := andi main_v38 main_v42
  let main_v44 : FVec F S8x512x512 .f32 := Host.absf main_arg9
  let main_cst_16 : FVec F S_ .f32 := constant S_ .f32 0x7F800000#32
  let main_v45 : FVec F S8x512x512 .f32 := broadcastInDim S8x512x512 ![] bcast_S_S8x512x512 main_cst_16
  let main_v46 : IVec S8x512x512 1 := cmpf .olt main_v44 main_v45
  let main_c_17 : IVec S_ 1 := constantI S_ 1 1#1
  let main_v47 : IVec S_ 1 := (fun x v => Host.reduce IntOp.andi x v reducesTo_S8x512x512_S_d0_1_2 h_S_) main_v46 main_c_17
  let main_v48 : IVec S_ 1 := andi main_v43 main_v47
  let main_v49 : FVec F S8x512 .f32 := Host.absf main_arg10
  let main_cst_18 : FVec F S_ .f32 := constant S_ .f32 0x7F800000#32
  let main_v50 : FVec F S8x512 .f32 := broadcastInDim S8x512 ![] bcast_S_S8x512 main_cst_18
  fn_part3 (F := F) main_arg11 main_arg12 main_arg13 main_arg14 main_v48 main_v49 main_v50

def fn_part1 {F : FTy → Type} [FloatOps F] (main_arg4 : FVec F S8x512 .f32) (main_arg5 : FVec F S8x512x32 .f32) (main_arg6 : FVec F S8x32 .f32) (main_arg7 : FVec F S8x32x512 .f32) (main_arg8 : FVec F S8x512 .f32) (main_arg9 : FVec F S8x512x512 .f32) (main_arg10 : FVec F S8x512 .f32) (main_arg11 : FVec F S8x512x32 .f32) (main_arg12 : FVec F S8x32 .f32) (main_arg13 : FVec F S8x32 .f32) (main_arg14 : FVec F S8x32 .f32) (main_v13 : IVec S_ 1) (main_v16 : IVec S8x512x512 1) : IVec S_ 1 :=
  let main_c_5 : IVec S_ 1 := constantI S_ 1 1#1
  let main_v17 : IVec S_ 1 := (fun x v => Host.reduce IntOp.andi x v reducesTo_S8x512x512_S_d0_1_2 h_S_) main_v16 main_c_5
  let main_v18 : IVec S_ 1 := andi main_v13 main_v17
  let main_v19 : FVec F S8x512 .f32 := Host.absf main_arg4
  let main_cst_6 : FVec F S_ .f32 := constant S_ .f32 0x7F800000#32
  let main_v20 : FVec F S8x512 .f32 := broadcastInDim S8x512 ![] bcast_S_S8x512 main_cst_6
  let main_v21 : IVec S8x512 1 := cmpf .olt main_v19 main_v20
  let main_c_7 : IVec S_ 1 := constantI S_ 1 1#1
  let main_v22 : IVec S_ 1 := (fun x v => Host.reduce IntOp.andi x v reducesTo_S8x512_S_d0_1 h_S_) main_v21 main_c_7
  let main_v23 : IVec S_ 1 := andi main_v18 main_v22
  let main_v24 : FVec F S8x512x32 .f32 := Host.absf main_arg5
  let main_cst_8 : FVec F S_ .f32 := constant S_ .f32 0x7F800000#32
  let main_v25 : FVec F S8x512x32 .f32 := broadcastInDim S8x512x32 ![] bcast_S_S8x512x32 main_cst_8
  let main_v26 : IVec S8x512x32 1 := cmpf .olt main_v24 main_v25
  let main_c_9 : IVec S_ 1 := constantI S_ 1 1#1
  let main_v27 : IVec S_ 1 := (fun x v => Host.reduce IntOp.andi x v reducesTo_S8x512x32_S_d0_1_2 h_S_) main_v26 main_c_9
  let main_v28 : IVec S_ 1 := andi main_v23 main_v27
  let main_v29 : FVec F S8x32 .f32 := Host.absf main_arg6
  let main_cst_10 : FVec F S_ .f32 := constant S_ .f32 0x7F800000#32
  let main_v30 : FVec F S8x32 .f32 := broadcastInDim S8x32 ![] bcast_S_S8x32 main_cst_10
  let main_v31 : IVec S8x32 1 := cmpf .olt main_v29 main_v30
  let main_c_11 : IVec S_ 1 := constantI S_ 1 1#1
  let main_v32 : IVec S_ 1 := (fun x v => Host.reduce IntOp.andi x v reducesTo_S8x32_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S16384x64 .f32) (main_arg1 : FVec F S8x32x512 .f32) (main_arg2 : FVec F S8x512 .f32) (main_arg3 : FVec F S8x512x512 .f32) (main_arg4 : FVec F S8x512 .f32) (main_arg5 : FVec F S8x512x32 .f32) (main_arg6 : FVec F S8x32 .f32) (main_arg7 : FVec F S8x32x512 .f32) (main_arg8 : FVec F S8x512 .f32) (main_arg9 : FVec F S8x512x512 .f32) (main_arg10 : FVec F S8x512 .f32) (main_arg11 : FVec F S8x512x32 .f32) (main_arg12 : FVec F S8x32 .f32) (main_arg13 : FVec F S8x32 .f32) (main_arg14 : FVec F S8x32 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S8x32x512 .f32 := Host.absf main_arg1
  let main_cst_0 : FVec F S_ .f32 := constant S_ .f32 0x7F800000#32
  let main_v5 : FVec F S8x32x512 .f32 := broadcastInDim S8x32x512 ![] bcast_S_S8x32x512 main_cst_0
  let main_v6 : IVec S8x32x512 1 := cmpf .olt main_v4 main_v5
  let main_c_1 : IVec S_ 1 := constantI S_ 1 1#1
  let main_v7 : IVec S_ 1 := (fun x v => Host.reduce IntOp.andi x v reducesTo_S8x32x512_S_d0_1_2 h_S_) main_v6 main_c_1
  let main_v8 : IVec S_ 1 := andi main_v3 main_v7
  let main_v9 : FVec F S8x512 .f32 := Host.absf main_arg2
  let main_cst_2 : FVec F S_ .f32 := constant S_ .f32 0x7F800000#32
  let main_v10 : FVec F S8x512 .f32 := broadcastInDim S8x512 ![] bcast_S_S8x512 main_cst_2
  let main_v11 : IVec S8x512 1 := cmpf .olt main_v9 main_v10
  let main_c_3 : IVec S_ 1 := constantI S_ 1 1#1
  let main_v12 : IVec S_ 1 := (fun x v => Host.reduce IntOp.andi x v reducesTo_S8x512_S_d0_1 h_S_) main_v11 main_c_3
  let main_v13 : IVec S_ 1 := andi main_v8 main_v12
  let main_v14 : FVec F S8x512x512 .f32 := Host.absf main_arg3
  let main_cst_4 : FVec F S_ .f32 := constant S_ .f32 0x7F800000#32
  let main_v15 : FVec F S8x512x512 .f32 := broadcastInDim S8x512x512 ![] bcast_S_S8x512x512 main_cst_4
  let main_v16 : IVec S8x512x512 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S16384x64 : Shape := ⟨2, ![16384, 64]⟩
abbrev S8x32x512 : Shape := ⟨3, ![8, 32, 512]⟩
abbrev S8x512 : Shape := ⟨2, ![8, 512]⟩
abbrev S8x512x512 : Shape := ⟨3, ![8, 512, 512]⟩
abbrev S8x512x32 : Shape := ⟨3, ![8, 512, 32]⟩
abbrev S8x32 : Shape := ⟨2, ![8, 32]⟩
abbrev S16384x32x2 : Shape := ⟨3, ![16384, 32, 2]⟩
abbrev S16384x32x1 : Shape := ⟨3, ![16384, 32, 1]⟩
abbrev S16384x32 : Shape := ⟨2, ![16384, 32]⟩
abbrev S1024x64 : Shape := ⟨2, ![1024, 64]⟩
abbrev S1024x32 : Shape := ⟨2, ![1024, 32]⟩
abbrev S1x32x512 : Shape := ⟨3, ![1, 32, 512]⟩
abbrev S32x512 : Shape := ⟨2, ![32, 512]⟩
abbrev S1024x512 : Shape := ⟨2, ![1024, 512]⟩
abbrev S1x512 : Shape := ⟨2, ![1, 512]⟩
abbrev S512 : Shape := ⟨1, ![512]⟩
abbrev S1x512x512 : Shape := ⟨3, ![1, 512, 512]⟩
abbrev S512x512 : Shape := ⟨2, ![512, 512]⟩
abbrev S1x512x32 : Shape := ⟨3, ![1, 512, 32]⟩
abbrev S512x32 : Shape := ⟨2, ![512, 32]⟩
abbrev S1x32 : Shape := ⟨2, ![1, 32]⟩
abbrev S32 : Shape := ⟨1, ![32]⟩

abbrev nBuf : Space → Nat
  | .hbm => 41
  | .vmem => 20
  | .smem => 0
  | _ => 0

abbrev bufTy : (tb : Table) → Fin (tcTables nBuf tb) → BufTy
  | .hbm, ⟨0, _⟩ => ⟨S16384x64, .f32⟩
  | .hbm, ⟨1, _⟩ => ⟨S8x32x512, .f32⟩
  | .hbm, ⟨2, _⟩ => ⟨S8x512, .f32⟩
  | .hbm, ⟨3, _⟩ => ⟨S8x512x512, .f32⟩
  | .hbm, ⟨4, _⟩ => ⟨S8x512, .f32⟩
  | .hbm, ⟨5, _⟩ => ⟨S8x512x32, .f32⟩
  | .hbm, ⟨6, _⟩ => ⟨S8x32, .f32⟩
  | .hbm, ⟨7, _⟩ => ⟨S8x32x512, .f32⟩
  | .hbm, ⟨8, _⟩ => ⟨S8x512, .f32⟩
  | .hbm, ⟨9, _⟩ => ⟨S8x512x512, .f32⟩
  | .hbm, ⟨10, _⟩ => ⟨S8x512, .f32⟩
  | .hbm, ⟨11, _⟩ => ⟨S8x512x32, .f32⟩
  | .hbm, ⟨12, _⟩ => ⟨S8x32, .f32⟩
  | .hbm, ⟨13, _⟩ => ⟨S8x32, .f32⟩
  | .hbm, ⟨14, _⟩ => ⟨S8x32, .f32⟩
  | .hbm, ⟨15, _⟩ => ⟨S16384x32x2, .f32⟩
  | .hbm, ⟨16, _⟩ => ⟨S16384x32x1, .f32⟩
  | .hbm, ⟨17, _⟩ => ⟨S16384x32, .f32⟩
  | .hbm, ⟨18, _⟩ => ⟨S16384x32x1, .f32⟩
  | .hbm, ⟨19, _⟩ => ⟨S16384x32, .f32⟩
  | .hbm, ⟨20, _⟩ => ⟨S16384x64, .f32⟩
  | .hbm, ⟨21, _⟩ => ⟨S8x32x512, .bf16⟩
  | .hbm, ⟨22, _⟩ => ⟨S8x512x512, .bf16⟩
  | .hbm, ⟨23, _⟩ => ⟨S8x512x32, .bf16⟩
  | .hbm, ⟨24, _⟩ => ⟨S8x32x512, .bf16⟩
  | .hbm, ⟨25, _⟩ => ⟨S8x512x512, .bf16⟩
  | .hbm, ⟨26, _⟩ => ⟨S8x512x32, .bf16⟩
  | .hbm, ⟨27, _⟩ => ⟨S16384x64, .f32⟩
  | .hbm, ⟨28, _⟩ => ⟨S16384x64, .f32⟩
  | .hbm, ⟨29, _⟩ => ⟨S16384x32, .f32⟩
  | .hbm, ⟨30, _⟩ => ⟨S16384x32, .f32⟩
  | .hbm, ⟨31, _⟩ => ⟨S16384x32x1, .f32⟩
  | .hbm, ⟨32, _⟩ => ⟨S16384x32x1, .f32⟩
  | .hbm, ⟨33, _⟩ => ⟨S16384x32x2, .f32⟩
  | .hbm, ⟨34, _⟩ => ⟨S16384x64, .f32⟩
  | .hbm, ⟨35, _⟩ => ⟨S16384x32, .f32⟩
  | .hbm, ⟨36, _⟩ => ⟨S16384x32, .f32⟩
  | .hbm, ⟨37, _⟩ => ⟨S16384x32x1, .f32⟩
  | .hbm, ⟨38, _⟩ => ⟨S16384x32x1, .f32⟩
  | .hbm, ⟨39, _⟩ => ⟨S16384x32x2, .f32⟩
  | .hbm, ⟨40, _⟩ => ⟨S16384x64, .f32⟩
  | .local _ .vmem, ⟨0, _⟩ => ⟨S1024x64, .f32⟩
  | .local _ .vmem, ⟨1, _⟩ => ⟨S1024x64, .f32⟩
  | .local _ .vmem, ⟨2, _⟩ => ⟨S8x32x512, .bf16⟩
  | .local _ .vmem, ⟨3, _⟩ => ⟨S8x512, .f32⟩
  | .local _ .vmem, ⟨4, _⟩ => ⟨S8x512x512, .bf16⟩
  | .local _ .vmem, ⟨5, _⟩ => ⟨S8x512, .f32⟩
  | .local _ .vmem, ⟨6, _⟩ => ⟨S8x512x32, .bf16⟩
  | .local _ .vmem, ⟨7, _⟩ => ⟨S8x32, .f32⟩
  | .local _ .vmem, ⟨8, _⟩ => ⟨S8x32x512, .bf16⟩
  | .local _ .vmem, ⟨9, _⟩ => ⟨S8x512, .f32⟩
  | .local _ .vmem, ⟨10, _⟩ => ⟨S8x512x512, .bf16⟩
  | .local _ .vmem, ⟨11, _⟩ => ⟨S8x512, .f32⟩
  | .local _ .vmem, ⟨12, _⟩ => ⟨S8x512x32, .bf16⟩
  | .local _ .vmem, ⟨13, _⟩ => ⟨S8x32, .f32⟩
  | .local _ .vmem, ⟨14, _⟩ => ⟨S8x32, .f32⟩
  | .local _ .vmem, ⟨15, _⟩ => ⟨S8x32, .f32⟩
  | .local _ .vmem, ⟨16, _⟩ => ⟨S1024x64, .f32⟩
  | .local _ .vmem, ⟨17, _⟩ => ⟨S1024x64, .f32⟩
  | .local _ .vmem, ⟨18, _⟩ => ⟨S1024x64, .f32⟩
  | .local _ .vmem, ⟨19, _⟩ => ⟨S1024x64, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12_0 : Ref sig .tc := ⟨.hbm, 27, rfl⟩
abbrev main_v12_1 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg15_1 : Ref sig .tc := ⟨.vmem, 17, rfl⟩
abbrev cc0_stg16_0 : Ref sig .tc := ⟨.vmem, 18, rfl⟩
abbrev cc0_stg16_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem15_1 : DmaSem sig := 17
abbrev cc0_sem16_0 : DmaSem sig := 18
abbrev cc0_sem16_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x32x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x512x32 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x32x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x512x32 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x32 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x32 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x32 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S1024x64 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1024x64 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  shapeCasts_S16384x64_S16384x32x2 : S16384x64.ShapeCasts S16384x32x2
  slices_S16384x32x2_S16384x32x1_0_0_0 : S16384x32x2.Slices ![0, 0, 0] S16384x32x1
  shapeCasts_S16384x32x1_S16384x32 : S16384x32x1.ShapeCasts S16384x32
  slices_S16384x32x2_S16384x32x1_0_0_1 : S16384x32x2.Slices ![0, 0, 1] S16384x32x1
  concatenates_S16384x32_S16384x32_S16384x64_d1 : Shape.Concatenates [S16384x32, S16384x32] S16384x64 1
  bitsLt_bf16_f32 : FTy.bits .bf16 < FTy.bits .f32
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  slices_S1024x64_o0_0_S1024x32 : S1024x64.Slices ![0, 0] S1024x32
  slices_S1024x64_o0_32_S1024x32 : S1024x64.Slices ![0, 32] S1024x32
  inb_S8x32x512_S1x32x512_0_0_0 : ∀ a, (![0, 0, 0] : Fin 3 → Nat) a + S1x32x512.size a ≤ S8x32x512.size a
  h_S1x32x512 : 0 < S1x32x512.numel
  shapeCasts_S1x32x512_S32x512 : S1x32x512.ShapeCasts S32x512
  inb_S8x512_S1x512_0_0 : ∀ a, (![0, 0] : Fin 2 → Nat) a + S1x512.size a ≤ S8x512.size a
  h_S1x512 : 0 < S1x512.numel
  shapeCasts_S1x512_S512 : S1x512.ShapeCasts S512
  shapeCasts_S512_S1x512 : S512.ShapeCasts S1x512
  broadcasts_S1x512_S1024x512 : S1x512.Broadcasts S1024x512
  inb_S8x512x512_S1x512x512_0_0_0 : ∀ a, (![0, 0, 0] : Fin 3 → Nat) a + S1x512x512.size a ≤ S8x512x512.size a
  h_S1x512x512 : 0 < S1x512x512.numel
  shapeCasts_S1x512x512_S512x512 : S1x512x512.ShapeCasts S512x512
  inb_S8x512x32_S1x512x32_0_0_0 : ∀ a, (![0, 0, 0] : Fin 3 → Nat) a + S1x512x32.size a ≤ S8x512x32.size a
  h_S1x512x32 : 0 < S1x512x32.numel
  shapeCasts_S1x512x32_S512x32 : S1x512x32.ShapeCasts S512x32
  inb_S8x32_S1x32_0_0 : ∀ a, (![0, 0] : Fin 2 → Nat) a + S1x32.size a ≤ S8x32.size a
  h_S1x32 : 0 < S1x32.numel
  shapeCasts_S1x32_S32 : S1x32.ShapeCasts S32
  shapeCasts_S32_S1x32 : S32.ShapeCasts S1x32
  broadcasts_S1x32_S1024x32 : S1x32.Broadcasts S1024x32
  inb_S8x32x512_S1x32x512_1_0_0 : ∀ a, (![1, 0, 0] : Fin 3 → Nat) a + S1x32x512.size a ≤ S8x32x512.size a
  inb_S8x512_S1x512_1_0 : ∀ a, (![1, 0] : Fin 2 → Nat) a + S1x512.size a ≤ S8x512.size a
  inb_S8x512x512_S1x512x512_1_0_0 : ∀ a, (![1, 0, 0] : Fin 3 → Nat) a + S1x512x512.size a ≤ S8x512x512.size a
  inb_S8x512x32_S1x512x32_1_0_0 : ∀ a, (![1, 0, 0] : Fin 3 → Nat) a + S1x512x32.size a ≤ S8x512x32.size a
  inb_S8x32_S1x32_1_0 : ∀ a, (![1, 0] : Fin 2 → Nat) a + S1x32.size a ≤ S8x32.size a
  inb_S8x32x512_S1x32x512_2_0_0 : ∀ a, (![2, 0, 0] : Fin 3 → Nat) a + S1x32x512.size a ≤ S8x32x512.size a
  inb_S8x512_S1x512_2_0 : ∀ a, (![2, 0] : Fin 2 → Nat) a + S1x512.size a ≤ S8x512.size a
  inb_S8x512x512_S1x512x512_2_0_0 : ∀ a, (![2, 0, 0] : Fin 3 → Nat) a + S1x512x512.size a ≤ S8x512x512.size a
  inb_S8x512x32_S1x512x32_2_0_0 : ∀ a, (![2, 0, 0] : Fin 3 → Nat) a + S1x512x32.size a ≤ S8x512x32.size a
  inb_S8x32_S1x32_2_0 : ∀ a, (![2, 0] : Fin 2 → Nat) a + S1x32.size a ≤ S8x32.size a
  inb_S8x32x512_S1x32x512_3_0_0 : ∀ a, (![3, 0, 0] : Fin 3 → Nat) a + S1x32x512.size a ≤ S8x32x512.size a
  inb_S8x512_S1x512_3_0 : ∀ a, (![3, 0] : Fin 2 → Nat) a + S1x512.size a ≤ S8x512.size a
  inb_S8x512x512_S1x512x512_3_0_0 : ∀ a, (![3, 0, 0] : Fin 3 → Nat) a + S1x512x512.size a ≤ S8x512x512.size a
  inb_S8x512x32_S1x512x32_3_0_0 : ∀ a, (![3, 0, 0] : Fin 3 → Nat) a + S1x512x32.size a ≤ S8x512x32.size a
  inb_S8x32_S1x32_3_0 : ∀ a, (![3, 0] : Fin 2 → Nat) a + S1x32.size a ≤ S8x32.size a
  inb_S8x32x512_S1x32x512_4_0_0 : ∀ a, (![4, 0, 0] : Fin 3 → Nat) a + S1x32x512.size a ≤ S8x32x512.size a
  inb_S8x512_S1x512_4_0 : ∀ a, (![4, 0] : Fin 2 → Nat) a + S1x512.size a ≤ S8x512.size a
  inb_S8x512x512_S1x512x512_4_0_0 : ∀ a, (![4, 0, 0] : Fin 3 → Nat) a + S1x512x512.size a ≤ S8x512x512.size a
  inb_S8x512x32_S1x512x32_4_0_0 : ∀ a, (![4, 0, 0] : Fin 3 → Nat) a + S1x512x32.size a ≤ S8x512x32.size a
  inb_S8x32_S1x32_4_0 : ∀ a, (![4, 0] : Fin 2 → Nat) a + S1x32.size a ≤ S8x32.size a
  inb_S8x32x512_S1x32x512_5_0_0 : ∀ a, (![5, 0, 0] : Fin 3 → Nat) a + S1x32x512.size a ≤ S8x32x512.size a
  inb_S8x512_S1x512_5_0 : ∀ a, (![5, 0] : Fin 2 → Nat) a + S1x512.size a ≤ S8x512.size a
  inb_S8x512x512_S1x512x512_5_0_0 : ∀ a, (![5, 0, 0] : Fin 3 → Nat) a + S1x512x512.size a ≤ S8x512x512.size a
  inb_S8x512x32_S1x512x32_5_0_0 : ∀ a, (![5, 0, 0] : Fin 3 → Nat) a + S1x512x32.size a ≤ S8x512x32.size a
  inb_S8x32_S1x32_5_0 : ∀ a, (![5, 0] : Fin 2 → Nat) a + S1x32.size a ≤ S8x32.size a
  inb_S8x32x512_S1x32x512_6_0_0 : ∀ a, (![6, 0, 0] : Fin 3 → Nat) a + S1x32x512.size a ≤ S8x32x512.size a
  inb_S8x512_S1x512_6_0 : ∀ a, (![6, 0] : Fin 2 → Nat) a + S1x512.size a ≤ S8x512.size a
  inb_S8x512x512_S1x512x512_6_0_0 : ∀ a, (![6, 0, 0] : Fin 3 → Nat) a + S1x512x512.size a ≤ S8x512x512.size a
  inb_S8x512x32_S1x512x32_6_0_0 : ∀ a, (![6, 0, 0] : Fin 3 → Nat) a + S1x512x32.size a ≤ S8x512x32.size a
  inb_S8x32_S1x32_6_0 : ∀ a, (![6, 0] : Fin 2 → Nat) a + S1x32.size a ≤ S8x32.size a
  inb_S8x32x512_S1x32x512_7_0_0 : ∀ a, (![7, 0, 0] : Fin 3 → Nat) a + S1x32x512.size a ≤ S8x32x512.size a
  inb_S8x512_S1x512_7_0 : ∀ a, (![7, 0] : Fin 2 → Nat) a + S1x512.size a ≤ S8x512.size a
  inb_S8x512x512_S1x512x512_7_0_0 : ∀ a, (![7, 0, 0] : Fin 3 → Nat) a + S1x512x512.size a ≤ S8x512x512.size a
  inb_S8x512x32_S1x512x32_7_0_0 : ∀ a, (![7, 0, 0] : Fin 3 → Nat) a + S1x512x32.size a ≤ S8x512x32.size a
  inb_S8x32_S1x32_7_0 : ∀ a, (![7, 0] : Fin 2 → Nat) a + S1x32.size a ≤ S8x32.size a
  concatenates_S1024x32_S1024x32_S1024x64_d1 : Shape.Concatenates [S1024x32, S1024x32] S1024x64 1
  slices_S16384x64_S16384x32_0_0 : S16384x64.Slices ![0, 0] S16384x32
  slices_S16384x64_S16384x32_0_32 : S16384x64.Slices ![0, 32] S16384x32
  bcast_S16384x32_S16384x32x1_0_1 : S16384x32.BroadcastsInDim S16384x32x1 (![0, 1] : Fin 2 → Fin S16384x32x1.rank)
  concatenates_S16384x32x1_S16384x32x1_S16384x32x2_d2 : Shape.Concatenates [S16384x32x1, S16384x32x1] S16384x32x2 2
  shapeCasts_S16384x32x2_S16384x64 : S16384x32x2.ShapeCasts S16384x64
  dot_S1024x32_S32x512_S1024x512_1_0_0_1_n_n_wf : DotDims.WF S1024x32 S32x512 S1024x512 [1] [0] [0] [1] [] []
  dot_S1024x512_S512x512_S1024x512_1_0_0_1_n_n_wf : DotDims.WF S1024x512 S512x512 S1024x512 [1] [0] [0] [1] [] []
  dot_S1024x512_S512x32_S1024x32_1_0_0_1_n_n_wf : DotDims.WF S1024x512 S512x32 S1024x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S16384x64.size a
  hwx0_0 : ∀ i : grid0.Coords, EltTy.bits .f32 = 32 ∨ (Rect.block (s := S16384x64) S1024x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x32x512.size a ≤ S8x32x512.size a
  hwx0_1 : ∀ i : grid0.Coords, EltTy.bits .bf16 = 32 ∨ (Rect.block (s := S8x32x512) S8x32x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x512.size a ≤ S8x512.size a
  hwx0_2 : ∀ i : grid0.Coords, EltTy.bits .f32 = 32 ∨ (Rect.block (s := S8x512) S8x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x512x512.size a ≤ S8x512x512.size a
  hwx0_3 : ∀ i : grid0.Coords, EltTy.bits .bf16 = 32 ∨ (Rect.block (s := S8x512x512) S8x512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x512.size a ≤ S8x512.size a
  hwx0_4 : ∀ i : grid0.Coords, EltTy.bits .f32 = 32 ∨ (Rect.block (s := S8x512) S8x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x512x32.size a ≤ S8x512x32.size a
  hwx0_5 : ∀ i : grid0.Coords, EltTy.bits .bf16 = 32 ∨ (Rect.block (s := S8x512x32) S8x512x32.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S8x32.size a ≤ S8x32.size a
  hwx0_6 : ∀ i : grid0.Coords, EltTy.bits .f32 = 32 ∨ (Rect.block (s := S8x32) S8x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S8x32x512.size a ≤ S8x32x512.size a
  hwx0_7 : ∀ i : grid0.Coords, EltTy.bits .bf16 = 32 ∨ (Rect.block (s := S8x32x512) S8x32x512.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S8x512.size a ≤ S8x512.size a
  hwx0_8 : ∀ i : grid0.Coords, EltTy.bits .f32 = 32 ∨ (Rect.block (s := S8x512) S8x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S8x512x512.size a ≤ S8x512x512.size a
  hwx0_9 : ∀ i : grid0.Coords, EltTy.bits .bf16 = 32 ∨ (Rect.block (s := S8x512x512) S8x512x512.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S8x512.size a ≤ S8x512.size a
  hwx0_10 : ∀ i : grid0.Coords, EltTy.bits .f32 = 32 ∨ (Rect.block (s := S8x512) S8x512.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S8x512x32.size a ≤ S8x512x32.size a
  hwx0_11 : ∀ i : grid0.Coords, EltTy.bits .bf16 = 32 ∨ (Rect.block (s := S8x512x32) S8x512x32.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S8x32.size a ≤ S8x32.size a
  hwx0_12 : ∀ i : grid0.Coords, EltTy.bits .f32 = 32 ∨ (Rect.block (s := S8x32) S8x32.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S8x32.size a ≤ S8x32.size a
  hwx0_13 : ∀ i : grid0.Coords, EltTy.bits .f32 = 32 ∨ (Rect.block (s := S8x32) S8x32.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S8x32.size a ≤ S8x32.size a
  hwx0_14 : ∀ i : grid0.Coords, EltTy.bits .f32 = 32 ∨ (Rect.block (s := S8x32) S8x32.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1024x64.size a ≤ S16384x64.size a
  hwx0_15 : ∀ i : grid0.Coords, EltTy.bits .f32 = 32 ∨ (Rect.block (s := S16384x64) S1024x64.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S1024x64.size a ≤ S16384x64.size a
  hwx0_16 : ∀ i : grid0.Coords, EltTy.bits .f32 = 32 ∨ (Rect.block (s := S16384x64) S1024x64.size (cc0_transform_16 i) (hinb0_16 i)).WholeWords (EltTy.packing .f32)

variable [Facts₀]

def dot_S1024x32_S32x512_S1024x512_1_0_0_1_n_n : DotDims S1024x32 S32x512 S1024x512 where
  lhsContracting := [1]
  rhsContracting := [0]
  lhsNonContracting := [0]
  rhsNonContracting := [1]
  lhsBatch := []
  rhsBatch := []
  wf := dot_S1024x32_S32x512_S1024x512_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x512_S512x32_S1024x32_1_0_0_1_n_n : DotDims S1024x512 S512x32 S1024x32 where
  lhsContracting := [1]
  rhsContracting := [0]
  lhsNonContracting := [0]
  rhsNonContracting := [1]
  lhsBatch := []
  rhsBatch := []
  wf := dot_S1024x512_S512x32_S1024x32_1_0_0_1_n_n_wf

abbrev win0_0 : Pipeline.Window sig grid0 :=
  Pipeline.Window.ofSpec (Memref.whole main_v5) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S8x32x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S8x512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S8x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S8x512x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S8x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S8x32x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S8x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v10) S8x512x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S8x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v11) S8x512x32.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S8x32.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S8x32.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S8x32.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v12_0) S1024x64.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v12_1) S1024x64.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S16384x64 : Shape := ⟨2, ![16384, 64]⟩
abbrev S8x32x512 : Shape := ⟨3, ![8, 32, 512]⟩
abbrev S8x512 : Shape := ⟨2, ![8, 512]⟩
abbrev S8x512x512 : Shape := ⟨3, ![8, 512, 512]⟩
abbrev S8x512x32 : Shape := ⟨3, ![8, 512, 32]⟩
abbrev S8x32 : Shape := ⟨2, ![8, 32]⟩
abbrev S32 : Shape := ⟨1, ![32]⟩
abbrev S_ : Shape := ⟨0, ![]⟩
abbrev S32x1 : Shape := ⟨2, ![32, 1]⟩
abbrev S16384x32 : Shape := ⟨2, ![16384, 32]⟩
abbrev S1x32x512 : Shape := ⟨3, ![1, 32, 512]⟩
abbrev S32x512 : Shape := ⟨2, ![32, 512]⟩
abbrev S1x512 : Shape := ⟨2, ![1, 512]⟩
abbrev S512 : Shape := ⟨1, ![512]⟩
abbrev S1x512x512 : Shape := ⟨3, ![1, 512, 512]⟩
abbrev S512x512 : Shape := ⟨2, ![512, 512]⟩
abbrev S1x512x32 : Shape := ⟨3, ![1, 512, 32]⟩
abbrev S512x32 : Shape := ⟨2, ![512, 32]⟩
abbrev S1x32 : Shape := ⟨2, ![1, 32]⟩
abbrev S16384x512 : Shape := ⟨2, ![16384, 512]⟩

abbrev nBuf : Space → Nat
  | .hbm => 835
  | .vmem => 0
  | .smem => 0
  | _ => 0

abbrev hbmTy0_0 (i : Nat) : BufTy := match i % 128 with
  | 0 => ⟨S16384x64, .f32⟩
  | 1 => ⟨S8x32x512, .f32⟩
  | 2 => ⟨S8x512, .f32⟩
  | 3 => ⟨S8x512x512, .f32⟩
  | 4 => ⟨S8x512, .f32⟩
  | 5 => ⟨S8x512x32, .f32⟩
  | 6 => ⟨S8x32, .f32⟩
  | 7 => ⟨S8x32x512, .f32⟩
  | 8 => ⟨S8x512, .f32⟩
  | 9 => ⟨S8x512x512, .f32⟩
  | 10 => ⟨S8x512, .f32⟩
  | 11 => ⟨S8x512x32, .f32⟩
  | 12 => ⟨S8x32, .f32⟩
  | 13 => ⟨S8x32, .f32⟩
  | 14 => ⟨S8x32, .f32⟩
  | 15 => ⟨S32, .i32⟩
  | 16 => ⟨S32, .i1⟩
  | 17 => ⟨S32, .i32⟩
  | 18 => ⟨S32, .i1⟩
  | 19 => ⟨S32, .i1⟩
  | 20 => ⟨S32, .i1⟩
  | 21 => ⟨S32, .i1⟩
  | 22 => ⟨S32, .i1⟩
  | 23 => ⟨S32, .i1⟩
  | 24 => ⟨S32, .i1⟩
  | 25 => ⟨S32, .i1⟩
  | 26 => ⟨S32, .i1⟩
  | 27 => ⟨S32, .i1⟩
  | 28 => ⟨S32, .i1⟩
  | 29 => ⟨S32, .i1⟩
  | 30 => ⟨S32, .i1⟩
  | 31 => ⟨S32, .i1⟩
  | 32 => ⟨S32, .i1⟩
  | 33 => ⟨S32, .i1⟩
  | 34 => ⟨S32, .i1⟩
  | 35 => ⟨S32, .i1⟩
  | 36 => ⟨S32, .i1⟩
  | 37 => ⟨S32, .i1⟩
  | 38 => ⟨S32, .i1⟩
  | 39 => ⟨S32, .i1⟩
  | 40 => ⟨S32, .i1⟩
  | 41 => ⟨S32, .i1⟩
  | 42 => ⟨S32, .i1⟩
  | 43 => ⟨S32, .i1⟩
  | 44 => ⟨S32, .i1⟩
  | 45 => ⟨S32, .i1⟩
  | 46 => ⟨S32, .i1⟩
  | 47 => ⟨S32, .i1⟩
  | 48 => ⟨S32, .i1⟩
  | 49 => ⟨S_, .f32⟩
  | 50 => ⟨S16384x64, .f32⟩
  | 51 => ⟨S_, .i32⟩
  | 52 => ⟨S32, .i32⟩
  | 53 => ⟨S32, .i32⟩
  | 54 => ⟨S32, .i32⟩
  | 55 => ⟨S32x1, .i32⟩
  | 56 => ⟨S16384x32, .f32⟩
  | 57 => ⟨S_, .i32⟩
  | 58 => ⟨S32, .i32⟩
  | 59 => ⟨S32, .i32⟩
  | 60 => ⟨S32, .i32⟩
  | 61 => ⟨S32x1, .i32⟩
  | 62 => ⟨S16384x32, .f32⟩
  | 63 => ⟨S1x32x512, .f32⟩
  | 64 => ⟨S32x512, .f32⟩
  | 65 => ⟨S1x512, .f32⟩
  | 66 => ⟨S512, .f32⟩
  | 67 => ⟨S1x512x512, .f32⟩
  | 68 => ⟨S512x512, .f32⟩
  | 69 => ⟨S1x512, .f32⟩
  | 70 => ⟨S512, .f32⟩
  | 71 => ⟨S1x512x32, .f32⟩
  | 72 => ⟨S512x32, .f32⟩
  | 73 => ⟨S1x32, .f32⟩
  | 74 => ⟨S32, .f32⟩
  | 75 => ⟨S16384x512, .f32⟩
  | 76 => ⟨S1x512, .f32⟩
  | 77 => ⟨S16384x512, .f32⟩
  | 78 => ⟨S16384x512, .f32⟩
  | 79 => ⟨S_, .f32⟩
  | 80 => ⟨S16384x512, .f32⟩
  | 81 => ⟨S16384x512, .f32⟩
  | 82 => ⟨S16384x512, .f32⟩
  | 83 => ⟨S1x512, .f32⟩
  | 84 => ⟨S16384x512, .f32⟩
  | 85 => ⟨S16384x512, .f32⟩
  | 86 => ⟨S_, .f32⟩
  | 87 => ⟨S16384x512, .f32⟩
  | 88 => ⟨S16384x512, .f32⟩
  | 89 => ⟨S16384x32, .f32⟩
  | 90 => ⟨S1x32, .f32⟩
  | 91 => ⟨S16384x32, .f32⟩
  | 92 => ⟨S16384x32, .f32⟩
  | 93 => ⟨S1x32x512, .f32⟩
  | 94 => ⟨S32x512, .f32⟩
  | 95 => ⟨S1x512, .f32⟩
  | 96 => ⟨S512, .f32⟩
  | 97 => ⟨S1x512x512, .f32⟩
  | 98 => ⟨S512x512, .f32⟩
  | 99 => ⟨S1x512, .f32⟩
  | 100 => ⟨S512, .f32⟩
  | 101 => ⟨S1x512x32, .f32⟩
  | 102 => ⟨S512x32, .f32⟩
  | 103 => ⟨S1x32, .f32⟩
  | 104 => ⟨S32, .f32⟩
  | 105 => ⟨S16384x512, .f32⟩
  | 106 => ⟨S1x512, .f32⟩
  | 107 => ⟨S16384x512, .f32⟩
  | 108 => ⟨S16384x512, .f32⟩
  | 109 => ⟨S_, .f32⟩
  | 110 => ⟨S16384x512, .f32⟩
  | 111 => ⟨S16384x512, .f32⟩
  | 112 => ⟨S16384x512, .f32⟩
  | 113 => ⟨S1x512, .f32⟩
  | 114 => ⟨S16384x512, .f32⟩
  | 115 => ⟨S16384x512, .f32⟩
  | 116 => ⟨S_, .f32⟩
  | 117 => ⟨S16384x512, .f32⟩
  | 118 => ⟨S16384x512, .f32⟩
  | 119 => ⟨S16384x32, .f32⟩
  | 120 => ⟨S1x32, .f32⟩
  | 121 => ⟨S16384x32, .f32⟩
  | 122 => ⟨S16384x32, .f32⟩
  | 123 => ⟨S16384x32, .f32⟩
  | 124 => ⟨S1x32, .f32⟩
  | 125 => ⟨S32, .f32⟩
  | 126 => ⟨S1x32, .f32⟩
  | 127 => ⟨S16384x32, .f32⟩
  | _ => ⟨S16384x64, .f32⟩

abbrev hbmTy0_1 (i : Nat) : BufTy := match i % 128 with
  | 0 => ⟨S16384x32, .f32⟩
  | 1 => ⟨S1x32, .f32⟩
  | 2 => ⟨S32, .f32⟩
  | 3 => ⟨S1x32, .f32⟩
  | 4 => ⟨S16384x32, .f32⟩
  | 5 => ⟨S16384x32, .f32⟩
  | 6 => ⟨S16384x32, .f32⟩
  | 7 => ⟨S16384x32, .f32⟩
  | 8 => ⟨S16384x32, .f32⟩
  | 9 => ⟨S_, .i32⟩
  | 10 => ⟨S32, .i32⟩
  | 11 => ⟨S32, .i32⟩
  | 12 => ⟨S32, .i32⟩
  | 13 => ⟨S32x1, .i32⟩
  | 14 => ⟨S16384x64, .f32⟩
  | 15 => ⟨S_, .i32⟩
  | 16 => ⟨S32, .i32⟩
  | 17 => ⟨S32, .i32⟩
  | 18 => ⟨S32, .i32⟩
  | 19 => ⟨S32x1, .i32⟩
  | 20 => ⟨S16384x64, .f32⟩
  | 21 => ⟨S_, .i32⟩
  | 22 => ⟨S32, .i32⟩
  | 23 => ⟨S32, .i32⟩
  | 24 => ⟨S32, .i32⟩
  | 25 => ⟨S32x1, .i32⟩
  | 26 => ⟨S16384x32, .f32⟩
  | 27 => ⟨S_, .i32⟩
  | 28 => ⟨S32, .i32⟩
  | 29 => ⟨S32, .i32⟩
  | 30 => ⟨S32, .i32⟩
  | 31 => ⟨S32x1, .i32⟩
  | 32 => ⟨S16384x32, .f32⟩
  | 33 => ⟨S1x32x512, .f32⟩
  | 34 => ⟨S32x512, .f32⟩
  | 35 => ⟨S1x512, .f32⟩
  | 36 => ⟨S512, .f32⟩
  | 37 => ⟨S1x512x512, .f32⟩
  | 38 => ⟨S512x512, .f32⟩
  | 39 => ⟨S1x512, .f32⟩
  | 40 => ⟨S512, .f32⟩
  | 41 => ⟨S1x512x32, .f32⟩
  | 42 => ⟨S512x32, .f32⟩
  | 43 => ⟨S1x32, .f32⟩
  | 44 => ⟨S32, .f32⟩
  | 45 => ⟨S16384x512, .f32⟩
  | 46 => ⟨S1x512, .f32⟩
  | 47 => ⟨S16384x512, .f32⟩
  | 48 => ⟨S16384x512, .f32⟩
  | 49 => ⟨S_, .f32⟩
  | 50 => ⟨S16384x512, .f32⟩
  | 51 => ⟨S16384x512, .f32⟩
  | 52 => ⟨S16384x512, .f32⟩
  | 53 => ⟨S1x512, .f32⟩
  | 54 => ⟨S16384x512, .f32⟩
  | 55 => ⟨S16384x512, .f32⟩
  | 56 => ⟨S_, .f32⟩
  | 57 => ⟨S16384x512, .f32⟩
  | 58 => ⟨S16384x512, .f32⟩
  | 59 => ⟨S16384x32, .f32⟩
  | 60 => ⟨S1x32, .f32⟩
  | 61 => ⟨S16384x32, .f32⟩
  | 62 => ⟨S16384x32, .f32⟩
  | 63 => ⟨S1x32x512, .f32⟩
  | 64 => ⟨S32x512, .f32⟩
  | 65 => ⟨S1x512, .f32⟩
  | 66 => ⟨S512, .f32⟩
  | 67 => ⟨S1x512x512, .f32⟩
  | 68 => ⟨S512x512, .f32⟩
  | 69 => ⟨S1x512, .f32⟩
  | 70 => ⟨S512, .f32⟩
  | 71 => ⟨S1x512x32, .f32⟩
  | 72 => ⟨S512x32, .f32⟩
  | 73 => ⟨S1x32, .f32⟩
  | 74 => ⟨S32, .f32⟩
  | 75 => ⟨S16384x512, .f32⟩
  | 76 => ⟨S1x512, .f32⟩
  | 77 => ⟨S16384x512, .f32⟩
  | 78 => ⟨S16384x512, .f32⟩
  | 79 => ⟨S_, .f32⟩
  | 80 => ⟨S16384x512, .f32⟩
  | 81 => ⟨S16384x512, .f32⟩
  | 82 => ⟨S16384x512, .f32⟩
  | 83 => ⟨S1x512, .f32⟩
  | 84 => ⟨S16384x512, .f32⟩
  | 85 => ⟨S16384x512, .f32⟩
  | 86 => ⟨S_, .f32⟩
  | 87 => ⟨S16384x512, .f32⟩
  | 88 => ⟨S16384x512, .f32⟩
  | 89 => ⟨S16384x32, .f32⟩
  | 90 => ⟨S1x32, .f32⟩
  | 91 => ⟨S16384x32, .f32⟩
  | 92 => ⟨S16384x32, .f32⟩
  | 93 => ⟨S16384x32, .f32⟩
  | 94 => ⟨S1x32, .f32⟩
  | 95 => ⟨S32, .f32⟩
  | 96 => ⟨S1x32, .f32⟩
  | 97 => ⟨S16384x32, .f32⟩
  | 98 => ⟨S16384x32, .f32⟩
  | 99 => ⟨S1x32, .f32⟩
  | 100 => ⟨S32, .f32⟩
  | 101 => ⟨S1x32, .f32⟩
  | 102 => ⟨S16384x32, .f32⟩
  | 103 => ⟨S16384x32, .f32⟩
  | 104 => ⟨S16384x32, .f32⟩
  | 105 => ⟨S16384x32, .f32⟩
  | 106 => ⟨S16384x32, .f32⟩
  | 107 => ⟨S_, .i32⟩
  | 108 => ⟨S32, .i32⟩
  | 109 => ⟨S32, .i32⟩
  | 110 => ⟨S32, .i32⟩
  | 111 => ⟨S32x1, .i32⟩
  | 112 => ⟨S16384x64, .f32⟩
  | 113 => ⟨S_, .i32⟩
  | 114 => ⟨S32, .i32⟩
  | 115 => ⟨S32, .i32⟩
  | 116 => ⟨S32, .i32⟩
  | 117 => ⟨S32x1, .i32⟩
  | 118 => ⟨S16384x64, .f32⟩
  | 119 => ⟨S_, .i32⟩
  | 120 => ⟨S32, .i32⟩
  | 121 => ⟨S32, .i32⟩
  | 122 => ⟨S32, .i32⟩
  | 123 => ⟨S32x1, .i32⟩
  | 124 => ⟨S16384x32, .f32⟩
  | 125 => ⟨S_, .i32⟩
  | 126 => ⟨S32, .i32⟩
  | 127 => ⟨S32, .i32⟩
  | _ => ⟨S16384x64, .f32⟩

abbrev hbmTy0_2 (i : Nat) : BufTy := match i % 128 with
  | 0 => ⟨S32, .i32⟩
  | 1 => ⟨S32x1, .i32⟩
  | 2 => ⟨S16384x32, .f32⟩
  | 3 => ⟨S1x32x512, .f32⟩
  | 4 => ⟨S32x512, .f32⟩
  | 5 => ⟨S1x512, .f32⟩
  | 6 => ⟨S512, .f32⟩
  | 7 => ⟨S1x512x512, .f32⟩
  | 8 => ⟨S512x512, .f32⟩
  | 9 => ⟨S1x512, .f32⟩
  | 10 => ⟨S512, .f32⟩
  | 11 => ⟨S1x512x32, .f32⟩
  | 12 => ⟨S512x32, .f32⟩
  | 13 => ⟨S1x32, .f32⟩
  | 14 => ⟨S32, .f32⟩
  | 15 => ⟨S16384x512, .f32⟩
  | 16 => ⟨S1x512, .f32⟩
  | 17 => ⟨S16384x512, .f32⟩
  | 18 => ⟨S16384x512, .f32⟩
  | 19 => ⟨S_, .f32⟩
  | 20 => ⟨S16384x512, .f32⟩
  | 21 => ⟨S16384x512, .f32⟩
  | 22 => ⟨S16384x512, .f32⟩
  | 23 => ⟨S1x512, .f32⟩
  | 24 => ⟨S16384x512, .f32⟩
  | 25 => ⟨S16384x512, .f32⟩
  | 26 => ⟨S_, .f32⟩
  | 27 => ⟨S16384x512, .f32⟩
  | 28 => ⟨S16384x512, .f32⟩
  | 29 => ⟨S16384x32, .f32⟩
  | 30 => ⟨S1x32, .f32⟩
  | 31 => ⟨S16384x32, .f32⟩
  | 32 => ⟨S16384x32, .f32⟩
  | 33 => ⟨S1x32x512, .f32⟩
  | 34 => ⟨S32x512, .f32⟩
  | 35 => ⟨S1x512, .f32⟩
  | 36 => ⟨S512, .f32⟩
  | 37 => ⟨S1x512x512, .f32⟩
  | 38 => ⟨S512x512, .f32⟩
  | 39 => ⟨S1x512, .f32⟩
  | 40 => ⟨S512, .f32⟩
  | 41 => ⟨S1x512x32, .f32⟩
  | 42 => ⟨S512x32, .f32⟩
  | 43 => ⟨S1x32, .f32⟩
  | 44 => ⟨S32, .f32⟩
  | 45 => ⟨S16384x512, .f32⟩
  | 46 => ⟨S1x512, .f32⟩
  | 47 => ⟨S16384x512, .f32⟩
  | 48 => ⟨S16384x512, .f32⟩
  | 49 => ⟨S_, .f32⟩
  | 50 => ⟨S16384x512, .f32⟩
  | 51 => ⟨S16384x512, .f32⟩
  | 52 => ⟨S16384x512, .f32⟩
  | 53 => ⟨S1x512, .f32⟩
  | 54 => ⟨S16384x512, .f32⟩
  | 55 => ⟨S16384x512, .f32⟩
  | 56 => ⟨S_, .f32⟩
  | 57 => ⟨S16384x512, .f32⟩
  | 58 => ⟨S16384x512, .f32⟩
  | 59 => ⟨S16384x32, .f32⟩
  | 60 => ⟨S1x32, .f32⟩
  | 61 => ⟨S16384x32, .f32⟩
  | 62 => ⟨S16384x32, .f32⟩
  | 63 => ⟨S16384x32, .f32⟩
  | 64 => ⟨S1x32, .f32⟩
  | 65 => ⟨S32, .f32⟩
  | 66 => ⟨S1x32, .f32⟩
  | 67 => ⟨S16384x32, .f32⟩
  | 68 => ⟨S16384x32, .f32⟩
  | 69 => ⟨S1x32, .f32⟩
  | 70 => ⟨S32, .f32⟩
  | 71 => ⟨S1x32, .f32⟩
  | 72 => ⟨S16384x32, .f32⟩
  | 73 => ⟨S16384x32, .f32⟩
  | 74 => ⟨S16384x32, .f32⟩
  | 75 => ⟨S16384x32, .f32⟩
  | 76 => ⟨S16384x32, .f32⟩
  | 77 => ⟨S_, .i32⟩
  | 78 => ⟨S32, .i32⟩
  | 79 => ⟨S32, .i32⟩
  | 80 => ⟨S32, .i32⟩
  | 81 => ⟨S32x1, .i32⟩
  | 82 => ⟨S16384x64, .f32⟩
  | 83 => ⟨S_, .i32⟩
  | 84 => ⟨S32, .i32⟩
  | 85 => ⟨S32, .i32⟩
  | 86 => ⟨S32, .i32⟩
  | 87 => ⟨S32x1, .i32⟩
  | 88 => ⟨S16384x64, .f32⟩
  | 89 => ⟨S_, .i32⟩
  | 90 => ⟨S32, .i32⟩
  | 91 => ⟨S32, .i32⟩
  | 92 => ⟨S32, .i32⟩
  | 93 => ⟨S32x1, .i32⟩
  | 94 => ⟨S16384x32, .f32⟩
  | 95 => ⟨S_, .i32⟩
  | 96 => ⟨S32, .i32⟩
  | 97 => ⟨S32, .i32⟩
  | 98 => ⟨S32, .i32⟩
  | 99 => ⟨S32x1, .i32⟩
  | 100 => ⟨S16384x32, .f32⟩
  | 101 => ⟨S1x32x512, .f32⟩
  | 102 => ⟨S32x512, .f32⟩
  | 103 => ⟨S1x512, .f32⟩
  | 104 => ⟨S512, .f32⟩
  | 105 => ⟨S1x512x512, .f32⟩
  | 106 => ⟨S512x512, .f32⟩
  | 107 => ⟨S1x512, .f32⟩
  | 108 => ⟨S512, .f32⟩
  | 109 => ⟨S1x512x32, .f32⟩
  | 110 => ⟨S512x32, .f32⟩
  | 111 => ⟨S1x32, .f32⟩
  | 112 => ⟨S32, .f32⟩
  | 113 => ⟨S16384x512, .f32⟩
  | 114 => ⟨S1x512, .f32⟩
  | 115 => ⟨S16384x512, .f32⟩
  | 116 => ⟨S16384x512, .f32⟩
  | 117 => ⟨S_, .f32⟩
  | 118 => ⟨S16384x512, .f32⟩
  | 119 => ⟨S16384x512, .f32⟩
  | 120 => ⟨S16384x512, .f32⟩
  | 121 => ⟨S1x512, .f32⟩
  | 122 => ⟨S16384x512, .f32⟩
  | 123 => ⟨S16384x512, .f32⟩
  | 124 => ⟨S_, .f32⟩
  | 125 => ⟨S16384x512, .f32⟩
  | 126 => ⟨S16384x512, .f32⟩
  | 127 => ⟨S16384x32, .f32⟩
  | _ => ⟨S16384x64, .f32⟩

abbrev hbmTy0_3 (i : Nat) : BufTy := match i % 128 with
  | 0 => ⟨S1x32, .f32⟩
  | 1 => ⟨S16384x32, .f32⟩
  | 2 => ⟨S16384x32, .f32⟩
  | 3 => ⟨S1x32x512, .f32⟩
  | 4 => ⟨S32x512, .f32⟩
  | 5 => ⟨S1x512, .f32⟩
  | 6 => ⟨S512, .f32⟩
  | 7 => ⟨S1x512x512, .f32⟩
  | 8 => ⟨S512x512, .f32⟩
  | 9 => ⟨S1x512, .f32⟩
  | 10 => ⟨S512, .f32⟩
  | 11 => ⟨S1x512x32, .f32⟩
  | 12 => ⟨S512x32, .f32⟩
  | 13 => ⟨S1x32, .f32⟩
  | 14 => ⟨S32, .f32⟩
  | 15 => ⟨S16384x512, .f32⟩
  | 16 => ⟨S1x512, .f32⟩
  | 17 => ⟨S16384x512, .f32⟩
  | 18 => ⟨S16384x512, .f32⟩
  | 19 => ⟨S_, .f32⟩
  | 20 => ⟨S16384x512, .f32⟩
  | 21 => ⟨S16384x512, .f32⟩
  | 22 => ⟨S16384x512, .f32⟩
  | 23 => ⟨S1x512, .f32⟩
  | 24 => ⟨S16384x512, .f32⟩
  | 25 => ⟨S16384x512, .f32⟩
  | 26 => ⟨S_, .f32⟩
  | 27 => ⟨S16384x512, .f32⟩
  | 28 => ⟨S16384x512, .f32⟩
  | 29 => ⟨S16384x32, .f32⟩
  | 30 => ⟨S1x32, .f32⟩
  | 31 => ⟨S16384x32, .f32⟩
  | 32 => ⟨S16384x32, .f32⟩
  | 33 => ⟨S16384x32, .f32⟩
  | 34 => ⟨S1x32, .f32⟩
  | 35 => ⟨S32, .f32⟩
  | 36 => ⟨S1x32, .f32⟩
  | 37 => ⟨S16384x32, .f32⟩
  | 38 => ⟨S16384x32, .f32⟩
  | 39 => ⟨S1x32, .f32⟩
  | 40 => ⟨S32, .f32⟩
  | 41 => ⟨S1x32, .f32⟩
  | 42 => ⟨S16384x32, .f32⟩
  | 43 => ⟨S16384x32, .f32⟩
  | 44 => ⟨S16384x32, .f32⟩
  | 45 => ⟨S16384x32, .f32⟩
  | 46 => ⟨S16384x32, .f32⟩
  | 47 => ⟨S_, .i32⟩
  | 48 => ⟨S32, .i32⟩
  | 49 => ⟨S32, .i32⟩
  | 50 => ⟨S32, .i32⟩
  | 51 => ⟨S32x1, .i32⟩
  | 52 => ⟨S16384x64, .f32⟩
  | 53 => ⟨S_, .i32⟩
  | 54 => ⟨S32, .i32⟩
  | 55 => ⟨S32, .i32⟩
  | 56 => ⟨S32, .i32⟩
  | 57 => ⟨S32x1, .i32⟩
  | 58 => ⟨S16384x64, .f32⟩
  | 59 => ⟨S_, .i32⟩
  | 60 => ⟨S32, .i32⟩
  | 61 => ⟨S32, .i32⟩
  | 62 => ⟨S32, .i32⟩
  | 63 => ⟨S32x1, .i32⟩
  | 64 => ⟨S16384x32, .f32⟩
  | 65 => ⟨S_, .i32⟩
  | 66 => ⟨S32, .i32⟩
  | 67 => ⟨S32, .i32⟩
  | 68 => ⟨S32, .i32⟩
  | 69 => ⟨S32x1, .i32⟩
  | 70 => ⟨S16384x32, .f32⟩
  | 71 => ⟨S1x32x512, .f32⟩
  | 72 => ⟨S32x512, .f32⟩
  | 73 => ⟨S1x512, .f32⟩
  | 74 => ⟨S512, .f32⟩
  | 75 => ⟨S1x512x512, .f32⟩
  | 76 => ⟨S512x512, .f32⟩
  | 77 => ⟨S1x512, .f32⟩
  | 78 => ⟨S512, .f32⟩
  | 79 => ⟨S1x512x32, .f32⟩
  | 80 => ⟨S512x32, .f32⟩
  | 81 => ⟨S1x32, .f32⟩
  | 82 => ⟨S32, .f32⟩
  | 83 => ⟨S16384x512, .f32⟩
  | 84 => ⟨S1x512, .f32⟩
  | 85 => ⟨S16384x512, .f32⟩
  | 86 => ⟨S16384x512, .f32⟩
  | 87 => ⟨S_, .f32⟩
  | 88 => ⟨S16384x512, .f32⟩
  | 89 => ⟨S16384x512, .f32⟩
  | 90 => ⟨S16384x512, .f32⟩
  | 91 => ⟨S1x512, .f32⟩
  | 92 => ⟨S16384x512, .f32⟩
  | 93 => ⟨S16384x512, .f32⟩
  | 94 => ⟨S_, .f32⟩
  | 95 => ⟨S16384x512, .f32⟩
  | 96 => ⟨S16384x512, .f32⟩
  | 97 => ⟨S16384x32, .f32⟩
  | 98 => ⟨S1x32, .f32⟩
  | 99 => ⟨S16384x32, .f32⟩
  | 100 => ⟨S16384x32, .f32⟩
  | 101 => ⟨S1x32x512, .f32⟩
  | 102 => ⟨S32x512, .f32⟩
  | 103 => ⟨S1x512, .f32⟩
  | 104 => ⟨S512, .f32⟩
  | 105 => ⟨S1x512x512, .f32⟩
  | 106 => ⟨S512x512, .f32⟩
  | 107 => ⟨S1x512, .f32⟩
  | 108 => ⟨S512, .f32⟩
  | 109 => ⟨S1x512x32, .f32⟩
  | 110 => ⟨S512x32, .f32⟩
  | 111 => ⟨S1x32, .f32⟩
  | 112 => ⟨S32, .f32⟩
  | 113 => ⟨S16384x512, .f32⟩
  | 114 => ⟨S1x512, .f32⟩
  | 115 => ⟨S16384x512, .f32⟩
  | 116 => ⟨S16384x512, .f32⟩
  | 117 => ⟨S_, .f32⟩
  | 118 => ⟨S16384x512, .f32⟩
  | 119 => ⟨S16384x512, .f32⟩
  | 120 => ⟨S16384x512, .f32⟩
  | 121 => ⟨S1x512, .f32⟩
  | 122 => ⟨S16384x512, .f32⟩
  | 123 => ⟨S16384x512, .f32⟩
  | 124 => ⟨S_, .f32⟩
  | 125 => ⟨S16384x512, .f32⟩
  | 126 => ⟨S16384x512, .f32⟩
  | 127 => ⟨S16384x32, .f32⟩
  | _ => ⟨S16384x64, .f32⟩

abbrev hbmTy0_4 (i : Nat) : BufTy := match i % 128 with
  | 0 => ⟨S1x32, .f32⟩
  | 1 => ⟨S16384x32, .f32⟩
  | 2 => ⟨S16384x32, .f32⟩
  | 3 => ⟨S16384x32, .f32⟩
  | 4 => ⟨S1x32, .f32⟩
  | 5 => ⟨S32, .f32⟩
  | 6 => ⟨S1x32, .f32⟩
  | 7 => ⟨S16384x32, .f32⟩
  | 8 => ⟨S16384x32, .f32⟩
  | 9 => ⟨S1x32, .f32⟩
  | 10 => ⟨S32, .f32⟩
  | 11 => ⟨S1x32, .f32⟩
  | 12 => ⟨S16384x32, .f32⟩
  | 13 => ⟨S16384x32, .f32⟩
  | 14 => ⟨S16384x32, .f32⟩
  | 15 => ⟨S16384x32, .f32⟩
  | 16 => ⟨S16384x32, .f32⟩
  | 17 => ⟨S_, .i32⟩
  | 18 => ⟨S32, .i32⟩
  | 19 => ⟨S32, .i32⟩
  | 20 => ⟨S32, .i32⟩
  | 21 => ⟨S32x1, .i32⟩
  | 22 => ⟨S16384x64, .f32⟩
  | 23 => ⟨S_, .i32⟩
  | 24 => ⟨S32, .i32⟩
  | 25 => ⟨S32, .i32⟩
  | 26 => ⟨S32, .i32⟩
  | 27 => ⟨S32x1, .i32⟩
  | 28 => ⟨S16384x64, .f32⟩
  | 29 => ⟨S_, .i32⟩
  | 30 => ⟨S32, .i32⟩
  | 31 => ⟨S32, .i32⟩
  | 32 => ⟨S32, .i32⟩
  | 33 => ⟨S32x1, .i32⟩
  | 34 => ⟨S16384x32, .f32⟩
  | 35 => ⟨S_, .i32⟩
  | 36 => ⟨S32, .i32⟩
  | 37 => ⟨S32, .i32⟩
  | 38 => ⟨S32, .i32⟩
  | 39 => ⟨S32x1, .i32⟩
  | 40 => ⟨S16384x32, .f32⟩
  | 41 => ⟨S1x32x512, .f32⟩
  | 42 => ⟨S32x512, .f32⟩
  | 43 => ⟨S1x512, .f32⟩
  | 44 => ⟨S512, .f32⟩
  | 45 => ⟨S1x512x512, .f32⟩
  | 46 => ⟨S512x512, .f32⟩
  | 47 => ⟨S1x512, .f32⟩
  | 48 => ⟨S512, .f32⟩
  | 49 => ⟨S1x512x32, .f32⟩
  | 50 => ⟨S512x32, .f32⟩
  | 51 => ⟨S1x32, .f32⟩
  | 52 => ⟨S32, .f32⟩
  | 53 => ⟨S16384x512, .f32⟩
  | 54 => ⟨S1x512, .f32⟩
  | 55 => ⟨S16384x512, .f32⟩
  | 56 => ⟨S16384x512, .f32⟩
  | 57 => ⟨S_, .f32⟩
  | 58 => ⟨S16384x512, .f32⟩
  | 59 => ⟨S16384x512, .f32⟩
  | 60 => ⟨S16384x512, .f32⟩
  | 61 => ⟨S1x512, .f32⟩
  | 62 => ⟨S16384x512, .f32⟩
  | 63 => ⟨S16384x512, .f32⟩
  | 64 => ⟨S_, .f32⟩
  | 65 => ⟨S16384x512, .f32⟩
  | 66 => ⟨S16384x512, .f32⟩
  | 67 => ⟨S16384x32, .f32⟩
  | 68 => ⟨S1x32, .f32⟩
  | 69 => ⟨S16384x32, .f32⟩
  | 70 => ⟨S16384x32, .f32⟩
  | 71 => ⟨S1x32x512, .f32⟩
  | 72 => ⟨S32x512, .f32⟩
  | 73 => ⟨S1x512, .f32⟩
  | 74 => ⟨S512, .f32⟩
  | 75 => ⟨S1x512x512, .f32⟩
  | 76 => ⟨S512x512, .f32⟩
  | 77 => ⟨S1x512, .f32⟩
  | 78 => ⟨S512, .f32⟩
  | 79 => ⟨S1x512x32, .f32⟩
  | 80 => ⟨S512x32, .f32⟩
  | 81 => ⟨S1x32, .f32⟩
  | 82 => ⟨S32, .f32⟩
  | 83 => ⟨S16384x512, .f32⟩
  | 84 => ⟨S1x512, .f32⟩
  | 85 => ⟨S16384x512, .f32⟩
  | 86 => ⟨S16384x512, .f32⟩
  | 87 => ⟨S_, .f32⟩
  | 88 => ⟨S16384x512, .f32⟩
  | 89 => ⟨S16384x512, .f32⟩
  | 90 => ⟨S16384x512, .f32⟩
  | 91 => ⟨S1x512, .f32⟩
  | 92 => ⟨S16384x512, .f32⟩
  | 93 => ⟨S16384x512, .f32⟩
  | 94 => ⟨S_, .f32⟩
  | 95 => ⟨S16384x512, .f32⟩
  | 96 => ⟨S16384x512, .f32⟩
  | 97 => ⟨S16384x32, .f32⟩
  | 98 => ⟨S1x32, .f32⟩
  | 99 => ⟨S16384x32, .f32⟩
  | 100 => ⟨S16384x32, .f32⟩
  | 101 => ⟨S16384x32, .f32⟩
  | 102 => ⟨S1x32, .f32⟩
  | 103 => ⟨S32, .f32⟩
  | 104 => ⟨S1x32, .f32⟩
  | 105 => ⟨S16384x32, .f32⟩
  | 106 => ⟨S16384x32, .f32⟩
  | 107 => ⟨S1x32, .f32⟩
  | 108 => ⟨S32, .f32⟩
  | 109 => ⟨S1x32, .f32⟩
  | 110 => ⟨S16384x32, .f32⟩
  | 111 => ⟨S16384x32, .f32⟩
  | 112 => ⟨S16384x32, .f32⟩
  | 113 => ⟨S16384x32, .f32⟩
  | 114 => ⟨S16384x32, .f32⟩
  | 115 => ⟨S_, .i32⟩
  | 116 => ⟨S32, .i32⟩
  | 117 => ⟨S32, .i32⟩
  | 118 => ⟨S32, .i32⟩
  | 119 => ⟨S32x1, .i32⟩
  | 120 => ⟨S16384x64, .f32⟩
  | 121 => ⟨S_, .i32⟩
  | 122 => ⟨S32, .i32⟩
  | 123 => ⟨S32, .i32⟩
  | 124 => ⟨S32, .i32⟩
  | 125 => ⟨S32x1, .i32⟩
  | 126 => ⟨S16384x64, .f32⟩
  | 127 => ⟨S_, .i32⟩
  | _ => ⟨S16384x64, .f32⟩

abbrev hbmTy0_5 (i : Nat) : BufTy := match i % 128 with
  | 0 => ⟨S32, .i32⟩
  | 1 => ⟨S32, .i32⟩
  | 2 => ⟨S32, .i32⟩
  | 3 => ⟨S32x1, .i32⟩
  | 4 => ⟨S16384x32, .f32⟩
  | 5 => ⟨S_, .i32⟩
  | 6 => ⟨S32, .i32⟩
  | 7 => ⟨S32, .i32⟩
  | 8 => ⟨S32, .i32⟩
  | 9 => ⟨S32x1, .i32⟩
  | 10 => ⟨S16384x32, .f32⟩
  | 11 => ⟨S1x32x512, .f32⟩
  | 12 => ⟨S32x512, .f32⟩
  | 13 => ⟨S1x512, .f32⟩
  | 14 => ⟨S512, .f32⟩
  | 15 => ⟨S1x512x512, .f32⟩
  | 16 => ⟨S512x512, .f32⟩
  | 17 => ⟨S1x512, .f32⟩
  | 18 => ⟨S512, .f32⟩
  | 19 => ⟨S1x512x32, .f32⟩
  | 20 => ⟨S512x32, .f32⟩
  | 21 => ⟨S1x32, .f32⟩
  | 22 => ⟨S32, .f32⟩
  | 23 => ⟨S16384x512, .f32⟩
  | 24 => ⟨S1x512, .f32⟩
  | 25 => ⟨S16384x512, .f32⟩
  | 26 => ⟨S16384x512, .f32⟩
  | 27 => ⟨S_, .f32⟩
  | 28 => ⟨S16384x512, .f32⟩
  | 29 => ⟨S16384x512, .f32⟩
  | 30 => ⟨S16384x512, .f32⟩
  | 31 => ⟨S1x512, .f32⟩
  | 32 => ⟨S16384x512, .f32⟩
  | 33 => ⟨S16384x512, .f32⟩
  | 34 => ⟨S_, .f32⟩
  | 35 => ⟨S16384x512, .f32⟩
  | 36 => ⟨S16384x512, .f32⟩
  | 37 => ⟨S16384x32, .f32⟩
  | 38 => ⟨S1x32, .f32⟩
  | 39 => ⟨S16384x32, .f32⟩
  | 40 => ⟨S16384x32, .f32⟩
  | 41 => ⟨S1x32x512, .f32⟩
  | 42 => ⟨S32x512, .f32⟩
  | 43 => ⟨S1x512, .f32⟩
  | 44 => ⟨S512, .f32⟩
  | 45 => ⟨S1x512x512, .f32⟩
  | 46 => ⟨S512x512, .f32⟩
  | 47 => ⟨S1x512, .f32⟩
  | 48 => ⟨S512, .f32⟩
  | 49 => ⟨S1x512x32, .f32⟩
  | 50 => ⟨S512x32, .f32⟩
  | 51 => ⟨S1x32, .f32⟩
  | 52 => ⟨S32, .f32⟩
  | 53 => ⟨S16384x512, .f32⟩
  | 54 => ⟨S1x512, .f32⟩
  | 55 => ⟨S16384x512, .f32⟩
  | 56 => ⟨S16384x512, .f32⟩
  | 57 => ⟨S_, .f32⟩
  | 58 => ⟨S16384x512, .f32⟩
  | 59 => ⟨S16384x512, .f32⟩
  | 60 => ⟨S16384x512, .f32⟩
  | 61 => ⟨S1x512, .f32⟩
  | 62 => ⟨S16384x512, .f32⟩
  | 63 => ⟨S16384x512, .f32⟩
  | 64 => ⟨S_, .f32⟩
  | 65 => ⟨S16384x512, .f32⟩
  | 66 => ⟨S16384x512, .f32⟩
  | 67 => ⟨S16384x32, .f32⟩
  | 68 => ⟨S1x32, .f32⟩
  | 69 => ⟨S16384x32, .f32⟩
  | 70 => ⟨S16384x32, .f32⟩
  | 71 => ⟨S16384x32, .f32⟩
  | 72 => ⟨S1x32, .f32⟩
  | 73 => ⟨S32, .f32⟩
  | 74 => ⟨S1x32, .f32⟩
  | 75 => ⟨S16384x32, .f32⟩
  | 76 => ⟨S16384x32, .f32⟩
  | 77 => ⟨S1x32, .f32⟩
  | 78 => ⟨S32, .f32⟩
  | 79 => ⟨S1x32, .f32⟩
  | 80 => ⟨S16384x32, .f32⟩
  | 81 => ⟨S16384x32, .f32⟩
  | 82 => ⟨S16384x32, .f32⟩
  | 83 => ⟨S16384x32, .f32⟩
  | 84 => ⟨S16384x32, .f32⟩
  | 85 => ⟨S_, .i32⟩
  | 86 => ⟨S32, .i32⟩
  | 87 => ⟨S32, .i32⟩
  | 88 => ⟨S32, .i32⟩
  | 89 => ⟨S32x1, .i32⟩
  | 90 => ⟨S16384x64, .f32⟩
  | 91 => ⟨S_, .i32⟩
  | 92 => ⟨S32, .i32⟩
  | 93 => ⟨S32, .i32⟩
  | 94 => ⟨S32, .i32⟩
  | 95 => ⟨S32x1, .i32⟩
  | 96 => ⟨S16384x64, .f32⟩
  | 97 => ⟨S_, .i32⟩
  | 98 => ⟨S32, .i32⟩
  | 99 => ⟨S32, .i32⟩
  | 100 => ⟨S32, .i32⟩
  | 101 => ⟨S32x1, .i32⟩
  | 102 => ⟨S16384x32, .f32⟩
  | 103 => ⟨S_, .i32⟩
  | 104 => ⟨S32, .i32⟩
  | 105 => ⟨S32, .i32⟩
  | 106 => ⟨S32, .i32⟩
  | 107 => ⟨S32x1, .i32⟩
  | 108 => ⟨S16384x32, .f32⟩
  | 109 => ⟨S1x32x512, .f32⟩
  | 110 => ⟨S32x512, .f32⟩
  | 111 => ⟨S1x512, .f32⟩
  | 112 => ⟨S512, .f32⟩
  | 113 => ⟨S1x512x512, .f32⟩
  | 114 => ⟨S512x512, .f32⟩
  | 115 => ⟨S1x512, .f32⟩
  | 116 => ⟨S512, .f32⟩
  | 117 => ⟨S1x512x32, .f32⟩
  | 118 => ⟨S512x32, .f32⟩
  | 119 => ⟨S1x32, .f32⟩
  | 120 => ⟨S32, .f32⟩
  | 121 => ⟨S16384x512, .f32⟩
  | 122 => ⟨S1x512, .f32⟩
  | 123 => ⟨S16384x512, .f32⟩
  | 124 => ⟨S16384x512, .f32⟩
  | 125 => ⟨S_, .f32⟩
  | 126 => ⟨S16384x512, .f32⟩
  | 127 => ⟨S16384x512, .f32⟩
  | _ => ⟨S16384x64, .f32⟩

abbrev hbmTy0_6 (i : Nat) : BufTy := match i % 128 with
  | 0 => ⟨S16384x512, .f32⟩
  | 1 => ⟨S1x512, .f32⟩
  | 2 => ⟨S16384x512, .f32⟩
  | 3 => ⟨S16384x512, .f32⟩
  | 4 => ⟨S_, .f32⟩
  | 5 => ⟨S16384x512, .f32⟩
  | 6 => ⟨S16384x512, .f32⟩
  | 7 => ⟨S16384x32, .f32⟩
  | 8 => ⟨S1x32, .f32⟩
  | 9 => ⟨S16384x32, .f32⟩
  | 10 => ⟨S16384x32, .f32⟩
  | 11 => ⟨S1x32x512, .f32⟩
  | 12 => ⟨S32x512, .f32⟩
  | 13 => ⟨S1x512, .f32⟩
  | 14 => ⟨S512, .f32⟩
  | 15 => ⟨S1x512x512, .f32⟩
  | 16 => ⟨S512x512, .f32⟩
  | 17 => ⟨S1x512, .f32⟩
  | 18 => ⟨S512, .f32⟩
  | 19 => ⟨S1x512x32, .f32⟩
  | 20 => ⟨S512x32, .f32⟩
  | 21 => ⟨S1x32, .f32⟩
  | 22 => ⟨S32, .f32⟩
  | 23 => ⟨S16384x512, .f32⟩
  | 24 => ⟨S1x512, .f32⟩
  | 25 => ⟨S16384x512, .f32⟩
  | 26 => ⟨S16384x512, .f32⟩
  | 27 => ⟨S_, .f32⟩
  | 28 => ⟨S16384x512, .f32⟩
  | 29 => ⟨S16384x512, .f32⟩
  | 30 => ⟨S16384x512, .f32⟩
  | 31 => ⟨S1x512, .f32⟩
  | 32 => ⟨S16384x512, .f32⟩
  | 33 => ⟨S16384x512, .f32⟩
  | 34 => ⟨S_, .f32⟩
  | 35 => ⟨S16384x512, .f32⟩
  | 36 => ⟨S16384x512, .f32⟩
  | 37 => ⟨S16384x32, .f32⟩
  | 38 => ⟨S1x32, .f32⟩
  | 39 => ⟨S16384x32, .f32⟩
  | 40 => ⟨S16384x32, .f32⟩
  | 41 => ⟨S16384x32, .f32⟩
  | 42 => ⟨S1x32, .f32⟩
  | 43 => ⟨S32, .f32⟩
  | 44 => ⟨S1x32, .f32⟩
  | 45 => ⟨S16384x32, .f32⟩
  | 46 => ⟨S16384x32, .f32⟩
  | 47 => ⟨S1x32, .f32⟩
  | 48 => ⟨S32, .f32⟩
  | 49 => ⟨S1x32, .f32⟩
  | 50 => ⟨S16384x32, .f32⟩
  | 51 => ⟨S16384x32, .f32⟩
  | 52 => ⟨S16384x32, .f32⟩
  | 53 => ⟨S16384x32, .f32⟩
  | 54 => ⟨S16384x32, .f32⟩
  | 55 => ⟨S_, .i32⟩
  | 56 => ⟨S32, .i32⟩
  | 57 => ⟨S32, .i32⟩
  | 58 => ⟨S32, .i32⟩
  | 59 => ⟨S32x1, .i32⟩
  | 60 => ⟨S16384x64, .f32⟩
  | 61 => ⟨S_, .i32⟩
  | 62 => ⟨S32, .i32⟩
  | 63 => ⟨S32, .i32⟩
  | 64 => ⟨S32, .i32⟩
  | 65 => ⟨S32x1, .i32⟩
  | 66 => ⟨S16384x64, .f32⟩
  | _ => ⟨S16384x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S16384x64, .f32⟩

abbrev bufTy : (tb : Table) → Fin (tcTables nBuf tb) → BufTy
  | .hbm, ⟨i, _⟩ => hbmTy i
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_c_0 : Ref sig .tc := ⟨.hbm, 16, rfl⟩
abbrev main_c_1 : Ref sig .tc := ⟨.hbm, 17, rfl⟩
abbrev main_c_2 : Ref sig .tc := ⟨.hbm, 18, rfl⟩
abbrev main_c_3 : Ref sig .tc := ⟨.hbm, 19, rfl⟩
abbrev main_c_4 : Ref sig .tc := ⟨.hbm, 20, rfl⟩
abbrev main_c_5 : Ref sig .tc := ⟨.hbm, 21, rfl⟩
abbrev main_c_6 : Ref sig .tc := ⟨.hbm, 22, rfl⟩
abbrev main_c_7 : Ref sig .tc := ⟨.hbm, 23, rfl⟩
abbrev main_c_8 : Ref sig .tc := ⟨.hbm, 24, rfl⟩
abbrev main_c_9 : Ref sig .tc := ⟨.hbm, 25, rfl⟩
abbrev main_c_10 : Ref sig .tc := ⟨.hbm, 26, rfl⟩
abbrev main_c_11 : Ref sig .tc := ⟨.hbm, 27, rfl⟩
abbrev main_c_12 : Ref sig .tc := ⟨.hbm, 28, rfl⟩
abbrev main_c_13 : Ref sig .tc := ⟨.hbm, 29, rfl⟩
abbrev main_c_14 : Ref sig .tc := ⟨.hbm, 30, rfl⟩
abbrev main_c_15 : Ref sig .tc := ⟨.hbm, 31, rfl⟩
abbrev main_c_16 : Ref sig .tc := ⟨.hbm, 32, rfl⟩
abbrev main_c_17 : Ref sig .tc := ⟨.hbm, 33, rfl⟩
abbrev main_c_18 : Ref sig .tc := ⟨.hbm, 34, rfl⟩
abbrev main_c_19 : Ref sig .tc := ⟨.hbm, 35, rfl⟩
abbrev main_c_20 : Ref sig .tc := ⟨.hbm, 36, rfl⟩
abbrev main_c_21 : Ref sig .tc := ⟨.hbm, 37, rfl⟩
abbrev main_c_22 : Ref sig .tc := ⟨.hbm, 38, rfl⟩
abbrev main_c_23 : Ref sig .tc := ⟨.hbm, 39, rfl⟩
abbrev main_c_24 : Ref sig .tc := ⟨.hbm, 40, rfl⟩
abbrev main_c_25 : Ref sig .tc := ⟨.hbm, 41, rfl⟩
abbrev main_c_26 : Ref sig .tc := ⟨.hbm, 42, rfl⟩
abbrev main_c_27 : Ref sig .tc := ⟨.hbm, 43, rfl⟩
abbrev main_c_28 : Ref sig .tc := ⟨.hbm, 44, rfl⟩
abbrev main_c_29 : Ref sig .tc := ⟨.hbm, 45, rfl⟩
abbrev main_c_30 : Ref sig .tc := ⟨.hbm, 46, rfl⟩
abbrev main_c_31 : Ref sig .tc := ⟨.hbm, 47, rfl⟩
abbrev main_c_32 : Ref sig .tc := ⟨.hbm, 48, rfl⟩
abbrev main_cst : Ref sig .tc := ⟨.hbm, 49, rfl⟩
abbrev main_v0 : Ref sig .tc := ⟨.hbm, 50, rfl⟩
abbrev main_c_33 : Ref sig .tc := ⟨.hbm, 51, rfl⟩
abbrev main_v1 : Ref sig .tc := ⟨.hbm, 52, rfl⟩
abbrev main_v2 : Ref sig .tc := ⟨.hbm, 53, rfl⟩
abbrev main_v3 : Ref sig .tc := ⟨.hbm, 54, rfl⟩
abbrev main_v4 : Ref sig .tc := ⟨.hbm, 55, rfl⟩
abbrev main_v5 : Ref sig .tc := ⟨.hbm, 56, rfl⟩
abbrev main_c_34 : Ref sig .tc := ⟨.hbm, 57, rfl⟩
abbrev main_v6 : Ref sig .tc := ⟨.hbm, 58, rfl⟩
abbrev main_v7 : Ref sig .tc := ⟨.hbm, 59, rfl⟩
abbrev main_v8 : Ref sig .tc := ⟨.hbm, 60, rfl⟩
abbrev main_v9 : Ref sig .tc := ⟨.hbm, 61, rfl⟩
abbrev main_v10 : Ref sig .tc := ⟨.hbm, 62, rfl⟩
abbrev main_v11 : Ref sig .tc := ⟨.hbm, 63, rfl⟩
abbrev main_v12 : Ref sig .tc := ⟨.hbm, 64, rfl⟩
abbrev main_v13 : Ref sig .tc := ⟨.hbm, 65, rfl⟩
abbrev main_v14 : Ref sig .tc := ⟨.hbm, 66, rfl⟩
abbrev main_v15 : Ref sig .tc := ⟨.hbm, 67, rfl⟩
abbrev main_v16 : Ref sig .tc := ⟨.hbm, 68, rfl⟩
abbrev main_v17 : Ref sig .tc := ⟨.hbm, 69, rfl⟩
abbrev main_v18 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_call0_cst : Ref sig .tc := ⟨.hbm, 79, rfl⟩
abbrev main_call0_v0 : Ref sig .tc := ⟨.hbm, 80, rfl⟩
abbrev main_v27 : Ref sig .tc := ⟨.hbm, 81, rfl⟩
abbrev main_v28 : Ref sig .tc := ⟨.hbm, 82, rfl⟩
abbrev main_v29 : Ref sig .tc := ⟨.hbm, 83, rfl⟩
abbrev main_v30 : Ref sig .tc := ⟨.hbm, 84, rfl⟩
abbrev main_v31 : Ref sig .tc := ⟨.hbm, 85, rfl⟩
abbrev main_call1_cst : Ref sig .tc := ⟨.hbm, 86, rfl⟩
abbrev main_call1_v0 : Ref sig .tc := ⟨.hbm, 87, rfl⟩
abbrev main_v32 : Ref sig .tc := ⟨.hbm, 88, rfl⟩
abbrev main_v33 : Ref sig .tc := ⟨.hbm, 89, rfl⟩
abbrev main_v34 : Ref sig .tc := ⟨.hbm, 90, rfl⟩
abbrev main_v35 : Ref sig .tc := ⟨.hbm, 91, rfl⟩
abbrev main_v36 : Ref sig .tc := ⟨.hbm, 92, rfl⟩
abbrev main_v37 : Ref sig .tc := ⟨.hbm, 93, rfl⟩
abbrev main_v38 : Ref sig .tc := ⟨.hbm, 94, rfl⟩
abbrev main_v39 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_v43 : Ref sig .tc := ⟨.hbm, 99, rfl⟩
abbrev main_v44 : Ref sig .tc := ⟨.hbm, 100, rfl⟩
abbrev main_v45 : Ref sig .tc := ⟨.hbm, 101, rfl⟩
abbrev main_v46 : Ref sig .tc := ⟨.hbm, 102, rfl⟩
abbrev main_v47 : Ref sig .tc := ⟨.hbm, 103, rfl⟩
abbrev main_v48 : Ref sig .tc := ⟨.hbm, 104, rfl⟩
abbrev main_v49 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_call2_cst : Ref sig .tc := ⟨.hbm, 109, rfl⟩
abbrev main_call2_v0 : Ref sig .tc := ⟨.hbm, 110, rfl⟩
abbrev main_v53 : Ref sig .tc := ⟨.hbm, 111, rfl⟩
abbrev main_v54 : Ref sig .tc := ⟨.hbm, 112, rfl⟩
abbrev main_v55 : Ref sig .tc := ⟨.hbm, 113, rfl⟩
abbrev main_v56 : Ref sig .tc := ⟨.hbm, 114, rfl⟩
abbrev main_v57 : Ref sig .tc := ⟨.hbm, 115, rfl⟩
abbrev main_call3_cst : Ref sig .tc := ⟨.hbm, 116, rfl⟩
abbrev main_call3_v0 : Ref sig .tc := ⟨.hbm, 117, rfl⟩
abbrev main_v58 : Ref sig .tc := ⟨.hbm, 118, rfl⟩
abbrev main_v59 : Ref sig .tc := ⟨.hbm, 119, rfl⟩
abbrev main_v60 : Ref sig .tc := ⟨.hbm, 120, rfl⟩
abbrev main_v61 : Ref sig .tc := ⟨.hbm, 121, rfl⟩
abbrev main_v62 : Ref sig .tc := ⟨.hbm, 122, rfl⟩
abbrev main_v63 : Ref sig .tc := ⟨.hbm, 123, rfl⟩
abbrev main_v64 : Ref sig .tc := ⟨.hbm, 124, rfl⟩
abbrev main_v65 : Ref sig .tc := ⟨.hbm, 125, rfl⟩
abbrev main_v66 : Ref sig .tc := ⟨.hbm, 126, rfl⟩
abbrev main_v67 : Ref sig .tc := ⟨.hbm, 127, rfl⟩
abbrev main_v68 : Ref sig .tc := ⟨.hbm, 128, rfl⟩
abbrev main_v69 : Ref sig .tc := ⟨.hbm, 129, rfl⟩
abbrev main_v70 : Ref sig .tc := ⟨.hbm, 130, rfl⟩
abbrev main_v71 : Ref sig .tc := ⟨.hbm, 131, rfl⟩
abbrev main_v72 : Ref sig .tc := ⟨.hbm, 132, rfl⟩
abbrev main_v73 : Ref sig .tc := ⟨.hbm, 133, rfl⟩
abbrev main_v74 : Ref sig .tc := ⟨.hbm, 134, rfl⟩
abbrev main_v75 : Ref sig .tc := ⟨.hbm, 135, rfl⟩
abbrev main_v76 : Ref sig .tc := ⟨.hbm, 136, rfl⟩
abbrev main_c_35 : Ref sig .tc := ⟨.hbm, 137, rfl⟩
abbrev main_v77 : Ref sig .tc := ⟨.hbm, 138, rfl⟩
abbrev main_v78 : Ref sig .tc := ⟨.hbm, 139, rfl⟩
abbrev main_v79 : Ref sig .tc := ⟨.hbm, 140, rfl⟩
abbrev main_v80 : Ref sig .tc := ⟨.hbm, 141, rfl⟩
abbrev main_v81 : Ref sig .tc := ⟨.hbm, 142, rfl⟩
abbrev main_c_36 : Ref sig .tc := ⟨.hbm, 143, rfl⟩
abbrev main_v82 : Ref sig .tc := ⟨.hbm, 144, rfl⟩
abbrev main_v83 : Ref sig .tc := ⟨.hbm, 145, rfl⟩
abbrev main_v84 : Ref sig .tc := ⟨.hbm, 146, rfl⟩
abbrev main_v85 : Ref sig .tc := ⟨.hbm, 147, rfl⟩
abbrev main_v86 : Ref sig .tc := ⟨.hbm, 148, rfl⟩
abbrev main_c_37 : Ref sig .tc := ⟨.hbm, 149, rfl⟩
abbrev main_v87 : Ref sig .tc := ⟨.hbm, 150, rfl⟩
abbrev main_v88 : Ref sig .tc := ⟨.hbm, 151, rfl⟩
abbrev main_v89 : Ref sig .tc := ⟨.hbm, 152, rfl⟩
abbrev main_v90 : Ref sig .tc := ⟨.hbm, 153, rfl⟩
abbrev main_v91 : Ref sig .tc := ⟨.hbm, 154, rfl⟩
abbrev main_c_38 : Ref sig .tc := ⟨.hbm, 155, rfl⟩
abbrev main_v92 : Ref sig .tc := ⟨.hbm, 156, rfl⟩
abbrev main_v93 : Ref sig .tc := ⟨.hbm, 157, rfl⟩
abbrev main_v94 : Ref sig .tc := ⟨.hbm, 158, rfl⟩
abbrev main_v95 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_v103 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_v107 : Ref sig .tc := ⟨.hbm, 171, rfl⟩
abbrev main_v108 : Ref sig .tc := ⟨.hbm, 172, rfl⟩
abbrev main_v109 : Ref sig .tc := ⟨.hbm, 173, rfl⟩
abbrev main_v110 : Ref sig .tc := ⟨.hbm, 174, rfl⟩
abbrev main_v111 : Ref sig .tc := ⟨.hbm, 175, rfl⟩
abbrev main_v112 : Ref sig .tc := ⟨.hbm, 176, rfl⟩
abbrev main_call4_cst : Ref sig .tc := ⟨.hbm, 177, rfl⟩
abbrev main_call4_v0 : Ref sig .tc := ⟨.hbm, 178, rfl⟩
abbrev main_v113 : Ref sig .tc := ⟨.hbm, 179, rfl⟩
abbrev main_v114 : Ref sig .tc := ⟨.hbm, 180, rfl⟩
abbrev main_v115 : Ref sig .tc := ⟨.hbm, 181, rfl⟩
abbrev main_v116 : Ref sig .tc := ⟨.hbm, 182, rfl⟩
abbrev main_v117 : Ref sig .tc := ⟨.hbm, 183, rfl⟩
abbrev main_call5_cst : Ref sig .tc := ⟨.hbm, 184, rfl⟩
abbrev main_call5_v0 : Ref sig .tc := ⟨.hbm, 185, rfl⟩
abbrev main_v118 : Ref sig .tc := ⟨.hbm, 186, rfl⟩
abbrev main_v119 : Ref sig .tc := ⟨.hbm, 187, rfl⟩
abbrev main_v120 : Ref sig .tc := ⟨.hbm, 188, rfl⟩
abbrev main_v121 : Ref sig .tc := ⟨.hbm, 189, rfl⟩
abbrev main_v122 : Ref sig .tc := ⟨.hbm, 190, rfl⟩
abbrev main_v123 : Ref sig .tc := ⟨.hbm, 191, rfl⟩
abbrev main_v124 : Ref sig .tc := ⟨.hbm, 192, rfl⟩
abbrev main_v125 : Ref sig .tc := ⟨.hbm, 193, rfl⟩
abbrev main_v126 : Ref sig .tc := ⟨.hbm, 194, rfl⟩
abbrev main_v127 : Ref sig .tc := ⟨.hbm, 195, rfl⟩
abbrev main_v128 : Ref sig .tc := ⟨.hbm, 196, rfl⟩
abbrev main_v129 : Ref sig .tc := ⟨.hbm, 197, rfl⟩
abbrev main_v130 : Ref sig .tc := ⟨.hbm, 198, rfl⟩
abbrev main_v131 : Ref sig .tc := ⟨.hbm, 199, rfl⟩
abbrev main_v132 : Ref sig .tc := ⟨.hbm, 200, rfl⟩
abbrev main_v133 : Ref sig .tc := ⟨.hbm, 201, rfl⟩
abbrev main_v134 : Ref sig .tc := ⟨.hbm, 202, rfl⟩
abbrev main_v135 : Ref sig .tc := ⟨.hbm, 203, rfl⟩
abbrev main_v136 : Ref sig .tc := ⟨.hbm, 204, rfl⟩
abbrev main_v137 : Ref sig .tc := ⟨.hbm, 205, rfl⟩
abbrev main_v138 : Ref sig .tc := ⟨.hbm, 206, rfl⟩
abbrev main_call6_cst : Ref sig .tc := ⟨.hbm, 207, rfl⟩
abbrev main_call6_v0 : Ref sig .tc := ⟨.hbm, 208, rfl⟩
abbrev main_v139 : Ref sig .tc := ⟨.hbm, 209, rfl⟩
abbrev main_v140 : Ref sig .tc := ⟨.hbm, 210, rfl⟩
abbrev main_v141 : Ref sig .tc := ⟨.hbm, 211, rfl⟩
abbrev main_v142 : Ref sig .tc := ⟨.hbm, 212, rfl⟩
abbrev main_v143 : Ref sig .tc := ⟨.hbm, 213, rfl⟩
abbrev main_call7_cst : Ref sig .tc := ⟨.hbm, 214, rfl⟩
abbrev main_call7_v0 : Ref sig .tc := ⟨.hbm, 215, rfl⟩
abbrev main_v144 : Ref sig .tc := ⟨.hbm, 216, rfl⟩
abbrev main_v145 : Ref sig .tc := ⟨.hbm, 217, rfl⟩
abbrev main_v146 : Ref sig .tc := ⟨.hbm, 218, rfl⟩
abbrev main_v147 : Ref sig .tc := ⟨.hbm, 219, rfl⟩
abbrev main_v148 : Ref sig .tc := ⟨.hbm, 220, rfl⟩
abbrev main_v149 : Ref sig .tc := ⟨.hbm, 221, rfl⟩
abbrev main_v150 : Ref sig .tc := ⟨.hbm, 222, rfl⟩
abbrev main_v151 : Ref sig .tc := ⟨.hbm, 223, rfl⟩
abbrev main_v152 : Ref sig .tc := ⟨.hbm, 224, rfl⟩
abbrev main_v153 : Ref sig .tc := ⟨.hbm, 225, rfl⟩
abbrev main_v154 : Ref sig .tc := ⟨.hbm, 226, rfl⟩
abbrev main_v155 : Ref sig .tc := ⟨.hbm, 227, rfl⟩
abbrev main_v156 : Ref sig .tc := ⟨.hbm, 228, rfl⟩
abbrev main_v157 : Ref sig .tc := ⟨.hbm, 229, rfl⟩
abbrev main_v158 : Ref sig .tc := ⟨.hbm, 230, rfl⟩
abbrev main_v159 : Ref sig .tc := ⟨.hbm, 231, rfl⟩
abbrev main_v160 : Ref sig .tc := ⟨.hbm, 232, rfl⟩
abbrev main_v161 : Ref sig .tc := ⟨.hbm, 233, rfl⟩
abbrev main_v162 : Ref sig .tc := ⟨.hbm, 234, rfl⟩
abbrev main_c_39 : Ref sig .tc := ⟨.hbm, 235, rfl⟩
abbrev main_v163 : Ref sig .tc := ⟨.hbm, 236, rfl⟩
abbrev main_v164 : Ref sig .tc := ⟨.hbm, 237, rfl⟩
abbrev main_v165 : Ref sig .tc := ⟨.hbm, 238, rfl⟩
abbrev main_v166 : Ref sig .tc := ⟨.hbm, 239, rfl⟩
abbrev main_v167 : Ref sig .tc := ⟨.hbm, 240, rfl⟩
abbrev main_c_40 : Ref sig .tc := ⟨.hbm, 241, rfl⟩
abbrev main_v168 : Ref sig .tc := ⟨.hbm, 242, rfl⟩
abbrev main_v169 : Ref sig .tc := ⟨.hbm, 243, rfl⟩
abbrev main_v170 : Ref sig .tc := ⟨.hbm, 244, rfl⟩
abbrev main_v171 : Ref sig .tc := ⟨.hbm, 245, rfl⟩
abbrev main_v172 : Ref sig .tc := ⟨.hbm, 246, rfl⟩
abbrev main_c_41 : Ref sig .tc := ⟨.hbm, 247, rfl⟩
abbrev main_v173 : Ref sig .tc := ⟨.hbm, 248, rfl⟩
abbrev main_v174 : Ref sig .tc := ⟨.hbm, 249, rfl⟩
abbrev main_v175 : Ref sig .tc := ⟨.hbm, 250, rfl⟩
abbrev main_v176 : Ref sig .tc := ⟨.hbm, 251, rfl⟩
abbrev main_v177 : Ref sig .tc := ⟨.hbm, 252, rfl⟩
abbrev main_c_42 : Ref sig .tc := ⟨.hbm, 253, rfl⟩
abbrev main_v178 : Ref sig .tc := ⟨.hbm, 254, rfl⟩
abbrev main_v179 : Ref sig .tc := ⟨.hbm, 255, rfl⟩
abbrev main_v180 : Ref sig .tc := ⟨.hbm, 256, rfl⟩
abbrev main_v181 : Ref sig .tc := ⟨.hbm, 257, rfl⟩
abbrev main_v182 : Ref sig .tc := ⟨.hbm, 258, rfl⟩
abbrev main_v183 : Ref sig .tc := ⟨.hbm, 259, rfl⟩
abbrev main_v184 : Ref sig .tc := ⟨.hbm, 260, rfl⟩
abbrev main_v185 : Ref sig .tc := ⟨.hbm, 261, rfl⟩
abbrev main_v186 : Ref sig .tc := ⟨.hbm, 262, rfl⟩
abbrev main_v187 : Ref sig .tc := ⟨.hbm, 263, rfl⟩
abbrev main_v188 : Ref sig .tc := ⟨.hbm, 264, rfl⟩
abbrev main_v189 : Ref sig .tc := ⟨.hbm, 265, rfl⟩
abbrev main_v190 : Ref sig .tc := ⟨.hbm, 266, rfl⟩
abbrev main_v191 : Ref sig .tc := ⟨.hbm, 267, rfl⟩
abbrev main_v192 : Ref sig .tc := ⟨.hbm, 268, rfl⟩
abbrev main_v193 : Ref sig .tc := ⟨.hbm, 269, rfl⟩
abbrev main_v194 : Ref sig .tc := ⟨.hbm, 270, rfl⟩
abbrev main_v195 : Ref sig .tc := ⟨.hbm, 271, rfl⟩
abbrev main_v196 : Ref sig .tc := ⟨.hbm, 272, rfl⟩
abbrev main_v197 : Ref sig .tc := ⟨.hbm, 273, rfl⟩
abbrev main_v198 : Ref sig .tc := ⟨.hbm, 274, rfl⟩
abbrev main_call8_cst : Ref sig .tc := ⟨.hbm, 275, rfl⟩
abbrev main_call8_v0 : Ref sig .tc := ⟨.hbm, 276, rfl⟩
abbrev main_v199 : Ref sig .tc := ⟨.hbm, 277, rfl⟩
abbrev main_v200 : Ref sig .tc := ⟨.hbm, 278, rfl⟩
abbrev main_v201 : Ref sig .tc := ⟨.hbm, 279, rfl⟩
abbrev main_v202 : Ref sig .tc := ⟨.hbm, 280, rfl⟩
abbrev main_v203 : Ref sig .tc := ⟨.hbm, 281, rfl⟩
abbrev main_call9_cst : Ref sig .tc := ⟨.hbm, 282, rfl⟩
abbrev main_call9_v0 : Ref sig .tc := ⟨.hbm, 283, rfl⟩
abbrev main_v204 : Ref sig .tc := ⟨.hbm, 284, rfl⟩
abbrev main_v205 : Ref sig .tc := ⟨.hbm, 285, rfl⟩
abbrev main_v206 : Ref sig .tc := ⟨.hbm, 286, rfl⟩
abbrev main_v207 : Ref sig .tc := ⟨.hbm, 287, rfl⟩
abbrev main_v208 : Ref sig .tc := ⟨.hbm, 288, rfl⟩
abbrev main_v209 : Ref sig .tc := ⟨.hbm, 289, rfl⟩
abbrev main_v210 : Ref sig .tc := ⟨.hbm, 290, rfl⟩
abbrev main_v211 : Ref sig .tc := ⟨.hbm, 291, rfl⟩
abbrev main_v212 : Ref sig .tc := ⟨.hbm, 292, rfl⟩
abbrev main_v213 : Ref sig .tc := ⟨.hbm, 293, rfl⟩
abbrev main_v214 : Ref sig .tc := ⟨.hbm, 294, rfl⟩
abbrev main_v215 : Ref sig .tc := ⟨.hbm, 295, rfl⟩
abbrev main_v216 : Ref sig .tc := ⟨.hbm, 296, rfl⟩
abbrev main_v217 : Ref sig .tc := ⟨.hbm, 297, rfl⟩
abbrev main_v218 : Ref sig .tc := ⟨.hbm, 298, rfl⟩
abbrev main_v219 : Ref sig .tc := ⟨.hbm, 299, rfl⟩
abbrev main_v220 : Ref sig .tc := ⟨.hbm, 300, rfl⟩
abbrev main_v221 : Ref sig .tc := ⟨.hbm, 301, rfl⟩
abbrev main_v222 : Ref sig .tc := ⟨.hbm, 302, rfl⟩
abbrev main_v223 : Ref sig .tc := ⟨.hbm, 303, rfl⟩
abbrev main_v224 : Ref sig .tc := ⟨.hbm, 304, rfl⟩
abbrev main_call10_cst : Ref sig .tc := ⟨.hbm, 305, rfl⟩
abbrev main_call10_v0 : Ref sig .tc := ⟨.hbm, 306, rfl⟩
abbrev main_v225 : Ref sig .tc := ⟨.hbm, 307, rfl⟩
abbrev main_v226 : Ref sig .tc := ⟨.hbm, 308, rfl⟩
abbrev main_v227 : Ref sig .tc := ⟨.hbm, 309, rfl⟩
abbrev main_v228 : Ref sig .tc := ⟨.hbm, 310, rfl⟩
abbrev main_v229 : Ref sig .tc := ⟨.hbm, 311, rfl⟩
abbrev main_call11_cst : Ref sig .tc := ⟨.hbm, 312, rfl⟩
abbrev main_call11_v0 : Ref sig .tc := ⟨.hbm, 313, rfl⟩
abbrev main_v230 : Ref sig .tc := ⟨.hbm, 314, rfl⟩
abbrev main_v231 : Ref sig .tc := ⟨.hbm, 315, rfl⟩
abbrev main_v232 : Ref sig .tc := ⟨.hbm, 316, rfl⟩
abbrev main_v233 : Ref sig .tc := ⟨.hbm, 317, rfl⟩
abbrev main_v234 : Ref sig .tc := ⟨.hbm, 318, rfl⟩
abbrev main_v235 : Ref sig .tc := ⟨.hbm, 319, rfl⟩
abbrev main_v236 : Ref sig .tc := ⟨.hbm, 320, rfl⟩
abbrev main_v237 : Ref sig .tc := ⟨.hbm, 321, rfl⟩
abbrev main_v238 : Ref sig .tc := ⟨.hbm, 322, rfl⟩
abbrev main_v239 : Ref sig .tc := ⟨.hbm, 323, rfl⟩
abbrev main_v240 : Ref sig .tc := ⟨.hbm, 324, rfl⟩
abbrev main_v241 : Ref sig .tc := ⟨.hbm, 325, rfl⟩
abbrev main_v242 : Ref sig .tc := ⟨.hbm, 326, rfl⟩
abbrev main_v243 : Ref sig .tc := ⟨.hbm, 327, rfl⟩
abbrev main_v244 : Ref sig .tc := ⟨.hbm, 328, rfl⟩
abbrev main_v245 : Ref sig .tc := ⟨.hbm, 329, rfl⟩
abbrev main_v246 : Ref sig .tc := ⟨.hbm, 330, rfl⟩
abbrev main_v247 : Ref sig .tc := ⟨.hbm, 331, rfl⟩
abbrev main_v248 : Ref sig .tc := ⟨.hbm, 332, rfl⟩
abbrev main_c_43 : Ref sig .tc := ⟨.hbm, 333, rfl⟩
abbrev main_v249 : Ref sig .tc := ⟨.hbm, 334, rfl⟩
abbrev main_v250 : Ref sig .tc := ⟨.hbm, 335, rfl⟩
abbrev main_v251 : Ref sig .tc := ⟨.hbm, 336, rfl⟩
abbrev main_v252 : Ref sig .tc := ⟨.hbm, 337, rfl⟩
abbrev main_v253 : Ref sig .tc := ⟨.hbm, 338, rfl⟩
abbrev main_c_44 : Ref sig .tc := ⟨.hbm, 339, rfl⟩
abbrev main_v254 : Ref sig .tc := ⟨.hbm, 340, rfl⟩
abbrev main_v255 : Ref sig .tc := ⟨.hbm, 341, rfl⟩
abbrev main_v256 : Ref sig .tc := ⟨.hbm, 342, rfl⟩
abbrev main_v257 : Ref sig .tc := ⟨.hbm, 343, rfl⟩
abbrev main_v258 : Ref sig .tc := ⟨.hbm, 344, rfl⟩
abbrev main_c_45 : Ref sig .tc := ⟨.hbm, 345, rfl⟩
abbrev main_v259 : Ref sig .tc := ⟨.hbm, 346, rfl⟩
abbrev main_v260 : Ref sig .tc := ⟨.hbm, 347, rfl⟩
abbrev main_v261 : Ref sig .tc := ⟨.hbm, 348, rfl⟩
abbrev main_v262 : Ref sig .tc := ⟨.hbm, 349, rfl⟩
abbrev main_v263 : Ref sig .tc := ⟨.hbm, 350, rfl⟩
abbrev main_c_46 : Ref sig .tc := ⟨.hbm, 351, rfl⟩
abbrev main_v264 : Ref sig .tc := ⟨.hbm, 352, rfl⟩
abbrev main_v265 : Ref sig .tc := ⟨.hbm, 353, rfl⟩
abbrev main_v266 : Ref sig .tc := ⟨.hbm, 354, rfl⟩
abbrev main_v267 : Ref sig .tc := ⟨.hbm, 355, rfl⟩
abbrev main_v268 : Ref sig .tc := ⟨.hbm, 356, rfl⟩
abbrev main_v269 : Ref sig .tc := ⟨.hbm, 357, rfl⟩
abbrev main_v270 : Ref sig .tc := ⟨.hbm, 358, rfl⟩
abbrev main_v271 : Ref sig .tc := ⟨.hbm, 359, rfl⟩
abbrev main_v272 : Ref sig .tc := ⟨.hbm, 360, rfl⟩
abbrev main_v273 : Ref sig .tc := ⟨.hbm, 361, rfl⟩
abbrev main_v274 : Ref sig .tc := ⟨.hbm, 362, rfl⟩
abbrev main_v275 : Ref sig .tc := ⟨.hbm, 363, rfl⟩
abbrev main_v276 : Ref sig .tc := ⟨.hbm, 364, rfl⟩
abbrev main_v277 : Ref sig .tc := ⟨.hbm, 365, rfl⟩
abbrev main_v278 : Ref sig .tc := ⟨.hbm, 366, rfl⟩
abbrev main_v279 : Ref sig .tc := ⟨.hbm, 367, rfl⟩
abbrev main_v280 : Ref sig .tc := ⟨.hbm, 368, rfl⟩
abbrev main_v281 : Ref sig .tc := ⟨.hbm, 369, rfl⟩
abbrev main_v282 : Ref sig .tc := ⟨.hbm, 370, rfl⟩
abbrev main_v283 : Ref sig .tc := ⟨.hbm, 371, rfl⟩
abbrev main_v284 : Ref sig .tc := ⟨.hbm, 372, rfl⟩
abbrev main_call12_cst : Ref sig .tc := ⟨.hbm, 373, rfl⟩
abbrev main_call12_v0 : Ref sig .tc := ⟨.hbm, 374, rfl⟩
abbrev main_v285 : Ref sig .tc := ⟨.hbm, 375, rfl⟩
abbrev main_v286 : Ref sig .tc := ⟨.hbm, 376, rfl⟩
abbrev main_v287 : Ref sig .tc := ⟨.hbm, 377, rfl⟩
abbrev main_v288 : Ref sig .tc := ⟨.hbm, 378, rfl⟩
abbrev main_v289 : Ref sig .tc := ⟨.hbm, 379, rfl⟩
abbrev main_call13_cst : Ref sig .tc := ⟨.hbm, 380, rfl⟩
abbrev main_call13_v0 : Ref sig .tc := ⟨.hbm, 381, rfl⟩
abbrev main_v290 : Ref sig .tc := ⟨.hbm, 382, rfl⟩
abbrev main_v291 : Ref sig .tc := ⟨.hbm, 383, rfl⟩
abbrev main_v292 : Ref sig .tc := ⟨.hbm, 384, rfl⟩
abbrev main_v293 : Ref sig .tc := ⟨.hbm, 385, rfl⟩
abbrev main_v294 : Ref sig .tc := ⟨.hbm, 386, rfl⟩
abbrev main_v295 : Ref sig .tc := ⟨.hbm, 387, rfl⟩
abbrev main_v296 : Ref sig .tc := ⟨.hbm, 388, rfl⟩
abbrev main_v297 : Ref sig .tc := ⟨.hbm, 389, rfl⟩
abbrev main_v298 : Ref sig .tc := ⟨.hbm, 390, rfl⟩
abbrev main_v299 : Ref sig .tc := ⟨.hbm, 391, rfl⟩
abbrev main_v300 : Ref sig .tc := ⟨.hbm, 392, rfl⟩
abbrev main_v301 : Ref sig .tc := ⟨.hbm, 393, rfl⟩
abbrev main_v302 : Ref sig .tc := ⟨.hbm, 394, rfl⟩
abbrev main_v303 : Ref sig .tc := ⟨.hbm, 395, rfl⟩
abbrev main_v304 : Ref sig .tc := ⟨.hbm, 396, rfl⟩
abbrev main_v305 : Ref sig .tc := ⟨.hbm, 397, rfl⟩
abbrev main_v306 : Ref sig .tc := ⟨.hbm, 398, rfl⟩
abbrev main_v307 : Ref sig .tc := ⟨.hbm, 399, rfl⟩
abbrev main_v308 : Ref sig .tc := ⟨.hbm, 400, rfl⟩
abbrev main_v309 : Ref sig .tc := ⟨.hbm, 401, rfl⟩
abbrev main_v310 : Ref sig .tc := ⟨.hbm, 402, rfl⟩
abbrev main_call14_cst : Ref sig .tc := ⟨.hbm, 403, rfl⟩
abbrev main_call14_v0 : Ref sig .tc := ⟨.hbm, 404, rfl⟩
abbrev main_v311 : Ref sig .tc := ⟨.hbm, 405, rfl⟩
abbrev main_v312 : Ref sig .tc := ⟨.hbm, 406, rfl⟩
abbrev main_v313 : Ref sig .tc := ⟨.hbm, 407, rfl⟩
abbrev main_v314 : Ref sig .tc := ⟨.hbm, 408, rfl⟩
abbrev main_v315 : Ref sig .tc := ⟨.hbm, 409, rfl⟩
abbrev main_call15_cst : Ref sig .tc := ⟨.hbm, 410, rfl⟩
abbrev main_call15_v0 : Ref sig .tc := ⟨.hbm, 411, rfl⟩
abbrev main_v316 : Ref sig .tc := ⟨.hbm, 412, rfl⟩
abbrev main_v317 : Ref sig .tc := ⟨.hbm, 413, rfl⟩
abbrev main_v318 : Ref sig .tc := ⟨.hbm, 414, rfl⟩
abbrev main_v319 : Ref sig .tc := ⟨.hbm, 415, rfl⟩
abbrev main_v320 : Ref sig .tc := ⟨.hbm, 416, rfl⟩
abbrev main_v321 : Ref sig .tc := ⟨.hbm, 417, rfl⟩
abbrev main_v322 : Ref sig .tc := ⟨.hbm, 418, rfl⟩
abbrev main_v323 : Ref sig .tc := ⟨.hbm, 419, rfl⟩
abbrev main_v324 : Ref sig .tc := ⟨.hbm, 420, rfl⟩
abbrev main_v325 : Ref sig .tc := ⟨.hbm, 421, rfl⟩
abbrev main_v326 : Ref sig .tc := ⟨.hbm, 422, rfl⟩
abbrev main_v327 : Ref sig .tc := ⟨.hbm, 423, rfl⟩
abbrev main_v328 : Ref sig .tc := ⟨.hbm, 424, rfl⟩
abbrev main_v329 : Ref sig .tc := ⟨.hbm, 425, rfl⟩
abbrev main_v330 : Ref sig .tc := ⟨.hbm, 426, rfl⟩
abbrev main_v331 : Ref sig .tc := ⟨.hbm, 427, rfl⟩
abbrev main_v332 : Ref sig .tc := ⟨.hbm, 428, rfl⟩
abbrev main_v333 : Ref sig .tc := ⟨.hbm, 429, rfl⟩
abbrev main_v334 : Ref sig .tc := ⟨.hbm, 430, rfl⟩
abbrev main_c_47 : Ref sig .tc := ⟨.hbm, 431, rfl⟩
abbrev main_v335 : Ref sig .tc := ⟨.hbm, 432, rfl⟩
abbrev main_v336 : Ref sig .tc := ⟨.hbm, 433, rfl⟩
abbrev main_v337 : Ref sig .tc := ⟨.hbm, 434, rfl⟩
abbrev main_v338 : Ref sig .tc := ⟨.hbm, 435, rfl⟩
abbrev main_v339 : Ref sig .tc := ⟨.hbm, 436, rfl⟩
abbrev main_c_48 : Ref sig .tc := ⟨.hbm, 437, rfl⟩
abbrev main_v340 : Ref sig .tc := ⟨.hbm, 438, rfl⟩
abbrev main_v341 : Ref sig .tc := ⟨.hbm, 439, rfl⟩
abbrev main_v342 : Ref sig .tc := ⟨.hbm, 440, rfl⟩
abbrev main_v343 : Ref sig .tc := ⟨.hbm, 441, rfl⟩
abbrev main_v344 : Ref sig .tc := ⟨.hbm, 442, rfl⟩
abbrev main_c_49 : Ref sig .tc := ⟨.hbm, 443, rfl⟩
abbrev main_v345 : Ref sig .tc := ⟨.hbm, 444, rfl⟩
abbrev main_v346 : Ref sig .tc := ⟨.hbm, 445, rfl⟩
abbrev main_v347 : Ref sig .tc := ⟨.hbm, 446, rfl⟩
abbrev main_v348 : Ref sig .tc := ⟨.hbm, 447, rfl⟩
abbrev main_v349 : Ref sig .tc := ⟨.hbm, 448, rfl⟩
abbrev main_c_50 : Ref sig .tc := ⟨.hbm, 449, rfl⟩
abbrev main_v350 : Ref sig .tc := ⟨.hbm, 450, rfl⟩
abbrev main_v351 : Ref sig .tc := ⟨.hbm, 451, rfl⟩
abbrev main_v352 : Ref sig .tc := ⟨.hbm, 452, rfl⟩
abbrev main_v353 : Ref sig .tc := ⟨.hbm, 453, rfl⟩
abbrev main_v354 : Ref sig .tc := ⟨.hbm, 454, rfl⟩
abbrev main_v355 : Ref sig .tc := ⟨.hbm, 455, rfl⟩
abbrev main_v356 : Ref sig .tc := ⟨.hbm, 456, rfl⟩
abbrev main_v357 : Ref sig .tc := ⟨.hbm, 457, rfl⟩
abbrev main_v358 : Ref sig .tc := ⟨.hbm, 458, rfl⟩
abbrev main_v359 : Ref sig .tc := ⟨.hbm, 459, rfl⟩
abbrev main_v360 : Ref sig .tc := ⟨.hbm, 460, rfl⟩
abbrev main_v361 : Ref sig .tc := ⟨.hbm, 461, rfl⟩
abbrev main_v362 : Ref sig .tc := ⟨.hbm, 462, rfl⟩
abbrev main_v363 : Ref sig .tc := ⟨.hbm, 463, rfl⟩
abbrev main_v364 : Ref sig .tc := ⟨.hbm, 464, rfl⟩
abbrev main_v365 : Ref sig .tc := ⟨.hbm, 465, rfl⟩
abbrev main_v366 : Ref sig .tc := ⟨.hbm, 466, rfl⟩
abbrev main_v367 : Ref sig .tc := ⟨.hbm, 467, rfl⟩
abbrev main_v368 : Ref sig .tc := ⟨.hbm, 468, rfl⟩
abbrev main_v369 : Ref sig .tc := ⟨.hbm, 469, rfl⟩
abbrev main_v370 : Ref sig .tc := ⟨.hbm, 470, rfl⟩
abbrev main_call16_cst : Ref sig .tc := ⟨.hbm, 471, rfl⟩
abbrev main_call16_v0 : Ref sig .tc := ⟨.hbm, 472, rfl⟩
abbrev main_v371 : Ref sig .tc := ⟨.hbm, 473, rfl⟩
abbrev main_v372 : Ref sig .tc := ⟨.hbm, 474, rfl⟩
abbrev main_v373 : Ref sig .tc := ⟨.hbm, 475, rfl⟩
abbrev main_v374 : Ref sig .tc := ⟨.hbm, 476, rfl⟩
abbrev main_v375 : Ref sig .tc := ⟨.hbm, 477, rfl⟩
abbrev main_call17_cst : Ref sig .tc := ⟨.hbm, 478, rfl⟩
abbrev main_call17_v0 : Ref sig .tc := ⟨.hbm, 479, rfl⟩
abbrev main_v376 : Ref sig .tc := ⟨.hbm, 480, rfl⟩
abbrev main_v377 : Ref sig .tc := ⟨.hbm, 481, rfl⟩
abbrev main_v378 : Ref sig .tc := ⟨.hbm, 482, rfl⟩
abbrev main_v379 : Ref sig .tc := ⟨.hbm, 483, rfl⟩
abbrev main_v380 : Ref sig .tc := ⟨.hbm, 484, rfl⟩
abbrev main_v381 : Ref sig .tc := ⟨.hbm, 485, rfl⟩
abbrev main_v382 : Ref sig .tc := ⟨.hbm, 486, rfl⟩
abbrev main_v383 : Ref sig .tc := ⟨.hbm, 487, rfl⟩
abbrev main_v384 : Ref sig .tc := ⟨.hbm, 488, rfl⟩
abbrev main_v385 : Ref sig .tc := ⟨.hbm, 489, rfl⟩
abbrev main_v386 : Ref sig .tc := ⟨.hbm, 490, rfl⟩
abbrev main_v387 : Ref sig .tc := ⟨.hbm, 491, rfl⟩
abbrev main_v388 : Ref sig .tc := ⟨.hbm, 492, rfl⟩
abbrev main_v389 : Ref sig .tc := ⟨.hbm, 493, rfl⟩
abbrev main_v390 : Ref sig .tc := ⟨.hbm, 494, rfl⟩
abbrev main_v391 : Ref sig .tc := ⟨.hbm, 495, rfl⟩
abbrev main_v392 : Ref sig .tc := ⟨.hbm, 496, rfl⟩
abbrev main_v393 : Ref sig .tc := ⟨.hbm, 497, rfl⟩
abbrev main_v394 : Ref sig .tc := ⟨.hbm, 498, rfl⟩
abbrev main_v395 : Ref sig .tc := ⟨.hbm, 499, rfl⟩
abbrev main_v396 : Ref sig .tc := ⟨.hbm, 500, rfl⟩
abbrev main_call18_cst : Ref sig .tc := ⟨.hbm, 501, rfl⟩
abbrev main_call18_v0 : Ref sig .tc := ⟨.hbm, 502, rfl⟩
abbrev main_v397 : Ref sig .tc := ⟨.hbm, 503, rfl⟩
abbrev main_v398 : Ref sig .tc := ⟨.hbm, 504, rfl⟩
abbrev main_v399 : Ref sig .tc := ⟨.hbm, 505, rfl⟩
abbrev main_v400 : Ref sig .tc := ⟨.hbm, 506, rfl⟩
abbrev main_v401 : Ref sig .tc := ⟨.hbm, 507, rfl⟩
abbrev main_call19_cst : Ref sig .tc := ⟨.hbm, 508, rfl⟩
abbrev main_call19_v0 : Ref sig .tc := ⟨.hbm, 509, rfl⟩
abbrev main_v402 : Ref sig .tc := ⟨.hbm, 510, rfl⟩
abbrev main_v403 : Ref sig .tc := ⟨.hbm, 511, rfl⟩
abbrev main_v404 : Ref sig .tc := ⟨.hbm, 512, rfl⟩
abbrev main_v405 : Ref sig .tc := ⟨.hbm, 513, rfl⟩
abbrev main_v406 : Ref sig .tc := ⟨.hbm, 514, rfl⟩
abbrev main_v407 : Ref sig .tc := ⟨.hbm, 515, rfl⟩
abbrev main_v408 : Ref sig .tc := ⟨.hbm, 516, rfl⟩
abbrev main_v409 : Ref sig .tc := ⟨.hbm, 517, rfl⟩
abbrev main_v410 : Ref sig .tc := ⟨.hbm, 518, rfl⟩
abbrev main_v411 : Ref sig .tc := ⟨.hbm, 519, rfl⟩
abbrev main_v412 : Ref sig .tc := ⟨.hbm, 520, rfl⟩
abbrev main_v413 : Ref sig .tc := ⟨.hbm, 521, rfl⟩
abbrev main_v414 : Ref sig .tc := ⟨.hbm, 522, rfl⟩
abbrev main_v415 : Ref sig .tc := ⟨.hbm, 523, rfl⟩
abbrev main_v416 : Ref sig .tc := ⟨.hbm, 524, rfl⟩
abbrev main_v417 : Ref sig .tc := ⟨.hbm, 525, rfl⟩
abbrev main_v418 : Ref sig .tc := ⟨.hbm, 526, rfl⟩
abbrev main_v419 : Ref sig .tc := ⟨.hbm, 527, rfl⟩
abbrev main_v420 : Ref sig .tc := ⟨.hbm, 528, rfl⟩
abbrev main_c_51 : Ref sig .tc := ⟨.hbm, 529, rfl⟩
abbrev main_v421 : Ref sig .tc := ⟨.hbm, 530, rfl⟩
abbrev main_v422 : Ref sig .tc := ⟨.hbm, 531, rfl⟩
abbrev main_v423 : Ref sig .tc := ⟨.hbm, 532, rfl⟩
abbrev main_v424 : Ref sig .tc := ⟨.hbm, 533, rfl⟩
abbrev main_v425 : Ref sig .tc := ⟨.hbm, 534, rfl⟩
abbrev main_c_52 : Ref sig .tc := ⟨.hbm, 535, rfl⟩
abbrev main_v426 : Ref sig .tc := ⟨.hbm, 536, rfl⟩
abbrev main_v427 : Ref sig .tc := ⟨.hbm, 537, rfl⟩
abbrev main_v428 : Ref sig .tc := ⟨.hbm, 538, rfl⟩
abbrev main_v429 : Ref sig .tc := ⟨.hbm, 539, rfl⟩
abbrev main_v430 : Ref sig .tc := ⟨.hbm, 540, rfl⟩
abbrev main_c_53 : Ref sig .tc := ⟨.hbm, 541, rfl⟩
abbrev main_v431 : Ref sig .tc := ⟨.hbm, 542, rfl⟩
abbrev main_v432 : Ref sig .tc := ⟨.hbm, 543, rfl⟩
abbrev main_v433 : Ref sig .tc := ⟨.hbm, 544, rfl⟩
abbrev main_v434 : Ref sig .tc := ⟨.hbm, 545, rfl⟩
abbrev main_v435 : Ref sig .tc := ⟨.hbm, 546, rfl⟩
abbrev main_c_54 : Ref sig .tc := ⟨.hbm, 547, rfl⟩
abbrev main_v436 : Ref sig .tc := ⟨.hbm, 548, rfl⟩
abbrev main_v437 : Ref sig .tc := ⟨.hbm, 549, rfl⟩
abbrev main_v438 : Ref sig .tc := ⟨.hbm, 550, rfl⟩
abbrev main_v439 : Ref sig .tc := ⟨.hbm, 551, rfl⟩
abbrev main_v440 : Ref sig .tc := ⟨.hbm, 552, rfl⟩
abbrev main_v441 : Ref sig .tc := ⟨.hbm, 553, rfl⟩
abbrev main_v442 : Ref sig .tc := ⟨.hbm, 554, rfl⟩
abbrev main_v443 : Ref sig .tc := ⟨.hbm, 555, rfl⟩
abbrev main_v444 : Ref sig .tc := ⟨.hbm, 556, rfl⟩
abbrev main_v445 : Ref sig .tc := ⟨.hbm, 557, rfl⟩
abbrev main_v446 : Ref sig .tc := ⟨.hbm, 558, rfl⟩
abbrev main_v447 : Ref sig .tc := ⟨.hbm, 559, rfl⟩
abbrev main_v448 : Ref sig .tc := ⟨.hbm, 560, rfl⟩
abbrev main_v449 : Ref sig .tc := ⟨.hbm, 561, rfl⟩
abbrev main_v450 : Ref sig .tc := ⟨.hbm, 562, rfl⟩
abbrev main_v451 : Ref sig .tc := ⟨.hbm, 563, rfl⟩
abbrev main_v452 : Ref sig .tc := ⟨.hbm, 564, rfl⟩
abbrev main_v453 : Ref sig .tc := ⟨.hbm, 565, rfl⟩
abbrev main_v454 : Ref sig .tc := ⟨.hbm, 566, rfl⟩
abbrev main_v455 : Ref sig .tc := ⟨.hbm, 567, rfl⟩
abbrev main_v456 : Ref sig .tc := ⟨.hbm, 568, rfl⟩
abbrev main_call20_cst : Ref sig .tc := ⟨.hbm, 569, rfl⟩
abbrev main_call20_v0 : Ref sig .tc := ⟨.hbm, 570, rfl⟩
abbrev main_v457 : Ref sig .tc := ⟨.hbm, 571, rfl⟩
abbrev main_v458 : Ref sig .tc := ⟨.hbm, 572, rfl⟩
abbrev main_v459 : Ref sig .tc := ⟨.hbm, 573, rfl⟩
abbrev main_v460 : Ref sig .tc := ⟨.hbm, 574, rfl⟩
abbrev main_v461 : Ref sig .tc := ⟨.hbm, 575, rfl⟩
abbrev main_call21_cst : Ref sig .tc := ⟨.hbm, 576, rfl⟩
abbrev main_call21_v0 : Ref sig .tc := ⟨.hbm, 577, rfl⟩
abbrev main_v462 : Ref sig .tc := ⟨.hbm, 578, rfl⟩
abbrev main_v463 : Ref sig .tc := ⟨.hbm, 579, rfl⟩
abbrev main_v464 : Ref sig .tc := ⟨.hbm, 580, rfl⟩
abbrev main_v465 : Ref sig .tc := ⟨.hbm, 581, rfl⟩
abbrev main_v466 : Ref sig .tc := ⟨.hbm, 582, rfl⟩
abbrev main_v467 : Ref sig .tc := ⟨.hbm, 583, rfl⟩
abbrev main_v468 : Ref sig .tc := ⟨.hbm, 584, rfl⟩
abbrev main_v469 : Ref sig .tc := ⟨.hbm, 585, rfl⟩
abbrev main_v470 : Ref sig .tc := ⟨.hbm, 586, rfl⟩
abbrev main_v471 : Ref sig .tc := ⟨.hbm, 587, rfl⟩
abbrev main_v472 : Ref sig .tc := ⟨.hbm, 588, rfl⟩
abbrev main_v473 : Ref sig .tc := ⟨.hbm, 589, rfl⟩
abbrev main_v474 : Ref sig .tc := ⟨.hbm, 590, rfl⟩
abbrev main_v475 : Ref sig .tc := ⟨.hbm, 591, rfl⟩
abbrev main_v476 : Ref sig .tc := ⟨.hbm, 592, rfl⟩
abbrev main_v477 : Ref sig .tc := ⟨.hbm, 593, rfl⟩
abbrev main_v478 : Ref sig .tc := ⟨.hbm, 594, rfl⟩
abbrev main_v479 : Ref sig .tc := ⟨.hbm, 595, rfl⟩
abbrev main_v480 : Ref sig .tc := ⟨.hbm, 596, rfl⟩
abbrev main_v481 : Ref sig .tc := ⟨.hbm, 597, rfl⟩
abbrev main_v482 : Ref sig .tc := ⟨.hbm, 598, rfl⟩
abbrev main_call22_cst : Ref sig .tc := ⟨.hbm, 599, rfl⟩
abbrev main_call22_v0 : Ref sig .tc := ⟨.hbm, 600, rfl⟩
abbrev main_v483 : Ref sig .tc := ⟨.hbm, 601, rfl⟩
abbrev main_v484 : Ref sig .tc := ⟨.hbm, 602, rfl⟩
abbrev main_v485 : Ref sig .tc := ⟨.hbm, 603, rfl⟩
abbrev main_v486 : Ref sig .tc := ⟨.hbm, 604, rfl⟩
abbrev main_v487 : Ref sig .tc := ⟨.hbm, 605, rfl⟩
abbrev main_call23_cst : Ref sig .tc := ⟨.hbm, 606, rfl⟩
abbrev main_call23_v0 : Ref sig .tc := ⟨.hbm, 607, rfl⟩
abbrev main_v488 : Ref sig .tc := ⟨.hbm, 608, rfl⟩
abbrev main_v489 : Ref sig .tc := ⟨.hbm, 609, rfl⟩
abbrev main_v490 : Ref sig .tc := ⟨.hbm, 610, rfl⟩
abbrev main_v491 : Ref sig .tc := ⟨.hbm, 611, rfl⟩
abbrev main_v492 : Ref sig .tc := ⟨.hbm, 612, rfl⟩
abbrev main_v493 : Ref sig .tc := ⟨.hbm, 613, rfl⟩
abbrev main_v494 : Ref sig .tc := ⟨.hbm, 614, rfl⟩
abbrev main_v495 : Ref sig .tc := ⟨.hbm, 615, rfl⟩
abbrev main_v496 : Ref sig .tc := ⟨.hbm, 616, rfl⟩
abbrev main_v497 : Ref sig .tc := ⟨.hbm, 617, rfl⟩
abbrev main_v498 : Ref sig .tc := ⟨.hbm, 618, rfl⟩
abbrev main_v499 : Ref sig .tc := ⟨.hbm, 619, rfl⟩
abbrev main_v500 : Ref sig .tc := ⟨.hbm, 620, rfl⟩
abbrev main_v501 : Ref sig .tc := ⟨.hbm, 621, rfl⟩
abbrev main_v502 : Ref sig .tc := ⟨.hbm, 622, rfl⟩
abbrev main_v503 : Ref sig .tc := ⟨.hbm, 623, rfl⟩
abbrev main_v504 : Ref sig .tc := ⟨.hbm, 624, rfl⟩
abbrev main_v505 : Ref sig .tc := ⟨.hbm, 625, rfl⟩
abbrev main_v506 : Ref sig .tc := ⟨.hbm, 626, rfl⟩
abbrev main_c_55 : Ref sig .tc := ⟨.hbm, 627, rfl⟩
abbrev main_v507 : Ref sig .tc := ⟨.hbm, 628, rfl⟩
abbrev main_v508 : Ref sig .tc := ⟨.hbm, 629, rfl⟩
abbrev main_v509 : Ref sig .tc := ⟨.hbm, 630, rfl⟩
abbrev main_v510 : Ref sig .tc := ⟨.hbm, 631, rfl⟩
abbrev main_v511 : Ref sig .tc := ⟨.hbm, 632, rfl⟩
abbrev main_c_56 : Ref sig .tc := ⟨.hbm, 633, rfl⟩
abbrev main_v512 : Ref sig .tc := ⟨.hbm, 634, rfl⟩
abbrev main_v513 : Ref sig .tc := ⟨.hbm, 635, rfl⟩
abbrev main_v514 : Ref sig .tc := ⟨.hbm, 636, rfl⟩
abbrev main_v515 : Ref sig .tc := ⟨.hbm, 637, rfl⟩
abbrev main_v516 : Ref sig .tc := ⟨.hbm, 638, rfl⟩
abbrev main_c_57 : Ref sig .tc := ⟨.hbm, 639, rfl⟩
abbrev main_v517 : Ref sig .tc := ⟨.hbm, 640, rfl⟩
abbrev main_v518 : Ref sig .tc := ⟨.hbm, 641, rfl⟩
abbrev main_v519 : Ref sig .tc := ⟨.hbm, 642, rfl⟩
abbrev main_v520 : Ref sig .tc := ⟨.hbm, 643, rfl⟩
abbrev main_v521 : Ref sig .tc := ⟨.hbm, 644, rfl⟩
abbrev main_c_58 : Ref sig .tc := ⟨.hbm, 645, rfl⟩
abbrev main_v522 : Ref sig .tc := ⟨.hbm, 646, rfl⟩
abbrev main_v523 : Ref sig .tc := ⟨.hbm, 647, rfl⟩
abbrev main_v524 : Ref sig .tc := ⟨.hbm, 648, rfl⟩
abbrev main_v525 : Ref sig .tc := ⟨.hbm, 649, rfl⟩
abbrev main_v526 : Ref sig .tc := ⟨.hbm, 650, rfl⟩
abbrev main_v527 : Ref sig .tc := ⟨.hbm, 651, rfl⟩
abbrev main_v528 : Ref sig .tc := ⟨.hbm, 652, rfl⟩
abbrev main_v529 : Ref sig .tc := ⟨.hbm, 653, rfl⟩
abbrev main_v530 : Ref sig .tc := ⟨.hbm, 654, rfl⟩
abbrev main_v531 : Ref sig .tc := ⟨.hbm, 655, rfl⟩
abbrev main_v532 : Ref sig .tc := ⟨.hbm, 656, rfl⟩
abbrev main_v533 : Ref sig .tc := ⟨.hbm, 657, rfl⟩
abbrev main_v534 : Ref sig .tc := ⟨.hbm, 658, rfl⟩
abbrev main_v535 : Ref sig .tc := ⟨.hbm, 659, rfl⟩
abbrev main_v536 : Ref sig .tc := ⟨.hbm, 660, rfl⟩
abbrev main_v537 : Ref sig .tc := ⟨.hbm, 661, rfl⟩
abbrev main_v538 : Ref sig .tc := ⟨.hbm, 662, rfl⟩
abbrev main_v539 : Ref sig .tc := ⟨.hbm, 663, rfl⟩
abbrev main_v540 : Ref sig .tc := ⟨.hbm, 664, rfl⟩
abbrev main_v541 : Ref sig .tc := ⟨.hbm, 665, rfl⟩
abbrev main_v542 : Ref sig .tc := ⟨.hbm, 666, rfl⟩
abbrev main_call24_cst : Ref sig .tc := ⟨.hbm, 667, rfl⟩
abbrev main_call24_v0 : Ref sig .tc := ⟨.hbm, 668, rfl⟩
abbrev main_v543 : Ref sig .tc := ⟨.hbm, 669, rfl⟩
abbrev main_v544 : Ref sig .tc := ⟨.hbm, 670, rfl⟩
abbrev main_v545 : Ref sig .tc := ⟨.hbm, 671, rfl⟩
abbrev main_v546 : Ref sig .tc := ⟨.hbm, 672, rfl⟩
abbrev main_v547 : Ref sig .tc := ⟨.hbm, 673, rfl⟩
abbrev main_call25_cst : Ref sig .tc := ⟨.hbm, 674, rfl⟩
abbrev main_call25_v0 : Ref sig .tc := ⟨.hbm, 675, rfl⟩
abbrev main_v548 : Ref sig .tc := ⟨.hbm, 676, rfl⟩
abbrev main_v549 : Ref sig .tc := ⟨.hbm, 677, rfl⟩
abbrev main_v550 : Ref sig .tc := ⟨.hbm, 678, rfl⟩
abbrev main_v551 : Ref sig .tc := ⟨.hbm, 679, rfl⟩
abbrev main_v552 : Ref sig .tc := ⟨.hbm, 680, rfl⟩
abbrev main_v553 : Ref sig .tc := ⟨.hbm, 681, rfl⟩
abbrev main_v554 : Ref sig .tc := ⟨.hbm, 682, rfl⟩
abbrev main_v555 : Ref sig .tc := ⟨.hbm, 683, rfl⟩
abbrev main_v556 : Ref sig .tc := ⟨.hbm, 684, rfl⟩
abbrev main_v557 : Ref sig .tc := ⟨.hbm, 685, rfl⟩
abbrev main_v558 : Ref sig .tc := ⟨.hbm, 686, rfl⟩
abbrev main_v559 : Ref sig .tc := ⟨.hbm, 687, rfl⟩
abbrev main_v560 : Ref sig .tc := ⟨.hbm, 688, rfl⟩
abbrev main_v561 : Ref sig .tc := ⟨.hbm, 689, rfl⟩
abbrev main_v562 : Ref sig .tc := ⟨.hbm, 690, rfl⟩
abbrev main_v563 : Ref sig .tc := ⟨.hbm, 691, rfl⟩
abbrev main_v564 : Ref sig .tc := ⟨.hbm, 692, rfl⟩
abbrev main_v565 : Ref sig .tc := ⟨.hbm, 693, rfl⟩
abbrev main_v566 : Ref sig .tc := ⟨.hbm, 694, rfl⟩
abbrev main_v567 : Ref sig .tc := ⟨.hbm, 695, rfl⟩
abbrev main_v568 : Ref sig .tc := ⟨.hbm, 696, rfl⟩
abbrev main_call26_cst : Ref sig .tc := ⟨.hbm, 697, rfl⟩
abbrev main_call26_v0 : Ref sig .tc := ⟨.hbm, 698, rfl⟩
abbrev main_v569 : Ref sig .tc := ⟨.hbm, 699, rfl⟩
abbrev main_v570 : Ref sig .tc := ⟨.hbm, 700, rfl⟩
abbrev main_v571 : Ref sig .tc := ⟨.hbm, 701, rfl⟩
abbrev main_v572 : Ref sig .tc := ⟨.hbm, 702, rfl⟩
abbrev main_v573 : Ref sig .tc := ⟨.hbm, 703, rfl⟩
abbrev main_call27_cst : Ref sig .tc := ⟨.hbm, 704, rfl⟩
abbrev main_call27_v0 : Ref sig .tc := ⟨.hbm, 705, rfl⟩
abbrev main_v574 : Ref sig .tc := ⟨.hbm, 706, rfl⟩
abbrev main_v575 : Ref sig .tc := ⟨.hbm, 707, rfl⟩
abbrev main_v576 : Ref sig .tc := ⟨.hbm, 708, rfl⟩
abbrev main_v577 : Ref sig .tc := ⟨.hbm, 709, rfl⟩
abbrev main_v578 : Ref sig .tc := ⟨.hbm, 710, rfl⟩
abbrev main_v579 : Ref sig .tc := ⟨.hbm, 711, rfl⟩
abbrev main_v580 : Ref sig .tc := ⟨.hbm, 712, rfl⟩
abbrev main_v581 : Ref sig .tc := ⟨.hbm, 713, rfl⟩
abbrev main_v582 : Ref sig .tc := ⟨.hbm, 714, rfl⟩
abbrev main_v583 : Ref sig .tc := ⟨.hbm, 715, rfl⟩
abbrev main_v584 : Ref sig .tc := ⟨.hbm, 716, rfl⟩
abbrev main_v585 : Ref sig .tc := ⟨.hbm, 717, rfl⟩
abbrev main_v586 : Ref sig .tc := ⟨.hbm, 718, rfl⟩
abbrev main_v587 : Ref sig .tc := ⟨.hbm, 719, rfl⟩
abbrev main_v588 : Ref sig .tc := ⟨.hbm, 720, rfl⟩
abbrev main_v589 : Ref sig .tc := ⟨.hbm, 721, rfl⟩
abbrev main_v590 : Ref sig .tc := ⟨.hbm, 722, rfl⟩
abbrev main_v591 : Ref sig .tc := ⟨.hbm, 723, rfl⟩
abbrev main_v592 : Ref sig .tc := ⟨.hbm, 724, rfl⟩
abbrev main_c_59 : Ref sig .tc := ⟨.hbm, 725, rfl⟩
abbrev main_v593 : Ref sig .tc := ⟨.hbm, 726, rfl⟩
abbrev main_v594 : Ref sig .tc := ⟨.hbm, 727, rfl⟩
abbrev main_v595 : Ref sig .tc := ⟨.hbm, 728, rfl⟩
abbrev main_v596 : Ref sig .tc := ⟨.hbm, 729, rfl⟩
abbrev main_v597 : Ref sig .tc := ⟨.hbm, 730, rfl⟩
abbrev main_c_60 : Ref sig .tc := ⟨.hbm, 731, rfl⟩
abbrev main_v598 : Ref sig .tc := ⟨.hbm, 732, rfl⟩
abbrev main_v599 : Ref sig .tc := ⟨.hbm, 733, rfl⟩
abbrev main_v600 : Ref sig .tc := ⟨.hbm, 734, rfl⟩
abbrev main_v601 : Ref sig .tc := ⟨.hbm, 735, rfl⟩
abbrev main_v602 : Ref sig .tc := ⟨.hbm, 736, rfl⟩
abbrev main_c_61 : Ref sig .tc := ⟨.hbm, 737, rfl⟩
abbrev main_v603 : Ref sig .tc := ⟨.hbm, 738, rfl⟩
abbrev main_v604 : Ref sig .tc := ⟨.hbm, 739, rfl⟩
abbrev main_v605 : Ref sig .tc := ⟨.hbm, 740, rfl⟩
abbrev main_v606 : Ref sig .tc := ⟨.hbm, 741, rfl⟩
abbrev main_v607 : Ref sig .tc := ⟨.hbm, 742, rfl⟩
abbrev main_c_62 : Ref sig .tc := ⟨.hbm, 743, rfl⟩
abbrev main_v608 : Ref sig .tc := ⟨.hbm, 744, rfl⟩
abbrev main_v609 : Ref sig .tc := ⟨.hbm, 745, rfl⟩
abbrev main_v610 : Ref sig .tc := ⟨.hbm, 746, rfl⟩
abbrev main_v611 : Ref sig .tc := ⟨.hbm, 747, rfl⟩
abbrev main_v612 : Ref sig .tc := ⟨.hbm, 748, rfl⟩
abbrev main_v613 : Ref sig .tc := ⟨.hbm, 749, rfl⟩
abbrev main_v614 : Ref sig .tc := ⟨.hbm, 750, rfl⟩
abbrev main_v615 : Ref sig .tc := ⟨.hbm, 751, rfl⟩
abbrev main_v616 : Ref sig .tc := ⟨.hbm, 752, rfl⟩
abbrev main_v617 : Ref sig .tc := ⟨.hbm, 753, rfl⟩
abbrev main_v618 : Ref sig .tc := ⟨.hbm, 754, rfl⟩
abbrev main_v619 : Ref sig .tc := ⟨.hbm, 755, rfl⟩
abbrev main_v620 : Ref sig .tc := ⟨.hbm, 756, rfl⟩
abbrev main_v621 : Ref sig .tc := ⟨.hbm, 757, rfl⟩
abbrev main_v622 : Ref sig .tc := ⟨.hbm, 758, rfl⟩
abbrev main_v623 : Ref sig .tc := ⟨.hbm, 759, rfl⟩
abbrev main_v624 : Ref sig .tc := ⟨.hbm, 760, rfl⟩
abbrev main_v625 : Ref sig .tc := ⟨.hbm, 761, rfl⟩
abbrev main_v626 : Ref sig .tc := ⟨.hbm, 762, rfl⟩
abbrev main_v627 : Ref sig .tc := ⟨.hbm, 763, rfl⟩
abbrev main_v628 : Ref sig .tc := ⟨.hbm, 764, rfl⟩
abbrev main_call28_cst : Ref sig .tc := ⟨.hbm, 765, rfl⟩
abbrev main_call28_v0 : Ref sig .tc := ⟨.hbm, 766, rfl⟩
abbrev main_v629 : Ref sig .tc := ⟨.hbm, 767, rfl⟩
abbrev main_v630 : Ref sig .tc := ⟨.hbm, 768, rfl⟩
abbrev main_v631 : Ref sig .tc := ⟨.hbm, 769, rfl⟩
abbrev main_v632 : Ref sig .tc := ⟨.hbm, 770, rfl⟩
abbrev main_v633 : Ref sig .tc := ⟨.hbm, 771, rfl⟩
abbrev main_call29_cst : Ref sig .tc := ⟨.hbm, 772, rfl⟩
abbrev main_call29_v0 : Ref sig .tc := ⟨.hbm, 773, rfl⟩
abbrev main_v634 : Ref sig .tc := ⟨.hbm, 774, rfl⟩
abbrev main_v635 : Ref sig .tc := ⟨.hbm, 775, rfl⟩
abbrev main_v636 : Ref sig .tc := ⟨.hbm, 776, rfl⟩
abbrev main_v637 : Ref sig .tc := ⟨.hbm, 777, rfl⟩
abbrev main_v638 : Ref sig .tc := ⟨.hbm, 778, rfl⟩
abbrev main_v639 : Ref sig .tc := ⟨.hbm, 779, rfl⟩
abbrev main_v640 : Ref sig .tc := ⟨.hbm, 780, rfl⟩
abbrev main_v641 : Ref sig .tc := ⟨.hbm, 781, rfl⟩
abbrev main_v642 : Ref sig .tc := ⟨.hbm, 782, rfl⟩
abbrev main_v643 : Ref sig .tc := ⟨.hbm, 783, rfl⟩
abbrev main_v644 : Ref sig .tc := ⟨.hbm, 784, rfl⟩
abbrev main_v645 : Ref sig .tc := ⟨.hbm, 785, rfl⟩
abbrev main_v646 : Ref sig .tc := ⟨.hbm, 786, rfl⟩
abbrev main_v647 : Ref sig .tc := ⟨.hbm, 787, rfl⟩
abbrev main_v648 : Ref sig .tc := ⟨.hbm, 788, rfl⟩
abbrev main_v649 : Ref sig .tc := ⟨.hbm, 789, rfl⟩
abbrev main_v650 : Ref sig .tc := ⟨.hbm, 790, rfl⟩
abbrev main_v651 : Ref sig .tc := ⟨.hbm, 791, rfl⟩
abbrev main_v652 : Ref sig .tc := ⟨.hbm, 792, rfl⟩
abbrev main_v653 : Ref sig .tc := ⟨.hbm, 793, rfl⟩
abbrev main_v654 : Ref sig .tc := ⟨.hbm, 794, rfl⟩
abbrev main_call30_cst : Ref sig .tc := ⟨.hbm, 795, rfl⟩
abbrev main_call30_v0 : Ref sig .tc := ⟨.hbm, 796, rfl⟩
abbrev main_v655 : Ref sig .tc := ⟨.hbm, 797, rfl⟩
abbrev main_v656 : Ref sig .tc := ⟨.hbm, 798, rfl⟩
abbrev main_v657 : Ref sig .tc := ⟨.hbm, 799, rfl⟩
abbrev main_v658 : Ref sig .tc := ⟨.hbm, 800, rfl⟩
abbrev main_v659 : Ref sig .tc := ⟨.hbm, 801, rfl⟩
abbrev main_call31_cst : Ref sig .tc := ⟨.hbm, 802, rfl⟩
abbrev main_call31_v0 : Ref sig .tc := ⟨.hbm, 803, rfl⟩
abbrev main_v660 : Ref sig .tc := ⟨.hbm, 804, rfl⟩
abbrev main_v661 : Ref sig .tc := ⟨.hbm, 805, rfl⟩
abbrev main_v662 : Ref sig .tc := ⟨.hbm, 806, rfl⟩
abbrev main_v663 : Ref sig .tc := ⟨.hbm, 807, rfl⟩
abbrev main_v664 : Ref sig .tc := ⟨.hbm, 808, rfl⟩
abbrev main_v665 : Ref sig .tc := ⟨.hbm, 809, rfl⟩
abbrev main_v666 : Ref sig .tc := ⟨.hbm, 810, rfl⟩
abbrev main_v667 : Ref sig .tc := ⟨.hbm, 811, rfl⟩
abbrev main_v668 : Ref sig .tc := ⟨.hbm, 812, rfl⟩
abbrev main_v669 : Ref sig .tc := ⟨.hbm, 813, rfl⟩
abbrev main_v670 : Ref sig .tc := ⟨.hbm, 814, rfl⟩
abbrev main_v671 : Ref sig .tc := ⟨.hbm, 815, rfl⟩
abbrev main_v672 : Ref sig .tc := ⟨.hbm, 816, rfl⟩
abbrev main_v673 : Ref sig .tc := ⟨.hbm, 817, rfl⟩
abbrev main_v674 : Ref sig .tc := ⟨.hbm, 818, rfl⟩
abbrev main_v675 : Ref sig .tc := ⟨.hbm, 819, rfl⟩
abbrev main_v676 : Ref sig .tc := ⟨.hbm, 820, rfl⟩
abbrev main_v677 : Ref sig .tc := ⟨.hbm, 821, rfl⟩
abbrev main_v678 : Ref sig .tc := ⟨.hbm, 822, rfl⟩
abbrev main_c_63 : Ref sig .tc := ⟨.hbm, 823, rfl⟩
abbrev main_v679 : Ref sig .tc := ⟨.hbm, 824, rfl⟩
abbrev main_v680 : Ref sig .tc := ⟨.hbm, 825, rfl⟩
abbrev main_v681 : Ref sig .tc := ⟨.hbm, 826, rfl⟩
abbrev main_v682 : Ref sig .tc := ⟨.hbm, 827, rfl⟩
abbrev main_v683 : Ref sig .tc := ⟨.hbm, 828, rfl⟩
abbrev main_c_64 : Ref sig .tc := ⟨.hbm, 829, rfl⟩
abbrev main_v684 : Ref sig .tc := ⟨.hbm, 830, rfl⟩
abbrev main_v685 : Ref sig .tc := ⟨.hbm, 831, rfl⟩
abbrev main_v686 : Ref sig .tc := ⟨.hbm, 832, rfl⟩
abbrev main_v687 : Ref sig .tc := ⟨.hbm, 833, rfl⟩
abbrev main_v688 : Ref sig .tc := ⟨.hbm, 834, rfl⟩

abbrev nD : Nat := 1
abbrev τ : Topo := Topo.v7x

variable {F : FTy → Type} [FloatOps F]

class Facts₀ : Prop where
  bcast_S_S16384x64 : S_.BroadcastsInDim S16384x64 (![] : Fin 0 → Fin S16384x64.rank)
  bcast_S_S32 : S_.BroadcastsInDim S32 (![] : Fin 0 → Fin S32.rank)
  bcast_S32_S32x1_0 : S32.BroadcastsInDim S32x1 (![0] : Fin 1 → Fin S32x1.rank)
  slices_S8x32x512_S1x32x512_0_0_0 : S8x32x512.Slices ![0, 0, 0] S1x32x512
  shapeCasts_S1x32x512_S32x512 : S1x32x512.ShapeCasts S32x512
  slices_S8x512_S1x512_0_0 : S8x512.Slices ![0, 0] S1x512
  shapeCasts_S1x512_S512 : S1x512.ShapeCasts S512
  slices_S8x512x512_S1x512x512_0_0_0 : S8x512x512.Slices ![0, 0, 0] S1x512x512
  shapeCasts_S1x512x512_S512x512 : S1x512x512.ShapeCasts S512x512
  slices_S8x512x32_S1x512x32_0_0_0 : S8x512x32.Slices ![0, 0, 0] S1x512x32
  shapeCasts_S1x512x32_S512x32 : S1x512x32.ShapeCasts S512x32
  slices_S8x32_S1x32_0_0 : S8x32.Slices ![0, 0] S1x32
  shapeCasts_S1x32_S32 : S1x32.ShapeCasts S32
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  bcast_S_S16384x512 : S_.BroadcastsInDim S16384x512 (![] : Fin 0 → Fin S16384x512.rank)
  bcast_S32_S1x32_1 : S32.BroadcastsInDim S1x32 (![1] : Fin 1 → Fin S1x32.rank)
  bcast_S1x32_S16384x32_0_1 : S1x32.BroadcastsInDim S16384x32 (![0, 1] : Fin 2 → Fin S16384x32.rank)
  slices_S8x32x512_S1x32x512_1_0_0 : S8x32x512.Slices ![1, 0, 0] S1x32x512
  slices_S8x512_S1x512_1_0 : S8x512.Slices ![1, 0] S1x512
  slices_S8x512x512_S1x512x512_1_0_0 : S8x512x512.Slices ![1, 0, 0] S1x512x512
  slices_S8x512x32_S1x512x32_1_0_0 : S8x512x32.Slices ![1, 0, 0] S1x512x32
  slices_S8x32_S1x32_1_0 : S8x32.Slices ![1, 0] S1x32
  slices_S8x32x512_S1x32x512_2_0_0 : S8x32x512.Slices ![2, 0, 0] S1x32x512
  slices_S8x512_S1x512_2_0 : S8x512.Slices ![2, 0] S1x512
  slices_S8x512x512_S1x512x512_2_0_0 : S8x512x512.Slices ![2, 0, 0] S1x512x512
  slices_S8x512x32_S1x512x32_2_0_0 : S8x512x32.Slices ![2, 0, 0] S1x512x32
  slices_S8x32_S1x32_2_0 : S8x32.Slices ![2, 0] S1x32
  slices_S8x32x512_S1x32x512_3_0_0 : S8x32x512.Slices ![3, 0, 0] S1x32x512
  slices_S8x512_S1x512_3_0 : S8x512.Slices ![3, 0] S1x512
  slices_S8x512x512_S1x512x512_3_0_0 : S8x512x512.Slices ![3, 0, 0] S1x512x512
  slices_S8x512x32_S1x512x32_3_0_0 : S8x512x32.Slices ![3, 0, 0] S1x512x32
  slices_S8x32_S1x32_3_0 : S8x32.Slices ![3, 0] S1x32
  slices_S8x32x512_S1x32x512_4_0_0 : S8x32x512.Slices ![4, 0, 0] S1x32x512
  slices_S8x512_S1x512_4_0 : S8x512.Slices ![4, 0] S1x512
  slices_S8x512x512_S1x512x512_4_0_0 : S8x512x512.Slices ![4, 0, 0] S1x512x512
  slices_S8x512x32_S1x512x32_4_0_0 : S8x512x32.Slices ![4, 0, 0] S1x512x32
  slices_S8x32_S1x32_4_0 : S8x32.Slices ![4, 0] S1x32
  slices_S8x32x512_S1x32x512_5_0_0 : S8x32x512.Slices ![5, 0, 0] S1x32x512
  slices_S8x512_S1x512_5_0 : S8x512.Slices ![5, 0] S1x512
  slices_S8x512x512_S1x512x512_5_0_0 : S8x512x512.Slices ![5, 0, 0] S1x512x512
  slices_S8x512x32_S1x512x32_5_0_0 : S8x512x32.Slices ![5, 0, 0] S1x512x32
  slices_S8x32_S1x32_5_0 : S8x32.Slices ![5, 0] S1x32
  slices_S8x32x512_S1x32x512_6_0_0 : S8x32x512.Slices ![6, 0, 0] S1x32x512
  slices_S8x512_S1x512_6_0 : S8x512.Slices ![6, 0] S1x512
  slices_S8x512x512_S1x512x512_6_0_0 : S8x512x512.Slices ![6, 0, 0] S1x512x512
  slices_S8x512x32_S1x512x32_6_0_0 : S8x512x32.Slices ![6, 0, 0] S1x512x32
  slices_S8x32_S1x32_6_0 : S8x32.Slices ![6, 0] S1x32
  slices_S8x32x512_S1x32x512_7_0_0 : S8x32x512.Slices ![7, 0, 0] S1x32x512
  slices_S8x512_S1x512_7_0 : S8x512.Slices ![7, 0] S1x512
  slices_S8x512x512_S1x512x512_7_0_0 : S8x512x512.Slices ![7, 0, 0] S1x512x512
  slices_S8x512x32_S1x512x32_7_0_0 : S8x512x32.Slices ![7, 0, 0] S1x512x32
  slices_S8x32_S1x32_7_0 : S8x32.Slices ![7, 0] S1x32
  gather_S16384x64_S32x1_S16384x32_0_1_n_n_1_1_163841_wf : GatherDims.WF S16384x64 S32x1 S16384x32 [0] [1] [] [1] [] 1 ![16384, 1]
  dot_S16384x32_S32x512_S16384x512_1_0_0_1_n_n_wf : DotDims.WF S16384x32 S32x512 S16384x512 [1] [0] [0] [1] [] []
  dot_S16384x512_S512x512_S16384x512_1_0_0_1_n_n_wf : DotDims.WF S16384x512 S512x512 S16384x512 [1] [0] [0] [1] [] []
  dot_S16384x512_S512x32_S16384x32_1_0_0_1_n_n_wf : DotDims.WF S16384x512 S512x32 S16384x32 [1] [0] [0] [1] [] []
  scatter_S16384x64_S32x1_S16384x32_0_1_1_1_wf : ScatterDims.WF S16384x64 S32x1 S16384x32 [0] [1] [1] 1

variable [Facts₀]

def gather_S16384x64_S32x1_S16384x32_0_1_n_n_1_1_163841 : GatherDims S16384x64 S32x1 S16384x32 where
  offsetDims := [0]
  collapsedSliceDims := [1]
  operandBatchingDims := []
  startIndicesBatchingDims := []
  startIndexMap := [1]
  indexVectorDim := 1
  sliceSizes := ![16384, 1]
  wf := gather_S16384x64_S32x1_S16384x32_0_1_n_n_1_1_163841_wf
def dot_S16384x32_S32x512_S16384x512_1_0_0_1_n_n : DotDims S16384x32 S32x512 S16384x512 where
  lhsContracting := [1]
  rhsContracting := [0]
  lhsNonContracting := [0]
  rhsNonContracting := [1]
  lhsBatch := []
  rhsBatch := []
  wf := dot_S16384x32_S32x512_S16384x512_1_0_0_1_n_n_wf
def dot_S16384x512_S512x512_S16384x512_1_0_0_1_n_n : DotDims S16384x512 S512x512 S16384x512 where
  lhsContracting := [1]
  rhsContracting := [0]
  lhsNonContracting := [0]
  rhsNonContracting := [1]
  lhsBatch := []
  rhsBatch := []
  wf := dot_S16384x512_S512x512_S16384x512_1_0_0_1_n_n_wf
def dot_S16384x512_S512x32_S16384x32_1_0_0_1_n_n : DotDims S16384x512 S512x32 S16384x32 where
  lhsContracting := [1]
  rhsContracting := [0]
  lhsNonContracting := [0]
  rhsNonContracting := [1]
  lhsBatch := []
  rhsBatch := []
  wf := dot_S16384x512_S512x32_S16384x32_1_0_0_1_n_n_wf
def scatter_S16384x64_S32x1_S16384x32_0_1_1_1 : ScatterDims S16384x64 S32x1 S16384x32 where
  updateWindowDims := [0]
  insertedWindowDims := [1]
  scatterDimsToOperandDims := [1]
  indexVectorDim := 1
  wf := scatter_S16384x64_S32x1_S16384x32_0_1_1_1_wf

class Facts : Prop extends Facts₀ where

variable [Facts]
-- ==== Proof.RefDefs.lean ====
/-
  The reference's arithmetic, named.

  The reference keeps one array `z` of 16384 rows and 64 columns and one array of accumulated log-scales of the same
  shape, and passes them through eight coupling layers.  Layer `l` reads the columns of one parity (`i1`), pushes them
  through two three-layer perceptrons (each: three plain matrix products, a bias row added after each, the first two
  followed by a maximum with zero) to get a translation `t` and a log-scale `s = tanh(·) · scale + shift`, and replaces the
  columns of the other parity (`i0`) by `z₀ · exp s + t`, adding `s` into the same columns of the second array.  Even
  layers transform the even columns from the odd ones; odd layers the other way round.

  Every definition below is spelt with the host operations in the order the program applies them, so that the program's
  result is, literally, `Z8` and `L8` of its fifteen arguments.
-/
import proofs.«175251_j80573586473693_2_alg».proof.ReferenceIdeal

noncomputable section

namespace Cert.RefDefs

open Idealize.ShloMosaic Cert.ReferenceIdeal

variable {F : FTy → Type} [FloatOps F] [Facts]

open Facts₀ Facts

/-! ## The two index vectors -/

/-- The even columns 0, 2, …, 62 as the program builds its index vector: the table, with 64 added where an entry is
    negative (none is: the mask is all false), as a column of 32 entries. -/
def idxE : IVec S32x1 32 :=
  broadcastInDim S32x1 ![0] bcast_S32_S32x1_0
    (select (constantI S32 1 0#1)
      (addi (fun i => lit0 (S32.rowMajor i)) (broadcastInDim S32 ![] bcast_S_S32 (constantI S_ 32 64#32)))
      (fun i => lit0 (S32.rowMajor i)))

/-- The odd columns 1, 3, …, 63, built the same way. -/
def idxO : IVec S32x1 32 :=
  broadcastInDim S32x1 ![0] bcast_S32_S32x1_0
    (select (constantI S32 1 0#1)
      (addi (fun i => lit1 (S32.rowMajor i)) (broadcastInDim S32 ![] bcast_S_S32 (constantI S_ 32 64#32)))
      (fun i => lit1 (S32.rowMajor i)))

/-! ## One perceptron over all 16384 rows -/

/-- The maximum with zero, entry by entry, of a 16384 × 512 array. -/
def relu (h : FVec F S16384x512 .f32) : FVec F S16384x512 .f32 :=
  maximumf h (broadcastInDim S16384x512 ![] bcast_S_S16384x512 (constant S_ .f32 0x00000000#32))

/-- A vector of 512 entries repeated on each of the 16384 rows. -/
def row512 (b : FVec F S512 .f32) : FVec F S16384x512 .f32 :=
  broadcastInDim S16384x512 ![0, 1] bcast_S1x512_S16384x512_0_1 (broadcastInDim S1x512 ![1] bcast_S512_S1x512_1 b)

/-- A vector of 32 entries repeated on each of the 16384 rows. -/
def row32 (b : FVec F S32 .f32) : FVec F S16384x32 .f32 :=
  broadcastInDim S16384x32 ![0, 1] bcast_S1x32_S16384x32_0_1 (broadcastInDim S1x32 ![1] bcast_S32_S1x32_1 b)

/-- `max(max(x·W₁ + b₁, 0)·W₂ + b₂, 0)·W₃ + b₃`, row by row. -/
def mlp (x : FVec F S16384x32 .f32) (W1 : FVec F S32x512 .f32) (b1 : FVec F S512 .f32) (W2 : FVec F S512x512 .f32)
    (b2 : FVec F S512 .f32) (W3 : FVec F S512x32 .f32) (b3 : FVec F S32 .f32) : FVec F S16384x32 .f32 :=
  addf (Host.dotGeneral dot_S16384x512_S512x32_S16384x32_1_0_0_1_n_n none
      (relu (addf (Host.dotGeneral dot_S16384x512_S512x512_S16384x512_1_0_0_1_n_n none
        (relu (addf (Host.dotGeneral dot_S16384x32_S32x512_S16384x512_1_0_0_1_n_n none x W1) (row512 b1))) W2) (row512 b2))) W3)
    (row32 b3)

/-- The log-scale: `tanh(mlp x) · scale + shift`, the two vectors repeated on every row. -/
def logScale (x : FVec F S16384x32 .f32) (W1 : FVec F S32x512 .f32) (b1 : FVec F S512 .f32) (W2 : FVec F S512x512 .f32)
    (b2 : FVec F S512 .f32) (W3 : FVec F S512x32 .f32) (b3 : FVec F S32 .f32) (sc sh : FVec F S32 .f32) : FVec F S16384x32 .f32 :=
  addf (mulf (Host.tanh (mlp x W1 b1 W2 b2 W3 b3)) (row32 sc)) (row32 sh)

/-- `z₀ · exp s + t`. -/
def couple (z0 s t : FVec F S16384x32 .f32) : FVec F S16384x32 .f32 := addf (mulf z0 (Host.exp s)) t

/-! ## Layer `l`'s slice of a stacked parameter -/

def w32x512 (o : Fin 3 → Nat) (h : S8x32x512.Slices o S1x32x512) (a : FVec F S8x32x512 .f32) : FVec F S32x512 .f32 :=
  shapeCast S32x512 (extractStridedSlice S1x32x512 o a h) shapeCasts_S1x32x512_S32x512
def w512x512 (o : Fin 3 → Nat) (h : S8x512x512.Slices o S1x512x512) (a : FVec F S8x512x512 .f32) : FVec F S512x512 .f32 :=
  shapeCast S512x512 (extractStridedSlice S1x512x512 o a h) shapeCasts_S1x512x512_S512x512
def w512x32 (o : Fin 3 → Nat) (h : S8x512x32.Slices o S1x512x32) (a : FVec F S8x512x32 .f32) : FVec F S512x32 .f32 :=
  shapeCast S512x32 (extractStridedSlice S1x512x32 o a h) shapeCasts_S1x512x32_S512x32
def v512 (o : Fin 2 → Nat) (h : S8x512.Slices o S1x512) (a : FVec F S8x512 .f32) : FVec F S512 .f32 :=
  shapeCast S512 (extractStridedSlice S1x512 o a h) shapeCasts_S1x512_S512
def v32 (o : Fin 2 → Nat) (h : S8x32.Slices o S1x32) (a : FVec F S8x32 .f32) : FVec F S32 .f32 :=
  shapeCast S32 (extractStridedSlice S1x32 o a h) shapeCasts_S1x32_S32

/-! ## One coupling layer on the two arrays -/

/-- The columns `i0` of `z` replaced by `z₀ · exp s + t`, with `z₀` those columns and `s`, `t` computed from the columns `i1`. -/
def stepZ (i0 i1 : IVec S32x1 32) (z : FVec F S16384x64 .f32)
    (tW1 : FVec F S32x512 .f32) (tb1 : FVec F S512 .f32) (tW2 : FVec F S512x512 .f32) (tb2 : FVec F S512 .f32)
    (tW3 : FVec F S512x32 .f32) (tb3 : FVec F S32 .f32)
    (sW1 : FVec F S32x512 .f32) (sb1 : FVec F S512 .f32) (sW2 : FVec F S512x512 .f32) (sb2 : FVec F S512 .f32)
    (sW3 : FVec F S512x32 .f32) (sb3 : FVec F S32 .f32) (sc sh : FVec F S32 .f32) : FVec F S16384x64 .f32 :=
  Host.scatter scatter_S16384x64_S32x1_S16384x32_0_1_1_1 (fun _ b => b) z i0
    (couple (Host.gather gather_S16384x64_S32x1_S16384x32_0_1_n_n_1_1_163841 z i0)
      (logScale (Host.gather gather_S16384x64_S32x1_S16384x32_0_1_n_n_1_1_163841 z i1) sW1 sb1 sW2 sb2 sW3 sb3 sc sh)
      (mlp (Host.gather gather_S16384x64_S32x1_S16384x32_0_1_n_n_1_1_163841 z i1) tW1 tb1 tW2 tb2 tW3 tb3))

/-- The log-scale of the layer added into the columns `i0` of the accumulated array. -/
def stepL (i0 i1 : IVec S32x1 32) (z ld : FVec F S16384x64 .f32)
    (sW1 : FVec F S32x512 .f32) (sb1 : FVec F S512 .f32) (sW2 : FVec F S512x512 .f32) (sb2 : FVec F S512 .f32)
    (sW3 : FVec F S512x32 .f32) (sb3 : FVec F S32 .f32) (sc sh : FVec F S32 .f32) : FVec F S16384x64 .f32 :=
  Host.scatterAdd scatter_S16384x64_S32x1_S16384x32_0_1_1_1 ld i0 (logScale (Host.gather gather_S16384x64_S32x1_S16384x32_0_1_n_n_1_1_163841 z i1) sW1 sb1 sW2 sb2 sW3 sb3 sc sh)

/-! ## The eight layers -/

section Layers

/-- Before the first layer: the input itself, and zeros. -/
def Z0 (y : FVec F S16384x64 .f32) : FVec F S16384x64 .f32 := y
def L0 : FVec F S16384x64 .f32 := broadcastInDim S16384x64 ![] bcast_S_S16384x64 (constant S_ .f32 0x00000000#32)

/-- After layer 0: the even columns transformed from the odd ones. -/
def Z1 (y : FVec F S16384x64 .f32)
    (tW1 : FVec F S8x32x512 .f32) (tb1 : FVec F S8x512 .f32) (tW2 : FVec F S8x512x512 .f32) (tb2 : FVec F S8x512 .f32)
    (tW3 : FVec F S8x512x32 .f32) (tb3 : FVec F S8x32 .f32)
    (sW1 : FVec F S8x32x512 .f32) (sb1 : FVec F S8x512 .f32) (sW2 : FVec F S8x512x512 .f32) (sb2 : FVec F S8x512 .f32)
    (sW3 : FVec F S8x512x32 .f32) (sb3 : FVec F S8x32 .f32) (ssc ssh : FVec F S8x32 .f32) : FVec F S16384x64 .f32 :=
  stepZ idxE idxO (Z0 y)
      (w32x512 ![0, 0, 0] slices_S8x32x512_S1x32x512_0_0_0 tW1) (v512 ![0, 0] slices_S8x512_S1x512_0_0 tb1)
      (w512x512 ![0, 0, 0] slices_S8x512x512_S1x512x512_0_0_0 tW2) (v512 ![0, 0] slices_S8x512_S1x512_0_0 tb2)
      (w512x32 ![0, 0, 0] slices_S8x512x32_S1x512x32_0_0_0 tW3) (v32 ![0, 0] slices_S8x32_S1x32_0_0 tb3)
      (w32x512 ![0, 0, 0] slices_S8x32x512_S1x32x512_0_0_0 sW1) (v512 ![0, 0] slices_S8x512_S1x512_0_0 sb1)
      (w512x512 ![0, 0, 0] slices_S8x512x512_S1x512x512_0_0_0 sW2) (v512 ![0, 0] slices_S8x512_S1x512_0_0 sb2)
      (w512x32 ![0, 0, 0] slices_S8x512x32_S1x512x32_0_0_0 sW3) (v32 ![0, 0] slices_S8x32_S1x32_0_0 sb3) (v32 ![0, 0] slices_S8x32_S1x32_0_0 ssc) (v32 ![0, 0] slices_S8x32_S1x32_0_0 ssh)
def L1 (y : FVec F S16384x64 .f32)
    (tW1 : FVec F S8x32x512 .f32) (tb1 : FVec F S8x512 .f32) (tW2 : FVec F S8x512x512 .f32) (tb2 : FVec F S8x512 .f32)
    (tW3 : FVec F S8x512x32 .f32) (tb3 : FVec F S8x32 .f32)
    (sW1 : FVec F S8x32x512 .f32) (sb1 : FVec F S8x512 .f32) (sW2 : FVec F S8x512x512 .f32) (sb2 : FVec F S8x512 .f32)
    (sW3 : FVec F S8x512x32 .f32) (sb3 : FVec F S8x32 .f32) (ssc ssh : FVec F S8x32 .f32) : FVec F S16384x64 .f32 :=
  stepL idxE idxO (Z0 y) (L0 (F := F))
      (w32x512 ![0, 0, 0] slices_S8x32x512_S1x32x512_0_0_0 sW1) (v512 ![0, 0] slices_S8x512_S1x512_0_0 sb1)
      (w512x512 ![0, 0, 0] slices_S8x512x512_S1x512x512_0_0_0 sW2) (v512 ![0, 0] slices_S8x512_S1x512_0_0 sb2)
      (w512x32 ![0, 0, 0] slices_S8x512x32_S1x512x32_0_0_0 sW3) (v32 ![0, 0] slices_S8x32_S1x32_0_0 sb3) (v32 ![0, 0] slices_S8x32_S1x32_0_0 ssc) (v32 ![0, 0] slices_S8x32_S1x32_0_0 ssh)

/-- After layer 1: the odd columns transformed from the even ones. -/
def Z2 (y : FVec F S16384x64 .f32)
    (tW1 : FVec F S8x32x512 .f32) (tb1 : FVec F S8x512 .f32) (tW2 : FVec F S8x512x512 .f32) (tb2 : FVec F S8x512 .f32)
    (tW3 : FVec F S8x512x32 .f32) (tb3 : FVec F S8x32 .f32)
    (sW1 : FVec F S8x32x512 .f32) (sb1 : FVec F S8x512 .f32) (sW2 : FVec F S8x512x512 .f32) (sb2 : FVec F S8x512 .f32)
    (sW3 : FVec F S8x512x32 .f32) (sb3 : FVec F S8x32 .f32) (ssc ssh : FVec F S8x32 .f32) : FVec F S16384x64 .f32 :=
  stepZ idxO idxE (Z1 y tW1 tb1 tW2 tb2 tW3 tb3 sW1 sb1 sW2 sb2 sW3 sb3 ssc ssh)
      (w32x512 ![1, 0, 0] slices_S8x32x512_S1x32x512_1_0_0 tW1) (v512 ![1, 0] slices_S8x512_S1x512_1_0 tb1)
      (w512x512 ![1, 0, 0] slices_S8x512x512_S1x512x512_1_0_0 tW2) (v512 ![1, 0] slices_S8x512_S1x512_1_0 tb2)
      (w512x32 ![1, 0, 0] slices_S8x512x32_S1x512x32_1_0_0 tW3) (v32 ![1, 0] slices_S8x32_S1x32_1_0 tb3)
      (w32x512 ![1, 0, 0] slices_S8x32x512_S1x32x512_1_0_0 sW1) (v512 ![1, 0] slices_S8x512_S1x512_1_0 sb1)
      (w512x512 ![1, 0, 0] slices_S8x512x512_S1x512x512_1_0_0 sW2) (v512 ![1, 0] slices_S8x512_S1x512_1_0 sb2)
      (w512x32 ![1, 0, 0] slices_S8x512x32_S1x512x32_1_0_0 sW3) (v32 ![1, 0] slices_S8x32_S1x32_1_0 sb3) (v32 ![1, 0] slices_S8x32_S1x32_1_0 ssc) (v32 ![1, 0] slices_S8x32_S1x32_1_0 ssh)
def L2 (y : FVec F S16384x64 .f32)
    (tW1 : FVec F S8x32x512 .f32) (tb1 : FVec F S8x512 .f32) (tW2 : FVec F S8x512x512 .f32) (tb2 : FVec F S8x512 .f32)
    (tW3 : FVec F S8x512x32 .f32) (tb3 : FVec F S8x32 .f32)
    (sW1 : FVec F S8x32x512 .f32) (sb1 : FVec F S8x512 .f32) (sW2 : FVec F S8x512x512 .f32) (sb2 : FVec F S8x512 .f32)
    (sW3 : FVec F S8x512x32 .f32) (sb3 : FVec F S8x32 .f32) (ssc ssh : FVec F S8x32 .f32) : FVec F S16384x64 .f32 :=
  stepL idxO idxE (Z1 y tW1 tb1 tW2 tb2 tW3 tb3 sW1 sb1 sW2 sb2 sW3 sb3 ssc ssh) (L1 y tW1 tb1 tW2 tb2 tW3 tb3 sW1 sb1 sW2 sb2 sW3 sb3 ssc ssh)
      (w32x512 ![1, 0, 0] slices_S8x32x512_S1x32x512_1_0_0 sW1) (v512 ![1, 0] slices_S8x512_S1x512_1_0 sb1)
      (w512x512 ![1, 0, 0] slices_S8x512x512_S1x512x512_1_0_0 sW2) (v512 ![1, 0] slices_S8x512_S1x512_1_0 sb2)
      (w512x32 ![1, 0, 0] slices_S8x512x32_S1x512x32_1_0_0 sW3) (v32 ![1, 0] slices_S8x32_S1x32_1_0 sb3) (v32 ![1, 0] slices_S8x32_S1x32_1_0 ssc) (v32 ![1, 0] slices_S8x32_S1x32_1_0 ssh)

/-- After layer 2: the even columns transformed from the odd ones. -/
def Z3 (y : FVec F S16384x64 .f32)
    (tW1 : FVec F S8x32x512 .f32) (tb1 : FVec F S8x512 .f32) (tW2 : FVec F S8x512x512 .f32) (tb2 : FVec F S8x512 .f32)
    (tW3 : FVec F S8x512x32 .f32) (tb3 : FVec F S8x32 .f32)
    (sW1 : FVec F S8x32x512 .f32) (sb1 : FVec F S8x512 .f32) (sW2 : FVec F S8x512x512 .f32) (sb2 : FVec F S8x512 .f32)
    (sW3 : FVec F S8x512x32 .f32) (sb3 : FVec F S8x32 .f32) (ssc ssh : FVec F S8x32 .f32) : FVec F S16384x64 .f32 :=
  stepZ idxE idxO (Z2 y tW1 tb1 tW2 tb2 tW3 tb3 sW1 sb1 sW2 sb2 sW3 sb3 ssc ssh)
      (w32x512 ![2, 0, 0] slices_S8x32x512_S1x32x512_2_0_0 tW1) (v512 ![2, 0] slices_S8x512_S1x512_2_0 tb1)
      (w512x512 ![2, 0, 0] slices_S8x512x512_S1x512x512_2_0_0 tW2) (v512 ![2, 0] slices_S8x512_S1x512_2_0 tb2)
      (w512x32 ![2, 0, 0] slices_S8x512x32_S1x512x32_2_0_0 tW3) (v32 ![2, 0] slices_S8x32_S1x32_2_0 tb3)
      (w32x512 ![2, 0, 0] slices_S8x32x512_S1x32x512_2_0_0 sW1) (v512 ![2, 0] slices_S8x512_S1x512_2_0 sb1)
      (w512x512 ![2, 0, 0] slices_S8x512x512_S1x512x512_2_0_0 sW2) (v512 ![2, 0] slices_S8x512_S1x512_2_0 sb2)
      (w512x32 ![2, 0, 0] slices_S8x512x32_S1x512x32_2_0_0 sW3) (v32 ![2, 0] slices_S8x32_S1x32_2_0 sb3) (v32 ![2, 0] slices_S8x32_S1x32_2_0 ssc) (v32 ![2, 0] slices_S8x32_S1x32_2_0 ssh)
def L3 (y : FVec F S16384x64 .f32)
    (tW1 : FVec F S8x32x512 .f32) (tb1 : FVec F S8x512 .f32) (tW2 : FVec F S8x512x512 .f32) (tb2 : FVec F S8x512 .f32)
    (tW3 : FVec F S8x512x32 .f32) (tb3 : FVec F S8x32 .f32)
    (sW1 : FVec F S8x32x512 .f32) (sb1 : FVec F S8x512 .f32) (sW2 : FVec F S8x512x512 .f32) (sb2 : FVec F S8x512 .f32)
    (sW3 : FVec F S8x512x32 .f32) (sb3 : FVec F S8x32 .f32) (ssc ssh : FVec F S8x32 .f32) : FVec F S16384x64 .f32 :=
  stepL idxE idxO (Z2 y tW1 tb1 tW2 tb2 tW3 tb3 sW1 sb1 sW2 sb2 sW3 sb3 ssc ssh) (L2 y tW1 tb1 tW2 tb2 tW3 tb3 sW1 sb1 sW2 sb2 sW3 sb3 ssc ssh)
      (w32x512 ![2, 0, 0] slices_S8x32x512_S1x32x512_2_0_0 sW1) (v512 ![2, 0] slices_S8x512_S1x512_2_0 sb1)
      (w512x512 ![2, 0, 0] slices_S8x512x512_S1x512x512_2_0_0 sW2) (v512 ![2, 0] slices_S8x512_S1x512_2_0 sb2)
      (w512x32 ![2, 0, 0] slices_S8x512x32_S1x512x32_2_0_0 sW3) (v32 ![2, 0] slices_S8x32_S1x32_2_0 sb3) (v32 ![2, 0] slices_S8x32_S1x32_2_0 ssc) (v32 ![2, 0] slices_S8x32_S1x32_2_0 ssh)

/-- After layer 3: the odd columns transformed from the even ones. -/
def Z4 (y : FVec F S16384x64 .f32)
    (tW1 : FVec F S8x32x512 .f32) (tb1 : FVec F S8x512 .f32) (tW2 : FVec F S8x512x512 .f32) (tb2 : FVec F S8x512 .f32)
    (tW3 : FVec F S8x512x32 .f32) (tb3 : FVec F S8x32 .f32)
    (sW1 : FVec F S8x32x512 .f32) (sb1 : FVec F S8x512 .f32) (sW2 : FVec F S8x512x512 .f32) (sb2 : FVec F S8x512 .f32)
    (sW3 : FVec F S8x512x32 .f32) (sb3 : FVec F S8x32 .f32) (ssc ssh : FVec F S8x32 .f32) : FVec F S16384x64 .f32 :=
  stepZ idxO idxE (Z3 y tW1 tb1 tW2 tb2 tW3 tb3 sW1 sb1 sW2 sb2 sW3 sb3 ssc ssh)
      (w32x512 ![3, 0, 0] slices_S8x32x512_S1x32x512_3_0_0 tW1) (v512 ![3, 0] slices_S8x512_S1x512_3_0 tb1)
      (w512x512 ![3, 0, 0] slices_S8x512x512_S1x512x512_3_0_0 tW2) (v512 ![3, 0] slices_S8x512_S1x512_3_0 tb2)
      (w512x32 ![3, 0, 0] slices_S8x512x32_S1x512x32_3_0_0 tW3) (v32 ![3, 0] slices_S8x32_S1x32_3_0 tb3)
      (w32x512 ![3, 0, 0] slices_S8x32x512_S1x32x512_3_0_0 sW1) (v512 ![3, 0] slices_S8x512_S1x512_3_0 sb1)
      (w512x512 ![3, 0, 0] slices_S8x512x512_S1x512x512_3_0_0 sW2) (v512 ![3, 0] slices_S8x512_S1x512_3_0 sb2)
      (w512x32 ![3, 0, 0] slices_S8x512x32_S1x512x32_3_0_0 sW3) (v32 ![3, 0] slices_S8x32_S1x32_3_0 sb3) (v32 ![3, 0] slices_S8x32_S1x32_3_0 ssc) (v32 ![3, 0] slices_S8x32_S1x32_3_0 ssh)
def L4 (y : FVec F S16384x64 .f32)
    (tW1 : FVec F S8x32x512 .f32) (tb1 : FVec F S8x512 .f32) (tW2 : FVec F S8x512x512 .f32) (tb2 : FVec F S8x512 .f32)
    (tW3 : FVec F S8x512x32 .f32) (tb3 : FVec F S8x32 .f32)
    (sW1 : FVec F S8x32x512 .f32) (sb1 : FVec F S8x512 .f32) (sW2 : FVec F S8x512x512 .f32) (sb2 : FVec F S8x512 .f32)
    (sW3 : FVec F S8x512x32 .f32) (sb3 : FVec F S8x32 .f32) (ssc ssh : FVec F S8x32 .f32) : FVec F S16384x64 .f32 :=
  stepL idxO idxE (Z3 y tW1 tb1 tW2 tb2 tW3 tb3 sW1 sb1 sW2 sb2 sW3 sb3 ssc ssh) (L3 y tW1 tb1 tW2 tb2 tW3 tb3 sW1 sb1 sW2 sb2 sW3 sb3 ssc ssh)
      (w32x512 ![3, 0, 0] slices_S8x32x512_S1x32x512_3_0_0 sW1) (v512 ![3, 0] slices_S8x512_S1x512_3_0 sb1)
      (w512x512 ![3, 0, 0] slices_S8x512x512_S1x512x512_3_0_0 sW2) (v512 ![3, 0] slices_S8x512_S1x512_3_0 sb2)
      (w512x32 ![3, 0, 0] slices_S8x512x32_S1x512x32_3_0_0 sW3) (v32 ![3, 0] slices_S8x32_S1x32_3_0 sb3) (v32 ![3, 0] slices_S8x32_S1x32_3_0 ssc) (v32 ![3, 0] slices_S8x32_S1x32_3_0 ssh)

/-- After layer 4: the even columns transformed from the odd ones. -/
def Z5 (y : FVec F S16384x64 .f32)
    (tW1 : FVec F S8x32x512 .f32) (tb1 : FVec F S8x512 .f32) (tW2 : FVec F S8x512x512 .f32) (tb2 : FVec F S8x512 .f32)
    (tW3 : FVec F S8x512x32 .f32) (tb3 : FVec F S8x32 .f32)
    (sW1 : FVec F S8x32x512 .f32) (sb1 : FVec F S8x512 .f32) (sW2 : FVec F S8x512x512 .f32) (sb2 : FVec F S8x512 .f32)
    (sW3 : FVec F S8x512x32 .f32) (sb3 : FVec F S8x32 .f32) (ssc ssh : FVec F S8x32 .f32) : FVec F S16384x64 .f32 :=
  stepZ idxE idxO (Z4 y tW1 tb1 tW2 tb2 tW3 tb3 sW1 sb1 sW2 sb2 sW3 sb3 ssc ssh)
      (w32x512 ![4, 0, 0] slices_S8x32x512_S1x32x512_4_0_0 tW1) (v512 ![4, 0] slices_S8x512_S1x512_4_0 tb1)
      (w512x512 ![4, 0, 0] slices_S8x512x512_S1x512x512_4_0_0 tW2) (v512 ![4, 0] slices_S8x512_S1x512_4_0 tb2)
      (w512x32 ![4, 0, 0] slices_S8x512x32_S1x512x32_4_0_0 tW3) (v32 ![4, 0] slices_S8x32_S1x32_4_0 tb3)
      (w32x512 ![4, 0, 0] slices_S8x32x512_S1x32x512_4_0_0 sW1) (v512 ![4, 0] slices_S8x512_S1x512_4_0 sb1)
      (w512x512 ![4, 0, 0] slices_S8x512x512_S1x512x512_4_0_0 sW2) (v512 ![4, 0] slices_S8x512_S1x512_4_0 sb2)
      (w512x32 ![4, 0, 0] slices_S8x512x32_S1x512x32_4_0_0 sW3) (v32 ![4, 0] slices_S8x32_S1x32_4_0 sb3) (v32 ![4, 0] slices_S8x32_S1x32_4_0 ssc) (v32 ![4, 0] slices_S8x32_S1x32_4_0 ssh)
def L5 (y : FVec F S16384x64 .f32)
    (tW1 : FVec F S8x32x512 .f32) (tb1 : FVec F S8x512 .f32) (tW2 : FVec F S8x512x512 .f32) (tb2 : FVec F S8x512 .f32)
    (tW3 : FVec F S8x512x32 .f32) (tb3 : FVec F S8x32 .f32)
    (sW1 : FVec F S8x32x512 .f32) (sb1 : FVec F S8x512 .f32) (sW2 : FVec F S8x512x512 .f32) (sb2 : FVec F S8x512 .f32)
    (sW3 : FVec F S8x512x32 .f32) (sb3 : FVec F S8x32 .f32) (ssc ssh : FVec F S8x32 .f32) : FVec F S16384x64 .f32 :=
  stepL idxE idxO (Z4 y tW1 tb1 tW2 tb2 tW3 tb3 sW1 sb1 sW2 sb2 sW3 sb3 ssc ssh) (L4 y tW1 tb1 tW2 tb2 tW3 tb3 sW1 sb1 sW2 sb2 sW3 sb3 ssc ssh)
      (w32x512 ![4, 0, 0] slices_S8x32x512_S1x32x512_4_0_0 sW1) (v512 ![4, 0] slices_S8x512_S1x512_4_0 sb1)
      (w512x512 ![4, 0, 0] slices_S8x512x512_S1x512x512_4_0_0 sW2) (v512 ![4, 0] slices_S8x512_S1x512_4_0 sb2)
      (w512x32 ![4, 0, 0] slices_S8x512x32_S1x512x32_4_0_0 sW3) (v32 ![4, 0] slices_S8x32_S1x32_4_0 sb3) (v32 ![4, 0] slices_S8x32_S1x32_4_0 ssc) (v32 ![4, 0] slices_S8x32_S1x32_4_0 ssh)

/-- After layer 5: the odd columns transformed from the even ones. -/
def Z6 (y : FVec F S16384x64 .f32)
    (tW1 : FVec F S8x32x512 .f32) (tb1 : FVec F S8x512 .f32) (tW2 : FVec F S8x512x512 .f32) (tb2 : FVec F S8x512 .f32)
    (tW3 : FVec F S8x512x32 .f32) (tb3 : FVec F S8x32 .f32)
    (sW1 : FVec F S8x32x512 .f32) (sb1 : FVec F S8x512 .f32) (sW2 : FVec F S8x512x512 .f32) (sb2 : FVec F S8x512 .f32)
    (sW3 : FVec F S8x512x32 .f32) (sb3 : FVec F S8x32 .f32) (ssc ssh : FVec F S8x32 .f32) : FVec F S16384x64 .f32 :=
  stepZ idxO idxE (Z5 y tW1 tb1 tW2 tb2 tW3 tb3 sW1 sb1 sW2 sb2 sW3 sb3 ssc ssh)
      (w32x512 ![5, 0, 0] slices_S8x32x512_S1x32x512_5_0_0 tW1) (v512 ![5, 0] slices_S8x512_S1x512_5_0 tb1)
      (w512x512 ![5, 0, 0] slices_S8x512x512_S1x512x512_5_0_0 tW2) (v512 ![5, 0] slices_S8x512_S1x512_5_0 tb2)
      (w512x32 ![5, 0, 0] slices_S8x512x32_S1x512x32_5_0_0 tW3) (v32 ![5, 0] slices_S8x32_S1x32_5_0 tb3)
      (w32x512 ![5, 0, 0] slices_S8x32x512_S1x32x512_5_0_0 sW1) (v512 ![5, 0] slices_S8x512_S1x512_5_0 sb1)
      (w512x512 ![5, 0, 0] slices_S8x512x512_S1x512x512_5_0_0 sW2) (v512 ![5, 0] slices_S8x512_S1x512_5_0 sb2)
      (w512x32 ![5, 0, 0] slices_S8x512x32_S1x512x32_5_0_0 sW3) (v32 ![5, 0] slices_S8x32_S1x32_5_0 sb3) (v32 ![5, 0] slices_S8x32_S1x32_5_0 ssc) (v32 ![5, 0] slices_S8x32_S1x32_5_0 ssh)
def L6 (y : FVec F S16384x64 .f32)
    (tW1 : FVec F S8x32x512 .f32) (tb1 : FVec F S8x512 .f32) (tW2 : FVec F S8x512x512 .f32) (tb2 : FVec F S8x512 .f32)
    (tW3 : FVec F S8x512x32 .f32) (tb3 : FVec F S8x32 .f32)
    (sW1 : FVec F S8x32x512 .f32) (sb1 : FVec F S8x512 .f32) (sW2 : FVec F S8x512x512 .f32) (sb2 : FVec F S8x512 .f32)
    (sW3 : FVec F S8x512x32 .f32) (sb3 : FVec F S8x32 .f32) (ssc ssh : FVec F S8x32 .f32) : FVec F S16384x64 .f32 :=
  stepL idxO idxE (Z5 y tW1 tb1 tW2 tb2 tW3 tb3 sW1 sb1 sW2 sb2 sW3 sb3 ssc ssh) (L5 y tW1 tb1 tW2 tb2 tW3 tb3 sW1 sb1 sW2 sb2 sW3 sb3 ssc ssh)
      (w32x512 ![5, 0, 0] slices_S8x32x512_S1x32x512_5_0_0 sW1) (v512 ![5, 0] slices_S8x512_S1x512_5_0 sb1)
      (w512x512 ![5, 0, 0] slices_S8x512x512_S1x512x512_5_0_0 sW2) (v512 ![5, 0] slices_S8x512_S1x512_5_0 sb2)
      (w512x32 ![5, 0, 0] slices_S8x512x32_S1x512x32_5_0_0 sW3) (v32 ![5, 0] slices_S8x32_S1x32_5_0 sb3) (v32 ![5, 0] slices_S8x32_S1x32_5_0 ssc) (v32 ![5, 0] slices_S8x32_S1x32_5_0 ssh)

/-- After layer 6: the even columns transformed from the odd ones. -/
def Z7 (y : FVec F S16384x64 .f32)
    (tW1 : FVec F S8x32x512 .f32) (tb1 : FVec F S8x512 .f32) (tW2 : FVec F S8x512x512 .f32) (tb2 : FVec F S8x512 .f32)
    (tW3 : FVec F S8x512x32 .f32) (tb3 : FVec F S8x32 .f32)
    (sW1 : FVec F S8x32x512 .f32) (sb1 : FVec F S8x512 .f32) (sW2 : FVec F S8x512x512 .f32) (sb2 : FVec F S8x512 .f32)
    (sW3 : FVec F S8x512x32 .f32) (sb3 : FVec F S8x32 .f32) (ssc ssh : FVec F S8x32 .f32) : FVec F S16384x64 .f32 :=
  stepZ idxE idxO (Z6 y tW1 tb1 tW2 tb2 tW3 tb3 sW1 sb1 sW2 sb2 sW3 sb3 ssc ssh)
      (w32x512 ![6, 0, 0] slices_S8x32x512_S1x32x512_6_0_0 tW1) (v512 ![6, 0] slices_S8x512_S1x512_6_0 tb1)
      (w512x512 ![6, 0, 0] slices_S8x512x512_S1x512x512_6_0_0 tW2) (v512 ![6, 0] slices_S8x512_S1x512_6_0 tb2)
      (w512x32 ![6, 0, 0] slices_S8x512x32_S1x512x32_6_0_0 tW3) (v32 ![6, 0] slices_S8x32_S1x32_6_0 tb3)
      (w32x512 ![6, 0, 0] slices_S8x32x512_S1x32x512_6_0_0 sW1) (v512 ![6, 0] slices_S8x512_S1x512_6_0 sb1)
      (w512x512 ![6, 0, 0] slices_S8x512x512_S1x512x512_6_0_0 sW2) (v512 ![6, 0] slices_S8x512_S1x512_6_0 sb2)
      (w512x32 ![6, 0, 0] slices_S8x512x32_S1x512x32_6_0_0 sW3) (v32 ![6, 0] slices_S8x32_S1x32_6_0 sb3) (v32 ![6, 0] slices_S8x32_S1x32_6_0 ssc) (v32 ![6, 0] slices_S8x32_S1x32_6_0 ssh)
def L7 (y : FVec F S16384x64 .f32)
    (tW1 : FVec F S8x32x512 .f32) (tb1 : FVec F S8x512 .f32) (tW2 : FVec F S8x512x512 .f32) (tb2 : FVec F S8x512 .f32)
    (tW3 : FVec F S8x512x32 .f32) (tb3 : FVec F S8x32 .f32)
    (sW1 : FVec F S8x32x512 .f32) (sb1 : FVec F S8x512 .f32) (sW2 : FVec F S8x512x512 .f32) (sb2 : FVec F S8x512 .f32)
    (sW3 : FVec F S8x512x32 .f32) (sb3 : FVec F S8x32 .f32) (ssc ssh : FVec F S8x32 .f32) : FVec F S16384x64 .f32 :=
  stepL idxE idxO (Z6 y tW1 tb1 tW2 tb2 tW3 tb3 sW1 sb1 sW2 sb2 sW3 sb3 ssc ssh) (L6 y tW1 tb1 tW2 tb2 tW3 tb3 sW1 sb1 sW2 sb2 sW3 sb3 ssc ssh)
      (w32x512 ![6, 0, 0] slices_S8x32x512_S1x32x512_6_0_0 sW1) (v512 ![6, 0] slices_S8x512_S1x512_6_0 sb1)
      (w512x512 ![6, 0, 0] slices_S8x512x512_S1x512x512_6_0_0 sW2) (v512 ![6, 0] slices_S8x512_S1x512_6_0 sb2)
      (w512x32 ![6, 0, 0] slices_S8x512x32_S1x512x32_6_0_0 sW3) (v32 ![6, 0] slices_S8x32_S1x32_6_0 sb3) (v32 ![6, 0] slices_S8x32_S1x32_6_0 ssc) (v32 ![6, 0] slices_S8x32_S1x32_6_0 ssh)

/-- After layer 7: the odd columns transformed from the even ones. -/
def Z8 (y : FVec F S16384x64 .f32)
    (tW1 : FVec F S8x32x512 .f32) (tb1 : FVec F S8x512 .f32) (tW2 : FVec F S8x512x512 .f32) (tb2 : FVec F S8x512 .f32)
    (tW3 : FVec F S8x512x32 .f32) (tb3 : FVec F S8x32 .f32)
    (sW1 : FVec F S8x32x512 .f32) (sb1 : FVec F S8x512 .f32) (sW2 : FVec F S8x512x512 .f32) (sb2 : FVec F S8x512 .f32)
    (sW3 : FVec F S8x512x32 .f32) (sb3 : FVec F S8x32 .f32) (ssc ssh : FVec F S8x32 .f32) : FVec F S16384x64 .f32 :=
  stepZ idxO idxE (Z7 y tW1 tb1 tW2 tb2 tW3 tb3 sW1 sb1 sW2 sb2 sW3 sb3 ssc ssh)
      (w32x512 ![7, 0, 0] slices_S8x32x512_S1x32x512_7_0_0 tW1) (v512 ![7, 0] slices_S8x512_S1x512_7_0 tb1)
      (w512x512 ![7, 0, 0] slices_S8x512x512_S1x512x512_7_0_0 tW2) (v512 ![7, 0] slices_S8x512_S1x512_7_0 tb2)
      (w512x32 ![7, 0, 0] slices_S8x512x32_S1x512x32_7_0_0 tW3) (v32 ![7, 0] slices_S8x32_S1x32_7_0 tb3)
      (w32x512 ![7, 0, 0] slices_S8x32x512_S1x32x512_7_0_0 sW1) (v512 ![7, 0] slices_S8x512_S1x512_7_0 sb1)
      (w512x512 ![7, 0, 0] slices_S8x512x512_S1x512x512_7_0_0 sW2) (v512 ![7, 0] slices_S8x512_S1x512_7_0 sb2)
      (w512x32 ![7, 0, 0] slices_S8x512x32_S1x512x32_7_0_0 sW3) (v32 ![7, 0] slices_S8x32_S1x32_7_0 sb3) (v32 ![7, 0] slices_S8x32_S1x32_7_0 ssc) (v32 ![7, 0] slices_S8x32_S1x32_7_0 ssh)
def L8 (y : FVec F S16384x64 .f32)
    (tW1 : FVec F S8x32x512 .f32) (tb1 : FVec F S8x512 .f32) (tW2 : FVec F S8x512x512 .f32) (tb2 : FVec F S8x512 .f32)
    (tW3 : FVec F S8x512x32 .f32) (tb3 : FVec F S8x32 .f32)
    (sW1 : FVec F S8x32x512 .f32) (sb1 : FVec F S8x512 .f32) (sW2 : FVec F S8x512x512 .f32) (sb2 : FVec F S8x512 .f32)
    (sW3 : FVec F S8x512x32 .f32) (sb3 : FVec F S8x32 .f32) (ssc ssh : FVec F S8x32 .f32) : FVec F S16384x64 .f32 :=
  stepL idxO idxE (Z7 y tW1 tb1 tW2 tb2 tW3 tb3 sW1 sb1 sW2 sb2 sW3 sb3 ssc ssh) (L7 y tW1 tb1 tW2 tb2 tW3 tb3 sW1 sb1 sW2 sb2 sW3 sb3 ssc ssh)
      (w32x512 ![7, 0, 0] slices_S8x32x512_S1x32x512_7_0_0 sW1) (v512 ![7, 0] slices_S8x512_S1x512_7_0 sb1)
      (w512x512 ![7, 0, 0] slices_S8x512x512_S1x512x512_7_0_0 sW2) (v512 ![7, 0] slices_S8x512_S1x512_7_0 sb2)
      (w512x32 ![7, 0, 0] slices_S8x512x32_S1x512x32_7_0_0 sW3) (v32 ![7, 0] slices_S8x32_S1x32_7_0 sb3) (v32 ![7, 0] slices_S8x32_S1x32_7_0 ssc) (v32 ![7, 0] slices_S8x32_S1x32_7_0 ssh)

end Layers

end Cert.RefDefs

end
-- ==== Proof.LibRowOps.lean ====
/-
  Rank-two arrays read at an index, over abstract extents.

  * A plain matrix product — rows by contraction times contraction by columns, no batch axis — read at
    `(p, q)` is the sum over the contraction axis of left `(p, k)` times right `(k, q)`: for a kernel's product
    into a zero accumulator and for the host's `dot_general` alike, at the ideal values.
  * A vector of length `N` spread over the rows of an `M × N` array, read at `(p, q)`, is the vector at `q`:
    spelt as a shape cast followed by a broadcast, or as two `broadcast_in_dim`s.
  * A unit-stride slice of columns (of entries, for a vector) read at an index is the operand at the shifted index.
  * A scalar constant spread over any shape reads as the constant's value.
-/
import Idealize.ShloMosaic.PureOps.Ideal.Laws
import Idealize.ShloMosaic.Lib.ValueIdx
import Idealize.ShloMosaic.Lib.Pipeline.Value

noncomputable section

open scoped BigOperators

namespace Cert.Lib.RowOps

open Idealize.ShloMosaic Idealize.ShloMosaic.ValueIdx

/-! ## Plain matrix products -/

/-- The contraction of a plain product at `(p, q)`, re-indexed by the contraction axis itself. -/
theorem plain_sum (M K N : Nat) (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl (ix2 p q) _).trans hk
      | ⟨1, _⟩ => rfl)
  rw [el, er]

/-- A kernel's plain product into the zero accumulator, at `(p, q)`. -/
theorem matmul_zero_apply (M K N : Nat) {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply]
  exact plain_sum M K N l r p q

/-- The host's plain `dot_general` at `(p, q)`. -/
theorem dotGeneral_apply (M K N : Nat) {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply]
  exact plain_sum M K N l r p q

/-! ## A vector spread over the rows -/

section Spread

variable {α : Type}

/-- Shape cast to one row, then broadcast over `M` rows. -/
theorem castRow_broadcast_apply (M N : Nat) (b : (⟨1, ![N]⟩ : Shape).Idx → α)
    (h1 : (⟨1, ![N]⟩ : Shape).ShapeCasts ⟨2, ![1, N]⟩) (h2 : (⟨2, ![1, N]⟩ : Shape).Broadcasts ⟨2, ![M, N]⟩)
    (p : Fin M) (q : Fin N) :
    broadcastTo ⟨2, ![M, N]⟩ (shapeCast ⟨2, ![1, N]⟩ b h1) h2 (ix2 p q) = b (ix1 q) := by
  rw [broadcastTo_apply _ h2 (ix2 p q) (ix2 (0 : Fin 1) q) (fun a => by
    match a with
    | ⟨0, _⟩ => simp
    | ⟨1, _⟩ =>
      show q.val = if N = 1 then 0 else q.val
      split
      · have := q.isLt; omega
      · rfl)]
  rw [shapeCast_addUnit_apply ![N] b h1 (ix2 (0 : Fin 1) q)]
  exact congrArg b (funext fun a => by match a with | ⟨0, _⟩ => rfl)

/-- `broadcast_in_dim` to one row, then over `M` rows. -/
theorem bcastRow_bcast_apply (M N : Nat) (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  rw [broadcastInDim_apply ![0, 1] h2 _ (ix2 p q) (ix2 (0 : Fin 1) q) (fun a => by
    match a with
    | ⟨0, _⟩ => simp
    | ⟨1, _⟩ =>
      show q.val = if N = 1 then 0 else q.val
      split
      · have := q.isLt; omega
      · rfl)]
  rw [broadcastInDim_apply ![1] h1 b (ix2 (0 : Fin 1) q) (ix1 q) (fun a => by
    match a with
    | ⟨0, _⟩ =>
      show q.val = if N = 1 then 0 else q.val
      split
      · have := q.isLt; omega
      · rfl)]

/-! ## Slices -/

/-- Columns `o … o + N - 1` of an `M × N'` array. -/
theorem sliceCols_apply (M N' N o : Nat) (x : (⟨2, ![M, N']⟩ : Shape).Idx → α)
    (h : (⟨2, ![M, N']⟩ : Shape).Slices ![0, o] ⟨2, ![M, N]⟩) (p : Fin M) (q : Fin N) (hlt : o + q.val < N') :
    extractStridedSlice ⟨2, ![M, N]⟩ ![0, o] x h (ix2 p q) = x (ix2 p ⟨o + q.val, hlt⟩) :=
  extractStridedSlice_apply ![0, o] x h (ix2 p q) (ix2 p ⟨o + q.val, hlt⟩) (fun a => by
    match a with
    | ⟨0, _⟩ => show p.val = 0 + p.val; omega
    | ⟨1, _⟩ => rfl)

/-- Entries `o … o + N - 1` of a vector of length `N'`. -/
theorem sliceVec_apply (N' N o : Nat) (x : (⟨1, ![N']⟩ : Shape).Idx → α)
    (h : (⟨1, ![N']⟩ : Shape).Slices ![o] ⟨1, ![N]⟩) (q : Fin N) (hlt : o + q.val < N') :
    extractStridedSlice ⟨1, ![N]⟩ ![o] x h (ix1 q) = x (ix1 ⟨o + q.val, hlt⟩) :=
  extractStridedSlice_apply ![o] x h (ix1 q) (ix1 ⟨o + q.val, hlt⟩) (fun a => by
    match a with
    | ⟨0, _⟩ => rfl)

end Spread

/-! ## One-operand operations at an index (definitional at the ideal values) -/

section Pointwise

variable {s : Shape} {φ : FTy}

theorem hostDivf_apply (x y : FVec Ideal s φ) (i : s.Idx) : Host.divf x y i = Ideal.div (x i) (y i) := rfl
theorem hostExp_apply (x : FVec Ideal s φ) (i : s.Idx) : Host.exp x i = Ideal.exp (x i) := rfl
theorem hostNegf_apply (x : FVec Ideal s φ) (i : s.Idx) : Host.negf x i = -(x i) := rfl
theorem hostTanh_apply (x : FVec Ideal s φ) (i : s.Idx) : Host.tanh x i = Ideal.tanh (x i) := rfl
theorem tanh_apply (x : FVec Ideal s φ) (i : s.Idx) : tanh x i = Ideal.tanh (x i) := rfl
theorem logistic_apply (x : FVec Ideal s φ) (i : s.Idx) : logistic x i = Ideal.logistic (x i) := rfl

end Pointwise

/-! ## Scalar constants spread over a shape -/

/-- The host's `broadcast_in_dim` of a scalar constant. -/
theorem splat_apply {φ : FTy} (t : Shape) (h : (⟨0, ![]⟩ : Shape).BroadcastsInDim t ![]) (w : BitVec φ.bits) (i : t.Idx) :
    broadcastInDim t ![] h (constant (F := Ideal) ⟨0, ![]⟩ φ w) i = Ideal.ofBits φ w := by
  rw [broadcastInDim_apply ![] h _ i ix0 (fun a => a.elim0)]
  rfl

end Cert.Lib.RowOps

end
-- ==== Proof.LibGru.lean ====
/-
  One layer's arithmetic on a single node, on the extended reals.

  A node's aggregated features `row` (128 numbers) pass through: the bias and the rectifier,
  `h k = max (row k + b k) 0`; the input-to-gates product, `gi q = Σ k, h k · wt k q + bih q` for the 384 gate
  pre-activations (reset, update, candidate: three groups of 128); and the gated recurrent cell at a zero previous
  state, `out j = (1 − σ(gi (128 + j) + bhh (128 + j))) · tanh (gi (256 + j) + σ(gi j + bhh j) · bhh (256 + j))`,
  with `σ x = 1 / (1 + e⁻ˣ)`.  The zero and the one are kept as the values of their bit patterns.
-/
import Idealize.ShloMosaic.PureOps.Ideal.Laws

noncomputable section

open scoped BigOperators

namespace Cert.Lib.Gru

open Idealize.ShloMosaic

/-- The 384 gate pre-activations of one node. -/
def gates (row b : Fin 128 → EReal) (wt : Fin 128 → Fin 384 → EReal) (bih : Fin 384 → EReal) (q : Fin 384) : EReal :=
  (∑ k : Fin 128, max (row k + b k) (Ideal.ofBits .f32 0x00000000#32) * wt k q) + bih q

/-- The logistic function, as the quotient the host spells. -/
def sigm (x : EReal) : EReal :=
  Ideal.div (Ideal.ofBits .f32 0x3F800000#32) (Ideal.ofBits .f32 0x3F800000#32 + Ideal.exp (-x))

/-- The cell's output at hidden unit `j`, from the node's gate pre-activations and the hidden-side biases. -/
def cell (gi bhh : Fin 384 → EReal) (j : Fin 128) : EReal :=
  (Ideal.ofBits .f32 0x3F800000#32 - sigm (gi ⟨128 + j.val, by have := j.isLt; omega⟩ + bhh ⟨128 + j.val, by have := j.isLt; omega⟩))
    * Ideal.tanh (gi ⟨256 + j.val, by have := j.isLt; omega⟩
        + sigm (gi ⟨0 + j.val, by have := j.isLt; omega⟩ + bhh ⟨0 + j.val, by have := j.isLt; omega⟩) * bhh ⟨256 + j.val, by have := j.isLt; omega⟩)

/-- The bit pattern `0x3F800000` is the number one. -/
theorem ofBits_one : Ideal.ofBits .f32 0x3F800000#32 = (1 : EReal) := by
  simp [Ideal.ofBits, Ideal.ieee, -EReal.coe_mul]; norm_num

/-- The kernel's logistic operation is the host's quotient. -/
theorem logistic_eq_sigm (x : EReal) : Ideal.logistic x = sigm x := by
  unfold sigm Ideal.logistic
  rw [ofBits_one]

end Cert.Lib.Gru

end
-- ==== Proof.LibRowBlocks.lean ====
/-
  A long rank-two array against a block of consecutive rows of it.

  `RowsOf E M A o arr blk` says that `blk`, of `M` rows, holds rows `o, o + 1, …, o + M - 1` of the `E`-row array
  `arr` (each of `A` columns).  Every operation that acts on each row by itself carries the relation from its
  operands to its result, when the long side is spelt with the host's operations and the block side with a kernel's:

  * a plain matrix product with a matrix that both sides hold whole — the host's `dot_general` of the long array
    against a kernel's product of the block into a zero accumulator (row `r` of the product depends on row `r` of the
    left operand only);
  * the pointwise sum and product;
  * a vector spread over the rows — two `broadcast_in_dim`s on the long side, a shape cast and a broadcast on the block;
  * `z ↦ z · σ(z)` with `σ(z) = 1 / (1 + e⁻ᶻ)`: on the long side the quotient spelt out with the word of the number
    one, on the block the logistic operation;
  * a change of float format on the block, which does nothing to an extended real, and a shape cast of the block to
    its own shape.
-/
import Idealize.ShloMosaic.PureOps.Ideal.Laws
import Idealize.ShloMosaic.Lib.ValueIdx
import Idealize.ShloMosaic.Lib.Pipeline.Value
import proofs.«175251_j80573586473693_2_alg».proof.Proof.LibRowOps
import proofs.«175251_j80573586473693_2_alg».proof.Proof.LibGru

noncomputable section

open scoped BigOperators

namespace Cert.Lib.RowBlocks

open Idealize.ShloMosaic Idealize.ShloMosaic.ValueIdx Cert.Lib.RowOps

/-- `blk` holds rows `o … o + M - 1` of `arr`. -/
def RowsOf (E M A o : Nat) (arr : (⟨2, ![E, A]⟩ : Shape).Idx → EReal) (blk : (⟨2, ![M, A]⟩ : Shape).Idx → EReal) : Prop :=
  ∀ (y : Fin M) (k : Fin A) (h : o + y.val < E), blk (ix2 y k) = arr (ix2 ⟨o + y.val, h⟩ k)

variable {E M A o : Nat}

/-- A change of float format on the block side is the identity on extended reals. -/
theorem RowsOf.truncf {φ ψ : FTy} {X : (⟨2, ![E, A]⟩ : Shape).Idx → EReal} {Xb : FVec Ideal ⟨2, ![M, A]⟩ φ}
    (h : ψ.bits < φ.bits) (hX : RowsOf E M A o X Xb) : RowsOf E M A o X (truncf ψ Xb h) := hX

/-- A shape cast to the same shape on the block side is the identity. -/
theorem RowsOf.castSelf {X : (⟨2, ![E, A]⟩ : Shape).Idx → EReal} {Xb : (⟨2, ![M, A]⟩ : Shape).Idx → EReal}
    (h : (⟨2, ![M, A]⟩ : Shape).ShapeCasts ⟨2, ![M, A]⟩) (hX : RowsOf E M A o X Xb) :
    RowsOf E M A o X (shapeCast ⟨2, ![M, A]⟩ Xb h) := by
  rw [shapeCast_self]; exact hX

/-- An array equal to `W` entry by entry stays so under a shape cast to its own shape. -/
theorem castSelf_eq {s : Shape} (v W : s.Idx → EReal) (h : s.ShapeCasts s) (hv : ∀ i, v i = W i) :
    ∀ i, shapeCast s v h i = W i := by
  rw [shapeCast_self]; exact hv

/-- The host's plain product of the long array with `W` against a kernel's product of the block with `Wb` into a
    zero accumulator, when `Wb` is `W` entry by entry. -/
theorem RowsOf.dot {K N : Nat} {φ₁ φ₂ φ₃ φ₄ : FTy} {X : FVec Ideal ⟨2, ![E, K]⟩ φ₁} {Xb : FVec Ideal ⟨2, ![M, K]⟩ φ₃}
    (hX : RowsOf E M K o X Xb) (W : FVec Ideal ⟨2, ![K, N]⟩ φ₂) (Wb : FVec Ideal ⟨2, ![K, N]⟩ φ₄) (hW : ∀ i, Wb i = W i)
    (prec prec' : Option ContractPrecision) (sched : HostSchedule) :
    RowsOf E M N o (FloatOps.dotGeneral (DotDims.plain E K N) prec sched X W)
      (FloatOps.matmul (DotDims.plain M K N) prec' Xb Wb (constant ⟨2, ![M, N]⟩ .f32 0x00000000#32)) := fun y q h => by
  rw [matmul_zero_apply, dotGeneral_apply]
  exact Finset.sum_congr rfl fun k _ => by rw [hX y k h, hW]

/-- Pointwise sums. -/
theorem RowsOf.add {φ φ' : FTy} {X Y : FVec Ideal ⟨2, ![E, A]⟩ φ} {Xb Yb : FVec Ideal ⟨2, ![M, A]⟩ φ'}
    (hX : RowsOf E M A o X Xb) (hY : RowsOf E M A o Y Yb) : RowsOf E M A o (addf X Y) (addf Xb Yb) := fun y k h => by
  show (Xb (ix2 y k) : EReal) + Yb (ix2 y k) = X _ + Y _
  rw [hX y k h, hY y k h]

/-- Pointwise products. -/
theorem RowsOf.mul {φ φ' : FTy} {X Y : FVec Ideal ⟨2, ![E, A]⟩ φ} {Xb Yb : FVec Ideal ⟨2, ![M, A]⟩ φ'}
    (hX : RowsOf E M A o X Xb) (hY : RowsOf E M A o Y Yb) : RowsOf E M A o (mulf X Y) (mulf Xb Yb) := fun y k h => by
  show (Xb (ix2 y k) : EReal) * Yb (ix2 y k) = X _ * Y _
  rw [hX y k h, hY y k h]

/-- A vector spread over the rows: two `broadcast_in_dim`s of `b` on the long side, a shape cast and a broadcast of
    `bb` on the block, when `bb` is `b` entry by entry. -/
theorem RowsOf.bias {N : Nat} (b bb : (⟨1, ![N]⟩ : Shape).Idx → EReal) (hb : ∀ i, bb i = b i)
    (h1 : (⟨1, ![N]⟩ : Shape).BroadcastsInDim ⟨2, ![1, N]⟩ ![1])
    (h2 : (⟨2, ![1, N]⟩ : Shape).BroadcastsInDim ⟨2, ![E, N]⟩ ![0, 1])
    (h1' : (⟨1, ![N]⟩ : Shape).ShapeCasts ⟨2, ![1, N]⟩) (h2' : (⟨2, ![1, N]⟩ : Shape).Broadcasts ⟨2, ![M, N]⟩) :
    RowsOf E M N o (broadcastInDim ⟨2, ![E, N]⟩ ![0, 1] h2 (broadcastInDim ⟨2, ![1, N]⟩ ![1] h1 b))
      (broadcastTo ⟨2, ![M, N]⟩ (shapeCast ⟨2, ![1, N]⟩ bb h1') h2') := fun y q h => by
  rw [castRow_broadcast_apply, bcastRow_bcast_apply, hb]

/-- `z ↦ z · σ(z)`: the host's quotient `1 / (1 + e⁻ᶻ)` with the word of the number one on the long side, the logistic
    operation on the block. -/
theorem RowsOf.silu {Z : FVec Ideal ⟨2, ![E, A]⟩ .f32} {Zb : FVec Ideal ⟨2, ![M, A]⟩ .f32} (hZ : RowsOf E M A o Z Zb)
    (h1 h2 : (⟨0, ![]⟩ : Shape).BroadcastsInDim ⟨2, ![E, A]⟩ ![]) :
    RowsOf E M A o
      (mulf Z (Host.divf (broadcastInDim ⟨2, ![E, A]⟩ ![] h1 (constant (F := Ideal) ⟨0, ![]⟩ .f32 0x3F800000#32))
        (addf (broadcastInDim ⟨2, ![E, A]⟩ ![] h2 (constant (F := Ideal) ⟨0, ![]⟩ .f32 0x3F800000#32)) (Host.exp (Host.negf Z)))))
      (mulf Zb (logistic Zb)) := fun y k h => by
  show (Zb (ix2 y k) : EReal) * Ideal.logistic (Zb (ix2 y k))
    = Z _ * Ideal.div (Ideal.ofBits .f32 0x3F800000#32) (Ideal.ofBits .f32 0x3F800000#32 + Ideal.exp (-(Z _)))
  rw [hZ y k h, Cert.Lib.Gru.logistic_eq_sigm]
  rfl

end Cert.Lib.RowBlocks

end
-- ==== Proof.LibRowNorm.lean ====
/-
  Rows of a long rank-two array against a block of consecutive rows of it, continued: the operations of a
  normalisation over each row.

  With `RowsOf E M A o arr blk` — `blk`, of `M` rows, holds rows `o, …, o + M - 1` of the `E`-row array `arr` —
  each of the following carries the relation from operands to result, the long side spelt with the host's operations
  and the block side with a kernel's:

  * the pointwise difference, maximum and quotient, and the reciprocal square root;
  * a scalar constant spread over the whole array, and a scalar value held in a 1 × 1 block spread over it;
  * the sum of each row, as a one-column array (rows of the column are rows of the array): the host's reduction
    along axis 1 followed by a `broadcast_in_dim` to a column, against a lane reduction followed by a shape cast;
  * a one-column array spread over the columns.
-/
import Idealize.ShloMosaic.PureOps.Ideal.Laws
import Idealize.ShloMosaic.Lib.ValueIdx
import Idealize.ShloMosaic.Lib.Pipeline.Value
import Idealize.ShloMosaic.Lib.ValueLayout
import proofs.«175251_j80573586473693_2_alg».proof.Proof.LibRowBlocks

noncomputable section

open scoped BigOperators

namespace Cert.Lib.RowBlocks

open Idealize.ShloMosaic Idealize.ShloMosaic.ValueIdx Cert.Lib.RowOps

variable {E M A o : Nat}

/-- Pointwise differences. -/
theorem RowsOf.sub {φ φ' : FTy} {X Y : FVec Ideal ⟨2, ![E, A]⟩ φ} {Xb Yb : FVec Ideal ⟨2, ![M, A]⟩ φ'}
    (hX : RowsOf E M A o X Xb) (hY : RowsOf E M A o Y Yb) : RowsOf E M A o (subf X Y) (subf Xb Yb) := by
  intro y k h
  show (Xb (ix2 y k) : EReal) - Yb (ix2 y k) = X _ - Y _
  rw [hX y k h, hY y k h]

/-- Pointwise maxima. -/
theorem RowsOf.max {φ φ' : FTy} {X Y : FVec Ideal ⟨2, ![E, A]⟩ φ} {Xb Yb : FVec Ideal ⟨2, ![M, A]⟩ φ'}
    (hX : RowsOf E M A o X Xb) (hY : RowsOf E M A o Y Yb) : RowsOf E M A o (maximumf X Y) (maximumf Xb Yb) := by
  intro y k h
  show Max.max (Xb (ix2 y k) : EReal) (Yb (ix2 y k)) = Max.max (X _) (Y _)
  rw [hX y k h, hY y k h]

/-- Pointwise quotients: the host's division on the long side, a kernel's on the block. -/
theorem RowsOf.hostDiv {φ φ' : FTy} {X Y : FVec Ideal ⟨2, ![E, A]⟩ φ} {Xb Yb : FVec Ideal ⟨2, ![M, A]⟩ φ'}
    (hX : RowsOf E M A o X Xb) (hY : RowsOf E M A o Y Yb) : RowsOf E M A o (Host.divf X Y) (divf Xb Yb) := by
  intro y k h
  show Ideal.div (Xb (ix2 y k)) (Yb (ix2 y k)) = Ideal.div (X _) (Y _)
  rw [hX y k h, hY y k h]

/-- Reciprocal square roots: the host's on the long side, a kernel's on the block. -/
theorem RowsOf.rsqrt {φ φ' : FTy} {X : FVec Ideal ⟨2, ![E, A]⟩ φ} {Xb : FVec Ideal ⟨2, ![M, A]⟩ φ'}
    (hX : RowsOf E M A o X Xb) : RowsOf E M A o (Host.rsqrt X) (rsqrt Xb) := by
  intro y k h
  show Ideal.rsqrt (Xb (ix2 y k)) = Ideal.rsqrt (X _)
  rw [hX y k h]

/-- A scalar constant spread over the whole array: the host's `broadcast_in_dim` of a rank-zero constant on the long
    side, a kernel's splat of the same word on the block. -/
theorem RowsOf.splat (w : BitVec 32) (h : (⟨0, ![]⟩ : Shape).BroadcastsInDim ⟨2, ![E, A]⟩ ![]) :
    RowsOf E M A o (broadcastInDim ⟨2, ![E, A]⟩ ![] h (constant (F := Ideal) ⟨0, ![]⟩ .f32 w))
      (broadcast ⟨2, ![M, A]⟩ (Scalar.ofBits (F := Ideal) .f32 w)) := by
  intro y k hlt
  -- both sides read the value of the word `w` at every index
  rw [splat_apply]
  rfl

/-- A scalar value spread over the whole array: rank zero on the long side, held in a 1 × 1 block on the other. -/
theorem RowsOf.scalar (s : (⟨0, ![]⟩ : Shape).Idx → EReal) (sb : (⟨2, ![1, 1]⟩ : Shape).Idx → EReal)
    (hs : sb (ix2 (0 : Fin 1) (0 : Fin 1)) = s ix0)
    (h : (⟨0, ![]⟩ : Shape).BroadcastsInDim ⟨2, ![E, A]⟩ ![]) (h' : (⟨2, ![1, 1]⟩ : Shape).Broadcasts ⟨2, ![M, A]⟩) :
    RowsOf E M A o (broadcastInDim ⟨2, ![E, A]⟩ ![] h s) (broadcastTo ⟨2, ![M, A]⟩ sb h') := by
  intro y k hlt
  -- the long side reads `s` at its one index, the block side `sb` at `(0, 0)`
  rw [broadcastInDim_apply ![] h s _ ix0 (fun a => a.elim0)]
  rw [broadcastTo_apply sb h' (ix2 y k) (ix2 (0 : Fin 1) (0 : Fin 1)) (fun a => by
    match a with
    | ⟨0, _⟩ => simp
    | ⟨1, _⟩ => simp)]
  exact hs

/-- The sum of each row as a one-column array: row `r` of the column is the sum of row `r` of the array, so the
    block's column holds the rows of the long column that the block holds of the long array. -/
theorem RowsOf.rowSum {X : FVec Ideal ⟨2, ![E, A]⟩ .f32} {Xb : FVec Ideal ⟨2, ![M, A]⟩ .f32} (hX : RowsOf E M A o X Xb)
    (hr : (⟨2, ![E, A]⟩ : Shape).ReducesTo [1] ⟨1, ![E]⟩) (hu : 0 < (⟨0, ![]⟩ : Shape).numel)
    (hb : (⟨1, ![E]⟩ : Shape).BroadcastsInDim ⟨2, ![E, 1]⟩ ![0])
    (hred : (⟨2, ![M, A]⟩ : Shape).Reduces [1] ⟨1, ![M]⟩) (hφ : FKind.Formats .f32)
    (hacc : (0x00000000#32 : BitVec 32) = FKind.add.neutral .f32 hφ)
    (hc : (⟨1, ![M]⟩ : Shape).ShapeCasts ⟨2, ![M, 1]⟩) :
    RowsOf E M 1 o
      (broadcastInDim ⟨2, ![E, 1]⟩ ![0] hb (Host.reduceAdd X (constant (F := Ideal) ⟨0, ![]⟩ .f32 0x00000000#32) hr hu))
      (shapeCast ⟨2, ![M, 1]⟩ (multiReduction .add [1] ⟨1, ![M]⟩ Xb 0x00000000#32 hred hφ hacc) hc) := by
  intro y k hlt
  have hR : (⟨2, ![E, A]⟩ : Shape).Reduces [1] ⟨1, ![E]⟩ := ⟨hr.1, Nat.one_pos, hr.2⟩
  -- the long column at `(o + y, k)` is the host's sum at `o + y`
  rw [broadcastInDim_apply ![0] hb _ (ix2 ⟨o + y.val, hlt⟩ k) (ix1 ⟨o + y.val, hlt⟩) (fun a => by
    match a with
    | ⟨0, _⟩ =>
      show o + y.val = if E = 1 then 0 else o + y.val
      split
      · omega
      · rfl)]
  -- the block's column at `(y, k)` is the lane sum at `y`: the same row-major position, as `k = 0`
  rw [shapeCast_apply _ hc (ix2 y k) (ix1 y) (by
    rw [Shape.rowMajor_val_one, Shape.rowMajor_val_two]
    show y.val = y.val * 1 + k.val
    have := k.isLt
    omega)]
  refine (Ideal.multiReduction_add_single Xb _ hred hφ hacc (ix1 y)).trans ?_
  show _ = Ideal.hostReduceAdd hr X (Ideal.ofBits .f32 0x00000000#32) (ix1 ⟨o + y.val, hlt⟩)
  rw [Ideal.hostReduceAdd_single hr hR, Ideal.ofBits_zero_f32, zero_add]
  -- both are sums over the columns, equal term by term
  show ∑ q : Fin A, Xb (hred.lift (ix1 y) q) = ∑ q : Fin A, X (hR.lift (ix1 ⟨o + y.val, hlt⟩) q)
  refine Finset.sum_congr rfl fun q _ => ?_
  have eb : hred.lift (ix1 y) q = ix2 y q := funext fun a => Fin.ext (by
    match a with
    | ⟨0, _⟩ => rfl
    | ⟨1, _⟩ => rfl)
  have el : hR.lift (ix1 ⟨o + y.val, hlt⟩) q = ix2 ⟨o + y.val, hlt⟩ q := funext fun a => Fin.ext (by
    match a with
    | ⟨0, _⟩ => rfl
    | ⟨1, _⟩ => rfl)
  rw [eb, el]
  exact hX y q hlt

/-- A one-column array spread over the columns. -/
theorem RowsOf.spreadCol {φ φ' : FTy} {C : FVec Ideal ⟨2, ![E, 1]⟩ φ} {Cb : FVec Ideal ⟨2, ![M, 1]⟩ φ'}
    (hC : RowsOf E M 1 o C Cb)
    (h : (⟨2, ![E, 1]⟩ : Shape).BroadcastsInDim ⟨2, ![E, A]⟩ ![0, 1]) (h' : (⟨2, ![M, 1]⟩ : Shape).Broadcasts ⟨2, ![M, A]⟩) :
    RowsOf E M A o (broadcastInDim ⟨2, ![E, A]⟩ ![0, 1] h C) (broadcastTo ⟨2, ![M, A]⟩ Cb h') := by
  intro y k hlt
  -- the long side reads `C` at `(o + y, 0)`, the block side `Cb` at `(y, 0)`
  rw [broadcastInDim_apply ![0, 1] h C (ix2 ⟨o + y.val, hlt⟩ k) (ix2 ⟨o + y.val, hlt⟩ (0 : Fin 1)) (fun a => by
    match a with
    | ⟨0, _⟩ =>
      show o + y.val = if E = 1 then 0 else o + y.val
      split
      · omega
      · rfl
    | ⟨1, _⟩ => simp)]
  rw [broadcastTo_apply Cb h' (ix2 y k) (ix2 y (0 : Fin 1)) (fun a => by
    match a with
    | ⟨0, _⟩ =>
      show y.val = if M = 1 then 0 else y.val
      split
      · have := y.isLt; omega
      · rfl
    | ⟨1, _⟩ => simp)]
  exact hC y 0 hlt

end Cert.Lib.RowBlocks

end
-- ==== Proof.CoupleRows.lean ====
/-
  One coupling layer, a block of rows against the whole array.

  The kernel handles 1024 rows at a time; the reference all 16384 at once.  Every operation of a coupling layer acts on
  each row by itself, so "the block holds rows o … o + 1023 of the long array" passes from the layer's inputs to its
  outputs: through the three matrix products of a perceptron (the block's into a zero accumulator, its operands narrowed
  to bf16, which changes nothing at the ideal values), the bias rows, the maxima with zero, the hyperbolic tangent, the
  scale and shift rows, the exponential, and the final multiply-add.

  The block-side functions below are the bodies of the kernel's per-layer pieces with their operands as parameters; the
  long-side functions are the reference's (`Cert.RefDefs`).
-/
import proofs.«175251_j80573586473693_2_alg».proof.KernelIdeal
import proofs.«175251_j80573586473693_2_alg».proof.Proof.RefDefs
import proofs.«175251_j80573586473693_2_alg».proof.Proof.LibRowBlocks
import proofs.«175251_j80573586473693_2_alg».proof.Proof.LibRowNorm

noncomputable section

namespace Cert.CoupleRows

open Idealize.ShloMosaic Idealize.ShloMosaic.ValueIdx Cert.Lib.RowBlocks Cert.KernelIdeal

variable [Cert.KernelIdeal.Facts] [Cert.ReferenceIdeal.Facts]

open Cert.KernelIdeal.Facts₀ Cert.KernelIdeal.Facts

/-! ## Two more row-wise operations -/

/-- Hyperbolic tangents: the host's on the long side, a kernel's on the block. -/
theorem RowsOf.tanh {E M A o : Nat} {φ φ' : FTy} {X : FVec Ideal ⟨2, ![E, A]⟩ φ} {Xb : FVec Ideal ⟨2, ![M, A]⟩ φ'}
    (hX : RowsOf E M A o X Xb) : RowsOf E M A o (Host.tanh X) (tanh Xb) := by
  intro y k h
  show Ideal.tanh (Xb (ix2 y k)) = Ideal.tanh (X _)
  rw [hX y k h]

/-- Exponentials: the host's on the long side, a kernel's on the block. -/
theorem RowsOf.exp {E M A o : Nat} {φ φ' : FTy} {X : FVec Ideal ⟨2, ![E, A]⟩ φ} {Xb : FVec Ideal ⟨2, ![M, A]⟩ φ'}
    (hX : RowsOf E M A o X Xb) : RowsOf E M A o (Host.exp X) (exp Xb) := by
  intro y k h
  show Ideal.exp (Xb (ix2 y k)) = Ideal.exp (X _)
  rw [hX y k h]

/-! ## The block side of a layer -/

/-- A bias vector held as one row, spread over the 1024 rows of a 512-column block. -/
def kRow512 (b : Vec Ideal S1x512 .f32) : FVec Ideal S1024x512 .f32 :=
  broadcastTo S1024x512 (shapeCast S1x512 (shapeCast S512 b shapeCasts_S1x512_S512) shapeCasts_S512_S1x512) broadcasts_S1x512_S1024x512

/-- The same for a 32-column block. -/
def kRow32 (b : Vec Ideal S1x32 .f32) : FVec Ideal S1024x32 .f32 :=
  broadcastTo S1024x32 (shapeCast S1x32 (shapeCast S32 b shapeCasts_S1x32_S32) shapeCasts_S32_S1x32) broadcasts_S1x32_S1024x32

/-- The positive part of a 512-column block, narrowed to bf16. -/
def kRelu (h : FVec Ideal S1024x512 .f32) : FVec Ideal S1024x512 .bf16 :=
  truncf .bf16 (maximumf h (broadcast S1024x512 (Scalar.ofBits .f32 0x00000000#32))) bitsLt_bf16_f32

/-- Three products with a bias row and a positive part after the first two; the third bias not yet added. -/
def kMlp3 (c : FVec Ideal S1024x32 .bf16) (w1 : Vec Ideal S1x32x512 .bf16) (b1 : Vec Ideal S1x512 .f32)
    (w2 : Vec Ideal S1x512x512 .bf16) (b2 : Vec Ideal S1x512 .f32) (w3 : Vec Ideal S1x512x32 .bf16) : FVec Ideal S1024x32 .f32 :=
  matmul dot_S1024x512_S512x32_S1024x32_1_0_0_1_n_n none
    (kRelu (addf (matmul dot_S1024x512_S512x512_S1024x512_1_0_0_1_n_n none
      (kRelu (addf (matmul dot_S1024x32_S32x512_S1024x512_1_0_0_1_n_n none c
          (shapeCast S32x512 w1 shapeCasts_S1x32x512_S32x512 : FVec Ideal S32x512 .bf16) (constant S1024x512 .f32 0x00000000#32)) (kRow512 b1)))
        (shapeCast S512x512 w2 shapeCasts_S1x512x512_S512x512 : FVec Ideal S512x512 .bf16) (constant S1024x512 .f32 0x00000000#32)) (kRow512 b2)))
    (shapeCast S512x32 w3 shapeCasts_S1x512x32_S512x32 : FVec Ideal S512x32 .bf16) (constant S1024x32 .f32 0x00000000#32)

/-- The whole perceptron on a block. -/
def kT (c : FVec Ideal S1024x32 .bf16) (w1 : Vec Ideal S1x32x512 .bf16) (b1 : Vec Ideal S1x512 .f32)
    (w2 : Vec Ideal S1x512x512 .bf16) (b2 : Vec Ideal S1x512 .f32) (w3 : Vec Ideal S1x512x32 .bf16) (b3 : Vec Ideal S1x32 .f32) :
    FVec Ideal S1024x32 .f32 :=
  addf (kMlp3 c w1 b1 w2 b2 w3) (kRow32 b3)

/-- `tanh(perceptron) · scale`: the log-scale before its shift. -/
def kM (c : FVec Ideal S1024x32 .bf16) (w1 : Vec Ideal S1x32x512 .bf16) (b1 : Vec Ideal S1x512 .f32)
    (w2 : Vec Ideal S1x512x512 .bf16) (b2 : Vec Ideal S1x512 .f32) (w3 : Vec Ideal S1x512x32 .bf16) (b3 sc : Vec Ideal S1x32 .f32) :
    FVec Ideal S1024x32 .f32 :=
  mulf (tanh (kT c w1 b1 w2 b2 w3 b3)) (kRow32 sc)

/-- The log-scale: the shift row added. -/
def kS (m : FVec Ideal S1024x32 .f32) (sh : Vec Ideal S1x32 .f32) : FVec Ideal S1024x32 .f32 := addf m (kRow32 sh)

/-- The transformed half: `z₀ · exp s + t`. -/
def kN (z0 t m : FVec Ideal S1024x32 .f32) (sh : Vec Ideal S1x32 .f32) : FVec Ideal S1024x32 .f32 :=
  addf (mulf z0 (exp (kS m sh))) t

/-- The accumulated log-scales: `ld + s`. -/
def kLd (ld m : FVec Ideal S1024x32 .f32) (sh : Vec Ideal S1x32 .f32) : FVec Ideal S1024x32 .f32 := addf ld (kS m sh)

/-! ## The relation through a layer -/

section Rows

variable {o : Nat}

/-- A bias row of 512: the long side repeats the vector `B`, the block the row `b` that holds the same entries. -/
theorem rows_row512 (B : FVec Ideal Cert.ReferenceIdeal.S512 .f32) (b : Vec Ideal S1x512 .f32)
    (hb : ∀ i, shapeCast S512 b shapeCasts_S1x512_S512 i = B i) :
    RowsOf 16384 1024 512 o (Cert.RefDefs.row512 B) (kRow512 b) :=
  RowsOf.bias B _ hb _ _ _ _

/-- A bias row of 32. -/
theorem rows_row32 (B : FVec Ideal Cert.ReferenceIdeal.S32 .f32) (b : Vec Ideal S1x32 .f32)
    (hb : ∀ i, shapeCast S32 b shapeCasts_S1x32_S32 i = B i) :
    RowsOf 16384 1024 32 o (Cert.RefDefs.row32 B) (kRow32 b) :=
  RowsOf.bias B _ hb _ _ _ _

/-- The positive part. -/
theorem rows_relu {H : FVec Ideal Cert.ReferenceIdeal.S16384x512 .f32} {h : FVec Ideal S1024x512 .f32}
    (hh : RowsOf 16384 1024 512 o H h) : RowsOf 16384 1024 512 o (Cert.RefDefs.relu H) (kRelu h) :=
  RowsOf.truncf _ (RowsOf.max hh (RowsOf.splat _ _))

variable {X : FVec Ideal Cert.ReferenceIdeal.S16384x32 .f32} {c : FVec Ideal S1024x32 .bf16}
  (hc : RowsOf 16384 1024 32 o X c)
  (W1 : FVec Ideal Cert.ReferenceIdeal.S32x512 .f32) (w1 : Vec Ideal S1x32x512 .bf16)
  (hw1 : ∀ i, shapeCast S32x512 w1 shapeCasts_S1x32x512_S32x512 i = W1 i)
  (B1 : FVec Ideal Cert.ReferenceIdeal.S512 .f32) (b1 : Vec Ideal S1x512 .f32)
  (hb1 : ∀ i, shapeCast S512 b1 shapeCasts_S1x512_S512 i = B1 i)
  (W2 : FVec Ideal Cert.ReferenceIdeal.S512x512 .f32) (w2 : Vec Ideal S1x512x512 .bf16)
  (hw2 : ∀ i, shapeCast S512x512 w2 shapeCasts_S1x512x512_S512x512 i = W2 i)
  (B2 : FVec Ideal Cert.ReferenceIdeal.S512 .f32) (b2 : Vec Ideal S1x512 .f32)
  (hb2 : ∀ i, shapeCast S512 b2 shapeCasts_S1x512_S512 i = B2 i)
  (W3 : FVec Ideal Cert.ReferenceIdeal.S512x32 .f32) (w3 : Vec Ideal S1x512x32 .bf16)
  (hw3 : ∀ i, shapeCast S512x32 w3 shapeCasts_S1x512x32_S512x32 i = W3 i)
  (B3 : FVec Ideal Cert.ReferenceIdeal.S32 .f32) (b3 : Vec Ideal S1x32 .f32)
  (hb3 : ∀ i, shapeCast S32 b3 shapeCasts_S1x32_S32 i = B3 i)

include hc hw1 hb1 hw2 hb2 hw3 hb3 in
/-- The perceptron: row `r` of the result depends on row `r` of the input only. -/
theorem rows_mlp : RowsOf 16384 1024 32 o (Cert.RefDefs.mlp X W1 B1 W2 B2 W3 B3) (kT c w1 b1 w2 b2 w3 b3) :=
  RowsOf.add
    (RowsOf.dot
      (rows_relu (RowsOf.add
        (RowsOf.dot
          (rows_relu (RowsOf.add (RowsOf.dot hc W1 _ hw1 none none .single) (rows_row512 B1 b1 hb1)))
          W2 _ hw2 none none .single)
        (rows_row512 B2 b2 hb2)))
      W3 _ hw3 none none .single)
    (rows_row32 B3 b3 hb3)

variable (SC : FVec Ideal Cert.ReferenceIdeal.S32 .f32) (sc : Vec Ideal S1x32 .f32)
  (hsc : ∀ i, shapeCast S32 sc shapeCasts_S1x32_S32 i = SC i)
  (SH : FVec Ideal Cert.ReferenceIdeal.S32 .f32) (sh : Vec Ideal S1x32 .f32)
  (hsh : ∀ i, shapeCast S32 sh shapeCasts_S1x32_S32 i = SH i)

include hc hw1 hb1 hw2 hb2 hw3 hb3 hsc hsh in
/-- The log-scale. -/
theorem rows_logScale :
    RowsOf 16384 1024 32 o (Cert.RefDefs.logScale X W1 B1 W2 B2 W3 B3 SC SH) (kS (kM c w1 b1 w2 b2 w3 b3 sc) sh) :=
  RowsOf.add (RowsOf.mul (RowsOf.tanh (rows_mlp hc W1 w1 hw1 B1 b1 hb1 W2 w2 hw2 B2 b2 hb2 W3 w3 hw3 B3 b3 hb3)) (rows_row32 SC sc hsc))
    (rows_row32 SH sh hsh)

end Rows

/-- The transformed half, from the relation on its three inputs. -/
theorem rows_couple {o : Nat} {Z0 S T : FVec Ideal Cert.ReferenceIdeal.S16384x32 .f32} {z0 t m : FVec Ideal S1024x32 .f32}
    {sh : Vec Ideal S1x32 .f32} (hz : RowsOf 16384 1024 32 o Z0 z0) (hs : RowsOf 16384 1024 32 o S (kS m sh))
    (ht : RowsOf 16384 1024 32 o T t) : RowsOf 16384 1024 32 o (Cert.RefDefs.couple Z0 S T) (kN z0 t m sh) :=
  RowsOf.add (RowsOf.mul hz (RowsOf.exp hs)) ht

/-- The accumulated log-scales. -/
theorem rows_ld {o : Nat} {L S : FVec Ideal Cert.ReferenceIdeal.S16384x32 .f32} {ld m : FVec Ideal S1024x32 .f32}
    {sh : Vec Ideal S1x32 .f32} (hl : RowsOf 16384 1024 32 o L ld) (hs : RowsOf 16384 1024 32 o S (kS m sh)) :
    RowsOf 16384 1024 32 o (addf L S) (kLd ld m sh) :=
  RowsOf.add hl hs

end Cert.CoupleRows

end
-- ==== Proof.KBlocks.lean ====
/-
  The kernel body as a few dozen named blocks.

  The body keeps two half-blocks of 1024 rows × 32 columns (the even-position and the odd-position columns), two
  half-blocks of accumulated log-scales, and passes them through the eight layers.  Layer `l` narrows one half to bf16
  (`c l`), computes from it the translation `t l` and the log-scale before its shift `m l`, reads the shift row `sh l`, and
  replaces the other half by `z₀ · exp(m + shift) + t`.  Each definition below is one node of that graph, spelt with the
  body's own per-layer pieces; the two stored blocks are the concatenations at the end.  What a node is in terms of
  the layer functions of `Cert.CoupleRows` is stated node by node (each by unfolding one piece).
-/
import proofs.«175251_j80573586473693_2_alg».proof.Proof.FrameKI
import proofs.«175251_j80573586473693_2_alg».proof.Proof.CoupleRows

noncomputable section

namespace Cert.KBlocks

open Idealize.ShloMosaic Cert.KernelIdeal Cert.KernelIdeal.Gen Cert.KernelIdeal.GenP Cert.CoupleRows

open Cert.KernelIdeal.Facts₀ Cert.KernelIdeal.Facts

/-! ## The nodes -/

/-- The loaded input block, its two halves, and the two zero half-blocks. -/
def ld0 (x0 : Vec Ideal S1024x64 .f32) (x1 : Vec Ideal S8x32x512 .bf16) (x2 : Vec Ideal S8x512 .f32) (x3 : Vec Ideal S8x512x512 .bf16)
    (x4 : Vec Ideal S8x512 .f32) (x5 : Vec Ideal S8x512x32 .bf16) (x6 : Vec Ideal S8x32 .f32) (x7 : Vec Ideal S8x32x512 .bf16)
    (x8 : Vec Ideal S8x512 .f32) (x9 : Vec Ideal S8x512x512 .bf16) (x10 : Vec Ideal S8x512 .f32) (x11 : Vec Ideal S8x512x32 .bf16)
    (x12 : Vec Ideal S8x32 .f32) (x13 : Vec Ideal S8x32 .f32) (x14 : Vec Ideal S8x32 .f32) : Vec Ideal S1024x64 .f32 := View.ld x0 r0_0
def za0 (x0 : Vec Ideal S1024x64 .f32) (x1 : Vec Ideal S8x32x512 .bf16) (x2 : Vec Ideal S8x512 .f32) (x3 : Vec Ideal S8x512x512 .bf16)
    (x4 : Vec Ideal S8x512 .f32) (x5 : Vec Ideal S8x512x32 .bf16) (x6 : Vec Ideal S8x32 .f32) (x7 : Vec Ideal S8x32x512 .bf16)
    (x8 : Vec Ideal S8x512 .f32) (x9 : Vec Ideal S8x512x512 .bf16) (x10 : Vec Ideal S8x512 .f32) (x11 : Vec Ideal S8x512x32 .bf16)
    (x12 : Vec Ideal S8x32 .f32) (x13 : Vec Ideal S8x32 .f32) (x14 : Vec Ideal S8x32 .f32) : FVec Ideal S1024x32 .f32 := k0_pay5 (ld0 x0 x1 x2 x3 x4 x5 x6 x7 x8 x9 x10 x11 x12 x13 x14)
def zb0 (x0 : Vec Ideal S1024x64 .f32) (x1 : Vec Ideal S8x32x512 .bf16) (x2 : Vec Ideal S8x512 .f32) (x3 : Vec Ideal S8x512x512 .bf16)
    (x4 : Vec Ideal S8x512 .f32) (x5 : Vec Ideal S8x512x32 .bf16) (x6 : Vec Ideal S8x32 .f32) (x7 : Vec Ideal S8x32x512 .bf16)
    (x8 : Vec Ideal S8x512 .f32) (x9 : Vec Ideal S8x512x512 .bf16) (x10 : Vec Ideal S8x512 .f32) (x11 : Vec Ideal S8x512x32 .bf16)
    (x12 : Vec Ideal S8x32 .f32) (x13 : Vec Ideal S8x32 .f32) (x14 : Vec Ideal S8x32 .f32) : FVec Ideal S1024x32 .f32 := k0_pay6 (ld0 x0 x1 x2 x3 x4 x5 x6 x7 x8 x9 x10 x11 x12 x13 x14)
def la0 (x0 : Vec Ideal S1024x64 .f32) (x1 : Vec Ideal S8x32x512 .bf16) (x2 : Vec Ideal S8x512 .f32) (x3 : Vec Ideal S8x512x512 .bf16)
    (x4 : Vec Ideal S8x512 .f32) (x5 : Vec Ideal S8x512x32 .bf16) (x6 : Vec Ideal S8x32 .f32) (x7 : Vec Ideal S8x32x512 .bf16)
    (x8 : Vec Ideal S8x512 .f32) (x9 : Vec Ideal S8x512x512 .bf16) (x10 : Vec Ideal S8x512 .f32) (x11 : Vec Ideal S8x512x32 .bf16)
    (x12 : Vec Ideal S8x32 .f32) (x13 : Vec Ideal S8x32 .f32) (x14 : Vec Ideal S8x32 .f32) : FVec Ideal S1024x32 .f32 := k0_pay7 (F := Ideal)
def lb0 (x0 : Vec Ideal S1024x64 .f32) (x1 : Vec Ideal S8x32x512 .bf16) (x2 : Vec Ideal S8x512 .f32) (x3 : Vec Ideal S8x512x512 .bf16)
    (x4 : Vec Ideal S8x512 .f32) (x5 : Vec Ideal S8x512x32 .bf16) (x6 : Vec Ideal S8x32 .f32) (x7 : Vec Ideal S8x32x512 .bf16)
    (x8 : Vec Ideal S8x512 .f32) (x9 : Vec Ideal S8x512x512 .bf16) (x10 : Vec Ideal S8x512 .f32) (x11 : Vec Ideal S8x512x32 .bf16)
    (x12 : Vec Ideal S8x32 .f32) (x13 : Vec Ideal S8x32 .f32) (x14 : Vec Ideal S8x32 .f32) : FVec Ideal S1024x32 .f32 := k0_pay8 (F := Ideal)

/-! ### Layer 0 -/
def sh0 (x0 : Vec Ideal S1024x64 .f32) (x1 : Vec Ideal S8x32x512 .bf16) (x2 : Vec Ideal S8x512 .f32) (x3 : Vec Ideal S8x512x512 .bf16)
    (x4 : Vec Ideal S8x512 .f32) (x5 : Vec Ideal S8x512x32 .bf16) (x6 : Vec Ideal S8x32 .f32) (x7 : Vec Ideal S8x32x512 .bf16)
    (x8 : Vec Ideal S8x512 .f32) (x9 : Vec Ideal S8x512x512 .bf16) (x10 : Vec Ideal S8x512 .f32) (x11 : Vec Ideal S8x512x32 .bf16)
    (x12 : Vec Ideal S8x32 .f32) (x13 : Vec Ideal S8x32 .f32) (x14 : Vec Ideal S8x32 .f32) : Vec Ideal S1x32 .f32 := View.ld x14 r0_5
def c0 (x0 : Vec Ideal S1024x64 .f32) (x1 : Vec Ideal S8x32x512 .bf16) (x2 : Vec Ideal S8x512 .f32) (x3 : Vec Ideal S8x512x512 .bf16)
    (x4 : Vec Ideal S8x512 .f32) (x5 : Vec Ideal S8x512x32 .bf16) (x6 : Vec Ideal S8x32 .f32) (x7 : Vec Ideal S8x32x512 .bf16)
    (x8 : Vec Ideal S8x512 .f32) (x9 : Vec Ideal S8x512x512 .bf16) (x10 : Vec Ideal S8x512 .f32) (x11 : Vec Ideal S8x512x32 .bf16)
    (x12 : Vec Ideal S8x32 .f32) (x13 : Vec Ideal S8x32 .f32) (x14 : Vec Ideal S8x32 .f32) : FVec Ideal S1024x32 .bf16 := k0_pay9 (ld0 x0 x1 x2 x3 x4 x5 x6 x7 x8 x9 x10 x11 x12 x13 x14)
def t0 (x0 : Vec Ideal S1024x64 .f32) (x1 : Vec Ideal S8x32x512 .bf16) (x2 : Vec Ideal S8x512 .f32) (x3 : Vec Ideal S8x512x512 .bf16)
    (x4 : Vec Ideal S8x512 .f32) (x5 : Vec Ideal S8x512x32 .bf16) (x6 : Vec Ideal S8x32 .f32) (x7 : Vec Ideal S8x32x512 .bf16)
    (x8 : Vec Ideal S8x512 .f32) (x9 : Vec Ideal S8x512x512 .bf16) (x10 : Vec Ideal S8x512 .f32) (x11 : Vec Ideal S8x512x32 .bf16)
    (x12 : Vec Ideal S8x32 .f32) (x13 : Vec Ideal S8x32 .f32) (x14 : Vec Ideal S8x32 .f32) : FVec Ideal S1024x32 .f32 :=
  k0_pay12 (k0_pay10 (ld0 x0 x1 x2 x3 x4 x5 x6 x7 x8 x9 x10 x11 x12 x13 x14) (View.ld x1 r0_1) (View.ld x2 r0_2) (View.ld x3 r0_3) (View.ld x4 r0_2) (View.ld x5 r0_4)) (k0_pay11 (View.ld x6 r0_5))
def m0 (x0 : Vec Ideal S1024x64 .f32) (x1 : Vec Ideal S8x32x512 .bf16) (x2 : Vec Ideal S8x512 .f32) (x3 : Vec Ideal S8x512x512 .bf16)
    (x4 : Vec Ideal S8x512 .f32) (x5 : Vec Ideal S8x512x32 .bf16) (x6 : Vec Ideal S8x32 .f32) (x7 : Vec Ideal S8x32x512 .bf16)
    (x8 : Vec Ideal S8x512 .f32) (x9 : Vec Ideal S8x512x512 .bf16) (x10 : Vec Ideal S8x512 .f32) (x11 : Vec Ideal S8x512x32 .bf16)
    (x12 : Vec Ideal S8x32 .f32) (x13 : Vec Ideal S8x32 .f32) (x14 : Vec Ideal S8x32 .f32) : FVec Ideal S1024x32 .f32 := k0_pay13 (c0 x0 x1 x2 x3 x4 x5 x6 x7 x8 x9 x10 x11 x12 x13 x14) (View.ld x7 r0_1) (View.ld x8 r0_2) (View.ld x9 r0_3) (View.ld x10 r0_2) (View.ld x11 r0_4) (View.ld x12 r0_5) (View.ld x13 r0_5)
def a1 (x0 : Vec Ideal S1024x64 .f32) (x1 : Vec Ideal S8x32x512 .bf16) (x2 : Vec Ideal S8x512 .f32) (x3 : Vec Ideal S8x512x512 .bf16)
    (x4 : Vec Ideal S8x512 .f32) (x5 : Vec Ideal S8x512x32 .bf16) (x6 : Vec Ideal S8x32 .f32) (x7 : Vec Ideal S8x32x512 .bf16)
    (x8 : Vec Ideal S8x512 .f32) (x9 : Vec Ideal S8x512x512 .bf16) (x10 : Vec Ideal S8x512 .f32) (x11 : Vec Ideal S8x512x32 .bf16)
    (x12 : Vec Ideal S8x32 .f32) (x13 : Vec Ideal S8x32 .f32) (x14 : Vec Ideal S8x32 .f32) : FVec Ideal S1024x32 .f32 := k0_pay15 (za0 x0 x1 x2 x3 x4 x5 x6 x7 x8 x9 x10 x11 x12 x13 x14) (t0 x0 x1 x2 x3 x4 x5 x6 x7 x8 x9 x10 x11 x12 x13 x14) (m0 x0 x1 x2 x3 x4 x5 x6 x7 x8 x9 x10 x11 x12 x13 x14) (sh0 x0 x1 x2 x3 x4 x5 x6 x7 x8 x9 x10 x11 x12 x13 x14)
def la1 (x0 : Vec Ideal S1024x64 .f32) (x1 : Vec Ideal S8x32x512 .bf16) (x2 : Vec Ideal S8x512 .f32) (x3 : Vec Ideal S8x512x512 .bf16)
    (x4 : Vec Ideal S8x512 .f32) (x5 : Vec Ideal S8x512x32 .bf16) (x6 : Vec Ideal S8x32 .f32) (x7 : Vec Ideal S8x32x512 .bf16)
    (x8 : Vec Ideal S8x512 .f32) (x9 : Vec Ideal S8x512x512 .bf16) (x10 : Vec Ideal S8x512 .f32) (x11 : Vec Ideal S8x512x32 .bf16)
    (x12 : Vec Ideal S8x32 .f32) (x13 : Vec Ideal S8x32 .f32) (x14 : Vec Ideal S8x32 .f32) : FVec Ideal S1024x32 .f32 := k0_pay16 (la0 x0 x1 x2 x3 x4 x5 x6 x7 x8 x9 x10 x11 x12 x13 x14) (m0 x0 x1 x2 x3 x4 x5 x6 x7 x8 x9 x10 x11 x12 x13 x14) (sh0 x0 x1 x2 x3 x4 x5 x6 x7 x8 x9 x10 x11 x12 x13 x14)

/-! ### Layer 1 -/
def sh1 (x0 : Vec Ideal S1024x64 .f32) (x1 : Vec Ideal S8x32x512 .bf16) (x2 : Vec Ideal S8x512 .f32) (x3 : Vec Ideal S8x512x512 .bf16)
    (x4 : Vec Ideal S8x512 .f32) (x5 : Vec Ideal S8x512x32 .bf16) (x6 : Vec Ideal S8x32 .f32) (x7 : Vec Ideal S8x32x512 .bf16)
    (x8 : Vec Ideal S8x512 .f32) (x9 : Vec Ideal S8x512x512 .bf16) (x10 : Vec Ideal S8x512 .f32) (x11 : Vec Ideal S8x512x32 .bf16)
    (x12 : Vec Ideal S8x32 .f32) (x13 : Vec Ideal S8x32 .f32) (x14 : Vec Ideal S8x32 .f32) : Vec Ideal S1x32 .f32 := View.ld x14 r0_10
def c1 (x0 : Vec Ideal S1024x64 .f32) (x1 : Vec Ideal S8x32x512 .bf16) (x2 : Vec Ideal S8x512 .f32) (x3 : Vec Ideal S8x512x512 .bf16)
    (x4 : Vec Ideal S8x512 .f32) (x5 : Vec Ideal S8x512x32 .bf16) (x6 : Vec Ideal S8x32 .f32) (x7 : Vec Ideal S8x32x512 .bf16)
    (x8 : Vec Ideal S8x512 .f32) (x9 : Vec Ideal S8x512x512 .bf16) (x10 : Vec Ideal S8x512 .f32) (x11 : Vec Ideal S8x512x32 .bf16)
    (x12 : Vec Ideal S8x32 .f32) (x13 : Vec Ideal S8x32 .f32) (x14 : Vec Ideal S8x32 .f32) : FVec Ideal S1024x32 .bf16 := k0_pay17 (za0 x0 x1 x2 x3 x4 x5 x6 x7 x8 x9 x10 x11 x12 x13 x14) (t0 x0 x1 x2 x3 x4 x5 x6 x7 x8 x9 x10 x11 x12 x13 x14) (m0 x0 x1 x2 x3 x4 x5 x6 x7 x8 x9 x10 x11 x12 x13 x14) (sh0 x0 x1 x2 x3 x4 x5 x6 x7 x8 x9 x10 x11 x12 x13 x14)
def t1 (x0 : Vec Ideal S1024x64 .f32) (x1 : Vec Ideal S8x32x512 .bf16) (x2 : Vec Ideal S8x512 .f32) (x3 : Vec Ideal S8x512x512 .bf16)
    (x4 : Vec Ideal S8x512 .f32) (x5 : Vec Ideal S8x512x32 .bf16) (x6 : Vec Ideal S8x32 .f32) (x7 : Vec Ideal S8x32x512 .bf16)
    (x8 : Vec Ideal S8x512 .f32) (x9 : Vec Ideal S8x512x512 .bf16) (x10 : Vec Ideal S8x512 .f32) (x11 : Vec Ideal S8x512x32 .bf16)
    (x12 : Vec Ideal S8x32 .f32) (x13 : Vec Ideal S8x32 .f32) (x14 : Vec Ideal S8x32 .f32) : FVec Ideal S1024x32 .f32 :=
  k0_pay20 (k0_pay18 (za0 x0 x1 x2 x3 x4 x5 x6 x7 x8 x9 x10 x11 x12 x13 x14) (t0 x0 x1 x2 x3 x4 x5 x6 x7 x8 x9 x10 x11 x12 x13 x14) (m0 x0 x1 x2 x3 x4 x5 x6 x7 x8 x9 x10 x11 x12 x13 x14) (sh0 x0 x1 x2 x3 x4 x5 x6 x7 x8 x9 x10 x11 x12 x13 x14) (View.ld x1 r0_6) (View.ld x2 r0_7) (View.ld x3 r0_8) (View.ld x4 r0_7) (View.ld x5 r0_9)) (k0_pay19 (View.ld x6 r0_10))
def m1 (x0 : Vec Ideal S1024x64 .f32) (x1 : Vec Ideal S8x32x512 .bf16) (x2 : Vec Ideal S8x512 .f32) (x3 : Vec Ideal S8x512x512 .bf16)
    (x4 : Vec Ideal S8x512 .f32) (x5 : Vec Ideal S8x512x32 .bf16) (x6 : Vec Ideal S8x32 .f32) (x7 : Vec Ideal S8x32x512 .bf16)
    (x8 : Vec Ideal S8x512 .f32) (x9 : Vec Ideal S8x512x512 .bf16) (x10 : Vec Ideal S8x512 .f32) (x11 : Vec Ideal S8x512x32 .bf16)
    (x12 : Vec Ideal S8x32 .f32) (x13 : Vec Ideal S8x32 .f32) (x14 : Vec Ideal S8x32 .f32) : FVec Ideal S1024x32 .f32 := k0_pay21 (c1 x0 x1 x2 x3 x4 x5 x6 x7 x8 x9 x10 x11 x12 x13 x14) (View.ld x7 r0_6) (View.ld x8 r0_7) (View.ld x9 r0_8) (View.ld x10 r0_7) (View.ld x11 r0_9) (View.ld x12 r0_10) (View.ld x13 r0_10)
def b2 (x0 : Vec Ideal S1024x64 .f32) (x1 : Vec Ideal S8x32x512 .bf16) (x2 : Vec Ideal S8x512 .f32) (x3 : Vec Ideal S8x512x512 .bf16)
    (x4 : Vec Ideal S8x512 .f32) (x5 : Vec Ideal S8x512x32 .bf16) (x6 : Vec Ideal S8x32 .f32) (x7 : Vec Ideal S8x32x512 .bf16)
    (x8 : Vec Ideal S8x512 .f32) (x9 : Vec Ideal S8x512x512 .bf16) (x10 : Vec Ideal S8x512 .f32) (x11 : Vec Ideal S8x512x32 .bf16)
    (x12 : Vec Ideal S8x32 .f32) (x13 : Vec Ideal S8x32 .f32) (x14 : Vec Ideal S8x32 .f32) : FVec Ideal S1024x32 .f32 := k0_pay23 (zb0 x0 x1 x2 x3 x4 x5 x6 x7 x8 x9 x10 x11 x12 x13 x14) (t1 x0 x1 x2 x3 x4 x5 x6 x7 x8 x9 x10 x11 x12 x13 x14) (m1 x0 x1 x2 x3 x4 x5 x6 x7 x8 x9 x10 x11 x12 x13 x14) (sh1 x0 x1 x2 x3 x4 x5 x6 x7 x8 x9 x10 x11 x12 x13 x14)
def lb2 (x0 : Vec Ideal S1024x64 .f32) (x1 : Vec Ideal S8x32x512 .bf16) (x2 : Vec Ideal S8x512 .f32) (x3 : Vec Ideal S8x512x512 .bf16)
    (x4 : Vec Ideal S8x512 .f32) (x5 : Vec Ideal S8x512x32 .bf16) (x6 : Vec Ideal S8x32 .f32) (x7 : Vec Ideal S8x32x512 .bf16)
    (x8 : Vec Ideal S8x512 .f32) (x9 : Vec Ideal S8x512x512 .bf16) (x10 : Vec Ideal S8x512 .f32) (x11 : Vec Ideal S8x512x32 .bf16)
    (x12 : Vec Ideal S8x32 .f32) (x13 : Vec Ideal S8x32 .f32) (x14 : Vec Ideal S8x32 .f32) : FVec Ideal S1024x32 .f32 := k0_pay24 (lb0 x0 x1 x2 x3 x4 x5 x6 x7 x8 x9 x10 x11 x12 x13 x14) (m1 x0 x1 x2 x3 x4 x5 x6 x7 x8 x9 x10 x11 x12 x13 x14) (sh1 x0 x1 x2 x3 x4 x5 x6 x7 x8 x9 x10 x11 x12 x13 x14)

/-! ### Layer 2 -/
def sh2 (x0 : Vec Ideal S1024x64 .f32) (x1 : Vec Ideal S8x32x512 .bf16) (x2 : Vec Ideal S8x512 .f32) (x3 : Vec Ideal S8x512x512 .bf16)
    (x4 : Vec Ideal S8x512 .f32) (x5 : Vec Ideal S8x512x32 .bf16) (x6 : Vec Ideal S8x32 .f32) (x7 : Vec Ideal S8x32x512 .bf16)
    (x8 : Vec Ideal S8x512 .f32) (x9 : Vec Ideal S8x512x512 .bf16) (x10 : Vec Ideal S8x512 .f32) (x11 : Vec Ideal S8x512x32 .bf16)
    (x12 : Vec Ideal S8x32 .f32) (x13 : Vec Ideal S8x32 .f32) (x14 : Vec Ideal S8x32 .f32) : Vec Ideal S1x32 .f32 := View.ld x14 r0_15
def c2 (x0 : Vec Ideal S1024x64 .f32) (x1 : Vec Ideal S8x32x512 .bf16) (x2 : Vec Ideal S8x512 .f32) (x3 : Vec Ideal S8x512x512 .bf16)
    (x4 : Vec Ideal S8x512 .f32) (x5 : Vec Ideal S8x512x32 .bf16) (x6 : Vec Ideal S8x32 .f32) (x7 : Vec Ideal S8x32x512 .bf16)
    (x8 : Vec Ideal S8x512 .f32) (x9 : Vec Ideal S8x512x512 .bf16) (x10 : Vec Ideal S8x512 .f32) (x11 : Vec Ideal S8x512x32 .bf16)
    (x12 : Vec Ideal S8x32 .f32) (x13 : Vec Ideal S8x32 .f32) (x14 : Vec Ideal S8x32 .f32) : FVec Ideal S1024x32 .bf16 := k0_pay25 (zb0 x0 x1 x2 x3 x4 x5 x6 x7 x8 x9 x10 x11 x12 x13 x14) (t1 x0 x1 x2 x3 x4 x5 x6 x7 x8 x9 x10 x11 x12 x13 x14) (m1 x0 x1 x2 x3 x4 x5 x6 x7 x8 x9 x10 x11 x12 x13 x14) (sh1 x0 x1 x2 x3 x4 x5 x6 x7 x8 x9 x10 x11 x12 x13 x14)
def t2 (x0 : Vec Ideal S1024x64 .f32) (x1 : Vec Ideal S8x32x512 .bf16) (x2 : Vec Ideal S8x512 .f32) (x3 : Vec Ideal S8x512x512 .bf16)
    (x4 : Vec Ideal S8x512 .f32) (x5 : Vec Ideal S8x512x32 .bf16) (x6 : Vec Ideal S8x32 .f32) (x7 : Vec Ideal S8x32x512 .bf16)
    (x8 : Vec Ideal S8x512 .f32) (x9 : Vec Ideal S8x512x512 .bf16) (x10 : Vec Ideal S8x512 .f32) (x11 : Vec Ideal S8x512x32 .bf16)
    (x12 : Vec Ideal S8x32 .f32) (x13 : Vec Ideal S8x32 .f32) (x14 : Vec Ideal S8x32 .f32) : FVec Ideal S1024x32 .f32 :=
  k0_pay28 (k0_pay26 (zb0 x0 x1 x2 x3 x4 x5 x6 x7 x8 x9 x10 x11 x12 x13 x14) (t1 x0 x1 x2 x3 x4 x5 x6 x7 x8 x9 x10 x11 x12 x13 x14) (m1 x0 x1 x2 x3 x4 x5 x6 x7 x8 x9 x10 x11 x12 x13 x14) (sh1 x0 x1 x2 x3 x4 x5 x6 x7 x8 x9 x10 x11 x12 x13 x14) (View.ld x1 r0_11) (View.ld x2 r0_12) (View.ld x3 r0_13) (View.ld x4 r0_12) (View.ld x5 r0_14)) (k0_pay27 (View.ld x6 r0_15))
def m2 (x0 : Vec Ideal S1024x64 .f32) (x1 : Vec Ideal S8x32x512 .bf16) (x2 : Vec Ideal S8x512 .f32) (x3 : Vec Ideal S8x512x512 .bf16)
    (x4 : Vec Ideal S8x512 .f32) (x5 : Vec Ideal S8x512x32 .bf16) (x6 : Vec Ideal S8x32 .f32) (x7 : Vec Ideal S8x32x512 .bf16)
    (x8 : Vec Ideal S8x512 .f32) (x9 : Vec Ideal S8x512x512 .bf16) (x10 : Vec Ideal S8x512 .f32) (x11 : Vec Ideal S8x512x32 .bf16)
    (x12 : Vec Ideal S8x32 .f32) (x13 : Vec Ideal S8x32 .f32) (x14 : Vec Ideal S8x32 .f32) : FVec Ideal S1024x32 .f32 := k0_pay29 (c2 x0 x1 x2 x3 x4 x5 x6 x7 x8 x9 x10 x11 x12 x13 x14) (View.ld x7 r0_11) (View.ld x8 r0_12) (View.ld x9 r0_13) (View.ld x10 r0_12) (View.ld x11 r0_14) (View.ld x12 r0_15) (View.ld x13 r0_15)
def a3 (x0 : Vec Ideal S1024x64 .f32) (x1 : Vec Ideal S8x32x512 .bf16) (x2 : Vec Ideal S8x512 .f32) (x3 : Vec Ideal S8x512x512 .bf16)
    (x4 : Vec Ideal S8x512 .f32) (x5 : Vec Ideal S8x512x32 .bf16) (x6 : Vec Ideal S8x32 .f32) (x7 : Vec Ideal S8x32x512 .bf16)
    (x8 : Vec Ideal S8x512 .f32) (x9 : Vec Ideal S8x512x512 .bf16) (x10 : Vec Ideal S8x512 .f32) (x11 : Vec Ideal S8x512x32 .bf16)
    (x12 : Vec Ideal S8x32 .f32) (x13 : Vec Ideal S8x32 .f32) (x14 : Vec Ideal S8x32 .f32) : FVec Ideal S1024x32 .f32 := k0_pay31 (a1 x0 x1 x2 x3 x4 x5 x6 x7 x8 x9 x10 x11 x12 x13 x14) (t2 x0 x1 x2 x3 x4 x5 x6 x7 x8 x9 x10 x11 x12 x13 x14) (m2 x0 x1 x2 x3 x4 x5 x6 x7 x8 x9 x10 x11 x12 x13 x14) (sh2 x0 x1 x2 x3 x4 x5 x6 x7 x8 x9 x10 x11 x12 x13 x14)
def la3 (x0 : Vec Ideal S1024x64 .f32) (x1 : Vec Ideal S8x32x512 .bf16) (x2 : Vec Ideal S8x512 .f32) (x3 : Vec Ideal S8x512x512 .bf16)
    (x4 : Vec Ideal S8x512 .f32) (x5 : Vec Ideal S8x512x32 .bf16) (x6 : Vec Ideal S8x32 .f32) (x7 : Vec Ideal S8x32x512 .bf16)
    (x8 : Vec Ideal S8x512 .f32) (x9 : Vec Ideal S8x512x512 .bf16) (x10 : Vec Ideal S8x512 .f32) (x11 : Vec Ideal S8x512x32 .bf16)
    (x12 : Vec Ideal S8x32 .f32) (x13 : Vec Ideal S8x32 .f32) (x14 : Vec Ideal S8x32 .f32) : FVec Ideal S1024x32 .f32 := k0_pay32 (la1 x0 x1 x2 x3 x4 x5 x6 x7 x8 x9 x10 x11 x12 x13 x14) (m2 x0 x1 x2 x3 x4 x5 x6 x7 x8 x9 x10 x11 x12 x13 x14) (sh2 x0 x1 x2 x3 x4 x5 x6 x7 x8 x9 x10 x11 x12 x13 x14)

/-! ### Layer 3 -/
def sh3 (x0 : Vec Ideal S1024x64 .f32) (x1 : Vec Ideal S8x32x512 .bf16) (x2 : Vec Ideal S8x512 .f32) (x3 : Vec Ideal S8x512x512 .bf16)
    (x4 : Vec Ideal S8x512 .f32) (x5 : Vec Ideal S8x512x32 .bf16) (x6 : Vec Ideal S8x32 .f32) (x7 : Vec Ideal S8x32x512 .bf16)
    (x8 : Vec Ideal S8x512 .f32) (x9 : Vec Ideal S8x512x512 .bf16) (x10 : Vec Ideal S8x512 .f32) (x11 : Vec Ideal S8x512x32 .bf16)
    (x12 : Vec Ideal S8x32 .f32) (x13 : Vec Ideal S8x32 .f32) (x14 : Vec Ideal S8x32 .f32) : Vec Ideal S1x32 .f32 := View.ld x14 r0_20
def c3 (x0 : Vec Ideal S1024x64 .f32) (x1 : Vec Ideal S8x32x512 .bf16) (x2 : Vec Ideal S8x512 .f32) (x3 : Vec Ideal S8x512x512 .bf16)
    (x4 : Vec Ideal S8x512 .f32) (x5 : Vec Ideal S8x512x32 .bf16) (x6 : Vec Ideal S8x32 .f32) (x7 : Vec Ideal S8x32x512 .bf16)
    (x8 : Vec Ideal S8x512 .f32) (x9 : Vec Ideal S8x512x512 .bf16) (x10 : Vec Ideal S8x512 .f32) (x11 : Vec Ideal S8x512x32 .bf16)
    (x12 : Vec Ideal S8x32 .f32) (x13 : Vec Ideal S8x32 .f32) (x14 : Vec Ideal S8x32 .f32) : FVec Ideal S1024x32 .bf16 := k0_pay33 (a1 x0 x1 x2 x3 x4 x5 x6 x7 x8 x9 x10 x11 x12 x13 x14) (t2 x0 x1 x2 x3 x4 x5 x6 x7 x8 x9 x10 x11 x12 x13 x14) (m2 x0 x1 x2 x3 x4 x5 x6 x7 x8 x9 x10 x11 x12 x13 x14) (sh2 x0 x1 x2 x3 x4 x5 x6 x7 x8 x9 x10 x11 x12 x13 x14)
def t3 (x0 : Vec Ideal S1024x64 .f32) (x1 : Vec Ideal S8x32x512 .bf16) (x2 : Vec Ideal S8x512 .f32) (x3 : Vec Ideal S8x512x512 .bf16)
    (x4 : Vec Ideal S8x512 .f32) (x5 : Vec Ideal S8x512x32 .bf16) (x6 : Vec Ideal S8x32 .f32) (x7 : Vec Ideal S8x32x512 .bf16)
    (x8 : Vec Ideal S8x512 .f32) (x9 : Vec Ideal S8x512x512 .bf16) (x10 : Vec Ideal S8x512 .f32) (x11 : Vec Ideal S8x512x32 .bf16)
    (x12 : Vec Ideal S8x32 .f32) (x13 : Vec Ideal S8x32 .f32) (x14 : Vec Ideal S8x32 .f32) : FVec Ideal S1024x32 .f32 :=
  k0_pay36 (k0_pay34 (a1 x0 x1 x2 x3 x4 x5 x6 x7 x8 x9 x10 x11 x12 x13 x14) (t2 x0 x1 x2 x3 x4 x5 x6 x7 x8 x9 x10 x11 x12 x13 x14) (m2 x0 x1 x2 x3 x4 x5 x6 x7 x8 x9 x10 x11 x12 x13 x14) (sh2 x0 x1 x2 x3 x4 x5 x6 x7 x8 x9 x10 x11 x12 x13 x14) (View.ld x1 r0_16) (View.ld x2 r0_17) (View.ld x3 r0_18) (View.ld x4 r0_17) (View.ld x5 r0_19)) (k0_pay35 (View.ld x6 r0_20))
def m3 (x0 : Vec Ideal S1024x64 .f32) (x1 : Vec Ideal S8x32x512 .bf16) (x2 : Vec Ideal S8x512 .f32) (x3 : Vec Ideal S8x512x512 .bf16)
    (x4 : Vec Ideal S8x512 .f32) (x5 : Vec Ideal S8x512x32 .bf16) (x6 : Vec Ideal S8x32 .f32) (x7 : Vec Ideal S8x32x512 .bf16)
    (x8 : Vec Ideal S8x512 .f32) (x9 : Vec Ideal S8x512x512 .bf16) (x10 : Vec Ideal S8x512 .f32) (x11 : Vec Ideal S8x512x32 .bf16)
    (x12 : Vec Ideal S8x32 .f32) (x13 : Vec Ideal S8x32 .f32) (x14 : Vec Ideal S8x32 .f32) : FVec Ideal S1024x32 .f32 := k0_pay37 (c3 x0 x1 x2 x3 x4 x5 x6 x7 x8 x9 x10 x11 x12 x13 x14) (View.ld x7 r0_16) (View.ld x8 r0_17) (View.ld x9 r0_18) (View.ld x10 r0_17) (View.ld x11 r0_19) (View.ld x12 r0_20) (View.ld x13 r0_20)
def b4 (x0 : Vec Ideal S1024x64 .f32) (x1 : Vec Ideal S8x32x512 .bf16) (x2 : Vec Ideal S8x512 .f32) (x3 : Vec Ideal S8x512x512 .bf16)
    (x4 : Vec Ideal S8x512 .f32) (x5 : Vec Ideal S8x512x32 .bf16) (x6 : Vec Ideal S8x32 .f32) (x7 : Vec Ideal S8x32x512 .bf16)
    (x8 : Vec Ideal S8x512 .f32) (x9 : Vec Ideal S8x512x512 .bf16) (x10 : Vec Ideal S8x512 .f32) (x11 : Vec Ideal S8x512x32 .bf16)
    (x12 : Vec Ideal S8x32 .f32) (x13 : Vec Ideal S8x32 .f32) (x14 : Vec Ideal S8x32 .f32) : FVec Ideal S1024x32 .f32 := k0_pay39 (b2 x0 x1 x2 x3 x4 x5 x6 x7 x8 x9 x10 x11 x12 x13 x14) (t3 x0 x1 x2 x3 x4 x5 x6 x7 x8 x9 x10 x11 x12 x13 x14) (m3 x0 x1 x2 x3 x4 x5 x6 x7 x8 x9 x10 x11 x12 x13 x14) (sh3 x0 x1 x2 x3 x4 x5 x6 x7 x8 x9 x10 x11 x12 x13 x14)
def lb4 (x0 : Vec Ideal S1024x64 .f32) (x1 : Vec Ideal S8x32x512 .bf16) (x2 : Vec Ideal S8x512 .f32) (x3 : Vec Ideal S8x512x512 .bf16)
    (x4 : Vec Ideal S8x512 .f32) (x5 : Vec Ideal S8x512x32 .bf16) (x6 : Vec Ideal S8x32 .f32) (x7 : Vec Ideal S8x32x512 .bf16)
    (x8 : Vec Ideal S8x512 .f32) (x9 : Vec Ideal S8x512x512 .bf16) (x10 : Vec Ideal S8x512 .f32) (x11 : Vec Ideal S8x512x32 .bf16)
    (x12 : Vec Ideal S8x32 .f32) (x13 : Vec Ideal S8x32 .f32) (x14 : Vec Ideal S8x32 .f32) : FVec Ideal S1024x32 .f32 := k0_pay40 (lb2 x0 x1 x2 x3 x4 x5 x6 x7 x8 x9 x10 x11 x12 x13 x14) (m3 x0 x1 x2 x3 x4 x5 x6 x7 x8 x9 x10 x11 x12 x13 x14) (sh3 x0 x1 x2 x3 x4 x5 x6 x7 x8 x9 x10 x11 x12 x13 x14)

/-! ### Layer 4 -/
def sh4 (x0 : Vec Ideal S1024x64 .f32) (x1 : Vec Ideal S8x32x512 .bf16) (x2 : Vec Ideal S8x512 .f32) (x3 : Vec Ideal S8x512x512 .bf16)
    (x4 : Vec Ideal S8x512 .f32) (x5 : Vec Ideal S8x512x32 .bf16) (x6 : Vec Ideal S8x32 .f32) (x7 : Vec Ideal S8x32x512 .bf16)
    (x8 : Vec Ideal S8x512 .f32) (x9 : Vec Ideal S8x512x512 .bf16) (x10 : Vec Ideal S8x512 .f32) (x11 : Vec Ideal S8x512x32 .bf16)
    (x12 : Vec Ideal S8x32 .f32) (x13 : Vec Ideal S8x32 .f32) (x14 : Vec Ideal S8x32 .f32) : Vec Ideal S1x32 .f32 := View.ld x14 r0_25
def c4 (x0 : Vec Ideal S1024x64 .f32) (x1 : Vec Ideal S8x32x512 .bf16) (x2 : Vec Ideal S8x512 .f32) (x3 : Vec Ideal S8x512x512 .bf16)
    (x4 : Vec Ideal S8x512 .f32) (x5 : Vec Ideal S8x512x32 .bf16) (x6 : Vec Ideal S8x32 .f32) (x7 : Vec Ideal S8x32x512 .bf16)
    (x8 : Vec Ideal S8x512 .f32) (x9 : Vec Ideal S8x512x512 .bf16) (x10 : Vec Ideal S8x512 .f32) (x11 : Vec Ideal S8x512x32 .bf16)
    (x12 : Vec Ideal S8x32 .f32) (x13 : Vec Ideal S8x32 .f32) (x14 : Vec Ideal S8x32 .f32) : FVec Ideal S1024x32 .bf16 := k0_pay41 (b2 x0 x1 x2 x3 x4 x5 x6 x7 x8 x9 x10 x11 x12 x13 x14) (t3 x0 x1 x2 x3 x4 x5 x6 x7 x8 x9 x10 x11 x12 x13 x14) (m3 x0 x1 x2 x3 x4 x5 x6 x7 x8 x9 x10 x11 x12 x13 x14) (sh3 x0 x1 x2 x3 x4 x5 x6 x7 x8 x9 x10 x11 x12 x13 x14)
def t4 (x0 : Vec Ideal S1024x64 .f32) (x1 : Vec Ideal S8x32x512 .bf16) (x2 : Vec Ideal S8x512 .f32) (x3 : Vec Ideal S8x512x512 .bf16)
    (x4 : Vec Ideal S8x512 .f32) (x5 : Vec Ideal S8x512x32 .bf16) (x6 : Vec Ideal S8x32 .f32) (x7 : Vec Ideal S8x32x512 .bf16)
    (x8 : Vec Ideal S8x512 .f32) (x9 : Vec Ideal S8x512x512 .bf16) (x10 : Vec Ideal S8x512 .f32) (x11 : Vec Ideal S8x512x32 .bf16)
    (x12 : Vec Ideal S8x32 .f32) (x13 : Vec Ideal S8x32 .f32) (x14 : Vec Ideal S8x32 .f32) : FVec Ideal S1024x32 .f32 :=
  k0_pay44 (k0_pay42 (b2 x0 x1 x2 x3 x4 x5 x6 x7 x8 x9 x10 x11 x12 x13 x14) (t3 x0 x1 x2 x3 x4 x5 x6 x7 x8 x9 x10 x11 x12 x13 x14) (m3 x0 x1 x2 x3 x4 x5 x6 x7 x8 x9 x10 x11 x12 x13 x14) (sh3 x0 x1 x2 x3 x4 x5 x6 x7 x8 x9 x10 x11 x12 x13 x14) (View.ld x1 r0_21) (View.ld x2 r0_22) (View.ld x3 r0_23) (View.ld x4 r0_22) (View.ld x5 r0_24)) (k0_pay43 (View.ld x6 r0_25))
def m4 (x0 : Vec Ideal S1024x64 .f32) (x1 : Vec Ideal S8x32x512 .bf16) (x2 : Vec Ideal S8x512 .f32) (x3 : Vec Ideal S8x512x512 .bf16)
    (x4 : Vec Ideal S8x512 .f32) (x5 : Vec Ideal S8x512x32 .bf16) (x6 : Vec Ideal S8x32 .f32) (x7 : Vec Ideal S8x32x512 .bf16)
    (x8 : Vec Ideal S8x512 .f32) (x9 : Vec Ideal S8x512x512 .bf16) (x10 : Vec Ideal S8x512 .f32) (x11 : Vec Ideal S8x512x32 .bf16)
    (x12 : Vec Ideal S8x32 .f32) (x13 : Vec Ideal S8x32 .f32) (x14 : Vec Ideal S8x32 .f32) : FVec Ideal S1024x32 .f32 := k0_pay45 (c4 x0 x1 x2 x3 x4 x5 x6 x7 x8 x9 x10 x11 x12 x13 x14) (View.ld x7 r0_21) (View.ld x8 r0_22) (View.ld x9 r0_23) (View.ld x10 r0_22) (View.ld x11 r0_24) (View.ld x12 r0_25) (View.ld x13 r0_25)
def a5 (x0 : Vec Ideal S1024x64 .f32) (x1 : Vec Ideal S8x32x512 .bf16) (x2 : Vec Ideal S8x512 .f32) (x3 : Vec Ideal S8x512x512 .bf16)
    (x4 : Vec Ideal S8x512 .f32) (x5 : Vec Ideal S8x512x32 .bf16) (x6 : Vec Ideal S8x32 .f32) (x7 : Vec Ideal S8x32x512 .bf16)
    (x8 : Vec Ideal S8x512 .f32) (x9 : Vec Ideal S8x512x512 .bf16) (x10 : Vec Ideal S8x512 .f32) (x11 : Vec Ideal S8x512x32 .bf16)
    (x12 : Vec Ideal S8x32 .f32) (x13 : Vec Ideal S8x32 .f32) (x14 : Vec Ideal S8x32 .f32) : FVec Ideal S1024x32 .f32 := k0_pay47 (a3 x0 x1 x2 x3 x4 x5 x6 x7 x8 x9 x10 x11 x12 x13 x14) (t4 x0 x1 x2 x3 x4 x5 x6 x7 x8 x9 x10 x11 x12 x13 x14) (m4 x0 x1 x2 x3 x4 x5 x6 x7 x8 x9 x10 x11 x12 x13 x14) (sh4 x0 x1 x2 x3 x4 x5 x6 x7 x8 x9 x10 x11 x12 x13 x14)
def la5 (x0 : Vec Ideal S1024x64 .f32) (x1 : Vec Ideal S8x32x512 .bf16) (x2 : Vec Ideal S8x512 .f32) (x3 : Vec Ideal S8x512x512 .bf16)
    (x4 : Vec Ideal S8x512 .f32) (x5 : Vec Ideal S8x512x32 .bf16) (x6 : Vec Ideal S8x32 .f32) (x7 : Vec Ideal S8x32x512 .bf16)
    (x8 : Vec Ideal S8x512 .f32) (x9 : Vec Ideal S8x512x512 .bf16) (x10 : Vec Ideal S8x512 .f32) (x11 : Vec Ideal S8x512x32 .bf16)
    (x12 : Vec Ideal S8x32 .f32) (x13 : Vec Ideal S8x32 .f32) (x14 : Vec Ideal S8x32 .f32) : FVec Ideal S1024x32 .f32 := k0_pay48 (la3 x0 x1 x2 x3 x4 x5 x6 x7 x8 x9 x10 x11 x12 x13 x14) (m4 x0 x1 x2 x3 x4 x5 x6 x7 x8 x9 x10 x11 x12 x13 x14) (sh4 x0 x1 x2 x3 x4 x5 x6 x7 x8 x9 x10 x11 x12 x13 x14)

/-! ### Layer 5 -/
def sh5 (x0 : Vec Ideal S1024x64 .f32) (x1 : Vec Ideal S8x32x512 .bf16) (x2 : Vec Ideal S8x512 .f32) (x3 : Vec Ideal S8x512x512 .bf16)
    (x4 : Vec Ideal S8x512 .f32) (x5 : Vec Ideal S8x512x32 .bf16) (x6 : Vec Ideal S8x32 .f32) (x7 : Vec Ideal S8x32x512 .bf16)
    (x8 : Vec Ideal S8x512 .f32) (x9 : Vec Ideal S8x512x512 .bf16) (x10 : Vec Ideal S8x512 .f32) (x11 : Vec Ideal S8x512x32 .bf16)
    (x12 : Vec Ideal S8x32 .f32) (x13 : Vec Ideal S8x32 .f32) (x14 : Vec Ideal S8x32 .f32) : Vec Ideal S1x32 .f32 := View.ld x14 r0_30
def c5 (x0 : Vec Ideal S1024x64 .f32) (x1 : Vec Ideal S8x32x512 .bf16) (x2 : Vec Ideal S8x512 .f32) (x3 : Vec Ideal S8x512x512 .bf16)
    (x4 : Vec Ideal S8x512 .f32) (x5 : Vec Ideal S8x512x32 .bf16) (x6 : Vec Ideal S8x32 .f32) (x7 : Vec Ideal S8x32x512 .bf16)
    (x8 : Vec Ideal S8x512 .f32) (x9 : Vec Ideal S8x512x512 .bf16) (x10 : Vec Ideal S8x512 .f32) (x11 : Vec Ideal S8x512x32 .bf16)
    (x12 : Vec Ideal S8x32 .f32) (x13 : Vec Ideal S8x32 .f32) (x14 : Vec Ideal S8x32 .f32) : FVec Ideal S1024x32 .bf16 := k0_pay49 (a3 x0 x1 x2 x3 x4 x5 x6 x7 x8 x9 x10 x11 x12 x13 x14) (t4 x0 x1 x2 x3 x4 x5 x6 x7 x8 x9 x10 x11 x12 x13 x14) (m4 x0 x1 x2 x3 x4 x5 x6 x7 x8 x9 x10 x11 x12 x13 x14) (sh4 x0 x1 x2 x3 x4 x5 x6 x7 x8 x9 x10 x11 x12 x13 x14)
def t5 (x0 : Vec Ideal S1024x64 .f32) (x1 : Vec Ideal S8x32x512 .bf16) (x2 : Vec Ideal S8x512 .f32) (x3 : Vec Ideal S8x512x512 .bf16)
    (x4 : Vec Ideal S8x512 .f32) (x5 : Vec Ideal S8x512x32 .bf16) (x6 : Vec Ideal S8x32 .f32) (x7 : Vec Ideal S8x32x512 .bf16)
    (x8 : Vec Ideal S8x512 .f32) (x9 : Vec Ideal S8x512x512 .bf16) (x10 : Vec Ideal S8x512 .f32) (x11 : Vec Ideal S8x512x32 .bf16)
    (x12 : Vec Ideal S8x32 .f32) (x13 : Vec Ideal S8x32 .f32) (x14 : Vec Ideal S8x32 .f32) : FVec Ideal S1024x32 .f32 :=
  k0_pay52 (k0_pay50 (a3 x0 x1 x2 x3 x4 x5 x6 x7 x8 x9 x10 x11 x12 x13 x14) (t4 x0 x1 x2 x3 x4 x5 x6 x7 x8 x9 x10 x11 x12 x13 x14) (m4 x0 x1 x2 x3 x4 x5 x6 x7 x8 x9 x10 x11 x12 x13 x14) (sh4 x0 x1 x2 x3 x4 x5 x6 x7 x8 x9 x10 x11 x12 x13 x14) (View.ld x1 r0_26) (View.ld x2 r0_27) (View.ld x3 r0_28) (View.ld x4 r0_27) (View.ld x5 r0_29)) (k0_pay51 (View.ld x6 r0_30))
def m5 (x0 : Vec Ideal S1024x64 .f32) (x1 : Vec Ideal S8x32x512 .bf16) (x2 : Vec Ideal S8x512 .f32) (x3 : Vec Ideal S8x512x512 .bf16)
    (x4 : Vec Ideal S8x512 .f32) (x5 : Vec Ideal S8x512x32 .bf16) (x6 : Vec Ideal S8x32 .f32) (x7 : Vec Ideal S8x32x512 .bf16)
    (x8 : Vec Ideal S8x512 .f32) (x9 : Vec Ideal S8x512x512 .bf16) (x10 : Vec Ideal S8x512 .f32) (x11 : Vec Ideal S8x512x32 .bf16)
    (x12 : Vec Ideal S8x32 .f32) (x13 : Vec Ideal S8x32 .f32) (x14 : Vec Ideal S8x32 .f32) : FVec Ideal S1024x32 .f32 := k0_pay53 (c5 x0 x1 x2 x3 x4 x5 x6 x7 x8 x9 x10 x11 x12 x13 x14) (View.ld x7 r0_26) (View.ld x8 r0_27) (View.ld x9 r0_28) (View.ld x10 r0_27) (View.ld x11 r0_29) (View.ld x12 r0_30) (View.ld x13 r0_30)
def b6 (x0 : Vec Ideal S1024x64 .f32) (x1 : Vec Ideal S8x32x512 .bf16) (x2 : Vec Ideal S8x512 .f32) (x3 : Vec Ideal S8x512x512 .bf16)
    (x4 : Vec Ideal S8x512 .f32) (x5 : Vec Ideal S8x512x32 .bf16) (x6 : Vec Ideal S8x32 .f32) (x7 : Vec Ideal S8x32x512 .bf16)
    (x8 : Vec Ideal S8x512 .f32) (x9 : Vec Ideal S8x512x512 .bf16) (x10 : Vec Ideal S8x512 .f32) (x11 : Vec Ideal S8x512x32 .bf16)
    (x12 : Vec Ideal S8x32 .f32) (x13 : Vec Ideal S8x32 .f32) (x14 : Vec Ideal S8x32 .f32) : FVec Ideal S1024x32 .f32 := k0_pay55 (b4 x0 x1 x2 x3 x4 x5 x6 x7 x8 x9 x10 x11 x12 x13 x14) (t5 x0 x1 x2 x3 x4 x5 x6 x7 x8 x9 x10 x11 x12 x13 x14) (m5 x0 x1 x2 x3 x4 x5 x6 x7 x8 x9 x10 x11 x12 x13 x14) (sh5 x0 x1 x2 x3 x4 x5 x6 x7 x8 x9 x10 x11 x12 x13 x14)
def lb6 (x0 : Vec Ideal S1024x64 .f32) (x1 : Vec Ideal S8x32x512 .bf16) (x2 : Vec Ideal S8x512 .f32) (x3 : Vec Ideal S8x512x512 .bf16)
    (x4 : Vec Ideal S8x512 .f32) (x5 : Vec Ideal S8x512x32 .bf16) (x6 : Vec Ideal S8x32 .f32) (x7 : Vec Ideal S8x32x512 .bf16)
    (x8 : Vec Ideal S8x512 .f32) (x9 : Vec Ideal S8x512x512 .bf16) (x10 : Vec Ideal S8x512 .f32) (x11 : Vec Ideal S8x512x32 .bf16)
    (x12 : Vec Ideal S8x32 .f32) (x13 : Vec Ideal S8x32 .f32) (x14 : Vec Ideal S8x32 .f32) : FVec Ideal S1024x32 .f32 := k0_pay56 (lb4 x0 x1 x2 x3 x4 x5 x6 x7 x8 x9 x10 x11 x12 x13 x14) (m5 x0 x1 x2 x3 x4 x5 x6 x7 x8 x9 x10 x11 x12 x13 x14) (sh5 x0 x1 x2 x3 x4 x5 x6 x7 x8 x9 x10 x11 x12 x13 x14)

/-! ### Layer 6 -/
def sh6 (x0 : Vec Ideal S1024x64 .f32) (x1 : Vec Ideal S8x32x512 .bf16) (x2 : Vec Ideal S8x512 .f32) (x3 : Vec Ideal S8x512x512 .bf16)
    (x4 : Vec Ideal S8x512 .f32) (x5 : Vec Ideal S8x512x32 .bf16) (x6 : Vec Ideal S8x32 .f32) (x7 : Vec Ideal S8x32x512 .bf16)
    (x8 : Vec Ideal S8x512 .f32) (x9 : Vec Ideal S8x512x512 .bf16) (x10 : Vec Ideal S8x512 .f32) (x11 : Vec Ideal S8x512x32 .bf16)
    (x12 : Vec Ideal S8x32 .f32) (x13 : Vec Ideal S8x32 .f32) (x14 : Vec Ideal S8x32 .f32) : Vec Ideal S1x32 .f32 := View.ld x14 r0_35
def c6 (x0 : Vec Ideal S1024x64 .f32) (x1 : Vec Ideal S8x32x512 .bf16) (x2 : Vec Ideal S8x512 .f32) (x3 : Vec Ideal S8x512x512 .bf16)
    (x4 : Vec Ideal S8x512 .f32) (x5 : Vec Ideal S8x512x32 .bf16) (x6 : Vec Ideal S8x32 .f32) (x7 : Vec Ideal S8x32x512 .bf16)
    (x8 : Vec Ideal S8x512 .f32) (x9 : Vec Ideal S8x512x512 .bf16) (x10 : Vec Ideal S8x512 .f32) (x11 : Vec Ideal S8x512x32 .bf16)
    (x12 : Vec Ideal S8x32 .f32) (x13 : Vec Ideal S8x32 .f32) (x14 : Vec Ideal S8x32 .f32) : FVec Ideal S1024x32 .bf16 := k0_pay57 (b4 x0 x1 x2 x3 x4 x5 x6 x7 x8 x9 x10 x11 x12 x13 x14) (t5 x0 x1 x2 x3 x4 x5 x6 x7 x8 x9 x10 x11 x12 x13 x14) (m5 x0 x1 x2 x3 x4 x5 x6 x7 x8 x9 x10 x11 x12 x13 x14) (sh5 x0 x1 x2 x3 x4 x5 x6 x7 x8 x9 x10 x11 x12 x13 x14)
def t6 (x0 : Vec Ideal S1024x64 .f32) (x1 : Vec Ideal S8x32x512 .bf16) (x2 : Vec Ideal S8x512 .f32) (x3 : Vec Ideal S8x512x512 .bf16)
    (x4 : Vec Ideal S8x512 .f32) (x5 : Vec Ideal S8x512x32 .bf16) (x6 : Vec Ideal S8x32 .f32) (x7 : Vec Ideal S8x32x512 .bf16)
    (x8 : Vec Ideal S8x512 .f32) (x9 : Vec Ideal S8x512x512 .bf16) (x10 : Vec Ideal S8x512 .f32) (x11 : Vec Ideal S8x512x32 .bf16)
    (x12 : Vec Ideal S8x32 .f32) (x13 : Vec Ideal S8x32 .f32) (x14 : Vec Ideal S8x32 .f32) : FVec Ideal S1024x32 .f32 :=
  k0_pay60 (k0_pay58 (b4 x0 x1 x2 x3 x4 x5 x6 x7 x8 x9 x10 x11 x12 x13 x14) (t5 x0 x1 x2 x3 x4 x5 x6 x7 x8 x9 x10 x11 x12 x13 x14) (m5 x0 x1 x2 x3 x4 x5 x6 x7 x8 x9 x10 x11 x12 x13 x14) (sh5 x0 x1 x2 x3 x4 x5 x6 x7 x8 x9 x10 x11 x12 x13 x14) (View.ld x1 r0_31) (View.ld x2 r0_32) (View.ld x3 r0_33) (View.ld x4 r0_32) (View.ld x5 r0_34)) (k0_pay59 (View.ld x6 r0_35))
def m6 (x0 : Vec Ideal S1024x64 .f32) (x1 : Vec Ideal S8x32x512 .bf16) (x2 : Vec Ideal S8x512 .f32) (x3 : Vec Ideal S8x512x512 .bf16)
    (x4 : Vec Ideal S8x512 .f32) (x5 : Vec Ideal S8x512x32 .bf16) (x6 : Vec Ideal S8x32 .f32) (x7 : Vec Ideal S8x32x512 .bf16)
    (x8 : Vec Ideal S8x512 .f32) (x9 : Vec Ideal S8x512x512 .bf16) (x10 : Vec Ideal S8x512 .f32) (x11 : Vec Ideal S8x512x32 .bf16)
    (x12 : Vec Ideal S8x32 .f32) (x13 : Vec Ideal S8x32 .f32) (x14 : Vec Ideal S8x32 .f32) : FVec Ideal S1024x32 .f32 := k0_pay61 (c6 x0 x1 x2 x3 x4 x5 x6 x7 x8 x9 x10 x11 x12 x13 x14) (View.ld x7 r0_31) (View.ld x8 r0_32) (View.ld x9 r0_33) (View.ld x10 r0_32) (View.ld x11 r0_34) (View.ld x12 r0_35) (View.ld x13 r0_35)
def a7 (x0 : Vec Ideal S1024x64 .f32) (x1 : Vec Ideal S8x32x512 .bf16) (x2 : Vec Ideal S8x512 .f32) (x3 : Vec Ideal S8x512x512 .bf16)
    (x4 : Vec Ideal S8x512 .f32) (x5 : Vec Ideal S8x512x32 .bf16) (x6 : Vec Ideal S8x32 .f32) (x7 : Vec Ideal S8x32x512 .bf16)
    (x8 : Vec Ideal S8x512 .f32) (x9 : Vec Ideal S8x512x512 .bf16) (x10 : Vec Ideal S8x512 .f32) (x11 : Vec Ideal S8x512x32 .bf16)
    (x12 : Vec Ideal S8x32 .f32) (x13 : Vec Ideal S8x32 .f32) (x14 : Vec Ideal S8x32 .f32) : FVec Ideal S1024x32 .f32 := k0_pay63 (a5 x0 x1 x2 x3 x4 x5 x6 x7 x8 x9 x10 x11 x12 x13 x14) (t6 x0 x1 x2 x3 x4 x5 x6 x7 x8 x9 x10 x11 x12 x13 x14) (m6 x0 x1 x2 x3 x4 x5 x6 x7 x8 x9 x10 x11 x12 x13 x14) (sh6 x0 x1 x2 x3 x4 x5 x6 x7 x8 x9 x10 x11 x12 x13 x14)
def la7 (x0 : Vec Ideal S1024x64 .f32) (x1 : Vec Ideal S8x32x512 .bf16) (x2 : Vec Ideal S8x512 .f32) (x3 : Vec Ideal S8x512x512 .bf16)
    (x4 : Vec Ideal S8x512 .f32) (x5 : Vec Ideal S8x512x32 .bf16) (x6 : Vec Ideal S8x32 .f32) (x7 : Vec Ideal S8x32x512 .bf16)
    (x8 : Vec Ideal S8x512 .f32) (x9 : Vec Ideal S8x512x512 .bf16) (x10 : Vec Ideal S8x512 .f32) (x11 : Vec Ideal S8x512x32 .bf16)
    (x12 : Vec Ideal S8x32 .f32) (x13 : Vec Ideal S8x32 .f32) (x14 : Vec Ideal S8x32 .f32) : FVec Ideal S1024x32 .f32 := k0_pay64 (la5 x0 x1 x2 x3 x4 x5 x6 x7 x8 x9 x10 x11 x12 x13 x14) (m6 x0 x1 x2 x3 x4 x5 x6 x7 x8 x9 x10 x11 x12 x13 x14) (sh6 x0 x1 x2 x3 x4 x5 x6 x7 x8 x9 x10 x11 x12 x13 x14)

/-! ### Layer 7 -/
def sh7 (x0 : Vec Ideal S1024x64 .f32) (x1 : Vec Ideal S8x32x512 .bf16) (x2 : Vec Ideal S8x512 .f32) (x3 : Vec Ideal S8x512x512 .bf16)
    (x4 : Vec Ideal S8x512 .f32) (x5 : Vec Ideal S8x512x32 .bf16) (x6 : Vec Ideal S8x32 .f32) (x7 : Vec Ideal S8x32x512 .bf16)
    (x8 : Vec Ideal S8x512 .f32) (x9 : Vec Ideal S8x512x512 .bf16) (x10 : Vec Ideal S8x512 .f32) (x11 : Vec Ideal S8x512x32 .bf16)
    (x12 : Vec Ideal S8x32 .f32) (x13 : Vec Ideal S8x32 .f32) (x14 : Vec Ideal S8x32 .f32) : Vec Ideal S1x32 .f32 := View.ld x14 r0_40
def c7 (x0 : Vec Ideal S1024x64 .f32) (x1 : Vec Ideal S8x32x512 .bf16) (x2 : Vec Ideal S8x512 .f32) (x3 : Vec Ideal S8x512x512 .bf16)
    (x4 : Vec Ideal S8x512 .f32) (x5 : Vec Ideal S8x512x32 .bf16) (x6 : Vec Ideal S8x32 .f32) (x7 : Vec Ideal S8x32x512 .bf16)
    (x8 : Vec Ideal S8x512 .f32) (x9 : Vec Ideal S8x512x512 .bf16) (x10 : Vec Ideal S8x512 .f32) (x11 : Vec Ideal S8x512x32 .bf16)
    (x12 : Vec Ideal S8x32 .f32) (x13 : Vec Ideal S8x32 .f32) (x14 : Vec Ideal S8x32 .f32) : FVec Ideal S1024x32 .bf16 := k0_pay65 (a5 x0 x1 x2 x3 x4 x5 x6 x7 x8 x9 x10 x11 x12 x13 x14) (t6 x0 x1 x2 x3 x4 x5 x6 x7 x8 x9 x10 x11 x12 x13 x14) (m6 x0 x1 x2 x3 x4 x5 x6 x7 x8 x9 x10 x11 x12 x13 x14) (sh6 x0 x1 x2 x3 x4 x5 x6 x7 x8 x9 x10 x11 x12 x13 x14)
def t7 (x0 : Vec Ideal S1024x64 .f32) (x1 : Vec Ideal S8x32x512 .bf16) (x2 : Vec Ideal S8x512 .f32) (x3 : Vec Ideal S8x512x512 .bf16)
    (x4 : Vec Ideal S8x512 .f32) (x5 : Vec Ideal S8x512x32 .bf16) (x6 : Vec Ideal S8x32 .f32) (x7 : Vec Ideal S8x32x512 .bf16)
    (x8 : Vec Ideal S8x512 .f32) (x9 : Vec Ideal S8x512x512 .bf16) (x10 : Vec Ideal S8x512 .f32) (x11 : Vec Ideal S8x512x32 .bf16)
    (x12 : Vec Ideal S8x32 .f32) (x13 : Vec Ideal S8x32 .f32) (x14 : Vec Ideal S8x32 .f32) : FVec Ideal S1024x32 .f32 :=
  k0_pay68 (k0_pay66 (a5 x0 x1 x2 x3 x4 x5 x6 x7 x8 x9 x10 x11 x12 x13 x14) (t6 x0 x1 x2 x3 x4 x5 x6 x7 x8 x9 x10 x11 x12 x13 x14) (m6 x0 x1 x2 x3 x4 x5 x6 x7 x8 x9 x10 x11 x12 x13 x14) (sh6 x0 x1 x2 x3 x4 x5 x6 x7 x8 x9 x10 x11 x12 x13 x14) (View.ld x1 r0_36) (View.ld x2 r0_37) (View.ld x3 r0_38) (View.ld x4 r0_37) (View.ld x5 r0_39)) (k0_pay67 (View.ld x6 r0_40))
def m7 (x0 : Vec Ideal S1024x64 .f32) (x1 : Vec Ideal S8x32x512 .bf16) (x2 : Vec Ideal S8x512 .f32) (x3 : Vec Ideal S8x512x512 .bf16)
    (x4 : Vec Ideal S8x512 .f32) (x5 : Vec Ideal S8x512x32 .bf16) (x6 : Vec Ideal S8x32 .f32) (x7 : Vec Ideal S8x32x512 .bf16)
    (x8 : Vec Ideal S8x512 .f32) (x9 : Vec Ideal S8x512x512 .bf16) (x10 : Vec Ideal S8x512 .f32) (x11 : Vec Ideal S8x512x32 .bf16)
    (x12 : Vec Ideal S8x32 .f32) (x13 : Vec Ideal S8x32 .f32) (x14 : Vec Ideal S8x32 .f32) : FVec Ideal S1024x32 .f32 := k0_pay69 (c7 x0 x1 x2 x3 x4 x5 x6 x7 x8 x9 x10 x11 x12 x13 x14) (View.ld x7 r0_36) (View.ld x8 r0_37) (View.ld x9 r0_38) (View.ld x10 r0_37) (View.ld x11 r0_39) (View.ld x12 r0_40) (View.ld x13 r0_40)

/-! ### The two stored blocks -/
def out15 (x0 : Vec Ideal S1024x64 .f32) (x1 : Vec Ideal S8x32x512 .bf16) (x2 : Vec Ideal S8x512 .f32) (x3 : Vec Ideal S8x512x512 .bf16)
    (x4 : Vec Ideal S8x512 .f32) (x5 : Vec Ideal S8x512x32 .bf16) (x6 : Vec Ideal S8x32 .f32) (x7 : Vec Ideal S8x32x512 .bf16)
    (x8 : Vec Ideal S8x512 .f32) (x9 : Vec Ideal S8x512x512 .bf16) (x10 : Vec Ideal S8x512 .f32) (x11 : Vec Ideal S8x512x32 .bf16)
    (x12 : Vec Ideal S8x32 .f32) (x13 : Vec Ideal S8x32 .f32) (x14 : Vec Ideal S8x32 .f32) : FVec Ideal S1024x64 .f32 := k0_pay2 (b6 x0 x1 x2 x3 x4 x5 x6 x7 x8 x9 x10 x11 x12 x13 x14) (a7 x0 x1 x2 x3 x4 x5 x6 x7 x8 x9 x10 x11 x12 x13 x14) (t7 x0 x1 x2 x3 x4 x5 x6 x7 x8 x9 x10 x11 x12 x13 x14) (m7 x0 x1 x2 x3 x4 x5 x6 x7 x8 x9 x10 x11 x12 x13 x14) (sh7 x0 x1 x2 x3 x4 x5 x6 x7 x8 x9 x10 x11 x12 x13 x14)
def out16 (x0 : Vec Ideal S1024x64 .f32) (x1 : Vec Ideal S8x32x512 .bf16) (x2 : Vec Ideal S8x512 .f32) (x3 : Vec Ideal S8x512x512 .bf16)
    (x4 : Vec Ideal S8x512 .f32) (x5 : Vec Ideal S8x512x32 .bf16) (x6 : Vec Ideal S8x32 .f32) (x7 : Vec Ideal S8x32x512 .bf16)
    (x8 : Vec Ideal S8x512 .f32) (x9 : Vec Ideal S8x512x512 .bf16) (x10 : Vec Ideal S8x512 .f32) (x11 : Vec Ideal S8x512x32 .bf16)
    (x12 : Vec Ideal S8x32 .f32) (x13 : Vec Ideal S8x32 .f32) (x14 : Vec Ideal S8x32 .f32) : FVec Ideal S1024x64 .f32 := k0_pay3 (lb6 x0 x1 x2 x3 x4 x5 x6 x7 x8 x9 x10 x11 x12 x13 x14) (la7 x0 x1 x2 x3 x4 x5 x6 x7 x8 x9 x10 x11 x12 x13 x14) (m7 x0 x1 x2 x3 x4 x5 x6 x7 x8 x9 x10 x11 x12 x13 x14) (sh7 x0 x1 x2 x3 x4 x5 x6 x7 x8 x9 x10 x11 x12 x13 x14)

/-- What the body leaves in the first output block is the one store of `out15` (the same graph, written out as a tree
    in the frame's statement). -/
theorem out0_15_eq (x0 : Vec Ideal S1024x64 .f32) (x1 : Vec Ideal S8x32x512 .bf16) (x2 : Vec Ideal S8x512 .f32) (x3 : Vec Ideal S8x512x512 .bf16)
    (x4 : Vec Ideal S8x512 .f32) (x5 : Vec Ideal S8x512x32 .bf16) (x6 : Vec Ideal S8x32 .f32) (x7 : Vec Ideal S8x32x512 .bf16)
    (x8 : Vec Ideal S8x512 .f32) (x9 : Vec Ideal S8x512x512 .bf16) (x10 : Vec Ideal S8x512 .f32) (x11 : Vec Ideal S8x512x32 .bf16)
    (x12 : Vec Ideal S8x32 .f32) (x13 : Vec Ideal S8x32 .f32) (x14 : Vec Ideal S8x32 .f32) :
    GenP.out0_15 x0 x1 x2 x3 x4 x5 x6 x7 x8 x9 x10 x11 x12 x13 x14 = View.canon [⟨r0_0, out15 x0 x1 x2 x3 x4 x5 x6 x7 x8 x9 x10 x11 x12 x13 x14⟩] := rfl

/-- The same for the second output block. -/
theorem out0_16_eq (x0 : Vec Ideal S1024x64 .f32) (x1 : Vec Ideal S8x32x512 .bf16) (x2 : Vec Ideal S8x512 .f32) (x3 : Vec Ideal S8x512x512 .bf16)
    (x4 : Vec Ideal S8x512 .f32) (x5 : Vec Ideal S8x512x32 .bf16) (x6 : Vec Ideal S8x32 .f32) (x7 : Vec Ideal S8x32x512 .bf16)
    (x8 : Vec Ideal S8x512 .f32) (x9 : Vec Ideal S8x512x512 .bf16) (x10 : Vec Ideal S8x512 .f32) (x11 : Vec Ideal S8x512x32 .bf16)
    (x12 : Vec Ideal S8x32 .f32) (x13 : Vec Ideal S8x32 .f32) (x14 : Vec Ideal S8x32 .f32) :
    GenP.out0_16 x0 x1 x2 x3 x4 x5 x6 x7 x8 x9 x10 x11 x12 x13 x14 = View.canon [⟨r0_0, out16 x0 x1 x2 x3 x4 x5 x6 x7 x8 x9 x10 x11 x12 x13 x14⟩] := rfl

end Cert.KBlocks

end
-- ==== Proof.WeightEq.lean ====
/-
  A layer's parameters, as the kernel loads them and as the reference slices them.

  The kernel holds each stacked parameter array whole (the matrices narrowed to bf16 beforehand, which changes nothing
  at the ideal values) and loads layer `l`'s slab through the rectangle at offset `(l, 0, …)`; the reference slices the
  same slab out of its own copy.  Read at an index, after the cast that drops the leading axis of extent one, the two
  are the same entry of the same array: a rectangle of unit stride reads offset plus coordinate on every axis.
-/
import Idealize.ShloMosaic.PureOps.Ideal.Laws
import Idealize.ShloMosaic.Lib.Pipeline.FrameBody
import proofs.«175251_j80573586473693_2_alg».proof.KernelIdeal
import proofs.«175251_j80573586473693_2_alg».proof.Proof.RefDefs

noncomputable section

namespace Cert.WeightEq

open Idealize.ShloMosaic Cert.KernelIdeal

variable [Cert.KernelIdeal.Facts] [Cert.ReferenceIdeal.Facts]

open Cert.KernelIdeal.Facts₀ Cert.KernelIdeal.Facts

/-- Layer slab of a `8x32x512` parameter, cast to `32x512`: the kernel's load and the reference's slice agree entry by entry
    when the two whole arrays do. -/
theorem w32x512_eq (x : Vec Ideal S8x32x512 .bf16) (X : FVec Ideal Cert.ReferenceIdeal.S8x32x512 .f32) (hx : ∀ i, x i = X i)
    (off : Fin 3 → Nat) (inb : ∀ a, off a + S1x32x512.size a ≤ S8x32x512.size a)
    (h : Cert.ReferenceIdeal.S8x32x512.Slices off Cert.ReferenceIdeal.S1x32x512) :
    ∀ i, shapeCast S32x512 (View.ld x (Rect.unit (s := S8x32x512) off S1x32x512.size inb)) shapeCasts_S1x32x512_S32x512 i
      = Cert.RefDefs.w32x512 off h X i := by
  intro i
  show x _ = X _
  rw [hx]
  refine congrArg X (funext fun a => Fin.ext ?_)
  show _ + 1 * _ = _
  rw [Nat.one_mul]
  rfl

/-- Layer slab of a `8x512x512` parameter, cast to `512x512`: the kernel's load and the reference's slice agree entry by entry
    when the two whole arrays do. -/
theorem w512x512_eq (x : Vec Ideal S8x512x512 .bf16) (X : FVec Ideal Cert.ReferenceIdeal.S8x512x512 .f32) (hx : ∀ i, x i = X i)
    (off : Fin 3 → Nat) (inb : ∀ a, off a + S1x512x512.size a ≤ S8x512x512.size a)
    (h : Cert.ReferenceIdeal.S8x512x512.Slices off Cert.ReferenceIdeal.S1x512x512) :
    ∀ i, shapeCast S512x512 (View.ld x (Rect.unit (s := S8x512x512) off S1x512x512.size inb)) shapeCasts_S1x512x512_S512x512 i
      = Cert.RefDefs.w512x512 off h X i := by
  intro i
  show x _ = X _
  rw [hx]
  refine congrArg X (funext fun a => Fin.ext ?_)
  show _ + 1 * _ = _
  rw [Nat.one_mul]
  rfl

/-- Layer slab of a `8x512x32` parameter, cast to `512x32`: the kernel's load and the reference's slice agree entry by entry
    when the two whole arrays do. -/
theorem w512x32_eq (x : Vec Ideal S8x512x32 .bf16) (X : FVec Ideal Cert.ReferenceIdeal.S8x512x32 .f32) (hx : ∀ i, x i = X i)
    (off : Fin 3 → Nat) (inb : ∀ a, off a + S1x512x32.size a ≤ S8x512x32.size a)
    (h : Cert.ReferenceIdeal.S8x512x32.Slices off Cert.ReferenceIdeal.S1x512x32) :
    ∀ i, shapeCast S512x32 (View.ld x (Rect.unit (s := S8x512x32) off S1x512x32.size inb)) shapeCasts_S1x512x32_S512x32 i
      = Cert.RefDefs.w512x32 off h X i := by
  intro i
  show x _ = X _
  rw [hx]
  refine congrArg X (funext fun a => Fin.ext ?_)
  show _ + 1 * _ = _
  rw [Nat.one_mul]
  rfl

/-- Layer slab of a `8x512` parameter, cast to `512`: the kernel's load and the reference's slice agree entry by entry
    when the two whole arrays do. -/
theorem v512_eq (x : Vec Ideal S8x512 .f32) (X : FVec Ideal Cert.ReferenceIdeal.S8x512 .f32) (hx : ∀ i, x i = X i)
    (off : Fin 2 → Nat) (inb : ∀ a, off a + S1x512.size a ≤ S8x512.size a)
    (h : Cert.ReferenceIdeal.S8x512.Slices off Cert.ReferenceIdeal.S1x512) :
    ∀ i, shapeCast S512 (View.ld x (Rect.unit (s := S8x512) off S1x512.size inb)) shapeCasts_S1x512_S512 i
      = Cert.RefDefs.v512 off h X i := by
  intro i
  show x _ = X _
  rw [hx]
  refine congrArg X (funext fun a => Fin.ext ?_)
  show _ + 1 * _ = _
  rw [Nat.one_mul]
  rfl

/-- Layer slab of a `8x32` parameter, cast to `32`: the kernel's load and the reference's slice agree entry by entry
    when the two whole arrays do. -/
theorem v32_eq (x : Vec Ideal S8x32 .f32) (X : FVec Ideal Cert.ReferenceIdeal.S8x32 .f32) (hx : ∀ i, x i = X i)
    (off : Fin 2 → Nat) (inb : ∀ a, off a + S1x32.size a ≤ S8x32.size a)
    (h : Cert.ReferenceIdeal.S8x32.Slices off Cert.ReferenceIdeal.S1x32) :
    ∀ i, shapeCast S32 (View.ld x (Rect.unit (s := S8x32) off S1x32.size inb)) shapeCasts_S1x32_S32 i
      = Cert.RefDefs.v32 off h X i := by
  intro i
  show x _ = X _
  rw [hx]
  refine congrArg X (funext fun a => Fin.ext ?_)
  show _ + 1 * _ = _
  rw [Nat.one_mul]
  rfl

end Cert.WeightEq

end
-- ==== Proof.LibColScatter.lean ====
/-
  Columns of a rank-two array chosen by an index vector, over abstract extents: read, written and accumulated.

  An `R × C` array and an index vector of length `n` (stored as `n × 1`, read signed) whose entry `j` is the column
  `col j < C`. Three operations on the chosen columns, each READ AT AN INDEX:
  * the gather of those columns into an `R × n` array reads, at `(r, j)`, the operand at `(r, col j)`
    (the start is clamped into `[0, C − 1]`, which does nothing to a column below `C`);
  * the scatter of an `R × n` update into those columns, its body returning the update, reads, at `(r, col j)`, the
    update at `(r, j)` when `col` is injective, and the operand at `(r, c)` when no `col j` is `c`;
  * the accumulating float scatter at the ideal values reads, at `(r, col j)`, the operand plus the update at
    `(r, j)`, and the operand alone at a column no `col j` names.
  The scatter is a left fold over the update indices in row-major order; the fold lemmas here are stated for any
  list of keys without repeats and any step that changes only the key's target, and the two lemmas on
  `Host.scatter` for any dimension numbers: at a position that exactly one (no) update index lands at.
-/
import Idealize.ShloMosaic.PureOps.Ideal.Laws
import Idealize.ShloMosaic.Lib.ValueIdx
import Idealize.ShloMosaic.Lib.Pipeline.Value

noncomputable section

open scoped BigOperators

namespace Cert.Lib.ColScatter

open Idealize.ShloMosaic Idealize.ShloMosaic.ValueIdx

/-! ## The gather of the chosen columns, read at an index -/

/-- The gather's dimension numbers: result axis 0 is the operand's rows (offset axis, slice the whole column
    height), result axis 1 runs over the index vector, whose entries are starts on the operand's column axis
    (collapsed, slice size 1). Their conditions `wf` are decided on a program's literal shapes. -/
abbrev gatherCols (R C n : Nat)
    (wf : GatherDims.WF ⟨2, ![R, C]⟩ ⟨2, ![n, 1]⟩ ⟨2, ![R, n]⟩ [0] [1] [] [1] [] 1 ![R, 1]) :
    GatherDims ⟨2, ![R, C]⟩ ⟨2, ![n, 1]⟩ ⟨2, ![R, n]⟩ where
  offsetDims := [0]
  collapsedSliceDims := [1]
  operandBatchingDims := []
  startIndicesBatchingDims := []
  startIndexMap := [1]
  indexVectorDim := 1
  sliceSizes := ![R, 1]
  wf := wf

/-- THE GATHER READ AT `(r, j)`: the operand at `(r, col j)`. -/
theorem gather_apply {α : Type} {R C n w : Nat}
    (wf : GatherDims.WF ⟨2, ![R, C]⟩ ⟨2, ![n, 1]⟩ ⟨2, ![R, n]⟩ [0] [1] [] [1] [] 1 ![R, 1])
    (idx : IVec ⟨2, ![n, 1]⟩ w) (col : Fin n → Fin C)
    (hidx : ∀ j : Fin n, (idx (ix2 j (0 : Fin 1))).toInt = ((col j).val : Int))
    (x : (⟨2, ![R, C]⟩ : Shape).Idx → α) (r : Fin R) (j : Fin n) :
    Host.gather (gatherCols R C n wf) x idx (ix2 r j) = x (ix2 r (col j)) := by
  unfold Host.gather
  congr 1
  funext a
  refine Fin.ext ?_
  match a with
  | ⟨0, _⟩ =>
    show (gatherCols R C n wf).start (ix2 r j) idx 0 + (gatherCols R C n wf).batchCoord (ix2 r j) 0
      + (gatherCols R C n wf).offCoord (ix2 r j) 0 = r.val
    rw [GatherDims.batchCoord_eq_zero _ _ _ List.not_mem_nil]
    unfold GatherDims.start
    rw [dif_neg (show (0 : Fin 2) ∉ ([1] : List (Fin 2)) from by decide)]
    unfold GatherDims.offCoord
    rw [dif_pos ((GatherDims.mem_sKept _ _).mpr ⟨show (0 : Fin 2) ∉ ([1] : List (Fin 2)) from by decide, List.not_mem_nil⟩)]
    simp only [Nat.zero_add]
    rfl
  | ⟨1, _⟩ =>
    show (gatherCols R C n wf).start (ix2 r j) idx 1 + (gatherCols R C n wf).batchCoord (ix2 r j) 1
      + (gatherCols R C n wf).offCoord (ix2 r j) 1 = (col j).val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (gatherCols R C n wf).startIndexMap from List.mem_singleton.mpr rfl)]
    have hsi : (gatherCols R C n wf).siIdx (ix2 r j) ⟨List.idxOf (1 : Fin 2) (gatherCols R C n wf).startIndexMap,
        List.idxOf_lt_length_iff.2 (List.mem_singleton.mpr rfl)⟩ = ix2 j (0 : Fin 1) := by
      funext b; refine Fin.ext ?_
      match b with
      | ⟨0, _⟩ => rfl
      | ⟨1, _⟩ => rfl
    rw [hsi, hidx j]
    have hc : (col j).val < C := (col j).isLt
    show min ((col j).val : Int).toNat (C - 1) = (col j).val
    rw [Int.toNat_natCast]
    omega

/-! ## A left fold of "write at the key's target" steps, read at one target -/

section Fold
variable {κ ι α : Type}

/-- A left fold over keys `l` of steps that leave an array alone at every position but the key's target `g k`
    (and everywhere when the key has none): at a position no key of `l` targets, the array keeps its value. -/
theorem foldl_step_miss (g : κ → Option ι) (step : (ι → α) → κ → (ι → α)) (i : ι)
    (hstep : ∀ (r : ι → α) (k : κ), g k ≠ some i → step r k i = r i) :
    ∀ (l : List κ) (x : ι → α), (∀ k ∈ l, g k ≠ some i) → l.foldl step x i = x i := by
  intro l
  induction l with
  | nil => intro x _; rfl
  | cons k l ih =>
    intro x h
    rw [List.foldl_cons, ih (step x k) (fun k' hk' => h k' (List.mem_cons_of_mem _ hk')),
      hstep x k (h k List.mem_cons_self)]

/-- The same fold over keys without repeats, at a position `i` exactly one key `k₀` of `l` targets, where that key's
    step writes `f (r i) (v k₀)`: the result is `f` of the initial value and `v k₀`. -/
theorem foldl_step_hit (g : κ → Option ι) (step : (ι → α) → κ → (ι → α)) (f : α → α → α) (v : κ → α) (i : ι)
    (hmiss : ∀ (r : ι → α) (k : κ), g k ≠ some i → step r k i = r i)
    (hhit : ∀ (r : ι → α) (k : κ), g k = some i → step r k i = f (r i) (v k)) (k₀ : κ) :
    ∀ (l : List κ) (x : ι → α), l.Nodup → k₀ ∈ l → g k₀ = some i → (∀ k ∈ l, g k = some i → k = k₀) →
      l.foldl step x i = f (x i) (v k₀) := by
  intro l
  induction l with
  | nil => intro x _ hk; exact absurd hk List.not_mem_nil
  | cons k l ih =>
    intro x hnd hk hg huniq
    rw [List.foldl_cons]
    have hnd' := List.nodup_cons.mp hnd
    by_cases hkk : k = k₀
    · subst hkk
      rw [foldl_step_miss g step i hmiss l (step x k) (fun k' hk' hgk' =>
        hnd'.1 (huniq k' (List.mem_cons_of_mem _ hk') hgk' ▸ hk')), hhit x k hg]
    · have hk' : k₀ ∈ l := by
        rcases List.mem_cons.mp hk with h | h
        · exact absurd h.symm hkk
        · exact h
      rw [ih (step x k) hnd'.2 hk' hg (fun k' hk'' => huniq k' (List.mem_cons_of_mem _ hk'')),
        hmiss x k (fun hgk => hkk (huniq k List.mem_cons_self hgk))]

end Fold

/-! ## `Host.scatter` read at a position at most one update index lands at -/

section HostScatter
variable {α : Type} {s si u : Shape} {w : Nat} (d : ScatterDims s si u) (f : α → α → α) (idx : IVec si w)
  (upd : u.Idx → α)

/-- One step of the scatter's fold leaves position `i` alone when the update index does not land there … -/
theorem step_miss (ρ : s.Idx → α) (y : u.Idx) (i : s.Idx) (h : d.resultIdx? y idx ≠ some i) :
    (match d.resultIdx? y idx with
      | some i₀ => fun i' => if i' = i₀ then f (ρ i₀) (upd y) else ρ i'
      | none => ρ) i = ρ i := by
  revert h
  generalize d.resultIdx? y idx = o
  intro h
  cases o with
  | none => rfl
  | some i₀ => exact if_neg (fun e => h (congrArg some e.symm))

/-- … and writes the body's value there when it does. -/
theorem step_hit (ρ : s.Idx → α) (y : u.Idx) (i : s.Idx) (h : d.resultIdx? y idx = some i) :
    (match d.resultIdx? y idx with
      | some i₀ => fun i' => if i' = i₀ then f (ρ i₀) (upd y) else ρ i'
      | none => ρ) i = f (ρ i) (upd y) := by
  rw [h]
  exact if_pos rfl

/-- At a position no update index lands at, the scatter is its operand. -/
theorem host_scatter_miss (x : s.Idx → α) (i : s.Idx) (h : ∀ y, d.resultIdx? y idx ≠ some i) :
    Host.scatter d f x idx upd i = x i := by
  unfold Host.scatter
  exact foldl_step_miss (fun k => d.resultIdx? (u.rowMajor.symm k) idx) _ i
    (fun ρ k hk => step_miss d f idx upd ρ (u.rowMajor.symm k) i hk) _ x (fun k _ => h _)

/-- At a position exactly one update index `y₀` lands at, the scatter is the body applied to the operand's
    element and that update's. -/
theorem host_scatter_hit (x : s.Idx → α) (i : s.Idx) (y₀ : u.Idx) (h₀ : d.resultIdx? y₀ idx = some i)
    (huniq : ∀ y, d.resultIdx? y idx = some i → y = y₀) :
    Host.scatter d f x idx upd i = f (x i) (upd y₀) := by
  unfold Host.scatter
  have key := foldl_step_hit (fun k => d.resultIdx? (u.rowMajor.symm k) idx) _ f
    (fun k => upd (u.rowMajor.symm k)) i
    (fun ρ k hk => step_miss d f idx upd ρ (u.rowMajor.symm k) i hk)
    (fun ρ k hk => step_hit d f idx upd ρ (u.rowMajor.symm k) i hk)
    (u.rowMajor y₀) (List.finRange u.numel) x (List.nodup_finRange _) (List.mem_finRange _)
    (by show d.resultIdx? (u.rowMajor.symm (u.rowMajor y₀)) idx = some i
        rw [Equiv.symm_apply_apply]; exact h₀)
    (fun k _ hk => by
      have := huniq _ hk
      rw [← this, Equiv.apply_symm_apply])
  rw [Equiv.symm_apply_apply] at key
  exact key

end HostScatter

/-! ## The scatter's result index at an update index -/

/-- The scatter's dimension numbers: update axis 0 is a window over the operand's rows, update axis 1 runs over
    the index vector, whose entries are positions on the operand's column axis (an inserted window axis). -/
abbrev scatterCols (R C n : Nat)
    (wf : ScatterDims.WF ⟨2, ![R, C]⟩ ⟨2, ![n, 1]⟩ ⟨2, ![R, n]⟩ [0] [1] [1] 1) :
    ScatterDims ⟨2, ![R, C]⟩ ⟨2, ![n, 1]⟩ ⟨2, ![R, n]⟩ where
  updateWindowDims := [0]
  insertedWindowDims := [1]
  scatterDimsToOperandDims := [1]
  indexVectorDim := 1
  wf := wf

section ResultIdx
variable {R C n w : Nat} (wf : ScatterDims.WF ⟨2, ![R, C]⟩ ⟨2, ![n, 1]⟩ ⟨2, ![R, n]⟩ [0] [1] [1] 1)
  (idx : IVec ⟨2, ![n, 1]⟩ w) (col : Fin n → Fin C)
  (hidx : ∀ j : Fin n, (idx (ix2 j (0 : Fin 1))).toInt = ((col j).val : Int))

/-- The window starts at row 0 … -/
theorem start_row (r : Fin R) (j : Fin n) : (scatterCols R C n wf).start (ix2 r j) idx 0 = 0 := by
  unfold ScatterDims.start
  rw [dif_neg (show (0 : Fin 2) ∉ ([1] : List (Fin 2)) from by decide)]

include hidx in
/-- … and at the column the index vector names. -/
theorem start_col (r : Fin R) (j : Fin n) : (scatterCols R C n wf).start (ix2 r j) idx 1 = ((col j).val : Int) := by
  unfold ScatterDims.start
  rw [dif_pos (show (1 : Fin 2) ∈ (scatterCols R C n wf).scatterDimsToOperandDims from List.mem_singleton.mpr rfl)]
  have hsi : (scatterCols R C n wf).siIdx (ix2 r j) ⟨List.idxOf (1 : Fin 2) (scatterCols R C n wf).scatterDimsToOperandDims,
      List.idxOf_lt_length_iff.2 (List.mem_singleton.mpr rfl)⟩ = ix2 j (0 : Fin 1) := by
    funext b; refine Fin.ext ?_
    match b with
    | ⟨0, _⟩ => rfl
    | ⟨1, _⟩ => rfl
  rw [hsi, hidx j]

/-- The row axis is not inserted; the column axis is. -/
theorem mem_sKept_row : (0 : Fin 2) ∈ (scatterCols R C n wf).sKept :=
  List.mem_filter.2 ⟨List.mem_finRange _, show decide ((0 : Fin 2) ∉ ([1] : List (Fin 2))) = true from by decide⟩

theorem not_mem_sKept_col : (1 : Fin 2) ∉ (scatterCols R C n wf).sKept :=
  fun h => absurd (List.mem_filter.1 h).2 (show ¬ decide ((1 : Fin 2) ∉ ([1] : List (Fin 2))) = true from by decide)

/-- The window coordinate is the update's row on the row axis and `0` on the column axis. -/
theorem window_row (r : Fin R) (j : Fin n) : (scatterCols R C n wf).window (ix2 r j) 0 = r.val := by
  unfold ScatterDims.window
  rw [dif_pos (mem_sKept_row wf)]
  rfl

theorem window_col (r : Fin R) (j : Fin n) : (scatterCols R C n wf).window (ix2 r j) 1 = 0 := by
  unfold ScatterDims.window
  rw [dif_neg (not_mem_sKept_col wf)]

include hidx in
/-- Update index `(r, j)` lands at `(r, col j)`: row kept, column read off the index vector. -/
theorem resultIdx_eq (r : Fin R) (j : Fin n) :
    (scatterCols R C n wf).resultIdx? (ix2 r j) idx = some (ix2 r (col j)) := by
  have hr : r.val < R := r.isLt
  have hc : (col j).val < C := (col j).isLt
  have h : ∀ a : Fin 2, 0 ≤ (scatterCols R C n wf).start (ix2 r j) idx a + ((scatterCols R C n wf).window (ix2 r j) a : Int) ∧
      (scatterCols R C n wf).start (ix2 r j) idx a + ((scatterCols R C n wf).window (ix2 r j) a : Int)
        < (((⟨2, ![R, C]⟩ : Shape).size a : Nat) : Int) := by
    intro a
    match a with
    | ⟨0, _⟩ =>
      show 0 ≤ (scatterCols R C n wf).start (ix2 r j) idx 0 + ((scatterCols R C n wf).window (ix2 r j) 0 : Int) ∧
        (scatterCols R C n wf).start (ix2 r j) idx 0 + ((scatterCols R C n wf).window (ix2 r j) 0 : Int) < ((R : Nat) : Int)
      rw [start_row, window_row]; omega
    | ⟨1, _⟩ =>
      show 0 ≤ (scatterCols R C n wf).start (ix2 r j) idx 1 + ((scatterCols R C n wf).window (ix2 r j) 1 : Int) ∧
        (scatterCols R C n wf).start (ix2 r j) idx 1 + ((scatterCols R C n wf).window (ix2 r j) 1 : Int) < ((C : Nat) : Int)
      rw [start_col wf idx col hidx, window_col]; omega
  unfold ScatterDims.resultIdx?
  rw [dif_pos h]
  congr 1
  funext a
  refine Fin.ext ?_
  match a with
  | ⟨0, _⟩ =>
    show ((scatterCols R C n wf).start (ix2 r j) idx 0 + ((scatterCols R C n wf).window (ix2 r j) 0 : Int)).toNat = r.val
    rw [start_row, window_row]; omega
  | ⟨1, _⟩ =>
    show ((scatterCols R C n wf).start (ix2 r j) idx 1 + ((scatterCols R C n wf).window (ix2 r j) 1 : Int)).toNat = (col j).val
    rw [start_col wf idx col hidx, window_col]; omega

end ResultIdx

/-! ## The scatters read at an index -/

section Apply
variable {R C n w : Nat} (wf : ScatterDims.WF ⟨2, ![R, C]⟩ ⟨2, ![n, 1]⟩ ⟨2, ![R, n]⟩ [0] [1] [1] 1)
  (idx : IVec ⟨2, ![n, 1]⟩ w) (col : Fin n → Fin C)
  (hidx : ∀ j : Fin n, (idx (ix2 j (0 : Fin 1))).toInt = ((col j).val : Int))

include hidx in
/-- An update index landing at `(r, col j)` is `(r, j)`, when `col` is injective. -/
theorem resultIdx_hit_iff (hinj : Function.Injective col) (y : (⟨2, ![R, n]⟩ : Shape).Idx) (r : Fin R) (j : Fin n) :
    (scatterCols R C n wf).resultIdx? y idx = some (ix2 r (col j)) ↔ y = ix2 r j := by
  obtain ⟨a, b, rfl⟩ : ∃ (a : Fin R) (b : Fin n), y = ix2 a b := ⟨y 0, y 1, eq_ix2 y⟩
  constructor
  · intro h
    rw [resultIdx_eq wf idx col hidx] at h
    have h' := Option.some.inj h
    have h0 : a = r := congrFun h' 0
    have h1 : col b = col j := congrFun h' 1
    rw [h0, hinj h1]
  · intro h
    rw [h, resultIdx_eq wf idx col hidx]

include hidx in
/-- No update index lands in a column `col` does not name. -/
theorem resultIdx_miss (y : (⟨2, ![R, n]⟩ : Shape).Idx) (r : Fin R) (c : Fin C) (hc : ∀ j, col j ≠ c) :
    (scatterCols R C n wf).resultIdx? y idx ≠ some (ix2 r c) := by
  obtain ⟨a, b, rfl⟩ : ∃ (a : Fin R) (b : Fin n), y = ix2 a b := ⟨y 0, y 1, eq_ix2 y⟩
  intro h
  rw [resultIdx_eq wf idx col hidx] at h
  exact hc b (congrFun (Option.some.inj h) 1)

variable {α : Type}

include hidx in
/-- THE SCATTER WHOSE BODY RETURNS THE UPDATE, READ AT A NAMED COLUMN: the update's element. -/
theorem scatter_apply_hit (hinj : Function.Injective col) (x : (⟨2, ![R, C]⟩ : Shape).Idx → α)
    (upd : (⟨2, ![R, n]⟩ : Shape).Idx → α) (r : Fin R) (j : Fin n) :
    Host.scatter (scatterCols R C n wf) (fun _ b => b) x idx upd (ix2 r (col j)) = upd (ix2 r j) :=
  host_scatter_hit (scatterCols R C n wf) (fun _ b => b) idx upd x (ix2 r (col j)) (ix2 r j)
    (resultIdx_eq wf idx col hidx r j) (fun y h => (resultIdx_hit_iff wf idx col hidx hinj y r j).mp h)

include hidx in
/-- … and at a column `col` does not name: the operand's element. -/
theorem scatter_apply_miss (x : (⟨2, ![R, C]⟩ : Shape).Idx → α) (upd : (⟨2, ![R, n]⟩ : Shape).Idx → α)
    (r : Fin R) (c : Fin C) (hc : ∀ j, col j ≠ c) :
    Host.scatter (scatterCols R C n wf) (fun _ b => b) x idx upd (ix2 r c) = x (ix2 r c) :=
  host_scatter_miss (scatterCols R C n wf) (fun _ b => b) idx upd x (ix2 r c)
    (fun y => resultIdx_miss wf idx col hidx y r c hc)

include hidx in
/-- THE ACCUMULATING FLOAT SCATTER READ AT A NAMED COLUMN: the operand's element plus the one update landing there. -/
theorem scatterAdd_apply_hit (hinj : Function.Injective col) (x : FVec Ideal ⟨2, ![R, C]⟩ .f32)
    (upd : FVec Ideal ⟨2, ![R, n]⟩ .f32) (r : Fin R) (j : Fin n) :
    Host.scatterAdd (F := Ideal) (scatterCols R C n wf) x idx upd (ix2 r (col j))
      = x (ix2 r (col j)) + upd (ix2 r j) := by
  show Ideal.hostScatterAdd (scatterCols R C n wf) x idx upd (ix2 r (col j)) = _
  unfold Ideal.hostScatterAdd
  have hf : Finset.univ.filter (fun y => (scatterCols R C n wf).resultIdx? y idx = some (ix2 r (col j)))
      = {ix2 r j} := by
    ext y
    rw [Finset.mem_filter, Finset.mem_singleton]
    exact ⟨fun h => (resultIdx_hit_iff wf idx col hidx hinj y r j).mp h.2,
      fun h => ⟨Finset.mem_univ _, (resultIdx_hit_iff wf idx col hidx hinj y r j).mpr h⟩⟩
  rw [hf, Finset.sum_singleton]

include hidx in
/-- … and at a column `col` does not name: the operand's element, no update landing there. -/
theorem scatterAdd_apply_miss (x : FVec Ideal ⟨2, ![R, C]⟩ .f32) (upd : FVec Ideal ⟨2, ![R, n]⟩ .f32)
    (r : Fin R) (c : Fin C) (hc : ∀ j, col j ≠ c) :
    Host.scatterAdd (F := Ideal) (scatterCols R C n wf) x idx upd (ix2 r c) = x (ix2 r c) := by
  show Ideal.hostScatterAdd (scatterCols R C n wf) x idx upd (ix2 r c) = _
  unfold Ideal.hostScatterAdd
  have hf : Finset.univ.filter (fun y => (scatterCols R C n wf).resultIdx? y idx = some (ix2 r c)) = ∅ :=
    Finset.filter_eq_empty_iff.mpr (fun y _ => resultIdx_miss wf idx col hidx y r c hc)
  rw [hf, Finset.sum_empty, add_zero]

end Apply

end Cert.Lib.ColScatter
-- ==== Proof.ColIdx.lean ====
/-
  The reference's two index vectors, and its column gathers and scatters at them.

  The reference splits the 64 columns of its arrays into the even ones and the odd ones with two index vectors of
  32 entries, `idxE` (entry `j` is `2 j`) and `idxO` (entry `j` is `2 j + 1`): each a literal table, passed through a
  select on an all-false mask and spread into a `32 × 1` column. Here: each vector read at an entry is its table's
  entry, whose signed value is the column `colE j = 2 j` (`colO j = 2 j + 1`); the printed dimension numbers are the
  column gather's and the column scatter's at the extents 16384, 64, 32; hence the gather, the scatter whose body
  returns the update and the accumulating scatter, each read at an index; and, as equalities of whole arrays,
  what gathering one parity's columns gives after a scatter into the same parity (the update, or the old columns
  plus the update) and into the other parity (the old columns). Every column is an even or an odd one, so an array
  is determined by its two gathers.
-/
import proofs.«175251_j80573586473693_2_alg».proof.ReferenceIdeal
import proofs.«175251_j80573586473693_2_alg».proof.Proof.LibColScatter
import proofs.«175251_j80573586473693_2_alg».proof.Proof.RefDefs

noncomputable section

namespace Cert.ColIdx

open Idealize.ShloMosaic Idealize.ShloMosaic.ValueIdx Cert.ReferenceIdeal Cert.Lib.ColScatter Cert.RefDefs

/-! ## Even and odd columns -/

/-- The even column `2 j` of 64, for `j` below 32. -/
def colE (j : Fin 32) : Fin 64 := ⟨2 * j.val, by omega⟩
/-- The odd column `2 j + 1` of 64, for `j` below 32. -/
def colO (j : Fin 32) : Fin 64 := ⟨2 * j.val + 1, by omega⟩
/-- Half a column number. -/
def half (c : Fin 64) : Fin 32 := ⟨c.val / 2, by omega⟩

theorem colE_injective : Function.Injective colE := fun a b h => Fin.ext (by
  have := congrArg Fin.val h; simp only [colE] at this; omega)
theorem colO_injective : Function.Injective colO := fun a b h => Fin.ext (by
  have := congrArg Fin.val h; simp only [colO] at this; omega)
theorem colE_ne_colO (j k : Fin 32) : colE j ≠ colO k := fun h => by
  have := congrArg Fin.val h; simp only [colE, colO] at this; omega
theorem colO_ne_colE (j k : Fin 32) : colO j ≠ colE k := fun h => by
  have := congrArg Fin.val h; simp only [colE, colO] at this; omega
/-- An even column number is the even column of its half … -/
theorem col_even (c : Fin 64) (h : c.val % 2 = 0) : c = colE (half c) := Fin.ext (by
  simp only [colE, half]; omega)
/-- … an odd one the odd column of its half … -/
theorem col_odd (c : Fin 64) (h : c.val % 2 = 1) : c = colO (half c) := Fin.ext (by
  simp only [colO, half]; omega)
/-- … and every column number is one or the other. -/
theorem col_cases (c : Fin 64) : c = colE (half c) ∨ c = colO (half c) := by
  rcases Nat.mod_two_eq_zero_or_one c.val with h | h
  · exact Or.inl (col_even c h)
  · exact Or.inr (col_odd c h)
@[simp] theorem half_colE (j : Fin 32) : half (colE j) = j := Fin.ext (by simp only [colE, half]; omega)
@[simp] theorem half_colO (j : Fin 32) : half (colO j) = j := Fin.ext (by simp only [colO, half]; omega)

/-- The table of even numbers below 64 holds `2 j` at `j` … -/
theorem lit0_toInt (j : Fin 32) : (lit0 j).toInt = ((colE j).val : Int) := by
  fin_cases j <;> rfl
/-- … and the table of odd numbers `2 j + 1`. -/
theorem lit1_toInt (j : Fin 32) : (lit1 j).toInt = ((colO j).val : Int) := by
  fin_cases j <;> rfl

/-! ## The index vectors read at an entry -/

section
variable [Facts]
open Facts₀ Facts

/-- A vector of length 32 spread along the rows of a `32 × 1` array, read at `(j, z)`, is the vector at `j`. -/
theorem bcast_col_apply {α : Type} (x : S32.Idx → α) (j : Fin 32) (z : Fin 1) :
    broadcastInDim S32x1 ![0] bcast_S32_S32x1_0 x (ix2 j z) = x (ix1 j) := by
  unfold broadcastInDim
  congr 1
  funext a
  match a with
  | ⟨0, h0⟩ =>
    have hne : ¬ S32.size ⟨0, h0⟩ = 1 := fun h => absurd h (show ¬ (32 : Nat) = 1 by decide)
    rw [dif_neg hne]
    rfl

/-- The row-major position of a rank-one index is its coordinate. -/
theorem rowMajor_ix1 (j : Fin 32) : S32.rowMajor (ix1 j) = j :=
  Fin.ext (Shape.rowMajor_val_one (ix1 j))

/-- The even index vector at entry `j` is the table's entry: the mask is false everywhere. -/
theorem idxE_apply (j : Fin 32) (z : Fin 1) : idxE (ix2 j z) = lit0 j := by
  unfold idxE
  rw [bcast_col_apply, select_apply]
  show Scalar.select 0#1 _ (lit0 (S32.rowMajor (ix1 j))) = _
  rw [select_zero, rowMajor_ix1]

/-- The odd index vector likewise. -/
theorem idxO_apply (j : Fin 32) (z : Fin 1) : idxO (ix2 j z) = lit1 j := by
  unfold idxO
  rw [bcast_col_apply, select_apply]
  show Scalar.select 0#1 _ (lit1 (S32.rowMajor (ix1 j))) = _
  rw [select_zero, rowMajor_ix1]

end

/-! ## The printed dimension numbers are the column gather's and the column scatter's -/

section
variable [Facts]
open Facts₀ Facts

local notation "G" => gather_S16384x64_S32x1_S16384x32_0_1_n_n_1_1_163841
local notation "SC" => scatter_S16384x64_S32x1_S16384x32_0_1_1_1

theorem gather_eq_gatherCols :
    G = gatherCols 16384 64 32 gather_S16384x64_S32x1_S16384x32_0_1_n_n_1_1_163841_wf := rfl
theorem scatter_eq_scatterCols :
    SC = scatterCols 16384 64 32 scatter_S16384x64_S32x1_S16384x32_0_1_1_1_wf := rfl

/-- The even index vector's entry `j`, read signed, is the column `2 j` … -/
theorem hidxE (j : Fin 32) : (idxE (ix2 j (0 : Fin 1))).toInt = ((colE j).val : Int) := by
  rw [idxE_apply]; exact lit0_toInt j
/-- … and the odd one's the column `2 j + 1`. -/
theorem hidxO (j : Fin 32) : (idxO (ix2 j (0 : Fin 1))).toInt = ((colO j).val : Int) := by
  rw [idxO_apply]; exact lit1_toInt j

/-! ## The three operations read at an index -/

section Pointwise
variable {α : Type}

/-- The gather at the even index vector reads column `2 j` … -/
theorem gather_idxE (z : S16384x64.Idx → α) (r : Fin 16384) (j : Fin 32) :
    Host.gather G z idxE (ix2 r j) = z (ix2 r (colE j)) :=
  gather_apply gather_S16384x64_S32x1_S16384x32_0_1_n_n_1_1_163841_wf idxE colE hidxE z r j
/-- … and at the odd one column `2 j + 1`. -/
theorem gather_idxO (z : S16384x64.Idx → α) (r : Fin 16384) (j : Fin 32) :
    Host.gather G z idxO (ix2 r j) = z (ix2 r (colO j)) :=
  gather_apply gather_S16384x64_S32x1_S16384x32_0_1_n_n_1_1_163841_wf idxO colO hidxO z r j

/-- The scatter at the even index vector, its body returning the update, read at an even column … -/
theorem scatter_idxE_hit (z : S16384x64.Idx → α) (u : S16384x32.Idx → α) (r : Fin 16384) (j : Fin 32) :
    Host.scatter SC (fun _ b => b) z idxE u (ix2 r (colE j)) = u (ix2 r j) :=
  scatter_apply_hit scatter_S16384x64_S32x1_S16384x32_0_1_1_1_wf idxE colE hidxE colE_injective z u r j
/-- … and at a column that is no even one. -/
theorem scatter_idxE_miss (z : S16384x64.Idx → α) (u : S16384x32.Idx → α) (r : Fin 16384) (c : Fin 64)
    (hc : ∀ j, colE j ≠ c) : Host.scatter SC (fun _ b => b) z idxE u (ix2 r c) = z (ix2 r c) :=
  scatter_apply_miss scatter_S16384x64_S32x1_S16384x32_0_1_1_1_wf idxE colE hidxE z u r c hc
/-- The scatter at the odd index vector read at an odd column … -/
theorem scatter_idxO_hit (z : S16384x64.Idx → α) (u : S16384x32.Idx → α) (r : Fin 16384) (j : Fin 32) :
    Host.scatter SC (fun _ b => b) z idxO u (ix2 r (colO j)) = u (ix2 r j) :=
  scatter_apply_hit scatter_S16384x64_S32x1_S16384x32_0_1_1_1_wf idxO colO hidxO colO_injective z u r j
/-- … and at a column that is no odd one. -/
theorem scatter_idxO_miss (z : S16384x64.Idx → α) (u : S16384x32.Idx → α) (r : Fin 16384) (c : Fin 64)
    (hc : ∀ j, colO j ≠ c) : Host.scatter SC (fun _ b => b) z idxO u (ix2 r c) = z (ix2 r c) :=
  scatter_apply_miss scatter_S16384x64_S32x1_S16384x32_0_1_1_1_wf idxO colO hidxO z u r c hc

end Pointwise

/-- The accumulating scatter at the even index vector read at an even column … -/
theorem scatterAdd_idxE_hit (ld : FVec Ideal S16384x64 .f32) (u : FVec Ideal S16384x32 .f32) (r : Fin 16384) (j : Fin 32) :
    Host.scatterAdd (F := Ideal) SC ld idxE u (ix2 r (colE j)) = ld (ix2 r (colE j)) + u (ix2 r j) :=
  scatterAdd_apply_hit scatter_S16384x64_S32x1_S16384x32_0_1_1_1_wf idxE colE hidxE colE_injective ld u r j
/-- … and at a column that is no even one. -/
theorem scatterAdd_idxE_miss (ld : FVec Ideal S16384x64 .f32) (u : FVec Ideal S16384x32 .f32) (r : Fin 16384) (c : Fin 64)
    (hc : ∀ j, colE j ≠ c) : Host.scatterAdd (F := Ideal) SC ld idxE u (ix2 r c) = ld (ix2 r c) :=
  scatterAdd_apply_miss scatter_S16384x64_S32x1_S16384x32_0_1_1_1_wf idxE colE hidxE ld u r c hc
/-- The accumulating scatter at the odd index vector read at an odd column … -/
theorem scatterAdd_idxO_hit (ld : FVec Ideal S16384x64 .f32) (u : FVec Ideal S16384x32 .f32) (r : Fin 16384) (j : Fin 32) :
    Host.scatterAdd (F := Ideal) SC ld idxO u (ix2 r (colO j)) = ld (ix2 r (colO j)) + u (ix2 r j) :=
  scatterAdd_apply_hit scatter_S16384x64_S32x1_S16384x32_0_1_1_1_wf idxO colO hidxO colO_injective ld u r j
/-- … and at a column that is no odd one. -/
theorem scatterAdd_idxO_miss (ld : FVec Ideal S16384x64 .f32) (u : FVec Ideal S16384x32 .f32) (r : Fin 16384) (c : Fin 64)
    (hc : ∀ j, colO j ≠ c) : Host.scatterAdd (F := Ideal) SC ld idxO u (ix2 r c) = ld (ix2 r c) :=
  scatterAdd_apply_miss scatter_S16384x64_S32x1_S16384x32_0_1_1_1_wf idxO colO hidxO ld u r c hc

/-! ## Gathering back what was scattered, as equalities of arrays -/

/-- Every index of the `16384 × 32` array is `(r, j)`. -/
theorem exists_ix2 (y : S16384x32.Idx) : ∃ (r : Fin 16384) (j : Fin 32), y = ix2 r j := ⟨y 0, y 1, eq_ix2 y⟩

section Arrays
variable {α : Type} (z : S16384x64.Idx → α) (u : S16384x32.Idx → α)

/-- The even columns of an array whose even columns were written are what was written … -/
theorem gather_scatter_EE : Host.gather G (Host.scatter SC (fun _ b => b) z idxE u) idxE = u := by
  funext y; obtain ⟨r, j, rfl⟩ := exists_ix2 y
  rw [gather_idxE, scatter_idxE_hit]
/-- … and its odd columns are the operand's. -/
theorem gather_scatter_EO :
    Host.gather G (Host.scatter SC (fun _ b => b) z idxE u) idxO = Host.gather G z idxO := by
  funext y; obtain ⟨r, j, rfl⟩ := exists_ix2 y
  rw [gather_idxO, gather_idxO, scatter_idxE_miss z u r (colO j) (fun k => colE_ne_colO k j)]
/-- The odd columns of an array whose odd columns were written are what was written … -/
theorem gather_scatter_OO : Host.gather G (Host.scatter SC (fun _ b => b) z idxO u) idxO = u := by
  funext y; obtain ⟨r, j, rfl⟩ := exists_ix2 y
  rw [gather_idxO, scatter_idxO_hit]
/-- … and its even columns are the operand's. -/
theorem gather_scatter_OE :
    Host.gather G (Host.scatter SC (fun _ b => b) z idxO u) idxE = Host.gather G z idxE := by
  funext y; obtain ⟨r, j, rfl⟩ := exists_ix2 y
  rw [gather_idxE, gather_idxE, scatter_idxO_miss z u r (colE j) (fun k => colO_ne_colE k j)]

end Arrays

section ArraysAdd
variable (ld : FVec Ideal S16384x64 .f32) (u : FVec Ideal S16384x32 .f32)

/-- The even columns after accumulating into the even columns: the operand's even columns plus the update … -/
theorem gather_scatterAdd_EE :
    Host.gather G (Host.scatterAdd (F := Ideal) SC ld idxE u) idxE = addf (Host.gather G ld idxE) u := by
  funext y; obtain ⟨r, j, rfl⟩ := exists_ix2 y
  rw [gather_idxE, scatterAdd_idxE_hit, addf_apply, gather_idxE]
/-- … and the odd columns are untouched. -/
theorem gather_scatterAdd_EO :
    Host.gather G (Host.scatterAdd (F := Ideal) SC ld idxE u) idxO = Host.gather G ld idxO := by
  funext y; obtain ⟨r, j, rfl⟩ := exists_ix2 y
  rw [gather_idxO, gather_idxO, scatterAdd_idxE_miss ld u r (colO j) (fun k => colE_ne_colO k j)]
/-- The odd columns after accumulating into the odd columns … -/
theorem gather_scatterAdd_OO :
    Host.gather G (Host.scatterAdd (F := Ideal) SC ld idxO u) idxO = addf (Host.gather G ld idxO) u := by
  funext y; obtain ⟨r, j, rfl⟩ := exists_ix2 y
  rw [gather_idxO, scatterAdd_idxO_hit, addf_apply, gather_idxO]
/-- … and the even columns are untouched. -/
theorem gather_scatterAdd_OE :
    Host.gather G (Host.scatterAdd (F := Ideal) SC ld idxO u) idxE = Host.gather G ld idxE := by
  funext y; obtain ⟨r, j, rfl⟩ := exists_ix2 y
  rw [gather_idxE, gather_idxE, scatterAdd_idxO_miss ld u r (colE j) (fun k => colO_ne_colE k j)]

end ArraysAdd

/-- An array of 64 columns is determined by its even columns and its odd columns. -/
theorem ext_of_gathers {α : Type} (a b : S16384x64.Idx → α)
    (hE : Host.gather G a idxE = Host.gather G b idxE) (hO : Host.gather G a idxO = Host.gather G b idxO) : a = b := by
  funext i
  obtain ⟨r, c, rfl⟩ : ∃ (r : Fin 16384) (c : Fin 64), i = ix2 r c := ⟨i 0, i 1, eq_ix2 i⟩
  rcases col_cases c with h | h
  · have := congrFun hE (ix2 r (half c))
    rw [gather_idxE, gather_idxE, ← h] at this
    exact this
  · have := congrFun hO (ix2 r (half c))
    rw [gather_idxO, gather_idxO, ← h] at this
    exact this

end

end Cert.ColIdx
-- ==== Proof.RefHalves.lean ====
/-
  The even and the odd columns of the reference's arrays through one coupling layer.

  `evens z` and `odds z` are the two halves of a `16384 × 64` array: its columns `0, 2, …, 62` and `1, 3, …, 63`,
  each a `16384 × 32` array. A coupling layer that transforms the even columns from the odd ones leaves the odd
  half alone and replaces the even half by `couple` of the old even half, the log-scale and the translation
  computed from the odd half; the accumulated log-scales gain the layer's log-scale in the even half and keep their
  odd half; and symmetrically for a layer that transforms the odd columns. An array is read off its two halves.
-/
import proofs.«175251_j80573586473693_2_alg».proof.Proof.RefDefs
import proofs.«175251_j80573586473693_2_alg».proof.Proof.ColIdx

noncomputable section

namespace Cert.RefHalves

open Idealize.ShloMosaic Idealize.ShloMosaic.ValueIdx Cert.ReferenceIdeal Cert.RefDefs Cert.ColIdx

variable [Facts]
open Facts₀ Facts

local notation "G" => gather_S16384x64_S32x1_S16384x32_0_1_n_n_1_1_163841
local notation "SC" => scatter_S16384x64_S32x1_S16384x32_0_1_1_1

/-- The even columns of an array … -/
def evens (z : FVec Ideal S16384x64 .f32) : FVec Ideal S16384x32 .f32 := Host.gather G z idxE
/-- … and its odd columns. -/
def odds (z : FVec Ideal S16384x64 .f32) : FVec Ideal S16384x32 .f32 := Host.gather G z idxO

/-- The even half at `(r, j)` is the array at `(r, 2 j)` … -/
theorem evens_apply (z : FVec Ideal S16384x64 .f32) (r : Fin 16384) (j : Fin 32) :
    evens z (ix2 r j) = z (ix2 r (colE j)) := gather_idxE z r j
/-- … the odd half the array at `(r, 2 j + 1)`. -/
theorem odds_apply (z : FVec Ideal S16384x64 .f32) (r : Fin 16384) (j : Fin 32) :
    odds z (ix2 r j) = z (ix2 r (colO j)) := gather_idxO z r j

/-- An array at `(r, c)` is its even half at `c / 2` when `c` is even, its odd half at `c / 2` when `c` is odd. -/
theorem apply_of_halves (z : FVec Ideal S16384x64 .f32) (r : Fin 16384) (c : Fin 64) :
    z (ix2 r c) = if c.val % 2 = 0 then evens z (ix2 r (half c)) else odds z (ix2 r (half c)) := by
  split
  · next h => rw [evens_apply, ← col_even c h]
  · next h => rw [odds_apply, ← col_odd c (by omega)]

/-! ## The array of zeros -/

/-- Both halves of the array of zeros are zero. -/
theorem evens_L0_apply (r : Fin 16384) (j : Fin 32) :
    evens (L0 (F := Ideal)) (ix2 r j) = Ideal.ofBits .f32 0x00000000#32 := by
  rw [evens_apply]; rfl
theorem odds_L0_apply (r : Fin 16384) (j : Fin 32) :
    odds (L0 (F := Ideal)) (ix2 r j) = Ideal.ofBits .f32 0x00000000#32 := by
  rw [odds_apply]; rfl

/-! ## One layer on the transformed array -/

section StepZ
variable (z : FVec Ideal S16384x64 .f32)
  (tW1 : FVec Ideal S32x512 .f32) (tb1 : FVec Ideal S512 .f32) (tW2 : FVec Ideal S512x512 .f32) (tb2 : FVec Ideal S512 .f32)
  (tW3 : FVec Ideal S512x32 .f32) (tb3 : FVec Ideal S32 .f32)
  (sW1 : FVec Ideal S32x512 .f32) (sb1 : FVec Ideal S512 .f32) (sW2 : FVec Ideal S512x512 .f32) (sb2 : FVec Ideal S512 .f32)
  (sW3 : FVec Ideal S512x32 .f32) (sb3 : FVec Ideal S32 .f32) (sc sh : FVec Ideal S32 .f32)

/-- A layer on the even columns: the new even half … -/
theorem evens_stepZ_E :
    evens (stepZ idxE idxO z tW1 tb1 tW2 tb2 tW3 tb3 sW1 sb1 sW2 sb2 sW3 sb3 sc sh)
      = couple (evens z) (logScale (odds z) sW1 sb1 sW2 sb2 sW3 sb3 sc sh) (mlp (odds z) tW1 tb1 tW2 tb2 tW3 tb3) := by
  unfold evens odds stepZ
  exact gather_scatter_EE _ _
/-- … and the odd half, untouched. -/
theorem odds_stepZ_E :
    odds (stepZ idxE idxO z tW1 tb1 tW2 tb2 tW3 tb3 sW1 sb1 sW2 sb2 sW3 sb3 sc sh) = odds z := by
  unfold odds stepZ
  exact gather_scatter_EO _ _
/-- A layer on the odd columns: the new odd half … -/
theorem odds_stepZ_O :
    odds (stepZ idxO idxE z tW1 tb1 tW2 tb2 tW3 tb3 sW1 sb1 sW2 sb2 sW3 sb3 sc sh)
      = couple (odds z) (logScale (evens z) sW1 sb1 sW2 sb2 sW3 sb3 sc sh) (mlp (evens z) tW1 tb1 tW2 tb2 tW3 tb3) := by
  unfold evens odds stepZ
  exact gather_scatter_OO _ _
/-- … and the even half, untouched. -/
theorem evens_stepZ_O :
    evens (stepZ idxO idxE z tW1 tb1 tW2 tb2 tW3 tb3 sW1 sb1 sW2 sb2 sW3 sb3 sc sh) = evens z := by
  unfold evens stepZ
  exact gather_scatter_OE _ _

end StepZ

/-! ## One layer on the accumulated log-scales -/

section StepL
variable (z ld : FVec Ideal S16384x64 .f32)
  (sW1 : FVec Ideal S32x512 .f32) (sb1 : FVec Ideal S512 .f32) (sW2 : FVec Ideal S512x512 .f32) (sb2 : FVec Ideal S512 .f32)
  (sW3 : FVec Ideal S512x32 .f32) (sb3 : FVec Ideal S32 .f32) (sc sh : FVec Ideal S32 .f32)

/-- A layer on the even columns adds its log-scale into the even half … -/
theorem evens_stepL_E :
    evens (stepL idxE idxO z ld sW1 sb1 sW2 sb2 sW3 sb3 sc sh)
      = addf (evens ld) (logScale (odds z) sW1 sb1 sW2 sb2 sW3 sb3 sc sh) := by
  unfold evens odds stepL
  exact gather_scatterAdd_EE _ _
/-- … and leaves the odd half. -/
theorem odds_stepL_E : odds (stepL idxE idxO z ld sW1 sb1 sW2 sb2 sW3 sb3 sc sh) = odds ld := by
  unfold odds stepL
  exact gather_scatterAdd_EO _ _
/-- A layer on the odd columns adds its log-scale into the odd half … -/
theorem odds_stepL_O :
    odds (stepL idxO idxE z ld sW1 sb1 sW2 sb2 sW3 sb3 sc sh)
      = addf (odds ld) (logScale (evens z) sW1 sb1 sW2 sb2 sW3 sb3 sc sh) := by
  unfold evens odds stepL
  exact gather_scatterAdd_OO _ _
/-- … and leaves the even half. -/
theorem evens_stepL_O : evens (stepL idxO idxE z ld sW1 sb1 sW2 sb2 sW3 sb3 sc sh) = evens ld := by
  unfold evens stepL
  exact gather_scatterAdd_OE _ _

end StepL

end Cert.RefHalves
-- ==== Proof.RowSteps.lean ====
/-
  The two column halves through one layer, a block of rows against the whole array.

  The reference's array `z` is carried as its even columns and its odd columns (`evens z`, `odds z`), and likewise the
  array of accumulated log-scales; the kernel carries the same four things as half-blocks of 1024 rows.  `Inv` says
  each half-block holds rows `o … o + 1023` of its half.  A layer that transforms the even columns from the odd ones
  keeps the odd half, replaces the even half by `z₀ · exp s + t` and adds `s` into the even half of the log-scales — on
  both sides — so `Inv` passes to the layer's results (`Inv.even`); the other parity is `Inv.odd`.  At the end the kernel
  stores its two halves side by side: that block is rows `o … o + 1023` of `perm z`, the array with the even columns of
  `z` in columns 0 … 31 and the odd ones in columns 32 … 63.
-/
import proofs.«175251_j80573586473693_2_alg».proof.Proof.Gen.ReferenceIdeal
import proofs.«175251_j80573586473693_2_alg».proof.Proof.Gen.KernelIdeal
import proofs.«175251_j80573586473693_2_alg».proof.Proof.CoupleRows
import proofs.«175251_j80573586473693_2_alg».proof.Proof.RefHalves

noncomputable section

namespace Cert.RowSteps

open Idealize.ShloMosaic Idealize.ShloMosaic.ValueIdx Cert.Lib.RowBlocks Cert.KernelIdeal Cert.CoupleRows Cert.RefHalves Cert.ColIdx

open Cert.KernelIdeal.Facts₀ Cert.KernelIdeal.Facts

/-- Each of the four half-blocks holds rows `o … o + 1023` of its half of the long arrays. -/
structure Inv (o : Nat) (Z L : FVec Ideal Cert.ReferenceIdeal.S16384x64 .f32) (ka kb kla klb : FVec Ideal S1024x32 .f32) : Prop where
  a : RowsOf 16384 1024 32 o (evens Z) ka
  b : RowsOf 16384 1024 32 o (odds Z) kb
  la : RowsOf 16384 1024 32 o (evens L) kla
  lb : RowsOf 16384 1024 32 o (odds L) klb

section Step

variable {o : Nat} {Z L : FVec Ideal Cert.ReferenceIdeal.S16384x64 .f32} {ka kb kla klb : FVec Ideal S1024x32 .f32}
  (TW1 : FVec Ideal Cert.ReferenceIdeal.S32x512 .f32) (tw1 : Vec Ideal S1x32x512 .bf16)
    (htw1 : ∀ i, shapeCast S32x512 tw1 shapeCasts_S1x32x512_S32x512 i = TW1 i)
  (TB1 : FVec Ideal Cert.ReferenceIdeal.S512 .f32) (tb1 : Vec Ideal S1x512 .f32)
    (htb1 : ∀ i, shapeCast S512 tb1 shapeCasts_S1x512_S512 i = TB1 i)
  (TW2 : FVec Ideal Cert.ReferenceIdeal.S512x512 .f32) (tw2 : Vec Ideal S1x512x512 .bf16)
    (htw2 : ∀ i, shapeCast S512x512 tw2 shapeCasts_S1x512x512_S512x512 i = TW2 i)
  (TB2 : FVec Ideal Cert.ReferenceIdeal.S512 .f32) (tb2 : Vec Ideal S1x512 .f32)
    (htb2 : ∀ i, shapeCast S512 tb2 shapeCasts_S1x512_S512 i = TB2 i)
  (TW3 : FVec Ideal Cert.ReferenceIdeal.S512x32 .f32) (tw3 : Vec Ideal S1x512x32 .bf16)
    (htw3 : ∀ i, shapeCast S512x32 tw3 shapeCasts_S1x512x32_S512x32 i = TW3 i)
  (TB3 : FVec Ideal Cert.ReferenceIdeal.S32 .f32) (tb3 : Vec Ideal S1x32 .f32)
    (htb3 : ∀ i, shapeCast S32 tb3 shapeCasts_S1x32_S32 i = TB3 i)
  (SW1 : FVec Ideal Cert.ReferenceIdeal.S32x512 .f32) (sw1 : Vec Ideal S1x32x512 .bf16)
    (hsw1 : ∀ i, shapeCast S32x512 sw1 shapeCasts_S1x32x512_S32x512 i = SW1 i)
  (SB1 : FVec Ideal Cert.ReferenceIdeal.S512 .f32) (sb1 : Vec Ideal S1x512 .f32)
    (hsb1 : ∀ i, shapeCast S512 sb1 shapeCasts_S1x512_S512 i = SB1 i)
  (SW2 : FVec Ideal Cert.ReferenceIdeal.S512x512 .f32) (sw2 : Vec Ideal S1x512x512 .bf16)
    (hsw2 : ∀ i, shapeCast S512x512 sw2 shapeCasts_S1x512x512_S512x512 i = SW2 i)
  (SB2 : FVec Ideal Cert.ReferenceIdeal.S512 .f32) (sb2 : Vec Ideal S1x512 .f32)
    (hsb2 : ∀ i, shapeCast S512 sb2 shapeCasts_S1x512_S512 i = SB2 i)
  (SW3 : FVec Ideal Cert.ReferenceIdeal.S512x32 .f32) (sw3 : Vec Ideal S1x512x32 .bf16)
    (hsw3 : ∀ i, shapeCast S512x32 sw3 shapeCasts_S1x512x32_S512x32 i = SW3 i)
  (SB3 : FVec Ideal Cert.ReferenceIdeal.S32 .f32) (sb3 : Vec Ideal S1x32 .f32)
    (hsb3 : ∀ i, shapeCast S32 sb3 shapeCasts_S1x32_S32 i = SB3 i)
  (SC : FVec Ideal Cert.ReferenceIdeal.S32 .f32) (sc : Vec Ideal S1x32 .f32)
    (hsc : ∀ i, shapeCast S32 sc shapeCasts_S1x32_S32 i = SC i)
  (SH : FVec Ideal Cert.ReferenceIdeal.S32 .f32) (sh : Vec Ideal S1x32 .f32)
    (hsh : ∀ i, shapeCast S32 sh shapeCasts_S1x32_S32 i = SH i)

include htw1 htb1 htw2 htb2 htw3 htb3 hsw1 hsb1 hsw2 hsb2 hsw3 hsb3 hsc hsh in
/-- A layer that transforms the even columns from the odd ones. -/
theorem Inv.even (h : Inv o Z L ka kb kla klb) :
    Inv o (Cert.RefDefs.stepZ Cert.RefDefs.idxE Cert.RefDefs.idxO Z TW1 TB1 TW2 TB2 TW3 TB3 SW1 SB1 SW2 SB2 SW3 SB3 SC SH)
      (Cert.RefDefs.stepL Cert.RefDefs.idxE Cert.RefDefs.idxO Z L SW1 SB1 SW2 SB2 SW3 SB3 SC SH)
      (kN ka (kT (truncf .bf16 kb bitsLt_bf16_f32) tw1 tb1 tw2 tb2 tw3 tb3)
        (kM (truncf .bf16 kb bitsLt_bf16_f32) sw1 sb1 sw2 sb2 sw3 sb3 sc) sh)
      kb
      (kLd kla (kM (truncf .bf16 kb bitsLt_bf16_f32) sw1 sb1 sw2 sb2 sw3 sb3 sc) sh)
      klb := by
  have hc : RowsOf 16384 1024 32 o (odds Z) (truncf .bf16 kb bitsLt_bf16_f32) := RowsOf.truncf _ h.b
  have hS := rows_logScale hc SW1 sw1 hsw1 SB1 sb1 hsb1 SW2 sw2 hsw2 SB2 sb2 hsb2 SW3 sw3 hsw3 SB3 sb3 hsb3 SC sc hsc SH sh hsh
  have hT := rows_mlp hc TW1 tw1 htw1 TB1 tb1 htb1 TW2 tw2 htw2 TB2 tb2 htb2 TW3 tw3 htw3 TB3 tb3 htb3
  refine ⟨?_, ?_, ?_, ?_⟩
  · rw [evens_stepZ_E]; exact rows_couple h.a hS hT
  · rw [odds_stepZ_E]; exact h.b
  · rw [evens_stepL_E]; exact rows_ld h.la hS
  · rw [odds_stepL_E]; exact h.lb

include htw1 htb1 htw2 htb2 htw3 htb3 hsw1 hsb1 hsw2 hsb2 hsw3 hsb3 hsc hsh in
/-- A layer that transforms the odd columns from the even ones. -/
theorem Inv.odd (h : Inv o Z L ka kb kla klb) :
    Inv o (Cert.RefDefs.stepZ Cert.RefDefs.idxO Cert.RefDefs.idxE Z TW1 TB1 TW2 TB2 TW3 TB3 SW1 SB1 SW2 SB2 SW3 SB3 SC SH)
      (Cert.RefDefs.stepL Cert.RefDefs.idxO Cert.RefDefs.idxE Z L SW1 SB1 SW2 SB2 SW3 SB3 SC SH)
      ka
      (kN kb (kT (truncf .bf16 ka bitsLt_bf16_f32) tw1 tb1 tw2 tb2 tw3 tb3)
        (kM (truncf .bf16 ka bitsLt_bf16_f32) sw1 sb1 sw2 sb2 sw3 sb3 sc) sh)
      kla
      (kLd klb (kM (truncf .bf16 ka bitsLt_bf16_f32) sw1 sb1 sw2 sb2 sw3 sb3 sc) sh) := by
  have hc : RowsOf 16384 1024 32 o (evens Z) (truncf .bf16 ka bitsLt_bf16_f32) := RowsOf.truncf _ h.a
  have hS := rows_logScale hc SW1 sw1 hsw1 SB1 sb1 hsb1 SW2 sw2 hsw2 SB2 sb2 hsb2 SW3 sw3 hsw3 SB3 sb3 hsb3 SC sc hsc SH sh hsh
  have hT := rows_mlp hc TW1 tw1 htw1 TB1 tb1 htb1 TW2 tw2 htw2 TB2 tb2 htb2 TW3 tw3 htw3 TB3 tb3 htb3
  refine ⟨?_, ?_, ?_, ?_⟩
  · rw [evens_stepZ_O]; exact h.a
  · rw [odds_stepZ_O]; exact rows_couple h.b hS hT
  · rw [evens_stepL_O]; exact h.la
  · rw [odds_stepL_O]; exact rows_ld h.lb hS

end Step

/-! ## The two halves side by side -/

/-- The even columns of `z` in columns 0 … 31, the odd ones in columns 32 … 63. -/
def perm (z : FVec Ideal Cert.ReferenceIdeal.S16384x64 .f32) : FVec Ideal Cert.ReferenceIdeal.S16384x64 .f32 := fun i =>
  if h : (i 1).val < 32 then evens z (ix2 ⟨(i 0).val, (i 0).isLt⟩ ⟨(i 1).val, h⟩)
  else odds z (ix2 ⟨(i 0).val, (i 0).isLt⟩ ⟨(i 1).val - 32, by have h64 : (i 1).val < 64 := (i 1).isLt; omega⟩)

theorem perm_left (z : FVec Ideal Cert.ReferenceIdeal.S16384x64 .f32) (r : Fin 16384) (q : Fin 64) (hq : q.val < 32) :
    perm z (ix2 r q) = evens z (ix2 r ⟨q.val, hq⟩) := by
  unfold perm
  rw [dif_pos (show ((ix2 r q : Cert.ReferenceIdeal.S16384x64.Idx) 1).val < 32 from hq)]

theorem perm_right (z : FVec Ideal Cert.ReferenceIdeal.S16384x64 .f32) (r : Fin 16384) (q : Fin 64) (hq : ¬ q.val < 32) :
    perm z (ix2 r q) = odds z (ix2 r ⟨q.val - 32, by have := q.isLt; omega⟩) := by
  unfold perm
  rw [dif_neg (show ¬ ((ix2 r q : Cert.ReferenceIdeal.S16384x64.Idx) 1).val < 32 from hq)]

/-- Two half-blocks stored side by side are rows `o … o + 1023` of `perm z`. -/
theorem sides_apply {o : Nat} {Z : FVec Ideal Cert.ReferenceIdeal.S16384x64 .f32} {ka kb : FVec Ideal S1024x32 .f32}
    (hA : RowsOf 16384 1024 32 o (evens Z) ka) (hB : RowsOf 16384 1024 32 o (odds Z) kb)
    (p : Fin 1024) (q : Fin 64) (h : o + p.val < 16384) :
    concatenate S1024x64 1 [⟨S1024x32, ka⟩, ⟨S1024x32, kb⟩] concatenates_S1024x32_S1024x32_S1024x64_d1 (ix2 p q)
      = perm Z (ix2 ⟨o + p.val, h⟩ q) := by
  by_cases hq : q.val < 32
  · rw [concatenate_pair_apply_left (1 : Fin 2) ka kb _ (ix2 p q) rfl (ix2 p ⟨q.val, hq⟩)
      (fun b => by match b with | ⟨0, _⟩ => rfl | ⟨1, _⟩ => rfl), perm_left _ _ _ hq]
    exact hA p ⟨q.val, hq⟩ h
  · have hq' : q.val - 32 < 32 := by have := q.isLt; omega
    rw [concatenate_pair_apply_right (1 : Fin 2) ka kb _ (ix2 p q) rfl rfl (ix2 p ⟨q.val - 32, hq'⟩)
      (fun b hb => by
        match b with
        | ⟨0, _⟩ => rfl
        | ⟨1, _⟩ => exact absurd rfl hb)
      (by show q.val - 32 + 32 = q.val; omega), perm_right _ _ _ hq]
    exact hB p ⟨q.val - 32, hq'⟩ h

end Cert.RowSteps

end
-- ==== Proof.BlockRows.lean ====
/-
  The kernel's two stored blocks are rows of the reference's final arrays.

  Given that the input block holds rows `o … o + 1023` of the input with its even columns first and its odd columns
  behind, and that the fourteen parameter arrays are the reference's entry by entry, the four half-blocks hold the same
  rows of the four halves of the reference's arrays after each layer (`inv0` … `inv8`: the base case, then `Inv.even` /
  `Inv.odd` with layer `l`'s slabs), and so the two stored blocks are those rows of `perm` of the reference's two results.
-/
import proofs.«175251_j80573586473693_2_alg».proof.Proof.KBlocks
import proofs.«175251_j80573586473693_2_alg».proof.Proof.WeightEq
import proofs.«175251_j80573586473693_2_alg».proof.Proof.RowSteps

noncomputable section

namespace Cert.BlockRows

open Idealize.ShloMosaic Idealize.ShloMosaic.ValueIdx Cert.Lib.RowBlocks Cert.Lib.RowOps Cert.KernelIdeal Cert.KernelIdeal.Gen
  Cert.KernelIdeal.GenP Cert.CoupleRows Cert.RefHalves Cert.ColIdx Cert.KBlocks Cert.RowSteps Cert.WeightEq

open Cert.KernelIdeal.Facts₀ Cert.KernelIdeal.Facts

/-- What is assumed of the fifteen input blocks at row offset `o`: the first holds rows `o … o + 1023` of `Y`, even columns in
    columns 0 … 31 and odd columns in columns 32 … 63; the others are the reference's parameter arrays, entry by entry. -/
structure Inputs (o : Nat) (x0 : Vec Ideal S1024x64 .f32) (x1 : Vec Ideal S8x32x512 .bf16) (x2 : Vec Ideal S8x512 .f32) (x3 : Vec Ideal S8x512x512 .bf16)
    (x4 : Vec Ideal S8x512 .f32) (x5 : Vec Ideal S8x512x32 .bf16) (x6 : Vec Ideal S8x32 .f32) (x7 : Vec Ideal S8x32x512 .bf16)
    (x8 : Vec Ideal S8x512 .f32) (x9 : Vec Ideal S8x512x512 .bf16) (x10 : Vec Ideal S8x512 .f32) (x11 : Vec Ideal S8x512x32 .bf16)
    (x12 : Vec Ideal S8x32 .f32) (x13 : Vec Ideal S8x32 .f32) (x14 : Vec Ideal S8x32 .f32)
    (Y : FVec Ideal Cert.ReferenceIdeal.S16384x64 .f32)
    (TW1 : FVec Ideal Cert.ReferenceIdeal.S8x32x512 .f32) (TB1 : FVec Ideal Cert.ReferenceIdeal.S8x512 .f32) (TW2 : FVec Ideal Cert.ReferenceIdeal.S8x512x512 .f32)
    (TB2 : FVec Ideal Cert.ReferenceIdeal.S8x512 .f32) (TW3 : FVec Ideal Cert.ReferenceIdeal.S8x512x32 .f32) (TB3 : FVec Ideal Cert.ReferenceIdeal.S8x32 .f32)
    (SW1 : FVec Ideal Cert.ReferenceIdeal.S8x32x512 .f32) (SB1 : FVec Ideal Cert.ReferenceIdeal.S8x512 .f32) (SW2 : FVec Ideal Cert.ReferenceIdeal.S8x512x512 .f32)
    (SB2 : FVec Ideal Cert.ReferenceIdeal.S8x512 .f32) (SW3 : FVec Ideal Cert.ReferenceIdeal.S8x512x32 .f32) (SB3 : FVec Ideal Cert.ReferenceIdeal.S8x32 .f32)
    (SSC : FVec Ideal Cert.ReferenceIdeal.S8x32 .f32) (SSH : FVec Ideal Cert.ReferenceIdeal.S8x32 .f32) : Prop where
  hE : ∀ (p : Fin 1024) (q : Fin 32) (h : o + p.val < 16384) (hq : 0 + q.val < 64),
    x0 (ix2 p ⟨0 + q.val, hq⟩) = Y (ix2 ⟨o + p.val, h⟩ (colE q))
  hO : ∀ (p : Fin 1024) (q : Fin 32) (h : o + p.val < 16384) (hq : 32 + q.val < 64),
    x0 (ix2 p ⟨32 + q.val, hq⟩) = Y (ix2 ⟨o + p.val, h⟩ (colO q))
  h1 : ∀ i, x1 i = TW1 i
  h2 : ∀ i, x2 i = TB1 i
  h3 : ∀ i, x3 i = TW2 i
  h4 : ∀ i, x4 i = TB2 i
  h5 : ∀ i, x5 i = TW3 i
  h6 : ∀ i, x6 i = TB3 i
  h7 : ∀ i, x7 i = SW1 i
  h8 : ∀ i, x8 i = SB1 i
  h9 : ∀ i, x9 i = SW2 i
  h10 : ∀ i, x10 i = SB2 i
  h11 : ∀ i, x11 i = SW3 i
  h12 : ∀ i, x12 i = SB3 i
  h13 : ∀ i, x13 i = SSC i
  h14 : ∀ i, x14 i = SSH i

section Chain

variable {o : Nat} {x0 : Vec Ideal S1024x64 .f32} {x1 : Vec Ideal S8x32x512 .bf16} {x2 : Vec Ideal S8x512 .f32} {x3 : Vec Ideal S8x512x512 .bf16}
    {x4 : Vec Ideal S8x512 .f32} {x5 : Vec Ideal S8x512x32 .bf16} {x6 : Vec Ideal S8x32 .f32} {x7 : Vec Ideal S8x32x512 .bf16}
    {x8 : Vec Ideal S8x512 .f32} {x9 : Vec Ideal S8x512x512 .bf16} {x10 : Vec Ideal S8x512 .f32} {x11 : Vec Ideal S8x512x32 .bf16}
    {x12 : Vec Ideal S8x32 .f32} {x13 : Vec Ideal S8x32 .f32} {x14 : Vec Ideal S8x32 .f32}
    {Y : FVec Ideal Cert.ReferenceIdeal.S16384x64 .f32}
    {TW1 : FVec Ideal Cert.ReferenceIdeal.S8x32x512 .f32} {TB1 : FVec Ideal Cert.ReferenceIdeal.S8x512 .f32} {TW2 : FVec Ideal Cert.ReferenceIdeal.S8x512x512 .f32}
    {TB2 : FVec Ideal Cert.ReferenceIdeal.S8x512 .f32} {TW3 : FVec Ideal Cert.ReferenceIdeal.S8x512x32 .f32} {TB3 : FVec Ideal Cert.ReferenceIdeal.S8x32 .f32}
    {SW1 : FVec Ideal Cert.ReferenceIdeal.S8x32x512 .f32} {SB1 : FVec Ideal Cert.ReferenceIdeal.S8x512 .f32} {SW2 : FVec Ideal Cert.ReferenceIdeal.S8x512x512 .f32}
    {SB2 : FVec Ideal Cert.ReferenceIdeal.S8x512 .f32} {SW3 : FVec Ideal Cert.ReferenceIdeal.S8x512x32 .f32} {SB3 : FVec Ideal Cert.ReferenceIdeal.S8x32 .f32}
    {SSC : FVec Ideal Cert.ReferenceIdeal.S8x32 .f32} {SSH : FVec Ideal Cert.ReferenceIdeal.S8x32 .f32}

/-- The rectangle of a whole 1024 × 64 block has zero offsets. -/
theorem zero_offsets : (![0, 0] : Fin 2 → Nat) = fun _ => 0 := by
  funext a
  match a with
  | ⟨0, _⟩ => rfl
  | ⟨1, _⟩ => rfl

/-- Before the first layer: the two halves of the loaded block, and zeros. -/
theorem inv0 (hin : Inputs o x0 x1 x2 x3 x4 x5 x6 x7 x8 x9 x10 x11 x12 x13 x14 Y TW1 TB1 TW2 TB2 TW3 TB3 SW1 SB1 SW2 SB2 SW3 SB3 SSC SSH) :
    Inv o (Cert.RefDefs.Z0 Y) (Cert.RefDefs.L0 (F := Ideal)) (za0 x0 x1 x2 x3 x4 x5 x6 x7 x8 x9 x10 x11 x12 x13 x14) (zb0 x0 x1 x2 x3 x4 x5 x6 x7 x8 x9 x10 x11 x12 x13 x14) (la0 x0 x1 x2 x3 x4 x5 x6 x7 x8 x9 x10 x11 x12 x13 x14) (lb0 x0 x1 x2 x3 x4 x5 x6 x7 x8 x9 x10 x11 x12 x13 x14) := by
  have e : (k0_pay4 (View.ld x0 r0_0) : FVec Ideal S1024x64 .f32) = x0 :=
    (shapeCast_self _ _).trans (View.ld_unit_zero zero_offsets _ x0)
  refine ⟨?_, ?_, ?_, ?_⟩
  · intro y k h
    refine (sliceCols_apply 1024 64 32 0 (k0_pay4 (View.ld x0 r0_0)) Facts₀.slices_S1024x64_o0_0_S1024x32 y k
      (by have := k.isLt; omega)).trans ?_
    rw [e, evens_apply]
    exact hin.hE y k h _
  · intro y k h
    refine (sliceCols_apply 1024 64 32 32 (k0_pay4 (View.ld x0 r0_0)) Facts₀.slices_S1024x64_o0_32_S1024x32 y k
      (by have := k.isLt; omega)).trans ?_
    rw [e, odds_apply]
    exact hin.hO y k h _
  · intro y k h
    rw [evens_L0_apply]
    rfl
  · intro y k h
    rw [odds_L0_apply]
    rfl

/-- The odd half and its log-scales after the last layer (the kernel computes them inside its two stores). -/
def b8 (x0 : Vec Ideal S1024x64 .f32) (x1 : Vec Ideal S8x32x512 .bf16) (x2 : Vec Ideal S8x512 .f32) (x3 : Vec Ideal S8x512x512 .bf16)
    (x4 : Vec Ideal S8x512 .f32) (x5 : Vec Ideal S8x512x32 .bf16) (x6 : Vec Ideal S8x32 .f32) (x7 : Vec Ideal S8x32x512 .bf16)
    (x8 : Vec Ideal S8x512 .f32) (x9 : Vec Ideal S8x512x512 .bf16) (x10 : Vec Ideal S8x512 .f32) (x11 : Vec Ideal S8x512x32 .bf16)
    (x12 : Vec Ideal S8x32 .f32) (x13 : Vec Ideal S8x32 .f32) (x14 : Vec Ideal S8x32 .f32) : FVec Ideal S1024x32 .f32 := kN (b6 x0 x1 x2 x3 x4 x5 x6 x7 x8 x9 x10 x11 x12 x13 x14) (t7 x0 x1 x2 x3 x4 x5 x6 x7 x8 x9 x10 x11 x12 x13 x14) (m7 x0 x1 x2 x3 x4 x5 x6 x7 x8 x9 x10 x11 x12 x13 x14) (sh7 x0 x1 x2 x3 x4 x5 x6 x7 x8 x9 x10 x11 x12 x13 x14)
def lb8 (x0 : Vec Ideal S1024x64 .f32) (x1 : Vec Ideal S8x32x512 .bf16) (x2 : Vec Ideal S8x512 .f32) (x3 : Vec Ideal S8x512x512 .bf16)
    (x4 : Vec Ideal S8x512 .f32) (x5 : Vec Ideal S8x512x32 .bf16) (x6 : Vec Ideal S8x32 .f32) (x7 : Vec Ideal S8x32x512 .bf16)
    (x8 : Vec Ideal S8x512 .f32) (x9 : Vec Ideal S8x512x512 .bf16) (x10 : Vec Ideal S8x512 .f32) (x11 : Vec Ideal S8x512x32 .bf16)
    (x12 : Vec Ideal S8x32 .f32) (x13 : Vec Ideal S8x32 .f32) (x14 : Vec Ideal S8x32 .f32) : FVec Ideal S1024x32 .f32 := kLd (lb6 x0 x1 x2 x3 x4 x5 x6 x7 x8 x9 x10 x11 x12 x13 x14) (m7 x0 x1 x2 x3 x4 x5 x6 x7 x8 x9 x10 x11 x12 x13 x14) (sh7 x0 x1 x2 x3 x4 x5 x6 x7 x8 x9 x10 x11 x12 x13 x14)

/-- After layer 0. -/
theorem inv1 (hin : Inputs o x0 x1 x2 x3 x4 x5 x6 x7 x8 x9 x10 x11 x12 x13 x14 Y TW1 TB1 TW2 TB2 TW3 TB3 SW1 SB1 SW2 SB2 SW3 SB3 SSC SSH) :
    Inv o (Cert.RefDefs.Z1 Y TW1 TB1 TW2 TB2 TW3 TB3 SW1 SB1 SW2 SB2 SW3 SB3 SSC SSH) (Cert.RefDefs.L1 Y TW1 TB1 TW2 TB2 TW3 TB3 SW1 SB1 SW2 SB2 SW3 SB3 SSC SSH)
      (a1 x0 x1 x2 x3 x4 x5 x6 x7 x8 x9 x10 x11 x12 x13 x14) (zb0 x0 x1 x2 x3 x4 x5 x6 x7 x8 x9 x10 x11 x12 x13 x14) (la1 x0 x1 x2 x3 x4 x5 x6 x7 x8 x9 x10 x11 x12 x13 x14) (lb0 x0 x1 x2 x3 x4 x5 x6 x7 x8 x9 x10 x11 x12 x13 x14) :=
  (inv0 hin).even
    (Cert.RefDefs.w32x512 ![0, 0, 0] Cert.ReferenceIdeal.Facts₀.slices_S8x32x512_S1x32x512_0_0_0 TW1) (View.ld x1 r0_1) (w32x512_eq x1 TW1 hin.h1 ![0, 0, 0] _ _)
    (Cert.RefDefs.v512 ![0, 0] Cert.ReferenceIdeal.Facts₀.slices_S8x512_S1x512_0_0 TB1) (View.ld x2 r0_2) (v512_eq x2 TB1 hin.h2 ![0, 0] _ _)
    (Cert.RefDefs.w512x512 ![0, 0, 0] Cert.ReferenceIdeal.Facts₀.slices_S8x512x512_S1x512x512_0_0_0 TW2) (View.ld x3 r0_3) (w512x512_eq x3 TW2 hin.h3 ![0, 0, 0] _ _)
    (Cert.RefDefs.v512 ![0, 0] Cert.ReferenceIdeal.Facts₀.slices_S8x512_S1x512_0_0 TB2) (View.ld x4 r0_2) (v512_eq x4 TB2 hin.h4 ![0, 0] _ _)
    (Cert.RefDefs.w512x32 ![0, 0, 0] Cert.ReferenceIdeal.Facts₀.slices_S8x512x32_S1x512x32_0_0_0 TW3) (View.ld x5 r0_4) (w512x32_eq x5 TW3 hin.h5 ![0, 0, 0] _ _)
    (Cert.RefDefs.v32 ![0, 0] Cert.ReferenceIdeal.Facts₀.slices_S8x32_S1x32_0_0 TB3) (View.ld x6 r0_5) (v32_eq x6 TB3 hin.h6 ![0, 0] _ _)
    (Cert.RefDefs.w32x512 ![0, 0, 0] Cert.ReferenceIdeal.Facts₀.slices_S8x32x512_S1x32x512_0_0_0 SW1) (View.ld x7 r0_1) (w32x512_eq x7 SW1 hin.h7 ![0, 0, 0] _ _)
    (Cert.RefDefs.v512 ![0, 0] Cert.ReferenceIdeal.Facts₀.slices_S8x512_S1x512_0_0 SB1) (View.ld x8 r0_2) (v512_eq x8 SB1 hin.h8 ![0, 0] _ _)
    (Cert.RefDefs.w512x512 ![0, 0, 0] Cert.ReferenceIdeal.Facts₀.slices_S8x512x512_S1x512x512_0_0_0 SW2) (View.ld x9 r0_3) (w512x512_eq x9 SW2 hin.h9 ![0, 0, 0] _ _)
    (Cert.RefDefs.v512 ![0, 0] Cert.ReferenceIdeal.Facts₀.slices_S8x512_S1x512_0_0 SB2) (View.ld x10 r0_2) (v512_eq x10 SB2 hin.h10 ![0, 0] _ _)
    (Cert.RefDefs.w512x32 ![0, 0, 0] Cert.ReferenceIdeal.Facts₀.slices_S8x512x32_S1x512x32_0_0_0 SW3) (View.ld x11 r0_4) (w512x32_eq x11 SW3 hin.h11 ![0, 0, 0] _ _)
    (Cert.RefDefs.v32 ![0, 0] Cert.ReferenceIdeal.Facts₀.slices_S8x32_S1x32_0_0 SB3) (View.ld x12 r0_5) (v32_eq x12 SB3 hin.h12 ![0, 0] _ _)
    (Cert.RefDefs.v32 ![0, 0] Cert.ReferenceIdeal.Facts₀.slices_S8x32_S1x32_0_0 SSC) (View.ld x13 r0_5) (v32_eq x13 SSC hin.h13 ![0, 0] _ _)
    (Cert.RefDefs.v32 ![0, 0] Cert.ReferenceIdeal.Facts₀.slices_S8x32_S1x32_0_0 SSH) (View.ld x14 r0_5) (v32_eq x14 SSH hin.h14 ![0, 0] _ _)

/-- After layer 1. -/
theorem inv2 (hin : Inputs o x0 x1 x2 x3 x4 x5 x6 x7 x8 x9 x10 x11 x12 x13 x14 Y TW1 TB1 TW2 TB2 TW3 TB3 SW1 SB1 SW2 SB2 SW3 SB3 SSC SSH) :
    Inv o (Cert.RefDefs.Z2 Y TW1 TB1 TW2 TB2 TW3 TB3 SW1 SB1 SW2 SB2 SW3 SB3 SSC SSH) (Cert.RefDefs.L2 Y TW1 TB1 TW2 TB2 TW3 TB3 SW1 SB1 SW2 SB2 SW3 SB3 SSC SSH)
      (a1 x0 x1 x2 x3 x4 x5 x6 x7 x8 x9 x10 x11 x12 x13 x14) (b2 x0 x1 x2 x3 x4 x5 x6 x7 x8 x9 x10 x11 x12 x13 x14) (la1 x0 x1 x2 x3 x4 x5 x6 x7 x8 x9 x10 x11 x12 x13 x14) (lb2 x0 x1 x2 x3 x4 x5 x6 x7 x8 x9 x10 x11 x12 x13 x14) :=
  (inv1 hin).odd
    (Cert.RefDefs.w32x512 ![1, 0, 0] Cert.ReferenceIdeal.Facts₀.slices_S8x32x512_S1x32x512_1_0_0 TW1) (View.ld x1 r0_6) (w32x512_eq x1 TW1 hin.h1 ![1, 0, 0] _ _)
    (Cert.RefDefs.v512 ![1, 0] Cert.ReferenceIdeal.Facts₀.slices_S8x512_S1x512_1_0 TB1) (View.ld x2 r0_7) (v512_eq x2 TB1 hin.h2 ![1, 0] _ _)
    (Cert.RefDefs.w512x512 ![1, 0, 0] Cert.ReferenceIdeal.Facts₀.slices_S8x512x512_S1x512x512_1_0_0 TW2) (View.ld x3 r0_8) (w512x512_eq x3 TW2 hin.h3 ![1, 0, 0] _ _)
    (Cert.RefDefs.v512 ![1, 0] Cert.ReferenceIdeal.Facts₀.slices_S8x512_S1x512_1_0 TB2) (View.ld x4 r0_7) (v512_eq x4 TB2 hin.h4 ![1, 0] _ _)
    (Cert.RefDefs.w512x32 ![1, 0, 0] Cert.ReferenceIdeal.Facts₀.slices_S8x512x32_S1x512x32_1_0_0 TW3) (View.ld x5 r0_9) (w512x32_eq x5 TW3 hin.h5 ![1, 0, 0] _ _)
    (Cert.RefDefs.v32 ![1, 0] Cert.ReferenceIdeal.Facts₀.slices_S8x32_S1x32_1_0 TB3) (View.ld x6 r0_10) (v32_eq x6 TB3 hin.h6 ![1, 0] _ _)
    (Cert.RefDefs.w32x512 ![1, 0, 0] Cert.ReferenceIdeal.Facts₀.slices_S8x32x512_S1x32x512_1_0_0 SW1) (View.ld x7 r0_6) (w32x512_eq x7 SW1 hin.h7 ![1, 0, 0] _ _)
    (Cert.RefDefs.v512 ![1, 0] Cert.ReferenceIdeal.Facts₀.slices_S8x512_S1x512_1_0 SB1) (View.ld x8 r0_7) (v512_eq x8 SB1 hin.h8 ![1, 0] _ _)
    (Cert.RefDefs.w512x512 ![1, 0, 0] Cert.ReferenceIdeal.Facts₀.slices_S8x512x512_S1x512x512_1_0_0 SW2) (View.ld x9 r0_8) (w512x512_eq x9 SW2 hin.h9 ![1, 0, 0] _ _)
    (Cert.RefDefs.v512 ![1, 0] Cert.ReferenceIdeal.Facts₀.slices_S8x512_S1x512_1_0 SB2) (View.ld x10 r0_7) (v512_eq x10 SB2 hin.h10 ![1, 0] _ _)
    (Cert.RefDefs.w512x32 ![1, 0, 0] Cert.ReferenceIdeal.Facts₀.slices_S8x512x32_S1x512x32_1_0_0 SW3) (View.ld x11 r0_9) (w512x32_eq x11 SW3 hin.h11 ![1, 0, 0] _ _)
    (Cert.RefDefs.v32 ![1, 0] Cert.ReferenceIdeal.Facts₀.slices_S8x32_S1x32_1_0 SB3) (View.ld x12 r0_10) (v32_eq x12 SB3 hin.h12 ![1, 0] _ _)
    (Cert.RefDefs.v32 ![1, 0] Cert.ReferenceIdeal.Facts₀.slices_S8x32_S1x32_1_0 SSC) (View.ld x13 r0_10) (v32_eq x13 SSC hin.h13 ![1, 0] _ _)
    (Cert.RefDefs.v32 ![1, 0] Cert.ReferenceIdeal.Facts₀.slices_S8x32_S1x32_1_0 SSH) (View.ld x14 r0_10) (v32_eq x14 SSH hin.h14 ![1, 0] _ _)

/-- After layer 2. -/
theorem inv3 (hin : Inputs o x0 x1 x2 x3 x4 x5 x6 x7 x8 x9 x10 x11 x12 x13 x14 Y TW1 TB1 TW2 TB2 TW3 TB3 SW1 SB1 SW2 SB2 SW3 SB3 SSC SSH) :
    Inv o (Cert.RefDefs.Z3 Y TW1 TB1 TW2 TB2 TW3 TB3 SW1 SB1 SW2 SB2 SW3 SB3 SSC SSH) (Cert.RefDefs.L3 Y TW1 TB1 TW2 TB2 TW3 TB3 SW1 SB1 SW2 SB2 SW3 SB3 SSC SSH)
      (a3 x0 x1 x2 x3 x4 x5 x6 x7 x8 x9 x10 x11 x12 x13 x14) (b2 x0 x1 x2 x3 x4 x5 x6 x7 x8 x9 x10 x11 x12 x13 x14) (la3 x0 x1 x2 x3 x4 x5 x6 x7 x8 x9 x10 x11 x12 x13 x14) (lb2 x0 x1 x2 x3 x4 x5 x6 x7 x8 x9 x10 x11 x12 x13 x14) :=
  (inv2 hin).even
    (Cert.RefDefs.w32x512 ![2, 0, 0] Cert.ReferenceIdeal.Facts₀.slices_S8x32x512_S1x32x512_2_0_0 TW1) (View.ld x1 r0_11) (w32x512_eq x1 TW1 hin.h1 ![2, 0, 0] _ _)
    (Cert.RefDefs.v512 ![2, 0] Cert.ReferenceIdeal.Facts₀.slices_S8x512_S1x512_2_0 TB1) (View.ld x2 r0_12) (v512_eq x2 TB1 hin.h2 ![2, 0] _ _)
    (Cert.RefDefs.w512x512 ![2, 0, 0] Cert.ReferenceIdeal.Facts₀.slices_S8x512x512_S1x512x512_2_0_0 TW2) (View.ld x3 r0_13) (w512x512_eq x3 TW2 hin.h3 ![2, 0, 0] _ _)
    (Cert.RefDefs.v512 ![2, 0] Cert.ReferenceIdeal.Facts₀.slices_S8x512_S1x512_2_0 TB2) (View.ld x4 r0_12) (v512_eq x4 TB2 hin.h4 ![2, 0] _ _)
    (Cert.RefDefs.w512x32 ![2, 0, 0] Cert.ReferenceIdeal.Facts₀.slices_S8x512x32_S1x512x32_2_0_0 TW3) (View.ld x5 r0_14) (w512x32_eq x5 TW3 hin.h5 ![2, 0, 0] _ _)
    (Cert.RefDefs.v32 ![2, 0] Cert.ReferenceIdeal.Facts₀.slices_S8x32_S1x32_2_0 TB3) (View.ld x6 r0_15) (v32_eq x6 TB3 hin.h6 ![2, 0] _ _)
    (Cert.RefDefs.w32x512 ![2, 0, 0] Cert.ReferenceIdeal.Facts₀.slices_S8x32x512_S1x32x512_2_0_0 SW1) (View.ld x7 r0_11) (w32x512_eq x7 SW1 hin.h7 ![2, 0, 0] _ _)
    (Cert.RefDefs.v512 ![2, 0] Cert.ReferenceIdeal.Facts₀.slices_S8x512_S1x512_2_0 SB1) (View.ld x8 r0_12) (v512_eq x8 SB1 hin.h8 ![2, 0] _ _)
    (Cert.RefDefs.w512x512 ![2, 0, 0] Cert.ReferenceIdeal.Facts₀.slices_S8x512x512_S1x512x512_2_0_0 SW2) (View.ld x9 r0_13) (w512x512_eq x9 SW2 hin.h9 ![2, 0, 0] _ _)
    (Cert.RefDefs.v512 ![2, 0] Cert.ReferenceIdeal.Facts₀.slices_S8x512_S1x512_2_0 SB2) (View.ld x10 r0_12) (v512_eq x10 SB2 hin.h10 ![2, 0] _ _)
    (Cert.RefDefs.w512x32 ![2, 0, 0] Cert.ReferenceIdeal.Facts₀.slices_S8x512x32_S1x512x32_2_0_0 SW3) (View.ld x11 r0_14) (w512x32_eq x11 SW3 hin.h11 ![2, 0, 0] _ _)
    (Cert.RefDefs.v32 ![2, 0] Cert.ReferenceIdeal.Facts₀.slices_S8x32_S1x32_2_0 SB3) (View.ld x12 r0_15) (v32_eq x12 SB3 hin.h12 ![2, 0] _ _)
    (Cert.RefDefs.v32 ![2, 0] Cert.ReferenceIdeal.Facts₀.slices_S8x32_S1x32_2_0 SSC) (View.ld x13 r0_15) (v32_eq x13 SSC hin.h13 ![2, 0] _ _)
    (Cert.RefDefs.v32 ![2, 0] Cert.ReferenceIdeal.Facts₀.slices_S8x32_S1x32_2_0 SSH) (View.ld x14 r0_15) (v32_eq x14 SSH hin.h14 ![2, 0] _ _)

/-- After layer 3. -/
theorem inv4 (hin : Inputs o x0 x1 x2 x3 x4 x5 x6 x7 x8 x9 x10 x11 x12 x13 x14 Y TW1 TB1 TW2 TB2 TW3 TB3 SW1 SB1 SW2 SB2 SW3 SB3 SSC SSH) :
    Inv o (Cert.RefDefs.Z4 Y TW1 TB1 TW2 TB2 TW3 TB3 SW1 SB1 SW2 SB2 SW3 SB3 SSC SSH) (Cert.RefDefs.L4 Y TW1 TB1 TW2 TB2 TW3 TB3 SW1 SB1 SW2 SB2 SW3 SB3 SSC SSH)
      (a3 x0 x1 x2 x3 x4 x5 x6 x7 x8 x9 x10 x11 x12 x13 x14) (b4 x0 x1 x2 x3 x4 x5 x6 x7 x8 x9 x10 x11 x12 x13 x14) (la3 x0 x1 x2 x3 x4 x5 x6 x7 x8 x9 x10 x11 x12 x13 x14) (lb4 x0 x1 x2 x3 x4 x5 x6 x7 x8 x9 x10 x11 x12 x13 x14) :=
  (inv3 hin).odd
    (Cert.RefDefs.w32x512 ![3, 0, 0] Cert.ReferenceIdeal.Facts₀.slices_S8x32x512_S1x32x512_3_0_0 TW1) (View.ld x1 r0_16) (w32x512_eq x1 TW1 hin.h1 ![3, 0, 0] _ _)
    (Cert.RefDefs.v512 ![3, 0] Cert.ReferenceIdeal.Facts₀.slices_S8x512_S1x512_3_0 TB1) (View.ld x2 r0_17) (v512_eq x2 TB1 hin.h2 ![3, 0] _ _)
    (Cert.RefDefs.w512x512 ![3, 0, 0] Cert.ReferenceIdeal.Facts₀.slices_S8x512x512_S1x512x512_3_0_0 TW2) (View.ld x3 r0_18) (w512x512_eq x3 TW2 hin.h3 ![3, 0, 0] _ _)
    (Cert.RefDefs.v512 ![3, 0] Cert.ReferenceIdeal.Facts₀.slices_S8x512_S1x512_3_0 TB2) (View.ld x4 r0_17) (v512_eq x4 TB2 hin.h4 ![3, 0] _ _)
    (Cert.RefDefs.w512x32 ![3, 0, 0] Cert.ReferenceIdeal.Facts₀.slices_S8x512x32_S1x512x32_3_0_0 TW3) (View.ld x5 r0_19) (w512x32_eq x5 TW3 hin.h5 ![3, 0, 0] _ _)
    (Cert.RefDefs.v32 ![3, 0] Cert.ReferenceIdeal.Facts₀.slices_S8x32_S1x32_3_0 TB3) (View.ld x6 r0_20) (v32_eq x6 TB3 hin.h6 ![3, 0] _ _)
    (Cert.RefDefs.w32x512 ![3, 0, 0] Cert.ReferenceIdeal.Facts₀.slices_S8x32x512_S1x32x512_3_0_0 SW1) (View.ld x7 r0_16) (w32x512_eq x7 SW1 hin.h7 ![3, 0, 0] _ _)
    (Cert.RefDefs.v512 ![3, 0] Cert.ReferenceIdeal.Facts₀.slices_S8x512_S1x512_3_0 SB1) (View.ld x8 r0_17) (v512_eq x8 SB1 hin.h8 ![3, 0] _ _)
    (Cert.RefDefs.w512x512 ![3, 0, 0] Cert.ReferenceIdeal.Facts₀.slices_S8x512x512_S1x512x512_3_0_0 SW2) (View.ld x9 r0_18) (w512x512_eq x9 SW2 hin.h9 ![3, 0, 0] _ _)
    (Cert.RefDefs.v512 ![3, 0] Cert.ReferenceIdeal.Facts₀.slices_S8x512_S1x512_3_0 SB2) (View.ld x10 r0_17) (v512_eq x10 SB2 hin.h10 ![3, 0] _ _)
    (Cert.RefDefs.w512x32 ![3, 0, 0] Cert.ReferenceIdeal.Facts₀.slices_S8x512x32_S1x512x32_3_0_0 SW3) (View.ld x11 r0_19) (w512x32_eq x11 SW3 hin.h11 ![3, 0, 0] _ _)
    (Cert.RefDefs.v32 ![3, 0] Cert.ReferenceIdeal.Facts₀.slices_S8x32_S1x32_3_0 SB3) (View.ld x12 r0_20) (v32_eq x12 SB3 hin.h12 ![3, 0] _ _)
    (Cert.RefDefs.v32 ![3, 0] Cert.ReferenceIdeal.Facts₀.slices_S8x32_S1x32_3_0 SSC) (View.ld x13 r0_20) (v32_eq x13 SSC hin.h13 ![3, 0] _ _)
    (Cert.RefDefs.v32 ![3, 0] Cert.ReferenceIdeal.Facts₀.slices_S8x32_S1x32_3_0 SSH) (View.ld x14 r0_20) (v32_eq x14 SSH hin.h14 ![3, 0] _ _)

/-- After layer 4. -/
theorem inv5 (hin : Inputs o x0 x1 x2 x3 x4 x5 x6 x7 x8 x9 x10 x11 x12 x13 x14 Y TW1 TB1 TW2 TB2 TW3 TB3 SW1 SB1 SW2 SB2 SW3 SB3 SSC SSH) :
    Inv o (Cert.RefDefs.Z5 Y TW1 TB1 TW2 TB2 TW3 TB3 SW1 SB1 SW2 SB2 SW3 SB3 SSC SSH) (Cert.RefDefs.L5 Y TW1 TB1 TW2 TB2 TW3 TB3 SW1 SB1 SW2 SB2 SW3 SB3 SSC SSH)
      (a5 x0 x1 x2 x3 x4 x5 x6 x7 x8 x9 x10 x11 x12 x13 x14) (b4 x0 x1 x2 x3 x4 x5 x6 x7 x8 x9 x10 x11 x12 x13 x14) (la5 x0 x1 x2 x3 x4 x5 x6 x7 x8 x9 x10 x11 x12 x13 x14) (lb4 x0 x1 x2 x3 x4 x5 x6 x7 x8 x9 x10 x11 x12 x13 x14) :=
  (inv4 hin).even
    (Cert.RefDefs.w32x512 ![4, 0, 0] Cert.ReferenceIdeal.Facts₀.slices_S8x32x512_S1x32x512_4_0_0 TW1) (View.ld x1 r0_21) (w32x512_eq x1 TW1 hin.h1 ![4, 0, 0] _ _)
    (Cert.RefDefs.v512 ![4, 0] Cert.ReferenceIdeal.Facts₀.slices_S8x512_S1x512_4_0 TB1) (View.ld x2 r0_22) (v512_eq x2 TB1 hin.h2 ![4, 0] _ _)
    (Cert.RefDefs.w512x512 ![4, 0, 0] Cert.ReferenceIdeal.Facts₀.slices_S8x512x512_S1x512x512_4_0_0 TW2) (View.ld x3 r0_23) (w512x512_eq x3 TW2 hin.h3 ![4, 0, 0] _ _)
    (Cert.RefDefs.v512 ![4, 0] Cert.ReferenceIdeal.Facts₀.slices_S8x512_S1x512_4_0 TB2) (View.ld x4 r0_22) (v512_eq x4 TB2 hin.h4 ![4, 0] _ _)
    (Cert.RefDefs.w512x32 ![4, 0, 0] Cert.ReferenceIdeal.Facts₀.slices_S8x512x32_S1x512x32_4_0_0 TW3) (View.ld x5 r0_24) (w512x32_eq x5 TW3 hin.h5 ![4, 0, 0] _ _)
    (Cert.RefDefs.v32 ![4, 0] Cert.ReferenceIdeal.Facts₀.slices_S8x32_S1x32_4_0 TB3) (View.ld x6 r0_25) (v32_eq x6 TB3 hin.h6 ![4, 0] _ _)
    (Cert.RefDefs.w32x512 ![4, 0, 0] Cert.ReferenceIdeal.Facts₀.slices_S8x32x512_S1x32x512_4_0_0 SW1) (View.ld x7 r0_21) (w32x512_eq x7 SW1 hin.h7 ![4, 0, 0] _ _)
    (Cert.RefDefs.v512 ![4, 0] Cert.ReferenceIdeal.Facts₀.slices_S8x512_S1x512_4_0 SB1) (View.ld x8 r0_22) (v512_eq x8 SB1 hin.h8 ![4, 0] _ _)
    (Cert.RefDefs.w512x512 ![4, 0, 0] Cert.ReferenceIdeal.Facts₀.slices_S8x512x512_S1x512x512_4_0_0 SW2) (View.ld x9 r0_23) (w512x512_eq x9 SW2 hin.h9 ![4, 0, 0] _ _)
    (Cert.RefDefs.v512 ![4, 0] Cert.ReferenceIdeal.Facts₀.slices_S8x512_S1x512_4_0 SB2) (View.ld x10 r0_22) (v512_eq x10 SB2 hin.h10 ![4, 0] _ _)
    (Cert.RefDefs.w512x32 ![4, 0, 0] Cert.ReferenceIdeal.Facts₀.slices_S8x512x32_S1x512x32_4_0_0 SW3) (View.ld x11 r0_24) (w512x32_eq x11 SW3 hin.h11 ![4, 0, 0] _ _)
    (Cert.RefDefs.v32 ![4, 0] Cert.ReferenceIdeal.Facts₀.slices_S8x32_S1x32_4_0 SB3) (View.ld x12 r0_25) (v32_eq x12 SB3 hin.h12 ![4, 0] _ _)
    (Cert.RefDefs.v32 ![4, 0] Cert.ReferenceIdeal.Facts₀.slices_S8x32_S1x32_4_0 SSC) (View.ld x13 r0_25) (v32_eq x13 SSC hin.h13 ![4, 0] _ _)
    (Cert.RefDefs.v32 ![4, 0] Cert.ReferenceIdeal.Facts₀.slices_S8x32_S1x32_4_0 SSH) (View.ld x14 r0_25) (v32_eq x14 SSH hin.h14 ![4, 0] _ _)

/-- After layer 5. -/
theorem inv6 (hin : Inputs o x0 x1 x2 x3 x4 x5 x6 x7 x8 x9 x10 x11 x12 x13 x14 Y TW1 TB1 TW2 TB2 TW3 TB3 SW1 SB1 SW2 SB2 SW3 SB3 SSC SSH) :
    Inv o (Cert.RefDefs.Z6 Y TW1 TB1 TW2 TB2 TW3 TB3 SW1 SB1 SW2 SB2 SW3 SB3 SSC SSH) (Cert.RefDefs.L6 Y TW1 TB1 TW2 TB2 TW3 TB3 SW1 SB1 SW2 SB2 SW3 SB3 SSC SSH)
      (a5 x0 x1 x2 x3 x4 x5 x6 x7 x8 x9 x10 x11 x12 x13 x14) (b6 x0 x1 x2 x3 x4 x5 x6 x7 x8 x9 x10 x11 x12 x13 x14) (la5 x0 x1 x2 x3 x4 x5 x6 x7 x8 x9 x10 x11 x12 x13 x14) (lb6 x0 x1 x2 x3 x4 x5 x6 x7 x8 x9 x10 x11 x12 x13 x14) :=
  (inv5 hin).odd
    (Cert.RefDefs.w32x512 ![5, 0, 0] Cert.ReferenceIdeal.Facts₀.slices_S8x32x512_S1x32x512_5_0_0 TW1) (View.ld x1 r0_26) (w32x512_eq x1 TW1 hin.h1 ![5, 0, 0] _ _)
    (Cert.RefDefs.v512 ![5, 0] Cert.ReferenceIdeal.Facts₀.slices_S8x512_S1x512_5_0 TB1) (View.ld x2 r0_27) (v512_eq x2 TB1 hin.h2 ![5, 0] _ _)
    (Cert.RefDefs.w512x512 ![5, 0, 0] Cert.ReferenceIdeal.Facts₀.slices_S8x512x512_S1x512x512_5_0_0 TW2) (View.ld x3 r0_28) (w512x512_eq x3 TW2 hin.h3 ![5, 0, 0] _ _)
    (Cert.RefDefs.v512 ![5, 0] Cert.ReferenceIdeal.Facts₀.slices_S8x512_S1x512_5_0 TB2) (View.ld x4 r0_27) (v512_eq x4 TB2 hin.h4 ![5, 0] _ _)
    (Cert.RefDefs.w512x32 ![5, 0, 0] Cert.ReferenceIdeal.Facts₀.slices_S8x512x32_S1x512x32_5_0_0 TW3) (View.ld x5 r0_29) (w512x32_eq x5 TW3 hin.h5 ![5, 0, 0] _ _)
    (Cert.RefDefs.v32 ![5, 0] Cert.ReferenceIdeal.Facts₀.slices_S8x32_S1x32_5_0 TB3) (View.ld x6 r0_30) (v32_eq x6 TB3 hin.h6 ![5, 0] _ _)
    (Cert.RefDefs.w32x512 ![5, 0, 0] Cert.ReferenceIdeal.Facts₀.slices_S8x32x512_S1x32x512_5_0_0 SW1) (View.ld x7 r0_26) (w32x512_eq x7 SW1 hin.h7 ![5, 0, 0] _ _)
    (Cert.RefDefs.v512 ![5, 0] Cert.ReferenceIdeal.Facts₀.slices_S8x512_S1x512_5_0 SB1) (View.ld x8 r0_27) (v512_eq x8 SB1 hin.h8 ![5, 0] _ _)
    (Cert.RefDefs.w512x512 ![5, 0, 0] Cert.ReferenceIdeal.Facts₀.slices_S8x512x512_S1x512x512_5_0_0 SW2) (View.ld x9 r0_28) (w512x512_eq x9 SW2 hin.h9 ![5, 0, 0] _ _)
    (Cert.RefDefs.v512 ![5, 0] Cert.ReferenceIdeal.Facts₀.slices_S8x512_S1x512_5_0 SB2) (View.ld x10 r0_27) (v512_eq x10 SB2 hin.h10 ![5, 0] _ _)
    (Cert.RefDefs.w512x32 ![5, 0, 0] Cert.ReferenceIdeal.Facts₀.slices_S8x512x32_S1x512x32_5_0_0 SW3) (View.ld x11 r0_29) (w512x32_eq x11 SW3 hin.h11 ![5, 0, 0] _ _)
    (Cert.RefDefs.v32 ![5, 0] Cert.ReferenceIdeal.Facts₀.slices_S8x32_S1x32_5_0 SB3) (View.ld x12 r0_30) (v32_eq x12 SB3 hin.h12 ![5, 0] _ _)
    (Cert.RefDefs.v32 ![5, 0] Cert.ReferenceIdeal.Facts₀.slices_S8x32_S1x32_5_0 SSC) (View.ld x13 r0_30) (v32_eq x13 SSC hin.h13 ![5, 0] _ _)
    (Cert.RefDefs.v32 ![5, 0] Cert.ReferenceIdeal.Facts₀.slices_S8x32_S1x32_5_0 SSH) (View.ld x14 r0_30) (v32_eq x14 SSH hin.h14 ![5, 0] _ _)

/-- After layer 6. -/
theorem inv7 (hin : Inputs o x0 x1 x2 x3 x4 x5 x6 x7 x8 x9 x10 x11 x12 x13 x14 Y TW1 TB1 TW2 TB2 TW3 TB3 SW1 SB1 SW2 SB2 SW3 SB3 SSC SSH) :
    Inv o (Cert.RefDefs.Z7 Y TW1 TB1 TW2 TB2 TW3 TB3 SW1 SB1 SW2 SB2 SW3 SB3 SSC SSH) (Cert.RefDefs.L7 Y TW1 TB1 TW2 TB2 TW3 TB3 SW1 SB1 SW2 SB2 SW3 SB3 SSC SSH)
      (a7 x0 x1 x2 x3 x4 x5 x6 x7 x8 x9 x10 x11 x12 x13 x14) (b6 x0 x1 x2 x3 x4 x5 x6 x7 x8 x9 x10 x11 x12 x13 x14) (la7 x0 x1 x2 x3 x4 x5 x6 x7 x8 x9 x10 x11 x12 x13 x14) (lb6 x0 x1 x2 x3 x4 x5 x6 x7 x8 x9 x10 x11 x12 x13 x14) :=
  (inv6 hin).even
    (Cert.RefDefs.w32x512 ![6, 0, 0] Cert.ReferenceIdeal.Facts₀.slices_S8x32x512_S1x32x512_6_0_0 TW1) (View.ld x1 r0_31) (w32x512_eq x1 TW1 hin.h1 ![6, 0, 0] _ _)
    (Cert.RefDefs.v512 ![6, 0] Cert.ReferenceIdeal.Facts₀.slices_S8x512_S1x512_6_0 TB1) (View.ld x2 r0_32) (v512_eq x2 TB1 hin.h2 ![6, 0] _ _)
    (Cert.RefDefs.w512x512 ![6, 0, 0] Cert.ReferenceIdeal.Facts₀.slices_S8x512x512_S1x512x512_6_0_0 TW2) (View.ld x3 r0_33) (w512x512_eq x3 TW2 hin.h3 ![6, 0, 0] _ _)
    (Cert.RefDefs.v512 ![6, 0] Cert.ReferenceIdeal.Facts₀.slices_S8x512_S1x512_6_0 TB2) (View.ld x4 r0_32) (v512_eq x4 TB2 hin.h4 ![6, 0] _ _)
    (Cert.RefDefs.w512x32 ![6, 0, 0] Cert.ReferenceIdeal.Facts₀.slices_S8x512x32_S1x512x32_6_0_0 TW3) (View.ld x5 r0_34) (w512x32_eq x5 TW3 hin.h5 ![6, 0, 0] _ _)
    (Cert.RefDefs.v32 ![6, 0] Cert.ReferenceIdeal.Facts₀.slices_S8x32_S1x32_6_0 TB3) (View.ld x6 r0_35) (v32_eq x6 TB3 hin.h6 ![6, 0] _ _)
    (Cert.RefDefs.w32x512 ![6, 0, 0] Cert.ReferenceIdeal.Facts₀.slices_S8x32x512_S1x32x512_6_0_0 SW1) (View.ld x7 r0_31) (w32x512_eq x7 SW1 hin.h7 ![6, 0, 0] _ _)
    (Cert.RefDefs.v512 ![6, 0] Cert.ReferenceIdeal.Facts₀.slices_S8x512_S1x512_6_0 SB1) (View.ld x8 r0_32) (v512_eq x8 SB1 hin.h8 ![6, 0] _ _)
    (Cert.RefDefs.w512x512 ![6, 0, 0] Cert.ReferenceIdeal.Facts₀.slices_S8x512x512_S1x512x512_6_0_0 SW2) (View.ld x9 r0_33) (w512x512_eq x9 SW2 hin.h9 ![6, 0, 0] _ _)
    (Cert.RefDefs.v512 ![6, 0] Cert.ReferenceIdeal.Facts₀.slices_S8x512_S1x512_6_0 SB2) (View.ld x10 r0_32) (v512_eq x10 SB2 hin.h10 ![6, 0] _ _)
    (Cert.RefDefs.w512x32 ![6, 0, 0] Cert.ReferenceIdeal.Facts₀.slices_S8x512x32_S1x512x32_6_0_0 SW3) (View.ld x11 r0_34) (w512x32_eq x11 SW3 hin.h11 ![6, 0, 0] _ _)
    (Cert.RefDefs.v32 ![6, 0] Cert.ReferenceIdeal.Facts₀.slices_S8x32_S1x32_6_0 SB3) (View.ld x12 r0_35) (v32_eq x12 SB3 hin.h12 ![6, 0] _ _)
    (Cert.RefDefs.v32 ![6, 0] Cert.ReferenceIdeal.Facts₀.slices_S8x32_S1x32_6_0 SSC) (View.ld x13 r0_35) (v32_eq x13 SSC hin.h13 ![6, 0] _ _)
    (Cert.RefDefs.v32 ![6, 0] Cert.ReferenceIdeal.Facts₀.slices_S8x32_S1x32_6_0 SSH) (View.ld x14 r0_35) (v32_eq x14 SSH hin.h14 ![6, 0] _ _)

/-- After layer 7. -/
theorem inv8 (hin : Inputs o x0 x1 x2 x3 x4 x5 x6 x7 x8 x9 x10 x11 x12 x13 x14 Y TW1 TB1 TW2 TB2 TW3 TB3 SW1 SB1 SW2 SB2 SW3 SB3 SSC SSH) :
    Inv o (Cert.RefDefs.Z8 Y TW1 TB1 TW2 TB2 TW3 TB3 SW1 SB1 SW2 SB2 SW3 SB3 SSC SSH) (Cert.RefDefs.L8 Y TW1 TB1 TW2 TB2 TW3 TB3 SW1 SB1 SW2 SB2 SW3 SB3 SSC SSH)
      (a7 x0 x1 x2 x3 x4 x5 x6 x7 x8 x9 x10 x11 x12 x13 x14) (b8 x0 x1 x2 x3 x4 x5 x6 x7 x8 x9 x10 x11 x12 x13 x14) (la7 x0 x1 x2 x3 x4 x5 x6 x7 x8 x9 x10 x11 x12 x13 x14) (lb8 x0 x1 x2 x3 x4 x5 x6 x7 x8 x9 x10 x11 x12 x13 x14) :=
  (inv7 hin).odd
    (Cert.RefDefs.w32x512 ![7, 0, 0] Cert.ReferenceIdeal.Facts₀.slices_S8x32x512_S1x32x512_7_0_0 TW1) (View.ld x1 r0_36) (w32x512_eq x1 TW1 hin.h1 ![7, 0, 0] _ _)
    (Cert.RefDefs.v512 ![7, 0] Cert.ReferenceIdeal.Facts₀.slices_S8x512_S1x512_7_0 TB1) (View.ld x2 r0_37) (v512_eq x2 TB1 hin.h2 ![7, 0] _ _)
    (Cert.RefDefs.w512x512 ![7, 0, 0] Cert.ReferenceIdeal.Facts₀.slices_S8x512x512_S1x512x512_7_0_0 TW2) (View.ld x3 r0_38) (w512x512_eq x3 TW2 hin.h3 ![7, 0, 0] _ _)
    (Cert.RefDefs.v512 ![7, 0] Cert.ReferenceIdeal.Facts₀.slices_S8x512_S1x512_7_0 TB2) (View.ld x4 r0_37) (v512_eq x4 TB2 hin.h4 ![7, 0] _ _)
    (Cert.RefDefs.w512x32 ![7, 0, 0] Cert.ReferenceIdeal.Facts₀.slices_S8x512x32_S1x512x32_7_0_0 TW3) (View.ld x5 r0_39) (w512x32_eq x5 TW3 hin.h5 ![7, 0, 0] _ _)
    (Cert.RefDefs.v32 ![7, 0] Cert.ReferenceIdeal.Facts₀.slices_S8x32_S1x32_7_0 TB3) (View.ld x6 r0_40) (v32_eq x6 TB3 hin.h6 ![7, 0] _ _)
    (Cert.RefDefs.w32x512 ![7, 0, 0] Cert.ReferenceIdeal.Facts₀.slices_S8x32x512_S1x32x512_7_0_0 SW1) (View.ld x7 r0_36) (w32x512_eq x7 SW1 hin.h7 ![7, 0, 0] _ _)
    (Cert.RefDefs.v512 ![7, 0] Cert.ReferenceIdeal.Facts₀.slices_S8x512_S1x512_7_0 SB1) (View.ld x8 r0_37) (v512_eq x8 SB1 hin.h8 ![7, 0] _ _)
    (Cert.RefDefs.w512x512 ![7, 0, 0] Cert.ReferenceIdeal.Facts₀.slices_S8x512x512_S1x512x512_7_0_0 SW2) (View.ld x9 r0_38) (w512x512_eq x9 SW2 hin.h9 ![7, 0, 0] _ _)
    (Cert.RefDefs.v512 ![7, 0] Cert.ReferenceIdeal.Facts₀.slices_S8x512_S1x512_7_0 SB2) (View.ld x10 r0_37) (v512_eq x10 SB2 hin.h10 ![7, 0] _ _)
    (Cert.RefDefs.w512x32 ![7, 0, 0] Cert.ReferenceIdeal.Facts₀.slices_S8x512x32_S1x512x32_7_0_0 SW3) (View.ld x11 r0_39) (w512x32_eq x11 SW3 hin.h11 ![7, 0, 0] _ _)
    (Cert.RefDefs.v32 ![7, 0] Cert.ReferenceIdeal.Facts₀.slices_S8x32_S1x32_7_0 SB3) (View.ld x12 r0_40) (v32_eq x12 SB3 hin.h12 ![7, 0] _ _)
    (Cert.RefDefs.v32 ![7, 0] Cert.ReferenceIdeal.Facts₀.slices_S8x32_S1x32_7_0 SSC) (View.ld x13 r0_40) (v32_eq x13 SSC hin.h13 ![7, 0] _ _)
    (Cert.RefDefs.v32 ![7, 0] Cert.ReferenceIdeal.Facts₀.slices_S8x32_S1x32_7_0 SSH) (View.ld x14 r0_40) (v32_eq x14 SSH hin.h14 ![7, 0] _ _)

/-! ## The two stored blocks -/

/-- The first stored block: rows `o … o + 1023` of `perm` of the reference's first result. -/
theorem out0_15_apply (hin : Inputs o x0 x1 x2 x3 x4 x5 x6 x7 x8 x9 x10 x11 x12 x13 x14 Y TW1 TB1 TW2 TB2 TW3 TB3 SW1 SB1 SW2 SB2 SW3 SB3 SSC SSH) (p : Fin 1024) (q : Fin 64) (h : o + p.val < 16384) :
    GenP.out0_15 x0 x1 x2 x3 x4 x5 x6 x7 x8 x9 x10 x11 x12 x13 x14 (ix2 p q) = perm (Cert.RefDefs.Z8 Y TW1 TB1 TW2 TB2 TW3 TB3 SW1 SB1 SW2 SB2 SW3 SB3 SSC SSH) (ix2 ⟨o + p.val, h⟩ q) := by
  rw [out0_15_eq, View.canon_unit_zero zero_offsets]
  exact sides_apply (inv8 hin).a (inv8 hin).b p q h

/-- The second stored block: the same rows of `perm` of the reference's second result. -/
theorem out0_16_apply (hin : Inputs o x0 x1 x2 x3 x4 x5 x6 x7 x8 x9 x10 x11 x12 x13 x14 Y TW1 TB1 TW2 TB2 TW3 TB3 SW1 SB1 SW2 SB2 SW3 SB3 SSC SSH) (p : Fin 1024) (q : Fin 64) (h : o + p.val < 16384) :
    GenP.out0_16 x0 x1 x2 x3 x4 x5 x6 x7 x8 x9 x10 x11 x12 x13 x14 (ix2 p q) = perm (Cert.RefDefs.L8 Y TW1 TB1 TW2 TB2 TW3 TB3 SW1 SB1 SW2 SB2 SW3 SB3 SSC SSH) (ix2 ⟨o + p.val, h⟩ q) := by
  rw [out0_16_eq, View.canon_unit_zero zero_offsets]
  exact sides_apply (inv8 hin).la (inv8 hin).lb p q h

end Chain

end Cert.BlockRows

end
-- ==== Proof.KernelLayout.lean ====
/-
  The two layout maps around the kernel, read at an index.

  Before the kernel the [16384, 64] argument is split into its even and its odd columns, laid side by side:
  column `q < 32` of the result is column `2 q` of the argument and column `32 + q` is column `2 q + 1`.
  After the kernel each [16384, 64] output is put back: column `c` of the result is column
  `c / 2 + 32 * (c % 2)` of the output. Each map is a chain of reshapes, unit-stride slices, broadcasts into a
  trailing unit axis and a two-piece concatenation; each link reads its operand at one index.
-/
import proofs.«175251_j80573586473693_2_alg».proof.KernelIdeal
import Idealize.ShloMosaic.Lib.ValueIdx
import Idealize.ShloMosaic.Lib.Pipeline.Value

noncomputable section

namespace Cert.KernelRun

open Idealize.ShloMosaic Idealize.ShloMosaic.ValueIdx
open Cert.KernelIdeal

variable {α : Type}

/-- One parity class of the columns: the array viewed as [16384, 32, 2], sliced at `k` on the last axis and
    flattened back to [16384, 32], reads column `2 q + k`. -/
theorem parityCols_apply (x : S16384x64.Idx → α) (k : Fin 2) (off : Fin 3 → Nat) (hoff : off = ![0, 0, k.val])
    (h1 : S16384x64.ShapeCasts S16384x32x2)
    (h2 : S16384x32x2.Slices off S16384x32x1) (h3 : S16384x32x1.ShapeCasts S16384x32)
    (r : Fin 16384) (q : Fin 32) :
    shapeCast S16384x32 (extractStridedSlice S16384x32x1 off (shapeCast S16384x32x2 x h1) h2) h3 (ix2 r q)
      = x (ix2 r ⟨2 * q.val + k.val, by omega⟩) := by
  subst hoff
  refine (shapeCast_apply _ h3 (ix2 r q) (ix3 r q (0 : Fin 1)) ?_).trans ?_
  · rw [Shape.rowMajor_val_three, Shape.rowMajor_val_two]
    show (r.val * 32 + q.val) * 1 + 0 = r.val * 32 + q.val
    omega
  refine (extractStridedSlice_apply _ _ h2 (ix3 r q (0 : Fin 1)) (ix3 r q k) ?_).trans ?_
  · intro a
    match a with
    | ⟨0, _⟩ => show r.val = 0 + r.val; omega
    | ⟨1, _⟩ => show q.val = 0 + q.val; omega
    | ⟨2, _⟩ => show k.val = k.val + 0; omega
  refine shapeCast_apply _ h1 (ix3 r q k) (ix2 r ⟨2 * q.val + k.val, by omega⟩) ?_
  rw [Shape.rowMajor_val_three, Shape.rowMajor_val_two]
  show r.val * 64 + (2 * q.val + k.val) = (r.val * 32 + q.val) * 2 + k.val
  omega

/-- The inverse map: the two column halves of `G`, each given a trailing unit axis, concatenated along it to
    [16384, 32, 2] and flattened, read column `c / 2 + 32 * (c % 2)` of `G` at column `c`. -/
theorem interleaved_apply (G : S16384x64.Idx → α)
    (hs0 : S16384x64.Slices ![0, 0] S16384x32) (hs32 : S16384x64.Slices ![0, 32] S16384x32)
    (hb : S16384x32.BroadcastsInDim S16384x32x1 (![0, 1] : Fin 2 → Fin S16384x32x1.rank))
    (hc : Shape.Concatenates [S16384x32x1, S16384x32x1] S16384x32x2 2)
    (hr : S16384x32x2.ShapeCasts S16384x64) (r : Fin 16384) (c : Fin 64) :
    shapeCast S16384x64
        (concatenate S16384x32x2 2
          [⟨S16384x32x1, broadcastInDim S16384x32x1 ![0, 1] hb (extractStridedSlice S16384x32 ![0, 0] G hs0)⟩,
           ⟨S16384x32x1, broadcastInDim S16384x32x1 ![0, 1] hb (extractStridedSlice S16384x32 ![0, 32] G hs32)⟩] hc)
        hr (ix2 r c)
      = G (ix2 r ⟨c.val / 2 + 32 * (c.val % 2), by omega⟩) := by
  have hc64 : c.val < 64 := c.isLt
  refine (shapeCast_apply _ hr (ix2 r c) (ix3 r (⟨c.val / 2, by omega⟩ : Fin 32) (⟨c.val % 2, by omega⟩ : Fin 2)) ?_).trans ?_
  · rw [Shape.rowMajor_val_three, Shape.rowMajor_val_two]
    show (r.val * 32 + c.val / 2) * 2 + c.val % 2 = r.val * 64 + c.val
    omega
  by_cases hp : c.val % 2 = 0
  · refine (concatenate_pair_apply_left (t := S16384x32x2) (s₁ := S16384x32x1) (s₂ := S16384x32x1) 2 _ _ hc _ rfl
      (ix3 r (⟨c.val / 2, by omega⟩ : Fin 32) (0 : Fin 1)) ?_).trans ?_
    · intro b
      match b with
      | ⟨0, _⟩ => rfl
      | ⟨1, _⟩ => rfl
      | ⟨2, _⟩ => show 0 = c.val % 2; omega
    refine (broadcastInDim_apply _ hb _ _ (ix2 r (⟨c.val / 2, by omega⟩ : Fin 32)) ?_).trans ?_
    · intro a
      match a with
      | ⟨0, _⟩ => exact (if_neg (show ¬ (16384 : ℕ) = 1 by decide)).symm
      | ⟨1, _⟩ => exact (if_neg (show ¬ (32 : ℕ) = 1 by decide)).symm
    refine extractStridedSlice_apply _ G hs0 _ _ ?_
    intro a
    match a with
    | ⟨0, _⟩ => show r.val = 0 + r.val; omega
    | ⟨1, _⟩ => show c.val / 2 + 32 * (c.val % 2) = 0 + c.val / 2; omega
  · refine (concatenate_pair_apply_right (t := S16384x32x2) (s₁ := S16384x32x1) (s₂ := S16384x32x1) 2 _ _ hc _ rfl rfl
      (ix3 r (⟨c.val / 2, by omega⟩ : Fin 32) (0 : Fin 1)) ?_ ?_).trans ?_
    · intro b hb'
      match b with
      | ⟨0, _⟩ => rfl
      | ⟨1, _⟩ => rfl
      | ⟨2, _⟩ => exact absurd rfl hb'
    · show 0 + 1 = c.val % 2; omega
    refine (broadcastInDim_apply _ hb _ _ (ix2 r (⟨c.val / 2, by omega⟩ : Fin 32)) ?_).trans ?_
    · intro a
      match a with
      | ⟨0, _⟩ => exact (if_neg (show ¬ (16384 : ℕ) = 1 by decide)).symm
      | ⟨1, _⟩ => exact (if_neg (show ¬ (32 : ℕ) = 1 by decide)).symm
    refine extractStridedSlice_apply _ G hs32 _ _ ?_
    intro a
    match a with
    | ⟨0, _⟩ => show r.val = 0 + r.val; omega
    | ⟨1, _⟩ => show c.val / 2 + 32 * (c.val % 2) = 32 + c.val / 2; omega

/-- Two [16384, 32] arrays side by side: the left half of the columns reads the first … -/
theorem sideBySide_left (a b : S16384x32.Idx → α) (hc : Shape.Concatenates [S16384x32, S16384x32] S16384x64 1)
    (r : Fin 16384) (q : Fin 32) :
    concatenate S16384x64 1 [⟨S16384x32, a⟩, ⟨S16384x32, b⟩] hc (ix2 r ⟨q.val, by omega⟩) = a (ix2 r q) := by
  refine concatenate_pair_apply_left (t := S16384x64) (s₁ := S16384x32) (s₂ := S16384x32) 1 _ _ hc _ rfl (ix2 r q) ?_
  intro b'
  match b' with
  | ⟨0, _⟩ => rfl
  | ⟨1, _⟩ => rfl

/-- … and the right half the second. -/
theorem sideBySide_right (a b : S16384x32.Idx → α) (hc : Shape.Concatenates [S16384x32, S16384x32] S16384x64 1)
    (r : Fin 16384) (q : Fin 32) :
    concatenate S16384x64 1 [⟨S16384x32, a⟩, ⟨S16384x32, b⟩] hc (ix2 r ⟨32 + q.val, by omega⟩) = b (ix2 r q) := by
  refine concatenate_pair_apply_right (t := S16384x64) (s₁ := S16384x32) (s₂ := S16384x32) 1 _ _ hc _ rfl rfl (ix2 r q) ?_ ?_
  · intro b' hb'
    match b' with
    | ⟨0, _⟩ => rfl
    | ⟨1, _⟩ => exact absurd rfl hb'
  · show q.val + 32 = 32 + q.val; omega

end Cert.KernelRun

end
-- ==== Proof.KernelBlocks.lean ====
/-
  The kernel's input blocks as values of the arguments.

  The region finds its first operand as the argument with the even columns first and the odd columns after them
  (`deinterleaved`); its block at point `t` is rows `1024 t … 1024 t + 1023` of that. Each other operand is handed
  whole to every point, and is an argument as launched: six of them through a change of float format, which changes
  no ideal value.
-/
import proofs.«175251_j80573586473693_2_alg».proof.Proof.FrameKI
import proofs.«175251_j80573586473693_2_alg».proof.Proof.KernelLayout
import Idealize.ShloMosaic.Lib.ValueIdx
import Idealize.ShloMosaic.Lib.Pipeline.Value
import Idealize.ShloMosaic.Lib.Tactic

noncomputable section

namespace Cert.KernelRun

open Idealize.ShloMosaic Idealize.ShloMosaic.ValueIdx Idealize.ShloMosaic.TcCoe Idealize.SL.Sem
open Idealize.ShloMosaic.Pipeline (Dat)
open Cert.KernelIdeal Cert.KernelIdeal.Gen Cert.KernelIdeal.GenP

variable (m : (ℓ : Loc nD τ sig) → Buf (Elt Ideal) ℓ)

/-- The grid has sixteen points. -/
theorem point_lt (t : Fin cfg0.N) : t.val < 16 := lt_of_lt_of_eq t.isLt N_0

/-! ## The first operand: even columns, then odd columns -/

/-- The kernel's first operand as a function of the argument: its even columns side by side with its odd columns. -/
def deinterleaved (x : S16384x64.Idx → EReal) : S16384x64.Idx → EReal :=
  concatenate S16384x64 1
    [⟨S16384x32, shapeCast S16384x32 (extractStridedSlice S16384x32x1 ![0, 0, 0]
        (shapeCast S16384x32x2 x shapeCasts_S16384x64_S16384x32x2) slices_S16384x32x2_S16384x32x1_0_0_0)
        shapeCasts_S16384x32x1_S16384x32⟩,
     ⟨S16384x32, shapeCast S16384x32 (extractStridedSlice S16384x32x1 ![0, 0, 1]
        (shapeCast S16384x32x2 x shapeCasts_S16384x64_S16384x32x2) slices_S16384x32x2_S16384x32x1_0_0_1)
        shapeCasts_S16384x32x1_S16384x32⟩]
    concatenates_S16384x32_S16384x32_S16384x64_d1

/-- Column `q < 32` of it is column `2 q` of the argument … -/
theorem deinterleaved_even (x : S16384x64.Idx → EReal) (r : Fin 16384) (q : Fin 32) :
    deinterleaved x (ix2 r ⟨q.val, by omega⟩) = x (ix2 r ⟨2 * q.val, by omega⟩) :=
  (sideBySide_left _ _ _ r q).trans (parityCols_apply x 0 _ rfl _ _ _ r q)

/-- … and column `32 + q` is column `2 q + 1`. -/
theorem deinterleaved_odd (x : S16384x64.Idx → EReal) (r : Fin 16384) (q : Fin 32) :
    deinterleaved x (ix2 r ⟨32 + q.val, by omega⟩) = x (ix2 r ⟨2 * q.val + 1, by omega⟩) :=
  (sideBySide_right _ _ _ r q).trans (parityCols_apply x 1 _ rfl _ _ _ r q)

/-- What the region finds in its first operand's array. -/
theorem entry_v5 (c : Dev nD) :
    (V m c main_v5 : S16384x64.Idx → EReal) = deinterleaved (m ((c.tc : Thread nD τ).loc main_arg0)) := by
  show StableHlo.after hostOps0 (fun b => m (c, b)) (Proc.devRef .tc main_v5) = _
  after_results
  rfl

/-- Window 0's block index at point `t` is `(t, 0)`. -/
theorem idx0 : ∀ t : Fin cfg0.N, win0_0.index t (0 : Fin 2) = t.val ∧ win0_0.index t (1 : Fin 2) = 0 :=
  (by decide +kernel : ∀ t : Fin grid0.N, _)

/-- Window 0's block at point `t` is rows `1024 t …` of the first operand. -/
theorem iblk0_apply (c : Dev nD) (t : Fin cfg0.N) (p : Fin 1024) (q : Fin 64) :
    (iblk m c 0 t : S1024x64.Idx → EReal) (ix2 p q)
      = deinterleaved (m ((c.tc : Thread nD τ).loc main_arg0))
          (ix2 ⟨1024 * t.val + p.val, by have := point_lt t; have := p.isLt; omega⟩ q) := by
  obtain ⟨e0, e1⟩ := idx0 t
  unfold iblk
  rw [View.read_apply]
  show V m c main_v5 (((cfg0.win 0).blk t).view.emb (ix2 p q)) = _
  rw [entry_v5]
  refine congrArg (deinterleaved _) ?_
  funext a
  apply Fin.ext
  match a with
  | ⟨0, _⟩ => show win0_0.index t (0 : Fin 2) * 1024 + 1 * p.val = 1024 * t.val + p.val; omega
  | ⟨1, _⟩ => show win0_0.index t (1 : Fin 2) * 64 + 1 * q.val = q.val; omega

/-- The left half of window 0's block holds the argument's even columns … -/
theorem iblk0_even (c : Dev nD) (t : Fin cfg0.N) (p : Fin 1024) (q : Fin 32) :
    (iblk m c 0 t : S1024x64.Idx → EReal) (ix2 p ⟨q.val, by omega⟩)
      = (m ((c.tc : Thread nD τ).loc main_arg0) : S16384x64.Idx → EReal)
          (ix2 ⟨1024 * t.val + p.val, by have := point_lt t; have := p.isLt; omega⟩ ⟨2 * q.val, by omega⟩) :=
  (iblk0_apply m c t p ⟨q.val, by omega⟩).trans (deinterleaved_even _ _ q)

/-- … and the right half its odd columns. -/
theorem iblk0_odd (c : Dev nD) (t : Fin cfg0.N) (p : Fin 1024) (q : Fin 32) :
    (iblk m c 0 t : S1024x64.Idx → EReal) (ix2 p ⟨32 + q.val, by omega⟩)
      = (m ((c.tc : Thread nD τ).loc main_arg0) : S16384x64.Idx → EReal)
          (ix2 ⟨1024 * t.val + p.val, by have := point_lt t; have := p.isLt; omega⟩ ⟨2 * q.val + 1, by omega⟩) :=
  (iblk0_apply m c t p ⟨32 + q.val, by omega⟩).trans (deinterleaved_odd _ _ q)

/-! ## The operands handed whole to every point -/

/-- The second operand is argument 1 changed of float format, which changes no ideal value. -/
theorem entry_v6 (c : Dev nD) :
    (V m c main_v6 : S8x32x512.Idx → EReal) = (m ((c.tc : Thread nD τ).loc main_arg1) : S8x32x512.Idx → EReal) := by
  show StableHlo.after hostOps0 (fun b => m (c, b)) (Proc.devRef .tc main_v6) = _
  after_results
  rfl

/-- Window 1's block index is zero on every axis at every point. -/
theorem idx1 : ∀ t : Fin cfg0.N, win0_1.index t (0 : Fin 3) = 0 ∧ win0_1.index t (1 : Fin 3) = 0 ∧ win0_1.index t (2 : Fin 3) = 0 :=
  (by decide +kernel : ∀ t : Fin grid0.N, _)

/-- Window 1 hands every point the whole of its array, which is argument 1's values. -/
theorem iblk_whole_1 (c : Dev nD) (t : Fin cfg0.N) (i : S8x32x512.Idx) :
    (iblk m c 1 t : S8x32x512.Idx → EReal) i = (m ((c.tc : Thread nD τ).loc main_arg1) : S8x32x512.Idx → EReal) i := by
  obtain ⟨e0, e1, e2⟩ := idx1 t
  unfold iblk
  rw [View.read_apply]
  show V m c main_v6 (((cfg0.win 1).blk t).view.emb i) = _
  rw [entry_v6]
  refine congrArg _ ?_
  funext a
  apply Fin.ext
  match a with
  | ⟨0, _⟩ => show win0_1.index t (0 : Fin 3) * 8 + 1 * (i 0).val = (i 0).val; omega
  | ⟨1, _⟩ => show win0_1.index t (1 : Fin 3) * 32 + 1 * (i 1).val = (i 1).val; omega
  | ⟨2, _⟩ => show win0_1.index t (2 : Fin 3) * 512 + 1 * (i 2).val = (i 2).val; omega

/-- Window 2's block index is zero on every axis at every point. -/
theorem idx2 : ∀ t : Fin cfg0.N, win0_2.index t (0 : Fin 2) = 0 ∧ win0_2.index t (1 : Fin 2) = 0 :=
  (by decide +kernel : ∀ t : Fin grid0.N, _)

/-- Window 2 hands every point the whole of its array, which is argument 2's values. -/
theorem iblk_whole_2 (c : Dev nD) (t : Fin cfg0.N) (i : S8x512.Idx) :
    (iblk m c 2 t : S8x512.Idx → EReal) i = (m ((c.tc : Thread nD τ).loc main_arg2) : S8x512.Idx → EReal) i := by
  obtain ⟨e0, e1⟩ := idx2 t
  unfold iblk
  rw [View.read_apply]
  show V m c main_arg2 (((cfg0.win 2).blk t).view.emb i) = _
  rw [V_main_arg2]
  refine congrArg _ ?_
  funext a
  apply Fin.ext
  match a with
  | ⟨0, _⟩ => show win0_2.index t (0 : Fin 2) * 8 + 1 * (i 0).val = (i 0).val; omega
  | ⟨1, _⟩ => show win0_2.index t (1 : Fin 2) * 512 + 1 * (i 1).val = (i 1).val; omega

/-- The fourth operand is argument 3 changed of float format, which changes no ideal value. -/
theorem entry_v7 (c : Dev nD) :
    (V m c main_v7 : S8x512x512.Idx → EReal) = (m ((c.tc : Thread nD τ).loc main_arg3) : S8x512x512.Idx → EReal) := by
  show StableHlo.after hostOps0 (fun b => m (c, b)) (Proc.devRef .tc main_v7) = _
  after_results
  rfl

/-- Window 3's block index is zero on every axis at every point. -/
theorem idx3 : ∀ t : Fin cfg0.N, win0_3.index t (0 : Fin 3) = 0 ∧ win0_3.index t (1 : Fin 3) = 0 ∧ win0_3.index t (2 : Fin 3) = 0 :=
  (by decide +kernel : ∀ t : Fin grid0.N, _)

/-- Window 3 hands every point the whole of its array, which is argument 3's values. -/
theorem iblk_whole_3 (c : Dev nD) (t : Fin cfg0.N) (i : S8x512x512.Idx) :
    (iblk m c 3 t : S8x512x512.Idx → EReal) i = (m ((c.tc : Thread nD τ).loc main_arg3) : S8x512x512.Idx → EReal) i := by
  obtain ⟨e0, e1, e2⟩ := idx3 t
  unfold iblk
  rw [View.read_apply]
  show V m c main_v7 (((cfg0.win 3).blk t).view.emb i) = _
  rw [entry_v7]
  refine congrArg _ ?_
  funext a
  apply Fin.ext
  match a with
  | ⟨0, _⟩ => show win0_3.index t (0 : Fin 3) * 8 + 1 * (i 0).val = (i 0).val; omega
  | ⟨1, _⟩ => show win0_3.index t (1 : Fin 3) * 512 + 1 * (i 1).val = (i 1).val; omega
  | ⟨2, _⟩ => show win0_3.index t (2 : Fin 3) * 512 + 1 * (i 2).val = (i 2).val; omega

/-- Window 4's block index is zero on every axis at every point. -/
theorem idx4 : ∀ t : Fin cfg0.N, win0_4.index t (0 : Fin 2) = 0 ∧ win0_4.index t (1 : Fin 2) = 0 :=
  (by decide +kernel : ∀ t : Fin grid0.N, _)

/-- Window 4 hands every point the whole of its array, which is argument 4's values. -/
theorem iblk_whole_4 (c : Dev nD) (t : Fin cfg0.N) (i : S8x512.Idx) :
    (iblk m c 4 t : S8x512.Idx → EReal) i = (m ((c.tc : Thread nD τ).loc main_arg4) : S8x512.Idx → EReal) i := by
  obtain ⟨e0, e1⟩ := idx4 t
  unfold iblk
  rw [View.read_apply]
  show V m c main_arg4 (((cfg0.win 4).blk t).view.emb i) = _
  rw [V_main_arg4]
  refine congrArg _ ?_
  funext a
  apply Fin.ext
  match a with
  | ⟨0, _⟩ => show win0_4.index t (0 : Fin 2) * 8 + 1 * (i 0).val = (i 0).val; omega
  | ⟨1, _⟩ => show win0_4.index t (1 : Fin 2) * 512 + 1 * (i 1).val = (i 1).val; omega

/-- The sixth operand is argument 5 changed of float format, which changes no ideal value. -/
theorem entry_v8 (c : Dev nD) :
    (V m c main_v8 : S8x512x32.Idx → EReal) = (m ((c.tc : Thread nD τ).loc main_arg5) : S8x512x32.Idx → EReal) := by
  show StableHlo.after hostOps0 (fun b => m (c, b)) (Proc.devRef .tc main_v8) = _
  after_results
  rfl

/-- Window 5's block index is zero on every axis at every point. -/
theorem idx5 : ∀ t : Fin cfg0.N, win0_5.index t (0 : Fin 3) = 0 ∧ win0_5.index t (1 : Fin 3) = 0 ∧ win0_5.index t (2 : Fin 3) = 0 :=
  (by decide +kernel : ∀ t : Fin grid0.N, _)

/-- Window 5 hands every point the whole of its array, which is argument 5's values. -/
theorem iblk_whole_5 (c : Dev nD) (t : Fin cfg0.N) (i : S8x512x32.Idx) :
    (iblk m c 5 t : S8x512x32.Idx → EReal) i = (m ((c.tc : Thread nD τ).loc main_arg5) : S8x512x32.Idx → EReal) i := by
  obtain ⟨e0, e1, e2⟩ := idx5 t
  unfold iblk
  rw [View.read_apply]
  show V m c main_v8 (((cfg0.win 5).blk t).view.emb i) = _
  rw [entry_v8]
  refine congrArg _ ?_
  funext a
  apply Fin.ext
  match a with
  | ⟨0, _⟩ => show win0_5.index t (0 : Fin 3) * 8 + 1 * (i 0).val = (i 0).val; omega
  | ⟨1, _⟩ => show win0_5.index t (1 : Fin 3) * 512 + 1 * (i 1).val = (i 1).val; omega
  | ⟨2, _⟩ => show win0_5.index t (2 : Fin 3) * 32 + 1 * (i 2).val = (i 2).val; omega

/-- Window 6's block index is zero on every axis at every point. -/
theorem idx6 : ∀ t : Fin cfg0.N, win0_6.index t (0 : Fin 2) = 0 ∧ win0_6.index t (1 : Fin 2) = 0 :=
  (by decide +kernel : ∀ t : Fin grid0.N, _)

/-- Window 6 hands every point the whole of its array, which is argument 6's values. -/
theorem iblk_whole_6 (c : Dev nD) (t : Fin cfg0.N) (i : S8x32.Idx) :
    (iblk m c 6 t : S8x32.Idx → EReal) i = (m ((c.tc : Thread nD τ).loc main_arg6) : S8x32.Idx → EReal) i := by
  obtain ⟨e0, e1⟩ := idx6 t
  unfold iblk
  rw [View.read_apply]
  show V m c main_arg6 (((cfg0.win 6).blk t).view.emb i) = _
  rw [V_main_arg6]
  refine congrArg _ ?_
  funext a
  apply Fin.ext
  match a with
  | ⟨0, _⟩ => show win0_6.index t (0 : Fin 2) * 8 + 1 * (i 0).val = (i 0).val; omega
  | ⟨1, _⟩ => show win0_6.index t (1 : Fin 2) * 32 + 1 * (i 1).val = (i 1).val; omega

/-- The eighth operand is argument 7 changed of float format, which changes no ideal value. -/
theorem entry_v9 (c : Dev nD) :
    (V m c main_v9 : S8x32x512.Idx → EReal) = (m ((c.tc : Thread nD τ).loc main_arg7) : S8x32x512.Idx → EReal) := by
  show StableHlo.after hostOps0 (fun b => m (c, b)) (Proc.devRef .tc main_v9) = _
  after_results
  rfl

/-- Window 7's block index is zero on every axis at every point. -/
theorem idx7 : ∀ t : Fin cfg0.N, win0_7.index t (0 : Fin 3) = 0 ∧ win0_7.index t (1 : Fin 3) = 0 ∧ win0_7.index t (2 : Fin 3) = 0 :=
  (by decide +kernel : ∀ t : Fin grid0.N, _)

/-- Window 7 hands every point the whole of its array, which is argument 7's values. -/
theorem iblk_whole_7 (c : Dev nD) (t : Fin cfg0.N) (i : S8x32x512.Idx) :
    (iblk m c 7 t : S8x32x512.Idx → EReal) i = (m ((c.tc : Thread nD τ).loc main_arg7) : S8x32x512.Idx → EReal) i := by
  obtain ⟨e0, e1, e2⟩ := idx7 t
  unfold iblk
  rw [View.read_apply]
  show V m c main_v9 (((cfg0.win 7).blk t).view.emb i) = _
  rw [entry_v9]
  refine congrArg _ ?_
  funext a
  apply Fin.ext
  match a with
  | ⟨0, _⟩ => show win0_7.index t (0 : Fin 3) * 8 + 1 * (i 0).val = (i 0).val; omega
  | ⟨1, _⟩ => show win0_7.index t (1 : Fin 3) * 32 + 1 * (i 1).val = (i 1).val; omega
  | ⟨2, _⟩ => show win0_7.index t (2 : Fin 3) * 512 + 1 * (i 2).val = (i 2).val; omega

/-- Window 8's block index is zero on every axis at every point. -/
theorem idx8 : ∀ t : Fin cfg0.N, win0_8.index t (0 : Fin 2) = 0 ∧ win0_8.index t (1 : Fin 2) = 0 :=
  (by decide +kernel : ∀ t : Fin grid0.N, _)

/-- Window 8 hands every point the whole of its array, which is argument 8's values. -/
theorem iblk_whole_8 (c : Dev nD) (t : Fin cfg0.N) (i : S8x512.Idx) :
    (iblk m c 8 t : S8x512.Idx → EReal) i = (m ((c.tc : Thread nD τ).loc main_arg8) : S8x512.Idx → EReal) i := by
  obtain ⟨e0, e1⟩ := idx8 t
  unfold iblk
  rw [View.read_apply]
  show V m c main_arg8 (((cfg0.win 8).blk t).view.emb i) = _
  rw [V_main_arg8]
  refine congrArg _ ?_
  funext a
  apply Fin.ext
  match a with
  | ⟨0, _⟩ => show win0_8.index t (0 : Fin 2) * 8 + 1 * (i 0).val = (i 0).val; omega
  | ⟨1, _⟩ => show win0_8.index t (1 : Fin 2) * 512 + 1 * (i 1).val = (i 1).val; omega

/-- The tenth operand is argument 9 changed of float format, which changes no ideal value. -/
theorem entry_v10 (c : Dev nD) :
    (V m c main_v10 : S8x512x512.Idx → EReal) = (m ((c.tc : Thread nD τ).loc main_arg9) : S8x512x512.Idx → EReal) := by
  show StableHlo.after hostOps0 (fun b => m (c, b)) (Proc.devRef .tc main_v10) = _
  after_results
  rfl

/-- Window 9's block index is zero on every axis at every point. -/
theorem idx9 : ∀ t : Fin cfg0.N, win0_9.index t (0 : Fin 3) = 0 ∧ win0_9.index t (1 : Fin 3) = 0 ∧ win0_9.index t (2 : Fin 3) = 0 :=
  (by decide +kernel : ∀ t : Fin grid0.N, _)

/-- Window 9 hands every point the whole of its array, which is argument 9's values. -/
theorem iblk_whole_9 (c : Dev nD) (t : Fin cfg0.N) (i : S8x512x512.Idx) :
    (iblk m c 9 t : S8x512x512.Idx → EReal) i = (m ((c.tc : Thread nD τ).loc main_arg9) : S8x512x512.Idx → EReal) i := by
  obtain ⟨e0, e1, e2⟩ := idx9 t
  unfold iblk
  rw [View.read_apply]
  show V m c main_v10 (((cfg0.win 9).blk t).view.emb i) = _
  rw [entry_v10]
  refine congrArg _ ?_
  funext a
  apply Fin.ext
  match a with
  | ⟨0, _⟩ => show win0_9.index t (0 : Fin 3) * 8 + 1 * (i 0).val = (i 0).val; omega
  | ⟨1, _⟩ => show win0_9.index t (1 : Fin 3) * 512 + 1 * (i 1).val = (i 1).val; omega
  | ⟨2, _⟩ => show win0_9.index t (2 : Fin 3) * 512 + 1 * (i 2).val = (i 2).val; omega

/-- Window 10's block index is zero on every axis at every point. -/
theorem idx10 : ∀ t : Fin cfg0.N, win0_10.index t (0 : Fin 2) = 0 ∧ win0_10.index t (1 : Fin 2) = 0 :=
  (by decide +kernel : ∀ t : Fin grid0.N, _)

/-- Window 10 hands every point the whole of its array, which is argument 10's values. -/
theorem iblk_whole_10 (c : Dev nD) (t : Fin cfg0.N) (i : S8x512.Idx) :
    (iblk m c 10 t : S8x512.Idx → EReal) i = (m ((c.tc : Thread nD τ).loc main_arg10) : S8x512.Idx → EReal) i := by
  obtain ⟨e0, e1⟩ := idx10 t
  unfold iblk
  rw [View.read_apply]
  show V m c main_arg10 (((cfg0.win 10).blk t).view.emb i) = _
  rw [V_main_arg10]
  refine congrArg _ ?_
  funext a
  apply Fin.ext
  match a with
  | ⟨0, _⟩ => show win0_10.index t (0 : Fin 2) * 8 + 1 * (i 0).val = (i 0).val; omega
  | ⟨1, _⟩ => show win0_10.index t (1 : Fin 2) * 512 + 1 * (i 1).val = (i 1).val; omega

/-- The twelfth operand is argument 11 changed of float format, which changes no ideal value. -/
theorem entry_v11 (c : Dev nD) :
    (V m c main_v11 : S8x512x32.Idx → EReal) = (m ((c.tc : Thread nD τ).loc main_arg11) : S8x512x32.Idx → EReal) := by
  show StableHlo.after hostOps0 (fun b => m (c, b)) (Proc.devRef .tc main_v11) = _
  after_results
  rfl

/-- Window 11's block index is zero on every axis at every point. -/
theorem idx11 : ∀ t : Fin cfg0.N, win0_11.index t (0 : Fin 3) = 0 ∧ win0_11.index t (1 : Fin 3) = 0 ∧ win0_11.index t (2 : Fin 3) = 0 :=
  (by decide +kernel : ∀ t : Fin grid0.N, _)

/-- Window 11 hands every point the whole of its array, which is argument 11's values. -/
theorem iblk_whole_11 (c : Dev nD) (t : Fin cfg0.N) (i : S8x512x32.Idx) :
    (iblk m c 11 t : S8x512x32.Idx → EReal) i = (m ((c.tc : Thread nD τ).loc main_arg11) : S8x512x32.Idx → EReal) i := by
  obtain ⟨e0, e1, e2⟩ := idx11 t
  unfold iblk
  rw [View.read_apply]
  show V m c main_v11 (((cfg0.win 11).blk t).view.emb i) = _
  rw [entry_v11]
  refine congrArg _ ?_
  funext a
  apply Fin.ext
  match a with
  | ⟨0, _⟩ => show win0_11.index t (0 : Fin 3) * 8 + 1 * (i 0).val = (i 0).val; omega
  | ⟨1, _⟩ => show win0_11.index t (1 : Fin 3) * 512 + 1 * (i 1).val = (i 1).val; omega
  | ⟨2, _⟩ => show win0_11.index t (2 : Fin 3) * 32 + 1 * (i 2).val = (i 2).val; omega

/-- Window 12's block index is zero on every axis at every point. -/
theorem idx12 : ∀ t : Fin cfg0.N, win0_12.index t (0 : Fin 2) = 0 ∧ win0_12.index t (1 : Fin 2) = 0 :=
  (by decide +kernel : ∀ t : Fin grid0.N, _)

/-- Window 12 hands every point the whole of its array, which is argument 12's values. -/
theorem iblk_whole_12 (c : Dev nD) (t : Fin cfg0.N) (i : S8x32.Idx) :
    (iblk m c 12 t : S8x32.Idx → EReal) i = (m ((c.tc : Thread nD τ).loc main_arg12) : S8x32.Idx → EReal) i := by
  obtain ⟨e0, e1⟩ := idx12 t
  unfold iblk
  rw [View.read_apply]
  show V m c main_arg12 (((cfg0.win 12).blk t).view.emb i) = _
  rw [V_main_arg12]
  refine congrArg _ ?_
  funext a
  apply Fin.ext
  match a with
  | ⟨0, _⟩ => show win0_12.index t (0 : Fin 2) * 8 + 1 * (i 0).val = (i 0).val; omega
  | ⟨1, _⟩ => show win0_12.index t (1 : Fin 2) * 32 + 1 * (i 1).val = (i 1).val; omega

/-- Window 13's block index is zero on every axis at every point. -/
theorem idx13 : ∀ t : Fin cfg0.N, win0_13.index t (0 : Fin 2) = 0 ∧ win0_13.index t (1 : Fin 2) = 0 :=
  (by decide +kernel : ∀ t : Fin grid0.N, _)

/-- Window 13 hands every point the whole of its array, which is argument 13's values. -/
theorem iblk_whole_13 (c : Dev nD) (t : Fin cfg0.N) (i : S8x32.Idx) :
    (iblk m c 13 t : S8x32.Idx → EReal) i = (m ((c.tc : Thread nD τ).loc main_arg13) : S8x32.Idx → EReal) i := by
  obtain ⟨e0, e1⟩ := idx13 t
  unfold iblk
  rw [View.read_apply]
  show V m c main_arg13 (((cfg0.win 13).blk t).view.emb i) = _
  rw [V_main_arg13]
  refine congrArg _ ?_
  funext a
  apply Fin.ext
  match a with
  | ⟨0, _⟩ => show win0_13.index t (0 : Fin 2) * 8 + 1 * (i 0).val = (i 0).val; omega
  | ⟨1, _⟩ => show win0_13.index t (1 : Fin 2) * 32 + 1 * (i 1).val = (i 1).val; omega

/-- Window 14's block index is zero on every axis at every point. -/
theorem idx14 : ∀ t : Fin cfg0.N, win0_14.index t (0 : Fin 2) = 0 ∧ win0_14.index t (1 : Fin 2) = 0 :=
  (by decide +kernel : ∀ t : Fin grid0.N, _)

/-- Window 14 hands every point the whole of its array, which is argument 14's values. -/
theorem iblk_whole_14 (c : Dev nD) (t : Fin cfg0.N) (i : S8x32.Idx) :
    (iblk m c 14 t : S8x32.Idx → EReal) i = (m ((c.tc : Thread nD τ).loc main_arg14) : S8x32.Idx → EReal) i := by
  obtain ⟨e0, e1⟩ := idx14 t
  unfold iblk
  rw [View.read_apply]
  show V m c main_arg14 (((cfg0.win 14).blk t).view.emb i) = _
  rw [V_main_arg14]
  refine congrArg _ ?_
  funext a
  apply Fin.ext
  match a with
  | ⟨0, _⟩ => show win0_14.index t (0 : Fin 2) * 8 + 1 * (i 0).val = (i 0).val; omega
  | ⟨1, _⟩ => show win0_14.index t (1 : Fin 2) * 32 + 1 * (i 1).val = (i 1).val; omega

end Cert.KernelRun

end
-- ==== Proof.KernelRun.lean ====
/-
  The kernel program's run, read back as values.

  The frame run leaves each output window's array at what the points wrote back, block by block. Each point stores its
  whole block once; given the body's arithmetic as a hypothesis — the stored block at point `t`, element `(p, q)`, is
  element `(1024 t + p, q)` of one function `G` of the arguments — the blocks are the row blocks of `G`, they cover the
  array, and the array ends holding `G`. The lines after the region then undo the column split: result column `c` is
  column `c / 2 + 32 * (c % 2)` of the array.
-/
import proofs.«175251_j80573586473693_2_alg».proof.Proof.FrameKI
import proofs.«175251_j80573586473693_2_alg».proof.Proof.KernelLayout
import proofs.«175251_j80573586473693_2_alg».proof.Proof.KernelBlocks
import Idealize.ShloMosaic.Lib.ValueIdx
import Idealize.ShloMosaic.Lib.Pipeline.Value
import Idealize.ShloMosaic.Lib.Tactic

noncomputable section

namespace Cert.KernelRun

open Idealize.ShloMosaic Idealize.ShloMosaic.ValueIdx Idealize.ShloMosaic.TcCoe Idealize.SL.Sem
open Idealize.ShloMosaic.Pipeline (Dat)
open Cert.KernelIdeal Cert.KernelIdeal.Gen Cert.KernelIdeal.GenP

variable (m : (ℓ : Loc nD τ sig) → Buf (Elt Ideal) ℓ)

/-! ## The lines after the region, on one output array -/

/-- The host operations after the kernel applied to one output array: its two column halves, each given a trailing
    unit axis, concatenated along it and flattened. -/
def interleaved (G : S16384x64.Idx → EReal) : S16384x64.Idx → EReal :=
  shapeCast S16384x64
    (concatenate S16384x32x2 2
      [⟨S16384x32x1, broadcastInDim S16384x32x1 ![0, 1] bcast_S16384x32_S16384x32x1_0_1
          (extractStridedSlice S16384x32 ![0, 0] G slices_S16384x64_S16384x32_0_0)⟩,
       ⟨S16384x32x1, broadcastInDim S16384x32x1 ![0, 1] bcast_S16384x32_S16384x32x1_0_1
          (extractStridedSlice S16384x32 ![0, 32] G slices_S16384x64_S16384x32_0_32)⟩]
      concatenates_S16384x32x1_S16384x32x1_S16384x32x2_d2)
    shapeCasts_S16384x32x2_S16384x64

/-- result[r, c] = G[r, c / 2 + 32 * (c % 2)] -/
def unperm (G : FVec Ideal S16384x64 .f32) : FVec Ideal S16384x64 .f32 :=
  fun i => G (ix2 (i 0) ⟨(i 1).val / 2 + 32 * ((i 1).val % 2), by have h : (i 1).val < 64 := (i 1).isLt; omega⟩)

/-- The lines after the region compute that map. -/
theorem interleaved_eq (G : FVec Ideal S16384x64 .f32) : interleaved G = unperm G := by
  funext i
  obtain ⟨a, b, rfl⟩ : ∃ (a : Fin 16384) (b : Fin 64), i = ix2 a b := ⟨i 0, i 1, eq_ix2 i⟩
  exact interleaved_apply G _ _ _ _ _ a b

/-! ## Output window 15 -/

/-- Window 15's block index at point `t` is `(t, 0)`. -/
theorem idx15 : ∀ t : Fin cfg0.N, win0_15.index t (0 : Fin 2) = t.val ∧ win0_15.index t (1 : Fin 2) = 0 :=
  (by decide +kernel : ∀ t : Fin grid0.N, _)

/-- What point `t` writes back to window 15's array is rows `1024 t … 1024 t + 1023` of `G15 c`: the body stores the
    whole block once, and the block's element `(p, q)` sits at row `1024 t + p`, column `q` of the array. -/
theorem flushed15_eq (G15 : Dev nD → FVec Ideal S16384x64 .f32)
    (h15 : ∀ (c : Dev nD) (t : Fin cfg0.N) (p : Fin 1024) (q : Fin 64),
      GenP.out0_15 (GenP.iblk m c 0 t) (GenP.iblk m c 1 t) (GenP.iblk m c 2 t) (GenP.iblk m c 3 t) (GenP.iblk m c 4 t) (GenP.iblk m c 5 t) (GenP.iblk m c 6 t) (GenP.iblk m c 7 t) (GenP.iblk m c 8 t) (GenP.iblk m c 9 t) (GenP.iblk m c 10 t) (GenP.iblk m c 11 t) (GenP.iblk m c 12 t) (GenP.iblk m c 13 t) (GenP.iblk m c 14 t) (ix2 p q)
        = G15 c (ix2 ⟨1024 * t.val + p.val, by have := point_lt t; have := p.isLt; omega⟩ q))
    (c : Dev nD) (t : Fin cfg0.N) :
    (dats m 0 c).flushed 15 t = ((cfg0.win 15).blk t).view.read (Elt Ideal) (G15 c) := by
  show (cfg0.win 15).cut (grid0.coords t) ((dats m 0 c).after 15 t) = _
  rw [after0_15]
  funext j
  have ht := point_lt t
  have hj0 : (j 0).val < 1024 := (j 0).isLt
  have hj1 : (j 1).val < 64 := (j 1).isLt
  obtain ⟨e0, e1⟩ := idx15 t
  have hx : (cfg0.win 15).xinj (grid0.coords t) j = ix2 (⟨(j 0).val, hj0⟩ : Fin 1024) (⟨(j 1).val, hj1⟩ : Fin 64) := by
    funext a
    match a with
    | ⟨0, _⟩ => rfl
    | ⟨1, _⟩ => rfl
  rw [View.read_apply]
  refine (congrArg (out0_15 (GenP.iblk m c 0 t) (GenP.iblk m c 1 t) (GenP.iblk m c 2 t) (GenP.iblk m c 3 t) (GenP.iblk m c 4 t) (GenP.iblk m c 5 t) (GenP.iblk m c 6 t) (GenP.iblk m c 7 t) (GenP.iblk m c 8 t) (GenP.iblk m c 9 t) (GenP.iblk m c 10 t) (GenP.iblk m c 11 t) (GenP.iblk m c 12 t) (GenP.iblk m c 13 t) (GenP.iblk m c 14 t)) hx).trans
    ((h15 c t ⟨(j 0).val, hj0⟩ ⟨(j 1).val, hj1⟩).trans ?_)
  refine congrArg (G15 c) ?_
  funext a
  apply Fin.ext
  match a with
  | ⟨0, _⟩ => show 1024 * t.val + (j 0).val = win0_15.index t (0 : Fin 2) * 1024 + 1 * (j 0).val; omega
  | ⟨1, _⟩ => show (j 1).val = win0_15.index t (1 : Fin 2) * 64 + 1 * (j 1).val; omega

/-- An index of the array is in point `t`'s block iff each coordinate is in the block's range on its axis. -/
theorem mem_blk15 (t : Fin cfg0.N) (i : S16384x64.Idx) :
    i ∈ ((cfg0.win 15).blk t).view.set ↔ ∀ a : Fin 2, win0_15.index t a * S1024x64.size a ≤ (i a).val
      ∧ (i a).val < win0_15.index t a * S1024x64.size a + S1024x64.size a := by
  show i ∈ ((View.whole main_v12_0).slice (win0_15.rect t)).set ↔ _
  rw [View.set_slice_whole, Rect.mem_set_unit]
  exact Iff.rfl

/-- Row `r` of the array is in the block of point `r / 1024`, which writes back. -/
theorem cover15 (i : S16384x64.Idx) :
    ∃ t : Fin cfg0.N, (cfg0.win 15).flush t = true ∧ i ∈ ((cfg0.win 15).blk t).view.set := by
  have hi0 : (i 0).val < 16384 := (i 0).isLt
  have hi1 : (i 1).val < 64 := (i 1).isLt
  have hN : (i 0).val / 1024 < cfg0.N := lt_of_lt_of_eq (show (i 0).val / 1024 < 16 by omega) N_0.symm
  obtain ⟨e0, e1⟩ := idx15 ⟨(i 0).val / 1024, hN⟩
  refine ⟨⟨(i 0).val / 1024, hN⟩, flush0_15 _, ?_⟩
  rw [mem_blk15]
  intro a
  match a with
  | ⟨0, _⟩ =>
    show win0_15.index ⟨(i 0).val / 1024, hN⟩ (0 : Fin 2) * 1024 ≤ (i 0).val
      ∧ (i 0).val < win0_15.index ⟨(i 0).val / 1024, hN⟩ (0 : Fin 2) * 1024 + 1024
    rw [e0]
    show (i 0).val / 1024 * 1024 ≤ (i 0).val ∧ (i 0).val < (i 0).val / 1024 * 1024 + 1024
    omega
  | ⟨1, _⟩ =>
    show win0_15.index ⟨(i 0).val / 1024, hN⟩ (1 : Fin 2) * 64 ≤ (i 1).val
      ∧ (i 1).val < win0_15.index ⟨(i 0).val / 1024, hN⟩ (1 : Fin 2) * 64 + 64
    rw [e1]
    omega

/-- So the array ends holding `G15 c`. -/
theorem final15 (G15 : Dev nD → FVec Ideal S16384x64 .f32)
    (h15 : ∀ (c : Dev nD) (t : Fin cfg0.N) (p : Fin 1024) (q : Fin 64),
      GenP.out0_15 (GenP.iblk m c 0 t) (GenP.iblk m c 1 t) (GenP.iblk m c 2 t) (GenP.iblk m c 3 t) (GenP.iblk m c 4 t) (GenP.iblk m c 5 t) (GenP.iblk m c 6 t) (GenP.iblk m c 7 t) (GenP.iblk m c 8 t) (GenP.iblk m c 9 t) (GenP.iblk m c 10 t) (GenP.iblk m c 11 t) (GenP.iblk m c 12 t) (GenP.iblk m c 13 t) (GenP.iblk m c 14 t) (ix2 p q)
        = G15 c (ix2 ⟨1024 * t.val + p.val, by have := point_lt t; have := p.isLt; omega⟩ q))
    (c : Dev nD) : (dats m 0 c).arrAt 15 cfg0.N = G15 c :=
  (dats m 0 c).arrAt_eq_of_cover 15 (G15 c) (fun t _ => flushed15_eq m G15 h15 c t) cover15

/-! ## Output window 16 -/

/-- Window 16's block index at point `t` is `(t, 0)`. -/
theorem idx16 : ∀ t : Fin cfg0.N, win0_16.index t (0 : Fin 2) = t.val ∧ win0_16.index t (1 : Fin 2) = 0 :=
  (by decide +kernel : ∀ t : Fin grid0.N, _)

/-- What point `t` writes back to window 16's array is rows `1024 t … 1024 t + 1023` of `G16 c`: the body stores the
    whole block once, and the block's element `(p, q)` sits at row `1024 t + p`, column `q` of the array. -/
theorem flushed16_eq (G16 : Dev nD → FVec Ideal S16384x64 .f32)
    (h16 : ∀ (c : Dev nD) (t : Fin cfg0.N) (p : Fin 1024) (q : Fin 64),
      GenP.out0_16 (GenP.iblk m c 0 t) (GenP.iblk m c 1 t) (GenP.iblk m c 2 t) (GenP.iblk m c 3 t) (GenP.iblk m c 4 t) (GenP.iblk m c 5 t) (GenP.iblk m c 6 t) (GenP.iblk m c 7 t) (GenP.iblk m c 8 t) (GenP.iblk m c 9 t) (GenP.iblk m c 10 t) (GenP.iblk m c 11 t) (GenP.iblk m c 12 t) (GenP.iblk m c 13 t) (GenP.iblk m c 14 t) (ix2 p q)
        = G16 c (ix2 ⟨1024 * t.val + p.val, by have := point_lt t; have := p.isLt; omega⟩ q))
    (c : Dev nD) (t : Fin cfg0.N) :
    (dats m 0 c).flushed 16 t = ((cfg0.win 16).blk t).view.read (Elt Ideal) (G16 c) := by
  show (cfg0.win 16).cut (grid0.coords t) ((dats m 0 c).after 16 t) = _
  rw [after0_16]
  funext j
  have ht := point_lt t
  have hj0 : (j 0).val < 1024 := (j 0).isLt
  have hj1 : (j 1).val < 64 := (j 1).isLt
  obtain ⟨e0, e1⟩ := idx16 t
  have hx : (cfg0.win 16).xinj (grid0.coords t) j = ix2 (⟨(j 0).val, hj0⟩ : Fin 1024) (⟨(j 1).val, hj1⟩ : Fin 64) := by
    funext a
    match a with
    | ⟨0, _⟩ => rfl
    | ⟨1, _⟩ => rfl
  rw [View.read_apply]
  refine (congrArg (out0_16 (GenP.iblk m c 0 t) (GenP.iblk m c 1 t) (GenP.iblk m c 2 t) (GenP.iblk m c 3 t) (GenP.iblk m c 4 t) (GenP.iblk m c 5 t) (GenP.iblk m c 6 t) (GenP.iblk m c 7 t) (GenP.iblk m c 8 t) (GenP.iblk m c 9 t) (GenP.iblk m c 10 t) (GenP.iblk m c 11 t) (GenP.iblk m c 12 t) (GenP.iblk m c 13 t) (GenP.iblk m c 14 t)) hx).trans
    ((h16 c t ⟨(j 0).val, hj0⟩ ⟨(j 1).val, hj1⟩).trans ?_)
  refine congrArg (G16 c) ?_
  funext a
  apply Fin.ext
  match a with
  | ⟨0, _⟩ => show 1024 * t.val + (j 0).val = win0_16.index t (0 : Fin 2) * 1024 + 1 * (j 0).val; omega
  | ⟨1, _⟩ => show (j 1).val = win0_16.index t (1 : Fin 2) * 64 + 1 * (j 1).val; omega

/-- An index of the array is in point `t`'s block iff each coordinate is in the block's range on its axis. -/
theorem mem_blk16 (t : Fin cfg0.N) (i : S16384x64.Idx) :
    i ∈ ((cfg0.win 16).blk t).view.set ↔ ∀ a : Fin 2, win0_16.index t a * S1024x64.size a ≤ (i a).val
      ∧ (i a).val < win0_16.index t a * S1024x64.size a + S1024x64.size a := by
  show i ∈ ((View.whole main_v12_1).slice (win0_16.rect t)).set ↔ _
  rw [View.set_slice_whole, Rect.mem_set_unit]
  exact Iff.rfl

/-- Row `r` of the array is in the block of point `r / 1024`, which writes back. -/
theorem cover16 (i : S16384x64.Idx) :
    ∃ t : Fin cfg0.N, (cfg0.win 16).flush t = true ∧ i ∈ ((cfg0.win 16).blk t).view.set := by
  have hi0 : (i 0).val < 16384 := (i 0).isLt
  have hi1 : (i 1).val < 64 := (i 1).isLt
  have hN : (i 0).val / 1024 < cfg0.N := lt_of_lt_of_eq (show (i 0).val / 1024 < 16 by omega) N_0.symm
  obtain ⟨e0, e1⟩ := idx16 ⟨(i 0).val / 1024, hN⟩
  refine ⟨⟨(i 0).val / 1024, hN⟩, flush0_16 _, ?_⟩
  rw [mem_blk16]
  intro a
  match a with
  | ⟨0, _⟩ =>
    show win0_16.index ⟨(i 0).val / 1024, hN⟩ (0 : Fin 2) * 1024 ≤ (i 0).val
      ∧ (i 0).val < win0_16.index ⟨(i 0).val / 1024, hN⟩ (0 : Fin 2) * 1024 + 1024
    rw [e0]
    show (i 0).val / 1024 * 1024 ≤ (i 0).val ∧ (i 0).val < (i 0).val / 1024 * 1024 + 1024
    omega
  | ⟨1, _⟩ =>
    show win0_16.index ⟨(i 0).val / 1024, hN⟩ (1 : Fin 2) * 64 ≤ (i 1).val
      ∧ (i 1).val < win0_16.index ⟨(i 0).val / 1024, hN⟩ (1 : Fin 2) * 64 + 64
    rw [e1]
    omega

/-- So the array ends holding `G16 c`. -/
theorem final16 (G16 : Dev nD → FVec Ideal S16384x64 .f32)
    (h16 : ∀ (c : Dev nD) (t : Fin cfg0.N) (p : Fin 1024) (q : Fin 64),
      GenP.out0_16 (GenP.iblk m c 0 t) (GenP.iblk m c 1 t) (GenP.iblk m c 2 t) (GenP.iblk m c 3 t) (GenP.iblk m c 4 t) (GenP.iblk m c 5 t) (GenP.iblk m c 6 t) (GenP.iblk m c 7 t) (GenP.iblk m c 8 t) (GenP.iblk m c 9 t) (GenP.iblk m c 10 t) (GenP.iblk m c 11 t) (GenP.iblk m c 12 t) (GenP.iblk m c 13 t) (GenP.iblk m c 14 t) (ix2 p q)
        = G16 c (ix2 ⟨1024 * t.val + p.val, by have := point_lt t; have := p.isLt; omega⟩ q))
    (c : Dev nD) : (dats m 0 c).arrAt 16 cfg0.N = G16 c :=
  (dats m 0 c).arrAt_eq_of_cover 16 (G16 c) (fun t _ => flushed16_eq m G16 h16 c t) cover16

/-! ## The lines after the region -/

/-- What the lines after the region leave in `main_v18`: the inverse column map of window 15's array. -/
theorem tail_v18 (c : Dev nD) (G : FVec Ideal S16384x64 .f32) (hG : (dats m 0 c).arrAt 15 cfg0.N = G) :
    Pipeline.afterTail₀ cfgs (dats m) 0 (V0 m) [hostOps1] c main_v18 = unperm G := by
  unfold Pipeline.afterTail₀
  show StableHlo.after hostOps1 _ (Proc.devRef .tc main_v18) = _
  after_results
  have e : Pipeline.withArrays (cfgs 0).spec c (V0 m c) (fun w => (dats m 0 c).arrAt w (cfgs 0).N)
      (Proc.devRef .tc main_v12_0) = G :=
    (Pipeline.withArrays_arr spec0 launch0.win.arr_inj c _ _ 15).trans hG
  rw [e]
  exact interleaved_eq G

/-- What the lines after the region leave in `main_v24`: the inverse column map of window 16's array. -/
theorem tail_v24 (c : Dev nD) (G : FVec Ideal S16384x64 .f32) (hG : (dats m 0 c).arrAt 16 cfg0.N = G) :
    Pipeline.afterTail₀ cfgs (dats m) 0 (V0 m) [hostOps1] c main_v24 = unperm G := by
  unfold Pipeline.afterTail₀
  show StableHlo.after hostOps1 _ (Proc.devRef .tc main_v24) = _
  after_results
  have e : Pipeline.withArrays (cfgs 0).spec c (V0 m c) (fun w => (dats m 0 c).arrAt w (cfgs 0).N)
      (Proc.devRef .tc main_v12_1) = G :=
    (Pipeline.withArrays_arr spec0 launch0.win.arr_inj c _ _ 16).trans hG
  rw [e]
  exact interleaved_eq G

/-! ## The run, read -/

/-- The frame run re-posted: each result array at the inverse column map of the function the body's arithmetic gives
    (`h15`, `h16`: the body's stores at a point, element by element, as rows of `G15 c`, `G16 c`), the arguments
    unchanged. -/
theorem run (ρ : Dev nD → PrngReg) (G15 G16 : Dev nD → FVec Ideal S16384x64 .f32)
    (h15 : ∀ (c : Dev nD) (t : Fin cfg0.N) (p : Fin 1024) (q : Fin 64),
      GenP.out0_15 (GenP.iblk m c 0 t) (GenP.iblk m c 1 t) (GenP.iblk m c 2 t) (GenP.iblk m c 3 t) (GenP.iblk m c 4 t) (GenP.iblk m c 5 t) (GenP.iblk m c 6 t) (GenP.iblk m c 7 t) (GenP.iblk m c 8 t) (GenP.iblk m c 9 t) (GenP.iblk m c 10 t) (GenP.iblk m c 11 t) (GenP.iblk m c 12 t) (GenP.iblk m c 13 t) (GenP.iblk m c 14 t) (ix2 p q)
        = G15 c (ix2 ⟨1024 * t.val + p.val, by have := point_lt t; have := p.isLt; omega⟩ q))
    (h16 : ∀ (c : Dev nD) (t : Fin cfg0.N) (p : Fin 1024) (q : Fin 64),
      GenP.out0_16 (GenP.iblk m c 0 t) (GenP.iblk m c 1 t) (GenP.iblk m c 2 t) (GenP.iblk m c 3 t) (GenP.iblk m c 4 t) (GenP.iblk m c 5 t) (GenP.iblk m c 6 t) (GenP.iblk m c 7 t) (GenP.iblk m c 8 t) (GenP.iblk m c 9 t) (GenP.iblk m c 10 t) (GenP.iblk m c 11 t) (GenP.iblk m c 12 t) (GenP.iblk m c 13 t) (GenP.iblk m c 14 t) (ix2 p q)
        = G16 c (ix2 ⟨1024 * t.val + p.val, by have := point_lt t; have := p.isLt; omega⟩ q)) :
    θ_run (defs (F := Ideal)) (onTc (τ := τ) (main (F := Ideal))) ⟨m, fun _ => 0, ρ⟩ fun r => ∀ c : Dev nD,
      r.2.mem ((c.tc : Thread nD τ).loc main_v18) = unperm (G15 c)
      ∧ r.2.mem ((c.tc : Thread nD τ).loc main_v24) = unperm (G16 c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun r h c =>
    ⟨((h c).2 main_v18 (Pipeline.mem_restRefs_of main_v18 (by decide) (by decide))).trans
        (tail_v18 m c (G15 c) (final15 m G15 h15 c)),
      ((h c).2 main_v24 (Pipeline.mem_restRefs_of main_v24 (by decide) (by decide))).trans
        (tail_v24 m c (G16 c) (final16 m G16 h16 c)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 2).trans (((dats m 0 c).arrAt_in 2 rfl _).trans ((A_eq m c 2).trans (V_main_arg2 m c))),
      (((h c).2 main_arg3 (Pipeline.mem_restRefs_of main_arg3 (by decide) (by decide))).trans (W_main_arg3 m (dats m) c)),
      ((h c).1 4).trans (((dats m 0 c).arrAt_in 4 rfl _).trans ((A_eq m c 4).trans (V_main_arg4 m c))),
      (((h c).2 main_arg5 (Pipeline.mem_restRefs_of main_arg5 (by decide) (by decide))).trans (W_main_arg5 m (dats m) c)),
      ((h c).1 6).trans (((dats m 0 c).arrAt_in 6 rfl _).trans ((A_eq m c 6).trans (V_main_arg6 m c))),
      (((h c).2 main_arg7 (Pipeline.mem_restRefs_of main_arg7 (by decide) (by decide))).trans (W_main_arg7 m (dats m) c)),
      ((h c).1 8).trans (((dats m 0 c).arrAt_in 8 rfl _).trans ((A_eq m c 8).trans (V_main_arg8 m c))),
      (((h c).2 main_arg9 (Pipeline.mem_restRefs_of main_arg9 (by decide) (by decide))).trans (W_main_arg9 m (dats m) c)),
      ((h c).1 10).trans (((dats m 0 c).arrAt_in 10 rfl _).trans ((A_eq m c 10).trans (V_main_arg10 m c))),
      (((h c).2 main_arg11 (Pipeline.mem_restRefs_of main_arg11 (by decide) (by decide))).trans (W_main_arg11 m (dats m) c)),
      ((h c).1 12).trans (((dats m 0 c).arrAt_in 12 rfl _).trans ((A_eq m c 12).trans (V_main_arg12 m c))),
      ((h c).1 13).trans (((dats m 0 c).arrAt_in 13 rfl _).trans ((A_eq m c 13).trans (V_main_arg13 m c))),
      ((h c).1 14).trans (((dats m 0 c).arrAt_in 14 rfl _).trans ((A_eq m c 14).trans (V_main_arg14 m c)))⟩)
    (run_main m ρ)

end Cert.KernelRun

end
-- ==== Proof.Bridge.lean ====
/-
  The kernel's two results, as functions of its arguments.

  At every grid point the fifteen input blocks are what `Cert.BlockRows.Inputs` asks (the first is rows
  `1024 t … 1024 t + 1023` of the input with its even columns first; the others are the parameter arrays whole), so the
  two stored blocks are those rows of `perm` of the reference's two final arrays, and the program's two results are
  `unperm (perm ·)` of them.  Un-permuting the permuted array gives the array back: column `c` is fetched from position
  `c / 2` of the even half when `c` is even and of the odd half when `c` is odd.
-/
import proofs.«175251_j80573586473693_2_alg».proof.Proof.BlockRows
import proofs.«175251_j80573586473693_2_alg».proof.Proof.KernelRun

noncomputable section

namespace Cert.Bridge

open Idealize.ShloMosaic Idealize.ShloMosaic.ValueIdx Idealize.ShloMosaic.TcCoe Idealize.SL.Sem
open Cert.KernelIdeal Cert.KernelIdeal.Gen Cert.KernelIdeal.GenP Cert.RefHalves Cert.ColIdx Cert.RowSteps Cert.BlockRows Cert.KernelRun

/-- Un-permuting the permuted array gives the array back. -/
theorem unperm_perm (z : FVec Ideal Cert.ReferenceIdeal.S16384x64 .f32) : unperm (perm z) = z := by
  funext i
  obtain ⟨r, c, rfl⟩ : ∃ (r : Fin 16384) (c : Fin 64), i = ix2 r c := ⟨i 0, i 1, eq_ix2 i⟩
  show perm z (ix2 r ⟨c.val / 2 + 32 * (c.val % 2), _⟩) = z (ix2 r c)
  rcases Nat.mod_two_eq_zero_or_one c.val with h0 | h1
  · have hq : c.val / 2 + 32 * (c.val % 2) < 32 := by have := c.isLt; omega
    rw [perm_left z r _ hq, evens_apply]
    exact congrArg (fun k => z (ix2 r k)) (Fin.ext (by show 2 * (c.val / 2 + 32 * (c.val % 2)) = c.val; omega))
  · have hq : ¬ c.val / 2 + 32 * (c.val % 2) < 32 := by omega
    rw [perm_right z r _ hq, odds_apply]
    exact congrArg (fun k => z (ix2 r k))
      (Fin.ext (by show 2 * (c.val / 2 + 32 * (c.val % 2) - 32) + 1 = c.val; have := c.isLt; omega))

section Run

variable (m : (ℓ : Loc nD τ sig) → Buf (Elt Ideal) ℓ)

/-- The reference's first final array of the kernel's own arguments on core `c`. -/
def Zfin (c : Dev nD) : FVec Ideal Cert.ReferenceIdeal.S16384x64 .f32 :=
  Cert.RefDefs.Z8 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12))
        (m ((c.tc : Thread Cert.KernelIdeal.nD Cert.KernelIdeal.τ).loc Cert.KernelIdeal.main_arg13))
        (m ((c.tc : Thread Cert.KernelIdeal.nD Cert.KernelIdeal.τ).loc Cert.KernelIdeal.main_arg14))

/-- The second. -/
def Lfin (c : Dev nD) : FVec Ideal Cert.ReferenceIdeal.S16384x64 .f32 :=
  Cert.RefDefs.L8 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12))
        (m ((c.tc : Thread Cert.KernelIdeal.nD Cert.KernelIdeal.τ).loc Cert.KernelIdeal.main_arg13))
        (m ((c.tc : Thread Cert.KernelIdeal.nD Cert.KernelIdeal.τ).loc Cert.KernelIdeal.main_arg14))

/-- The fifteen input blocks at grid point `t`. -/
theorem inputs (c : Dev nD) (t : Fin cfg0.N) :
    Inputs (1024 * t.val) (GenP.iblk m c 0 t) (GenP.iblk m c 1 t) (GenP.iblk m c 2 t) (GenP.iblk m c 3 t) (GenP.iblk m c 4 t) (GenP.iblk m c 5 t) (GenP.iblk m c 6 t) (GenP.iblk m c 7 t) (GenP.iblk m c 8 t) (GenP.iblk m c 9 t) (GenP.iblk m c 10 t) (GenP.iblk m c 11 t) (GenP.iblk m c 12 t) (GenP.iblk m c 13 t) (GenP.iblk m c 14 t)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12))
        (m ((c.tc : Thread Cert.KernelIdeal.nD Cert.KernelIdeal.τ).loc Cert.KernelIdeal.main_arg13))
        (m ((c.tc : Thread Cert.KernelIdeal.nD Cert.KernelIdeal.τ).loc Cert.KernelIdeal.main_arg14)) where
  hE := fun p q h hq => by
    have e : (⟨0 + q.val, hq⟩ : Fin 64) = ⟨q.val, by have := q.isLt; omega⟩ := Fin.ext (Nat.zero_add _)
    rw [e]
    exact iblk0_even m c t p q
  hO := fun p q h hq => iblk0_odd m c t p q
  h1 := iblk_whole_1 m c t
  h2 := iblk_whole_2 m c t
  h3 := iblk_whole_3 m c t
  h4 := iblk_whole_4 m c t
  h5 := iblk_whole_5 m c t
  h6 := iblk_whole_6 m c t
  h7 := iblk_whole_7 m c t
  h8 := iblk_whole_8 m c t
  h9 := iblk_whole_9 m c t
  h10 := iblk_whole_10 m c t
  h11 := iblk_whole_11 m c t
  h12 := iblk_whole_12 m c t
  h13 := iblk_whole_13 m c t
  h14 := iblk_whole_14 m c t

/-- The first stored block at grid point `t`: rows `1024 t … 1024 t + 1023` of `perm` of the reference's first final array. -/
theorem stored15 (c : Dev nD) (t : Fin cfg0.N) (p : Fin 1024) (q : Fin 64) :
    GenP.out0_15 (GenP.iblk m c 0 t) (GenP.iblk m c 1 t) (GenP.iblk m c 2 t) (GenP.iblk m c 3 t) (GenP.iblk m c 4 t) (GenP.iblk m c 5 t) (GenP.iblk m c 6 t) (GenP.iblk m c 7 t) (GenP.iblk m c 8 t) (GenP.iblk m c 9 t) (GenP.iblk m c 10 t) (GenP.iblk m c 11 t) (GenP.iblk m c 12 t) (GenP.iblk m c 13 t) (GenP.iblk m c 14 t) (ix2 p q)
      = perm (Zfin m c) (ix2 ⟨1024 * t.val + p.val, by have := point_lt t; have := p.isLt; omega⟩ q) :=
  out0_15_apply (inputs m c t) p q _

/-- The second stored block: the same rows of `perm` of the second final array. -/
theorem stored16 (c : Dev nD) (t : Fin cfg0.N) (p : Fin 1024) (q : Fin 64) :
    GenP.out0_16 (GenP.iblk m c 0 t) (GenP.iblk m c 1 t) (GenP.iblk m c 2 t) (GenP.iblk m c 3 t) (GenP.iblk m c 4 t) (GenP.iblk m c 5 t) (GenP.iblk m c 6 t) (GenP.iblk m c 7 t) (GenP.iblk m c 8 t) (GenP.iblk m c 9 t) (GenP.iblk m c 10 t) (GenP.iblk m c 11 t) (GenP.iblk m c 12 t) (GenP.iblk m c 13 t) (GenP.iblk m c 14 t) (ix2 p q)
      = perm (Lfin m c) (ix2 ⟨1024 * t.val + p.val, by have := point_lt t; have := p.isLt; omega⟩ q) :=
  out0_16_apply (inputs m c t) p q _

end Run

end Cert.Bridge

end
-- ==== Proof.RefRunT0.lean ====
/-
  The reference program's operations, tabulated: @main's straight line cut into consecutive segments (a cut at each
  window of the printed program and at each coupling layer's end), each segment the literal list of its host operations
  in program order, a call of the outlined maximum-with-zero spelt as its three operations over the call's buffers;
  beside each list, the references it writes, in order.
-/
import proofs.«175251_j80573586473693_2_alg».proof.ReferenceIdeal
import Idealize.ShloMosaic.Lib.StableHlo.Run

noncomputable section

namespace Cert.RefRun

open Cert.ReferenceIdeal Idealize.ShloMosaic Idealize.ShloMosaic.TcCoe Idealize.SL.Sem Idealize.ShloMosaic.StableHlo

variable {F : FTy → Type} [FloatOps F] [Facts]

open Facts₀ Facts

/-- Segment 0: 36 operations, from the one writing `main_c` to the one writing `main_v0`. -/
abbrev seg0 : List (HloOp τ sig (Elt F)) :=
  [ StableHlo.nullary main_c (fun i => lit0 (S32.rowMajor i)),
    StableHlo.nullary main_c_0 (constantI S32 1 0#1),
    StableHlo.nullary main_c_1 (fun i => lit1 (S32.rowMajor i)),
    StableHlo.nullary main_c_2 (constantI S32 1 0#1),
    StableHlo.nullary main_c_3 (constantI S32 1 0#1),
    StableHlo.nullary main_c_4 (constantI S32 1 0#1),
    StableHlo.nullary main_c_5 (constantI S32 1 0#1),
    StableHlo.nullary main_c_6 (constantI S32 1 0#1),
    StableHlo.nullary main_c_7 (constantI S32 1 0#1),
    StableHlo.nullary main_c_8 (constantI S32 1 0#1),
    StableHlo.nullary main_c_9 (constantI S32 1 0#1),
    StableHlo.nullary main_c_10 (constantI S32 1 0#1),
    StableHlo.nullary main_c_11 (constantI S32 1 0#1),
    StableHlo.nullary main_c_12 (constantI S32 1 0#1),
    StableHlo.nullary main_c_13 (constantI S32 1 0#1),
    StableHlo.nullary main_c_14 (constantI S32 1 0#1),
    StableHlo.nullary main_c_15 (constantI S32 1 0#1),
    StableHlo.nullary main_c_16 (constantI S32 1 0#1),
    StableHlo.nullary main_c_17 (constantI S32 1 0#1),
    StableHlo.nullary main_c_18 (constantI S32 1 0#1),
    StableHlo.nullary main_c_19 (constantI S32 1 0#1),
    StableHlo.nullary main_c_20 (constantI S32 1 0#1),
    StableHlo.nullary main_c_21 (constantI S32 1 0#1),
    StableHlo.nullary main_c_22 (constantI S32 1 0#1),
    StableHlo.nullary main_c_23 (constantI S32 1 0#1),
    StableHlo.nullary main_c_24 (constantI S32 1 0#1),
    StableHlo.nullary main_c_25 (constantI S32 1 0#1),
    StableHlo.nullary main_c_26 (constantI S32 1 0#1),
    StableHlo.nullary main_c_27 (constantI S32 1 0#1),
    StableHlo.nullary main_c_28 (constantI S32 1 0#1),
    StableHlo.nullary main_c_29 (constantI S32 1 0#1),
    StableHlo.nullary main_c_30 (constantI S32 1 0#1),
    StableHlo.nullary main_c_31 (constantI S32 1 0#1),
    StableHlo.nullary main_c_32 (constantI S32 1 0#1),
    StableHlo.nullary main_cst (constant S_ .f32 0x00000000#32),
    StableHlo.unary main_cst main_v0 (broadcastInDim S16384x64 ![] bcast_S_S16384x64 : (⟨S_, .f32⟩ : BufTy).Contents (Elt F) → (⟨S16384x64, .f32⟩ : BufTy).Contents (Elt F)) ]

/-- What segment 0 writes, in order. -/
abbrev seg0_w : List (Ref sig .tc) :=
  [main_c, main_c_0, main_c_1, main_c_2, main_c_3, main_c_4, main_c_5, main_c_6, main_c_7, main_c_8, main_c_9, main_c_10, main_c_11, main_c_12, main_c_13, main_c_14, main_c_15, main_c_16, main_c_17, main_c_18, main_c_19, main_c_20, main_c_21, main_c_22, main_c_23, main_c_24, main_c_25, main_c_26, main_c_27, main_c_28, main_c_29, main_c_30, main_c_31, main_c_32, main_cst, main_v0]

theorem seg0_sub : (seg0 : List (HloOp τ sig (Elt F))).Forall fun op => op.bufs ⊆ tcRefs τ sig :=
  ⟨nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., unary_bufs_sub ..⟩

/-- Segment 1: 24 operations, from the one writing `main_c_33` to the one writing `main_v22`. -/
abbrev seg1 : List (HloOp τ sig (Elt F)) :=
  [ StableHlo.nullary main_c_33 (constantI S_ 32 64#32),
    StableHlo.unary main_c_33 main_v1 (broadcastInDim S32 ![] bcast_S_S32 : (⟨S_, .i32⟩ : BufTy).Contents (Elt F) → (⟨S32, .i32⟩ : BufTy).Contents (Elt F)),
    StableHlo.binary main_c main_v1 main_v2 (addi : (⟨S32, .i32⟩ : BufTy).Contents (Elt F) → (⟨S32, .i32⟩ : BufTy).Contents (Elt F) → (⟨S32, .i32⟩ : BufTy).Contents (Elt F)),
    StableHlo.ternary main_c_0 main_v2 main_c main_v3 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.unary main_v3 main_v4 (broadcastInDim S32x1 ![0] bcast_S32_S32x1_0 : (⟨S32, .i32⟩ : BufTy).Contents (Elt F) → (⟨S32x1, .i32⟩ : BufTy).Contents (Elt F)),
    StableHlo.binary main_arg0 main_v4 main_v5 ((fun x i => Host.gather gather_S16384x64_S32x1_S16384x32_0_1_n_n_1_1_163841 x i) : (⟨S16384x64, .f32⟩ : BufTy).Contents (Elt F) → (⟨S32x1, .i32⟩ : BufTy).Contents (Elt F) → (⟨S16384x32, .f32⟩ : BufTy).Contents (Elt F)),
    StableHlo.nullary main_c_34 (constantI S_ 32 64#32),
    StableHlo.unary main_c_34 main_v6 (broadcastInDim S32 ![] bcast_S_S32 : (⟨S_, .i32⟩ : BufTy).Contents (Elt F) → (⟨S32, .i32⟩ : BufTy).Contents (Elt F)),
    StableHlo.binary main_c_1 main_v6 main_v7 (addi : (⟨S32, .i32⟩ : BufTy).Contents (Elt F) → (⟨S32, .i32⟩ : BufTy).Contents (Elt F) → (⟨S32, .i32⟩ : BufTy).Contents (Elt F)),
    StableHlo.ternary main_c_2 main_v7 main_c_1 main_v8 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.unary main_v8 main_v9 (broadcastInDim S32x1 ![0] bcast_S32_S32x1_0 : (⟨S32, .i32⟩ : BufTy).Contents (Elt F) → (⟨S32x1, .i32⟩ : BufTy).Contents (Elt F)),
    StableHlo.binary main_arg0 main_v9 main_v10 ((fun x i => Host.gather gather_S16384x64_S32x1_S16384x32_0_1_n_n_1_1_163841 x i) : (⟨S16384x64, .f32⟩ : BufTy).Contents (Elt F) → (⟨S32x1, .i32⟩ : BufTy).Contents (Elt F) → (⟨S16384x32, .f32⟩ : BufTy).Contents (Elt F)),
    StableHlo.unary main_arg1 main_v11 ((extractStridedSlice S1x32x512 ![0, 0, 0] · slices_S8x32x512_S1x32x512_0_0_0) : (⟨S8x32x512, .f32⟩ : BufTy).Contents (Elt F) → (⟨S1x32x512, .f32⟩ : BufTy).Contents (Elt F)),
    StableHlo.reshape main_v11 main_v12 rfl shapeCasts_S1x32x512_S32x512,
    StableHlo.unary main_arg2 main_v13 ((extractStridedSlice S1x512 ![0, 0] · slices_S8x512_S1x512_0_0) : (⟨S8x512, .f32⟩ : BufTy).Contents (Elt F) → (⟨S1x512, .f32⟩ : BufTy).Contents (Elt F)),
    StableHlo.reshape main_v13 main_v14 rfl shapeCasts_S1x512_S512,
    StableHlo.unary main_arg3 main_v15 ((extractStridedSlice S1x512x512 ![0, 0, 0] · slices_S8x512x512_S1x512x512_0_0_0) : (⟨S8x512x512, .f32⟩ : BufTy).Contents (Elt F) → (⟨S1x512x512, .f32⟩ : BufTy).Contents (Elt F)),
    StableHlo.reshape main_v15 main_v16 rfl shapeCasts_S1x512x512_S512x512,
    StableHlo.unary main_arg4 main_v17 ((extractStridedSlice S1x512 ![0, 0] · slices_S8x512_S1x512_0_0) : (⟨S8x512, .f32⟩ : BufTy).Contents (Elt F) → (⟨S1x512, .f32⟩ : BufTy).Contents (Elt F)),
    StableHlo.reshape main_v17 main_v18 rfl shapeCasts_S1x512_S512,
    StableHlo.unary main_arg5 main_v19 ((extractStridedSlice S1x512x32 ![0, 0, 0] · slices_S8x512x32_S1x512x32_0_0_0) : (⟨S8x512x32, .f32⟩ : BufTy).Contents (Elt F) → (⟨S1x512x32, .f32⟩ : BufTy).Contents (Elt F)),
    StableHlo.reshape main_v19 main_v20 rfl shapeCasts_S1x512x32_S512x32,
    StableHlo.unary main_arg6 main_v21 ((extractStridedSlice S1x32 ![0, 0] · slices_S8x32_S1x32_0_0) : (⟨S8x32, .f32⟩ : BufTy).Contents (Elt F) → (⟨S1x32, .f32⟩ : BufTy).Contents (Elt F)),
    StableHlo.reshape main_v21 main_v22 rfl shapeCasts_S1x32_S32 ]

/-- What segment 1 writes, in order. -/
abbrev seg1_w : List (Ref sig .tc) :=
  [main_c_33, main_v1, main_v2, main_v3, main_v4, main_v5, main_c_34, main_v6, main_v7, main_v8, main_v9, main_v10, main_v11, main_v12, main_v13, main_v14, main_v15, main_v16, main_v17, main_v18, main_v19, main_v20, main_v21, main_v22]

theorem seg1_sub : (seg1 : List (HloOp τ sig (Elt F))).Forall fun op => op.bufs ⊆ tcRefs τ sig :=
  ⟨nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub ..⟩

/-- Segment 2: 68 operations, from the one writing `main_v23` to the one writing `main_v81`. -/
abbrev seg2 : List (HloOp τ sig (Elt F)) :=
  [ StableHlo.binary main_v10 main_v12 main_v23 ((fun l r => Host.dotGeneral dot_S16384x32_S32x512_S16384x512_1_0_0_1_n_n none l r) : (⟨S16384x32, .f32⟩ : BufTy).Contents (Elt F) → (⟨S32x512, .f32⟩ : BufTy).Contents (Elt F) → (⟨S16384x512, .f32⟩ : BufTy).Contents (Elt F)),
    StableHlo.unary main_v14 main_v24 (broadcastInDim S1x512 ![1] bcast_S512_S1x512_1 : (⟨S512, .f32⟩ : BufTy).Contents (Elt F) → (⟨S1x512, .f32⟩ : BufTy).Contents (Elt F)),
    StableHlo.unary main_v24 main_v25 (broadcastInDim S16384x512 ![0, 1] bcast_S1x512_S16384x512_0_1 : (⟨S1x512, .f32⟩ : BufTy).Contents (Elt F) → (⟨S16384x512, .f32⟩ : BufTy).Contents (Elt F)),
    StableHlo.binary main_v23 main_v25 main_v26 (addf : (⟨S16384x512, .f32⟩ : BufTy).Contents (Elt F) → (⟨S16384x512, .f32⟩ : BufTy).Contents (Elt F) → (⟨S16384x512, .f32⟩ : BufTy).Contents (Elt F)),
    StableHlo.TRef.nullary main_call0.cst (constant S_ .f32 0x00000000#32),
    StableHlo.TRef.unary main_call0.cst main_call0.v0 (broadcastInDim S16384x512 ![] bcast_S_S16384x512),
    StableHlo.TRef.binary (.of main_v26) main_call0.v0 main_call0.v1 maximumf,
    StableHlo.binary main_v27 main_v16 main_v28 ((fun l r => Host.dotGeneral dot_S16384x512_S512x512_S16384x512_1_0_0_1_n_n none l r) : (⟨S16384x512, .f32⟩ : BufTy).Contents (Elt F) → (⟨S512x512, .f32⟩ : BufTy).Contents (Elt F) → (⟨S16384x512, .f32⟩ : BufTy).Contents (Elt F)),
    StableHlo.unary main_v18 main_v29 (broadcastInDim S1x512 ![1] bcast_S512_S1x512_1 : (⟨S512, .f32⟩ : BufTy).Contents (Elt F) → (⟨S1x512, .f32⟩ : BufTy).Contents (Elt F)),
    StableHlo.unary main_v29 main_v30 (broadcastInDim S16384x512 ![0, 1] bcast_S1x512_S16384x512_0_1 : (⟨S1x512, .f32⟩ : BufTy).Contents (Elt F) → (⟨S16384x512, .f32⟩ : BufTy).Contents (Elt F)),
    StableHlo.binary main_v28 main_v30 main_v31 (addf : (⟨S16384x512, .f32⟩ : BufTy).Contents (Elt F) → (⟨S16384x512, .f32⟩ : BufTy).Contents (Elt F) → (⟨S16384x512, .f32⟩ : BufTy).Contents (Elt F)),
    StableHlo.TRef.nullary main_call1.cst (constant S_ .f32 0x00000000#32),
    StableHlo.TRef.unary main_call1.cst main_call1.v0 (broadcastInDim S16384x512 ![] bcast_S_S16384x512),
    StableHlo.TRef.binary (.of main_v31) main_call1.v0 main_call1.v1 maximumf,
    StableHlo.binary main_v32 main_v20 main_v33 ((fun l r => Host.dotGeneral dot_S16384x512_S512x32_S16384x32_1_0_0_1_n_n none l r) : (⟨S16384x512, .f32⟩ : BufTy).Contents (Elt F) → (⟨S512x32, .f32⟩ : BufTy).Contents (Elt F) → (⟨S16384x32, .f32⟩ : BufTy).Contents (Elt F)),
    StableHlo.unary main_v22 main_v34 (broadcastInDim S1x32 ![1] bcast_S32_S1x32_1 : (⟨S32, .f32⟩ : BufTy).Contents (Elt F) → (⟨S1x32, .f32⟩ : BufTy).Contents (Elt F)),
    StableHlo.unary main_v34 main_v35 (broadcastInDim S16384x32 ![0, 1] bcast_S1x32_S16384x32_0_1 : (⟨S1x32, .f32⟩ : BufTy).Contents (Elt F) → (⟨S16384x32, .f32⟩ : BufTy).Contents (Elt F)),
    StableHlo.binary main_v33 main_v35 main_v36 (addf : (⟨S16384x32, .f32⟩ : BufTy).Contents (Elt F) → (⟨S16384x32, .f32⟩ : BufTy).Contents (Elt F) → (⟨S16384x32, .f32⟩ : BufTy).Contents (Elt F)),
    StableHlo.unary main_arg7 main_v37 ((extractStridedSlice S1x32x512 ![0, 0, 0] · slices_S8x32x512_S1x32x512_0_0_0) : (⟨S8x32x512, .f32⟩ : BufTy).Contents (Elt F) → (⟨S1x32x512, .f32⟩ : BufTy).Contents (Elt F)),
    StableHlo.reshape main_v37 main_v38 rfl shapeCasts_S1x32x512_S32x512,
    StableHlo.unary main_arg8 main_v39 ((extractStridedSlice S1x512 ![0, 0] · slices_S8x512_S1x512_0_0) : (⟨S8x512, .f32⟩ : BufTy).Contents (Elt F) → (⟨S1x512, .f32⟩ : BufTy).Contents (Elt F)),
    StableHlo.reshape main_v39 main_v40 rfl shapeCasts_S1x512_S512,
    StableHlo.unary main_arg9 main_v41 ((extractStridedSlice S1x512x512 ![0, 0, 0] · slices_S8x512x512_S1x512x512_0_0_0) : (⟨S8x512x512, .f32⟩ : BufTy).Contents (Elt F) → (⟨S1x512x512, .f32⟩ : BufTy).Contents (Elt F)),
    StableHlo.reshape main_v41 main_v42 rfl shapeCasts_S1x512x512_S512x512,
    StableHlo.unary main_arg10 main_v43 ((extractStridedSlice S1x512 ![0, 0] · slices_S8x512_S1x512_0_0) : (⟨S8x512, .f32⟩ : BufTy).Contents (Elt F) → (⟨S1x512, .f32⟩ : BufTy).Contents (Elt F)),
    StableHlo.reshape main_v43 main_v44 rfl shapeCasts_S1x512_S512,
    StableHlo.unary main_arg11 main_v45 ((extractStridedSlice S1x512x32 ![0, 0, 0] · slices_S8x512x32_S1x512x32_0_0_0) : (⟨S8x512x32, .f32⟩ : BufTy).Contents (Elt F) → (⟨S1x512x32, .f32⟩ : BufTy).Contents (Elt F)),
    StableHlo.reshape main_v45 main_v46 rfl shapeCasts_S1x512x32_S512x32,
    StableHlo.unary main_arg12 main_v47 ((extractStridedSlice S1x32 ![0, 0] · slices_S8x32_S1x32_0_0) : (⟨S8x32, .f32⟩ : BufTy).Contents (Elt F) → (⟨S1x32, .f32⟩ : BufTy).Contents (Elt F)),
    StableHlo.reshape main_v47 main_v48 rfl shapeCasts_S1x32_S32,
    StableHlo.binary main_v10 main_v38 main_v49 ((fun l r => Host.dotGeneral dot_S16384x32_S32x512_S16384x512_1_0_0_1_n_n none l r) : (⟨S16384x32, .f32⟩ : BufTy).Contents (Elt F) → (⟨S32x512, .f32⟩ : BufTy).Contents (Elt F) → (⟨S16384x512, .f32⟩ : BufTy).Contents (Elt F)),
    StableHlo.unary main_v40 main_v50 (broadcastInDim S1x512 ![1] bcast_S512_S1x512_1 : (⟨S512, .f32⟩ : BufTy).Contents (Elt F) → (⟨S1x512, .f32⟩ : BufTy).Contents (Elt F)),
    StableHlo.unary main_v50 main_v51 (broadcastInDim S16384x512 ![0, 1] bcast_S1x512_S16384x512_0_1 : (⟨S1x512, .f32⟩ : BufTy).Contents (Elt F) → (⟨S16384x512, .f32⟩ : BufTy).Contents (Elt F)),
    StableHlo.binary main_v49 main_v51 main_v52 (addf : (⟨S16384x512, .f32⟩ : BufTy).Contents (Elt F) → (⟨S16384x512, .f32⟩ : BufTy).Contents (Elt F) → (⟨S16384x512, .f32⟩ : BufTy).Contents (Elt F)),
    StableHlo.TRef.nullary main_call2.cst (constant S_ .f32 0x00000000#32),
    StableHlo.TRef.unary main_call2.cst main_call2.v0 (broadcastInDim S16384x512 ![] bcast_S_S16384x512),
    StableHlo.TRef.binary (.of main_v52) main_call2.v0 main_call2.v1 maximumf,
    StableHlo.binary main_v53 main_v42 main_v54 ((fun l r => Host.dotGeneral dot_S16384x512_S512x512_S16384x512_1_0_0_1_n_n none l r) : (⟨S16384x512, .f32⟩ : BufTy).Contents (Elt F) → (⟨S512x512, .f32⟩ : BufTy).Contents (Elt F) → (⟨S16384x512, .f32⟩ : BufTy).Contents (Elt F)),
    StableHlo.unary main_v44 main_v55 (broadcastInDim S1x512 ![1] bcast_S512_S1x512_1 : (⟨S512, .f32⟩ : BufTy).Contents (Elt F) → (⟨S1x512, .f32⟩ : BufTy).Contents (Elt F)),
    StableHlo.unary main_v55 main_v56 (broadcastInDim S16384x512 ![0, 1] bcast_S1x512_S16384x512_0_1 : (⟨S1x512, .f32⟩ : BufTy).Contents (Elt F) → (⟨S16384x512, .f32⟩ : BufTy).Contents (Elt F)),
    StableHlo.binary main_v54 main_v56 main_v57 (addf : (⟨S16384x512, .f32⟩ : BufTy).Contents (Elt F) → (⟨S16384x512, .f32⟩ : BufTy).Contents (Elt F) → (⟨S16384x512, .f32⟩ : BufTy).Contents (Elt F)),
    StableHlo.TRef.nullary main_call3.cst (constant S_ .f32 0x00000000#32),
    StableHlo.TRef.unary main_call3.cst main_call3.v0 (broadcastInDim S16384x512 ![] bcast_S_S16384x512),
    StableHlo.TRef.binary (.of main_v57) main_call3.v0 main_call3.v1 maximumf,
    StableHlo.binary main_v58 main_v46 main_v59 ((fun l r => Host.dotGeneral dot_S16384x512_S512x32_S16384x32_1_0_0_1_n_n none l r) : (⟨S16384x512, .f32⟩ : BufTy).Contents (Elt F) → (⟨S512x32, .f32⟩ : BufTy).Contents (Elt F) → (⟨S16384x32, .f32⟩ : BufTy).Contents (Elt F)),
    StableHlo.unary main_v48 main_v60 (broadcastInDim S1x32 ![1] bcast_S32_S1x32_1 : (⟨S32, .f32⟩ : BufTy).Contents (Elt F) → (⟨S1x32, .f32⟩ : BufTy).Contents (Elt F)),
    StableHlo.unary main_v60 main_v61 (broadcastInDim S16384x32 ![0, 1] bcast_S1x32_S16384x32_0_1 : (⟨S1x32, .f32⟩ : BufTy).Contents (Elt F) → (⟨S16384x32, .f32⟩ : BufTy).Contents (Elt F)),
    StableHlo.binary main_v59 main_v61 main_v62 (addf : (⟨S16384x32, .f32⟩ : BufTy).Contents (Elt F) → (⟨S16384x32, .f32⟩ : BufTy).Contents (Elt F) → (⟨S16384x32, .f32⟩ : BufTy).Contents (Elt F)),
    StableHlo.unary main_v62 main_v63 (Host.tanh : (⟨S16384x32, .f32⟩ : BufTy).Contents (Elt F) → (⟨S16384x32, .f32⟩ : BufTy).Contents (Elt F)),
    StableHlo.unary main_arg13 main_v64 ((extractStridedSlice S1x32 ![0, 0] · slices_S8x32_S1x32_0_0) : (⟨S8x32, .f32⟩ : BufTy).Contents (Elt F) → (⟨S1x32, .f32⟩ : BufTy).Contents (Elt F)),
    StableHlo.reshape main_v64 main_v65 rfl shapeCasts_S1x32_S32,
    StableHlo.unary main_v65 main_v66 (broadcastInDim S1x32 ![1] bcast_S32_S1x32_1 : (⟨S32, .f32⟩ : BufTy).Contents (Elt F) → (⟨S1x32, .f32⟩ : BufTy).Contents (Elt F)),
    StableHlo.unary main_v66 main_v67 (broadcastInDim S16384x32 ![0, 1] bcast_S1x32_S16384x32_0_1 : (⟨S1x32, .f32⟩ : BufTy).Contents (Elt F) → (⟨S16384x32, .f32⟩ : BufTy).Contents (Elt F)),
    StableHlo.binary main_v63 main_v67 main_v68 (mulf : (⟨S16384x32, .f32⟩ : BufTy).Contents (Elt F) → (⟨S16384x32, .f32⟩ : BufTy).Contents (Elt F) → (⟨S16384x32, .f32⟩ : BufTy).Contents (Elt F)),
    StableHlo.unary main_arg14 main_v69 ((extractStridedSlice S1x32 ![0, 0] · slices_S8x32_S1x32_0_0) : (⟨S8x32, .f32⟩ : BufTy).Contents (Elt F) → (⟨S1x32, .f32⟩ : BufTy).Contents (Elt F)),
    StableHlo.reshape main_v69 main_v70 rfl shapeCasts_S1x32_S32,
    StableHlo.unary main_v70 main_v71 (broadcastInDim S1x32 ![1] bcast_S32_S1x32_1 : (⟨S32, .f32⟩ : BufTy).Contents (Elt F) → (⟨S1x32, .f32⟩ : BufTy).Contents (Elt F)),
    StableHlo.unary main_v71 main_v72 (broadcastInDim S16384x32 ![0, 1] bcast_S1x32_S16384x32_0_1 : (⟨S1x32, .f32⟩ : BufTy).Contents (Elt F) → (⟨S16384x32, .f32⟩ : BufTy).Contents (Elt F)),
    StableHlo.binary main_v68 main_v72 main_v73 (addf : (⟨S16384x32, .f32⟩ : BufTy).Contents (Elt F) → (⟨S16384x32, .f32⟩ : BufTy).Contents (Elt F) → (⟨S16384x32, .f32⟩ : BufTy).Contents (Elt F)),
    StableHlo.unary main_v73 main_v74 (Host.exp : (⟨S16384x32, .f32⟩ : BufTy).Contents (Elt F) → (⟨S16384x32, .f32⟩ : BufTy).Contents (Elt F)),
    StableHlo.binary main_v5 main_v74 main_v75 (mulf : (⟨S16384x32, .f32⟩ : BufTy).Contents (Elt F) → (⟨S16384x32, .f32⟩ : BufTy).Contents (Elt F) → (⟨S16384x32, .f32⟩ : BufTy).Contents (Elt F)),
    StableHlo.binary main_v75 main_v36 main_v76 (addf : (⟨S16384x32, .f32⟩ : BufTy).Contents (Elt F) → (⟨S16384x32, .f32⟩ : BufTy).Contents (Elt F) → (⟨S16384x32, .f32⟩ : BufTy).Contents (Elt F)),
    StableHlo.nullary main_c_35 (constantI S_ 32 64#32),
    StableHlo.unary main_c_35 main_v77 (broadcastInDim S32 ![] bcast_S_S32 : (⟨S_, .i32⟩ : BufTy).Contents (Elt F) → (⟨S32, .i32⟩ : BufTy).Contents (Elt F)),
    StableHlo.binary main_c main_v77 main_v78 (addi : (⟨S32, .i32⟩ : BufTy).Contents (Elt F) → (⟨S32, .i32⟩ : BufTy).Contents (Elt F) → (⟨S32, .i32⟩ : BufTy).Contents (Elt F)),
    StableHlo.ternary main_c_3 main_v78 main_c main_v79 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.unary main_v79 main_v80 (broadcastInDim S32x1 ![0] bcast_S32_S32x1_0 : (⟨S32, .i32⟩ : BufTy).Contents (Elt F) → (⟨S32x1, .i32⟩ : BufTy).Contents (Elt F)),
    StableHlo.ternary main_arg0 main_v80 main_v76 main_v81 ((fun x i u => Host.scatter scatter_S16384x64_S32x1_S16384x32_0_1_1_1 (fun _ b => b) x i u) : (⟨S16384x64, .f32⟩ : BufTy).Contents (Elt F) → (⟨S32x1, .i32⟩ : BufTy).Contents (Elt F) → (⟨S16384x32, .f32⟩ : BufTy).Contents (Elt F) → (⟨S16384x64, .f32⟩ : BufTy).Contents (Elt F)) ]

/-- What segment 2 writes, in order. -/
abbrev seg2_w : List (Ref sig .tc) :=
  [main_v23, main_v24, main_v25, main_v26, main_call0_cst, main_call0_v0, main_v27, main_v28, main_v29, main_v30, main_v31, main_call1_cst, main_call1_v0, main_v32, main_v33, main_v34, main_v35, main_v36, main_v37, main_v38, main_v39, main_v40, main_v41, main_v42, main_v43, main_v44, main_v45, main_v46, main_v47, main_v48, main_v49, main_v50, main_v51, main_v52, main_call2_cst, main_call2_v0, main_v53, main_v54, main_v55, main_v56, main_v57, main_call3_cst, main_call3_v0, main_v58, main_v59, main_v60, main_v61, main_v62, main_v63, main_v64, main_v65, main_v66, main_v67, main_v68, main_v69, main_v70, main_v71, main_v72, main_v73, main_v74, main_v75, main_v76, main_c_35, main_v77, main_v78, main_v79, main_v80, main_v81]

theorem seg2_sub : (seg2 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., unary_bufs_sub .., reshape_bufs_sub .., unary_bufs_sub .., unary_bufs_sub .., binary_bufs_sub .., unary_bufs_sub .., reshape_bufs_sub .., unary_bufs_sub .., unary_bufs_sub .., binary_bufs_sub .., unary_bufs_sub .., binary_bufs_sub .., binary_bufs_sub .., nullary_bufs_sub .., unary_bufs_sub .., binary_bufs_sub .., ternary_bufs_sub .., unary_bufs_sub .., ternary_bufs_sub ..⟩

/-- Segment 3: 6 operations, from the one writing `main_c_36` to the one writing `main_v86`. -/
abbrev seg3 : List (HloOp τ sig (Elt F)) :=
  [ StableHlo.nullary main_c_36 (constantI S_ 32 64#32),
    StableHlo.unary main_c_36 main_v82 (broadcastInDim S32 ![] bcast_S_S32 : (⟨S_, .i32⟩ : BufTy).Contents (Elt F) → (⟨S32, .i32⟩ : BufTy).Contents (Elt F)),
    StableHlo.binary main_c main_v82 main_v83 (addi : (⟨S32, .i32⟩ : BufTy).Contents (Elt F) → (⟨S32, .i32⟩ : BufTy).Contents (Elt F) → (⟨S32, .i32⟩ : BufTy).Contents (Elt F)),
    StableHlo.ternary main_c_4 main_v83 main_c main_v84 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.unary main_v84 main_v85 (broadcastInDim S32x1 ![0] bcast_S32_S32x1_0 : (⟨S32, .i32⟩ : BufTy).Contents (Elt F) → (⟨S32x1, .i32⟩ : BufTy).Contents (Elt F)),
    StableHlo.ternary main_v0 main_v85 main_v73 main_v86 ((fun x i u => Host.scatterAdd scatter_S16384x64_S32x1_S16384x32_0_1_1_1 x i u) : (⟨S16384x64, .f32⟩ : BufTy).Contents (Elt F) → (⟨S32x1, .i32⟩ : BufTy).Contents (Elt F) → (⟨S16384x32, .f32⟩ : BufTy).Contents (Elt F) → (⟨S16384x64, .f32⟩ : BufTy).Contents (Elt F)) ]

/-- What segment 3 writes, in order. -/
abbrev seg3_w : List (Ref sig .tc) :=
  [main_c_36, main_v82, main_v83, main_v84, main_v85, main_v86]

theorem seg3_sub : (seg3 : List (HloOp τ sig (Elt F))).Forall fun op => op.bufs ⊆ tcRefs τ sig :=
  ⟨nullary_bufs_sub .., unary_bufs_sub .., binary_bufs_sub .., ternary_bufs_sub .., unary_bufs_sub .., ternary_bufs_sub ..⟩

end Cert.RefRun

end
-- ==== Proof.RefRunLib.lean ====
/-
  General facts about a straight line of host operations and the fold of its results, used by the run of the reference
  program: the fold over a concatenation, and, for a line given together with the list of references its operations
  write (one each, in order), that a reference outside the list keeps its contents and that no operation leaves a
  buffer undetermined.
-/
import proofs.«175251_j80573586473693_2_alg».proof.ReferenceIdeal
import Idealize.ShloMosaic.Lib.StableHlo.Run

noncomputable section

namespace Cert.RefRun

open Idealize.ShloMosaic Idealize.ShloMosaic.StableHlo Idealize.SL.Sem

section Generic

variable {τ : Topo} {sig : RefSig} {Val : EltTy → Type}

/-- The fold over two lines run one after the other is the second's fold from the first's. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A property of every operation of two lines holds of every operation of their concatenation. -/
theorem forall_append {p : HloOp τ sig Val → Prop} {l₁ l₂ : List (HloOp τ sig Val)} (h₁ : l₁.Forall p) (h₂ : l₂.Forall p) :
    (l₁ ++ l₂).Forall p :=
  List.forall_iff_forall_mem.mpr fun x hx =>
    (List.mem_append.mp hx).elim (List.forall_iff_forall_mem.mp h₁ x) (List.forall_iff_forall_mem.mp h₂ x)

/-- Operation by operation: it writes exactly the buffer of the reference beside it, and determines what it writes. -/
abbrev WritesAt (op : HloOp τ sig Val) (y : Ref sig .tc) : Prop :=
  op.writes = {Proc.devRef (τ := τ) .tc y} ∧ op.fresh = ∅

/-- A line whose operations write, one each and in order, the references of the list. -/
abbrev Writes (ops : List (HloOp τ sig Val)) (Wl : List (Ref sig .tc)) : Prop := List.Forall₂ WritesAt ops Wl

theorem Writes.append {l₁ l₂ : List (HloOp τ sig Val)} {w₁ w₂ : List (Ref sig .tc)} (h₁ : Writes l₁ w₁) (h₂ : Writes l₂ w₂) :
    Writes (l₁ ++ l₂) (w₁ ++ w₂) := by
  induction h₁ with
  | nil => exact h₂
  | cons h _ ih => exact List.Forall₂.cons h ih

/-- Each operation of such a line writes the buffer of some reference of the list, and leaves nothing undetermined. -/
theorem Writes.mem {ops : List (HloOp τ sig Val)} {Wl : List (Ref sig .tc)} (h : Writes ops Wl) :
    ∀ op ∈ ops, (∃ y ∈ Wl, op.writes = {Proc.devRef (τ := τ) .tc y}) ∧ op.fresh = ∅ := by
  induction h with
  | nil => intro op hop; exact absurd hop (List.not_mem_nil)
  | cons hd _ ih =>
    intro op hop
    rcases List.mem_cons.mp hop with e | hm
    · subst e; exact ⟨⟨_, List.mem_cons_self, hd.1⟩, hd.2⟩
    · obtain ⟨⟨y, hy, e⟩, hf⟩ := ih op hm
      exact ⟨⟨y, List.mem_cons_of_mem _ hy, e⟩, hf⟩

/-- A reference outside the list of those a line writes keeps its contents through the line. -/
theorem Writes.frame {ops : List (HloOp τ sig Val)} {Wl : List (Ref sig .tc)} (h : Writes ops Wl) (V : Valuation τ sig Val)
    {r : Ref sig .tc} (hr : r ∉ Wl) : after ops V (Proc.devRef .tc r) = V (Proc.devRef .tc r) :=
  after_of_writes_sub ops V
    (List.forall_iff_forall_mem.mpr fun op hop => by
      obtain ⟨⟨y, hy, e⟩, -⟩ := h.mem op hop
      rw [e, Finset.singleton_subset_iff, List.mem_toFinset]
      exact List.mem_map.mpr ⟨y, hy, rfl⟩) hr

/-- No operation of such a line leaves a buffer undetermined. -/
theorem Writes.fresh {ops : List (HloOp τ sig Val)} {Wl : List (Ref sig .tc)} (h : Writes ops Wl) :
    ∀ op ∈ ops, op.fresh = ∅ := fun op hop => (h.mem op hop).2

end Generic

/-! ## The references the program only reads once its constants are set

The fifteen arguments, the two index tables and the thirty-two all-false masks are written by no operation after the
constants at the head of the program; whatever valuation they are compared with, a line that writes none of them keeps
the comparison. -/

section Keep

open Cert.ReferenceIdeal

variable {Val : EltTy → Type}

/-- The arguments, the two index tables and the masks. -/
abbrev keepList : List (Ref sig .tc) :=
  [main_arg0, main_arg1, main_arg2, main_arg3, main_arg4, main_arg5, main_arg6, main_arg7, main_arg8, main_arg9,
   main_arg10, main_arg11, main_arg12, main_arg13, main_arg14, main_c, main_c_1,
   main_c_0, main_c_2, main_c_3, main_c_4, main_c_5, main_c_6, main_c_7, main_c_8, main_c_9, main_c_10, main_c_11, main_c_12, main_c_13, main_c_14, main_c_15, main_c_16, main_c_17, main_c_18, main_c_19, main_c_20, main_c_21, main_c_22, main_c_23, main_c_24, main_c_25, main_c_26, main_c_27, main_c_28, main_c_29, main_c_30, main_c_31, main_c_32]

/-- A valuation agreeing with `V₁` on the kept references. -/
abbrev Keeps (W V₁ : Valuation τ sig Val) : Prop :=
  ∀ r ∈ keepList, W (Proc.devRef .tc r) = V₁ (Proc.devRef .tc r)

/-- A line that writes none of the kept references keeps the agreement. -/
theorem keeps_step {ops : List (HloOp τ sig Val)} {Wl : List (Ref sig .tc)} (h : Writes ops Wl)
    (hd : ∀ r ∈ keepList, r ∉ Wl) {W V₁ : Valuation τ sig Val} (hk : Keeps W V₁) : Keeps (after ops W) V₁ :=
  fun r hr => (h.frame W (hd r hr)).trans (hk r hr)

end Keep

end Cert.RefRun

end
-- ==== Proof.RefRunL0.lean ====
/-
  Coupling layer 0 of the reference program as a fold of its ninety-eight operations: from any valuation holding the
  two index tables and the all-false masks at their constants' buffers, the layer leaves at its two result buffers one
  step of the coupling (`Cert.RefDefs.stepZ`, `Cert.RefDefs.stepL`) of the contents of its two input buffers and of this
  layer's slices of the stacked parameters; and it writes none of the arguments, tables or masks.
-/
import proofs.«175251_j80573586473693_2_alg».proof.Proof.RefRunT0
import proofs.«175251_j80573586473693_2_alg».proof.Proof.RefRunLib
import proofs.«175251_j80573586473693_2_alg».proof.Proof.RefDefs

noncomputable section

namespace Cert.RefRun

open Cert.ReferenceIdeal Cert.RefDefs Idealize.ShloMosaic Idealize.ShloMosaic.TcCoe Idealize.SL.Sem Idealize.ShloMosaic.StableHlo

variable {F : FTy → Type} [FloatOps F] [Facts]

open Facts₀ Facts

/-! ## What the segments write -/

/-- Segment 0's operations write, one each and in order, the listed references, and determine what they write: each
    builder's written set is the singleton of its result by definition. -/
theorem seg0_writes : Writes (seg0 : List (HloOp τ sig (Elt F))) seg0_w := by
  repeat (first | exact List.Forall₂.nil | refine List.Forall₂.cons ⟨rfl, rfl⟩ ?_)

/-- Segment 1's operations write, one each and in order, the listed references, and determine what they write: each
    builder's written set is the singleton of its result by definition. -/
theorem seg1_writes : Writes (seg1 : List (HloOp τ sig (Elt F))) seg1_w := by
  repeat (first | exact List.Forall₂.nil | refine List.Forall₂.cons ⟨rfl, rfl⟩ ?_)

/-- None of them is an argument, a table or a mask. -/
theorem seg1_keeps : ∀ r ∈ keepList, r ∉ seg1_w := by decide

/-- Segment 2's operations write, one each and in order, the listed references, and determine what they write: each
    builder's written set is the singleton of its result by definition. -/
theorem seg2_writes : Writes (seg2 : List (HloOp τ sig (Elt F))) seg2_w := by
  repeat (first | exact List.Forall₂.nil | refine List.Forall₂.cons ⟨rfl, rfl⟩ ?_)

/-- None of them is an argument, a table or a mask. -/
theorem seg2_keeps : ∀ r ∈ keepList, r ∉ seg2_w := by decide

/-- Segment 3's operations write, one each and in order, the listed references, and determine what they write: each
    builder's written set is the singleton of its result by definition. -/
theorem seg3_writes : Writes (seg3 : List (HloOp τ sig (Elt F))) seg3_w := by
  repeat (first | exact List.Forall₂.nil | refine List.Forall₂.cons ⟨rfl, rfl⟩ ?_)

/-- None of them is an argument, a table or a mask. -/
theorem seg3_keeps : ∀ r ∈ keepList, r ∉ seg3_w := by decide

/-! ## The layer -/

/-- The valuation after the layer's operations. -/
abbrev lay0 (W : Valuation τ sig (Elt F)) : Valuation τ sig (Elt F) := after seg3 (after seg2 (after seg1 (W)))

/-- The layer keeps the arguments, tables and masks. -/
theorem lay0_keeps {W V₁ : Valuation τ sig (Elt F)} (h : Keeps W V₁) : Keeps (lay0 W) V₁ :=
  keeps_step seg3_writes seg3_keeps (keeps_step seg2_writes seg2_keeps (keeps_step seg1_writes seg1_keeps (h)))

-- ninety-eight results composed: the term is deep
set_option maxHeartbeats 4000000 in
set_option maxRecDepth 100000 in
/-- The z buffer after the layer: the fold's value there, each operation's result read at its own buffer, is the
    scatter of `z₀ · exp s + t` into the columns `idxE` — once the tables and masks are put for the constants' buffers,
    the two sides are the same composition of host operations (the calls' buffers and the reshapes' carry their types
    by computation). -/
theorem lay0_z (W : Valuation τ sig (Elt F))
    (hE : W (main_c : DevRef τ sig) = (fun i => lit0 (S32.rowMajor i)))
    (hO : W (main_c_1 : DevRef τ sig) = (fun i => lit1 (S32.rowMajor i)))
    (hm1 : W (main_c_0 : DevRef τ sig) = constantI S32 1 0#1) (hm2 : W (main_c_2 : DevRef τ sig) = constantI S32 1 0#1)
    (hm3 : W (main_c_3 : DevRef τ sig) = constantI S32 1 0#1) :
    lay0 W (main_v81 : DevRef τ sig)
      = stepZ idxE idxO (W (main_arg0 : DevRef τ sig))
          (w32x512 ![0, 0, 0] slices_S8x32x512_S1x32x512_0_0_0 (W (main_arg1 : DevRef τ sig))) (v512 ![0, 0] slices_S8x512_S1x512_0_0 (W (main_arg2 : DevRef τ sig)))
          (w512x512 ![0, 0, 0] slices_S8x512x512_S1x512x512_0_0_0 (W (main_arg3 : DevRef τ sig))) (v512 ![0, 0] slices_S8x512_S1x512_0_0 (W (main_arg4 : DevRef τ sig)))
          (w512x32 ![0, 0, 0] slices_S8x512x32_S1x512x32_0_0_0 (W (main_arg5 : DevRef τ sig))) (v32 ![0, 0] slices_S8x32_S1x32_0_0 (W (main_arg6 : DevRef τ sig)))
          (w32x512 ![0, 0, 0] slices_S8x32x512_S1x32x512_0_0_0 (W (main_arg7 : DevRef τ sig))) (v512 ![0, 0] slices_S8x512_S1x512_0_0 (W (main_arg8 : DevRef τ sig)))
          (w512x512 ![0, 0, 0] slices_S8x512x512_S1x512x512_0_0_0 (W (main_arg9 : DevRef τ sig))) (v512 ![0, 0] slices_S8x512_S1x512_0_0 (W (main_arg10 : DevRef τ sig)))
          (w512x32 ![0, 0, 0] slices_S8x512x32_S1x512x32_0_0_0 (W (main_arg11 : DevRef τ sig))) (v32 ![0, 0] slices_S8x32_S1x32_0_0 (W (main_arg12 : DevRef τ sig)))
          (v32 ![0, 0] slices_S8x32_S1x32_0_0 (W (main_arg13 : DevRef τ sig))) (v32 ![0, 0] slices_S8x32_S1x32_0_0 (W (main_arg14 : DevRef τ sig))) := by
  show after seg3 (after seg2 (after seg1 (W))) _ = _
  after_results_simp
  rw [hE, hO, hm1, hm2, hm3]
  rfl

set_option maxHeartbeats 4000000 in
set_option maxRecDepth 100000 in
/-- The accumulated log-scale buffer after the layer: the layer's log-scale added into the columns `idxE`. -/
theorem lay0_l (W : Valuation τ sig (Elt F))
    (hE : W (main_c : DevRef τ sig) = (fun i => lit0 (S32.rowMajor i)))
    (hO : W (main_c_1 : DevRef τ sig) = (fun i => lit1 (S32.rowMajor i)))
    (hm2 : W (main_c_2 : DevRef τ sig) = constantI S32 1 0#1) (hm4 : W (main_c_4 : DevRef τ sig) = constantI S32 1 0#1) :
    lay0 W (main_v86 : DevRef τ sig)
      = stepL idxE idxO (W (main_arg0 : DevRef τ sig)) (W (main_v0 : DevRef τ sig))
          (w32x512 ![0, 0, 0] slices_S8x32x512_S1x32x512_0_0_0 (W (main_arg7 : DevRef τ sig))) (v512 ![0, 0] slices_S8x512_S1x512_0_0 (W (main_arg8 : DevRef τ sig)))
          (w512x512 ![0, 0, 0] slices_S8x512x512_S1x512x512_0_0_0 (W (main_arg9 : DevRef τ sig))) (v512 ![0, 0] slices_S8x512_S1x512_0_0 (W (main_arg10 : DevRef τ sig)))
          (w512x32 ![0, 0, 0] slices_S8x512x32_S1x512x32_0_0_0 (W (main_arg11 : DevRef τ sig))) (v32 ![0, 0] slices_S8x32_S1x32_0_0 (W (main_arg12 : DevRef τ sig)))
          (v32 ![0, 0] slices_S8x32_S1x32_0_0 (W (main_arg13 : DevRef τ sig))) (v32 ![0, 0] slices_S8x32_S1x32_0_0 (W (main_arg14 : DevRef τ sig))) := by
  show after seg3 (after seg2 (after seg1 (W))) _ = _
  after_results_simp
  rw [hE, hO, hm2, hm4]
  rfl

/-! ## The constants at the head of the program

Segment 0 sets the two index tables, the thirty-two masks and the zero array; from any valuation, each holds its
constant afterwards (its own operation's result, no later operation of the segment writing it). -/

theorem pre_main_c (V : Valuation τ sig (Elt F)) :
    after seg0 V (main_c : DevRef τ sig) = (fun i => lit0 (S32.rowMajor i)) := by after_results_simp; rfl
theorem pre_main_c_1 (V : Valuation τ sig (Elt F)) :
    after seg0 V (main_c_1 : DevRef τ sig) = (fun i => lit1 (S32.rowMajor i)) := by after_results_simp; rfl
theorem pre_main_c_0 (V : Valuation τ sig (Elt F)) :
    after seg0 V (main_c_0 : DevRef τ sig) = constantI S32 1 0#1 := by after_results_simp
theorem pre_main_c_2 (V : Valuation τ sig (Elt F)) :
    after seg0 V (main_c_2 : DevRef τ sig) = constantI S32 1 0#1 := by after_results_simp
theorem pre_main_c_3 (V : Valuation τ sig (Elt F)) :
    after seg0 V (main_c_3 : DevRef τ sig) = constantI S32 1 0#1 := by after_results_simp
theorem pre_main_c_4 (V : Valuation τ sig (Elt F)) :
    after seg0 V (main_c_4 : DevRef τ sig) = constantI S32 1 0#1 := by after_results_simp
theorem pre_main_c_5 (V : Valuation τ sig (Elt F)) :
    after seg0 V (main_c_5 : DevRef τ sig) = constantI S32 1 0#1 := by after_results_simp
theorem pre_main_c_6 (V : Valuation τ sig (Elt F)) :
    after seg0 V (main_c_6 : DevRef τ sig) = constantI S32 1 0#1 := by after_results_simp
theorem pre_main_c_7 (V : Valuation τ sig (Elt F)) :
    after seg0 V (main_c_7 : DevRef τ sig) = constantI S32 1 0#1 := by after_results_simp
theorem pre_main_c_8 (V : Valuation τ sig (Elt F)) :
    after seg0 V (main_c_8 : DevRef τ sig) = constantI S32 1 0#1 := by after_results_simp
theorem pre_main_c_9 (V : Valuation τ sig (Elt F)) :
    after seg0 V (main_c_9 : DevRef τ sig) = constantI S32 1 0#1 := by after_results_simp
theorem pre_main_c_10 (V : Valuation τ sig (Elt F)) :
    after seg0 V (main_c_10 : DevRef τ sig) = constantI S32 1 0#1 := by after_results_simp
theorem pre_main_c_11 (V : Valuation τ sig (Elt F)) :
    after seg0 V (main_c_11 : DevRef τ sig) = constantI S32 1 0#1 := by after_results_simp
theorem pre_main_c_12 (V : Valuation τ sig (Elt F)) :
    after seg0 V (main_c_12 : DevRef τ sig) = constantI S32 1 0#1 := by after_results_simp
theorem pre_main_c_13 (V : Valuation τ sig (Elt F)) :
    after seg0 V (main_c_13 : DevRef τ sig) = constantI S32 1 0#1 := by after_results_simp
theorem pre_main_c_14 (V : Valuation τ sig (Elt F)) :
    after seg0 V (main_c_14 : DevRef τ sig) = constantI S32 1 0#1 := by after_results_simp
theorem pre_main_c_15 (V : Valuation τ sig (Elt F)) :
    after seg0 V (main_c_15 : DevRef τ sig) = constantI S32 1 0#1 := by after_results_simp
theorem pre_main_c_16 (V : Valuation τ sig (Elt F)) :
    after seg0 V (main_c_16 : DevRef τ sig) = constantI S32 1 0#1 := by after_results_simp
theorem pre_main_c_17 (V : Valuation τ sig (Elt F)) :
    after seg0 V (main_c_17 : DevRef τ sig) = constantI S32 1 0#1 := by after_results_simp
theorem pre_main_c_18 (V : Valuation τ sig (Elt F)) :
    after seg0 V (main_c_18 : DevRef τ sig) = constantI S32 1 0#1 := by after_results_simp
theorem pre_main_c_19 (V : Valuation τ sig (Elt F)) :
    after seg0 V (main_c_19 : DevRef τ sig) = constantI S32 1 0#1 := by after_results_simp
theorem pre_main_c_20 (V : Valuation τ sig (Elt F)) :
    after seg0 V (main_c_20 : DevRef τ sig) = constantI S32 1 0#1 := by after_results_simp
theorem pre_main_c_21 (V : Valuation τ sig (Elt F)) :
    after seg0 V (main_c_21 : DevRef τ sig) = constantI S32 1 0#1 := by after_results_simp
theorem pre_main_c_22 (V : Valuation τ sig (Elt F)) :
    after seg0 V (main_c_22 : DevRef τ sig) = constantI S32 1 0#1 := by after_results_simp
theorem pre_main_c_23 (V : Valuation τ sig (Elt F)) :
    after seg0 V (main_c_23 : DevRef τ sig) = constantI S32 1 0#1 := by after_results_simp
theorem pre_main_c_24 (V : Valuation τ sig (Elt F)) :
    after seg0 V (main_c_24 : DevRef τ sig) = constantI S32 1 0#1 := by after_results_simp
theorem pre_main_c_25 (V : Valuation τ sig (Elt F)) :
    after seg0 V (main_c_25 : DevRef τ sig) = constantI S32 1 0#1 := by after_results_simp
theorem pre_main_c_26 (V : Valuation τ sig (Elt F)) :
    after seg0 V (main_c_26 : DevRef τ sig) = constantI S32 1 0#1 := by after_results_simp
theorem pre_main_c_27 (V : Valuation τ sig (Elt F)) :
    after seg0 V (main_c_27 : DevRef τ sig) = constantI S32 1 0#1 := by after_results_simp
theorem pre_main_c_28 (V : Valuation τ sig (Elt F)) :
    after seg0 V (main_c_28 : DevRef τ sig) = constantI S32 1 0#1 := by after_results_simp
theorem pre_main_c_29 (V : Valuation τ sig (Elt F)) :
    after seg0 V (main_c_29 : DevRef τ sig) = constantI S32 1 0#1 := by after_results_simp
theorem pre_main_c_30 (V : Valuation τ sig (Elt F)) :
    after seg0 V (main_c_30 : DevRef τ sig) = constantI S32 1 0#1 := by after_results_simp
theorem pre_main_c_31 (V : Valuation τ sig (Elt F)) :
    after seg0 V (main_c_31 : DevRef τ sig) = constantI S32 1 0#1 := by after_results_simp
theorem pre_main_c_32 (V : Valuation τ sig (Elt F)) :
    after seg0 V (main_c_32 : DevRef τ sig) = constantI S32 1 0#1 := by after_results_simp
/-- The accumulated log-scales start at zero. -/
theorem pre_main_v0 (V : Valuation τ sig (Elt F)) :
    after seg0 V (main_v0 : DevRef τ sig) = L0 (F := F) := by after_results_simp; rfl

end Cert.RefRun

end
-- ==== Proof.RefRunT1.lean ====
/-
  The reference program's operations, tabulated: @main's straight line cut into consecutive segments (a cut at each
  window of the printed program and at each coupling layer's end), each segment the literal list of its host operations
  in program order, a call of the outlined maximum-with-zero spelt as its three operations over the call's buffers;
  beside each list, the references it writes, in order.
-/
import proofs.«175251_j80573586473693_2_alg».proof.ReferenceIdeal
import Idealize.ShloMosaic.Lib.StableHlo.Run

noncomputable section

namespace Cert.RefRun

open Cert.ReferenceIdeal Idealize.ShloMosaic Idealize.ShloMosaic.TcCoe Idealize.SL.Sem Idealize.ShloMosaic.StableHlo

variable {F : FTy → Type} [FloatOps F] [Facts]

open Facts₀ Facts

/-- Segment 4: 58 operations, from the one writing `main_c_37` to the one writing `main_v138`. -/
abbrev seg4 : List (HloOp τ sig (Elt F)) :=
  [ StableHlo.nullary main_c_37 (constantI S_ 32 64#32),
    StableHlo.unary main_c_37 main_v87 (broadcastInDim S32 ![] bcast_S_S32 : (⟨S_, .i32⟩ : BufTy).Contents (Elt F) → (⟨S32, .i32⟩ : BufTy).Contents (Elt F)),
    StableHlo.binary main_c_1 main_v87 main_v88 (addi : (⟨S32, .i32⟩ : BufTy).Contents (Elt F) → (⟨S32, .i32⟩ : BufTy).Contents (Elt F) → (⟨S32, .i32⟩ : BufTy).Contents (Elt F)),
    StableHlo.ternary main_c_5 main_v88 main_c_1 main_v89 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.unary main_v89 main_v90 (broadcastInDim S32x1 ![0] bcast_S32_S32x1_0 : (⟨S32, .i32⟩ : BufTy).Contents (Elt F) → (⟨S32x1, .i32⟩ : BufTy).Contents (Elt F)),
    StableHlo.binary main_v81 main_v90 main_v91 ((fun x i => Host.gather gather_S16384x64_S32x1_S16384x32_0_1_n_n_1_1_163841 x i) : (⟨S16384x64, .f32⟩ : BufTy).Contents (Elt F) → (⟨S32x1, .i32⟩ : BufTy).Contents (Elt F) → (⟨S16384x32, .f32⟩ : BufTy).Contents (Elt F)),
    StableHlo.nullary main_c_38 (constantI S_ 32 64#32),
    StableHlo.unary main_c_38 main_v92 (broadcastInDim S32 ![] bcast_S_S32 : (⟨S_, .i32⟩ : BufTy).Contents (Elt F) → (⟨S32, .i32⟩ : BufTy).Contents (Elt F)),
    StableHlo.binary main_c main_v92 main_v93 (addi : (⟨S32, .i32⟩ : BufTy).Contents (Elt F) → (⟨S32, .i32⟩ : BufTy).Contents (Elt F) → (⟨S32, .i32⟩ : BufTy).Contents (Elt F)),
    StableHlo.ternary main_c_6 main_v93 main_c main_v94 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.unary main_v94 main_v95 (broadcastInDim S32x1 ![0] bcast_S32_S32x1_0 : (⟨S32, .i32⟩ : BufTy).Contents (Elt F) → (⟨S32x1, .i32⟩ : BufTy).Contents (Elt F)),
    StableHlo.binary main_v81 main_v95 main_v96 ((fun x i => Host.gather gather_S16384x64_S32x1_S16384x32_0_1_n_n_1_1_163841 x i) : (⟨S16384x64, .f32⟩ : BufTy).Contents (Elt F) → (⟨S32x1, .i32⟩ : BufTy).Contents (Elt F) → (⟨S16384x32, .f32⟩ : BufTy).Contents (Elt F)),
    StableHlo.unary main_arg1 main_v97 ((extractStridedSlice S1x32x512 ![1, 0, 0] · slices_S8x32x512_S1x32x512_1_0_0) : (⟨S8x32x512, .f32⟩ : BufTy).Contents (Elt F) → (⟨S1x32x512, .f32⟩ : BufTy).Contents (Elt F)),
    StableHlo.reshape main_v97 main_v98 rfl shapeCasts_S1x32x512_S32x512,
    StableHlo.unary main_arg2 main_v99 ((extractStridedSlice S1x512 ![1, 0] · slices_S8x512_S1x512_1_0) : (⟨S8x512, .f32⟩ : BufTy).Contents (Elt F) → (⟨S1x512, .f32⟩ : BufTy).Contents (Elt F)),
    StableHlo.reshape main_v99 main_v100 rfl shapeCasts_S1x512_S512,
    StableHlo.unary main_arg3 main_v101 ((extractStridedSlice S1x512x512 ![1, 0, 0] · slices_S8x512x512_S1x512x512_1_0_0) : (⟨S8x512x512, .f32⟩ : BufTy).Contents (Elt F) → (⟨S1x512x512, .f32⟩ : BufTy).Contents (Elt F)),
    StableHlo.reshape main_v101 main_v102 rfl shapeCasts_S1x512x512_S512x512,
    StableHlo.unary main_arg4 main_v103 ((extractStridedSlice S1x512 ![1, 0] · slices_S8x512_S1x512_1_0) : (⟨S8x512, .f32⟩ : BufTy).Contents (Elt F) → (⟨S1x512, .f32⟩ : BufTy).Contents (Elt F)),
    StableHlo.reshape main_v103 main_v104 rfl shapeCasts_S1x512_S512,
    StableHlo.unary main_arg5 main_v105 ((extractStridedSlice S1x512x32 ![1, 0, 0] · slices_S8x512x32_S1x512x32_1_0_0) : (⟨S8x512x32, .f32⟩ : BufTy).Contents (Elt F) → (⟨S1x512x32, .f32⟩ : BufTy).Contents (Elt F)),
    StableHlo.reshape main_v105 main_v106 rfl shapeCasts_S1x512x32_S512x32,
    StableHlo.unary main_arg6 main_v107 ((extractStridedSlice S1x32 ![1, 0] · slices_S8x32_S1x32_1_0) : (⟨S8x32, .f32⟩ : BufTy).Contents (Elt F) → (⟨S1x32, .f32⟩ : BufTy).Contents (Elt F)),
    StableHlo.reshape main_v107 main_v108 rfl shapeCasts_S1x32_S32,
    StableHlo.binary main_v96 main_v98 main_v109 ((fun l r => Host.dotGeneral dot_S16384x32_S32x512_S16384x512_1_0_0_1_n_n none l r) : (⟨S16384x32, .f32⟩ : BufTy).Contents (Elt F) → (⟨S32x512, .f32⟩ : BufTy).Contents (Elt F) → (⟨S16384x512, .f32⟩ : BufTy).Contents (Elt F)),
    StableHlo.unary main_v100 main_v110 (broadcastInDim S1x512 ![1] bcast_S512_S1x512_1 : (⟨S512, .f32⟩ : BufTy).Contents (Elt F) → (⟨S1x512, .f32⟩ : BufTy).Contents (Elt F)),
    StableHlo.unary main_v110 main_v111 (broadcastInDim S16384x512 ![0, 1] bcast_S1x512_S16384x512_0_1 : (⟨S1x512, .f32⟩ : BufTy).Contents (Elt F) → (⟨S16384x512, .f32⟩ : BufTy).Contents (Elt F)),
    StableHlo.binary main_v109 main_v111 main_v112 (addf : (⟨S16384x512, .f32⟩ : BufTy).Contents (Elt F) → (⟨S16384x512, .f32⟩ : BufTy).Contents (Elt F) → (⟨S16384x512, .f32⟩ : BufTy).Contents (Elt F)),
    StableHlo.TRef.nullary main_call4.cst (constant S_ .f32 0x00000000#32),
    StableHlo.TRef.unary main_call4.cst main_call4.v0 (broadcastInDim S16384x512 ![] bcast_S_S16384x512),
    StableHlo.TRef.binary (.of main_v112) main_call4.v0 main_call4.v1 maximumf,
    StableHlo.binary main_v113 main_v102 main_v114 ((fun l r => Host.dotGeneral dot_S16384x512_S512x512_S16384x512_1_0_0_1_n_n none l r) : (⟨S16384x512, .f32⟩ : BufTy).Contents (Elt F) → (⟨S512x512, .f32⟩ : BufTy).Contents (Elt F) → (⟨S16384x512, .f32⟩ : BufTy).Contents (Elt F)),
    StableHlo.unary main_v104 main_v115 (broadcastInDim S1x512 ![1] bcast_S512_S1x512_1 : (⟨S512, .f32⟩ : BufTy).Contents (Elt F) → (⟨S1x512, .f32⟩ : BufTy).Contents (Elt F)),
    StableHlo.unary main_v115 main_v116 (broadcastInDim S16384x512 ![0, 1] bcast_S1x512_S16384x512_0_1 : (⟨S1x512, .f32⟩ : BufTy).Contents (Elt F) → (⟨S16384x512, .f32⟩ : BufTy).Contents (Elt F)),
    StableHlo.binary main_v114 main_v116 main_v117 (addf : (⟨S16384x512, .f32⟩ : BufTy).Contents (Elt F) → (⟨S16384x512, .f32⟩ : BufTy).Contents (Elt F) → (⟨S16384x512, .f32⟩ : BufTy).Contents (Elt F)),
    StableHlo.TRef.nullary main_call5.cst (constant S_ .f32 0x00000000#32),
    StableHlo.TRef.unary main_call5.cst main_call5.v0 (broadcastInDim S16384x512 ![] bcast_S_S16384x512),
    StableHlo.TRef.binary (.of main_v117) main_call5.v0 main_call5.v1 maximumf,
    StableHlo.binary main_v118 main_v106 main_v119 ((fun l r => Host.dotGeneral dot_S16384x512_S512x32_S16384x32_1_0_0_1_n_n none l r) : (⟨S16384x512, .f32⟩ : BufTy).Contents (Elt F) → (⟨S512x32, .f32⟩ : BufTy).Contents (Elt F) → (⟨S16384x32, .f32⟩ : BufTy).Contents (Elt F)),
    StableHlo.unary main_v108 main_v120 (broadcastInDim S1x32 ![1] bcast_S32_S1x32_1 : (⟨S32, .f32⟩ : BufTy).Contents (Elt F) → (⟨S1x32, .f32⟩ : BufTy).Contents (Elt F)),
    StableHlo.unary main_v120 main_v121 (broadcastInDim S16384x32 ![0, 1] bcast_S1x32_S16384x32_0_1 : (⟨S1x32, .f32⟩ : BufTy).Contents (Elt F) → (⟨S16384x32, .f32⟩ : BufTy).Contents (Elt F)),
    StableHlo.binary main_v119 main_v121 main_v122 (addf : (⟨S16384x32, .f32⟩ : BufTy).Contents (Elt F) → (⟨S16384x32, .f32⟩ : BufTy).Contents (Elt F) → (⟨S16384x32, .f32⟩ : BufTy).Contents (Elt F)),
    StableHlo.unary main_arg7 main_v123 ((extractStridedSlice S1x32x512 ![1, 0, 0] · slices_S8x32x512_S1x32x512_1_0_0) : (⟨S8x32x512, .f32⟩ : BufTy).Contents (Elt F) → (⟨S1x32x512, .f32⟩ : BufTy).Contents (Elt F)),
    StableHlo.reshape main_v123 main_v124 rfl shapeCasts_S1x32x512_S32x512,
    StableHlo.unary main_arg8 main_v125 ((extractStridedSlice S1x512 ![1, 0] · slices_S8x512_S1x512_1_0) : (⟨S8x512, .f32⟩ : BufTy).Contents (Elt F) → (⟨S1x512, .f32⟩ : BufTy).Contents (Elt F)),
    StableHlo.reshape main_v125 main_v126 rfl shapeCasts_S1x512_S512,
    StableHlo.unary main_arg9 main_v127 ((extractStridedSlice S1x512x512 ![1, 0, 0] · slices_S8x512x512_S1x512x512_1_0_0) : (⟨S8x512x512, .f32⟩ : BufTy).Contents (Elt F) → (⟨S1x512x512, .f32⟩ : BufTy).Contents (Elt F)),
    StableHlo.reshape main_v127 main_v128 rfl shapeCasts_S1x512x512_S512x512,
    StableHlo.unary main_arg10 main_v129 ((extractStridedSlice S1x512 ![1, 0] · slices_S8x512_S1x512_1_0) : (⟨S8x512, .f32⟩ : BufTy).Contents (Elt F) → (⟨S1x512, .f32⟩ : BufTy).Contents (Elt F)),
    StableHlo.reshape main_v129 main_v130 rfl shapeCasts_S1x512_S512,
    StableHlo.unary main_arg11 main_v131 ((extractStridedSlice S1x512x32 ![1, 0, 0] · slices_S8x512x32_S1x512x32_1_0_0) : (⟨S8x512x32, .f32⟩ : BufTy).Contents (Elt F) → (⟨S1x512x32, .f32⟩ : BufTy).Contents (Elt F)),
    StableHlo.reshape main_v131 main_v132 rfl shapeCasts_S1x512x32_S512x32,
    StableHlo.unary main_arg12 main_v133 ((extractStridedSlice S1x32 ![1, 0] · slices_S8x32_S1x32_1_0) : (⟨S8x32, .f32⟩ : BufTy).Contents (Elt F) → (⟨S1x32, .f32⟩ : BufTy).Contents (Elt F)),
    StableHlo.reshape main_v133 main_v134 rfl shapeCasts_S1x32_S32,
    StableHlo.binary main_v96 main_v124 main_v135 ((fun l r => Host.dotGeneral dot_S16384x32_S32x512_S16384x512_1_0_0_1_n_n none l r) : (⟨S16384x32, .f32⟩ : BufTy).Contents (Elt F) → (⟨S32x512, .f32⟩ : BufTy).Contents (Elt F) → (⟨S16384x512, .f32⟩ : BufTy).Contents (Elt F)),
    StableHlo.unary main_v126 main_v136 (broadcastInDim S1x512 ![1] bcast_S512_S1x512_1 : (⟨S512, .f32⟩ : BufTy).Contents (Elt F) → (⟨S1x512, .f32⟩ : BufTy).Contents (Elt F)),
    StableHlo.unary main_v136 main_v137 (broadcastInDim S16384x512 ![0, 1] bcast_S1x512_S16384x512_0_1 : (⟨S1x512, .f32⟩ : BufTy).Contents (Elt F) → (⟨S16384x512, .f32⟩ : BufTy).Contents (Elt F)),
    StableHlo.binary main_v135 main_v137 main_v138 (addf : (⟨S16384x512, .f32⟩ : BufTy).Contents (Elt F) → (⟨S16384x512, .f32⟩ : BufTy).Contents (Elt F) → (⟨S16384x512, .f32⟩ : BufTy).Contents (Elt F)) ]

/-- What segment 4 writes, in order. -/
abbrev seg4_w : List (Ref sig .tc) :=
  [main_c_37, main_v87, main_v88, main_v89, main_v90, main_v91, main_c_38, main_v92, main_v93, main_v94, main_v95, main_v96, main_v97, main_v98, main_v99, main_v100, main_v101, main_v102, main_v103, main_v104, main_v105, main_v106, main_v107, main_v108, main_v109, main_v110, main_v111, main_v112, main_call4_cst, main_call4_v0, main_v113, main_v114, main_v115, main_v116, main_v117, main_call5_cst, main_call5_v0, main_v118, main_v119, main_v120, main_v121, main_v122, main_v123, main_v124, main_v125, main_v126, main_v127, main_v128, main_v129, main_v130, main_v131, main_v132, main_v133, main_v134, main_v135, main_v136, main_v137, main_v138]

theorem seg4_sub : (seg4 : List (HloOp τ sig (Elt F))).Forall fun op => op.bufs ⊆ tcRefs τ sig :=
  ⟨nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., binary_bufs_sub .., unary_bufs_sub .., unary_bufs_sub .., binary_bufs_sub ..⟩

/-- Segment 5: 40 operations, from the one writing `main_call6_cst` to the one writing `main_v172`. -/
abbrev seg5 : List (HloOp τ sig (Elt F)) :=
  [ StableHlo.TRef.nullary main_call6.cst (constant S_ .f32 0x00000000#32),
    StableHlo.TRef.unary main_call6.cst main_call6.v0 (broadcastInDim S16384x512 ![] bcast_S_S16384x512),
    StableHlo.TRef.binary (.of main_v138) main_call6.v0 main_call6.v1 maximumf,
    StableHlo.binary main_v139 main_v128 main_v140 ((fun l r => Host.dotGeneral dot_S16384x512_S512x512_S16384x512_1_0_0_1_n_n none l r) : (⟨S16384x512, .f32⟩ : BufTy).Contents (Elt F) → (⟨S512x512, .f32⟩ : BufTy).Contents (Elt F) → (⟨S16384x512, .f32⟩ : BufTy).Contents (Elt F)),
    StableHlo.unary main_v130 main_v141 (broadcastInDim S1x512 ![1] bcast_S512_S1x512_1 : (⟨S512, .f32⟩ : BufTy).Contents (Elt F) → (⟨S1x512, .f32⟩ : BufTy).Contents (Elt F)),
    StableHlo.unary main_v141 main_v142 (broadcastInDim S16384x512 ![0, 1] bcast_S1x512_S16384x512_0_1 : (⟨S1x512, .f32⟩ : BufTy).Contents (Elt F) → (⟨S16384x512, .f32⟩ : BufTy).Contents (Elt F)),
    StableHlo.binary main_v140 main_v142 main_v143 (addf : (⟨S16384x512, .f32⟩ : BufTy).Contents (Elt F) → (⟨S16384x512, .f32⟩ : BufTy).Contents (Elt F) → (⟨S16384x512, .f32⟩ : BufTy).Contents (Elt F)),
    StableHlo.TRef.nullary main_call7.cst (constant S_ .f32 0x00000000#32),
    StableHlo.TRef.unary main_call7.cst main_call7.v0 (broadcastInDim S16384x512 ![] bcast_S_S16384x512),
    StableHlo.TRef.binary (.of main_v143) main_call7.v0 main_call7.v1 maximumf,
    StableHlo.binary main_v144 main_v132 main_v145 ((fun l r => Host.dotGeneral dot_S16384x512_S512x32_S16384x32_1_0_0_1_n_n none l r) : (⟨S16384x512, .f32⟩ : BufTy).Contents (Elt F) → (⟨S512x32, .f32⟩ : BufTy).Contents (Elt F) → (⟨S16384x32, .f32⟩ : BufTy).Contents (Elt F)),
    StableHlo.unary main_v134 main_v146 (broadcastInDim S1x32 ![1] bcast_S32_S1x32_1 : (⟨S32, .f32⟩ : BufTy).Contents (Elt F) → (⟨S1x32, .f32⟩ : BufTy).Contents (Elt F)),
    StableHlo.unary main_v146 main_v147 (broadcastInDim S16384x32 ![0, 1] bcast_S1x32_S16384x32_0_1 : (⟨S1x32, .f32⟩ : BufTy).Contents (Elt F) → (⟨S16384x32, .f32⟩ : BufTy).Contents (Elt F)),
    StableHlo.binary main_v145 main_v147 main_v148 (addf : (⟨S16384x32, .f32⟩ : BufTy).Contents (Elt F) → (⟨S16384x32, .f32⟩ : BufTy).Contents (Elt F) → (⟨S16384x32, .f32⟩ : BufTy).Contents (Elt F)),
    StableHlo.unary main_v148 main_v149 (Host.tanh : (⟨S16384x32, .f32⟩ : BufTy).Contents (Elt F) → (⟨S16384x32, .f32⟩ : BufTy).Contents (Elt F)),
    StableHlo.unary main_arg13 main_v150 ((extractStridedSlice S1x32 ![1, 0] · slices_S8x32_S1x32_1_0) : (⟨S8x32, .f32⟩ : BufTy).Contents (Elt F) → (⟨S1x32, .f32⟩ : BufTy).Contents (Elt F)),
    StableHlo.reshape main_v150 main_v151 rfl shapeCasts_S1x32_S32,
    StableHlo.unary main_v151 main_v152 (broadcastInDim S1x32 ![1] bcast_S32_S1x32_1 : (⟨S32, .f32⟩ : BufTy).Contents (Elt F) → (⟨S1x32, .f32⟩ : BufTy).Contents (Elt F)),
    StableHlo.unary main_v152 main_v153 (broadcastInDim S16384x32 ![0, 1] bcast_S1x32_S16384x32_0_1 : (⟨S1x32, .f32⟩ : BufTy).Contents (Elt F) → (⟨S16384x32, .f32⟩ : BufTy).Contents (Elt F)),
    StableHlo.binary main_v149 main_v153 main_v154 (mulf : (⟨S16384x32, .f32⟩ : BufTy).Contents (Elt F) → (⟨S16384x32, .f32⟩ : BufTy).Contents (Elt F) → (⟨S16384x32, .f32⟩ : BufTy).Contents (Elt F)),
    StableHlo.unary main_arg14 main_v155 ((extractStridedSlice S1x32 ![1, 0] · slices_S8x32_S1x32_1_0) : (⟨S8x32, .f32⟩ : BufTy).Contents (Elt F) → (⟨S1x32, .f32⟩ : BufTy).Contents (Elt F)),
    StableHlo.reshape main_v155 main_v156 rfl shapeCasts_S1x32_S32,
    StableHlo.unary main_v156 main_v157 (broadcastInDim S1x32 ![1] bcast_S32_S1x32_1 : (⟨S32, .f32⟩ : BufTy).Contents (Elt F) → (⟨S1x32, .f32⟩ : BufTy).Contents (Elt F)),
    StableHlo.unary main_v157 main_v158 (broadcastInDim S16384x32 ![0, 1] bcast_S1x32_S16384x32_0_1 : (⟨S1x32, .f32⟩ : BufTy).Contents (Elt F) → (⟨S16384x32, .f32⟩ : BufTy).Contents (Elt F)),
    StableHlo.binary main_v154 main_v158 main_v159 (addf : (⟨S16384x32, .f32⟩ : BufTy).Contents (Elt F) → (⟨S16384x32, .f32⟩ : BufTy).Contents (Elt F) → (⟨S16384x32, .f32⟩ : BufTy).Contents (Elt F)),
    StableHlo.unary main_v159 main_v160 (Host.exp : (⟨S16384x32, .f32⟩ : BufTy).Contents (Elt F) → (⟨S16384x32, .f32⟩ : BufTy).Contents (Elt F)),
    StableHlo.binary main_v91 main_v160 main_v161 (mulf : (⟨S16384x32, .f32⟩ : BufTy).Contents (Elt F) → (⟨S16384x32, .f32⟩ : BufTy).Contents (Elt F) → (⟨S16384x32, .f32⟩ : BufTy).Contents (Elt F)),
    StableHlo.binary main_v161 main_v122 main_v162 (addf : (⟨S16384x32, .f32⟩ : BufTy).Contents (Elt F) → (⟨S16384x32, .f32⟩ : BufTy).Contents (Elt F) → (⟨S16384x32, .f32⟩ : BufTy).Contents (Elt F)),
    StableHlo.nullary main_c_39 (constantI S_ 32 64#32),
    StableHlo.unary main_c_39 main_v163 (broadcastInDim S32 ![] bcast_S_S32 : (⟨S_, .i32⟩ : BufTy).Contents (Elt F) → (⟨S32, .i32⟩ : BufTy).Contents (Elt F)),
    StableHlo.binary main_c_1 main_v163 main_v164 (addi : (⟨S32, .i32⟩ : BufTy).Contents (Elt F) → (⟨S32, .i32⟩ : BufTy).Contents (Elt F) → (⟨S32, .i32⟩ : BufTy).Contents (Elt F)),
    StableHlo.ternary main_c_7 main_v164 main_c_1 main_v165 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.unary main_v165 main_v166 (broadcastInDim S32x1 ![0] bcast_S32_S32x1_0 : (⟨S32, .i32⟩ : BufTy).Contents (Elt F) → (⟨S32x1, .i32⟩ : BufTy).Contents (Elt F)),
    StableHlo.ternary main_v81 main_v166 main_v162 main_v167 ((fun x i u => Host.scatter scatter_S16384x64_S32x1_S16384x32_0_1_1_1 (fun _ b => b) x i u) : (⟨S16384x64, .f32⟩ : BufTy).Contents (Elt F) → (⟨S32x1, .i32⟩ : BufTy).Contents (Elt F) → (⟨S16384x32, .f32⟩ : BufTy).Contents (Elt F) → (⟨S16384x64, .f32⟩ : BufTy).Contents (Elt F)),
    StableHlo.nullary main_c_40 (constantI S_ 32 64#32),
    StableHlo.unary main_c_40 main_v168 (broadcastInDim S32 ![] bcast_S_S32 : (⟨S_, .i32⟩ : BufTy).Contents (Elt F) → (⟨S32, .i32⟩ : BufTy).Contents (Elt F)),
    StableHlo.binary main_c_1 main_v168 main_v169 (addi : (⟨S32, .i32⟩ : BufTy).Contents (Elt F) → (⟨S32, .i32⟩ : BufTy).Contents (Elt F) → (⟨S32, .i32⟩ : BufTy).Contents (Elt F)),
    StableHlo.ternary main_c_8 main_v169 main_c_1 main_v170 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.unary main_v170 main_v171 (broadcastInDim S32x1 ![0] bcast_S32_S32x1_0 : (⟨S32, .i32⟩ : BufTy).Contents (Elt F) → (⟨S32x1, .i32⟩ : BufTy).Contents (Elt F)),
    StableHlo.ternary main_v86 main_v171 main_v159 main_v172 ((fun x i u => Host.scatterAdd scatter_S16384x64_S32x1_S16384x32_0_1_1_1 x i u) : (⟨S16384x64, .f32⟩ : BufTy).Contents (Elt F) → (⟨S32x1, .i32⟩ : BufTy).Contents (Elt F) → (⟨S16384x32, .f32⟩ : BufTy).Contents (Elt F) → (⟨S16384x64, .f32⟩ : BufTy).Contents (Elt F)) ]

/-- What segment 5 writes, in order. -/
abbrev seg5_w : List (Ref sig .tc) :=
  [main_call6_cst, main_call6_v0, main_v139, main_v140, main_v141, main_v142, main_v143, main_call7_cst, main_call7_v0, main_v144, main_v145, main_v146, main_v147, main_v148, main_v149, main_v150, main_v151, main_v152, main_v153, main_v154, main_v155, main_v156, main_v157, main_v158, main_v159, main_v160, main_v161, main_v162, main_c_39, main_v163, main_v164, main_v165, main_v166, main_v167, main_c_40, main_v168, main_v169, main_v170, main_v171, main_v172]

theorem seg5_sub : (seg5 : List (HloOp τ sig (Elt F))).Forall fun op => op.bufs ⊆ tcRefs τ sig :=
  ⟨nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., unary_bufs_sub .., reshape_bufs_sub .., unary_bufs_sub .., unary_bufs_sub .., binary_bufs_sub .., unary_bufs_sub .., reshape_bufs_sub .., unary_bufs_sub .., unary_bufs_sub .., binary_bufs_sub .., unary_bufs_sub .., binary_bufs_sub .., binary_bufs_sub .., nullary_bufs_sub .., unary_bufs_sub .., binary_bufs_sub .., ternary_bufs_sub .., unary_bufs_sub .., ternary_bufs_sub .., nullary_bufs_sub .., unary_bufs_sub .., binary_bufs_sub .., ternary_bufs_sub .., unary_bufs_sub .., ternary_bufs_sub ..⟩

end Cert.RefRun

end
-- ==== Proof.RefRunL1.lean ====
/-
  Coupling layer 1 of the reference program as a fold of its ninety-eight operations: from any valuation holding the
  two index tables and the all-false masks at their constants' buffers, the layer leaves at its two result buffers one
  step of the coupling (`Cert.RefDefs.stepZ`, `Cert.RefDefs.stepL`) of the contents of its two input buffers and of this
  layer's slices of the stacked parameters; and it writes none of the arguments, tables or masks.
-/
import proofs.«175251_j80573586473693_2_alg».proof.Proof.RefRunT1
import proofs.«175251_j80573586473693_2_alg».proof.Proof.RefRunLib
import proofs.«175251_j80573586473693_2_alg».proof.Proof.RefDefs

noncomputable section

namespace Cert.RefRun

open Cert.ReferenceIdeal Cert.RefDefs Idealize.ShloMosaic Idealize.ShloMosaic.TcCoe Idealize.SL.Sem Idealize.ShloMosaic.StableHlo

variable {F : FTy → Type} [FloatOps F] [Facts]

open Facts₀ Facts

/-! ## What the segments write -/

/-- Segment 4's operations write, one each and in order, the listed references, and determine what they write: each
    builder's written set is the singleton of its result by definition. -/
theorem seg4_writes : Writes (seg4 : List (HloOp τ sig (Elt F))) seg4_w := by
  repeat (first | exact List.Forall₂.nil | refine List.Forall₂.cons ⟨rfl, rfl⟩ ?_)

/-- None of them is an argument, a table or a mask. -/
theorem seg4_keeps : ∀ r ∈ keepList, r ∉ seg4_w := by decide

/-- Segment 5's operations write, one each and in order, the listed references, and determine what they write: each
    builder's written set is the singleton of its result by definition. -/
theorem seg5_writes : Writes (seg5 : List (HloOp τ sig (Elt F))) seg5_w := by
  repeat (first | exact List.Forall₂.nil | refine List.Forall₂.cons ⟨rfl, rfl⟩ ?_)

/-- None of them is an argument, a table or a mask. -/
theorem seg5_keeps : ∀ r ∈ keepList, r ∉ seg5_w := by decide

/-! ## The layer -/

/-- The valuation after the layer's operations. -/
abbrev lay1 (W : Valuation τ sig (Elt F)) : Valuation τ sig (Elt F) := after seg5 (after seg4 (W))

/-- The layer keeps the arguments, tables and masks. -/
theorem lay1_keeps {W V₁ : Valuation τ sig (Elt F)} (h : Keeps W V₁) : Keeps (lay1 W) V₁ :=
  keeps_step seg5_writes seg5_keeps (keeps_step seg4_writes seg4_keeps (h))

-- ninety-eight results composed: the term is deep
set_option maxHeartbeats 4000000 in
set_option maxRecDepth 100000 in
/-- The z buffer after the layer: the fold's value there, each operation's result read at its own buffer, is the
    scatter of `z₀ · exp s + t` into the columns `idxO` — once the tables and masks are put for the constants' buffers,
    the two sides are the same composition of host operations (the calls' buffers and the reshapes' carry their types
    by computation). -/
theorem lay1_z (W : Valuation τ sig (Elt F))
    (hE : W (main_c : DevRef τ sig) = (fun i => lit0 (S32.rowMajor i)))
    (hO : W (main_c_1 : DevRef τ sig) = (fun i => lit1 (S32.rowMajor i)))
    (hm1 : W (main_c_5 : DevRef τ sig) = constantI S32 1 0#1) (hm2 : W (main_c_6 : DevRef τ sig) = constantI S32 1 0#1)
    (hm3 : W (main_c_7 : DevRef τ sig) = constantI S32 1 0#1) :
    lay1 W (main_v167 : DevRef τ sig)
      = stepZ idxO idxE (W (main_v81 : DevRef τ sig))
          (w32x512 ![1, 0, 0] slices_S8x32x512_S1x32x512_1_0_0 (W (main_arg1 : DevRef τ sig))) (v512 ![1, 0] slices_S8x512_S1x512_1_0 (W (main_arg2 : DevRef τ sig)))
          (w512x512 ![1, 0, 0] slices_S8x512x512_S1x512x512_1_0_0 (W (main_arg3 : DevRef τ sig))) (v512 ![1, 0] slices_S8x512_S1x512_1_0 (W (main_arg4 : DevRef τ sig)))
          (w512x32 ![1, 0, 0] slices_S8x512x32_S1x512x32_1_0_0 (W (main_arg5 : DevRef τ sig))) (v32 ![1, 0] slices_S8x32_S1x32_1_0 (W (main_arg6 : DevRef τ sig)))
          (w32x512 ![1, 0, 0] slices_S8x32x512_S1x32x512_1_0_0 (W (main_arg7 : DevRef τ sig))) (v512 ![1, 0] slices_S8x512_S1x512_1_0 (W (main_arg8 : DevRef τ sig)))
          (w512x512 ![1, 0, 0] slices_S8x512x512_S1x512x512_1_0_0 (W (main_arg9 : DevRef τ sig))) (v512 ![1, 0] slices_S8x512_S1x512_1_0 (W (main_arg10 : DevRef τ sig)))
          (w512x32 ![1, 0, 0] slices_S8x512x32_S1x512x32_1_0_0 (W (main_arg11 : DevRef τ sig))) (v32 ![1, 0] slices_S8x32_S1x32_1_0 (W (main_arg12 : DevRef τ sig)))
          (v32 ![1, 0] slices_S8x32_S1x32_1_0 (W (main_arg13 : DevRef τ sig))) (v32 ![1, 0] slices_S8x32_S1x32_1_0 (W (main_arg14 : DevRef τ sig))) := by
  show after seg5 (after seg4 (W)) _ = _
  after_results_simp
  rw [hE, hO, hm1, hm2, hm3]
  rfl

set_option maxHeartbeats 4000000 in
set_option maxRecDepth 100000 in
/-- The accumulated log-scale buffer after the layer: the layer's log-scale added into the columns `idxO`. -/
theorem lay1_l (W : Valuation τ sig (Elt F))
    (hE : W (main_c : DevRef τ sig) = (fun i => lit0 (S32.rowMajor i)))
    (hO : W (main_c_1 : DevRef τ sig) = (fun i => lit1 (S32.rowMajor i)))
    (hm2 : W (main_c_6 : DevRef τ sig) = constantI S32 1 0#1) (hm4 : W (main_c_8 : DevRef τ sig) = constantI S32 1 0#1) :
    lay1 W (main_v172 : DevRef τ sig)
      = stepL idxO idxE (W (main_v81 : DevRef τ sig)) (W (main_v86 : DevRef τ sig))
          (w32x512 ![1, 0, 0] slices_S8x32x512_S1x32x512_1_0_0 (W (main_arg7 : DevRef τ sig))) (v512 ![1, 0] slices_S8x512_S1x512_1_0 (W (main_arg8 : DevRef τ sig)))
          (w512x512 ![1, 0, 0] slices_S8x512x512_S1x512x512_1_0_0 (W (main_arg9 : DevRef τ sig))) (v512 ![1, 0] slices_S8x512_S1x512_1_0 (W (main_arg10 : DevRef τ sig)))
          (w512x32 ![1, 0, 0] slices_S8x512x32_S1x512x32_1_0_0 (W (main_arg11 : DevRef τ sig))) (v32 ![1, 0] slices_S8x32_S1x32_1_0 (W (main_arg12 : DevRef τ sig)))
          (v32 ![1, 0] slices_S8x32_S1x32_1_0 (W (main_arg13 : DevRef τ sig))) (v32 ![1, 0] slices_S8x32_S1x32_1_0 (W (main_arg14 : DevRef τ sig))) := by
  show after seg5 (after seg4 (W)) _ = _
  after_results_simp
  rw [hE, hO, hm2, hm4]
  rfl

end Cert.RefRun

end
-- ==== Proof.RefRunT2.lean ====
/-
  The reference program's operations, tabulated: @main's straight line cut into consecutive segments (a cut at each
  window of the printed program and at each coupling layer's end), each segment the literal list of its host operations
  in program order, a call of the outlined maximum-with-zero spelt as its three operations over the call's buffers;
  beside each list, the references it writes, in order.
-/
import proofs.«175251_j80573586473693_2_alg».proof.ReferenceIdeal
import Idealize.ShloMosaic.Lib.StableHlo.Run

noncomputable section

namespace Cert.RefRun

open Cert.ReferenceIdeal Idealize.ShloMosaic Idealize.ShloMosaic.TcCoe Idealize.SL.Sem Idealize.ShloMosaic.StableHlo

variable {F : FTy → Type} [FloatOps F] [Facts]

open Facts₀ Facts

/-- Segment 6: 24 operations, from the one writing `main_c_41` to the one writing `main_v194`. -/
abbrev seg6 : List (HloOp τ sig (Elt F)) :=
  [ StableHlo.nullary main_c_41 (constantI S_ 32 64#32),
    StableHlo.unary main_c_41 main_v173 (broadcastInDim S32 ![] bcast_S_S32 : (⟨S_, .i32⟩ : BufTy).Contents (Elt F) → (⟨S32, .i32⟩ : BufTy).Contents (Elt F)),
    StableHlo.binary main_c main_v173 main_v174 (addi : (⟨S32, .i32⟩ : BufTy).Contents (Elt F) → (⟨S32, .i32⟩ : BufTy).Contents (Elt F) → (⟨S32, .i32⟩ : BufTy).Contents (Elt F)),
    StableHlo.ternary main_c_9 main_v174 main_c main_v175 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.unary main_v175 main_v176 (broadcastInDim S32x1 ![0] bcast_S32_S32x1_0 : (⟨S32, .i32⟩ : BufTy).Contents (Elt F) → (⟨S32x1, .i32⟩ : BufTy).Contents (Elt F)),
    StableHlo.binary main_v167 main_v176 main_v177 ((fun x i => Host.gather gather_S16384x64_S32x1_S16384x32_0_1_n_n_1_1_163841 x i) : (⟨S16384x64, .f32⟩ : BufTy).Contents (Elt F) → (⟨S32x1, .i32⟩ : BufTy).Contents (Elt F) → (⟨S16384x32, .f32⟩ : BufTy).Contents (Elt F)),
    StableHlo.nullary main_c_42 (constantI S_ 32 64#32),
    StableHlo.unary main_c_42 main_v178 (broadcastInDim S32 ![] bcast_S_S32 : (⟨S_, .i32⟩ : BufTy).Contents (Elt F) → (⟨S32, .i32⟩ : BufTy).Contents (Elt F)),
    StableHlo.binary main_c_1 main_v178 main_v179 (addi : (⟨S32, .i32⟩ : BufTy).Contents (Elt F) → (⟨S32, .i32⟩ : BufTy).Contents (Elt F) → (⟨S32, .i32⟩ : BufTy).Contents (Elt F)),
    StableHlo.ternary main_c_10 main_v179 main_c_1 main_v180 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.unary main_v180 main_v181 (broadcastInDim S32x1 ![0] bcast_S32_S32x1_0 : (⟨S32, .i32⟩ : BufTy).Contents (Elt F) → (⟨S32x1, .i32⟩ : BufTy).Contents (Elt F)),
    StableHlo.binary main_v167 main_v181 main_v182 ((fun x i => Host.gather gather_S16384x64_S32x1_S16384x32_0_1_n_n_1_1_163841 x i) : (⟨S16384x64, .f32⟩ : BufTy).Contents (Elt F) → (⟨S32x1, .i32⟩ : BufTy).Contents (Elt F) → (⟨S16384x32, .f32⟩ : BufTy).Contents (Elt F)),
    StableHlo.unary main_arg1 main_v183 ((extractStridedSlice S1x32x512 ![2, 0, 0] · slices_S8x32x512_S1x32x512_2_0_0) : (⟨S8x32x512, .f32⟩ : BufTy).Contents (Elt F) → (⟨S1x32x512, .f32⟩ : BufTy).Contents (Elt F)),
    StableHlo.reshape main_v183 main_v184 rfl shapeCasts_S1x32x512_S32x512,
    StableHlo.unary main_arg2 main_v185 ((extractStridedSlice S1x512 ![2, 0] · slices_S8x512_S1x512_2_0) : (⟨S8x512, .f32⟩ : BufTy).Contents (Elt F) → (⟨S1x512, .f32⟩ : BufTy).Contents (Elt F)),
    StableHlo.reshape main_v185 main_v186 rfl shapeCasts_S1x512_S512,
    StableHlo.unary main_arg3 main_v187 ((extractStridedSlice S1x512x512 ![2, 0, 0] · slices_S8x512x512_S1x512x512_2_0_0) : (⟨S8x512x512, .f32⟩ : BufTy).Contents (Elt F) → (⟨S1x512x512, .f32⟩ : BufTy).Contents (Elt F)),
    StableHlo.reshape main_v187 main_v188 rfl shapeCasts_S1x512x512_S512x512,
    StableHlo.unary main_arg4 main_v189 ((extractStridedSlice S1x512 ![2, 0] · slices_S8x512_S1x512_2_0) : (⟨S8x512, .f32⟩ : BufTy).Contents (Elt F) → (⟨S1x512, .f32⟩ : BufTy).Contents (Elt F)),
    StableHlo.reshape main_v189 main_v190 rfl shapeCasts_S1x512_S512,
    StableHlo.unary main_arg5 main_v191 ((extractStridedSlice S1x512x32 ![2, 0, 0] · slices_S8x512x32_S1x512x32_2_0_0) : (⟨S8x512x32, .f32⟩ : BufTy).Contents (Elt F) → (⟨S1x512x32, .f32⟩ : BufTy).Contents (Elt F)),
    StableHlo.reshape main_v191 main_v192 rfl shapeCasts_S1x512x32_S512x32,
    StableHlo.unary main_arg6 main_v193 ((extractStridedSlice S1x32 ![2, 0] · slices_S8x32_S1x32_2_0) : (⟨S8x32, .f32⟩ : BufTy).Contents (Elt F) → (⟨S1x32, .f32⟩ : BufTy).Contents (Elt F)),
    StableHlo.reshape main_v193 main_v194 rfl shapeCasts_S1x32_S32 ]

/-- What segment 6 writes, in order. -/
abbrev seg6_w : List (Ref sig .tc) :=
  [main_c_41, main_v173, main_v174, main_v175, main_v176, main_v177, main_c_42, main_v178, main_v179, main_v180, main_v181, main_v182, main_v183, main_v184, main_v185, main_v186, main_v187, main_v188, main_v189, main_v190, main_v191, main_v192, main_v193, main_v194]

theorem seg6_sub : (seg6 : List (HloOp τ sig (Elt F))).Forall fun op => op.bufs ⊆ tcRefs τ sig :=
  ⟨nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub ..⟩

/-- Segment 7: 68 operations, from the one writing `main_v195` to the one writing `main_v253`. -/
abbrev seg7 : List (HloOp τ sig (Elt F)) :=
  [ StableHlo.binary main_v182 main_v184 main_v195 ((fun l r => Host.dotGeneral dot_S16384x32_S32x512_S16384x512_1_0_0_1_n_n none l r) : (⟨S16384x32, .f32⟩ : BufTy).Contents (Elt F) → (⟨S32x512, .f32⟩ : BufTy).Contents (Elt F) → (⟨S16384x512, .f32⟩ : BufTy).Contents (Elt F)),
    StableHlo.unary main_v186 main_v196 (broadcastInDim S1x512 ![1] bcast_S512_S1x512_1 : (⟨S512, .f32⟩ : BufTy).Contents (Elt F) → (⟨S1x512, .f32⟩ : BufTy).Contents (Elt F)),
    StableHlo.unary main_v196 main_v197 (broadcastInDim S16384x512 ![0, 1] bcast_S1x512_S16384x512_0_1 : (⟨S1x512, .f32⟩ : BufTy).Contents (Elt F) → (⟨S16384x512, .f32⟩ : BufTy).Contents (Elt F)),
    StableHlo.binary main_v195 main_v197 main_v198 (addf : (⟨S16384x512, .f32⟩ : BufTy).Contents (Elt F) → (⟨S16384x512, .f32⟩ : BufTy).Contents (Elt F) → (⟨S16384x512, .f32⟩ : BufTy).Contents (Elt F)),
    StableHlo.TRef.nullary main_call8.cst (constant S_ .f32 0x00000000#32),
    StableHlo.TRef.unary main_call8.cst main_call8.v0 (broadcastInDim S16384x512 ![] bcast_S_S16384x512),
    StableHlo.TRef.binary (.of main_v198) main_call8.v0 main_call8.v1 maximumf,
    StableHlo.binary main_v199 main_v188 main_v200 ((fun l r => Host.dotGeneral dot_S16384x512_S512x512_S16384x512_1_0_0_1_n_n none l r) : (⟨S16384x512, .f32⟩ : BufTy).Contents (Elt F) → (⟨S512x512, .f32⟩ : BufTy).Contents (Elt F) → (⟨S16384x512, .f32⟩ : BufTy).Contents (Elt F)),
    StableHlo.unary main_v190 main_v201 (broadcastInDim S1x512 ![1] bcast_S512_S1x512_1 : (⟨S512, .f32⟩ : BufTy).Contents (Elt F) → (⟨S1x512, .f32⟩ : BufTy).Contents (Elt F)),
    StableHlo.unary main_v201 main_v202 (broadcastInDim S16384x512 ![0, 1] bcast_S1x512_S16384x512_0_1 : (⟨S1x512, .f32⟩ : BufTy).Contents (Elt F) → (⟨S16384x512, .f32⟩ : BufTy).Contents (Elt F)),
    StableHlo.binary main_v200 main_v202 main_v203 (addf : (⟨S16384x512, .f32⟩ : BufTy).Contents (Elt F) → (⟨S16384x512, .f32⟩ : BufTy).Contents (Elt F) → (⟨S16384x512, .f32⟩ : BufTy).Contents (Elt F)),
    StableHlo.TRef.nullary main_call9.cst (constant S_ .f32 0x00000000#32),
    StableHlo.TRef.unary main_call9.cst main_call9.v0 (broadcastInDim S16384x512 ![] bcast_S_S16384x512),
    StableHlo.TRef.binary (.of main_v203) main_call9.v0 main_call9.v1 maximumf,
    StableHlo.binary main_v204 main_v192 main_v205 ((fun l r => Host.dotGeneral dot_S16384x512_S512x32_S16384x32_1_0_0_1_n_n none l r) : (⟨S16384x512, .f32⟩ : BufTy).Contents (Elt F) → (⟨S512x32, .f32⟩ : BufTy).Contents (Elt F) → (⟨S16384x32, .f32⟩ : BufTy).Contents (Elt F)),
    StableHlo.unary main_v194 main_v206 (broadcastInDim S1x32 ![1] bcast_S32_S1x32_1 : (⟨S32, .f32⟩ : BufTy).Contents (Elt F) → (⟨S1x32, .f32⟩ : BufTy).Contents (Elt F)),
    StableHlo.unary main_v206 main_v207 (broadcastInDim S16384x32 ![0, 1] bcast_S1x32_S16384x32_0_1 : (⟨S1x32, .f32⟩ : BufTy).Contents (Elt F) → (⟨S16384x32, .f32⟩ : BufTy).Contents (Elt F)),
    StableHlo.binary main_v205 main_v207 main_v208 (addf : (⟨S16384x32, .f32⟩ : BufTy).Contents (Elt F) → (⟨S16384x32, .f32⟩ : BufTy).Contents (Elt F) → (⟨S16384x32, .f32⟩ : BufTy).Contents (Elt F)),
    StableHlo.unary main_arg7 main_v209 ((extractStridedSlice S1x32x512 ![2, 0, 0] · slices_S8x32x512_S1x32x512_2_0_0) : (⟨S8x32x512, .f32⟩ : BufTy).Contents (Elt F) → (⟨S1x32x512, .f32⟩ : BufTy).Contents (Elt F)),
    StableHlo.reshape main_v209 main_v210 rfl shapeCasts_S1x32x512_S32x512,
    StableHlo.unary main_arg8 main_v211 ((extractStridedSlice S1x512 ![2, 0] · slices_S8x512_S1x512_2_0) : (⟨S8x512, .f32⟩ : BufTy).Contents (Elt F) → (⟨S1x512, .f32⟩ : BufTy).Contents (Elt F)),
    StableHlo.reshape main_v211 main_v212 rfl shapeCasts_S1x512_S512,
    StableHlo.unary main_arg9 main_v213 ((extractStridedSlice S1x512x512 ![2, 0, 0] · slices_S8x512x512_S1x512x512_2_0_0) : (⟨S8x512x512, .f32⟩ : BufTy).Contents (Elt F) → (⟨S1x512x512, .f32⟩ : BufTy).Contents (Elt F)),
    StableHlo.reshape main_v213 main_v214 rfl shapeCasts_S1x512x512_S512x512,
    StableHlo.unary main_arg10 main_v215 ((extractStridedSlice S1x512 ![2, 0] · slices_S8x512_S1x512_2_0) : (⟨S8x512, .f32⟩ : BufTy).Contents (Elt F) → (⟨S1x512, .f32⟩ : BufTy).Contents (Elt F)),
    StableHlo.reshape main_v215 main_v216 rfl shapeCasts_S1x512_S512,
    StableHlo.unary main_arg11 main_v217 ((extractStridedSlice S1x512x32 ![2, 0, 0] · slices_S8x512x32_S1x512x32_2_0_0) : (⟨S8x512x32, .f32⟩ : BufTy).Contents (Elt F) → (⟨S1x512x32, .f32⟩ : BufTy).Contents (Elt F)),
    StableHlo.reshape main_v217 main_v218 rfl shapeCasts_S1x512x32_S512x32,
    StableHlo.unary main_arg12 main_v219 ((extractStridedSlice S1x32 ![2, 0] · slices_S8x32_S1x32_2_0) : (⟨S8x32, .f32⟩ : BufTy).Contents (Elt F) → (⟨S1x32, .f32⟩ : BufTy).Contents (Elt F)),
    StableHlo.reshape main_v219 main_v220 rfl shapeCasts_S1x32_S32,
    StableHlo.binary main_v182 main_v210 main_v221 ((fun l r => Host.dotGeneral dot_S16384x32_S32x512_S16384x512_1_0_0_1_n_n none l r) : (⟨S16384x32, .f32⟩ : BufTy).Contents (Elt F) → (⟨S32x512, .f32⟩ : BufTy).Contents (Elt F) → (⟨S16384x512, .f32⟩ : BufTy).Contents (Elt F)),
    StableHlo.unary main_v212 main_v222 (broadcastInDim S1x512 ![1] bcast_S512_S1x512_1 : (⟨S512, .f32⟩ : BufTy).Contents (Elt F) → (⟨S1x512, .f32⟩ : BufTy).Contents (Elt F)),
    StableHlo.unary main_v222 main_v223 (broadcastInDim S16384x512 ![0, 1] bcast_S1x512_S16384x512_0_1 : (⟨S1x512, .f32⟩ : BufTy).Contents (Elt F) → (⟨S16384x512, .f32⟩ : BufTy).Contents (Elt F)),
    StableHlo.binary main_v221 main_v223 main_v224 (addf : (⟨S16384x512, .f32⟩ : BufTy).Contents (Elt F) → (⟨S16384x512, .f32⟩ : BufTy).Contents (Elt F) → (⟨S16384x512, .f32⟩ : BufTy).Contents (Elt F)),
    StableHlo.TRef.nullary main_call10.cst (constant S_ .f32 0x00000000#32),
    StableHlo.TRef.unary main_call10.cst main_call10.v0 (broadcastInDim S16384x512 ![] bcast_S_S16384x512),
    StableHlo.TRef.binary (.of main_v224) main_call10.v0 main_call10.v1 maximumf,
    StableHlo.binary main_v225 main_v214 main_v226 ((fun l r => Host.dotGeneral dot_S16384x512_S512x512_S16384x512_1_0_0_1_n_n none l r) : (⟨S16384x512, .f32⟩ : BufTy).Contents (Elt F) → (⟨S512x512, .f32⟩ : BufTy).Contents (Elt F) → (⟨S16384x512, .f32⟩ : BufTy).Contents (Elt F)),
    StableHlo.unary main_v216 main_v227 (broadcastInDim S1x512 ![1] bcast_S512_S1x512_1 : (⟨S512, .f32⟩ : BufTy).Contents (Elt F) → (⟨S1x512, .f32⟩ : BufTy).Contents (Elt F)),
    StableHlo.unary main_v227 main_v228 (broadcastInDim S16384x512 ![0, 1] bcast_S1x512_S16384x512_0_1 : (⟨S1x512, .f32⟩ : BufTy).Contents (Elt F) → (⟨S16384x512, .f32⟩ : BufTy).Contents (Elt F)),
    StableHlo.binary main_v226 main_v228 main_v229 (addf : (⟨S16384x512, .f32⟩ : BufTy).Contents (Elt F) → (⟨S16384x512, .f32⟩ : BufTy).Contents (Elt F) → (⟨S16384x512, .f32⟩ : BufTy).Contents (Elt F)),
    StableHlo.TRef.nullary main_call11.cst (constant S_ .f32 0x00000000#32),
    StableHlo.TRef.unary main_call11.cst main_call11.v0 (broadcastInDim S16384x512 ![] bcast_S_S16384x512),
    StableHlo.TRef.binary (.of main_v229) main_call11.v0 main_call11.v1 maximumf,
    StableHlo.binary main_v230 main_v218 main_v231 ((fun l r => Host.dotGeneral dot_S16384x512_S512x32_S16384x32_1_0_0_1_n_n none l r) : (⟨S16384x512, .f32⟩ : BufTy).Contents (Elt F) → (⟨S512x32, .f32⟩ : BufTy).Contents (Elt F) → (⟨S16384x32, .f32⟩ : BufTy).Contents (Elt F)),
    StableHlo.unary main_v220 main_v232 (broadcastInDim S1x32 ![1] bcast_S32_S1x32_1 : (⟨S32, .f32⟩ : BufTy).Contents (Elt F) → (⟨S1x32, .f32⟩ : BufTy).Contents (Elt F)),
    StableHlo.unary main_v232 main_v233 (broadcastInDim S16384x32 ![0, 1] bcast_S1x32_S16384x32_0_1 : (⟨S1x32, .f32⟩ : BufTy).Contents (Elt F) → (⟨S16384x32, .f32⟩ : BufTy).Contents (Elt F)),
    StableHlo.binary main_v231 main_v233 main_v234 (addf : (⟨S16384x32, .f32⟩ : BufTy).Contents (Elt F) → (⟨S16384x32, .f32⟩ : BufTy).Contents (Elt F) → (⟨S16384x32, .f32⟩ : BufTy).Contents (Elt F)),
    StableHlo.unary main_v234 main_v235 (Host.tanh : (⟨S16384x32, .f32⟩ : BufTy).Contents (Elt F) → (⟨S16384x32, .f32⟩ : BufTy).Contents (Elt F)),
    StableHlo.unary main_arg13 main_v236 ((extractStridedSlice S1x32 ![2, 0] · slices_S8x32_S1x32_2_0) : (⟨S8x32, .f32⟩ : BufTy).Contents (Elt F) → (⟨S1x32, .f32⟩ : BufTy).Contents (Elt F)),
    StableHlo.reshape main_v236 main_v237 rfl shapeCasts_S1x32_S32,
    StableHlo.unary main_v237 main_v238 (broadcastInDim S1x32 ![1] bcast_S32_S1x32_1 : (⟨S32, .f32⟩ : BufTy).Contents (Elt F) → (⟨S1x32, .f32⟩ : BufTy).Contents (Elt F)),
    StableHlo.unary main_v238 main_v239 (broadcastInDim S16384x32 ![0, 1] bcast_S1x32_S16384x32_0_1 : (⟨S1x32, .f32⟩ : BufTy).Contents (Elt F) → (⟨S16384x32, .f32⟩ : BufTy).Contents (Elt F)),
    StableHlo.binary main_v235 main_v239 main_v240 (mulf : (⟨S16384x32, .f32⟩ : BufTy).Contents (Elt F) → (⟨S16384x32, .f32⟩ : BufTy).Contents (Elt F) → (⟨S16384x32, .f32⟩ : BufTy).Contents (Elt F)),
    StableHlo.unary main_arg14 main_v241 ((extractStridedSlice S1x32 ![2, 0] · slices_S8x32_S1x32_2_0) : (⟨S8x32, .f32⟩ : BufTy).Contents (Elt F) → (⟨S1x32, .f32⟩ : BufTy).Contents (Elt F)),
    StableHlo.reshape main_v241 main_v242 rfl shapeCasts_S1x32_S32,
    StableHlo.unary main_v242 main_v243 (broadcastInDim S1x32 ![1] bcast_S32_S1x32_1 : (⟨S32, .f32⟩ : BufTy).Contents (Elt F) → (⟨S1x32, .f32⟩ : BufTy).Contents (Elt F)),
    StableHlo.unary main_v243 main_v244 (broadcastInDim S16384x32 ![0, 1] bcast_S1x32_S16384x32_0_1 : (⟨S1x32, .f32⟩ : BufTy).Contents (Elt F) → (⟨S16384x32, .f32⟩ : BufTy).Contents (Elt F)),
    StableHlo.binary main_v240 main_v244 main_v245 (addf : (⟨S16384x32, .f32⟩ : BufTy).Contents (Elt F) → (⟨S16384x32, .f32⟩ : BufTy).Contents (Elt F) → (⟨S16384x32, .f32⟩ : BufTy).Contents (Elt F)),
    StableHlo.unary main_v245 main_v246 (Host.exp : (⟨S16384x32, .f32⟩ : BufTy).Contents (Elt F) → (⟨S16384x32, .f32⟩ : BufTy).Contents (Elt F)),
    StableHlo.binary main_v177 main_v246 main_v247 (mulf : (⟨S16384x32, .f32⟩ : BufTy).Contents (Elt F) → (⟨S16384x32, .f32⟩ : BufTy).Contents (Elt F) → (⟨S16384x32, .f32⟩ : BufTy).Contents (Elt F)),
    StableHlo.binary main_v247 main_v208 main_v248 (addf : (⟨S16384x32, .f32⟩ : BufTy).Contents (Elt F) → (⟨S16384x32, .f32⟩ : BufTy).Contents (Elt F) → (⟨S16384x32, .f32⟩ : BufTy).Contents (Elt F)),
    StableHlo.nullary main_c_43 (constantI S_ 32 64#32),
    StableHlo.unary main_c_43 main_v249 (broadcastInDim S32 ![] bcast_S_S32 : (⟨S_, .i32⟩ : BufTy).Contents (Elt F) → (⟨S32, .i32⟩ : BufTy).Contents (Elt F)),
    StableHlo.binary main_c main_v249 main_v250 (addi : (⟨S32, .i32⟩ : BufTy).Contents (Elt F) → (⟨S32, .i32⟩ : BufTy).Contents (Elt F) → (⟨S32, .i32⟩ : BufTy).Contents (Elt F)),
    StableHlo.ternary main_c_11 main_v250 main_c main_v251 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.unary main_v251 main_v252 (broadcastInDim S32x1 ![0] bcast_S32_S32x1_0 : (⟨S32, .i32⟩ : BufTy).Contents (Elt F) → (⟨S32x1, .i32⟩ : BufTy).Contents (Elt F)),
    StableHlo.ternary main_v167 main_v252 main_v248 main_v253 ((fun x i u => Host.scatter scatter_S16384x64_S32x1_S16384x32_0_1_1_1 (fun _ b => b) x i u) : (⟨S16384x64, .f32⟩ : BufTy).Contents (Elt F) → (⟨S32x1, .i32⟩ : BufTy).Contents (Elt F) → (⟨S16384x32, .f32⟩ : BufTy).Contents (Elt F) → (⟨S16384x64, .f32⟩ : BufTy).Contents (Elt F)) ]

/-- What segment 7 writes, in order. -/
abbrev seg7_w : List (Ref sig .tc) :=
  [main_v195, main_v196, main_v197, main_v198, main_call8_cst, main_call8_v0, main_v199, main_v200, main_v201, main_v202, main_v203, main_call9_cst, main_call9_v0, main_v204, main_v205, main_v206, main_v207, main_v208, main_v209, main_v210, main_v211, main_v212, main_v213, main_v214, main_v215, main_v216, main_v217, main_v218, main_v219, main_v220, main_v221, main_v222, main_v223, main_v224, main_call10_cst, main_call10_v0, main_v225, main_v226, main_v227, main_v228, main_v229, main_call11_cst, main_call11_v0, main_v230, main_v231, main_v232, main_v233, main_v234, main_v235, main_v236, main_v237, main_v238, main_v239, main_v240, main_v241, main_v242, main_v243, main_v244, main_v245, main_v246, main_v247, main_v248, main_c_43, main_v249, main_v250, main_v251, main_v252, main_v253]

theorem seg7_sub : (seg7 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., unary_bufs_sub .., reshape_bufs_sub .., unary_bufs_sub .., unary_bufs_sub .., binary_bufs_sub .., unary_bufs_sub .., reshape_bufs_sub .., unary_bufs_sub .., unary_bufs_sub .., binary_bufs_sub .., unary_bufs_sub .., binary_bufs_sub .., binary_bufs_sub .., nullary_bufs_sub .., unary_bufs_sub .., binary_bufs_sub .., ternary_bufs_sub .., unary_bufs_sub .., ternary_bufs_sub ..⟩

/-- Segment 8: 6 operations, from the one writing `main_c_44` to the one writing `main_v258`. -/
abbrev seg8 : List (HloOp τ sig (Elt F)) :=
  [ StableHlo.nullary main_c_44 (constantI S_ 32 64#32),
    StableHlo.unary main_c_44 main_v254 (broadcastInDim S32 ![] bcast_S_S32 : (⟨S_, .i32⟩ : BufTy).Contents (Elt F) → (⟨S32, .i32⟩ : BufTy).Contents (Elt F)),
    StableHlo.binary main_c main_v254 main_v255 (addi : (⟨S32, .i32⟩ : BufTy).Contents (Elt F) → (⟨S32, .i32⟩ : BufTy).Contents (Elt F) → (⟨S32, .i32⟩ : BufTy).Contents (Elt F)),
    StableHlo.ternary main_c_12 main_v255 main_c main_v256 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.unary main_v256 main_v257 (broadcastInDim S32x1 ![0] bcast_S32_S32x1_0 : (⟨S32, .i32⟩ : BufTy).Contents (Elt F) → (⟨S32x1, .i32⟩ : BufTy).Contents (Elt F)),
    StableHlo.ternary main_v172 main_v257 main_v245 main_v258 ((fun x i u => Host.scatterAdd scatter_S16384x64_S32x1_S16384x32_0_1_1_1 x i u) : (⟨S16384x64, .f32⟩ : BufTy).Contents (Elt F) → (⟨S32x1, .i32⟩ : BufTy).Contents (Elt F) → (⟨S16384x32, .f32⟩ : BufTy).Contents (Elt F) → (⟨S16384x64, .f32⟩ : BufTy).Contents (Elt F)) ]

/-- What segment 8 writes, in order. -/
abbrev seg8_w : List (Ref sig .tc) :=
  [main_c_44, main_v254, main_v255, main_v256, main_v257, main_v258]

theorem seg8_sub : (seg8 : List (HloOp τ sig (Elt F))).Forall fun op => op.bufs ⊆ tcRefs τ sig :=
  ⟨nullary_bufs_sub .., unary_bufs_sub .., binary_bufs_sub .., ternary_bufs_sub .., unary_bufs_sub .., ternary_bufs_sub ..⟩

end Cert.RefRun

end
-- ==== Proof.RefRunL2.lean ====
/-
  Coupling layer 2 of the reference program as a fold of its ninety-eight operations: from any valuation holding the
  two index tables and the all-false masks at their constants' buffers, the layer leaves at its two result buffers one
  step of the coupling (`Cert.RefDefs.stepZ`, `Cert.RefDefs.stepL`) of the contents of its two input buffers and of this
  layer's slices of the stacked parameters; and it writes none of the arguments, tables or masks.
-/
import proofs.«175251_j80573586473693_2_alg».proof.Proof.RefRunT2
import proofs.«175251_j80573586473693_2_alg».proof.Proof.RefRunLib
import proofs.«175251_j80573586473693_2_alg».proof.Proof.RefDefs

noncomputable section

namespace Cert.RefRun

open Cert.ReferenceIdeal Cert.RefDefs Idealize.ShloMosaic Idealize.ShloMosaic.TcCoe Idealize.SL.Sem Idealize.ShloMosaic.StableHlo

variable {F : FTy → Type} [FloatOps F] [Facts]

open Facts₀ Facts

/-! ## What the segments write -/

/-- Segment 6's operations write, one each and in order, the listed references, and determine what they write: each
    builder's written set is the singleton of its result by definition. -/
theorem seg6_writes : Writes (seg6 : List (HloOp τ sig (Elt F))) seg6_w := by
  repeat (first | exact List.Forall₂.nil | refine List.Forall₂.cons ⟨rfl, rfl⟩ ?_)

/-- None of them is an argument, a table or a mask. -/
theorem seg6_keeps : ∀ r ∈ keepList, r ∉ seg6_w := by decide

/-- Segment 7's operations write, one each and in order, the listed references, and determine what they write: each
    builder's written set is the singleton of its result by definition. -/
theorem seg7_writes : Writes (seg7 : List (HloOp τ sig (Elt F))) seg7_w := by
  repeat (first | exact List.Forall₂.nil | refine List.Forall₂.cons ⟨rfl, rfl⟩ ?_)

/-- None of them is an argument, a table or a mask. -/
theorem seg7_keeps : ∀ r ∈ keepList, r ∉ seg7_w := by decide

/-- Segment 8's operations write, one each and in order, the listed references, and determine what they write: each
    builder's written set is the singleton of its result by definition. -/
theorem seg8_writes : Writes (seg8 : List (HloOp τ sig (Elt F))) seg8_w := by
  repeat (first | exact List.Forall₂.nil | refine List.Forall₂.cons ⟨rfl, rfl⟩ ?_)

/-- None of them is an argument, a table or a mask. -/
theorem seg8_keeps : ∀ r ∈ keepList, r ∉ seg8_w := by decide

/-! ## The layer -/

/-- The valuation after the layer's operations. -/
abbrev lay2 (W : Valuation τ sig (Elt F)) : Valuation τ sig (Elt F) := after seg8 (after seg7 (after seg6 (W)))

/-- The layer keeps the arguments, tables and masks. -/
theorem lay2_keeps {W V₁ : Valuation τ sig (Elt F)} (h : Keeps W V₁) : Keeps (lay2 W) V₁ :=
  keeps_step seg8_writes seg8_keeps (keeps_step seg7_writes seg7_keeps (keeps_step seg6_writes seg6_keeps (h)))

-- ninety-eight results composed: the term is deep
set_option maxHeartbeats 4000000 in
set_option maxRecDepth 100000 in
/-- The z buffer after the layer: the fold's value there, each operation's result read at its own buffer, is the
    scatter of `z₀ · exp s + t` into the columns `idxE` — once the tables and masks are put for the constants' buffers,
    the two sides are the same composition of host operations (the calls' buffers and the reshapes' carry their types
    by computation). -/
theorem lay2_z (W : Valuation τ sig (Elt F))
    (hE : W (main_c : DevRef τ sig) = (fun i => lit0 (S32.rowMajor i)))
    (hO : W (main_c_1 : DevRef τ sig) = (fun i => lit1 (S32.rowMajor i)))
    (hm1 : W (main_c_9 : DevRef τ sig) = constantI S32 1 0#1) (hm2 : W (main_c_10 : DevRef τ sig) = constantI S32 1 0#1)
    (hm3 : W (main_c_11 : DevRef τ sig) = constantI S32 1 0#1) :
    lay2 W (main_v253 : DevRef τ sig)
      = stepZ idxE idxO (W (main_v167 : DevRef τ sig))
          (w32x512 ![2, 0, 0] slices_S8x32x512_S1x32x512_2_0_0 (W (main_arg1 : DevRef τ sig))) (v512 ![2, 0] slices_S8x512_S1x512_2_0 (W (main_arg2 : DevRef τ sig)))
          (w512x512 ![2, 0, 0] slices_S8x512x512_S1x512x512_2_0_0 (W (main_arg3 : DevRef τ sig))) (v512 ![2, 0] slices_S8x512_S1x512_2_0 (W (main_arg4 : DevRef τ sig)))
          (w512x32 ![2, 0, 0] slices_S8x512x32_S1x512x32_2_0_0 (W (main_arg5 : DevRef τ sig))) (v32 ![2, 0] slices_S8x32_S1x32_2_0 (W (main_arg6 : DevRef τ sig)))
          (w32x512 ![2, 0, 0] slices_S8x32x512_S1x32x512_2_0_0 (W (main_arg7 : DevRef τ sig))) (v512 ![2, 0] slices_S8x512_S1x512_2_0 (W (main_arg8 : DevRef τ sig)))
          (w512x512 ![2, 0, 0] slices_S8x512x512_S1x512x512_2_0_0 (W (main_arg9 : DevRef τ sig))) (v512 ![2, 0] slices_S8x512_S1x512_2_0 (W (main_arg10 : DevRef τ sig)))
          (w512x32 ![2, 0, 0] slices_S8x512x32_S1x512x32_2_0_0 (W (main_arg11 : DevRef τ sig))) (v32 ![2, 0] slices_S8x32_S1x32_2_0 (W (main_arg12 : DevRef τ sig)))
          (v32 ![2, 0] slices_S8x32_S1x32_2_0 (W (main_arg13 : DevRef τ sig))) (v32 ![2, 0] slices_S8x32_S1x32_2_0 (W (main_arg14 : DevRef τ sig))) := by
  show after seg8 (after seg7 (after seg6 (W))) _ = _
  after_results_simp
  rw [hE, hO, hm1, hm2, hm3]
  rfl

set_option maxHeartbeats 4000000 in
set_option maxRecDepth 100000 in
/-- The accumulated log-scale buffer after the layer: the layer's log-scale added into the columns `idxE`. -/
theorem lay2_l (W : Valuation τ sig (Elt F))
    (hE : W (main_c : DevRef τ sig) = (fun i => lit0 (S32.rowMajor i)))
    (hO : W (main_c_1 : DevRef τ sig) = (fun i => lit1 (S32.rowMajor i)))
    (hm2 : W (main_c_10 : DevRef τ sig) = constantI S32 1 0#1) (hm4 : W (main_c_12 : DevRef τ sig) = constantI S32 1 0#1) :
    lay2 W (main_v258 : DevRef τ sig)
      = stepL idxE idxO (W (main_v167 : DevRef τ sig)) (W (main_v172 : DevRef τ sig))
          (w32x512 ![2, 0, 0] slices_S8x32x512_S1x32x512_2_0_0 (W (main_arg7 : DevRef τ sig))) (v512 ![2, 0] slices_S8x512_S1x512_2_0 (W (main_arg8 : DevRef τ sig)))
          (w512x512 ![2, 0, 0] slices_S8x512x512_S1x512x512_2_0_0 (W (main_arg9 : DevRef τ sig))) (v512 ![2, 0] slices_S8x512_S1x512_2_0 (W (main_arg10 : DevRef τ sig)))
          (w512x32 ![2, 0, 0] slices_S8x512x32_S1x512x32_2_0_0 (W (main_arg11 : DevRef τ sig))) (v32 ![2, 0] slices_S8x32_S1x32_2_0 (W (main_arg12 : DevRef τ sig)))
          (v32 ![2, 0] slices_S8x32_S1x32_2_0 (W (main_arg13 : DevRef τ sig))) (v32 ![2, 0] slices_S8x32_S1x32_2_0 (W (main_arg14 : DevRef τ sig))) := by
  show after seg8 (after seg7 (after seg6 (W))) _ = _
  after_results_simp
  rw [hE, hO, hm2, hm4]
  rfl

end Cert.RefRun

end
-- ==== Proof.RefRunT3.lean ====
/-
  The reference program's operations, tabulated: @main's straight line cut into consecutive segments (a cut at each
  window of the printed program and at each coupling layer's end), each segment the literal list of its host operations
  in program order, a call of the outlined maximum-with-zero spelt as its three operations over the call's buffers;
  beside each list, the references it writes, in order.
-/
import proofs.«175251_j80573586473693_2_alg».proof.ReferenceIdeal
import Idealize.ShloMosaic.Lib.StableHlo.Run

noncomputable section

namespace Cert.RefRun

open Cert.ReferenceIdeal Idealize.ShloMosaic Idealize.ShloMosaic.TcCoe Idealize.SL.Sem Idealize.ShloMosaic.StableHlo

variable {F : FTy → Type} [FloatOps F] [Facts]

open Facts₀ Facts

/-- Segment 9: 58 operations, from the one writing `main_c_45` to the one writing `main_v310`. -/
abbrev seg9 : List (HloOp τ sig (Elt F)) :=
  [ StableHlo.nullary main_c_45 (constantI S_ 32 64#32),
    StableHlo.unary main_c_45 main_v259 (broadcastInDim S32 ![] bcast_S_S32 : (⟨S_, .i32⟩ : BufTy).Contents (Elt F) → (⟨S32, .i32⟩ : BufTy).Contents (Elt F)),
    StableHlo.binary main_c_1 main_v259 main_v260 (addi : (⟨S32, .i32⟩ : BufTy).Contents (Elt F) → (⟨S32, .i32⟩ : BufTy).Contents (Elt F) → (⟨S32, .i32⟩ : BufTy).Contents (Elt F)),
    StableHlo.ternary main_c_13 main_v260 main_c_1 main_v261 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.unary main_v261 main_v262 (broadcastInDim S32x1 ![0] bcast_S32_S32x1_0 : (⟨S32, .i32⟩ : BufTy).Contents (Elt F) → (⟨S32x1, .i32⟩ : BufTy).Contents (Elt F)),
    StableHlo.binary main_v253 main_v262 main_v263 ((fun x i => Host.gather gather_S16384x64_S32x1_S16384x32_0_1_n_n_1_1_163841 x i) : (⟨S16384x64, .f32⟩ : BufTy).Contents (Elt F) → (⟨S32x1, .i32⟩ : BufTy).Contents (Elt F) → (⟨S16384x32, .f32⟩ : BufTy).Contents (Elt F)),
    StableHlo.nullary main_c_46 (constantI S_ 32 64#32),
    StableHlo.unary main_c_46 main_v264 (broadcastInDim S32 ![] bcast_S_S32 : (⟨S_, .i32⟩ : BufTy).Contents (Elt F) → (⟨S32, .i32⟩ : BufTy).Contents (Elt F)),
    StableHlo.binary main_c main_v264 main_v265 (addi : (⟨S32, .i32⟩ : BufTy).Contents (Elt F) → (⟨S32, .i32⟩ : BufTy).Contents (Elt F) → (⟨S32, .i32⟩ : BufTy).Contents (Elt F)),
    StableHlo.ternary main_c_14 main_v265 main_c main_v266 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.unary main_v266 main_v267 (broadcastInDim S32x1 ![0] bcast_S32_S32x1_0 : (⟨S32, .i32⟩ : BufTy).Contents (Elt F) → (⟨S32x1, .i32⟩ : BufTy).Contents (Elt F)),
    StableHlo.binary main_v253 main_v267 main_v268 ((fun x i => Host.gather gather_S16384x64_S32x1_S16384x32_0_1_n_n_1_1_163841 x i) : (⟨S16384x64, .f32⟩ : BufTy).Contents (Elt F) → (⟨S32x1, .i32⟩ : BufTy).Contents (Elt F) → (⟨S16384x32, .f32⟩ : BufTy).Contents (Elt F)),
    StableHlo.unary main_arg1 main_v269 ((extractStridedSlice S1x32x512 ![3, 0, 0] · slices_S8x32x512_S1x32x512_3_0_0) : (⟨S8x32x512, .f32⟩ : BufTy).Contents (Elt F) → (⟨S1x32x512, .f32⟩ : BufTy).Contents (Elt F)),
    StableHlo.reshape main_v269 main_v270 rfl shapeCasts_S1x32x512_S32x512,
    StableHlo.unary main_arg2 main_v271 ((extractStridedSlice S1x512 ![3, 0] · slices_S8x512_S1x512_3_0) : (⟨S8x512, .f32⟩ : BufTy).Contents (Elt F) → (⟨S1x512, .f32⟩ : BufTy).Contents (Elt F)),
    StableHlo.reshape main_v271 main_v272 rfl shapeCasts_S1x512_S512,
    StableHlo.unary main_arg3 main_v273 ((extractStridedSlice S1x512x512 ![3, 0, 0] · slices_S8x512x512_S1x512x512_3_0_0) : (⟨S8x512x512, .f32⟩ : BufTy).Contents (Elt F) → (⟨S1x512x512, .f32⟩ : BufTy).Contents (Elt F)),
    StableHlo.reshape main_v273 main_v274 rfl shapeCasts_S1x512x512_S512x512,
    StableHlo.unary main_arg4 main_v275 ((extractStridedSlice S1x512 ![3, 0] · slices_S8x512_S1x512_3_0) : (⟨S8x512, .f32⟩ : BufTy).Contents (Elt F) → (⟨S1x512, .f32⟩ : BufTy).Contents (Elt F)),
    StableHlo.reshape main_v275 main_v276 rfl shapeCasts_S1x512_S512,
    StableHlo.unary main_arg5 main_v277 ((extractStridedSlice S1x512x32 ![3, 0, 0] · slices_S8x512x32_S1x512x32_3_0_0) : (⟨S8x512x32, .f32⟩ : BufTy).Contents (Elt F) → (⟨S1x512x32, .f32⟩ : BufTy).Contents (Elt F)),
    StableHlo.reshape main_v277 main_v278 rfl shapeCasts_S1x512x32_S512x32,
    StableHlo.unary main_arg6 main_v279 ((extractStridedSlice S1x32 ![3, 0] · slices_S8x32_S1x32_3_0) : (⟨S8x32, .f32⟩ : BufTy).Contents (Elt F) → (⟨S1x32, .f32⟩ : BufTy).Contents (Elt F)),
    StableHlo.reshape main_v279 main_v280 rfl shapeCasts_S1x32_S32,
    StableHlo.binary main_v268 main_v270 main_v281 ((fun l r => Host.dotGeneral dot_S16384x32_S32x512_S16384x512_1_0_0_1_n_n none l r) : (⟨S16384x32, .f32⟩ : BufTy).Contents (Elt F) → (⟨S32x512, .f32⟩ : BufTy).Contents (Elt F) → (⟨S16384x512, .f32⟩ : BufTy).Contents (Elt F)),
    StableHlo.unary main_v272 main_v282 (broadcastInDim S1x512 ![1] bcast_S512_S1x512_1 : (⟨S512, .f32⟩ : BufTy).Contents (Elt F) → (⟨S1x512, .f32⟩ : BufTy).Contents (Elt F)),
    StableHlo.unary main_v282 main_v283 (broadcastInDim S16384x512 ![0, 1] bcast_S1x512_S16384x512_0_1 : (⟨S1x512, .f32⟩ : BufTy).Contents (Elt F) → (⟨S16384x512, .f32⟩ : BufTy).Contents (Elt F)),
    StableHlo.binary main_v281 main_v283 main_v284 (addf : (⟨S16384x512, .f32⟩ : BufTy).Contents (Elt F) → (⟨S16384x512, .f32⟩ : BufTy).Contents (Elt F) → (⟨S16384x512, .f32⟩ : BufTy).Contents (Elt F)),
    StableHlo.TRef.nullary main_call12.cst (constant S_ .f32 0x00000000#32),
    StableHlo.TRef.unary main_call12.cst main_call12.v0 (broadcastInDim S16384x512 ![] bcast_S_S16384x512),
    StableHlo.TRef.binary (.of main_v284) main_call12.v0 main_call12.v1 maximumf,
    StableHlo.binary main_v285 main_v274 main_v286 ((fun l r => Host.dotGeneral dot_S16384x512_S512x512_S16384x512_1_0_0_1_n_n none l r) : (⟨S16384x512, .f32⟩ : BufTy).Contents (Elt F) → (⟨S512x512, .f32⟩ : BufTy).Contents (Elt F) → (⟨S16384x512, .f32⟩ : BufTy).Contents (Elt F)),
    StableHlo.unary main_v276 main_v287 (broadcastInDim S1x512 ![1] bcast_S512_S1x512_1 : (⟨S512, .f32⟩ : BufTy).Contents (Elt F) → (⟨S1x512, .f32⟩ : BufTy).Contents (Elt F)),
    StableHlo.unary main_v287 main_v288 (broadcastInDim S16384x512 ![0, 1] bcast_S1x512_S16384x512_0_1 : (⟨S1x512, .f32⟩ : BufTy).Contents (Elt F) → (⟨S16384x512, .f32⟩ : BufTy).Contents (Elt F)),
    StableHlo.binary main_v286 main_v288 main_v289 (addf : (⟨S16384x512, .f32⟩ : BufTy).Contents (Elt F) → (⟨S16384x512, .f32⟩ : BufTy).Contents (Elt F) → (⟨S16384x512, .f32⟩ : BufTy).Contents (Elt F)),
    StableHlo.TRef.nullary main_call13.cst (constant S_ .f32 0x00000000#32),
    StableHlo.TRef.unary main_call13.cst main_call13.v0 (broadcastInDim S16384x512 ![] bcast_S_S16384x512),
    StableHlo.TRef.binary (.of main_v289) main_call13.v0 main_call13.v1 maximumf,
    StableHlo.binary main_v290 main_v278 main_v291 ((fun l r => Host.dotGeneral dot_S16384x512_S512x32_S16384x32_1_0_0_1_n_n none l r) : (⟨S16384x512, .f32⟩ : BufTy).Contents (Elt F) → (⟨S512x32, .f32⟩ : BufTy).Contents (Elt F) → (⟨S16384x32, .f32⟩ : BufTy).Contents (Elt F)),
    StableHlo.unary main_v280 main_v292 (broadcastInDim S1x32 ![1] bcast_S32_S1x32_1 : (⟨S32, .f32⟩ : BufTy).Contents (Elt F) → (⟨S1x32, .f32⟩ : BufTy).Contents (Elt F)),
    StableHlo.unary main_v292 main_v293 (broadcastInDim S16384x32 ![0, 1] bcast_S1x32_S16384x32_0_1 : (⟨S1x32, .f32⟩ : BufTy).Contents (Elt F) → (⟨S16384x32, .f32⟩ : BufTy).Contents (Elt F)),
    StableHlo.binary main_v291 main_v293 main_v294 (addf : (⟨S16384x32, .f32⟩ : BufTy).Contents (Elt F) → (⟨S16384x32, .f32⟩ : BufTy).Contents (Elt F) → (⟨S16384x32, .f32⟩ : BufTy).Contents (Elt F)),
    StableHlo.unary main_arg7 main_v295 ((extractStridedSlice S1x32x512 ![3, 0, 0] · slices_S8x32x512_S1x32x512_3_0_0) : (⟨S8x32x512, .f32⟩ : BufTy).Contents (Elt F) → (⟨S1x32x512, .f32⟩ : BufTy).Contents (Elt F)),
    StableHlo.reshape main_v295 main_v296 rfl shapeCasts_S1x32x512_S32x512,
    StableHlo.unary main_arg8 main_v297 ((extractStridedSlice S1x512 ![3, 0] · slices_S8x512_S1x512_3_0) : (⟨S8x512, .f32⟩ : BufTy).Contents (Elt F) → (⟨S1x512, .f32⟩ : BufTy).Contents (Elt F)),
    StableHlo.reshape main_v297 main_v298 rfl shapeCasts_S1x512_S512,
    StableHlo.unary main_arg9 main_v299 ((extractStridedSlice S1x512x512 ![3, 0, 0] · slices_S8x512x512_S1x512x512_3_0_0) : (⟨S8x512x512, .f32⟩ : BufTy).Contents (Elt F) → (⟨S1x512x512, .f32⟩ : BufTy).Contents (Elt F)),
    StableHlo.reshape main_v299 main_v300 rfl shapeCasts_S1x512x512_S512x512,
    StableHlo.unary main_arg10 main_v301 ((extractStridedSlice S1x512 ![3, 0] · slices_S8x512_S1x512_3_0) : (⟨S8x512, .f32⟩ : BufTy).Contents (Elt F) → (⟨S1x512, .f32⟩ : BufTy).Contents (Elt F)),
    StableHlo.reshape main_v301 main_v302 rfl shapeCasts_S1x512_S512,
    StableHlo.unary main_arg11 main_v303 ((extractStridedSlice S1x512x32 ![3, 0, 0] · slices_S8x512x32_S1x512x32_3_0_0) : (⟨S8x512x32, .f32⟩ : BufTy).Contents (Elt F) → (⟨S1x512x32, .f32⟩ : BufTy).Contents (Elt F)),
    StableHlo.reshape main_v303 main_v304 rfl shapeCasts_S1x512x32_S512x32,
    StableHlo.unary main_arg12 main_v305 ((extractStridedSlice S1x32 ![3, 0] · slices_S8x32_S1x32_3_0) : (⟨S8x32, .f32⟩ : BufTy).Contents (Elt F) → (⟨S1x32, .f32⟩ : BufTy).Contents (Elt F)),
    StableHlo.reshape main_v305 main_v306 rfl shapeCasts_S1x32_S32,
    StableHlo.binary main_v268 main_v296 main_v307 ((fun l r => Host.dotGeneral dot_S16384x32_S32x512_S16384x512_1_0_0_1_n_n none l r) : (⟨S16384x32, .f32⟩ : BufTy).Contents (Elt F) → (⟨S32x512, .f32⟩ : BufTy).Contents (Elt F) → (⟨S16384x512, .f32⟩ : BufTy).Contents (Elt F)),
    StableHlo.unary main_v298 main_v308 (broadcastInDim S1x512 ![1] bcast_S512_S1x512_1 : (⟨S512, .f32⟩ : BufTy).Contents (Elt F) → (⟨S1x512, .f32⟩ : BufTy).Contents (Elt F)),
    StableHlo.unary main_v308 main_v309 (broadcastInDim S16384x512 ![0, 1] bcast_S1x512_S16384x512_0_1 : (⟨S1x512, .f32⟩ : BufTy).Contents (Elt F) → (⟨S16384x512, .f32⟩ : BufTy).Contents (Elt F)),
    StableHlo.binary main_v307 main_v309 main_v310 (addf : (⟨S16384x512, .f32⟩ : BufTy).Contents (Elt F) → (⟨S16384x512, .f32⟩ : BufTy).Contents (Elt F) → (⟨S16384x512, .f32⟩ : BufTy).Contents (Elt F)) ]

/-- What segment 9 writes, in order. -/
abbrev seg9_w : List (Ref sig .tc) :=
  [main_c_45, main_v259, main_v260, main_v261, main_v262, main_v263, main_c_46, main_v264, main_v265, main_v266, main_v267, main_v268, main_v269, main_v270, main_v271, main_v272, main_v273, main_v274, main_v275, main_v276, main_v277, main_v278, main_v279, main_v280, main_v281, main_v282, main_v283, main_v284, main_call12_cst, main_call12_v0, main_v285, main_v286, main_v287, main_v288, main_v289, main_call13_cst, main_call13_v0, main_v290, main_v291, main_v292, main_v293, main_v294, main_v295, main_v296, main_v297, main_v298, main_v299, main_v300, main_v301, main_v302, main_v303, main_v304, main_v305, main_v306, main_v307, main_v308, main_v309, main_v310]

theorem seg9_sub : (seg9 : List (HloOp τ sig (Elt F))).Forall fun op => op.bufs ⊆ tcRefs τ sig :=
  ⟨nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., binary_bufs_sub .., unary_bufs_sub .., unary_bufs_sub .., binary_bufs_sub ..⟩

/-- Segment 10: 40 operations, from the one writing `main_call14_cst` to the one writing `main_v344`. -/
abbrev seg10 : List (HloOp τ sig (Elt F)) :=
  [ StableHlo.TRef.nullary main_call14.cst (constant S_ .f32 0x00000000#32),
    StableHlo.TRef.unary main_call14.cst main_call14.v0 (broadcastInDim S16384x512 ![] bcast_S_S16384x512),
    StableHlo.TRef.binary (.of main_v310) main_call14.v0 main_call14.v1 maximumf,
    StableHlo.binary main_v311 main_v300 main_v312 ((fun l r => Host.dotGeneral dot_S16384x512_S512x512_S16384x512_1_0_0_1_n_n none l r) : (⟨S16384x512, .f32⟩ : BufTy).Contents (Elt F) → (⟨S512x512, .f32⟩ : BufTy).Contents (Elt F) → (⟨S16384x512, .f32⟩ : BufTy).Contents (Elt F)),
    StableHlo.unary main_v302 main_v313 (broadcastInDim S1x512 ![1] bcast_S512_S1x512_1 : (⟨S512, .f32⟩ : BufTy).Contents (Elt F) → (⟨S1x512, .f32⟩ : BufTy).Contents (Elt F)),
    StableHlo.unary main_v313 main_v314 (broadcastInDim S16384x512 ![0, 1] bcast_S1x512_S16384x512_0_1 : (⟨S1x512, .f32⟩ : BufTy).Contents (Elt F) → (⟨S16384x512, .f32⟩ : BufTy).Contents (Elt F)),
    StableHlo.binary main_v312 main_v314 main_v315 (addf : (⟨S16384x512, .f32⟩ : BufTy).Contents (Elt F) → (⟨S16384x512, .f32⟩ : BufTy).Contents (Elt F) → (⟨S16384x512, .f32⟩ : BufTy).Contents (Elt F)),
    StableHlo.TRef.nullary main_call15.cst (constant S_ .f32 0x00000000#32),
    StableHlo.TRef.unary main_call15.cst main_call15.v0 (broadcastInDim S16384x512 ![] bcast_S_S16384x512),
    StableHlo.TRef.binary (.of main_v315) main_call15.v0 main_call15.v1 maximumf,
    StableHlo.binary main_v316 main_v304 main_v317 ((fun l r => Host.dotGeneral dot_S16384x512_S512x32_S16384x32_1_0_0_1_n_n none l r) : (⟨S16384x512, .f32⟩ : BufTy).Contents (Elt F) → (⟨S512x32, .f32⟩ : BufTy).Contents (Elt F) → (⟨S16384x32, .f32⟩ : BufTy).Contents (Elt F)),
    StableHlo.unary main_v306 main_v318 (broadcastInDim S1x32 ![1] bcast_S32_S1x32_1 : (⟨S32, .f32⟩ : BufTy).Contents (Elt F) → (⟨S1x32, .f32⟩ : BufTy).Contents (Elt F)),
    StableHlo.unary main_v318 main_v319 (broadcastInDim S16384x32 ![0, 1] bcast_S1x32_S16384x32_0_1 : (⟨S1x32, .f32⟩ : BufTy).Contents (Elt F) → (⟨S16384x32, .f32⟩ : BufTy).Contents (Elt F)),
    StableHlo.binary main_v317 main_v319 main_v320 (addf : (⟨S16384x32, .f32⟩ : BufTy).Contents (Elt F) → (⟨S16384x32, .f32⟩ : BufTy).Contents (Elt F) → (⟨S16384x32, .f32⟩ : BufTy).Contents (Elt F)),
    StableHlo.unary main_v320 main_v321 (Host.tanh : (⟨S16384x32, .f32⟩ : BufTy).Contents (Elt F) → (⟨S16384x32, .f32⟩ : BufTy).Contents (Elt F)),
    StableHlo.unary main_arg13 main_v322 ((extractStridedSlice S1x32 ![3, 0] · slices_S8x32_S1x32_3_0) : (⟨S8x32, .f32⟩ : BufTy).Contents (Elt F) → (⟨S1x32, .f32⟩ : BufTy).Contents (Elt F)),
    StableHlo.reshape main_v322 main_v323 rfl shapeCasts_S1x32_S32,
    StableHlo.unary main_v323 main_v324 (broadcastInDim S1x32 ![1] bcast_S32_S1x32_1 : (⟨S32, .f32⟩ : BufTy).Contents (Elt F) → (⟨S1x32, .f32⟩ : BufTy).Contents (Elt F)),
    StableHlo.unary main_v324 main_v325 (broadcastInDim S16384x32 ![0, 1] bcast_S1x32_S16384x32_0_1 : (⟨S1x32, .f32⟩ : BufTy).Contents (Elt F) → (⟨S16384x32, .f32⟩ : BufTy).Contents (Elt F)),
    StableHlo.binary main_v321 main_v325 main_v326 (mulf : (⟨S16384x32, .f32⟩ : BufTy).Contents (Elt F) → (⟨S16384x32, .f32⟩ : BufTy).Contents (Elt F) → (⟨S16384x32, .f32⟩ : BufTy).Contents (Elt F)),
    StableHlo.unary main_arg14 main_v327 ((extractStridedSlice S1x32 ![3, 0] · slices_S8x32_S1x32_3_0) : (⟨S8x32, .f32⟩ : BufTy).Contents (Elt F) → (⟨S1x32, .f32⟩ : BufTy).Contents (Elt F)),
    StableHlo.reshape main_v327 main_v328 rfl shapeCasts_S1x32_S32,
    StableHlo.unary main_v328 main_v329 (broadcastInDim S1x32 ![1] bcast_S32_S1x32_1 : (⟨S32, .f32⟩ : BufTy).Contents (Elt F) → (⟨S1x32, .f32⟩ : BufTy).Contents (Elt F)),
    StableHlo.unary main_v329 main_v330 (broadcastInDim S16384x32 ![0, 1] bcast_S1x32_S16384x32_0_1 : (⟨S1x32, .f32⟩ : BufTy).Contents (Elt F) → (⟨S16384x32, .f32⟩ : BufTy).Contents (Elt F)),
    StableHlo.binary main_v326 main_v330 main_v331 (addf : (⟨S16384x32, .f32⟩ : BufTy).Contents (Elt F) → (⟨S16384x32, .f32⟩ : BufTy).Contents (Elt F) → (⟨S16384x32, .f32⟩ : BufTy).Contents (Elt F)),
    StableHlo.unary main_v331 main_v332 (Host.exp : (⟨S16384x32, .f32⟩ : BufTy).Contents (Elt F) → (⟨S16384x32, .f32⟩ : BufTy).Contents (Elt F)),
    StableHlo.binary main_v263 main_v332 main_v333 (mulf : (⟨S16384x32, .f32⟩ : BufTy).Contents (Elt F) → (⟨S16384x32, .f32⟩ : BufTy).Contents (Elt F) → (⟨S16384x32, .f32⟩ : BufTy).Contents (Elt F)),
    StableHlo.binary main_v333 main_v294 main_v334 (addf : (⟨S16384x32, .f32⟩ : BufTy).Contents (Elt F) → (⟨S16384x32, .f32⟩ : BufTy).Contents (Elt F) → (⟨S16384x32, .f32⟩ : BufTy).Contents (Elt F)),
    StableHlo.nullary main_c_47 (constantI S_ 32 64#32),
    StableHlo.unary main_c_47 main_v335 (broadcastInDim S32 ![] bcast_S_S32 : (⟨S_, .i32⟩ : BufTy).Contents (Elt F) → (⟨S32, .i32⟩ : BufTy).Contents (Elt F)),
    StableHlo.binary main_c_1 main_v335 main_v336 (addi : (⟨S32, .i32⟩ : BufTy).Contents (Elt F) → (⟨S32, .i32⟩ : BufTy).Contents (Elt F) → (⟨S32, .i32⟩ : BufTy).Contents (Elt F)),
    StableHlo.ternary main_c_15 main_v336 main_c_1 main_v337 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.unary main_v337 main_v338 (broadcastInDim S32x1 ![0] bcast_S32_S32x1_0 : (⟨S32, .i32⟩ : BufTy).Contents (Elt F) → (⟨S32x1, .i32⟩ : BufTy).Contents (Elt F)),
    StableHlo.ternary main_v253 main_v338 main_v334 main_v339 ((fun x i u => Host.scatter scatter_S16384x64_S32x1_S16384x32_0_1_1_1 (fun _ b => b) x i u) : (⟨S16384x64, .f32⟩ : BufTy).Contents (Elt F) → (⟨S32x1, .i32⟩ : BufTy).Contents (Elt F) → (⟨S16384x32, .f32⟩ : BufTy).Contents (Elt F) → (⟨S16384x64, .f32⟩ : BufTy).Contents (Elt F)),
    StableHlo.nullary main_c_48 (constantI S_ 32 64#32),
    StableHlo.unary main_c_48 main_v340 (broadcastInDim S32 ![] bcast_S_S32 : (⟨S_, .i32⟩ : BufTy).Contents (Elt F) → (⟨S32, .i32⟩ : BufTy).Contents (Elt F)),
    StableHlo.binary main_c_1 main_v340 main_v341 (addi : (⟨S32, .i32⟩ : BufTy).Contents (Elt F) → (⟨S32, .i32⟩ : BufTy).Contents (Elt F) → (⟨S32, .i32⟩ : BufTy).Contents (Elt F)),
    StableHlo.ternary main_c_16 main_v341 main_c_1 main_v342 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.unary main_v342 main_v343 (broadcastInDim S32x1 ![0] bcast_S32_S32x1_0 : (⟨S32, .i32⟩ : BufTy).Contents (Elt F) → (⟨S32x1, .i32⟩ : BufTy).Contents (Elt F)),
    StableHlo.ternary main_v258 main_v343 main_v331 main_v344 ((fun x i u => Host.scatterAdd scatter_S16384x64_S32x1_S16384x32_0_1_1_1 x i u) : (⟨S16384x64, .f32⟩ : BufTy).Contents (Elt F) → (⟨S32x1, .i32⟩ : BufTy).Contents (Elt F) → (⟨S16384x32, .f32⟩ : BufTy).Contents (Elt F) → (⟨S16384x64, .f32⟩ : BufTy).Contents (Elt F)) ]

/-- What segment 10 writes, in order. -/
abbrev seg10_w : List (Ref sig .tc) :=
  [main_call14_cst, main_call14_v0, main_v311, main_v312, main_v313, main_v314, main_v315, main_call15_cst, main_call15_v0, main_v316, main_v317, main_v318, main_v319, main_v320, main_v321, main_v322, main_v323, main_v324, main_v325, main_v326, main_v327, main_v328, main_v329, main_v330, main_v331, main_v332, main_v333, main_v334, main_c_47, main_v335, main_v336, main_v337, main_v338, main_v339, main_c_48, main_v340, main_v341, main_v342, main_v343, main_v344]

theorem seg10_sub : (seg10 : List (HloOp τ sig (Elt F))).Forall fun op => op.bufs ⊆ tcRefs τ sig :=
  ⟨nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., unary_bufs_sub .., reshape_bufs_sub .., unary_bufs_sub .., unary_bufs_sub .., binary_bufs_sub .., unary_bufs_sub .., reshape_bufs_sub .., unary_bufs_sub .., unary_bufs_sub .., binary_bufs_sub .., unary_bufs_sub .., binary_bufs_sub .., binary_bufs_sub .., nullary_bufs_sub .., unary_bufs_sub .., binary_bufs_sub .., ternary_bufs_sub .., unary_bufs_sub .., ternary_bufs_sub .., nullary_bufs_sub .., unary_bufs_sub .., binary_bufs_sub .., ternary_bufs_sub .., unary_bufs_sub .., ternary_bufs_sub ..⟩

end Cert.RefRun

end
-- ==== Proof.RefRunL3.lean ====
/-
  Coupling layer 3 of the reference program as a fold of its ninety-eight operations: from any valuation holding the
  two index tables and the all-false masks at their constants' buffers, the layer leaves at its two result buffers one
  step of the coupling (`Cert.RefDefs.stepZ`, `Cert.RefDefs.stepL`) of the contents of its two input buffers and of this
  layer's slices of the stacked parameters; and it writes none of the arguments, tables or masks.
-/
import proofs.«175251_j80573586473693_2_alg».proof.Proof.RefRunT3
import proofs.«175251_j80573586473693_2_alg».proof.Proof.RefRunLib
import proofs.«175251_j80573586473693_2_alg».proof.Proof.RefDefs

noncomputable section

namespace Cert.RefRun

open Cert.ReferenceIdeal Cert.RefDefs Idealize.ShloMosaic Idealize.ShloMosaic.TcCoe Idealize.SL.Sem Idealize.ShloMosaic.StableHlo

variable {F : FTy → Type} [FloatOps F] [Facts]

open Facts₀ Facts

/-! ## What the segments write -/

/-- Segment 9's operations write, one each and in order, the listed references, and determine what they write: each
    builder's written set is the singleton of its result by definition. -/
theorem seg9_writes : Writes (seg9 : List (HloOp τ sig (Elt F))) seg9_w := by
  repeat (first | exact List.Forall₂.nil | refine List.Forall₂.cons ⟨rfl, rfl⟩ ?_)

/-- None of them is an argument, a table or a mask. -/
theorem seg9_keeps : ∀ r ∈ keepList, r ∉ seg9_w := by decide

/-- Segment 10's operations write, one each and in order, the listed references, and determine what they write: each
    builder's written set is the singleton of its result by definition. -/
theorem seg10_writes : Writes (seg10 : List (HloOp τ sig (Elt F))) seg10_w := by
  repeat (first | exact List.Forall₂.nil | refine List.Forall₂.cons ⟨rfl, rfl⟩ ?_)

/-- None of them is an argument, a table or a mask. -/
theorem seg10_keeps : ∀ r ∈ keepList, r ∉ seg10_w := by decide

/-! ## The layer -/

/-- The valuation after the layer's operations. -/
abbrev lay3 (W : Valuation τ sig (Elt F)) : Valuation τ sig (Elt F) := after seg10 (after seg9 (W))

/-- The layer keeps the arguments, tables and masks. -/
theorem lay3_keeps {W V₁ : Valuation τ sig (Elt F)} (h : Keeps W V₁) : Keeps (lay3 W) V₁ :=
  keeps_step seg10_writes seg10_keeps (keeps_step seg9_writes seg9_keeps (h))

-- ninety-eight results composed: the term is deep
set_option maxHeartbeats 4000000 in
set_option maxRecDepth 100000 in
/-- The z buffer after the layer: the fold's value there, each operation's result read at its own buffer, is the
    scatter of `z₀ · exp s + t` into the columns `idxO` — once the tables and masks are put for the constants' buffers,
    the two sides are the same composition of host operations (the calls' buffers and the reshapes' carry their types
    by computation). -/
theorem lay3_z (W : Valuation τ sig (Elt F))
    (hE : W (main_c : DevRef τ sig) = (fun i => lit0 (S32.rowMajor i)))
    (hO : W (main_c_1 : DevRef τ sig) = (fun i => lit1 (S32.rowMajor i)))
    (hm1 : W (main_c_13 : DevRef τ sig) = constantI S32 1 0#1) (hm2 : W (main_c_14 : DevRef τ sig) = constantI S32 1 0#1)
    (hm3 : W (main_c_15 : DevRef τ sig) = constantI S32 1 0#1) :
    lay3 W (main_v339 : DevRef τ sig)
      = stepZ idxO idxE (W (main_v253 : DevRef τ sig))
          (w32x512 ![3, 0, 0] slices_S8x32x512_S1x32x512_3_0_0 (W (main_arg1 : DevRef τ sig))) (v512 ![3, 0] slices_S8x512_S1x512_3_0 (W (main_arg2 : DevRef τ sig)))
          (w512x512 ![3, 0, 0] slices_S8x512x512_S1x512x512_3_0_0 (W (main_arg3 : DevRef τ sig))) (v512 ![3, 0] slices_S8x512_S1x512_3_0 (W (main_arg4 : DevRef τ sig)))
          (w512x32 ![3, 0, 0] slices_S8x512x32_S1x512x32_3_0_0 (W (main_arg5 : DevRef τ sig))) (v32 ![3, 0] slices_S8x32_S1x32_3_0 (W (main_arg6 : DevRef τ sig)))
          (w32x512 ![3, 0, 0] slices_S8x32x512_S1x32x512_3_0_0 (W (main_arg7 : DevRef τ sig))) (v512 ![3, 0] slices_S8x512_S1x512_3_0 (W (main_arg8 : DevRef τ sig)))
          (w512x512 ![3, 0, 0] slices_S8x512x512_S1x512x512_3_0_0 (W (main_arg9 : DevRef τ sig))) (v512 ![3, 0] slices_S8x512_S1x512_3_0 (W (main_arg10 : DevRef τ sig)))
          (w512x32 ![3, 0, 0] slices_S8x512x32_S1x512x32_3_0_0 (W (main_arg11 : DevRef τ sig))) (v32 ![3, 0] slices_S8x32_S1x32_3_0 (W (main_arg12 : DevRef τ sig)))
          (v32 ![3, 0] slices_S8x32_S1x32_3_0 (W (main_arg13 : DevRef τ sig))) (v32 ![3, 0] slices_S8x32_S1x32_3_0 (W (main_arg14 : DevRef τ sig))) := by
  show after seg10 (after seg9 (W)) _ = _
  after_results_simp
  rw [hE, hO, hm1, hm2, hm3]
  rfl

set_option maxHeartbeats 4000000 in
set_option maxRecDepth 100000 in
/-- The accumulated log-scale buffer after the layer: the layer's log-scale added into the columns `idxO`. -/
theorem lay3_l (W : Valuation τ sig (Elt F))
    (hE : W (main_c : DevRef τ sig) = (fun i => lit0 (S32.rowMajor i)))
    (hO : W (main_c_1 : DevRef τ sig) = (fun i => lit1 (S32.rowMajor i)))
    (hm2 : W (main_c_14 : DevRef τ sig) = constantI S32 1 0#1) (hm4 : W (main_c_16 : DevRef τ sig) = constantI S32 1 0#1) :
    lay3 W (main_v344 : DevRef τ sig)
      = stepL idxO idxE (W (main_v253 : DevRef τ sig)) (W (main_v258 : DevRef τ sig))
          (w32x512 ![3, 0, 0] slices_S8x32x512_S1x32x512_3_0_0 (W (main_arg7 : DevRef τ sig))) (v512 ![3, 0] slices_S8x512_S1x512_3_0 (W (main_arg8 : DevRef τ sig)))
          (w512x512 ![3, 0, 0] slices_S8x512x512_S1x512x512_3_0_0 (W (main_arg9 : DevRef τ sig))) (v512 ![3, 0] slices_S8x512_S1x512_3_0 (W (main_arg10 : DevRef τ sig)))
          (w512x32 ![3, 0, 0] slices_S8x512x32_S1x512x32_3_0_0 (W (main_arg11 : DevRef τ sig))) (v32 ![3, 0] slices_S8x32_S1x32_3_0 (W (main_arg12 : DevRef τ sig)))
          (v32 ![3, 0] slices_S8x32_S1x32_3_0 (W (main_arg13 : DevRef τ sig))) (v32 ![3, 0] slices_S8x32_S1x32_3_0 (W (main_arg14 : DevRef τ sig))) := by
  show after seg10 (after seg9 (W)) _ = _
  after_results_simp
  rw [hE, hO, hm2, hm4]
  rfl

end Cert.RefRun

end
-- ==== Proof.RefRunT4.lean ====
/-
  The reference program's operations, tabulated: @main's straight line cut into consecutive segments (a cut at each
  window of the printed program and at each coupling layer's end), each segment the literal list of its host operations
  in program order, a call of the outlined maximum-with-zero spelt as its three operations over the call's buffers;
  beside each list, the references it writes, in order.
-/
import proofs.«175251_j80573586473693_2_alg».proof.ReferenceIdeal
import Idealize.ShloMosaic.Lib.StableHlo.Run

noncomputable section

namespace Cert.RefRun

open Cert.ReferenceIdeal Idealize.ShloMosaic Idealize.ShloMosaic.TcCoe Idealize.SL.Sem Idealize.ShloMosaic.StableHlo

variable {F : FTy → Type} [FloatOps F] [Facts]

open Facts₀ Facts

/-- Segment 11: 24 operations, from the one writing `main_c_49` to the one writing `main_v366`. -/
abbrev seg11 : List (HloOp τ sig (Elt F)) :=
  [ StableHlo.nullary main_c_49 (constantI S_ 32 64#32),
    StableHlo.unary main_c_49 main_v345 (broadcastInDim S32 ![] bcast_S_S32 : (⟨S_, .i32⟩ : BufTy).Contents (Elt F) → (⟨S32, .i32⟩ : BufTy).Contents (Elt F)),
    StableHlo.binary main_c main_v345 main_v346 (addi : (⟨S32, .i32⟩ : BufTy).Contents (Elt F) → (⟨S32, .i32⟩ : BufTy).Contents (Elt F) → (⟨S32, .i32⟩ : BufTy).Contents (Elt F)),
    StableHlo.ternary main_c_17 main_v346 main_c main_v347 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.unary main_v347 main_v348 (broadcastInDim S32x1 ![0] bcast_S32_S32x1_0 : (⟨S32, .i32⟩ : BufTy).Contents (Elt F) → (⟨S32x1, .i32⟩ : BufTy).Contents (Elt F)),
    StableHlo.binary main_v339 main_v348 main_v349 ((fun x i => Host.gather gather_S16384x64_S32x1_S16384x32_0_1_n_n_1_1_163841 x i) : (⟨S16384x64, .f32⟩ : BufTy).Contents (Elt F) → (⟨S32x1, .i32⟩ : BufTy).Contents (Elt F) → (⟨S16384x32, .f32⟩ : BufTy).Contents (Elt F)),
    StableHlo.nullary main_c_50 (constantI S_ 32 64#32),
    StableHlo.unary main_c_50 main_v350 (broadcastInDim S32 ![] bcast_S_S32 : (⟨S_, .i32⟩ : BufTy).Contents (Elt F) → (⟨S32, .i32⟩ : BufTy).Contents (Elt F)),
    StableHlo.binary main_c_1 main_v350 main_v351 (addi : (⟨S32, .i32⟩ : BufTy).Contents (Elt F) → (⟨S32, .i32⟩ : BufTy).Contents (Elt F) → (⟨S32, .i32⟩ : BufTy).Contents (Elt F)),
    StableHlo.ternary main_c_18 main_v351 main_c_1 main_v352 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.unary main_v352 main_v353 (broadcastInDim S32x1 ![0] bcast_S32_S32x1_0 : (⟨S32, .i32⟩ : BufTy).Contents (Elt F) → (⟨S32x1, .i32⟩ : BufTy).Contents (Elt F)),
    StableHlo.binary main_v339 main_v353 main_v354 ((fun x i => Host.gather gather_S16384x64_S32x1_S16384x32_0_1_n_n_1_1_163841 x i) : (⟨S16384x64, .f32⟩ : BufTy).Contents (Elt F) → (⟨S32x1, .i32⟩ : BufTy).Contents (Elt F) → (⟨S16384x32, .f32⟩ : BufTy).Contents (Elt F)),
    StableHlo.unary main_arg1 main_v355 ((extractStridedSlice S1x32x512 ![4, 0, 0] · slices_S8x32x512_S1x32x512_4_0_0) : (⟨S8x32x512, .f32⟩ : BufTy).Contents (Elt F) → (⟨S1x32x512, .f32⟩ : BufTy).Contents (Elt F)),
    StableHlo.reshape main_v355 main_v356 rfl shapeCasts_S1x32x512_S32x512,
    StableHlo.unary main_arg2 main_v357 ((extractStridedSlice S1x512 ![4, 0] · slices_S8x512_S1x512_4_0) : (⟨S8x512, .f32⟩ : BufTy).Contents (Elt F) → (⟨S1x512, .f32⟩ : BufTy).Contents (Elt F)),
    StableHlo.reshape main_v357 main_v358 rfl shapeCasts_S1x512_S512,
    StableHlo.unary main_arg3 main_v359 ((extractStridedSlice S1x512x512 ![4, 0, 0] · slices_S8x512x512_S1x512x512_4_0_0) : (⟨S8x512x512, .f32⟩ : BufTy).Contents (Elt F) → (⟨S1x512x512, .f32⟩ : BufTy).Contents (Elt F)),
    StableHlo.reshape main_v359 main_v360 rfl shapeCasts_S1x512x512_S512x512,
    StableHlo.unary main_arg4 main_v361 ((extractStridedSlice S1x512 ![4, 0] · slices_S8x512_S1x512_4_0) : (⟨S8x512, .f32⟩ : BufTy).Contents (Elt F) → (⟨S1x512, .f32⟩ : BufTy).Contents (Elt F)),
    StableHlo.reshape main_v361 main_v362 rfl shapeCasts_S1x512_S512,
    StableHlo.unary main_arg5 main_v363 ((extractStridedSlice S1x512x32 ![4, 0, 0] · slices_S8x512x32_S1x512x32_4_0_0) : (⟨S8x512x32, .f32⟩ : BufTy).Contents (Elt F) → (⟨S1x512x32, .f32⟩ : BufTy).Contents (Elt F)),
    StableHlo.reshape main_v363 main_v364 rfl shapeCasts_S1x512x32_S512x32,
    StableHlo.unary main_arg6 main_v365 ((extractStridedSlice S1x32 ![4, 0] · slices_S8x32_S1x32_4_0) : (⟨S8x32, .f32⟩ : BufTy).Contents (Elt F) → (⟨S1x32, .f32⟩ : BufTy).Contents (Elt F)),
    StableHlo.reshape main_v365 main_v366 rfl shapeCasts_S1x32_S32 ]

/-- What segment 11 writes, in order. -/
abbrev seg11_w : List (Ref sig .tc) :=
  [main_c_49, main_v345, main_v346, main_v347, main_v348, main_v349, main_c_50, main_v350, main_v351, main_v352, main_v353, main_v354, main_v355, main_v356, main_v357, main_v358, main_v359, main_v360, main_v361, main_v362, main_v363, main_v364, main_v365, main_v366]

theorem seg11_sub : (seg11 : List (HloOp τ sig (Elt F))).Forall fun op => op.bufs ⊆ tcRefs τ sig :=
  ⟨nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub ..⟩

/-- Segment 12: 68 operations, from the one writing `main_v367` to the one writing `main_v425`. -/
abbrev seg12 : List (HloOp τ sig (Elt F)) :=
  [ StableHlo.binary main_v354 main_v356 main_v367 ((fun l r => Host.dotGeneral dot_S16384x32_S32x512_S16384x512_1_0_0_1_n_n none l r) : (⟨S16384x32, .f32⟩ : BufTy).Contents (Elt F) → (⟨S32x512, .f32⟩ : BufTy).Contents (Elt F) → (⟨S16384x512, .f32⟩ : BufTy).Contents (Elt F)),
    StableHlo.unary main_v358 main_v368 (broadcastInDim S1x512 ![1] bcast_S512_S1x512_1 : (⟨S512, .f32⟩ : BufTy).Contents (Elt F) → (⟨S1x512, .f32⟩ : BufTy).Contents (Elt F)),
    StableHlo.unary main_v368 main_v369 (broadcastInDim S16384x512 ![0, 1] bcast_S1x512_S16384x512_0_1 : (⟨S1x512, .f32⟩ : BufTy).Contents (Elt F) → (⟨S16384x512, .f32⟩ : BufTy).Contents (Elt F)),
    StableHlo.binary main_v367 main_v369 main_v370 (addf : (⟨S16384x512, .f32⟩ : BufTy).Contents (Elt F) → (⟨S16384x512, .f32⟩ : BufTy).Contents (Elt F) → (⟨S16384x512, .f32⟩ : BufTy).Contents (Elt F)),
    StableHlo.TRef.nullary main_call16.cst (constant S_ .f32 0x00000000#32),
    StableHlo.TRef.unary main_call16.cst main_call16.v0 (broadcastInDim S16384x512 ![] bcast_S_S16384x512),
    StableHlo.TRef.binary (.of main_v370) main_call16.v0 main_call16.v1 maximumf,
    StableHlo.binary main_v371 main_v360 main_v372 ((fun l r => Host.dotGeneral dot_S16384x512_S512x512_S16384x512_1_0_0_1_n_n none l r) : (⟨S16384x512, .f32⟩ : BufTy).Contents (Elt F) → (⟨S512x512, .f32⟩ : BufTy).Contents (Elt F) → (⟨S16384x512, .f32⟩ : BufTy).Contents (Elt F)),
    StableHlo.unary main_v362 main_v373 (broadcastInDim S1x512 ![1] bcast_S512_S1x512_1 : (⟨S512, .f32⟩ : BufTy).Contents (Elt F) → (⟨S1x512, .f32⟩ : BufTy).Contents (Elt F)),
    StableHlo.unary main_v373 main_v374 (broadcastInDim S16384x512 ![0, 1] bcast_S1x512_S16384x512_0_1 : (⟨S1x512, .f32⟩ : BufTy).Contents (Elt F) → (⟨S16384x512, .f32⟩ : BufTy).Contents (Elt F)),
    StableHlo.binary main_v372 main_v374 main_v375 (addf : (⟨S16384x512, .f32⟩ : BufTy).Contents (Elt F) → (⟨S16384x512, .f32⟩ : BufTy).Contents (Elt F) → (⟨S16384x512, .f32⟩ : BufTy).Contents (Elt F)),
    StableHlo.TRef.nullary main_call17.cst (constant S_ .f32 0x00000000#32),
    StableHlo.TRef.unary main_call17.cst main_call17.v0 (broadcastInDim S16384x512 ![] bcast_S_S16384x512),
    StableHlo.TRef.binary (.of main_v375) main_call17.v0 main_call17.v1 maximumf,
    StableHlo.binary main_v376 main_v364 main_v377 ((fun l r => Host.dotGeneral dot_S16384x512_S512x32_S16384x32_1_0_0_1_n_n none l r) : (⟨S16384x512, .f32⟩ : BufTy).Contents (Elt F) → (⟨S512x32, .f32⟩ : BufTy).Contents (Elt F) → (⟨S16384x32, .f32⟩ : BufTy).Contents (Elt F)),
    StableHlo.unary main_v366 main_v378 (broadcastInDim S1x32 ![1] bcast_S32_S1x32_1 : (⟨S32, .f32⟩ : BufTy).Contents (Elt F) → (⟨S1x32, .f32⟩ : BufTy).Contents (Elt F)),
    StableHlo.unary main_v378 main_v379 (broadcastInDim S16384x32 ![0, 1] bcast_S1x32_S16384x32_0_1 : (⟨S1x32, .f32⟩ : BufTy).Contents (Elt F) → (⟨S16384x32, .f32⟩ : BufTy).Contents (Elt F)),
    StableHlo.binary main_v377 main_v379 main_v380 (addf : (⟨S16384x32, .f32⟩ : BufTy).Contents (Elt F) → (⟨S16384x32, .f32⟩ : BufTy).Contents (Elt F) → (⟨S16384x32, .f32⟩ : BufTy).Contents (Elt F)),
    StableHlo.unary main_arg7 main_v381 ((extractStridedSlice S1x32x512 ![4, 0, 0] · slices_S8x32x512_S1x32x512_4_0_0) : (⟨S8x32x512, .f32⟩ : BufTy).Contents (Elt F) → (⟨S1x32x512, .f32⟩ : BufTy).Contents (Elt F)),
    StableHlo.reshape main_v381 main_v382 rfl shapeCasts_S1x32x512_S32x512,
    StableHlo.unary main_arg8 main_v383 ((extractStridedSlice S1x512 ![4, 0] · slices_S8x512_S1x512_4_0) : (⟨S8x512, .f32⟩ : BufTy).Contents (Elt F) → (⟨S1x512, .f32⟩ : BufTy).Contents (Elt F)),
    StableHlo.reshape main_v383 main_v384 rfl shapeCasts_S1x512_S512,
    StableHlo.unary main_arg9 main_v385 ((extractStridedSlice S1x512x512 ![4, 0, 0] · slices_S8x512x512_S1x512x512_4_0_0) : (⟨S8x512x512, .f32⟩ : BufTy).Contents (Elt F) → (⟨S1x512x512, .f32⟩ : BufTy).Contents (Elt F)),
    StableHlo.reshape main_v385 main_v386 rfl shapeCasts_S1x512x512_S512x512,
    StableHlo.unary main_arg10 main_v387 ((extractStridedSlice S1x512 ![4, 0] · slices_S8x512_S1x512_4_0) : (⟨S8x512, .f32⟩ : BufTy).Contents (Elt F) → (⟨S1x512, .f32⟩ : BufTy).Contents (Elt F)),
    StableHlo.reshape main_v387 main_v388 rfl shapeCasts_S1x512_S512,
    StableHlo.unary main_arg11 main_v389 ((extractStridedSlice S1x512x32 ![4, 0, 0] · slices_S8x512x32_S1x512x32_4_0_0) : (⟨S8x512x32, .f32⟩ : BufTy).Contents (Elt F) → (⟨S1x512x32, .f32⟩ : BufTy).Contents (Elt F)),
    StableHlo.reshape main_v389 main_v390 rfl shapeCasts_S1x512x32_S512x32,
    StableHlo.unary main_arg12 main_v391 ((extractStridedSlice S1x32 ![4, 0] · slices_S8x32_S1x32_4_0) : (⟨S8x32, .f32⟩ : BufTy).Contents (Elt F) → (⟨S1x32, .f32⟩ : BufTy).Contents (Elt F)),
    StableHlo.reshape main_v391 main_v392 rfl shapeCasts_S1x32_S32,
    StableHlo.binary main_v354 main_v382 main_v393 ((fun l r => Host.dotGeneral dot_S16384x32_S32x512_S16384x512_1_0_0_1_n_n none l r) : (⟨S16384x32, .f32⟩ : BufTy).Contents (Elt F) → (⟨S32x512, .f32⟩ : BufTy).Contents (Elt F) → (⟨S16384x512, .f32⟩ : BufTy).Contents (Elt F)),
    StableHlo.unary main_v384 main_v394 (broadcastInDim S1x512 ![1] bcast_S512_S1x512_1 : (⟨S512, .f32⟩ : BufTy).Contents (Elt F) → (⟨S1x512, .f32⟩ : BufTy).Contents (Elt F)),
    StableHlo.unary main_v394 main_v395 (broadcastInDim S16384x512 ![0, 1] bcast_S1x512_S16384x512_0_1 : (⟨S1x512, .f32⟩ : BufTy).Contents (Elt F) → (⟨S16384x512, .f32⟩ : BufTy).Contents (Elt F)),
    StableHlo.binary main_v393 main_v395 main_v396 (addf : (⟨S16384x512, .f32⟩ : BufTy).Contents (Elt F) → (⟨S16384x512, .f32⟩ : BufTy).Contents (Elt F) → (⟨S16384x512, .f32⟩ : BufTy).Contents (Elt F)),
    StableHlo.TRef.nullary main_call18.cst (constant S_ .f32 0x00000000#32),
    StableHlo.TRef.unary main_call18.cst main_call18.v0 (broadcastInDim S16384x512 ![] bcast_S_S16384x512),
    StableHlo.TRef.binary (.of main_v396) main_call18.v0 main_call18.v1 maximumf,
    StableHlo.binary main_v397 main_v386 main_v398 ((fun l r => Host.dotGeneral dot_S16384x512_S512x512_S16384x512_1_0_0_1_n_n none l r) : (⟨S16384x512, .f32⟩ : BufTy).Contents (Elt F) → (⟨S512x512, .f32⟩ : BufTy).Contents (Elt F) → (⟨S16384x512, .f32⟩ : BufTy).Contents (Elt F)),
    StableHlo.unary main_v388 main_v399 (broadcastInDim S1x512 ![1] bcast_S512_S1x512_1 : (⟨S512, .f32⟩ : BufTy).Contents (Elt F) → (⟨S1x512, .f32⟩ : BufTy).Contents (Elt F)),
    StableHlo.unary main_v399 main_v400 (broadcastInDim S16384x512 ![0, 1] bcast_S1x512_S16384x512_0_1 : (⟨S1x512, .f32⟩ : BufTy).Contents (Elt F) → (⟨S16384x512, .f32⟩ : BufTy).Contents (Elt F)),
    StableHlo.binary main_v398 main_v400 main_v401 (addf : (⟨S16384x512, .f32⟩ : BufTy).Contents (Elt F) → (⟨S16384x512, .f32⟩ : BufTy).Contents (Elt F) → (⟨S16384x512, .f32⟩ : BufTy).Contents (Elt F)),
    StableHlo.TRef.nullary main_call19.cst (constant S_ .f32 0x00000000#32),
    StableHlo.TRef.unary main_call19.cst main_call19.v0 (broadcastInDim S16384x512 ![] bcast_S_S16384x512),
    StableHlo.TRef.binary (.of main_v401) main_call19.v0 main_call19.v1 maximumf,
    StableHlo.binary main_v402 main_v390 main_v403 ((fun l r => Host.dotGeneral dot_S16384x512_S512x32_S16384x32_1_0_0_1_n_n none l r) : (⟨S16384x512, .f32⟩ : BufTy).Contents (Elt F) → (⟨S512x32, .f32⟩ : BufTy).Contents (Elt F) → (⟨S16384x32, .f32⟩ : BufTy).Contents (Elt F)),
    StableHlo.unary main_v392 main_v404 (broadcastInDim S1x32 ![1] bcast_S32_S1x32_1 : (⟨S32, .f32⟩ : BufTy).Contents (Elt F) → (⟨S1x32, .f32⟩ : BufTy).Contents (Elt F)),
    StableHlo.unary main_v404 main_v405 (broadcastInDim S16384x32 ![0, 1] bcast_S1x32_S16384x32_0_1 : (⟨S1x32, .f32⟩ : BufTy).Contents (Elt F) → (⟨S16384x32, .f32⟩ : BufTy).Contents (Elt F)),
    StableHlo.binary main_v403 main_v405 main_v406 (addf : (⟨S16384x32, .f32⟩ : BufTy).Contents (Elt F) → (⟨S16384x32, .f32⟩ : BufTy).Contents (Elt F) → (⟨S16384x32, .f32⟩ : BufTy).Contents (Elt F)),
    StableHlo.unary main_v406 main_v407 (Host.tanh : (⟨S16384x32, .f32⟩ : BufTy).Contents (Elt F) → (⟨S16384x32, .f32⟩ : BufTy).Contents (Elt F)),
    StableHlo.unary main_arg13 main_v408 ((extractStridedSlice S1x32 ![4, 0] · slices_S8x32_S1x32_4_0) : (⟨S8x32, .f32⟩ : BufTy).Contents (Elt F) → (⟨S1x32, .f32⟩ : BufTy).Contents (Elt F)),
    StableHlo.reshape main_v408 main_v409 rfl shapeCasts_S1x32_S32,
    StableHlo.unary main_v409 main_v410 (broadcastInDim S1x32 ![1] bcast_S32_S1x32_1 : (⟨S32, .f32⟩ : BufTy).Contents (Elt F) → (⟨S1x32, .f32⟩ : BufTy).Contents (Elt F)),
    StableHlo.unary main_v410 main_v411 (broadcastInDim S16384x32 ![0, 1] bcast_S1x32_S16384x32_0_1 : (⟨S1x32, .f32⟩ : BufTy).Contents (Elt F) → (⟨S16384x32, .f32⟩ : BufTy).Contents (Elt F)),
    StableHlo.binary main_v407 main_v411 main_v412 (mulf : (⟨S16384x32, .f32⟩ : BufTy).Contents (Elt F) → (⟨S16384x32, .f32⟩ : BufTy).Contents (Elt F) → (⟨S16384x32, .f32⟩ : BufTy).Contents (Elt F)),
    StableHlo.unary main_arg14 main_v413 ((extractStridedSlice S1x32 ![4, 0] · slices_S8x32_S1x32_4_0) : (⟨S8x32, .f32⟩ : BufTy).Contents (Elt F) → (⟨S1x32, .f32⟩ : BufTy).Contents (Elt F)),
    StableHlo.reshape main_v413 main_v414 rfl shapeCasts_S1x32_S32,
    StableHlo.unary main_v414 main_v415 (broadcastInDim S1x32 ![1] bcast_S32_S1x32_1 : (⟨S32, .f32⟩ : BufTy).Contents (Elt F) → (⟨S1x32, .f32⟩ : BufTy).Contents (Elt F)),
    StableHlo.unary main_v415 main_v416 (broadcastInDim S16384x32 ![0, 1] bcast_S1x32_S16384x32_0_1 : (⟨S1x32, .f32⟩ : BufTy).Contents (Elt F) → (⟨S16384x32, .f32⟩ : BufTy).Contents (Elt F)),
    StableHlo.binary main_v412 main_v416 main_v417 (addf : (⟨S16384x32, .f32⟩ : BufTy).Contents (Elt F) → (⟨S16384x32, .f32⟩ : BufTy).Contents (Elt F) → (⟨S16384x32, .f32⟩ : BufTy).Contents (Elt F)),
    StableHlo.unary main_v417 main_v418 (Host.exp : (⟨S16384x32, .f32⟩ : BufTy).Contents (Elt F) → (⟨S16384x32, .f32⟩ : BufTy).Contents (Elt F)),
    StableHlo.binary main_v349 main_v418 main_v419 (mulf : (⟨S16384x32, .f32⟩ : BufTy).Contents (Elt F) → (⟨S16384x32, .f32⟩ : BufTy).Contents (Elt F) → (⟨S16384x32, .f32⟩ : BufTy).Contents (Elt F)),
    StableHlo.binary main_v419 main_v380 main_v420 (addf : (⟨S16384x32, .f32⟩ : BufTy).Contents (Elt F) → (⟨S16384x32, .f32⟩ : BufTy).Contents (Elt F) → (⟨S16384x32, .f32⟩ : BufTy).Contents (Elt F)),
    StableHlo.nullary main_c_51 (constantI S_ 32 64#32),
    StableHlo.unary main_c_51 main_v421 (broadcastInDim S32 ![] bcast_S_S32 : (⟨S_, .i32⟩ : BufTy).Contents (Elt F) → (⟨S32, .i32⟩ : BufTy).Contents (Elt F)),
    StableHlo.binary main_c main_v421 main_v422 (addi : (⟨S32, .i32⟩ : BufTy).Contents (Elt F) → (⟨S32, .i32⟩ : BufTy).Contents (Elt F) → (⟨S32, .i32⟩ : BufTy).Contents (Elt F)),
    StableHlo.ternary main_c_19 main_v422 main_c main_v423 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.unary main_v423 main_v424 (broadcastInDim S32x1 ![0] bcast_S32_S32x1_0 : (⟨S32, .i32⟩ : BufTy).Contents (Elt F) → (⟨S32x1, .i32⟩ : BufTy).Contents (Elt F)),
    StableHlo.ternary main_v339 main_v424 main_v420 main_v425 ((fun x i u => Host.scatter scatter_S16384x64_S32x1_S16384x32_0_1_1_1 (fun _ b => b) x i u) : (⟨S16384x64, .f32⟩ : BufTy).Contents (Elt F) → (⟨S32x1, .i32⟩ : BufTy).Contents (Elt F) → (⟨S16384x32, .f32⟩ : BufTy).Contents (Elt F) → (⟨S16384x64, .f32⟩ : BufTy).Contents (Elt F)) ]

/-- What segment 12 writes, in order. -/
abbrev seg12_w : List (Ref sig .tc) :=
  [main_v367, main_v368, main_v369, main_v370, main_call16_cst, main_call16_v0, main_v371, main_v372, main_v373, main_v374, main_v375, main_call17_cst, main_call17_v0, main_v376, main_v377, main_v378, main_v379, main_v380, main_v381, main_v382, main_v383, main_v384, main_v385, main_v386, main_v387, main_v388, main_v389, main_v390, main_v391, main_v392, main_v393, main_v394, main_v395, main_v396, main_call18_cst, main_call18_v0, main_v397, main_v398, main_v399, main_v400, main_v401, main_call19_cst, main_call19_v0, main_v402, main_v403, main_v404, main_v405, main_v406, main_v407, main_v408, main_v409, main_v410, main_v411, main_v412, main_v413, main_v414, main_v415, main_v416, main_v417, main_v418, main_v419, main_v420, main_c_51, main_v421, main_v422, main_v423, main_v424, main_v425]

theorem seg12_sub : (seg12 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., unary_bufs_sub .., reshape_bufs_sub .., unary_bufs_sub .., unary_bufs_sub .., binary_bufs_sub .., unary_bufs_sub .., reshape_bufs_sub .., unary_bufs_sub .., unary_bufs_sub .., binary_bufs_sub .., unary_bufs_sub .., binary_bufs_sub .., binary_bufs_sub .., nullary_bufs_sub .., unary_bufs_sub .., binary_bufs_sub .., ternary_bufs_sub .., unary_bufs_sub .., ternary_bufs_sub ..⟩

/-- Segment 13: 6 operations, from the one writing `main_c_52` to the one writing `main_v430`. -/
abbrev seg13 : List (HloOp τ sig (Elt F)) :=
  [ StableHlo.nullary main_c_52 (constantI S_ 32 64#32),
    StableHlo.unary main_c_52 main_v426 (broadcastInDim S32 ![] bcast_S_S32 : (⟨S_, .i32⟩ : BufTy).Contents (Elt F) → (⟨S32, .i32⟩ : BufTy).Contents (Elt F)),
    StableHlo.binary main_c main_v426 main_v427 (addi : (⟨S32, .i32⟩ : BufTy).Contents (Elt F) → (⟨S32, .i32⟩ : BufTy).Contents (Elt F) → (⟨S32, .i32⟩ : BufTy).Contents (Elt F)),
    StableHlo.ternary main_c_20 main_v427 main_c main_v428 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.unary main_v428 main_v429 (broadcastInDim S32x1 ![0] bcast_S32_S32x1_0 : (⟨S32, .i32⟩ : BufTy).Contents (Elt F) → (⟨S32x1, .i32⟩ : BufTy).Contents (Elt F)),
    StableHlo.ternary main_v344 main_v429 main_v417 main_v430 ((fun x i u => Host.scatterAdd scatter_S16384x64_S32x1_S16384x32_0_1_1_1 x i u) : (⟨S16384x64, .f32⟩ : BufTy).Contents (Elt F) → (⟨S32x1, .i32⟩ : BufTy).Contents (Elt F) → (⟨S16384x32, .f32⟩ : BufTy).Contents (Elt F) → (⟨S16384x64, .f32⟩ : BufTy).Contents (Elt F)) ]

/-- What segment 13 writes, in order. -/
abbrev seg13_w : List (Ref sig .tc) :=
  [main_c_52, main_v426, main_v427, main_v428, main_v429, main_v430]

theorem seg13_sub : (seg13 : List (HloOp τ sig (Elt F))).Forall fun op => op.bufs ⊆ tcRefs τ sig :=
  ⟨nullary_bufs_sub .., unary_bufs_sub .., binary_bufs_sub .., ternary_bufs_sub .., unary_bufs_sub .., ternary_bufs_sub ..⟩

end Cert.RefRun

end
-- ==== Proof.RefRunL4.lean ====
/-
  Coupling layer 4 of the reference program as a fold of its ninety-eight operations: from any valuation holding the
  two index tables and the all-false masks at their constants' buffers, the layer leaves at its two result buffers one
  step of the coupling (`Cert.RefDefs.stepZ`, `Cert.RefDefs.stepL`) of the contents of its two input buffers and of this
  layer's slices of the stacked parameters; and it writes none of the arguments, tables or masks.
-/
import proofs.«175251_j80573586473693_2_alg».proof.Proof.RefRunT4
import proofs.«175251_j80573586473693_2_alg».proof.Proof.RefRunLib
import proofs.«175251_j80573586473693_2_alg».proof.Proof.RefDefs

noncomputable section

namespace Cert.RefRun

open Cert.ReferenceIdeal Cert.RefDefs Idealize.ShloMosaic Idealize.ShloMosaic.TcCoe Idealize.SL.Sem Idealize.ShloMosaic.StableHlo

variable {F : FTy → Type} [FloatOps F] [Facts]

open Facts₀ Facts

/-! ## What the segments write -/

/-- Segment 11's operations write, one each and in order, the listed references, and determine what they write: each
    builder's written set is the singleton of its result by definition. -/
theorem seg11_writes : Writes (seg11 : List (HloOp τ sig (Elt F))) seg11_w := by
  repeat (first | exact List.Forall₂.nil | refine List.Forall₂.cons ⟨rfl, rfl⟩ ?_)

/-- None of them is an argument, a table or a mask. -/
theorem seg11_keeps : ∀ r ∈ keepList, r ∉ seg11_w := by decide

/-- Segment 12's operations write, one each and in order, the listed references, and determine what they write: each
    builder's written set is the singleton of its result by definition. -/
theorem seg12_writes : Writes (seg12 : List (HloOp τ sig (Elt F))) seg12_w := by
  repeat (first | exact List.Forall₂.nil | refine List.Forall₂.cons ⟨rfl, rfl⟩ ?_)

/-- None of them is an argument, a table or a mask. -/
theorem seg12_keeps : ∀ r ∈ keepList, r ∉ seg12_w := by decide

/-- Segment 13's operations write, one each and in order, the listed references, and determine what they write: each
    builder's written set is the singleton of its result by definition. -/
theorem seg13_writes : Writes (seg13 : List (HloOp τ sig (Elt F))) seg13_w := by
  repeat (first | exact List.Forall₂.nil | refine List.Forall₂.cons ⟨rfl, rfl⟩ ?_)

/-- None of them is an argument, a table or a mask. -/
theorem seg13_keeps : ∀ r ∈ keepList, r ∉ seg13_w := by decide

/-! ## The layer -/

/-- The valuation after the layer's operations. -/
abbrev lay4 (W : Valuation τ sig (Elt F)) : Valuation τ sig (Elt F) := after seg13 (after seg12 (after seg11 (W)))

/-- The layer keeps the arguments, tables and masks. -/
theorem lay4_keeps {W V₁ : Valuation τ sig (Elt F)} (h : Keeps W V₁) : Keeps (lay4 W) V₁ :=
  keeps_step seg13_writes seg13_keeps (keeps_step seg12_writes seg12_keeps (keeps_step seg11_writes seg11_keeps (h)))

-- ninety-eight results composed: the term is deep
set_option maxHeartbeats 4000000 in
set_option maxRecDepth 100000 in
/-- The z buffer after the layer: the fold's value there, each operation's result read at its own buffer, is the
    scatter of `z₀ · exp s + t` into the columns `idxE` — once the tables and masks are put for the constants' buffers,
    the two sides are the same composition of host operations (the calls' buffers and the reshapes' carry their types
    by computation). -/
theorem lay4_z (W : Valuation τ sig (Elt F))
    (hE : W (main_c : DevRef τ sig) = (fun i => lit0 (S32.rowMajor i)))
    (hO : W (main_c_1 : DevRef τ sig) = (fun i => lit1 (S32.rowMajor i)))
    (hm1 : W (main_c_17 : DevRef τ sig) = constantI S32 1 0#1) (hm2 : W (main_c_18 : DevRef τ sig) = constantI S32 1 0#1)
    (hm3 : W (main_c_19 : DevRef τ sig) = constantI S32 1 0#1) :
    lay4 W (main_v425 : DevRef τ sig)
      = stepZ idxE idxO (W (main_v339 : DevRef τ sig))
          (w32x512 ![4, 0, 0] slices_S8x32x512_S1x32x512_4_0_0 (W (main_arg1 : DevRef τ sig))) (v512 ![4, 0] slices_S8x512_S1x512_4_0 (W (main_arg2 : DevRef τ sig)))
          (w512x512 ![4, 0, 0] slices_S8x512x512_S1x512x512_4_0_0 (W (main_arg3 : DevRef τ sig))) (v512 ![4, 0] slices_S8x512_S1x512_4_0 (W (main_arg4 : DevRef τ sig)))
          (w512x32 ![4, 0, 0] slices_S8x512x32_S1x512x32_4_0_0 (W (main_arg5 : DevRef τ sig))) (v32 ![4, 0] slices_S8x32_S1x32_4_0 (W (main_arg6 : DevRef τ sig)))
          (w32x512 ![4, 0, 0] slices_S8x32x512_S1x32x512_4_0_0 (W (main_arg7 : DevRef τ sig))) (v512 ![4, 0] slices_S8x512_S1x512_4_0 (W (main_arg8 : DevRef τ sig)))
          (w512x512 ![4, 0, 0] slices_S8x512x512_S1x512x512_4_0_0 (W (main_arg9 : DevRef τ sig))) (v512 ![4, 0] slices_S8x512_S1x512_4_0 (W (main_arg10 : DevRef τ sig)))
          (w512x32 ![4, 0, 0] slices_S8x512x32_S1x512x32_4_0_0 (W (main_arg11 : DevRef τ sig))) (v32 ![4, 0] slices_S8x32_S1x32_4_0 (W (main_arg12 : DevRef τ sig)))
          (v32 ![4, 0] slices_S8x32_S1x32_4_0 (W (main_arg13 : DevRef τ sig))) (v32 ![4, 0] slices_S8x32_S1x32_4_0 (W (main_arg14 : DevRef τ sig))) := by
  show after seg13 (after seg12 (after seg11 (W))) _ = _
  after_results_simp
  rw [hE, hO, hm1, hm2, hm3]
  rfl

set_option maxHeartbeats 4000000 in
set_option maxRecDepth 100000 in
/-- The accumulated log-scale buffer after the layer: the layer's log-scale added into the columns `idxE`. -/
theorem lay4_l (W : Valuation τ sig (Elt F))
    (hE : W (main_c : DevRef τ sig) = (fun i => lit0 (S32.rowMajor i)))
    (hO : W (main_c_1 : DevRef τ sig) = (fun i => lit1 (S32.rowMajor i)))
    (hm2 : W (main_c_18 : DevRef τ sig) = constantI S32 1 0#1) (hm4 : W (main_c_20 : DevRef τ sig) = constantI S32 1 0#1) :
    lay4 W (main_v430 : DevRef τ sig)
      = stepL idxE idxO (W (main_v339 : DevRef τ sig)) (W (main_v344 : DevRef τ sig))
          (w32x512 ![4, 0, 0] slices_S8x32x512_S1x32x512_4_0_0 (W (main_arg7 : DevRef τ sig))) (v512 ![4, 0] slices_S8x512_S1x512_4_0 (W (main_arg8 : DevRef τ sig)))
          (w512x512 ![4, 0, 0] slices_S8x512x512_S1x512x512_4_0_0 (W (main_arg9 : DevRef τ sig))) (v512 ![4, 0] slices_S8x512_S1x512_4_0 (W (main_arg10 : DevRef τ sig)))
          (w512x32 ![4, 0, 0] slices_S8x512x32_S1x512x32_4_0_0 (W (main_arg11 : DevRef τ sig))) (v32 ![4, 0] slices_S8x32_S1x32_4_0 (W (main_arg12 : DevRef τ sig)))
          (v32 ![4, 0] slices_S8x32_S1x32_4_0 (W (main_arg13 : DevRef τ sig))) (v32 ![4, 0] slices_S8x32_S1x32_4_0 (W (main_arg14 : DevRef τ sig))) := by
  show after seg13 (after seg12 (after seg11 (W))) _ = _
  after_results_simp
  rw [hE, hO, hm2, hm4]
  rfl

end Cert.RefRun

end
-- ==== Proof.RefRunT5.lean ====
/-
  The reference program's operations, tabulated: @main's straight line cut into consecutive segments (a cut at each
  window of the printed program and at each coupling layer's end), each segment the literal list of its host operations
  in program order, a call of the outlined maximum-with-zero spelt as its three operations over the call's buffers;
  beside each list, the references it writes, in order.
-/
import proofs.«175251_j80573586473693_2_alg».proof.ReferenceIdeal
import Idealize.ShloMosaic.Lib.StableHlo.Run

noncomputable section

namespace Cert.RefRun

open Cert.ReferenceIdeal Idealize.ShloMosaic Idealize.ShloMosaic.TcCoe Idealize.SL.Sem Idealize.ShloMosaic.StableHlo

variable {F : FTy → Type} [FloatOps F] [Facts]

open Facts₀ Facts

/-- Segment 14: 58 operations, from the one writing `main_c_53` to the one writing `main_v482`. -/
abbrev seg14 : List (HloOp τ sig (Elt F)) :=
  [ StableHlo.nullary main_c_53 (constantI S_ 32 64#32),
    StableHlo.unary main_c_53 main_v431 (broadcastInDim S32 ![] bcast_S_S32 : (⟨S_, .i32⟩ : BufTy).Contents (Elt F) → (⟨S32, .i32⟩ : BufTy).Contents (Elt F)),
    StableHlo.binary main_c_1 main_v431 main_v432 (addi : (⟨S32, .i32⟩ : BufTy).Contents (Elt F) → (⟨S32, .i32⟩ : BufTy).Contents (Elt F) → (⟨S32, .i32⟩ : BufTy).Contents (Elt F)),
    StableHlo.ternary main_c_21 main_v432 main_c_1 main_v433 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.unary main_v433 main_v434 (broadcastInDim S32x1 ![0] bcast_S32_S32x1_0 : (⟨S32, .i32⟩ : BufTy).Contents (Elt F) → (⟨S32x1, .i32⟩ : BufTy).Contents (Elt F)),
    StableHlo.binary main_v425 main_v434 main_v435 ((fun x i => Host.gather gather_S16384x64_S32x1_S16384x32_0_1_n_n_1_1_163841 x i) : (⟨S16384x64, .f32⟩ : BufTy).Contents (Elt F) → (⟨S32x1, .i32⟩ : BufTy).Contents (Elt F) → (⟨S16384x32, .f32⟩ : BufTy).Contents (Elt F)),
    StableHlo.nullary main_c_54 (constantI S_ 32 64#32),
    StableHlo.unary main_c_54 main_v436 (broadcastInDim S32 ![] bcast_S_S32 : (⟨S_, .i32⟩ : BufTy).Contents (Elt F) → (⟨S32, .i32⟩ : BufTy).Contents (Elt F)),
    StableHlo.binary main_c main_v436 main_v437 (addi : (⟨S32, .i32⟩ : BufTy).Contents (Elt F) → (⟨S32, .i32⟩ : BufTy).Contents (Elt F) → (⟨S32, .i32⟩ : BufTy).Contents (Elt F)),
    StableHlo.ternary main_c_22 main_v437 main_c main_v438 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.unary main_v438 main_v439 (broadcastInDim S32x1 ![0] bcast_S32_S32x1_0 : (⟨S32, .i32⟩ : BufTy).Contents (Elt F) → (⟨S32x1, .i32⟩ : BufTy).Contents (Elt F)),
    StableHlo.binary main_v425 main_v439 main_v440 ((fun x i => Host.gather gather_S16384x64_S32x1_S16384x32_0_1_n_n_1_1_163841 x i) : (⟨S16384x64, .f32⟩ : BufTy).Contents (Elt F) → (⟨S32x1, .i32⟩ : BufTy).Contents (Elt F) → (⟨S16384x32, .f32⟩ : BufTy).Contents (Elt F)),
    StableHlo.unary main_arg1 main_v441 ((extractStridedSlice S1x32x512 ![5, 0, 0] · slices_S8x32x512_S1x32x512_5_0_0) : (⟨S8x32x512, .f32⟩ : BufTy).Contents (Elt F) → (⟨S1x32x512, .f32⟩ : BufTy).Contents (Elt F)),
    StableHlo.reshape main_v441 main_v442 rfl shapeCasts_S1x32x512_S32x512,
    StableHlo.unary main_arg2 main_v443 ((extractStridedSlice S1x512 ![5, 0] · slices_S8x512_S1x512_5_0) : (⟨S8x512, .f32⟩ : BufTy).Contents (Elt F) → (⟨S1x512, .f32⟩ : BufTy).Contents (Elt F)),
    StableHlo.reshape main_v443 main_v444 rfl shapeCasts_S1x512_S512,
    StableHlo.unary main_arg3 main_v445 ((extractStridedSlice S1x512x512 ![5, 0, 0] · slices_S8x512x512_S1x512x512_5_0_0) : (⟨S8x512x512, .f32⟩ : BufTy).Contents (Elt F) → (⟨S1x512x512, .f32⟩ : BufTy).Contents (Elt F)),
    StableHlo.reshape main_v445 main_v446 rfl shapeCasts_S1x512x512_S512x512,
    StableHlo.unary main_arg4 main_v447 ((extractStridedSlice S1x512 ![5, 0] · slices_S8x512_S1x512_5_0) : (⟨S8x512, .f32⟩ : BufTy).Contents (Elt F) → (⟨S1x512, .f32⟩ : BufTy).Contents (Elt F)),
    StableHlo.reshape main_v447 main_v448 rfl shapeCasts_S1x512_S512,
    StableHlo.unary main_arg5 main_v449 ((extractStridedSlice S1x512x32 ![5, 0, 0] · slices_S8x512x32_S1x512x32_5_0_0) : (⟨S8x512x32, .f32⟩ : BufTy).Contents (Elt F) → (⟨S1x512x32, .f32⟩ : BufTy).Contents (Elt F)),
    StableHlo.reshape main_v449 main_v450 rfl shapeCasts_S1x512x32_S512x32,
    StableHlo.unary main_arg6 main_v451 ((extractStridedSlice S1x32 ![5, 0] · slices_S8x32_S1x32_5_0) : (⟨S8x32, .f32⟩ : BufTy).Contents (Elt F) → (⟨S1x32, .f32⟩ : BufTy).Contents (Elt F)),
    StableHlo.reshape main_v451 main_v452 rfl shapeCasts_S1x32_S32,
    StableHlo.binary main_v440 main_v442 main_v453 ((fun l r => Host.dotGeneral dot_S16384x32_S32x512_S16384x512_1_0_0_1_n_n none l r) : (⟨S16384x32, .f32⟩ : BufTy).Contents (Elt F) → (⟨S32x512, .f32⟩ : BufTy).Contents (Elt F) → (⟨S16384x512, .f32⟩ : BufTy).Contents (Elt F)),
    StableHlo.unary main_v444 main_v454 (broadcastInDim S1x512 ![1] bcast_S512_S1x512_1 : (⟨S512, .f32⟩ : BufTy).Contents (Elt F) → (⟨S1x512, .f32⟩ : BufTy).Contents (Elt F)),
    StableHlo.unary main_v454 main_v455 (broadcastInDim S16384x512 ![0, 1] bcast_S1x512_S16384x512_0_1 : (⟨S1x512, .f32⟩ : BufTy).Contents (Elt F) → (⟨S16384x512, .f32⟩ : BufTy).Contents (Elt F)),
    StableHlo.binary main_v453 main_v455 main_v456 (addf : (⟨S16384x512, .f32⟩ : BufTy).Contents (Elt F) → (⟨S16384x512, .f32⟩ : BufTy).Contents (Elt F) → (⟨S16384x512, .f32⟩ : BufTy).Contents (Elt F)),
    StableHlo.TRef.nullary main_call20.cst (constant S_ .f32 0x00000000#32),
    StableHlo.TRef.unary main_call20.cst main_call20.v0 (broadcastInDim S16384x512 ![] bcast_S_S16384x512),
    StableHlo.TRef.binary (.of main_v456) main_call20.v0 main_call20.v1 maximumf,
    StableHlo.binary main_v457 main_v446 main_v458 ((fun l r => Host.dotGeneral dot_S16384x512_S512x512_S16384x512_1_0_0_1_n_n none l r) : (⟨S16384x512, .f32⟩ : BufTy).Contents (Elt F) → (⟨S512x512, .f32⟩ : BufTy).Contents (Elt F) → (⟨S16384x512, .f32⟩ : BufTy).Contents (Elt F)),
    StableHlo.unary main_v448 main_v459 (broadcastInDim S1x512 ![1] bcast_S512_S1x512_1 : (⟨S512, .f32⟩ : BufTy).Contents (Elt F) → (⟨S1x512, .f32⟩ : BufTy).Contents (Elt F)),
    StableHlo.unary main_v459 main_v460 (broadcastInDim S16384x512 ![0, 1] bcast_S1x512_S16384x512_0_1 : (⟨S1x512, .f32⟩ : BufTy).Contents (Elt F) → (⟨S16384x512, .f32⟩ : BufTy).Contents (Elt F)),
    StableHlo.binary main_v458 main_v460 main_v461 (addf : (⟨S16384x512, .f32⟩ : BufTy).Contents (Elt F) → (⟨S16384x512, .f32⟩ : BufTy).Contents (Elt F) → (⟨S16384x512, .f32⟩ : BufTy).Contents (Elt F)),
    StableHlo.TRef.nullary main_call21.cst (constant S_ .f32 0x00000000#32),
    StableHlo.TRef.unary main_call21.cst main_call21.v0 (broadcastInDim S16384x512 ![] bcast_S_S16384x512),
    StableHlo.TRef.binary (.of main_v461) main_call21.v0 main_call21.v1 maximumf,
    StableHlo.binary main_v462 main_v450 main_v463 ((fun l r => Host.dotGeneral dot_S16384x512_S512x32_S16384x32_1_0_0_1_n_n none l r) : (⟨S16384x512, .f32⟩ : BufTy).Contents (Elt F) → (⟨S512x32, .f32⟩ : BufTy).Contents (Elt F) → (⟨S16384x32, .f32⟩ : BufTy).Contents (Elt F)),
    StableHlo.unary main_v452 main_v464 (broadcastInDim S1x32 ![1] bcast_S32_S1x32_1 : (⟨S32, .f32⟩ : BufTy).Contents (Elt F) → (⟨S1x32, .f32⟩ : BufTy).Contents (Elt F)),
    StableHlo.unary main_v464 main_v465 (broadcastInDim S16384x32 ![0, 1] bcast_S1x32_S16384x32_0_1 : (⟨S1x32, .f32⟩ : BufTy).Contents (Elt F) → (⟨S16384x32, .f32⟩ : BufTy).Contents (Elt F)),
    StableHlo.binary main_v463 main_v465 main_v466 (addf : (⟨S16384x32, .f32⟩ : BufTy).Contents (Elt F) → (⟨S16384x32, .f32⟩ : BufTy).Contents (Elt F) → (⟨S16384x32, .f32⟩ : BufTy).Contents (Elt F)),
    StableHlo.unary main_arg7 main_v467 ((extractStridedSlice S1x32x512 ![5, 0, 0] · slices_S8x32x512_S1x32x512_5_0_0) : (⟨S8x32x512, .f32⟩ : BufTy).Contents (Elt F) → (⟨S1x32x512, .f32⟩ : BufTy).Contents (Elt F)),
    StableHlo.reshape main_v467 main_v468 rfl shapeCasts_S1x32x512_S32x512,
    StableHlo.unary main_arg8 main_v469 ((extractStridedSlice S1x512 ![5, 0] · slices_S8x512_S1x512_5_0) : (⟨S8x512, .f32⟩ : BufTy).Contents (Elt F) → (⟨S1x512, .f32⟩ : BufTy).Contents (Elt F)),
    StableHlo.reshape main_v469 main_v470 rfl shapeCasts_S1x512_S512,
    StableHlo.unary main_arg9 main_v471 ((extractStridedSlice S1x512x512 ![5, 0, 0] · slices_S8x512x512_S1x512x512_5_0_0) : (⟨S8x512x512, .f32⟩ : BufTy).Contents (Elt F) → (⟨S1x512x512, .f32⟩ : BufTy).Contents (Elt F)),
    StableHlo.reshape main_v471 main_v472 rfl shapeCasts_S1x512x512_S512x512,
    StableHlo.unary main_arg10 main_v473 ((extractStridedSlice S1x512 ![5, 0] · slices_S8x512_S1x512_5_0) : (⟨S8x512, .f32⟩ : BufTy).Contents (Elt F) → (⟨S1x512, .f32⟩ : BufTy).Contents (Elt F)),
    StableHlo.reshape main_v473 main_v474 rfl shapeCasts_S1x512_S512,
    StableHlo.unary main_arg11 main_v475 ((extractStridedSlice S1x512x32 ![5, 0, 0] · slices_S8x512x32_S1x512x32_5_0_0) : (⟨S8x512x32, .f32⟩ : BufTy).Contents (Elt F) → (⟨S1x512x32, .f32⟩ : BufTy).Contents (Elt F)),
    StableHlo.reshape main_v475 main_v476 rfl shapeCasts_S1x512x32_S512x32,
    StableHlo.unary main_arg12 main_v477 ((extractStridedSlice S1x32 ![5, 0] · slices_S8x32_S1x32_5_0) : (⟨S8x32, .f32⟩ : BufTy).Contents (Elt F) → (⟨S1x32, .f32⟩ : BufTy).Contents (Elt F)),
    StableHlo.reshape main_v477 main_v478 rfl shapeCasts_S1x32_S32,
    StableHlo.binary main_v440 main_v468 main_v479 ((fun l r => Host.dotGeneral dot_S16384x32_S32x512_S16384x512_1_0_0_1_n_n none l r) : (⟨S16384x32, .f32⟩ : BufTy).Contents (Elt F) → (⟨S32x512, .f32⟩ : BufTy).Contents (Elt F) → (⟨S16384x512, .f32⟩ : BufTy).Contents (Elt F)),
    StableHlo.unary main_v470 main_v480 (broadcastInDim S1x512 ![1] bcast_S512_S1x512_1 : (⟨S512, .f32⟩ : BufTy).Contents (Elt F) → (⟨S1x512, .f32⟩ : BufTy).Contents (Elt F)),
    StableHlo.unary main_v480 main_v481 (broadcastInDim S16384x512 ![0, 1] bcast_S1x512_S16384x512_0_1 : (⟨S1x512, .f32⟩ : BufTy).Contents (Elt F) → (⟨S16384x512, .f32⟩ : BufTy).Contents (Elt F)),
    StableHlo.binary main_v479 main_v481 main_v482 (addf : (⟨S16384x512, .f32⟩ : BufTy).Contents (Elt F) → (⟨S16384x512, .f32⟩ : BufTy).Contents (Elt F) → (⟨S16384x512, .f32⟩ : BufTy).Contents (Elt F)) ]

/-- What segment 14 writes, in order. -/
abbrev seg14_w : List (Ref sig .tc) :=
  [main_c_53, main_v431, main_v432, main_v433, main_v434, main_v435, main_c_54, main_v436, main_v437, main_v438, main_v439, main_v440, main_v441, main_v442, main_v443, main_v444, main_v445, main_v446, main_v447, main_v448, main_v449, main_v450, main_v451, main_v452, main_v453, main_v454, main_v455, main_v456, main_call20_cst, main_call20_v0, main_v457, main_v458, main_v459, main_v460, main_v461, main_call21_cst, main_call21_v0, main_v462, main_v463, main_v464, main_v465, main_v466, main_v467, main_v468, main_v469, main_v470, main_v471, main_v472, main_v473, main_v474, main_v475, main_v476, main_v477, main_v478, main_v479, main_v480, main_v481, main_v482]

theorem seg14_sub : (seg14 : List (HloOp τ sig (Elt F))).Forall fun op => op.bufs ⊆ tcRefs τ sig :=
  ⟨nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., binary_bufs_sub .., unary_bufs_sub .., unary_bufs_sub .., binary_bufs_sub ..⟩

/-- Segment 15: 40 operations, from the one writing `main_call22_cst` to the one writing `main_v516`. -/
abbrev seg15 : List (HloOp τ sig (Elt F)) :=
  [ StableHlo.TRef.nullary main_call22.cst (constant S_ .f32 0x00000000#32),
    StableHlo.TRef.unary main_call22.cst main_call22.v0 (broadcastInDim S16384x512 ![] bcast_S_S16384x512),
    StableHlo.TRef.binary (.of main_v482) main_call22.v0 main_call22.v1 maximumf,
    StableHlo.binary main_v483 main_v472 main_v484 ((fun l r => Host.dotGeneral dot_S16384x512_S512x512_S16384x512_1_0_0_1_n_n none l r) : (⟨S16384x512, .f32⟩ : BufTy).Contents (Elt F) → (⟨S512x512, .f32⟩ : BufTy).Contents (Elt F) → (⟨S16384x512, .f32⟩ : BufTy).Contents (Elt F)),
    StableHlo.unary main_v474 main_v485 (broadcastInDim S1x512 ![1] bcast_S512_S1x512_1 : (⟨S512, .f32⟩ : BufTy).Contents (Elt F) → (⟨S1x512, .f32⟩ : BufTy).Contents (Elt F)),
    StableHlo.unary main_v485 main_v486 (broadcastInDim S16384x512 ![0, 1] bcast_S1x512_S16384x512_0_1 : (⟨S1x512, .f32⟩ : BufTy).Contents (Elt F) → (⟨S16384x512, .f32⟩ : BufTy).Contents (Elt F)),
    StableHlo.binary main_v484 main_v486 main_v487 (addf : (⟨S16384x512, .f32⟩ : BufTy).Contents (Elt F) → (⟨S16384x512, .f32⟩ : BufTy).Contents (Elt F) → (⟨S16384x512, .f32⟩ : BufTy).Contents (Elt F)),
    StableHlo.TRef.nullary main_call23.cst (constant S_ .f32 0x00000000#32),
    StableHlo.TRef.unary main_call23.cst main_call23.v0 (broadcastInDim S16384x512 ![] bcast_S_S16384x512),
    StableHlo.TRef.binary (.of main_v487) main_call23.v0 main_call23.v1 maximumf,
    StableHlo.binary main_v488 main_v476 main_v489 ((fun l r => Host.dotGeneral dot_S16384x512_S512x32_S16384x32_1_0_0_1_n_n none l r) : (⟨S16384x512, .f32⟩ : BufTy).Contents (Elt F) → (⟨S512x32, .f32⟩ : BufTy).Contents (Elt F) → (⟨S16384x32, .f32⟩ : BufTy).Contents (Elt F)),
    StableHlo.unary main_v478 main_v490 (broadcastInDim S1x32 ![1] bcast_S32_S1x32_1 : (⟨S32, .f32⟩ : BufTy).Contents (Elt F) → (⟨S1x32, .f32⟩ : BufTy).Contents (Elt F)),
    StableHlo.unary main_v490 main_v491 (broadcastInDim S16384x32 ![0, 1] bcast_S1x32_S16384x32_0_1 : (⟨S1x32, .f32⟩ : BufTy).Contents (Elt F) → (⟨S16384x32, .f32⟩ : BufTy).Contents (Elt F)),
    StableHlo.binary main_v489 main_v491 main_v492 (addf : (⟨S16384x32, .f32⟩ : BufTy).Contents (Elt F) → (⟨S16384x32, .f32⟩ : BufTy).Contents (Elt F) → (⟨S16384x32, .f32⟩ : BufTy).Contents (Elt F)),
    StableHlo.unary main_v492 main_v493 (Host.tanh : (⟨S16384x32, .f32⟩ : BufTy).Contents (Elt F) → (⟨S16384x32, .f32⟩ : BufTy).Contents (Elt F)),
    StableHlo.unary main_arg13 main_v494 ((extractStridedSlice S1x32 ![5, 0] · slices_S8x32_S1x32_5_0) : (⟨S8x32, .f32⟩ : BufTy).Contents (Elt F) → (⟨S1x32, .f32⟩ : BufTy).Contents (Elt F)),
    StableHlo.reshape main_v494 main_v495 rfl shapeCasts_S1x32_S32,
    StableHlo.unary main_v495 main_v496 (broadcastInDim S1x32 ![1] bcast_S32_S1x32_1 : (⟨S32, .f32⟩ : BufTy).Contents (Elt F) → (⟨S1x32, .f32⟩ : BufTy).Contents (Elt F)),
    StableHlo.unary main_v496 main_v497 (broadcastInDim S16384x32 ![0, 1] bcast_S1x32_S16384x32_0_1 : (⟨S1x32, .f32⟩ : BufTy).Contents (Elt F) → (⟨S16384x32, .f32⟩ : BufTy).Contents (Elt F)),
    StableHlo.binary main_v493 main_v497 main_v498 (mulf : (⟨S16384x32, .f32⟩ : BufTy).Contents (Elt F) → (⟨S16384x32, .f32⟩ : BufTy).Contents (Elt F) → (⟨S16384x32, .f32⟩ : BufTy).Contents (Elt F)),
    StableHlo.unary main_arg14 main_v499 ((extractStridedSlice S1x32 ![5, 0] · slices_S8x32_S1x32_5_0) : (⟨S8x32, .f32⟩ : BufTy).Contents (Elt F) → (⟨S1x32, .f32⟩ : BufTy).Contents (Elt F)),
    StableHlo.reshape main_v499 main_v500 rfl shapeCasts_S1x32_S32,
    StableHlo.unary main_v500 main_v501 (broadcastInDim S1x32 ![1] bcast_S32_S1x32_1 : (⟨S32, .f32⟩ : BufTy).Contents (Elt F) → (⟨S1x32, .f32⟩ : BufTy).Contents (Elt F)),
    StableHlo.unary main_v501 main_v502 (broadcastInDim S16384x32 ![0, 1] bcast_S1x32_S16384x32_0_1 : (⟨S1x32, .f32⟩ : BufTy).Contents (Elt F) → (⟨S16384x32, .f32⟩ : BufTy).Contents (Elt F)),
    StableHlo.binary main_v498 main_v502 main_v503 (addf : (⟨S16384x32, .f32⟩ : BufTy).Contents (Elt F) → (⟨S16384x32, .f32⟩ : BufTy).Contents (Elt F) → (⟨S16384x32, .f32⟩ : BufTy).Contents (Elt F)),
    StableHlo.unary main_v503 main_v504 (Host.exp : (⟨S16384x32, .f32⟩ : BufTy).Contents (Elt F) → (⟨S16384x32, .f32⟩ : BufTy).Contents (Elt F)),
    StableHlo.binary main_v435 main_v504 main_v505 (mulf : (⟨S16384x32, .f32⟩ : BufTy).Contents (Elt F) → (⟨S16384x32, .f32⟩ : BufTy).Contents (Elt F) → (⟨S16384x32, .f32⟩ : BufTy).Contents (Elt F)),
    StableHlo.binary main_v505 main_v466 main_v506 (addf : (⟨S16384x32, .f32⟩ : BufTy).Contents (Elt F) → (⟨S16384x32, .f32⟩ : BufTy).Contents (Elt F) → (⟨S16384x32, .f32⟩ : BufTy).Contents (Elt F)),
    StableHlo.nullary main_c_55 (constantI S_ 32 64#32),
    StableHlo.unary main_c_55 main_v507 (broadcastInDim S32 ![] bcast_S_S32 : (⟨S_, .i32⟩ : BufTy).Contents (Elt F) → (⟨S32, .i32⟩ : BufTy).Contents (Elt F)),
    StableHlo.binary main_c_1 main_v507 main_v508 (addi : (⟨S32, .i32⟩ : BufTy).Contents (Elt F) → (⟨S32, .i32⟩ : BufTy).Contents (Elt F) → (⟨S32, .i32⟩ : BufTy).Contents (Elt F)),
    StableHlo.ternary main_c_23 main_v508 main_c_1 main_v509 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.unary main_v509 main_v510 (broadcastInDim S32x1 ![0] bcast_S32_S32x1_0 : (⟨S32, .i32⟩ : BufTy).Contents (Elt F) → (⟨S32x1, .i32⟩ : BufTy).Contents (Elt F)),
    StableHlo.ternary main_v425 main_v510 main_v506 main_v511 ((fun x i u => Host.scatter scatter_S16384x64_S32x1_S16384x32_0_1_1_1 (fun _ b => b) x i u) : (⟨S16384x64, .f32⟩ : BufTy).Contents (Elt F) → (⟨S32x1, .i32⟩ : BufTy).Contents (Elt F) → (⟨S16384x32, .f32⟩ : BufTy).Contents (Elt F) → (⟨S16384x64, .f32⟩ : BufTy).Contents (Elt F)),
    StableHlo.nullary main_c_56 (constantI S_ 32 64#32),
    StableHlo.unary main_c_56 main_v512 (broadcastInDim S32 ![] bcast_S_S32 : (⟨S_, .i32⟩ : BufTy).Contents (Elt F) → (⟨S32, .i32⟩ : BufTy).Contents (Elt F)),
    StableHlo.binary main_c_1 main_v512 main_v513 (addi : (⟨S32, .i32⟩ : BufTy).Contents (Elt F) → (⟨S32, .i32⟩ : BufTy).Contents (Elt F) → (⟨S32, .i32⟩ : BufTy).Contents (Elt F)),
    StableHlo.ternary main_c_24 main_v513 main_c_1 main_v514 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.unary main_v514 main_v515 (broadcastInDim S32x1 ![0] bcast_S32_S32x1_0 : (⟨S32, .i32⟩ : BufTy).Contents (Elt F) → (⟨S32x1, .i32⟩ : BufTy).Contents (Elt F)),
    StableHlo.ternary main_v430 main_v515 main_v503 main_v516 ((fun x i u => Host.scatterAdd scatter_S16384x64_S32x1_S16384x32_0_1_1_1 x i u) : (⟨S16384x64, .f32⟩ : BufTy).Contents (Elt F) → (⟨S32x1, .i32⟩ : BufTy).Contents (Elt F) → (⟨S16384x32, .f32⟩ : BufTy).Contents (Elt F) → (⟨S16384x64, .f32⟩ : BufTy).Contents (Elt F)) ]

/-- What segment 15 writes, in order. -/
abbrev seg15_w : List (Ref sig .tc) :=
  [main_call22_cst, main_call22_v0, main_v483, main_v484, main_v485, main_v486, main_v487, main_call23_cst, main_call23_v0, main_v488, main_v489, main_v490, main_v491, main_v492, main_v493, main_v494, main_v495, main_v496, main_v497, main_v498, main_v499, main_v500, main_v501, main_v502, main_v503, main_v504, main_v505, main_v506, main_c_55, main_v507, main_v508, main_v509, main_v510, main_v511, main_c_56, main_v512, main_v513, main_v514, main_v515, main_v516]

theorem seg15_sub : (seg15 : List (HloOp τ sig (Elt F))).Forall fun op => op.bufs ⊆ tcRefs τ sig :=
  ⟨nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., unary_bufs_sub .., reshape_bufs_sub .., unary_bufs_sub .., unary_bufs_sub .., binary_bufs_sub .., unary_bufs_sub .., reshape_bufs_sub .., unary_bufs_sub .., unary_bufs_sub .., binary_bufs_sub .., unary_bufs_sub .., binary_bufs_sub .., binary_bufs_sub .., nullary_bufs_sub .., unary_bufs_sub .., binary_bufs_sub .., ternary_bufs_sub .., unary_bufs_sub .., ternary_bufs_sub .., nullary_bufs_sub .., unary_bufs_sub .., binary_bufs_sub .., ternary_bufs_sub .., unary_bufs_sub .., ternary_bufs_sub ..⟩

end Cert.RefRun

end
-- ==== Proof.RefRunL5.lean ====
/-
  Coupling layer 5 of the reference program as a fold of its ninety-eight operations: from any valuation holding the
  two index tables and the all-false masks at their constants' buffers, the layer leaves at its two result buffers one
  step of the coupling (`Cert.RefDefs.stepZ`, `Cert.RefDefs.stepL`) of the contents of its two input buffers and of this
  layer's slices of the stacked parameters; and it writes none of the arguments, tables or masks.
-/
import proofs.«175251_j80573586473693_2_alg».proof.Proof.RefRunT5
import proofs.«175251_j80573586473693_2_alg».proof.Proof.RefRunLib
import proofs.«175251_j80573586473693_2_alg».proof.Proof.RefDefs

noncomputable section

namespace Cert.RefRun

open Cert.ReferenceIdeal Cert.RefDefs Idealize.ShloMosaic Idealize.ShloMosaic.TcCoe Idealize.SL.Sem Idealize.ShloMosaic.StableHlo

variable {F : FTy → Type} [FloatOps F] [Facts]

open Facts₀ Facts

/-! ## What the segments write -/

/-- Segment 14's operations write, one each and in order, the listed references, and determine what they write: each
    builder's written set is the singleton of its result by definition. -/
theorem seg14_writes : Writes (seg14 : List (HloOp τ sig (Elt F))) seg14_w := by
  repeat (first | exact List.Forall₂.nil | refine List.Forall₂.cons ⟨rfl, rfl⟩ ?_)

/-- None of them is an argument, a table or a mask. -/
theorem seg14_keeps : ∀ r ∈ keepList, r ∉ seg14_w := by decide

/-- Segment 15's operations write, one each and in order, the listed references, and determine what they write: each
    builder's written set is the singleton of its result by definition. -/
theorem seg15_writes : Writes (seg15 : List (HloOp τ sig (Elt F))) seg15_w := by
  repeat (first | exact List.Forall₂.nil | refine List.Forall₂.cons ⟨rfl, rfl⟩ ?_)

/-- None of them is an argument, a table or a mask. -/
theorem seg15_keeps : ∀ r ∈ keepList, r ∉ seg15_w := by decide

/-! ## The layer -/

/-- The valuation after the layer's operations. -/
abbrev lay5 (W : Valuation τ sig (Elt F)) : Valuation τ sig (Elt F) := after seg15 (after seg14 (W))

/-- The layer keeps the arguments, tables and masks. -/
theorem lay5_keeps {W V₁ : Valuation τ sig (Elt F)} (h : Keeps W V₁) : Keeps (lay5 W) V₁ :=
  keeps_step seg15_writes seg15_keeps (keeps_step seg14_writes seg14_keeps (h))

-- ninety-eight results composed: the term is deep
set_option maxHeartbeats 4000000 in
set_option maxRecDepth 100000 in
/-- The z buffer after the layer: the fold's value there, each operation's result read at its own buffer, is the
    scatter of `z₀ · exp s + t` into the columns `idxO` — once the tables and masks are put for the constants' buffers,
    the two sides are the same composition of host operations (the calls' buffers and the reshapes' carry their types
    by computation). -/
theorem lay5_z (W : Valuation τ sig (Elt F))
    (hE : W (main_c : DevRef τ sig) = (fun i => lit0 (S32.rowMajor i)))
    (hO : W (main_c_1 : DevRef τ sig) = (fun i => lit1 (S32.rowMajor i)))
    (hm1 : W (main_c_21 : DevRef τ sig) = constantI S32 1 0#1) (hm2 : W (main_c_22 : DevRef τ sig) = constantI S32 1 0#1)
    (hm3 : W (main_c_23 : DevRef τ sig) = constantI S32 1 0#1) :
    lay5 W (main_v511 : DevRef τ sig)
      = stepZ idxO idxE (W (main_v425 : DevRef τ sig))
          (w32x512 ![5, 0, 0] slices_S8x32x512_S1x32x512_5_0_0 (W (main_arg1 : DevRef τ sig))) (v512 ![5, 0] slices_S8x512_S1x512_5_0 (W (main_arg2 : DevRef τ sig)))
          (w512x512 ![5, 0, 0] slices_S8x512x512_S1x512x512_5_0_0 (W (main_arg3 : DevRef τ sig))) (v512 ![5, 0] slices_S8x512_S1x512_5_0 (W (main_arg4 : DevRef τ sig)))
          (w512x32 ![5, 0, 0] slices_S8x512x32_S1x512x32_5_0_0 (W (main_arg5 : DevRef τ sig))) (v32 ![5, 0] slices_S8x32_S1x32_5_0 (W (main_arg6 : DevRef τ sig)))
          (w32x512 ![5, 0, 0] slices_S8x32x512_S1x32x512_5_0_0 (W (main_arg7 : DevRef τ sig))) (v512 ![5, 0] slices_S8x512_S1x512_5_0 (W (main_arg8 : DevRef τ sig)))
          (w512x512 ![5, 0, 0] slices_S8x512x512_S1x512x512_5_0_0 (W (main_arg9 : DevRef τ sig))) (v512 ![5, 0] slices_S8x512_S1x512_5_0 (W (main_arg10 : DevRef τ sig)))
          (w512x32 ![5, 0, 0] slices_S8x512x32_S1x512x32_5_0_0 (W (main_arg11 : DevRef τ sig))) (v32 ![5, 0] slices_S8x32_S1x32_5_0 (W (main_arg12 : DevRef τ sig)))
          (v32 ![5, 0] slices_S8x32_S1x32_5_0 (W (main_arg13 : DevRef τ sig))) (v32 ![5, 0] slices_S8x32_S1x32_5_0 (W (main_arg14 : DevRef τ sig))) := by
  show after seg15 (after seg14 (W)) _ = _
  after_results_simp
  rw [hE, hO, hm1, hm2, hm3]
  rfl

set_option maxHeartbeats 4000000 in
set_option maxRecDepth 100000 in
/-- The accumulated log-scale buffer after the layer: the layer's log-scale added into the columns `idxO`. -/
theorem lay5_l (W : Valuation τ sig (Elt F))
    (hE : W (main_c : DevRef τ sig) = (fun i => lit0 (S32.rowMajor i)))
    (hO : W (main_c_1 : DevRef τ sig) = (fun i => lit1 (S32.rowMajor i)))
    (hm2 : W (main_c_22 : DevRef τ sig) = constantI S32 1 0#1) (hm4 : W (main_c_24 : DevRef τ sig) = constantI S32 1 0#1) :
    lay5 W (main_v516 : DevRef τ sig)
      = stepL idxO idxE (W (main_v425 : DevRef τ sig)) (W (main_v430 : DevRef τ sig))
          (w32x512 ![5, 0, 0] slices_S8x32x512_S1x32x512_5_0_0 (W (main_arg7 : DevRef τ sig))) (v512 ![5, 0] slices_S8x512_S1x512_5_0 (W (main_arg8 : DevRef τ sig)))
          (w512x512 ![5, 0, 0] slices_S8x512x512_S1x512x512_5_0_0 (W (main_arg9 : DevRef τ sig))) (v512 ![5, 0] slices_S8x512_S1x512_5_0 (W (main_arg10 : DevRef τ sig)))
          (w512x32 ![5, 0, 0] slices_S8x512x32_S1x512x32_5_0_0 (W (main_arg11 : DevRef τ sig))) (v32 ![5, 0] slices_S8x32_S1x32_5_0 (W (main_arg12 : DevRef τ sig)))
          (v32 ![5, 0] slices_S8x32_S1x32_5_0 (W (main_arg13 : DevRef τ sig))) (v32 ![5, 0] slices_S8x32_S1x32_5_0 (W (main_arg14 : DevRef τ sig))) := by
  show after seg15 (after seg14 (W)) _ = _
  after_results_simp
  rw [hE, hO, hm2, hm4]
  rfl

end Cert.RefRun

end
-- ==== Proof.RefRunT6.lean ====
/-
  The reference program's operations, tabulated: @main's straight line cut into consecutive segments (a cut at each
  window of the printed program and at each coupling layer's end), each segment the literal list of its host operations
  in program order, a call of the outlined maximum-with-zero spelt as its three operations over the call's buffers;
  beside each list, the references it writes, in order.
-/
import proofs.«175251_j80573586473693_2_alg».proof.ReferenceIdeal
import Idealize.ShloMosaic.Lib.StableHlo.Run

noncomputable section

namespace Cert.RefRun

open Cert.ReferenceIdeal Idealize.ShloMosaic Idealize.ShloMosaic.TcCoe Idealize.SL.Sem Idealize.ShloMosaic.StableHlo

variable {F : FTy → Type} [FloatOps F] [Facts]

open Facts₀ Facts

/-- Segment 16: 24 operations, from the one writing `main_c_57` to the one writing `main_v538`. -/
abbrev seg16 : List (HloOp τ sig (Elt F)) :=
  [ StableHlo.nullary main_c_57 (constantI S_ 32 64#32),
    StableHlo.unary main_c_57 main_v517 (broadcastInDim S32 ![] bcast_S_S32 : (⟨S_, .i32⟩ : BufTy).Contents (Elt F) → (⟨S32, .i32⟩ : BufTy).Contents (Elt F)),
    StableHlo.binary main_c main_v517 main_v518 (addi : (⟨S32, .i32⟩ : BufTy).Contents (Elt F) → (⟨S32, .i32⟩ : BufTy).Contents (Elt F) → (⟨S32, .i32⟩ : BufTy).Contents (Elt F)),
    StableHlo.ternary main_c_25 main_v518 main_c main_v519 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.unary main_v519 main_v520 (broadcastInDim S32x1 ![0] bcast_S32_S32x1_0 : (⟨S32, .i32⟩ : BufTy).Contents (Elt F) → (⟨S32x1, .i32⟩ : BufTy).Contents (Elt F)),
    StableHlo.binary main_v511 main_v520 main_v521 ((fun x i => Host.gather gather_S16384x64_S32x1_S16384x32_0_1_n_n_1_1_163841 x i) : (⟨S16384x64, .f32⟩ : BufTy).Contents (Elt F) → (⟨S32x1, .i32⟩ : BufTy).Contents (Elt F) → (⟨S16384x32, .f32⟩ : BufTy).Contents (Elt F)),
    StableHlo.nullary main_c_58 (constantI S_ 32 64#32),
    StableHlo.unary main_c_58 main_v522 (broadcastInDim S32 ![] bcast_S_S32 : (⟨S_, .i32⟩ : BufTy).Contents (Elt F) → (⟨S32, .i32⟩ : BufTy).Contents (Elt F)),
    StableHlo.binary main_c_1 main_v522 main_v523 (addi : (⟨S32, .i32⟩ : BufTy).Contents (Elt F) → (⟨S32, .i32⟩ : BufTy).Contents (Elt F) → (⟨S32, .i32⟩ : BufTy).Contents (Elt F)),
    StableHlo.ternary main_c_26 main_v523 main_c_1 main_v524 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.unary main_v524 main_v525 (broadcastInDim S32x1 ![0] bcast_S32_S32x1_0 : (⟨S32, .i32⟩ : BufTy).Contents (Elt F) → (⟨S32x1, .i32⟩ : BufTy).Contents (Elt F)),
    StableHlo.binary main_v511 main_v525 main_v526 ((fun x i => Host.gather gather_S16384x64_S32x1_S16384x32_0_1_n_n_1_1_163841 x i) : (⟨S16384x64, .f32⟩ : BufTy).Contents (Elt F) → (⟨S32x1, .i32⟩ : BufTy).Contents (Elt F) → (⟨S16384x32, .f32⟩ : BufTy).Contents (Elt F)),
    StableHlo.unary main_arg1 main_v527 ((extractStridedSlice S1x32x512 ![6, 0, 0] · slices_S8x32x512_S1x32x512_6_0_0) : (⟨S8x32x512, .f32⟩ : BufTy).Contents (Elt F) → (⟨S1x32x512, .f32⟩ : BufTy).Contents (Elt F)),
    StableHlo.reshape main_v527 main_v528 rfl shapeCasts_S1x32x512_S32x512,
    StableHlo.unary main_arg2 main_v529 ((extractStridedSlice S1x512 ![6, 0] · slices_S8x512_S1x512_6_0) : (⟨S8x512, .f32⟩ : BufTy).Contents (Elt F) → (⟨S1x512, .f32⟩ : BufTy).Contents (Elt F)),
    StableHlo.reshape main_v529 main_v530 rfl shapeCasts_S1x512_S512,
    StableHlo.unary main_arg3 main_v531 ((extractStridedSlice S1x512x512 ![6, 0, 0] · slices_S8x512x512_S1x512x512_6_0_0) : (⟨S8x512x512, .f32⟩ : BufTy).Contents (Elt F) → (⟨S1x512x512, .f32⟩ : BufTy).Contents (Elt F)),
    StableHlo.reshape main_v531 main_v532 rfl shapeCasts_S1x512x512_S512x512,
    StableHlo.unary main_arg4 main_v533 ((extractStridedSlice S1x512 ![6, 0] · slices_S8x512_S1x512_6_0) : (⟨S8x512, .f32⟩ : BufTy).Contents (Elt F) → (⟨S1x512, .f32⟩ : BufTy).Contents (Elt F)),
    StableHlo.reshape main_v533 main_v534 rfl shapeCasts_S1x512_S512,
    StableHlo.unary main_arg5 main_v535 ((extractStridedSlice S1x512x32 ![6, 0, 0] · slices_S8x512x32_S1x512x32_6_0_0) : (⟨S8x512x32, .f32⟩ : BufTy).Contents (Elt F) → (⟨S1x512x32, .f32⟩ : BufTy).Contents (Elt F)),
    StableHlo.reshape main_v535 main_v536 rfl shapeCasts_S1x512x32_S512x32,
    StableHlo.unary main_arg6 main_v537 ((extractStridedSlice S1x32 ![6, 0] · slices_S8x32_S1x32_6_0) : (⟨S8x32, .f32⟩ : BufTy).Contents (Elt F) → (⟨S1x32, .f32⟩ : BufTy).Contents (Elt F)),
    StableHlo.reshape main_v537 main_v538 rfl shapeCasts_S1x32_S32 ]

/-- What segment 16 writes, in order. -/
abbrev seg16_w : List (Ref sig .tc) :=
  [main_c_57, main_v517, main_v518, main_v519, main_v520, main_v521, main_c_58, main_v522, main_v523, main_v524, main_v525, main_v526, main_v527, main_v528, main_v529, main_v530, main_v531, main_v532, main_v533, main_v534, main_v535, main_v536, main_v537, main_v538]

theorem seg16_sub : (seg16 : List (HloOp τ sig (Elt F))).Forall fun op => op.bufs ⊆ tcRefs τ sig :=
  ⟨nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub ..⟩

/-- Segment 17: 68 operations, from the one writing `main_v539` to the one writing `main_v597`. -/
abbrev seg17 : List (HloOp τ sig (Elt F)) :=
  [ StableHlo.binary main_v526 main_v528 main_v539 ((fun l r => Host.dotGeneral dot_S16384x32_S32x512_S16384x512_1_0_0_1_n_n none l r) : (⟨S16384x32, .f32⟩ : BufTy).Contents (Elt F) → (⟨S32x512, .f32⟩ : BufTy).Contents (Elt F) → (⟨S16384x512, .f32⟩ : BufTy).Contents (Elt F)),
    StableHlo.unary main_v530 main_v540 (broadcastInDim S1x512 ![1] bcast_S512_S1x512_1 : (⟨S512, .f32⟩ : BufTy).Contents (Elt F) → (⟨S1x512, .f32⟩ : BufTy).Contents (Elt F)),
    StableHlo.unary main_v540 main_v541 (broadcastInDim S16384x512 ![0, 1] bcast_S1x512_S16384x512_0_1 : (⟨S1x512, .f32⟩ : BufTy).Contents (Elt F) → (⟨S16384x512, .f32⟩ : BufTy).Contents (Elt F)),
    StableHlo.binary main_v539 main_v541 main_v542 (addf : (⟨S16384x512, .f32⟩ : BufTy).Contents (Elt F) → (⟨S16384x512, .f32⟩ : BufTy).Contents (Elt F) → (⟨S16384x512, .f32⟩ : BufTy).Contents (Elt F)),
    StableHlo.TRef.nullary main_call24.cst (constant S_ .f32 0x00000000#32),
    StableHlo.TRef.unary main_call24.cst main_call24.v0 (broadcastInDim S16384x512 ![] bcast_S_S16384x512),
    StableHlo.TRef.binary (.of main_v542) main_call24.v0 main_call24.v1 maximumf,
    StableHlo.binary main_v543 main_v532 main_v544 ((fun l r => Host.dotGeneral dot_S16384x512_S512x512_S16384x512_1_0_0_1_n_n none l r) : (⟨S16384x512, .f32⟩ : BufTy).Contents (Elt F) → (⟨S512x512, .f32⟩ : BufTy).Contents (Elt F) → (⟨S16384x512, .f32⟩ : BufTy).Contents (Elt F)),
    StableHlo.unary main_v534 main_v545 (broadcastInDim S1x512 ![1] bcast_S512_S1x512_1 : (⟨S512, .f32⟩ : BufTy).Contents (Elt F) → (⟨S1x512, .f32⟩ : BufTy).Contents (Elt F)),
    StableHlo.unary main_v545 main_v546 (broadcastInDim S16384x512 ![0, 1] bcast_S1x512_S16384x512_0_1 : (⟨S1x512, .f32⟩ : BufTy).Contents (Elt F) → (⟨S16384x512, .f32⟩ : BufTy).Contents (Elt F)),
    StableHlo.binary main_v544 main_v546 main_v547 (addf : (⟨S16384x512, .f32⟩ : BufTy).Contents (Elt F) → (⟨S16384x512, .f32⟩ : BufTy).Contents (Elt F) → (⟨S16384x512, .f32⟩ : BufTy).Contents (Elt F)),
    StableHlo.TRef.nullary main_call25.cst (constant S_ .f32 0x00000000#32),
    StableHlo.TRef.unary main_call25.cst main_call25.v0 (broadcastInDim S16384x512 ![] bcast_S_S16384x512),
    StableHlo.TRef.binary (.of main_v547) main_call25.v0 main_call25.v1 maximumf,
    StableHlo.binary main_v548 main_v536 main_v549 ((fun l r => Host.dotGeneral dot_S16384x512_S512x32_S16384x32_1_0_0_1_n_n none l r) : (⟨S16384x512, .f32⟩ : BufTy).Contents (Elt F) → (⟨S512x32, .f32⟩ : BufTy).Contents (Elt F) → (⟨S16384x32, .f32⟩ : BufTy).Contents (Elt F)),
    StableHlo.unary main_v538 main_v550 (broadcastInDim S1x32 ![1] bcast_S32_S1x32_1 : (⟨S32, .f32⟩ : BufTy).Contents (Elt F) → (⟨S1x32, .f32⟩ : BufTy).Contents (Elt F)),
    StableHlo.unary main_v550 main_v551 (broadcastInDim S16384x32 ![0, 1] bcast_S1x32_S16384x32_0_1 : (⟨S1x32, .f32⟩ : BufTy).Contents (Elt F) → (⟨S16384x32, .f32⟩ : BufTy).Contents (Elt F)),
    StableHlo.binary main_v549 main_v551 main_v552 (addf : (⟨S16384x32, .f32⟩ : BufTy).Contents (Elt F) → (⟨S16384x32, .f32⟩ : BufTy).Contents (Elt F) → (⟨S16384x32, .f32⟩ : BufTy).Contents (Elt F)),
    StableHlo.unary main_arg7 main_v553 ((extractStridedSlice S1x32x512 ![6, 0, 0] · slices_S8x32x512_S1x32x512_6_0_0) : (⟨S8x32x512, .f32⟩ : BufTy).Contents (Elt F) → (⟨S1x32x512, .f32⟩ : BufTy).Contents (Elt F)),
    StableHlo.reshape main_v553 main_v554 rfl shapeCasts_S1x32x512_S32x512,
    StableHlo.unary main_arg8 main_v555 ((extractStridedSlice S1x512 ![6, 0] · slices_S8x512_S1x512_6_0) : (⟨S8x512, .f32⟩ : BufTy).Contents (Elt F) → (⟨S1x512, .f32⟩ : BufTy).Contents (Elt F)),
    StableHlo.reshape main_v555 main_v556 rfl shapeCasts_S1x512_S512,
    StableHlo.unary main_arg9 main_v557 ((extractStridedSlice S1x512x512 ![6, 0, 0] · slices_S8x512x512_S1x512x512_6_0_0) : (⟨S8x512x512, .f32⟩ : BufTy).Contents (Elt F) → (⟨S1x512x512, .f32⟩ : BufTy).Contents (Elt F)),
    StableHlo.reshape main_v557 main_v558 rfl shapeCasts_S1x512x512_S512x512,
    StableHlo.unary main_arg10 main_v559 ((extractStridedSlice S1x512 ![6, 0] · slices_S8x512_S1x512_6_0) : (⟨S8x512, .f32⟩ : BufTy).Contents (Elt F) → (⟨S1x512, .f32⟩ : BufTy).Contents (Elt F)),
    StableHlo.reshape main_v559 main_v560 rfl shapeCasts_S1x512_S512,
    StableHlo.unary main_arg11 main_v561 ((extractStridedSlice S1x512x32 ![6, 0, 0] · slices_S8x512x32_S1x512x32_6_0_0) : (⟨S8x512x32, .f32⟩ : BufTy).Contents (Elt F) → (⟨S1x512x32, .f32⟩ : BufTy).Contents (Elt F)),
    StableHlo.reshape main_v561 main_v562 rfl shapeCasts_S1x512x32_S512x32,
    StableHlo.unary main_arg12 main_v563 ((extractStridedSlice S1x32 ![6, 0] · slices_S8x32_S1x32_6_0) : (⟨S8x32, .f32⟩ : BufTy).Contents (Elt F) → (⟨S1x32, .f32⟩ : BufTy).Contents (Elt F)),
    StableHlo.reshape main_v563 main_v564 rfl shapeCasts_S1x32_S32,
    StableHlo.binary main_v526 main_v554 main_v565 ((fun l r => Host.dotGeneral dot_S16384x32_S32x512_S16384x512_1_0_0_1_n_n none l r) : (⟨S16384x32, .f32⟩ : BufTy).Contents (Elt F) → (⟨S32x512, .f32⟩ : BufTy).Contents (Elt F) → (⟨S16384x512, .f32⟩ : BufTy).Contents (Elt F)),
    StableHlo.unary main_v556 main_v566 (broadcastInDim S1x512 ![1] bcast_S512_S1x512_1 : (⟨S512, .f32⟩ : BufTy).Contents (Elt F) → (⟨S1x512, .f32⟩ : BufTy).Contents (Elt F)),
    StableHlo.unary main_v566 main_v567 (broadcastInDim S16384x512 ![0, 1] bcast_S1x512_S16384x512_0_1 : (⟨S1x512, .f32⟩ : BufTy).Contents (Elt F) → (⟨S16384x512, .f32⟩ : BufTy).Contents (Elt F)),
    StableHlo.binary main_v565 main_v567 main_v568 (addf : (⟨S16384x512, .f32⟩ : BufTy).Contents (Elt F) → (⟨S16384x512, .f32⟩ : BufTy).Contents (Elt F) → (⟨S16384x512, .f32⟩ : BufTy).Contents (Elt F)),
    StableHlo.TRef.nullary main_call26.cst (constant S_ .f32 0x00000000#32),
    StableHlo.TRef.unary main_call26.cst main_call26.v0 (broadcastInDim S16384x512 ![] bcast_S_S16384x512),
    StableHlo.TRef.binary (.of main_v568) main_call26.v0 main_call26.v1 maximumf,
    StableHlo.binary main_v569 main_v558 main_v570 ((fun l r => Host.dotGeneral dot_S16384x512_S512x512_S16384x512_1_0_0_1_n_n none l r) : (⟨S16384x512, .f32⟩ : BufTy).Contents (Elt F) → (⟨S512x512, .f32⟩ : BufTy).Contents (Elt F) → (⟨S16384x512, .f32⟩ : BufTy).Contents (Elt F)),
    StableHlo.unary main_v560 main_v571 (broadcastInDim S1x512 ![1] bcast_S512_S1x512_1 : (⟨S512, .f32⟩ : BufTy).Contents (Elt F) → (⟨S1x512, .f32⟩ : BufTy).Contents (Elt F)),
    StableHlo.unary main_v571 main_v572 (broadcastInDim S16384x512 ![0, 1] bcast_S1x512_S16384x512_0_1 : (⟨S1x512, .f32⟩ : BufTy).Contents (Elt F) → (⟨S16384x512, .f32⟩ : BufTy).Contents (Elt F)),
    StableHlo.binary main_v570 main_v572 main_v573 (addf : (⟨S16384x512, .f32⟩ : BufTy).Contents (Elt F) → (⟨S16384x512, .f32⟩ : BufTy).Contents (Elt F) → (⟨S16384x512, .f32⟩ : BufTy).Contents (Elt F)),
    StableHlo.TRef.nullary main_call27.cst (constant S_ .f32 0x00000000#32),
    StableHlo.TRef.unary main_call27.cst main_call27.v0 (broadcastInDim S16384x512 ![] bcast_S_S16384x512),
    StableHlo.TRef.binary (.of main_v573) main_call27.v0 main_call27.v1 maximumf,
    StableHlo.binary main_v574 main_v562 main_v575 ((fun l r => Host.dotGeneral dot_S16384x512_S512x32_S16384x32_1_0_0_1_n_n none l r) : (⟨S16384x512, .f32⟩ : BufTy).Contents (Elt F) → (⟨S512x32, .f32⟩ : BufTy).Contents (Elt F) → (⟨S16384x32, .f32⟩ : BufTy).Contents (Elt F)),
    StableHlo.unary main_v564 main_v576 (broadcastInDim S1x32 ![1] bcast_S32_S1x32_1 : (⟨S32, .f32⟩ : BufTy).Contents (Elt F) → (⟨S1x32, .f32⟩ : BufTy).Contents (Elt F)),
    StableHlo.unary main_v576 main_v577 (broadcastInDim S16384x32 ![0, 1] bcast_S1x32_S16384x32_0_1 : (⟨S1x32, .f32⟩ : BufTy).Contents (Elt F) → (⟨S16384x32, .f32⟩ : BufTy).Contents (Elt F)),
    StableHlo.binary main_v575 main_v577 main_v578 (addf : (⟨S16384x32, .f32⟩ : BufTy).Contents (Elt F) → (⟨S16384x32, .f32⟩ : BufTy).Contents (Elt F) → (⟨S16384x32, .f32⟩ : BufTy).Contents (Elt F)),
    StableHlo.unary main_v578 main_v579 (Host.tanh : (⟨S16384x32, .f32⟩ : BufTy).Contents (Elt F) → (⟨S16384x32, .f32⟩ : BufTy).Contents (Elt F)),
    StableHlo.unary main_arg13 main_v580 ((extractStridedSlice S1x32 ![6, 0] · slices_S8x32_S1x32_6_0) : (⟨S8x32, .f32⟩ : BufTy).Contents (Elt F) → (⟨S1x32, .f32⟩ : BufTy).Contents (Elt F)),
    StableHlo.reshape main_v580 main_v581 rfl shapeCasts_S1x32_S32,
    StableHlo.unary main_v581 main_v582 (broadcastInDim S1x32 ![1] bcast_S32_S1x32_1 : (⟨S32, .f32⟩ : BufTy).Contents (Elt F) → (⟨S1x32, .f32⟩ : BufTy).Contents (Elt F)),
    StableHlo.unary main_v582 main_v583 (broadcastInDim S16384x32 ![0, 1] bcast_S1x32_S16384x32_0_1 : (⟨S1x32, .f32⟩ : BufTy).Contents (Elt F) → (⟨S16384x32, .f32⟩ : BufTy).Contents (Elt F)),
    StableHlo.binary main_v579 main_v583 main_v584 (mulf : (⟨S16384x32, .f32⟩ : BufTy).Contents (Elt F) → (⟨S16384x32, .f32⟩ : BufTy).Contents (Elt F) → (⟨S16384x32, .f32⟩ : BufTy).Contents (Elt F)),
    StableHlo.unary main_arg14 main_v585 ((extractStridedSlice S1x32 ![6, 0] · slices_S8x32_S1x32_6_0) : (⟨S8x32, .f32⟩ : BufTy).Contents (Elt F) → (⟨S1x32, .f32⟩ : BufTy).Contents (Elt F)),
    StableHlo.reshape main_v585 main_v586 rfl shapeCasts_S1x32_S32,
    StableHlo.unary main_v586 main_v587 (broadcastInDim S1x32 ![1] bcast_S32_S1x32_1 : (⟨S32, .f32⟩ : BufTy).Contents (Elt F) → (⟨S1x32, .f32⟩ : BufTy).Contents (Elt F)),
    StableHlo.unary main_v587 main_v588 (broadcastInDim S16384x32 ![0, 1] bcast_S1x32_S16384x32_0_1 : (⟨S1x32, .f32⟩ : BufTy).Contents (Elt F) → (⟨S16384x32, .f32⟩ : BufTy).Contents (Elt F)),
    StableHlo.binary main_v584 main_v588 main_v589 (addf : (⟨S16384x32, .f32⟩ : BufTy).Contents (Elt F) → (⟨S16384x32, .f32⟩ : BufTy).Contents (Elt F) → (⟨S16384x32, .f32⟩ : BufTy).Contents (Elt F)),
    StableHlo.unary main_v589 main_v590 (Host.exp : (⟨S16384x32, .f32⟩ : BufTy).Contents (Elt F) → (⟨S16384x32, .f32⟩ : BufTy).Contents (Elt F)),
    StableHlo.binary main_v521 main_v590 main_v591 (mulf : (⟨S16384x32, .f32⟩ : BufTy).Contents (Elt F) → (⟨S16384x32, .f32⟩ : BufTy).Contents (Elt F) → (⟨S16384x32, .f32⟩ : BufTy).Contents (Elt F)),
    StableHlo.binary main_v591 main_v552 main_v592 (addf : (⟨S16384x32, .f32⟩ : BufTy).Contents (Elt F) → (⟨S16384x32, .f32⟩ : BufTy).Contents (Elt F) → (⟨S16384x32, .f32⟩ : BufTy).Contents (Elt F)),
    StableHlo.nullary main_c_59 (constantI S_ 32 64#32),
    StableHlo.unary main_c_59 main_v593 (broadcastInDim S32 ![] bcast_S_S32 : (⟨S_, .i32⟩ : BufTy).Contents (Elt F) → (⟨S32, .i32⟩ : BufTy).Contents (Elt F)),
    StableHlo.binary main_c main_v593 main_v594 (addi : (⟨S32, .i32⟩ : BufTy).Contents (Elt F) → (⟨S32, .i32⟩ : BufTy).Contents (Elt F) → (⟨S32, .i32⟩ : BufTy).Contents (Elt F)),
    StableHlo.ternary main_c_27 main_v594 main_c main_v595 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.unary main_v595 main_v596 (broadcastInDim S32x1 ![0] bcast_S32_S32x1_0 : (⟨S32, .i32⟩ : BufTy).Contents (Elt F) → (⟨S32x1, .i32⟩ : BufTy).Contents (Elt F)),
    StableHlo.ternary main_v511 main_v596 main_v592 main_v597 ((fun x i u => Host.scatter scatter_S16384x64_S32x1_S16384x32_0_1_1_1 (fun _ b => b) x i u) : (⟨S16384x64, .f32⟩ : BufTy).Contents (Elt F) → (⟨S32x1, .i32⟩ : BufTy).Contents (Elt F) → (⟨S16384x32, .f32⟩ : BufTy).Contents (Elt F) → (⟨S16384x64, .f32⟩ : BufTy).Contents (Elt F)) ]

/-- What segment 17 writes, in order. -/
abbrev seg17_w : List (Ref sig .tc) :=
  [main_v539, main_v540, main_v541, main_v542, main_call24_cst, main_call24_v0, main_v543, main_v544, main_v545, main_v546, main_v547, main_call25_cst, main_call25_v0, main_v548, main_v549, main_v550, main_v551, main_v552, main_v553, main_v554, main_v555, main_v556, main_v557, main_v558, main_v559, main_v560, main_v561, main_v562, main_v563, main_v564, main_v565, main_v566, main_v567, main_v568, main_call26_cst, main_call26_v0, main_v569, main_v570, main_v571, main_v572, main_v573, main_call27_cst, main_call27_v0, main_v574, main_v575, main_v576, main_v577, main_v578, main_v579, main_v580, main_v581, main_v582, main_v583, main_v584, main_v585, main_v586, main_v587, main_v588, main_v589, main_v590, main_v591, main_v592, main_c_59, main_v593, main_v594, main_v595, main_v596, main_v597]

theorem seg17_sub : (seg17 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., unary_bufs_sub .., reshape_bufs_sub .., unary_bufs_sub .., unary_bufs_sub .., binary_bufs_sub .., unary_bufs_sub .., reshape_bufs_sub .., unary_bufs_sub .., unary_bufs_sub .., binary_bufs_sub .., unary_bufs_sub .., binary_bufs_sub .., binary_bufs_sub .., nullary_bufs_sub .., unary_bufs_sub .., binary_bufs_sub .., ternary_bufs_sub .., unary_bufs_sub .., ternary_bufs_sub ..⟩

/-- Segment 18: 6 operations, from the one writing `main_c_60` to the one writing `main_v602`. -/
abbrev seg18 : List (HloOp τ sig (Elt F)) :=
  [ StableHlo.nullary main_c_60 (constantI S_ 32 64#32),
    StableHlo.unary main_c_60 main_v598 (broadcastInDim S32 ![] bcast_S_S32 : (⟨S_, .i32⟩ : BufTy).Contents (Elt F) → (⟨S32, .i32⟩ : BufTy).Contents (Elt F)),
    StableHlo.binary main_c main_v598 main_v599 (addi : (⟨S32, .i32⟩ : BufTy).Contents (Elt F) → (⟨S32, .i32⟩ : BufTy).Contents (Elt F) → (⟨S32, .i32⟩ : BufTy).Contents (Elt F)),
    StableHlo.ternary main_c_28 main_v599 main_c main_v600 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.unary main_v600 main_v601 (broadcastInDim S32x1 ![0] bcast_S32_S32x1_0 : (⟨S32, .i32⟩ : BufTy).Contents (Elt F) → (⟨S32x1, .i32⟩ : BufTy).Contents (Elt F)),
    StableHlo.ternary main_v516 main_v601 main_v589 main_v602 ((fun x i u => Host.scatterAdd scatter_S16384x64_S32x1_S16384x32_0_1_1_1 x i u) : (⟨S16384x64, .f32⟩ : BufTy).Contents (Elt F) → (⟨S32x1, .i32⟩ : BufTy).Contents (Elt F) → (⟨S16384x32, .f32⟩ : BufTy).Contents (Elt F) → (⟨S16384x64, .f32⟩ : BufTy).Contents (Elt F)) ]

/-- What segment 18 writes, in order. -/
abbrev seg18_w : List (Ref sig .tc) :=
  [main_c_60, main_v598, main_v599, main_v600, main_v601, main_v602]

theorem seg18_sub : (seg18 : List (HloOp τ sig (Elt F))).Forall fun op => op.bufs ⊆ tcRefs τ sig :=
  ⟨nullary_bufs_sub .., unary_bufs_sub .., binary_bufs_sub .., ternary_bufs_sub .., unary_bufs_sub .., ternary_bufs_sub ..⟩

end Cert.RefRun

end
-- ==== Proof.RefRunL6.lean ====
/-
  Coupling layer 6 of the reference program as a fold of its ninety-eight operations: from any valuation holding the
  two index tables and the all-false masks at their constants' buffers, the layer leaves at its two result buffers one
  step of the coupling (`Cert.RefDefs.stepZ`, `Cert.RefDefs.stepL`) of the contents of its two input buffers and of this
  layer's slices of the stacked parameters; and it writes none of the arguments, tables or masks.
-/
import proofs.«175251_j80573586473693_2_alg».proof.Proof.RefRunT6
import proofs.«175251_j80573586473693_2_alg».proof.Proof.RefRunLib
import proofs.«175251_j80573586473693_2_alg».proof.Proof.RefDefs

noncomputable section

namespace Cert.RefRun

open Cert.ReferenceIdeal Cert.RefDefs Idealize.ShloMosaic Idealize.ShloMosaic.TcCoe Idealize.SL.Sem Idealize.ShloMosaic.StableHlo

variable {F : FTy → Type} [FloatOps F] [Facts]

open Facts₀ Facts

/-! ## What the segments write -/

/-- Segment 16's operations write, one each and in order, the listed references, and determine what they write: each
    builder's written set is the singleton of its result by definition. -/
theorem seg16_writes : Writes (seg16 : List (HloOp τ sig (Elt F))) seg16_w := by
  repeat (first | exact List.Forall₂.nil | refine List.Forall₂.cons ⟨rfl, rfl⟩ ?_)

/-- None of them is an argument, a table or a mask. -/
theorem seg16_keeps : ∀ r ∈ keepList, r ∉ seg16_w := by decide

/-- Segment 17's operations write, one each and in order, the listed references, and determine what they write: each
    builder's written set is the singleton of its result by definition. -/
theorem seg17_writes : Writes (seg17 : List (HloOp τ sig (Elt F))) seg17_w := by
  repeat (first | exact List.Forall₂.nil | refine List.Forall₂.cons ⟨rfl, rfl⟩ ?_)

/-- None of them is an argument, a table or a mask. -/
theorem seg17_keeps : ∀ r ∈ keepList, r ∉ seg17_w := by decide

/-- Segment 18's operations write, one each and in order, the listed references, and determine what they write: each
    builder's written set is the singleton of its result by definition. -/
theorem seg18_writes : Writes (seg18 : List (HloOp τ sig (Elt F))) seg18_w := by
  repeat (first | exact List.Forall₂.nil | refine List.Forall₂.cons ⟨rfl, rfl⟩ ?_)

/-- None of them is an argument, a table or a mask. -/
theorem seg18_keeps : ∀ r ∈ keepList, r ∉ seg18_w := by decide

/-! ## The layer -/

/-- The valuation after the layer's operations. -/
abbrev lay6 (W : Valuation τ sig (Elt F)) : Valuation τ sig (Elt F) := after seg18 (after seg17 (after seg16 (W)))

/-- The layer keeps the arguments, tables and masks. -/
theorem lay6_keeps {W V₁ : Valuation τ sig (Elt F)} (h : Keeps W V₁) : Keeps (lay6 W) V₁ :=
  keeps_step seg18_writes seg18_keeps (keeps_step seg17_writes seg17_keeps (keeps_step seg16_writes seg16_keeps (h)))

-- ninety-eight results composed: the term is deep
set_option maxHeartbeats 4000000 in
set_option maxRecDepth 100000 in
/-- The z buffer after the layer: the fold's value there, each operation's result read at its own buffer, is the
    scatter of `z₀ · exp s + t` into the columns `idxE` — once the tables and masks are put for the constants' buffers,
    the two sides are the same composition of host operations (the calls' buffers and the reshapes' carry their types
    by computation). -/
theorem lay6_z (W : Valuation τ sig (Elt F))
    (hE : W (main_c : DevRef τ sig) = (fun i => lit0 (S32.rowMajor i)))
    (hO : W (main_c_1 : DevRef τ sig) = (fun i => lit1 (S32.rowMajor i)))
    (hm1 : W (main_c_25 : DevRef τ sig) = constantI S32 1 0#1) (hm2 : W (main_c_26 : DevRef τ sig) = constantI S32 1 0#1)
    (hm3 : W (main_c_27 : DevRef τ sig) = constantI S32 1 0#1) :
    lay6 W (main_v597 : DevRef τ sig)
      = stepZ idxE idxO (W (main_v511 : DevRef τ sig))
          (w32x512 ![6, 0, 0] slices_S8x32x512_S1x32x512_6_0_0 (W (main_arg1 : DevRef τ sig))) (v512 ![6, 0] slices_S8x512_S1x512_6_0 (W (main_arg2 : DevRef τ sig)))
          (w512x512 ![6, 0, 0] slices_S8x512x512_S1x512x512_6_0_0 (W (main_arg3 : DevRef τ sig))) (v512 ![6, 0] slices_S8x512_S1x512_6_0 (W (main_arg4 : DevRef τ sig)))
          (w512x32 ![6, 0, 0] slices_S8x512x32_S1x512x32_6_0_0 (W (main_arg5 : DevRef τ sig))) (v32 ![6, 0] slices_S8x32_S1x32_6_0 (W (main_arg6 : DevRef τ sig)))
          (w32x512 ![6, 0, 0] slices_S8x32x512_S1x32x512_6_0_0 (W (main_arg7 : DevRef τ sig))) (v512 ![6, 0] slices_S8x512_S1x512_6_0 (W (main_arg8 : DevRef τ sig)))
          (w512x512 ![6, 0, 0] slices_S8x512x512_S1x512x512_6_0_0 (W (main_arg9 : DevRef τ sig))) (v512 ![6, 0] slices_S8x512_S1x512_6_0 (W (main_arg10 : DevRef τ sig)))
          (w512x32 ![6, 0, 0] slices_S8x512x32_S1x512x32_6_0_0 (W (main_arg11 : DevRef τ sig))) (v32 ![6, 0] slices_S8x32_S1x32_6_0 (W (main_arg12 : DevRef τ sig)))
          (v32 ![6, 0] slices_S8x32_S1x32_6_0 (W (main_arg13 : DevRef τ sig))) (v32 ![6, 0] slices_S8x32_S1x32_6_0 (W (main_arg14 : DevRef τ sig))) := by
  show after seg18 (after seg17 (after seg16 (W))) _ = _
  after_results_simp
  rw [hE, hO, hm1, hm2, hm3]
  rfl

set_option maxHeartbeats 4000000 in
set_option maxRecDepth 100000 in
/-- The accumulated log-scale buffer after the layer: the layer's log-scale added into the columns `idxE`. -/
theorem lay6_l (W : Valuation τ sig (Elt F))
    (hE : W (main_c : DevRef τ sig) = (fun i => lit0 (S32.rowMajor i)))
    (hO : W (main_c_1 : DevRef τ sig) = (fun i => lit1 (S32.rowMajor i)))
    (hm2 : W (main_c_26 : DevRef τ sig) = constantI S32 1 0#1) (hm4 : W (main_c_28 : DevRef τ sig) = constantI S32 1 0#1) :
    lay6 W (main_v602 : DevRef τ sig)
      = stepL idxE idxO (W (main_v511 : DevRef τ sig)) (W (main_v516 : DevRef τ sig))
          (w32x512 ![6, 0, 0] slices_S8x32x512_S1x32x512_6_0_0 (W (main_arg7 : DevRef τ sig))) (v512 ![6, 0] slices_S8x512_S1x512_6_0 (W (main_arg8 : DevRef τ sig)))
          (w512x512 ![6, 0, 0] slices_S8x512x512_S1x512x512_6_0_0 (W (main_arg9 : DevRef τ sig))) (v512 ![6, 0] slices_S8x512_S1x512_6_0 (W (main_arg10 : DevRef τ sig)))
          (w512x32 ![6, 0, 0] slices_S8x512x32_S1x512x32_6_0_0 (W (main_arg11 : DevRef τ sig))) (v32 ![6, 0] slices_S8x32_S1x32_6_0 (W (main_arg12 : DevRef τ sig)))
          (v32 ![6, 0] slices_S8x32_S1x32_6_0 (W (main_arg13 : DevRef τ sig))) (v32 ![6, 0] slices_S8x32_S1x32_6_0 (W (main_arg14 : DevRef τ sig))) := by
  show after seg18 (after seg17 (after seg16 (W))) _ = _
  after_results_simp
  rw [hE, hO, hm2, hm4]
  rfl

end Cert.RefRun

end
-- ==== Proof.RefRunT7.lean ====
/-
  The reference program's operations, tabulated: @main's straight line cut into consecutive segments (a cut at each
  window of the printed program and at each coupling layer's end), each segment the literal list of its host operations
  in program order, a call of the outlined maximum-with-zero spelt as its three operations over the call's buffers;
  beside each list, the references it writes, in order.
-/
import proofs.«175251_j80573586473693_2_alg».proof.ReferenceIdeal
import Idealize.ShloMosaic.Lib.StableHlo.Run

noncomputable section

namespace Cert.RefRun

open Cert.ReferenceIdeal Idealize.ShloMosaic Idealize.ShloMosaic.TcCoe Idealize.SL.Sem Idealize.ShloMosaic.StableHlo

variable {F : FTy → Type} [FloatOps F] [Facts]

open Facts₀ Facts

/-- Segment 19: 58 operations, from the one writing `main_c_61` to the one writing `main_v654`. -/
abbrev seg19 : List (HloOp τ sig (Elt F)) :=
  [ StableHlo.nullary main_c_61 (constantI S_ 32 64#32),
    StableHlo.unary main_c_61 main_v603 (broadcastInDim S32 ![] bcast_S_S32 : (⟨S_, .i32⟩ : BufTy).Contents (Elt F) → (⟨S32, .i32⟩ : BufTy).Contents (Elt F)),
    StableHlo.binary main_c_1 main_v603 main_v604 (addi : (⟨S32, .i32⟩ : BufTy).Contents (Elt F) → (⟨S32, .i32⟩ : BufTy).Contents (Elt F) → (⟨S32, .i32⟩ : BufTy).Contents (Elt F)),
    StableHlo.ternary main_c_29 main_v604 main_c_1 main_v605 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.unary main_v605 main_v606 (broadcastInDim S32x1 ![0] bcast_S32_S32x1_0 : (⟨S32, .i32⟩ : BufTy).Contents (Elt F) → (⟨S32x1, .i32⟩ : BufTy).Contents (Elt F)),
    StableHlo.binary main_v597 main_v606 main_v607 ((fun x i => Host.gather gather_S16384x64_S32x1_S16384x32_0_1_n_n_1_1_163841 x i) : (⟨S16384x64, .f32⟩ : BufTy).Contents (Elt F) → (⟨S32x1, .i32⟩ : BufTy).Contents (Elt F) → (⟨S16384x32, .f32⟩ : BufTy).Contents (Elt F)),
    StableHlo.nullary main_c_62 (constantI S_ 32 64#32),
    StableHlo.unary main_c_62 main_v608 (broadcastInDim S32 ![] bcast_S_S32 : (⟨S_, .i32⟩ : BufTy).Contents (Elt F) → (⟨S32, .i32⟩ : BufTy).Contents (Elt F)),
    StableHlo.binary main_c main_v608 main_v609 (addi : (⟨S32, .i32⟩ : BufTy).Contents (Elt F) → (⟨S32, .i32⟩ : BufTy).Contents (Elt F) → (⟨S32, .i32⟩ : BufTy).Contents (Elt F)),
    StableHlo.ternary main_c_30 main_v609 main_c main_v610 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.unary main_v610 main_v611 (broadcastInDim S32x1 ![0] bcast_S32_S32x1_0 : (⟨S32, .i32⟩ : BufTy).Contents (Elt F) → (⟨S32x1, .i32⟩ : BufTy).Contents (Elt F)),
    StableHlo.binary main_v597 main_v611 main_v612 ((fun x i => Host.gather gather_S16384x64_S32x1_S16384x32_0_1_n_n_1_1_163841 x i) : (⟨S16384x64, .f32⟩ : BufTy).Contents (Elt F) → (⟨S32x1, .i32⟩ : BufTy).Contents (Elt F) → (⟨S16384x32, .f32⟩ : BufTy).Contents (Elt F)),
    StableHlo.unary main_arg1 main_v613 ((extractStridedSlice S1x32x512 ![7, 0, 0] · slices_S8x32x512_S1x32x512_7_0_0) : (⟨S8x32x512, .f32⟩ : BufTy).Contents (Elt F) → (⟨S1x32x512, .f32⟩ : BufTy).Contents (Elt F)),
    StableHlo.reshape main_v613 main_v614 rfl shapeCasts_S1x32x512_S32x512,
    StableHlo.unary main_arg2 main_v615 ((extractStridedSlice S1x512 ![7, 0] · slices_S8x512_S1x512_7_0) : (⟨S8x512, .f32⟩ : BufTy).Contents (Elt F) → (⟨S1x512, .f32⟩ : BufTy).Contents (Elt F)),
    StableHlo.reshape main_v615 main_v616 rfl shapeCasts_S1x512_S512,
    StableHlo.unary main_arg3 main_v617 ((extractStridedSlice S1x512x512 ![7, 0, 0] · slices_S8x512x512_S1x512x512_7_0_0) : (⟨S8x512x512, .f32⟩ : BufTy).Contents (Elt F) → (⟨S1x512x512, .f32⟩ : BufTy).Contents (Elt F)),
    StableHlo.reshape main_v617 main_v618 rfl shapeCasts_S1x512x512_S512x512,
    StableHlo.unary main_arg4 main_v619 ((extractStridedSlice S1x512 ![7, 0] · slices_S8x512_S1x512_7_0) : (⟨S8x512, .f32⟩ : BufTy).Contents (Elt F) → (⟨S1x512, .f32⟩ : BufTy).Contents (Elt F)),
    StableHlo.reshape main_v619 main_v620 rfl shapeCasts_S1x512_S512,
    StableHlo.unary main_arg5 main_v621 ((extractStridedSlice S1x512x32 ![7, 0, 0] · slices_S8x512x32_S1x512x32_7_0_0) : (⟨S8x512x32, .f32⟩ : BufTy).Contents (Elt F) → (⟨S1x512x32, .f32⟩ : BufTy).Contents (Elt F)),
    StableHlo.reshape main_v621 main_v622 rfl shapeCasts_S1x512x32_S512x32,
    StableHlo.unary main_arg6 main_v623 ((extractStridedSlice S1x32 ![7, 0] · slices_S8x32_S1x32_7_0) : (⟨S8x32, .f32⟩ : BufTy).Contents (Elt F) → (⟨S1x32, .f32⟩ : BufTy).Contents (Elt F)),
    StableHlo.reshape main_v623 main_v624 rfl shapeCasts_S1x32_S32,
    StableHlo.binary main_v612 main_v614 main_v625 ((fun l r => Host.dotGeneral dot_S16384x32_S32x512_S16384x512_1_0_0_1_n_n none l r) : (⟨S16384x32, .f32⟩ : BufTy).Contents (Elt F) → (⟨S32x512, .f32⟩ : BufTy).Contents (Elt F) → (⟨S16384x512, .f32⟩ : BufTy).Contents (Elt F)),
    StableHlo.unary main_v616 main_v626 (broadcastInDim S1x512 ![1] bcast_S512_S1x512_1 : (⟨S512, .f32⟩ : BufTy).Contents (Elt F) → (⟨S1x512, .f32⟩ : BufTy).Contents (Elt F)),
    StableHlo.unary main_v626 main_v627 (broadcastInDim S16384x512 ![0, 1] bcast_S1x512_S16384x512_0_1 : (⟨S1x512, .f32⟩ : BufTy).Contents (Elt F) → (⟨S16384x512, .f32⟩ : BufTy).Contents (Elt F)),
    StableHlo.binary main_v625 main_v627 main_v628 (addf : (⟨S16384x512, .f32⟩ : BufTy).Contents (Elt F) → (⟨S16384x512, .f32⟩ : BufTy).Contents (Elt F) → (⟨S16384x512, .f32⟩ : BufTy).Contents (Elt F)),
    StableHlo.TRef.nullary main_call28.cst (constant S_ .f32 0x00000000#32),
    StableHlo.TRef.unary main_call28.cst main_call28.v0 (broadcastInDim S16384x512 ![] bcast_S_S16384x512),
    StableHlo.TRef.binary (.of main_v628) main_call28.v0 main_call28.v1 maximumf,
    StableHlo.binary main_v629 main_v618 main_v630 ((fun l r => Host.dotGeneral dot_S16384x512_S512x512_S16384x512_1_0_0_1_n_n none l r) : (⟨S16384x512, .f32⟩ : BufTy).Contents (Elt F) → (⟨S512x512, .f32⟩ : BufTy).Contents (Elt F) → (⟨S16384x512, .f32⟩ : BufTy).Contents (Elt F)),
    StableHlo.unary main_v620 main_v631 (broadcastInDim S1x512 ![1] bcast_S512_S1x512_1 : (⟨S512, .f32⟩ : BufTy).Contents (Elt F) → (⟨S1x512, .f32⟩ : BufTy).Contents (Elt F)),
    StableHlo.unary main_v631 main_v632 (broadcastInDim S16384x512 ![0, 1] bcast_S1x512_S16384x512_0_1 : (⟨S1x512, .f32⟩ : BufTy).Contents (Elt F) → (⟨S16384x512, .f32⟩ : BufTy).Contents (Elt F)),
    StableHlo.binary main_v630 main_v632 main_v633 (addf : (⟨S16384x512, .f32⟩ : BufTy).Contents (Elt F) → (⟨S16384x512, .f32⟩ : BufTy).Contents (Elt F) → (⟨S16384x512, .f32⟩ : BufTy).Contents (Elt F)),
    StableHlo.TRef.nullary main_call29.cst (constant S_ .f32 0x00000000#32),
    StableHlo.TRef.unary main_call29.cst main_call29.v0 (broadcastInDim S16384x512 ![] bcast_S_S16384x512),
    StableHlo.TRef.binary (.of main_v633) main_call29.v0 main_call29.v1 maximumf,
    StableHlo.binary main_v634 main_v622 main_v635 ((fun l r => Host.dotGeneral dot_S16384x512_S512x32_S16384x32_1_0_0_1_n_n none l r) : (⟨S16384x512, .f32⟩ : BufTy).Contents (Elt F) → (⟨S512x32, .f32⟩ : BufTy).Contents (Elt F) → (⟨S16384x32, .f32⟩ : BufTy).Contents (Elt F)),
    StableHlo.unary main_v624 main_v636 (broadcastInDim S1x32 ![1] bcast_S32_S1x32_1 : (⟨S32, .f32⟩ : BufTy).Contents (Elt F) → (⟨S1x32, .f32⟩ : BufTy).Contents (Elt F)),
    StableHlo.unary main_v636 main_v637 (broadcastInDim S16384x32 ![0, 1] bcast_S1x32_S16384x32_0_1 : (⟨S1x32, .f32⟩ : BufTy).Contents (Elt F) → (⟨S16384x32, .f32⟩ : BufTy).Contents (Elt F)),
    StableHlo.binary main_v635 main_v637 main_v638 (addf : (⟨S16384x32, .f32⟩ : BufTy).Contents (Elt F) → (⟨S16384x32, .f32⟩ : BufTy).Contents (Elt F) → (⟨S16384x32, .f32⟩ : BufTy).Contents (Elt F)),
    StableHlo.unary main_arg7 main_v639 ((extractStridedSlice S1x32x512 ![7, 0, 0] · slices_S8x32x512_S1x32x512_7_0_0) : (⟨S8x32x512, .f32⟩ : BufTy).Contents (Elt F) → (⟨S1x32x512, .f32⟩ : BufTy).Contents (Elt F)),
    StableHlo.reshape main_v639 main_v640 rfl shapeCasts_S1x32x512_S32x512,
    StableHlo.unary main_arg8 main_v641 ((extractStridedSlice S1x512 ![7, 0] · slices_S8x512_S1x512_7_0) : (⟨S8x512, .f32⟩ : BufTy).Contents (Elt F) → (⟨S1x512, .f32⟩ : BufTy).Contents (Elt F)),
    StableHlo.reshape main_v641 main_v642 rfl shapeCasts_S1x512_S512,
    StableHlo.unary main_arg9 main_v643 ((extractStridedSlice S1x512x512 ![7, 0, 0] · slices_S8x512x512_S1x512x512_7_0_0) : (⟨S8x512x512, .f32⟩ : BufTy).Contents (Elt F) → (⟨S1x512x512, .f32⟩ : BufTy).Contents (Elt F)),
    StableHlo.reshape main_v643 main_v644 rfl shapeCasts_S1x512x512_S512x512,
    StableHlo.unary main_arg10 main_v645 ((extractStridedSlice S1x512 ![7, 0] · slices_S8x512_S1x512_7_0) : (⟨S8x512, .f32⟩ : BufTy).Contents (Elt F) → (⟨S1x512, .f32⟩ : BufTy).Contents (Elt F)),
    StableHlo.reshape main_v645 main_v646 rfl shapeCasts_S1x512_S512,
    StableHlo.unary main_arg11 main_v647 ((extractStridedSlice S1x512x32 ![7, 0, 0] · slices_S8x512x32_S1x512x32_7_0_0) : (⟨S8x512x32, .f32⟩ : BufTy).Contents (Elt F) → (⟨S1x512x32, .f32⟩ : BufTy).Contents (Elt F)),
    StableHlo.reshape main_v647 main_v648 rfl shapeCasts_S1x512x32_S512x32,
    StableHlo.unary main_arg12 main_v649 ((extractStridedSlice S1x32 ![7, 0] · slices_S8x32_S1x32_7_0) : (⟨S8x32, .f32⟩ : BufTy).Contents (Elt F) → (⟨S1x32, .f32⟩ : BufTy).Contents (Elt F)),
    StableHlo.reshape main_v649 main_v650 rfl shapeCasts_S1x32_S32,
    StableHlo.binary main_v612 main_v640 main_v651 ((fun l r => Host.dotGeneral dot_S16384x32_S32x512_S16384x512_1_0_0_1_n_n none l r) : (⟨S16384x32, .f32⟩ : BufTy).Contents (Elt F) → (⟨S32x512, .f32⟩ : BufTy).Contents (Elt F) → (⟨S16384x512, .f32⟩ : BufTy).Contents (Elt F)),
    StableHlo.unary main_v642 main_v652 (broadcastInDim S1x512 ![1] bcast_S512_S1x512_1 : (⟨S512, .f32⟩ : BufTy).Contents (Elt F) → (⟨S1x512, .f32⟩ : BufTy).Contents (Elt F)),
    StableHlo.unary main_v652 main_v653 (broadcastInDim S16384x512 ![0, 1] bcast_S1x512_S16384x512_0_1 : (⟨S1x512, .f32⟩ : BufTy).Contents (Elt F) → (⟨S16384x512, .f32⟩ : BufTy).Contents (Elt F)),
    StableHlo.binary main_v651 main_v653 main_v654 (addf : (⟨S16384x512, .f32⟩ : BufTy).Contents (Elt F) → (⟨S16384x512, .f32⟩ : BufTy).Contents (Elt F) → (⟨S16384x512, .f32⟩ : BufTy).Contents (Elt F)) ]

/-- What segment 19 writes, in order. -/
abbrev seg19_w : List (Ref sig .tc) :=
  [main_c_61, main_v603, main_v604, main_v605, main_v606, main_v607, main_c_62, main_v608, main_v609, main_v610, main_v611, main_v612, main_v613, main_v614, main_v615, main_v616, main_v617, main_v618, main_v619, main_v620, main_v621, main_v622, main_v623, main_v624, main_v625, main_v626, main_v627, main_v628, main_call28_cst, main_call28_v0, main_v629, main_v630, main_v631, main_v632, main_v633, main_call29_cst, main_call29_v0, main_v634, main_v635, main_v636, main_v637, main_v638, main_v639, main_v640, main_v641, main_v642, main_v643, main_v644, main_v645, main_v646, main_v647, main_v648, main_v649, main_v650, main_v651, main_v652, main_v653, main_v654]

theorem seg19_sub : (seg19 : List (HloOp τ sig (Elt F))).Forall fun op => op.bufs ⊆ tcRefs τ sig :=
  ⟨nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., binary_bufs_sub .., unary_bufs_sub .., unary_bufs_sub .., binary_bufs_sub ..⟩

/-- Segment 20: 40 operations, from the one writing `main_call30_cst` to the one writing `main_v688`. -/
abbrev seg20 : List (HloOp τ sig (Elt F)) :=
  [ StableHlo.TRef.nullary main_call30.cst (constant S_ .f32 0x00000000#32),
    StableHlo.TRef.unary main_call30.cst main_call30.v0 (broadcastInDim S16384x512 ![] bcast_S_S16384x512),
    StableHlo.TRef.binary (.of main_v654) main_call30.v0 main_call30.v1 maximumf,
    StableHlo.binary main_v655 main_v644 main_v656 ((fun l r => Host.dotGeneral dot_S16384x512_S512x512_S16384x512_1_0_0_1_n_n none l r) : (⟨S16384x512, .f32⟩ : BufTy).Contents (Elt F) → (⟨S512x512, .f32⟩ : BufTy).Contents (Elt F) → (⟨S16384x512, .f32⟩ : BufTy).Contents (Elt F)),
    StableHlo.unary main_v646 main_v657 (broadcastInDim S1x512 ![1] bcast_S512_S1x512_1 : (⟨S512, .f32⟩ : BufTy).Contents (Elt F) → (⟨S1x512, .f32⟩ : BufTy).Contents (Elt F)),
    StableHlo.unary main_v657 main_v658 (broadcastInDim S16384x512 ![0, 1] bcast_S1x512_S16384x512_0_1 : (⟨S1x512, .f32⟩ : BufTy).Contents (Elt F) → (⟨S16384x512, .f32⟩ : BufTy).Contents (Elt F)),
    StableHlo.binary main_v656 main_v658 main_v659 (addf : (⟨S16384x512, .f32⟩ : BufTy).Contents (Elt F) → (⟨S16384x512, .f32⟩ : BufTy).Contents (Elt F) → (⟨S16384x512, .f32⟩ : BufTy).Contents (Elt F)),
    StableHlo.TRef.nullary main_call31.cst (constant S_ .f32 0x00000000#32),
    StableHlo.TRef.unary main_call31.cst main_call31.v0 (broadcastInDim S16384x512 ![] bcast_S_S16384x512),
    StableHlo.TRef.binary (.of main_v659) main_call31.v0 main_call31.v1 maximumf,
    StableHlo.binary main_v660 main_v648 main_v661 ((fun l r => Host.dotGeneral dot_S16384x512_S512x32_S16384x32_1_0_0_1_n_n none l r) : (⟨S16384x512, .f32⟩ : BufTy).Contents (Elt F) → (⟨S512x32, .f32⟩ : BufTy).Contents (Elt F) → (⟨S16384x32, .f32⟩ : BufTy).Contents (Elt F)),
    StableHlo.unary main_v650 main_v662 (broadcastInDim S1x32 ![1] bcast_S32_S1x32_1 : (⟨S32, .f32⟩ : BufTy).Contents (Elt F) → (⟨S1x32, .f32⟩ : BufTy).Contents (Elt F)),
    StableHlo.unary main_v662 main_v663 (broadcastInDim S16384x32 ![0, 1] bcast_S1x32_S16384x32_0_1 : (⟨S1x32, .f32⟩ : BufTy).Contents (Elt F) → (⟨S16384x32, .f32⟩ : BufTy).Contents (Elt F)),
    StableHlo.binary main_v661 main_v663 main_v664 (addf : (⟨S16384x32, .f32⟩ : BufTy).Contents (Elt F) → (⟨S16384x32, .f32⟩ : BufTy).Contents (Elt F) → (⟨S16384x32, .f32⟩ : BufTy).Contents (Elt F)),
    StableHlo.unary main_v664 main_v665 (Host.tanh : (⟨S16384x32, .f32⟩ : BufTy).Contents (Elt F) → (⟨S16384x32, .f32⟩ : BufTy).Contents (Elt F)),
    StableHlo.unary main_arg13 main_v666 ((extractStridedSlice S1x32 ![7, 0] · slices_S8x32_S1x32_7_0) : (⟨S8x32, .f32⟩ : BufTy).Contents (Elt F) → (⟨S1x32, .f32⟩ : BufTy).Contents (Elt F)),
    StableHlo.reshape main_v666 main_v667 rfl shapeCasts_S1x32_S32,
    StableHlo.unary main_v667 main_v668 (broadcastInDim S1x32 ![1] bcast_S32_S1x32_1 : (⟨S32, .f32⟩ : BufTy).Contents (Elt F) → (⟨S1x32, .f32⟩ : BufTy).Contents (Elt F)),
    StableHlo.unary main_v668 main_v669 (broadcastInDim S16384x32 ![0, 1] bcast_S1x32_S16384x32_0_1 : (⟨S1x32, .f32⟩ : BufTy).Contents (Elt F) → (⟨S16384x32, .f32⟩ : BufTy).Contents (Elt F)),
    StableHlo.binary main_v665 main_v669 main_v670 (mulf : (⟨S16384x32, .f32⟩ : BufTy).Contents (Elt F) → (⟨S16384x32, .f32⟩ : BufTy).Contents (Elt F) → (⟨S16384x32, .f32⟩ : BufTy).Contents (Elt F)),
    StableHlo.unary main_arg14 main_v671 ((extractStridedSlice S1x32 ![7, 0] · slices_S8x32_S1x32_7_0) : (⟨S8x32, .f32⟩ : BufTy).Contents (Elt F) → (⟨S1x32, .f32⟩ : BufTy).Contents (Elt F)),
    StableHlo.reshape main_v671 main_v672 rfl shapeCasts_S1x32_S32,
    StableHlo.unary main_v672 main_v673 (broadcastInDim S1x32 ![1] bcast_S32_S1x32_1 : (⟨S32, .f32⟩ : BufTy).Contents (Elt F) → (⟨S1x32, .f32⟩ : BufTy).Contents (Elt F)),
    StableHlo.unary main_v673 main_v674 (broadcastInDim S16384x32 ![0, 1] bcast_S1x32_S16384x32_0_1 : (⟨S1x32, .f32⟩ : BufTy).Contents (Elt F) → (⟨S16384x32, .f32⟩ : BufTy).Contents (Elt F)),
    StableHlo.binary main_v670 main_v674 main_v675 (addf : (⟨S16384x32, .f32⟩ : BufTy).Contents (Elt F) → (⟨S16384x32, .f32⟩ : BufTy).Contents (Elt F) → (⟨S16384x32, .f32⟩ : BufTy).Contents (Elt F)),
    StableHlo.unary main_v675 main_v676 (Host.exp : (⟨S16384x32, .f32⟩ : BufTy).Contents (Elt F) → (⟨S16384x32, .f32⟩ : BufTy).Contents (Elt F)),
    StableHlo.binary main_v607 main_v676 main_v677 (mulf : (⟨S16384x32, .f32⟩ : BufTy).Contents (Elt F) → (⟨S16384x32, .f32⟩ : BufTy).Contents (Elt F) → (⟨S16384x32, .f32⟩ : BufTy).Contents (Elt F)),
    StableHlo.binary main_v677 main_v638 main_v678 (addf : (⟨S16384x32, .f32⟩ : BufTy).Contents (Elt F) → (⟨S16384x32, .f32⟩ : BufTy).Contents (Elt F) → (⟨S16384x32, .f32⟩ : BufTy).Contents (Elt F)),
    StableHlo.nullary main_c_63 (constantI S_ 32 64#32),
    StableHlo.unary main_c_63 main_v679 (broadcastInDim S32 ![] bcast_S_S32 : (⟨S_, .i32⟩ : BufTy).Contents (Elt F) → (⟨S32, .i32⟩ : BufTy).Contents (Elt F)),
    StableHlo.binary main_c_1 main_v679 main_v680 (addi : (⟨S32, .i32⟩ : BufTy).Contents (Elt F) → (⟨S32, .i32⟩ : BufTy).Contents (Elt F) → (⟨S32, .i32⟩ : BufTy).Contents (Elt F)),
    StableHlo.ternary main_c_31 main_v680 main_c_1 main_v681 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.unary main_v681 main_v682 (broadcastInDim S32x1 ![0] bcast_S32_S32x1_0 : (⟨S32, .i32⟩ : BufTy).Contents (Elt F) → (⟨S32x1, .i32⟩ : BufTy).Contents (Elt F)),
    StableHlo.ternary main_v597 main_v682 main_v678 main_v683 ((fun x i u => Host.scatter scatter_S16384x64_S32x1_S16384x32_0_1_1_1 (fun _ b => b) x i u) : (⟨S16384x64, .f32⟩ : BufTy).Contents (Elt F) → (⟨S32x1, .i32⟩ : BufTy).Contents (Elt F) → (⟨S16384x32, .f32⟩ : BufTy).Contents (Elt F) → (⟨S16384x64, .f32⟩ : BufTy).Contents (Elt F)),
    StableHlo.nullary main_c_64 (constantI S_ 32 64#32),
    StableHlo.unary main_c_64 main_v684 (broadcastInDim S32 ![] bcast_S_S32 : (⟨S_, .i32⟩ : BufTy).Contents (Elt F) → (⟨S32, .i32⟩ : BufTy).Contents (Elt F)),
    StableHlo.binary main_c_1 main_v684 main_v685 (addi : (⟨S32, .i32⟩ : BufTy).Contents (Elt F) → (⟨S32, .i32⟩ : BufTy).Contents (Elt F) → (⟨S32, .i32⟩ : BufTy).Contents (Elt F)),
    StableHlo.ternary main_c_32 main_v685 main_c_1 main_v686 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.unary main_v686 main_v687 (broadcastInDim S32x1 ![0] bcast_S32_S32x1_0 : (⟨S32, .i32⟩ : BufTy).Contents (Elt F) → (⟨S32x1, .i32⟩ : BufTy).Contents (Elt F)),
    StableHlo.ternary main_v602 main_v687 main_v675 main_v688 ((fun x i u => Host.scatterAdd scatter_S16384x64_S32x1_S16384x32_0_1_1_1 x i u) : (⟨S16384x64, .f32⟩ : BufTy).Contents (Elt F) → (⟨S32x1, .i32⟩ : BufTy).Contents (Elt F) → (⟨S16384x32, .f32⟩ : BufTy).Contents (Elt F) → (⟨S16384x64, .f32⟩ : BufTy).Contents (Elt F)) ]

/-- What segment 20 writes, in order. -/
abbrev seg20_w : List (Ref sig .tc) :=
  [main_call30_cst, main_call30_v0, main_v655, main_v656, main_v657, main_v658, main_v659, main_call31_cst, main_call31_v0, main_v660, main_v661, main_v662, main_v663, main_v664, main_v665, main_v666, main_v667, main_v668, main_v669, main_v670, main_v671, main_v672, main_v673, main_v674, main_v675, main_v676, main_v677, main_v678, main_c_63, main_v679, main_v680, main_v681, main_v682, main_v683, main_c_64, main_v684, main_v685, main_v686, main_v687, main_v688]

theorem seg20_sub : (seg20 : List (HloOp τ sig (Elt F))).Forall fun op => op.bufs ⊆ tcRefs τ sig :=
  ⟨nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., unary_bufs_sub .., reshape_bufs_sub .., unary_bufs_sub .., unary_bufs_sub .., binary_bufs_sub .., unary_bufs_sub .., reshape_bufs_sub .., unary_bufs_sub .., unary_bufs_sub .., binary_bufs_sub .., unary_bufs_sub .., binary_bufs_sub .., binary_bufs_sub .., nullary_bufs_sub .., unary_bufs_sub .., binary_bufs_sub .., ternary_bufs_sub .., unary_bufs_sub .., ternary_bufs_sub .., nullary_bufs_sub .., unary_bufs_sub .., binary_bufs_sub .., ternary_bufs_sub .., unary_bufs_sub .., ternary_bufs_sub ..⟩

end Cert.RefRun

end
-- ==== Proof.RefRunL7.lean ====
/-
  Coupling layer 7 of the reference program as a fold of its ninety-eight operations: from any valuation holding the
  two index tables and the all-false masks at their constants' buffers, the layer leaves at its two result buffers one
  step of the coupling (`Cert.RefDefs.stepZ`, `Cert.RefDefs.stepL`) of the contents of its two input buffers and of this
  layer's slices of the stacked parameters; and it writes none of the arguments, tables or masks.
-/
import proofs.«175251_j80573586473693_2_alg».proof.Proof.RefRunT7
import proofs.«175251_j80573586473693_2_alg».proof.Proof.RefRunLib
import proofs.«175251_j80573586473693_2_alg».proof.Proof.RefDefs

noncomputable section

namespace Cert.RefRun

open Cert.ReferenceIdeal Cert.RefDefs Idealize.ShloMosaic Idealize.ShloMosaic.TcCoe Idealize.SL.Sem Idealize.ShloMosaic.StableHlo

variable {F : FTy → Type} [FloatOps F] [Facts]

open Facts₀ Facts

/-! ## What the segments write -/

/-- Segment 19's operations write, one each and in order, the listed references, and determine what they write: each
    builder's written set is the singleton of its result by definition. -/
theorem seg19_writes : Writes (seg19 : List (HloOp τ sig (Elt F))) seg19_w := by
  repeat (first | exact List.Forall₂.nil | refine List.Forall₂.cons ⟨rfl, rfl⟩ ?_)

/-- None of them is an argument, a table or a mask. -/
theorem seg19_keeps : ∀ r ∈ keepList, r ∉ seg19_w := by decide

/-- Segment 20's operations write, one each and in order, the listed references, and determine what they write: each
    builder's written set is the singleton of its result by definition. -/
theorem seg20_writes : Writes (seg20 : List (HloOp τ sig (Elt F))) seg20_w := by
  repeat (first | exact List.Forall₂.nil | refine List.Forall₂.cons ⟨rfl, rfl⟩ ?_)

/-- None of them is an argument, a table or a mask. -/
theorem seg20_keeps : ∀ r ∈ keepList, r ∉ seg20_w := by decide

/-! ## The layer -/

/-- The valuation after the layer's operations. -/
abbrev lay7 (W : Valuation τ sig (Elt F)) : Valuation τ sig (Elt F) := after seg20 (after seg19 (W))

/-- The layer keeps the arguments, tables and masks. -/
theorem lay7_keeps {W V₁ : Valuation τ sig (Elt F)} (h : Keeps W V₁) : Keeps (lay7 W) V₁ :=
  keeps_step seg20_writes seg20_keeps (keeps_step seg19_writes seg19_keeps (h))

-- ninety-eight results composed: the term is deep
set_option maxHeartbeats 4000000 in
set_option maxRecDepth 100000 in
/-- The z buffer after the layer: the fold's value there, each operation's result read at its own buffer, is the
    scatter of `z₀ · exp s + t` into the columns `idxO` — once the tables and masks are put for the constants' buffers,
    the two sides are the same composition of host operations (the calls' buffers and the reshapes' carry their types
    by computation). -/
theorem lay7_z (W : Valuation τ sig (Elt F))
    (hE : W (main_c : DevRef τ sig) = (fun i => lit0 (S32.rowMajor i)))
    (hO : W (main_c_1 : DevRef τ sig) = (fun i => lit1 (S32.rowMajor i)))
    (hm1 : W (main_c_29 : DevRef τ sig) = constantI S32 1 0#1) (hm2 : W (main_c_30 : DevRef τ sig) = constantI S32 1 0#1)
    (hm3 : W (main_c_31 : DevRef τ sig) = constantI S32 1 0#1) :
    lay7 W (main_v683 : DevRef τ sig)
      = stepZ idxO idxE (W (main_v597 : DevRef τ sig))
          (w32x512 ![7, 0, 0] slices_S8x32x512_S1x32x512_7_0_0 (W (main_arg1 : DevRef τ sig))) (v512 ![7, 0] slices_S8x512_S1x512_7_0 (W (main_arg2 : DevRef τ sig)))
          (w512x512 ![7, 0, 0] slices_S8x512x512_S1x512x512_7_0_0 (W (main_arg3 : DevRef τ sig))) (v512 ![7, 0] slices_S8x512_S1x512_7_0 (W (main_arg4 : DevRef τ sig)))
          (w512x32 ![7, 0, 0] slices_S8x512x32_S1x512x32_7_0_0 (W (main_arg5 : DevRef τ sig))) (v32 ![7, 0] slices_S8x32_S1x32_7_0 (W (main_arg6 : DevRef τ sig)))
          (w32x512 ![7, 0, 0] slices_S8x32x512_S1x32x512_7_0_0 (W (main_arg7 : DevRef τ sig))) (v512 ![7, 0] slices_S8x512_S1x512_7_0 (W (main_arg8 : DevRef τ sig)))
          (w512x512 ![7, 0, 0] slices_S8x512x512_S1x512x512_7_0_0 (W (main_arg9 : DevRef τ sig))) (v512 ![7, 0] slices_S8x512_S1x512_7_0 (W (main_arg10 : DevRef τ sig)))
          (w512x32 ![7, 0, 0] slices_S8x512x32_S1x512x32_7_0_0 (W (main_arg11 : DevRef τ sig))) (v32 ![7, 0] slices_S8x32_S1x32_7_0 (W (main_arg12 : DevRef τ sig)))
          (v32 ![7, 0] slices_S8x32_S1x32_7_0 (W (main_arg13 : DevRef τ sig))) (v32 ![7, 0] slices_S8x32_S1x32_7_0 (W (main_arg14 : DevRef τ sig))) := by
  show after seg20 (after seg19 (W)) _ = _
  after_results_simp
  rw [hE, hO, hm1, hm2, hm3]
  rfl

set_option maxHeartbeats 4000000 in
set_option maxRecDepth 100000 in
/-- The accumulated log-scale buffer after the layer: the layer's log-scale added into the columns `idxO`. -/
theorem lay7_l (W : Valuation τ sig (Elt F))
    (hE : W (main_c : DevRef τ sig) = (fun i => lit0 (S32.rowMajor i)))
    (hO : W (main_c_1 : DevRef τ sig) = (fun i => lit1 (S32.rowMajor i)))
    (hm2 : W (main_c_30 : DevRef τ sig) = constantI S32 1 0#1) (hm4 : W (main_c_32 : DevRef τ sig) = constantI S32 1 0#1) :
    lay7 W (main_v688 : DevRef τ sig)
      = stepL idxO idxE (W (main_v597 : DevRef τ sig)) (W (main_v602 : DevRef τ sig))
          (w32x512 ![7, 0, 0] slices_S8x32x512_S1x32x512_7_0_0 (W (main_arg7 : DevRef τ sig))) (v512 ![7, 0] slices_S8x512_S1x512_7_0 (W (main_arg8 : DevRef τ sig)))
          (w512x512 ![7, 0, 0] slices_S8x512x512_S1x512x512_7_0_0 (W (main_arg9 : DevRef τ sig))) (v512 ![7, 0] slices_S8x512_S1x512_7_0 (W (main_arg10 : DevRef τ sig)))
          (w512x32 ![7, 0, 0] slices_S8x512x32_S1x512x32_7_0_0 (W (main_arg11 : DevRef τ sig))) (v32 ![7, 0] slices_S8x32_S1x32_7_0 (W (main_arg12 : DevRef τ sig)))
          (v32 ![7, 0] slices_S8x32_S1x32_7_0 (W (main_arg13 : DevRef τ sig))) (v32 ![7, 0] slices_S8x32_S1x32_7_0 (W (main_arg14 : DevRef τ sig))) := by
  show after seg20 (after seg19 (W)) _ = _
  after_results_simp
  rw [hE, hO, hm2, hm4]
  rfl

end Cert.RefRun

end
-- ==== Proof.RefRunMain.lean ====
/-
  The reference program's @main is the straight line of its 820 host operations: each of its thirteen windows is the
  line of that window's segments (both sides are the same chain of steps, the outlined function's body opened at its
  calls), and the windows in order are the line of all the segments in order.
-/
import proofs.«175251_j80573586473693_2_alg».proof.Proof.RefRunT0
import proofs.«175251_j80573586473693_2_alg».proof.Proof.RefRunT1
import proofs.«175251_j80573586473693_2_alg».proof.Proof.RefRunT2
import proofs.«175251_j80573586473693_2_alg».proof.Proof.RefRunT3
import proofs.«175251_j80573586473693_2_alg».proof.Proof.RefRunT4
import proofs.«175251_j80573586473693_2_alg».proof.Proof.RefRunT5
import proofs.«175251_j80573586473693_2_alg».proof.Proof.RefRunT6
import proofs.«175251_j80573586473693_2_alg».proof.Proof.RefRunT7
import proofs.«175251_j80573586473693_2_alg».proof.Proof.RefRunLib

noncomputable section

namespace Cert.RefRun

open Cert.ReferenceIdeal Idealize.ShloMosaic Idealize.ShloMosaic.TcCoe Idealize.SL.Sem Idealize.ShloMosaic.StableHlo

variable {F : FTy → Type} [FloatOps F] [Facts]

open Facts₀ Facts

/-- @main's 820 operations, in order: the segments one after the other. -/
abbrev ops : List (HloOp τ sig (Elt F)) :=
  seg0 ++ (seg1 ++ (seg2 ++ (seg3 ++ (seg4 ++ (seg5 ++ (seg6 ++ (seg7 ++ (seg8 ++ (seg9 ++ (seg10 ++ (seg11 ++ (seg12 ++ (seg13 ++ (seg14 ++ (seg15 ++ (seg16 ++ (seg17 ++ (seg18 ++ (seg19 ++ (seg20))))))))))))))))))))

/-! ## The windows

Sequencing in the program monad computes: a window's chain of steps, with the calls' bodies opened, and the chain the
segments' lists unfold to are the same term up to that computation. -/

set_option maxRecDepth 100000 in
theorem part0_eq (d : Dev nD) : main_part0 (F := F) d = (seq seg0 >>= fun _ => seq seg1) := rfl

set_option maxRecDepth 100000 in
theorem part1_eq (d : Dev nD) : main_part1 (F := F) d = (seq seg2) := rfl

set_option maxRecDepth 100000 in
theorem part2_eq (d : Dev nD) : main_part2 (F := F) d = (seq seg3 >>= fun _ => seq seg4) := rfl

set_option maxRecDepth 100000 in
theorem part3_eq (d : Dev nD) : main_part3 (F := F) d = (seq seg5 >>= fun _ => seq seg6) := rfl

set_option maxRecDepth 100000 in
theorem part4_eq (d : Dev nD) : main_part4 (F := F) d = (seq seg7) := rfl

set_option maxRecDepth 100000 in
theorem part5_eq (d : Dev nD) : main_part5 (F := F) d = (seq seg8 >>= fun _ => seq seg9) := rfl

set_option maxRecDepth 100000 in
theorem part6_eq (d : Dev nD) : main_part6 (F := F) d = (seq seg10 >>= fun _ => seq seg11) := rfl

set_option maxRecDepth 100000 in
theorem part7_eq (d : Dev nD) : main_part7 (F := F) d = (seq seg12) := rfl

set_option maxRecDepth 100000 in
theorem part8_eq (d : Dev nD) : main_part8 (F := F) d = (seq seg13 >>= fun _ => seq seg14) := rfl

set_option maxRecDepth 100000 in
theorem part9_eq (d : Dev nD) : main_part9 (F := F) d = (seq seg15 >>= fun _ => seq seg16) := rfl

set_option maxRecDepth 100000 in
theorem part10_eq (d : Dev nD) : main_part10 (F := F) d = (seq seg17) := rfl

set_option maxRecDepth 100000 in
theorem part11_eq (d : Dev nD) : main_part11 (F := F) d = (seq seg18 >>= fun _ => seq seg19) := rfl

set_option maxRecDepth 100000 in
theorem part12_eq (d : Dev nD) : main_part12 (F := F) d = (seq seg20) := rfl

/-- @main is the straight line of all its operations: its windows in order, each the line of its segments, and a line
    of concatenated lists is the lines run one after the other (`seq_append`), sequencing being associative. -/
theorem main_eq (c : Dev nD) : main (F := F) c = seq ops := by
  have h : main (F := F) c
      = (main_part0 (F := F) c >>= fun _ => main_part1 (F := F) c >>= fun _ => main_part2 (F := F) c >>= fun _ => main_part3 (F := F) c >>= fun _ => main_part4 (F := F) c >>= fun _ => main_part5 (F := F) c >>= fun _ => main_part6 (F := F) c >>= fun _ => main_part7 (F := F) c >>= fun _ => main_part8 (F := F) c >>= fun _ => main_part9 (F := F) c >>= fun _ => main_part10 (F := F) c >>= fun _ => main_part11 (F := F) c >>= fun _ => main_part12 (F := F) c) := rfl
  rw [h, part0_eq, part1_eq, part2_eq, part3_eq, part4_eq, part5_eq, part6_eq, part7_eq, part8_eq, part9_eq, part10_eq, part11_eq, part12_eq]
  simp only [ops, seq_append, bind_assoc]

/-- Every operation touches TensorCore references only. -/
theorem ops_sub : (ops : List (HloOp τ sig (Elt F))).Forall fun op => op.bufs ⊆ tcRefs τ sig :=
  forall_append seg0_sub (forall_append seg1_sub (forall_append seg2_sub (forall_append seg3_sub (forall_append seg4_sub (forall_append seg5_sub (forall_append seg6_sub (forall_append seg7_sub (forall_append seg8_sub (forall_append seg9_sub (forall_append seg10_sub (forall_append seg11_sub (forall_append seg12_sub (forall_append seg13_sub (forall_append seg14_sub (forall_append seg15_sub (forall_append seg16_sub (forall_append seg17_sub (forall_append seg18_sub (forall_append seg19_sub (seg20_sub))))))))))))))))))))

end Cert.RefRun

end
-- ==== Proof.RefRun.lean ====
/-
  The run of the reference program.  @main is the straight line of its 820 host operations (`main_eq`), so every weakly
  fair execution ends with each buffer at the fold of their results over the launch contents (`run_seq`).  The fold is
  taken stage by stage: the constants at the head of the program, then the eight coupling layers, each a fold from the
  valuation the previous stage left.  The arguments, the two index tables and the masks are written by no layer, so
  every stage sees them as the first left them; each layer then turns the previous layer's two results into one more
  step of the coupling, which is how `Cert.RefDefs.Z1 … Z8` and `L1 … L8` are defined.
-/
import proofs.«175251_j80573586473693_2_alg».proof.Proof.RefRunL0
import proofs.«175251_j80573586473693_2_alg».proof.Proof.RefRunL1
import proofs.«175251_j80573586473693_2_alg».proof.Proof.RefRunL2
import proofs.«175251_j80573586473693_2_alg».proof.Proof.RefRunL3
import proofs.«175251_j80573586473693_2_alg».proof.Proof.RefRunL4
import proofs.«175251_j80573586473693_2_alg».proof.Proof.RefRunL5
import proofs.«175251_j80573586473693_2_alg».proof.Proof.RefRunL6
import proofs.«175251_j80573586473693_2_alg».proof.Proof.RefRunL7
import proofs.«175251_j80573586473693_2_alg».proof.Proof.RefRunMain
import proofs.«175251_j80573586473693_2_alg».proof.Proof.Gen.ReferenceIdeal

noncomputable section

namespace Cert.RefRun

open Cert.ReferenceIdeal Cert.RefDefs Idealize.ShloMosaic Idealize.ShloMosaic.TcCoe Idealize.SL.Sem Idealize.ShloMosaic.StableHlo

variable {F : FTy → Type} [FloatOps F] [Facts]

open Facts₀ Facts

/-! ## The side conditions of the run -/

/-- The signature has no semaphore. -/
theorem scopedSems_eq : (Finset.univ.filter fun sm : SemLoc sig => sm.isScoped .tc) = ∅ := by decide

/-- No TensorCore buffer is scoped: every one is a tensor value in HBM, or in a space the signature scopes nothing of. -/
theorem scopedRefs_eq : (Finset.univ.filter fun b : Ref sig .tc => b.isScoped) = ∅ :=
  Finset.filter_eq_empty_iff.mpr fun b _ => by
    obtain ⟨sp, i, h⟩ := b
    rcases sp with _ | _ | _ | _ <;> first | exact Bool.false_ne_true | (cases h)

/-- The references the 820 operations write, in order. -/
abbrev ops_w : List (Ref sig .tc) :=
  seg0_w ++ (seg1_w ++ (seg2_w ++ (seg3_w ++ (seg4_w ++ (seg5_w ++ (seg6_w ++ (seg7_w ++ (seg8_w ++ (seg9_w ++ (seg10_w ++ (seg11_w ++ (seg12_w ++ (seg13_w ++ (seg14_w ++ (seg15_w ++ (seg16_w ++ (seg17_w ++ (seg18_w ++ (seg19_w ++ (seg20_w))))))))))))))))))))

/-- The operations write them one each, and determine what they write. -/
theorem ops_writes : Writes (ops : List (HloOp τ sig (Elt F))) ops_w :=
  Writes.append seg0_writes (Writes.append seg1_writes (Writes.append seg2_writes (Writes.append seg3_writes (Writes.append seg4_writes (Writes.append seg5_writes (Writes.append seg6_writes (Writes.append seg7_writes (Writes.append seg8_writes (Writes.append seg9_writes (Writes.append seg10_writes (Writes.append seg11_writes (Writes.append seg12_writes (Writes.append seg13_writes (Writes.append seg14_writes (Writes.append seg15_writes (Writes.append seg16_writes (Writes.append seg17_writes (Writes.append seg18_writes (Writes.append seg19_writes (seg20_writes))))))))))))))))))))

/-! ## The fold, stage by stage -/

/-- The valuation after the constants at the head of the program. -/
abbrev st0 (V : Valuation τ sig (Elt F)) : Valuation τ sig (Elt F) := after seg0 V
/-- The valuation after layer 0. -/
abbrev st1 (V : Valuation τ sig (Elt F)) : Valuation τ sig (Elt F) := lay0 (st0 V)
/-- The valuation after layer 1. -/
abbrev st2 (V : Valuation τ sig (Elt F)) : Valuation τ sig (Elt F) := lay1 (st1 V)
/-- The valuation after layer 2. -/
abbrev st3 (V : Valuation τ sig (Elt F)) : Valuation τ sig (Elt F) := lay2 (st2 V)
/-- The valuation after layer 3. -/
abbrev st4 (V : Valuation τ sig (Elt F)) : Valuation τ sig (Elt F) := lay3 (st3 V)
/-- The valuation after layer 4. -/
abbrev st5 (V : Valuation τ sig (Elt F)) : Valuation τ sig (Elt F) := lay4 (st4 V)
/-- The valuation after layer 5. -/
abbrev st6 (V : Valuation τ sig (Elt F)) : Valuation τ sig (Elt F) := lay5 (st5 V)
/-- The valuation after layer 6. -/
abbrev st7 (V : Valuation τ sig (Elt F)) : Valuation τ sig (Elt F) := lay6 (st6 V)
/-- The valuation after layer 7. -/
abbrev st8 (V : Valuation τ sig (Elt F)) : Valuation τ sig (Elt F) := lay7 (st7 V)

/-- The fold over all the operations is the last stage. -/
theorem after_ops (V : Valuation τ sig (Elt F)) : after ops V = st8 V := by
  simp only [ops, after_append, st8, st7, st6, st5, st4, st3, st2, st1, st0, lay7, lay6, lay5, lay4, lay3, lay2, lay1, lay0]

/-- The head of the program writes no argument. -/
theorem st0_arg (V : Valuation τ sig (Elt F)) {r : Ref sig .tc} (hr : r ∉ seg0_w) :
    st0 V (Proc.devRef .tc r) = V (Proc.devRef .tc r) := seg0_writes.frame V hr

/-- Stage 0 holds the arguments, tables and masks as the head of the program left them. -/
theorem st0_keeps (V : Valuation τ sig (Elt F)) : Keeps (st0 V) (st0 V) :=
  fun _ _ => rfl
/-- Stage 1 holds the arguments, tables and masks as the head of the program left them. -/
theorem st1_keeps (V : Valuation τ sig (Elt F)) : Keeps (st1 V) (st0 V) :=
  lay0_keeps (st0_keeps V)
/-- Stage 2 holds the arguments, tables and masks as the head of the program left them. -/
theorem st2_keeps (V : Valuation τ sig (Elt F)) : Keeps (st2 V) (st0 V) :=
  lay1_keeps (st1_keeps V)
/-- Stage 3 holds the arguments, tables and masks as the head of the program left them. -/
theorem st3_keeps (V : Valuation τ sig (Elt F)) : Keeps (st3 V) (st0 V) :=
  lay2_keeps (st2_keeps V)
/-- Stage 4 holds the arguments, tables and masks as the head of the program left them. -/
theorem st4_keeps (V : Valuation τ sig (Elt F)) : Keeps (st4 V) (st0 V) :=
  lay3_keeps (st3_keeps V)
/-- Stage 5 holds the arguments, tables and masks as the head of the program left them. -/
theorem st5_keeps (V : Valuation τ sig (Elt F)) : Keeps (st5 V) (st0 V) :=
  lay4_keeps (st4_keeps V)
/-- Stage 6 holds the arguments, tables and masks as the head of the program left them. -/
theorem st6_keeps (V : Valuation τ sig (Elt F)) : Keeps (st6 V) (st0 V) :=
  lay5_keeps (st5_keeps V)
/-- Stage 7 holds the arguments, tables and masks as the head of the program left them. -/
theorem st7_keeps (V : Valuation τ sig (Elt F)) : Keeps (st7 V) (st0 V) :=
  lay6_keeps (st6_keeps V)
/-- Stage 8 holds the arguments, tables and masks as the head of the program left them. -/
theorem st8_keeps (V : Valuation τ sig (Elt F)) : Keeps (st8 V) (st0 V) :=
  lay7_keeps (st7_keeps V)

/-- At every stage each argument is the launch's. -/
theorem st_args (V : Valuation τ sig (Elt F)) {W : Valuation τ sig (Elt F)} (hW : Keeps W (st0 V)) :
    W (main_arg0 : DevRef τ sig) = V (main_arg0 : DevRef τ sig)
    ∧ W (main_arg1 : DevRef τ sig) = V (main_arg1 : DevRef τ sig)
    ∧ W (main_arg2 : DevRef τ sig) = V (main_arg2 : DevRef τ sig)
    ∧ W (main_arg3 : DevRef τ sig) = V (main_arg3 : DevRef τ sig)
    ∧ W (main_arg4 : DevRef τ sig) = V (main_arg4 : DevRef τ sig)
    ∧ W (main_arg5 : DevRef τ sig) = V (main_arg5 : DevRef τ sig)
    ∧ W (main_arg6 : DevRef τ sig) = V (main_arg6 : DevRef τ sig)
    ∧ W (main_arg7 : DevRef τ sig) = V (main_arg7 : DevRef τ sig)
    ∧ W (main_arg8 : DevRef τ sig) = V (main_arg8 : DevRef τ sig)
    ∧ W (main_arg9 : DevRef τ sig) = V (main_arg9 : DevRef τ sig)
    ∧ W (main_arg10 : DevRef τ sig) = V (main_arg10 : DevRef τ sig)
    ∧ W (main_arg11 : DevRef τ sig) = V (main_arg11 : DevRef τ sig)
    ∧ W (main_arg12 : DevRef τ sig) = V (main_arg12 : DevRef τ sig)
    ∧ W (main_arg13 : DevRef τ sig) = V (main_arg13 : DevRef τ sig)
    ∧ W (main_arg14 : DevRef τ sig) = V (main_arg14 : DevRef τ sig) :=
  ⟨(hW main_arg0 (by decide)).trans (st0_arg V (by decide)),
   (hW main_arg1 (by decide)).trans (st0_arg V (by decide)),
   (hW main_arg2 (by decide)).trans (st0_arg V (by decide)),
   (hW main_arg3 (by decide)).trans (st0_arg V (by decide)),
   (hW main_arg4 (by decide)).trans (st0_arg V (by decide)),
   (hW main_arg5 (by decide)).trans (st0_arg V (by decide)),
   (hW main_arg6 (by decide)).trans (st0_arg V (by decide)),
   (hW main_arg7 (by decide)).trans (st0_arg V (by decide)),
   (hW main_arg8 (by decide)).trans (st0_arg V (by decide)),
   (hW main_arg9 (by decide)).trans (st0_arg V (by decide)),
   (hW main_arg10 (by decide)).trans (st0_arg V (by decide)),
   (hW main_arg11 (by decide)).trans (st0_arg V (by decide)),
   (hW main_arg12 (by decide)).trans (st0_arg V (by decide)),
   (hW main_arg13 (by decide)).trans (st0_arg V (by decide)),
   (hW main_arg14 (by decide)).trans (st0_arg V (by decide))⟩

/-- Stage 1, the z buffer: layer 0's step of what stage 0 holds, which is `Z1` of the launch's arguments. -/
theorem z1 (V : Valuation τ sig (Elt F)) :
    st1 V (main_v81 : DevRef τ sig) = Z1 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) := by
  obtain ⟨a0, a1, a2, a3, a4, a5, a6, a7, a8, a9, a10, a11, a12, a13, a14⟩ := st_args V (st0_keeps V)
  rw [show st1 V = lay0 (st0 V) from rfl,
    lay0_z (st0 V) (((st0_keeps V) main_c (by decide)).trans (pre_main_c V)) (((st0_keeps V) main_c_1 (by decide)).trans (pre_main_c_1 V)) (((st0_keeps V) main_c_0 (by decide)).trans (pre_main_c_0 V)) (((st0_keeps V) main_c_2 (by decide)).trans (pre_main_c_2 V)) (((st0_keeps V) main_c_3 (by decide)).trans (pre_main_c_3 V)),
    a0, a1, a2, a3, a4, a5, a6, a7, a8, a9, a10, a11, a12, a13, a14]
  rfl

/-- Stage 1, the accumulated log-scales. -/
theorem l1 (V : Valuation τ sig (Elt F)) :
    st1 V (main_v86 : DevRef τ sig) = L1 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) := by
  obtain ⟨a0, a1, a2, a3, a4, a5, a6, a7, a8, a9, a10, a11, a12, a13, a14⟩ := st_args V (st0_keeps V)
  rw [show st1 V = lay0 (st0 V) from rfl,
    lay0_l (st0 V) (((st0_keeps V) main_c (by decide)).trans (pre_main_c V)) (((st0_keeps V) main_c_1 (by decide)).trans (pre_main_c_1 V)) (((st0_keeps V) main_c_2 (by decide)).trans (pre_main_c_2 V)) (((st0_keeps V) main_c_4 (by decide)).trans (pre_main_c_4 V)),
    a0, show st0 V (main_v0 : DevRef τ sig) = L0 (F := F) from pre_main_v0 V, a7, a8, a9, a10, a11, a12, a13, a14]
  rfl

/-- Stage 2, the z buffer: layer 1's step of what stage 1 holds, which is `Z2` of the launch's arguments. -/
theorem z2 (V : Valuation τ sig (Elt F)) :
    st2 V (main_v167 : DevRef τ sig) = Z2 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) := by
  obtain ⟨a0, a1, a2, a3, a4, a5, a6, a7, a8, a9, a10, a11, a12, a13, a14⟩ := st_args V (st1_keeps V)
  rw [show st2 V = lay1 (st1 V) from rfl,
    lay1_z (st1 V) (((st1_keeps V) main_c (by decide)).trans (pre_main_c V)) (((st1_keeps V) main_c_1 (by decide)).trans (pre_main_c_1 V)) (((st1_keeps V) main_c_5 (by decide)).trans (pre_main_c_5 V)) (((st1_keeps V) main_c_6 (by decide)).trans (pre_main_c_6 V)) (((st1_keeps V) main_c_7 (by decide)).trans (pre_main_c_7 V)),
    z1 V, a1, a2, a3, a4, a5, a6, a7, a8, a9, a10, a11, a12, a13, a14]
  rfl

/-- Stage 2, the accumulated log-scales. -/
theorem l2 (V : Valuation τ sig (Elt F)) :
    st2 V (main_v172 : DevRef τ sig) = L2 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) := by
  obtain ⟨a0, a1, a2, a3, a4, a5, a6, a7, a8, a9, a10, a11, a12, a13, a14⟩ := st_args V (st1_keeps V)
  rw [show st2 V = lay1 (st1 V) from rfl,
    lay1_l (st1 V) (((st1_keeps V) main_c (by decide)).trans (pre_main_c V)) (((st1_keeps V) main_c_1 (by decide)).trans (pre_main_c_1 V)) (((st1_keeps V) main_c_6 (by decide)).trans (pre_main_c_6 V)) (((st1_keeps V) main_c_8 (by decide)).trans (pre_main_c_8 V)),
    z1 V, l1 V, a7, a8, a9, a10, a11, a12, a13, a14]
  rfl

/-- Stage 3, the z buffer: layer 2's step of what stage 2 holds, which is `Z3` of the launch's arguments. -/
theorem z3 (V : Valuation τ sig (Elt F)) :
    st3 V (main_v253 : DevRef τ sig) = Z3 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) := by
  obtain ⟨a0, a1, a2, a3, a4, a5, a6, a7, a8, a9, a10, a11, a12, a13, a14⟩ := st_args V (st2_keeps V)
  rw [show st3 V = lay2 (st2 V) from rfl,
    lay2_z (st2 V) (((st2_keeps V) main_c (by decide)).trans (pre_main_c V)) (((st2_keeps V) main_c_1 (by decide)).trans (pre_main_c_1 V)) (((st2_keeps V) main_c_9 (by decide)).trans (pre_main_c_9 V)) (((st2_keeps V) main_c_10 (by decide)).trans (pre_main_c_10 V)) (((st2_keeps V) main_c_11 (by decide)).trans (pre_main_c_11 V)),
    z2 V, a1, a2, a3, a4, a5, a6, a7, a8, a9, a10, a11, a12, a13, a14]
  rfl

/-- Stage 3, the accumulated log-scales. -/
theorem l3 (V : Valuation τ sig (Elt F)) :
    st3 V (main_v258 : DevRef τ sig) = L3 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) := by
  obtain ⟨a0, a1, a2, a3, a4, a5, a6, a7, a8, a9, a10, a11, a12, a13, a14⟩ := st_args V (st2_keeps V)
  rw [show st3 V = lay2 (st2 V) from rfl,
    lay2_l (st2 V) (((st2_keeps V) main_c (by decide)).trans (pre_main_c V)) (((st2_keeps V) main_c_1 (by decide)).trans (pre_main_c_1 V)) (((st2_keeps V) main_c_10 (by decide)).trans (pre_main_c_10 V)) (((st2_keeps V) main_c_12 (by decide)).trans (pre_main_c_12 V)),
    z2 V, l2 V, a7, a8, a9, a10, a11, a12, a13, a14]
  rfl

/-- Stage 4, the z buffer: layer 3's step of what stage 3 holds, which is `Z4` of the launch's arguments. -/
theorem z4 (V : Valuation τ sig (Elt F)) :
    st4 V (main_v339 : DevRef τ sig) = Z4 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) := by
  obtain ⟨a0, a1, a2, a3, a4, a5, a6, a7, a8, a9, a10, a11, a12, a13, a14⟩ := st_args V (st3_keeps V)
  rw [show st4 V = lay3 (st3 V) from rfl,
    lay3_z (st3 V) (((st3_keeps V) main_c (by decide)).trans (pre_main_c V)) (((st3_keeps V) main_c_1 (by decide)).trans (pre_main_c_1 V)) (((st3_keeps V) main_c_13 (by decide)).trans (pre_main_c_13 V)) (((st3_keeps V) main_c_14 (by decide)).trans (pre_main_c_14 V)) (((st3_keeps V) main_c_15 (by decide)).trans (pre_main_c_15 V)),
    z3 V, a1, a2, a3, a4, a5, a6, a7, a8, a9, a10, a11, a12, a13, a14]
  rfl

/-- Stage 4, the accumulated log-scales. -/
theorem l4 (V : Valuation τ sig (Elt F)) :
    st4 V (main_v344 : DevRef τ sig) = L4 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) := by
  obtain ⟨a0, a1, a2, a3, a4, a5, a6, a7, a8, a9, a10, a11, a12, a13, a14⟩ := st_args V (st3_keeps V)
  rw [show st4 V = lay3 (st3 V) from rfl,
    lay3_l (st3 V) (((st3_keeps V) main_c (by decide)).trans (pre_main_c V)) (((st3_keeps V) main_c_1 (by decide)).trans (pre_main_c_1 V)) (((st3_keeps V) main_c_14 (by decide)).trans (pre_main_c_14 V)) (((st3_keeps V) main_c_16 (by decide)).trans (pre_main_c_16 V)),
    z3 V, l3 V, a7, a8, a9, a10, a11, a12, a13, a14]
  rfl

/-- Stage 5, the z buffer: layer 4's step of what stage 4 holds, which is `Z5` of the launch's arguments. -/
theorem z5 (V : Valuation τ sig (Elt F)) :
    st5 V (main_v425 : DevRef τ sig) = Z5 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) := by
  obtain ⟨a0, a1, a2, a3, a4, a5, a6, a7, a8, a9, a10, a11, a12, a13, a14⟩ := st_args V (st4_keeps V)
  rw [show st5 V = lay4 (st4 V) from rfl,
    lay4_z (st4 V) (((st4_keeps V) main_c (by decide)).trans (pre_main_c V)) (((st4_keeps V) main_c_1 (by decide)).trans (pre_main_c_1 V)) (((st4_keeps V) main_c_17 (by decide)).trans (pre_main_c_17 V)) (((st4_keeps V) main_c_18 (by decide)).trans (pre_main_c_18 V)) (((st4_keeps V) main_c_19 (by decide)).trans (pre_main_c_19 V)),
    z4 V, a1, a2, a3, a4, a5, a6, a7, a8, a9, a10, a11, a12, a13, a14]
  rfl

/-- Stage 5, the accumulated log-scales. -/
theorem l5 (V : Valuation τ sig (Elt F)) :
    st5 V (main_v430 : DevRef τ sig) = L5 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) := by
  obtain ⟨a0, a1, a2, a3, a4, a5, a6, a7, a8, a9, a10, a11, a12, a13, a14⟩ := st_args V (st4_keeps V)
  rw [show st5 V = lay4 (st4 V) from rfl,
    lay4_l (st4 V) (((st4_keeps V) main_c (by decide)).trans (pre_main_c V)) (((st4_keeps V) main_c_1 (by decide)).trans (pre_main_c_1 V)) (((st4_keeps V) main_c_18 (by decide)).trans (pre_main_c_18 V)) (((st4_keeps V) main_c_20 (by decide)).trans (pre_main_c_20 V)),
    z4 V, l4 V, a7, a8, a9, a10, a11, a12, a13, a14]
  rfl

/-- Stage 6, the z buffer: layer 5's step of what stage 5 holds, which is `Z6` of the launch's arguments. -/
theorem z6 (V : Valuation τ sig (Elt F)) :
    st6 V (main_v511 : DevRef τ sig) = Z6 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) := by
  obtain ⟨a0, a1, a2, a3, a4, a5, a6, a7, a8, a9, a10, a11, a12, a13, a14⟩ := st_args V (st5_keeps V)
  rw [show st6 V = lay5 (st5 V) from rfl,
    lay5_z (st5 V) (((st5_keeps V) main_c (by decide)).trans (pre_main_c V)) (((st5_keeps V) main_c_1 (by decide)).trans (pre_main_c_1 V)) (((st5_keeps V) main_c_21 (by decide)).trans (pre_main_c_21 V)) (((st5_keeps V) main_c_22 (by decide)).trans (pre_main_c_22 V)) (((st5_keeps V) main_c_23 (by decide)).trans (pre_main_c_23 V)),
    z5 V, a1, a2, a3, a4, a5, a6, a7, a8, a9, a10, a11, a12, a13, a14]
  rfl

/-- Stage 6, the accumulated log-scales. -/
theorem l6 (V : Valuation τ sig (Elt F)) :
    st6 V (main_v516 : DevRef τ sig) = L6 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) := by
  obtain ⟨a0, a1, a2, a3, a4, a5, a6, a7, a8, a9, a10, a11, a12, a13, a14⟩ := st_args V (st5_keeps V)
  rw [show st6 V = lay5 (st5 V) from rfl,
    lay5_l (st5 V) (((st5_keeps V) main_c (by decide)).trans (pre_main_c V)) (((st5_keeps V) main_c_1 (by decide)).trans (pre_main_c_1 V)) (((st5_keeps V) main_c_22 (by decide)).trans (pre_main_c_22 V)) (((st5_keeps V) main_c_24 (by decide)).trans (pre_main_c_24 V)),
    z5 V, l5 V, a7, a8, a9, a10, a11, a12, a13, a14]
  rfl

/-- Stage 7, the z buffer: layer 6's step of what stage 6 holds, which is `Z7` of the launch's arguments. -/
theorem z7 (V : Valuation τ sig (Elt F)) :
    st7 V (main_v597 : DevRef τ sig) = Z7 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) := by
  obtain ⟨a0, a1, a2, a3, a4, a5, a6, a7, a8, a9, a10, a11, a12, a13, a14⟩ := st_args V (st6_keeps V)
  rw [show st7 V = lay6 (st6 V) from rfl,
    lay6_z (st6 V) (((st6_keeps V) main_c (by decide)).trans (pre_main_c V)) (((st6_keeps V) main_c_1 (by decide)).trans (pre_main_c_1 V)) (((st6_keeps V) main_c_25 (by decide)).trans (pre_main_c_25 V)) (((st6_keeps V) main_c_26 (by decide)).trans (pre_main_c_26 V)) (((st6_keeps V) main_c_27 (by decide)).trans (pre_main_c_27 V)),
    z6 V, a1, a2, a3, a4, a5, a6, a7, a8, a9, a10, a11, a12, a13, a14]
  rfl

/-- Stage 7, the accumulated log-scales. -/
theorem l7 (V : Valuation τ sig (Elt F)) :
    st7 V (main_v602 : DevRef τ sig) = L7 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) := by
  obtain ⟨a0, a1, a2, a3, a4, a5, a6, a7, a8, a9, a10, a11, a12, a13, a14⟩ := st_args V (st6_keeps V)
  rw [show st7 V = lay6 (st6 V) from rfl,
    lay6_l (st6 V) (((st6_keeps V) main_c (by decide)).trans (pre_main_c V)) (((st6_keeps V) main_c_1 (by decide)).trans (pre_main_c_1 V)) (((st6_keeps V) main_c_26 (by decide)).trans (pre_main_c_26 V)) (((st6_keeps V) main_c_28 (by decide)).trans (pre_main_c_28 V)),
    z6 V, l6 V, a7, a8, a9, a10, a11, a12, a13, a14]
  rfl

/-- Stage 8, the z buffer: layer 7's step of what stage 7 holds, which is `Z8` of the launch's arguments. -/
theorem z8 (V : Valuation τ sig (Elt F)) :
    st8 V (main_v683 : DevRef τ sig) = Z8 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) := by
  obtain ⟨a0, a1, a2, a3, a4, a5, a6, a7, a8, a9, a10, a11, a12, a13, a14⟩ := st_args V (st7_keeps V)
  rw [show st8 V = lay7 (st7 V) from rfl,
    lay7_z (st7 V) (((st7_keeps V) main_c (by decide)).trans (pre_main_c V)) (((st7_keeps V) main_c_1 (by decide)).trans (pre_main_c_1 V)) (((st7_keeps V) main_c_29 (by decide)).trans (pre_main_c_29 V)) (((st7_keeps V) main_c_30 (by decide)).trans (pre_main_c_30 V)) (((st7_keeps V) main_c_31 (by decide)).trans (pre_main_c_31 V)),
    z7 V, a1, a2, a3, a4, a5, a6, a7, a8, a9, a10, a11, a12, a13, a14]
  rfl

/-- Stage 8, the accumulated log-scales. -/
theorem l8 (V : Valuation τ sig (Elt F)) :
    st8 V (main_v688 : DevRef τ sig) = L8 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) := by
  obtain ⟨a0, a1, a2, a3, a4, a5, a6, a7, a8, a9, a10, a11, a12, a13, a14⟩ := st_args V (st7_keeps V)
  rw [show st8 V = lay7 (st7 V) from rfl,
    lay7_l (st7 V) (((st7_keeps V) main_c (by decide)).trans (pre_main_c V)) (((st7_keeps V) main_c_1 (by decide)).trans (pre_main_c_1 V)) (((st7_keeps V) main_c_30 (by decide)).trans (pre_main_c_30 V)) (((st7_keeps V) main_c_32 (by decide)).trans (pre_main_c_32 V)),
    z7 V, l7 V, a7, a8, a9, a10, a11, a12, a13, a14]
  rfl

/-! ## The run -/

/-- On every device, from any memory with zero counters: every weakly fair execution of @main terminates with the two
    results at `Z8` and `L8` of the arguments' launch contents, and the arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v683) = Z8 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_v688) = L8 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run (defs (F := F)) _ _).mono (fun _ h c => by
      obtain ⟨a0, a1, a2, a3, a4, a5, a6, a7, a8, a9, a10, a11, a12, a13, a14⟩ :=
        st_args (launchContents m c) (st8_keeps (launchContents m c))
      have e := after_ops (F := F) (launchContents m c)
      exact ⟨(h c main_v683).trans ((congrFun e _).trans (z8 (launchContents m c))),
        (h c main_v688).trans ((congrFun e _).trans (l8 (launchContents m c))),
        (h c main_arg0).trans ((congrFun e _).trans a0),
        (h c main_arg1).trans ((congrFun e _).trans a1),
        (h c main_arg2).trans ((congrFun e _).trans a2),
        (h c main_arg3).trans ((congrFun e _).trans a3),
        (h c main_arg4).trans ((congrFun e _).trans a4),
        (h c main_arg5).trans ((congrFun e _).trans a5),
        (h c main_arg6).trans ((congrFun e _).trans a6),
        (h c main_arg7).trans ((congrFun e _).trans a7),
        (h c main_arg8).trans ((congrFun e _).trans a8),
        (h c main_arg9).trans ((congrFun e _).trans a9),
        (h c main_arg10).trans ((congrFun e _).trans a10),
        (h c main_arg11).trans ((congrFun e _).trans a11),
        (h c main_arg12).trans ((congrFun e _).trans a12),
        (h c main_arg13).trans ((congrFun e _).trans a13),
        (h c main_arg14).trans ((congrFun e _).trans a14)⟩)
    (run_seq scopedRefs_eq scopedSems_eq (defs (F := F)) main (fun _ => ops) main_eq (fun _ => ops_sub) m ρ
      (fun _ => ops_writes.fresh))

end Cert.RefRun

end
-- ==== Proof.lean ====
/-
  An eight-layer affine coupling flow: a fused kernel against its reference, at the ideal values.

  Both programs take `y` (16384 rows, 64 columns) and, for each of eight layers, the parameters of two three-layer
  perceptrons and a scale and a shift row.  Layer `l` reads the columns of one parity, computes from them a translation
  `t` and a log-scale `s = tanh(·) · scale + shift`, replaces the columns of the other parity by `z₀ · exp s + t` and adds `s`
  into the same columns of an array of accumulated log-scales; even layers transform the even columns, odd layers the
  odd ones.  The results are the final `z` and the accumulated log-scales.

  The reference does this on one 16384 × 64 array with a gather and a scatter of 32 columns per layer
  (`Cert.RefDefs`, and its run `Cert.RefRun.run`).  The kernel first moves the even columns to the front and the odd
  ones behind, then handles 1024 rows at a time: it keeps the two halves and the two halves of the log-scales as four
  half-blocks through all eight layers, narrows each perceptron's input and weights to bf16 (which changes nothing when
  floats are extended reals), and stores the halves side by side; the program undoes the column move at the end.

  Why the two agree.  Every operation of a layer acts on each row by itself, so "this half-block holds rows
  `o … o + 1023` of that half of the reference's array" passes from a layer's inputs to its outputs
  (`Cert.RowSteps.Inv.even` / `Inv.odd`, over `Cert.CoupleRows`), the reference's halves after a layer being read off
  its scatter by `Cert.RefHalves`; after eight layers the kernel's stored blocks are rows of `perm` of the reference's
  results (`Cert.BlockRows`), the blocks tile the arrays (`Cert.KernelRun`), and un-permuting `perm z` gives `z`
  (`Cert.Bridge.unperm_perm`).  The two programs apply the same operations to the same numbers in the same order; the
  only arithmetic on the extended reals is in reading the accumulating scatter at a column (the sum over the one update
  landing there is that update; over none it is zero, and `x + 0 = x`), so the precondition (finite inputs) is never
  opened.

  The kernel programs' frames are the frame certificate of each (`GenP.frame`); the reference's frame is its run with
  the results dropped.  The ideal pass rewrote nothing, so `preserves` is `True`.
-/
import proofs.«175251_j80573586473693_2_alg».proof.Defs
import proofs.«175251_j80573586473693_2_alg».proof.Proof.Gen.Kernel
import proofs.«175251_j80573586473693_2_alg».proof.Proof.Gen.KernelIdeal
import proofs.«175251_j80573586473693_2_alg».proof.Proof.Gen.ReferenceIdeal
import proofs.«175251_j80573586473693_2_alg».proof.Proof.Gen.Pre_finite_inputs
import proofs.«175251_j80573586473693_2_alg».proof.Proof.FrameK
import proofs.«175251_j80573586473693_2_alg».proof.Proof.Bridge
import proofs.«175251_j80573586473693_2_alg».proof.Proof.RefRun
import Idealize.ShloMosaic.Adequacy
import Idealize.ShloMosaic.Init

noncomputable section

namespace Cert.Proof

open Idealize.ShloMosaic Idealize.SL.Sem

theorem frame_k : Cert.frame_Kernel := fun m ρ _ => Cert.Kernel.GenP.frame m ρ

theorem frame_ki : Cert.frame_KernelIdeal := fun m ρ _ => Cert.KernelIdeal.GenP.frame m ρ

/-- The reference runs and keeps its arguments: its run, the two results dropped. -/
theorem frame_ri : Cert.frame_ReferenceIdeal := fun m ρ _ =>
  (θ_run (Cert.ReferenceIdeal.defs (F := Ideal)) _ _).mono (fun _ h c => (h c).2.2) (Cert.RefRun.run (F := Ideal) m ρ)

/-- The ideal pass rewrote no operation. -/
theorem preserves : Cert.preserves_Kernel_KernelIdeal := trivial

/-- From memories agreeing on the arguments both programs end with the reference's two final arrays of those
    arguments: the kernel's results are `unperm (perm ·)` of them by its run, the reference's are they by its run, and
    `unperm (perm z) = z`. -/
theorem algebraic : Cert.algebraic_KernelIdeal_ReferenceIdeal := by
  intro m ρ m' ρ' _ hagree
  refine ⟨fun c => Cert.KernelRun.unperm (Cert.RowSteps.perm (Cert.Bridge.Zfin m c)),
    fun c => Cert.KernelRun.unperm (Cert.RowSteps.perm (Cert.Bridge.Lfin m c)),
    Cert.KernelRun.run m ρ (fun c => Cert.RowSteps.perm (Cert.Bridge.Zfin m c)) (fun c => Cert.RowSteps.perm (Cert.Bridge.Lfin m c))
      (Cert.Bridge.stored15 m) (Cert.Bridge.stored16 m), ?_⟩
  refine (θ_run (Cert.ReferenceIdeal.defs (F := Ideal)) _ _).mono (fun _ h c => ⟨?_, ?_, (h c).2.2⟩)
    (Cert.RefRun.run (F := Ideal) m' ρ')
  · rw [(h c).1]
    show _ = Cert.KernelRun.unperm (Cert.RowSteps.perm (Cert.Bridge.Zfin m c))
    rw [Cert.Bridge.unperm_perm]
    unfold Cert.Bridge.Zfin
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2]
  · rw [(h c).2.1]
    show _ = Cert.KernelRun.unperm (Cert.RowSteps.perm (Cert.Bridge.Lfin m c))
    rw [Cert.Bridge.unperm_perm]
    unfold Cert.Bridge.Lfin
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
